-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.named_const.Statement Cert.KernelIdeal.κ "inv_800000" .f32 0x35A7C5AC#32 ((1 / 800000 : ℝ) : EReal)
  ∧ IdealRules.named_const.Statement Cert.KernelIdeal.κ "inv_800000" .f32 0x35A7C5AC#32 ((1 / 800000 : ℝ) : EReal)
  ∧ IdealRules.named_const.Statement Cert.KernelIdeal.κ "inv_800000" .f32 0x35A7C5AC#32 ((1 / 800000 : ℝ) : EReal)
  ∧ IdealRules.named_const.Statement Cert.KernelIdeal.κ "inv_800000" .f32 0x35A7C5AC#32 ((1 / 800000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S128x1 .f32) (main_arg20 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg19
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S128x128 .f32) (main_arg16 : FVec F S128 .f32) (main_arg17 : FVec F S128 .f32) (main_arg18 : FVec F S128 .f32) (main_arg19 : FVec F S128x1 .f32) (main_arg20 : FVec F S1 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x1 .f32) (main_arg20 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128 .f32) (main_arg10 : FVec F S128 .f32) (main_arg11 : FVec F S256x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x1 .f32) (main_arg20 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x1 .f32) (main_arg20 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : IVec S2x800000 32) (main_arg2 : FVec F S800000x128 .f32) (main_arg3 : FVec F S256x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x1 .f32) (main_arg20 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S6400x128 : Shape := ⟨2, ![6400, 128]⟩
abbrev S50000 : Shape := ⟨1, ![50000]⟩
abbrev S50000x1 : Shape := ⟨2, ![50000, 1]⟩
abbrev S5000x128 : Shape := ⟨2, ![5000, 128]⟩
abbrev S1x1 : Shape := ⟨2, ![1, 1]⟩
abbrev S5000x1 : Shape := ⟨2, ![5000, 1]⟩

abbrev nBuf : Space → Nat
  | .hbm => 85
  | .vmem => 88
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S1, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S800000x128, .bf16⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S128x128, .f32⟩
  | .hbm, ⟨67, _⟩ => ⟨S128x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .bf16⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x1, .f32⟩
  | .hbm, ⟨82, _⟩ => ⟨S50000x128, .f32⟩
  | .hbm, ⟨83, _⟩ => ⟨S50000x1, .f32⟩
  | .hbm, ⟨84, _⟩ => ⟨S50000, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S6400x128, .f32⟩
  | .local _ .vmem, ⟨12, _⟩ => ⟨S6400x128, .f32⟩
  | .local _ .vmem, ⟨13, _⟩ => ⟨S6400x128, .f32⟩
  | .local _ .vmem, ⟨14, _⟩ => ⟨S6400x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S6400x128, .bf16⟩
  | .local _ .vmem, ⟨23, _⟩ => ⟨S6400x128, .bf16⟩
  | .local _ .vmem, ⟨24, _⟩ => ⟨S6400x128, .bf16⟩
  | .local _ .vmem, ⟨25, _⟩ => ⟨S6400x128, .bf16⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S6400x128, .bf16⟩
  | .local _ .vmem, ⟨33, _⟩ => ⟨S6400x128, .bf16⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S6400x128, .f32⟩
  | .local _ .vmem, ⟨41, _⟩ => ⟨S6400x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S128x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S128x128, .f32⟩
  | .local _ .vmem, ⟨58, _⟩ => ⟨S128x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .bf16⟩
  | .local _ .vmem, ⟨65, _⟩ => ⟨S5000x128, .bf16⟩
  | .local _ .vmem, ⟨66, _⟩ => ⟨S5000x128, .bf16⟩
  | .local _ .vmem, ⟨67, _⟩ => ⟨S5000x128, .bf16⟩
  | .local _ .vmem, ⟨68, _⟩ => ⟨S128x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S5000x128, .bf16⟩
  | .local _ .vmem, ⟨75, _⟩ => ⟨S5000x128, .bf16⟩
  | .local _ .vmem, ⟨76, _⟩ => ⟨S128x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S128x1, .f32⟩
  | .local _ .vmem, ⟨83, _⟩ => ⟨S1x1, .f32⟩
  | .local _ .vmem, ⟨84, _⟩ => ⟨S5000x128, .f32⟩
  | .local _ .vmem, ⟨85, _⟩ => ⟨S5000x128, .f32⟩
  | .local _ .vmem, ⟨86, _⟩ => ⟨S5000x1, .f32⟩
  | .local _ .vmem, ⟨87, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14_0 : Ref sig .tc := ⟨.hbm, 37, rfl⟩
abbrev main_v14_1 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20_0 : Ref sig .tc := ⟨.hbm, 44, rfl⟩
abbrev main_v20_1 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_1 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40_0 : Ref sig .tc := ⟨.hbm, 69, rfl⟩
abbrev main_v40_1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46_0 : Ref sig .tc := ⟨.hbm, 76, rfl⟩
abbrev main_v46_1 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51_0 : Ref sig .tc := ⟨.hbm, 82, rfl⟩
abbrev main_v51_1 : Ref sig .tc := ⟨.hbm, 83, rfl⟩
abbrev main_v52 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_scratch0 : Ref sig .tc := ⟨.vmem, 51, rfl⟩
abbrev cc4_scratch1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg8_0 : Ref sig .tc := ⟨.vmem, 63, rfl⟩
abbrev cc5_stg9_0 : Ref sig .tc := ⟨.vmem, 64, rfl⟩
abbrev cc5_stg9_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_scratch0 : Ref sig .tc := ⟨.vmem, 72, rfl⟩
abbrev cc6_scratch1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg4_0 : Ref sig .tc := ⟨.vmem, 79, rfl⟩
abbrev cc7_stg5_0 : Ref sig .tc := ⟨.vmem, 80, rfl⟩
abbrev cc7_stg6_0 : Ref sig .tc := ⟨.vmem, 81, rfl⟩
abbrev cc7_stg7_0 : Ref sig .tc := ⟨.vmem, 82, rfl⟩
abbrev cc7_stg8_0 : Ref sig .tc := ⟨.vmem, 83, rfl⟩
abbrev cc7_stg9_0 : Ref sig .tc := ⟨.vmem, 84, rfl⟩
abbrev cc7_stg9_1 : Ref sig .tc := ⟨.vmem, 85, rfl⟩
abbrev cc7_stg10_0 : Ref sig .tc := ⟨.vmem, 86, rfl⟩
abbrev cc7_stg10_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem7_0 : DmaSem sig := 56
abbrev cc5_sem8_0 : DmaSem sig := 57
abbrev cc5_sem9_0 : DmaSem sig := 58
abbrev cc5_sem9_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem4_0 : DmaSem sig := 71
abbrev cc7_sem5_0 : DmaSem sig := 72
abbrev cc7_sem6_0 : DmaSem sig := 73
abbrev cc7_sem7_0 : DmaSem sig := 74
abbrev cc7_sem8_0 : DmaSem sig := 75
abbrev cc7_sem9_0 : DmaSem sig := 76
abbrev cc7_sem9_1 : DmaSem sig := 77
abbrev cc7_sem10_0 : DmaSem sig := 78
abbrev cc7_sem10_1 : DmaSem sig := 79

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v36 : BitVec 1 := Scalar.cmpi .eq arg0 c124_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S6400x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![125], ![false]⟩

def k2_cond2 (i : grid2.Coords) : BitVec 1 :=
  let arg0 : BitVec 32 := BitVec.ofNat 32 (i 0).val
  let c124_i32 : BitVec 32 := 124#32
  let v27 : BitVec 1 := Scalar.cmpi .eq arg0 c124_i32
  let v28 : BitVec 32 := Scalar.extui v27
  let c0_i32_16 : BitVec 32 := 0#32
  let v29 : BitVec 1 := Scalar.cmpi .ne v28 c0_i32_16
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S6400x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S6400x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v36 : BitVec 1 := Scalar.cmpi .eq arg0 c9_i32
  let v37 : BitVec 32 := Scalar.extui v36
  let c0_i32_21 : BitVec 32 := 0#32
  let v38 : BitVec 1 := Scalar.cmpi .ne v37 c0_i32_21
  v38

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x128 .bf16 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_16 : BitVec 32 := 0#32
  let v29 : BitVec 1 := Scalar.cmpi .ne v28 c0_i32_16
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x1 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S5000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 2 → Memref sig .tc .vmem S5000x1 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S6400x128 : S1x128.Broadcasts S6400x128
  shapeCasts_S6400x128_S6400x128 : S6400x128.ShapeCasts S6400x128
  reduces_S6400x128_S128 : S6400x128.Reduces [0] S128
  packedbf16_S6400x128_S6400x128_0_0 : (Rect.unit (s := S6400x128) ![0, 0] S6400x128.size inb_S6400x128_S6400x128_0_0).PackedRows (EltTy.packing .bf16)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  reduces_S5000x128_S128 : S5000x128.Reduces [0] S128
  packedbf16_S5000x128_S5000x128_0_0 : (Rect.unit (s := S5000x128) ![0, 0] S5000x128.size inb_S5000x128_S5000x128_0_0).PackedRows (EltTy.packing .bf16)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S800000x128.size a
  hwx1_1 : ∀ i : grid1.Coords, EltTy.bits .f32 = 32 ∨ (Rect.block (s := S800000x128) S6400x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S6400x128.size a ≤ S800000x128.size a
  hwx1_9 : ∀ i : grid1.Coords, EltTy.bits .bf16 = 32 ∨ (Rect.block (s := S800000x128) S6400x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S800000x128.size a
  hwx2_0 : ∀ i : grid2.Coords, EltTy.bits .bf16 = 32 ∨ (Rect.block (s := S800000x128) S6400x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x128.size a ≤ S800000x128.size a
  hwx3_0 : ∀ i : grid3.Coords, EltTy.bits .bf16 = 32 ∨ (Rect.block (s := S800000x128) S6400x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S6400x128.size a ≤ S800000x128.size a
  hwx3_7 : ∀ i : grid3.Coords, EltTy.bits .f32 = 32 ∨ (Rect.block (s := S800000x128) S6400x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S50000x128.size a
  hwx5_9 : ∀ i : grid5.Coords, EltTy.bits .bf16 = 32 ∨ (Rect.block (s := S50000x128) S5000x128.size (cc5_transform_9 i) (hinb5_9 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .bf16 = 32 ∨ (Rect.block (s := S50000x128) S5000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .bf16 = 32 ∨ (Rect.block (s := S50000x128) S5000x128.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128x1.size a ≤ S128x1.size a
  hwx7_7 : ∀ i : grid7.Coords, EltTy.bits .f32 = 32 ∨ (Rect.block (s := S128x1) S128x1.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x1.size a ≤ S1x1.size a
  hwx7_8 : ∀ i : grid7.Coords, EltTy.bits .f32 = 32 ∨ (Rect.block (s := S1x1) S1x1.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S5000x128.size a ≤ S50000x128.size a
  hwx7_9 : ∀ i : grid7.Coords, EltTy.bits .f32 = 32 ∨ (Rect.block (s := S50000x128) S5000x128.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S5000x1.size a ≤ S50000x1.size a
  hwx7_10 : ∀ i : grid7.Coords, EltTy.bits .f32 = 32 ∨ (Rect.block (s := S50000x1) S5000x1.size (cc7_transform_10 i) (hinb7_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg2) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg2) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14_0) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14_1) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S6400x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v18) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20_0) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20_1) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v18) S6400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v20_0) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v20_1) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v24) S6400x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v39) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v40_0) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v40_1) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_arg0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v37) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v38) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v41) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v42) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v43) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v40_0) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v40_1) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v44) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v44) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v45) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v46_0) S1x128.size cc6_transform_3 reads6_3 true true 1 stage6_3 sem6_3
    hrank6 hreads6_3 hinb6_3 nbuf6_3 (Memref.isWhole_whole _) hwx6_3 hstage6_3

abbrev win6_4 : Pipeline.Window sig grid6 :=
  Pipeline.Window.ofSpec (Memref.whole main_v46_1) S1x128.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun i => !(k6_cond2 i == 1#1) | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v44) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg15) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v47) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v48) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v49) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v46_0) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v46_1) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg19) S128x1.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v50) S1x1.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v51_0) S5000x128.size cc7_transform_9 reads7_9 true false 2 stage7_9 sem7_9
    hrank7 hreads7_9 hinb7_9 nbuf7_9 (Memref.isWhole_whole _) hwx7_9 hstage7_9

abbrev win7_10 : Pipeline.Window sig grid7 :=
  Pipeline.Window.ofSpec (Memref.whole main_v51_1) S5000x1.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩
abbrev S1x1 : Shape := ⟨2, ![1, 1]⟩

abbrev nBuf : Space → Nat
  | .hbm => 269
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S256x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S256x128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128x1, .f32⟩
  | 20 => ⟨S1, .f32⟩
  | 21 => ⟨S1x800000, .i32⟩
  | 22 => ⟨S800000, .i32⟩
  | 23 => ⟨S1x800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x256, .f32⟩
  | 35 => ⟨S800000x128, .f32⟩
  | 36 => ⟨S1x128, .f32⟩
  | 37 => ⟨S800000x128, .f32⟩
  | 38 => ⟨S800000x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S800000x128, .f32⟩
  | 52 => ⟨S800000x128, .f32⟩
  | 53 => ⟨S800000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S800000x128, .f32⟩
  | 69 => ⟨S800000x128, .f32⟩
  | 70 => ⟨S_, .f32⟩
  | 71 => ⟨S128, .f32⟩
  | 72 => ⟨S128, .f32⟩
  | 73 => ⟨S128, .f32⟩
  | 74 => ⟨S1x128, .f32⟩
  | 75 => ⟨S800000x128, .f32⟩
  | 76 => ⟨S800000x128, .f32⟩
  | 77 => ⟨S1x128, .f32⟩
  | 78 => ⟨S800000x128, .f32⟩
  | 79 => ⟨S800000x128, .f32⟩
  | 80 => ⟨S1x128, .f32⟩
  | 81 => ⟨S800000x128, .f32⟩
  | 82 => ⟨S800000x128, .f32⟩
  | 83 => ⟨S_, .f32⟩
  | 84 => ⟨S800000x128, .f32⟩
  | 85 => ⟨S800000x128, .f32⟩
  | 86 => ⟨S800000x128, .f32⟩
  | 87 => ⟨S1x128, .f32⟩
  | 88 => ⟨S800000x128, .f32⟩
  | 89 => ⟨S800000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S800000x128, .f32⟩
  | 103 => ⟨S800000x128, .f32⟩
  | 104 => ⟨S800000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S800000x128, .f32⟩
  | 120 => ⟨S800000x128, .f32⟩
  | 121 => ⟨S_, .f32⟩
  | 122 => ⟨S128, .f32⟩
  | 123 => ⟨S128, .f32⟩
  | 124 => ⟨S128, .f32⟩
  | 125 => ⟨S1x128, .f32⟩
  | 126 => ⟨S800000x128, .f32⟩
  | 127 => ⟨S800000x128, .f32⟩
  | _ => ⟨S50000x128, .f32⟩

abbrev hbmTy0_1 (i : Nat) : BufTy := match i % 128 with
  | 0 => ⟨S1x128, .f32⟩
  | 1 => ⟨S800000x128, .f32⟩
  | 2 => ⟨S800000x128, .f32⟩
  | 3 => ⟨S1x128, .f32⟩
  | 4 => ⟨S800000x128, .f32⟩
  | 5 => ⟨S800000x128, .f32⟩
  | 6 => ⟨S_, .f32⟩
  | 7 => ⟨S800000x128, .f32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x128, .f32⟩
  | 24 => ⟨S50000x128, .f32⟩
  | 25 => ⟨S50000x256, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S50000x128, .f32⟩
  | 43 => ⟨S50000x128, .f32⟩
  | 44 => ⟨S50000x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S_, .f32⟩
  | 62 => ⟨S128, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S128, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_2 (i : Nat) : BufTy := match i % 128 with
  | 0 => ⟨S50000x1, .f32⟩
  | 1 => ⟨S1x1, .f32⟩
  | 2 => ⟨S50000x1, .f32⟩
  | 3 => ⟨S50000x1, .f32⟩
  | 4 => ⟨S50000x1, .f32⟩
  | 5 => ⟨S50000x1, .f32⟩
  | 6 => ⟨S_, .f32⟩
  | 7 => ⟨S50000x1, .f32⟩
  | 8 => ⟨S50000x1, .f32⟩
  | 9 => ⟨S_, .f32⟩
  | 10 => ⟨S50000x1, .f32⟩
  | 11 => ⟨S50000x1, .f32⟩
  | 12 => ⟨S50000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_3 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_call1_cst : Ref sig .tc := ⟨.hbm, 83, rfl⟩
abbrev main_call1_v0 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_cst_4 : Ref sig .tc := ⟨.hbm, 90, rfl⟩
abbrev main_v40 : Ref sig .tc := ⟨.hbm, 91, rfl⟩
abbrev main_cst_5 : Ref sig .tc := ⟨.hbm, 92, rfl⟩
abbrev main_v41 : Ref sig .tc := ⟨.hbm, 93, rfl⟩
abbrev main_v42 : Ref sig .tc := ⟨.hbm, 94, rfl⟩
abbrev main_c_6 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_cst_3 : Ref sig .tc := ⟨.hbm, 112, rfl⟩
abbrev main_call2_v12 : Ref sig .tc := ⟨.hbm, 113, rfl⟩
abbrev main_call2_cst_4 : Ref sig .tc := ⟨.hbm, 114, rfl⟩
abbrev main_call2_call0_v0 : Ref sig .tc := ⟨.hbm, 115, rfl⟩
abbrev main_call2_call0_v1 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_cst_7 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_call3_cst : Ref sig .tc := ⟨.hbm, 134, rfl⟩
abbrev main_call3_v0 : Ref sig .tc := ⟨.hbm, 135, rfl⟩
abbrev main_v59 : Ref sig .tc := ⟨.hbm, 136, rfl⟩
abbrev main_cst_8 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_cst_9 : Ref sig .tc := ⟨.hbm, 141, rfl⟩
abbrev main_v63 : Ref sig .tc := ⟨.hbm, 142, rfl⟩
abbrev main_cst_10 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_cst_11 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_12 : Ref sig .tc := ⟨.hbm, 158, rfl⟩
abbrev main_v77 : Ref sig .tc := ⟨.hbm, 159, rfl⟩
abbrev main_cst_13 : Ref sig .tc := ⟨.hbm, 160, rfl⟩
abbrev main_v78 : Ref sig .tc := ⟨.hbm, 161, rfl⟩
abbrev main_v79 : Ref sig .tc := ⟨.hbm, 162, rfl⟩
abbrev main_c_14 : Ref sig .tc := ⟨.hbm, 163, rfl⟩
abbrev main_call4_cst : Ref sig .tc := ⟨.hbm, 164, rfl⟩
abbrev main_call4_v0 : Ref sig .tc := ⟨.hbm, 165, rfl⟩
abbrev main_call4_v1 : Ref sig .tc := ⟨.hbm, 166, rfl⟩
abbrev main_call4_cst_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_v6 : Ref sig .tc := ⟨.hbm, 172, rfl⟩
abbrev main_call4_v7 : Ref sig .tc := ⟨.hbm, 173, rfl⟩
abbrev main_call4_cst_1 : Ref sig .tc := ⟨.hbm, 174, rfl⟩
abbrev main_call4_v8 : Ref sig .tc := ⟨.hbm, 175, rfl⟩
abbrev main_call4_cst_2 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_cst_3 : Ref sig .tc := ⟨.hbm, 180, rfl⟩
abbrev main_call4_v12 : Ref sig .tc := ⟨.hbm, 181, rfl⟩
abbrev main_call4_cst_4 : Ref sig .tc := ⟨.hbm, 182, rfl⟩
abbrev main_call4_call0_v0 : Ref sig .tc := ⟨.hbm, 183, rfl⟩
abbrev main_call4_call0_v1 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_cst_15 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_call5_cst : Ref sig .tc := ⟨.hbm, 202, rfl⟩
abbrev main_call5_v0 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_cst_16 : Ref sig .tc := ⟨.hbm, 209, rfl⟩
abbrev main_v101 : Ref sig .tc := ⟨.hbm, 210, rfl⟩
abbrev main_cst_17 : Ref sig .tc := ⟨.hbm, 211, rfl⟩
abbrev main_v102 : Ref sig .tc := ⟨.hbm, 212, rfl⟩
abbrev main_v103 : Ref sig .tc := ⟨.hbm, 213, rfl⟩
abbrev main_c_18 : Ref sig .tc := ⟨.hbm, 214, rfl⟩
abbrev main_call6_cst : Ref sig .tc := ⟨.hbm, 215, rfl⟩
abbrev main_call6_v0 : Ref sig .tc := ⟨.hbm, 216, rfl⟩
abbrev main_call6_v1 : Ref sig .tc := ⟨.hbm, 217, rfl⟩
abbrev main_call6_cst_0 : Ref sig .tc := ⟨.hbm, 218, rfl⟩
abbrev main_call6_v2 : Ref sig .tc := ⟨.hbm, 219, rfl⟩
abbrev main_call6_v3 : Ref sig .tc := ⟨.hbm, 220, rfl⟩
abbrev main_call6_v4 : Ref sig .tc := ⟨.hbm, 221, rfl⟩
abbrev main_call6_v5 : Ref sig .tc := ⟨.hbm, 222, rfl⟩
abbrev main_call6_v6 : Ref sig .tc := ⟨.hbm, 223, rfl⟩
abbrev main_call6_v7 : Ref sig .tc := ⟨.hbm, 224, rfl⟩
abbrev main_call6_cst_1 : Ref sig .tc := ⟨.hbm, 225, rfl⟩
abbrev main_call6_v8 : Ref sig .tc := ⟨.hbm, 226, rfl⟩
abbrev main_call6_cst_2 : Ref sig .tc := ⟨.hbm, 227, rfl⟩
abbrev main_call6_v9 : Ref sig .tc := ⟨.hbm, 228, rfl⟩
abbrev main_call6_v10 : Ref sig .tc := ⟨.hbm, 229, rfl⟩
abbrev main_call6_v11 : Ref sig .tc := ⟨.hbm, 230, rfl⟩
abbrev main_call6_cst_3 : Ref sig .tc := ⟨.hbm, 231, rfl⟩
abbrev main_call6_v12 : Ref sig .tc := ⟨.hbm, 232, rfl⟩
abbrev main_call6_cst_4 : Ref sig .tc := ⟨.hbm, 233, rfl⟩
abbrev main_call6_call0_v0 : Ref sig .tc := ⟨.hbm, 234, rfl⟩
abbrev main_call6_call0_v1 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_cst_19 : Ref sig .tc := ⟨.hbm, 240, rfl⟩
abbrev main_v108 : Ref sig .tc := ⟨.hbm, 241, rfl⟩
abbrev main_v109 : Ref sig .tc := ⟨.hbm, 242, rfl⟩
abbrev main_v110 : Ref sig .tc := ⟨.hbm, 243, rfl⟩
abbrev main_v111 : Ref sig .tc := ⟨.hbm, 244, rfl⟩
abbrev main_v112 : Ref sig .tc := ⟨.hbm, 245, rfl⟩
abbrev main_v113 : Ref sig .tc := ⟨.hbm, 246, rfl⟩
abbrev main_v114 : Ref sig .tc := ⟨.hbm, 247, rfl⟩
abbrev main_v115 : Ref sig .tc := ⟨.hbm, 248, rfl⟩
abbrev main_v116 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_call7_cst : Ref sig .tc := ⟨.hbm, 253, rfl⟩
abbrev main_call7_v0 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_cst_20 : Ref sig .tc := ⟨.hbm, 262, rfl⟩
abbrev main_v127 : Ref sig .tc := ⟨.hbm, 263, rfl⟩
abbrev main_v128 : Ref sig .tc := ⟨.hbm, 264, rfl⟩
abbrev main_cst_21 : Ref sig .tc := ⟨.hbm, 265, rfl⟩
abbrev main_v129 : Ref sig .tc := ⟨.hbm, 266, rfl⟩
abbrev main_v130 : Ref sig .tc := ⟨.hbm, 267, rfl⟩
abbrev main_v131 : Ref sig .tc := ⟨.hbm, 268, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S128_d0 : S50000x128.ReducesTo [0] S128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.K.Chain.lean ====
import proofs.«110491_j38809324487019_2_alg».proof.Proof.Gen.Kernel.Regions
import proofs.«110491_j38809324487019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core: what a region is entered from. -/
abbrev VT (F : FTy → Type) : Type := (c : Dev nD) → (b : Ref sig .tc) → Buf (Elt F) ((c : Thread nD τ).loc b)

abbrev L0 : GSem nD τ sig → Finset Unit := fun _ => ∅
abbrev lv0 : GSem nD τ sig → Unit → ℕ := fun _ _ => 0
/-- What rides beside the buffers through every segment: the core's generator register at some state and its
    debts to the other cores, none. -/
abbrev Rr (c : Dev nD) : sProp 𝕄 := iprop((∃ r, prngReg c r) ∗ ∃ W, owes (c : Thread nD τ) (0 : CellTallies nD τ sig Unit) W)

section RegOf
variable (pdats : (p : Fin 8) → (c : Dev nD) → Dat τ (Elt F) Unit ℕ (UR sig nD τ) ℕ (cfgs p) c)

set_option backward.isDefEq.respectTransparency.types false in
/-- A kernel region as a segment of the program's run, from its proof data: entered with every unscoped buffer at
    the contents `Vin`, left with them at `Vout` — the region's arrays at what its write-backs leave, every other
    buffer as entered. The region's arrays are taken out of the unscoped buffers at entry and put back at exit; the
    generator register passes through the pipeline's invariant; no core owes another anything. -/
def regOf (p : Fin 8) (lf : Pipeline.LaunchFacts (nD := nD) (τ := τ) cfgs p)
    (Vin Vout : Dev nD → Valuation τ sig (Elt F))
    (hA : ∀ c w, (pdats p c).A w = Vin c (Pipeline.arrRef (cfgs p).spec w))
    (hbody : ∀ c, BodyObligation (pdats p c) (defs₀ (F := F)) Variants.none () Set.univ)
    (hshare : ∀ c w, (pdats p c).share w = fullShare)
    (howed : ∀ c t, (pdats p c).owed t = 0)
    (hrec : ∀ c t, (pdats p c).recorded t = Set.univ)
    (hpref : ∀ c, (BI.emp : sProp 𝕄) ⊢ Pipeline.prefHeld (pcfgs (F := F) p).pre c (fun _ => fullShare) (adm (F := F) p).1)
    (hΦin : ∀ c, Pipeline.ΦA (cfgs p).spec c ⊢ (pdats p c).Φ 0)
    (hΦout : ∀ c, (pdats p c).Φ (Fin.last (cfgs p).N) ⊢ Pipeline.ΦA (cfgs p).spec c)
    (hF : ∀ c w, (pdats p c).arrAt w (cfgs p).N = Vout c (Pipeline.arrRef (cfgs p).spec w))
    (hrest : ∀ c, ∀ b : Ref sig .tc, b ∉ Finset.univ.image (Pipeline.arrRef (cfgs p).spec) → Vout c b = Vin c b) :
    Pipeline.RegionSeg (pcfgs (F := F)) adm pdats () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p fun c t => howed c t
  pre c := iprop(StableHlo.held (c : Thread nD τ) (Pipeline.ucRefs τ sig) (Vin c) ∗ Rr c)
  post c := iprop(StableHlo.held (c : Thread nD τ) (Pipeline.ucRefs τ sig) (Vout c) ∗ Rr c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pdats lf.win lf.arr_whole c
      (hshare c) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpref c); iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    have h1 : iprop((∃ r, prngReg c r) ∗ Pipeline.prefHeld (pcfgs (F := F) p).pre c (fun _ => fullShare) (adm (F := F) p).1
        ∗ Pipeline.scopedRest (Ix := Unit) (Name := ℕ) (U := UR sig nD τ) (Lvl := ℕ) (Val := Elt F) (cfgs p).spec c)
        ⊢ (Pipeline.ΦA (cfgs p).spec c : sProp 𝕄) := by
      unfold Pipeline.ΦA
      iintro ⟨Hp, -, Hr⟩
      isplitl [Hr]; · iexact Hr
      iexact Hp
    exact h1.trans (hΦin c)
  hout c := by
    rw [Pipeline.ownSems0_none]
    have h1 : (Pipeline.ΦA (cfgs p).spec c : sProp 𝕄)
        ⊢ iprop((∃ r, prngReg c r) ∗ BI.emp ∗ Pipeline.scopedRest (Ix := Unit) (Name := ℕ) (U := UR sig nD τ) (Lvl := ℕ) (Val := Elt F) (cfgs p).spec c) := by
      unfold Pipeline.ΦA
      iintro ⟨Hr, Hp⟩
      isplitl [Hp]; · iexact Hp
      isplitr; · iempintro
      iexact Hr
    exact (hΦout c).trans h1
  hexit c := by
    have hjoin := Pipeline.unscopedBufs_of_arrays (p := p) (pcfgs (F := F)) adm (Ix := Unit) (Name := ℕ) (U := UR sig nD τ) (Lvl := ℕ)
      lf.win lf.arr_whole c pdats (hshare c)
      (fun b => Vin c b) (fun b => Vout c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO
end RegOf

/-! ## What a region's own module provides -/

/-- A region's proof kit: its proof data at any entry contents `V`, with the facts the run needs about them — the
    arrays start at `V`; the body's triple at every grid point; whole shares; nothing owed to another core; and the
    pipeline's invariant at the region's two ends is the plain one (the scoped buffers no window stages, held at
    something, beside the generator register): a kernel that carries scratch between grid points names its contents
    only strictly inside the grid. -/
structure Kit (F : FTy → Type) [FloatOps F] (p : Fin 8) where
  dat : VT F → (c : Dev nD) → Dat τ (Elt F) Unit ℕ (UR sig nD τ) ℕ (cfgs p) c
  A_eq : ∀ V c w, (dat V c).A w = V c (Pipeline.arrRef (cfgs p).spec w)
  body : ∀ V c, BodyObligation (dat V c) (defs₀ (F := F)) Variants.none () Set.univ
  share : ∀ V c w, (dat V c).share w = fullShare
  owed : ∀ V c t, (dat V c).owed t = 0
  recorded : ∀ V c t, (dat V c).recorded t = Set.univ
  phiIn : ∀ V c, Pipeline.ΦA (cfgs p).spec c ⊢ (dat V c).Φ 0
  phiOut : ∀ V c, (dat V c).Φ (Fin.last (cfgs p).N) ⊢ Pipeline.ΦA (cfgs p).spec c

variable (m : (ℓ : Loc nD τ sig) → Buf (Elt F) ℓ) (kits : (p : Fin 8) → Kit F p)

/-! ## The buffer contents between the program's items

  `U J c`: core `c`'s unscoped buffers after item `J − 1` — the launch memory, then alternately a stretch of host
  operations applied and a kernel region's output arrays replaced by what the region's write-backs leave. -/

abbrev U0 (c : Dev nD) : Valuation τ sig (Elt F) := fun b => m (c, b)
abbrev U1 (c : Dev nD) : Valuation τ sig (Elt F) := StableHlo.after hostOps0 (U0 m c)
/-- Region 0's output window `w`'s array as the pipeline leaves it: the entry contents with every point's write-back folded in. -/
def out0 (c : Dev nD) (w : Fin 7) := ((kits 0).dat (fun c b => U1 m c b) c).arrAt w (cfgs 0).N
abbrev U2 (c : Dev nD) : Valuation τ sig (Elt F) := Function.update (Function.update (U1 m c) main_v14_0 (out0 m kits c 5)) main_v14_1 (out0 m kits c 6)
abbrev U3 (c : Dev nD) : Valuation τ sig (Elt F) := StableHlo.after hostOps1 (U2 m kits c)
/-- Region 1's output window `w`'s array as the pipeline leaves it: the entry contents with every point's write-back folded in. -/
def out1 (c : Dev nD) (w : Fin 10) := ((kits 1).dat (fun c b => U3 m kits c b) c).arrAt w (cfgs 1).N
abbrev U4 (c : Dev nD) : Valuation τ sig (Elt F) := Function.update (U3 m kits c) main_v18 (out1 m kits c 9)
abbrev U5 (c : Dev nD) : Valuation τ sig (Elt F) := StableHlo.after hostOps2 (U4 m kits c)
/-- Region 2's output window `w`'s array as the pipeline leaves it: the entry contents with every point's write-back folded in. -/
def out2 (c : Dev nD) (w : Fin 5) := ((kits 2).dat (fun c b => U5 m kits c b) c).arrAt w (cfgs 2).N
abbrev U6 (c : Dev nD) : Valuation τ sig (Elt F) := Function.update (Function.update (U5 m kits c) main_v20_0 (out2 m kits c 3)) main_v20_1 (out2 m kits c 4)
abbrev U7 (c : Dev nD) : Valuation τ sig (Elt F) := StableHlo.after hostOps3 (U6 m kits c)
/-- Region 3's output window `w`'s array as the pipeline leaves it: the entry contents with every point's write-back folded in. -/
def out3 (c : Dev nD) (w : Fin 8) := ((kits 3).dat (fun c b => U7 m kits c b) c).arrAt w (cfgs 3).N
abbrev U8 (c : Dev nD) : Valuation τ sig (Elt F) := Function.update (U7 m kits c) main_v24 (out3 m kits c 7)
abbrev U9 (c : Dev nD) : Valuation τ sig (Elt F) := StableHlo.after hostOps4 (U8 m kits c)
/-- Region 4's output window `w`'s array as the pipeline leaves it: the entry contents with every point's write-back folded in. -/
def out4 (c : Dev nD) (w : Fin 7) := ((kits 4).dat (fun c b => U9 m kits c b) c).arrAt w (cfgs 4).N
abbrev U10 (c : Dev nD) : Valuation τ sig (Elt F) := Function.update (Function.update (U9 m kits c) main_v40_0 (out4 m kits c 5)) main_v40_1 (out4 m kits c 6)
abbrev U11 (c : Dev nD) : Valuation τ sig (Elt F) := StableHlo.after hostOps5 (U10 m kits c)
/-- Region 5's output window `w`'s array as the pipeline leaves it: the entry contents with every point's write-back folded in. -/
def out5 (c : Dev nD) (w : Fin 10) := ((kits 5).dat (fun c b => U11 m kits c b) c).arrAt w (cfgs 5).N
abbrev U12 (c : Dev nD) : Valuation τ sig (Elt F) := Function.update (U11 m kits c) main_v44 (out5 m kits c 9)
abbrev U13 (c : Dev nD) : Valuation τ sig (Elt F) := StableHlo.after hostOps6 (U12 m kits c)
/-- Region 6's output window `w`'s array as the pipeline leaves it: the entry contents with every point's write-back folded in. -/
def out6 (c : Dev nD) (w : Fin 5) := ((kits 6).dat (fun c b => U13 m kits c b) c).arrAt w (cfgs 6).N
abbrev U14 (c : Dev nD) : Valuation τ sig (Elt F) := Function.update (Function.update (U13 m kits c) main_v46_0 (out6 m kits c 3)) main_v46_1 (out6 m kits c 4)
abbrev U15 (c : Dev nD) : Valuation τ sig (Elt F) := StableHlo.after hostOps7 (U14 m kits c)
/-- Region 7's output window `w`'s array as the pipeline leaves it: the entry contents with every point's write-back folded in. -/
def out7 (c : Dev nD) (w : Fin 11) := ((kits 7).dat (fun c b => U15 m kits c b) c).arrAt w (cfgs 7).N
abbrev U16 (c : Dev nD) : Valuation τ sig (Elt F) := Function.update (Function.update (U15 m kits c) main_v51_0 (out7 m kits c 9)) main_v51_1 (out7 m kits c 10)
abbrev U17 (c : Dev nD) : Valuation τ sig (Elt F) := StableHlo.after hostOps8 (U16 m kits c)

/-- What each region leaves in the buffers it may change, read off the chain. -/
def outs : Gen.Outs (F := F) := fun J r c => match J with
  | 2 => U2 m kits c r | 4 => U4 m kits c r | 6 => U6 m kits c r | 8 => U8 m kits c r
  | 10 => U10 m kits c r | 12 => U12 m kits c r | 14 => U14 m kits c r | _ => U16 m kits c r

omit [FloatOps F] in
/-- Replacing one buffer's contents by what the replaced valuation already holds there changes nothing. -/
theorem upd1_eq (V : Valuation τ sig (Elt F)) (r : DevRef τ sig) (a : r.ty.Contents (Elt F)) :
    Function.update V r ((Function.update V r a) r) = Function.update V r a := by
  rw [Function.update_self]

omit [FloatOps F] in
/-- The same for two distinct buffers. -/
theorem upd2_eq (V : Valuation τ sig (Elt F)) (r1 r2 : DevRef τ sig) (h : r1 ≠ r2) (a1 : r1.ty.Contents (Elt F)) (a2 : r2.ty.Contents (Elt F)) :
    Function.update (Function.update V r1 ((Function.update (Function.update V r1 a1) r2 a2) r1)) r2 ((Function.update (Function.update V r1 a1) r2 a2) r2)
      = Function.update (Function.update V r1 a1) r2 a2 := by
  rw [Function.update_self, Function.update_of_ne h, Function.update_self]

/-! The generated chain of valuations, at these contents, is this module's chain. -/
theorem V1_eq (c : Dev nD) : Gen.V1 m c = U1 m c := rfl
theorem V2_eq (c : Dev nD) : Gen.V2 m (outs m kits) c = U2 m kits c := by
  show Function.update (Function.update (Gen.V1 m c) main_v14_0 (U2 m kits c main_v14_0)) main_v14_1 (U2 m kits c main_v14_1) = _
  rw [V1_eq]
  exact upd2_eq _ _ _ (StableHlo.devRef_ne_of_ne (by decide)) _ _
theorem V3_eq (c : Dev nD) : Gen.V3 m (outs m kits) c = U3 m kits c := by
  show StableHlo.after hostOps1 (Gen.V2 m (outs m kits) c) = _
  rw [V2_eq]
theorem V4_eq (c : Dev nD) : Gen.V4 m (outs m kits) c = U4 m kits c := by
  show Function.update (Gen.V3 m (outs m kits) c) main_v18 (U4 m kits c main_v18) = _
  rw [V3_eq]
  exact upd1_eq _ _ _
theorem V5_eq (c : Dev nD) : Gen.V5 m (outs m kits) c = U5 m kits c := by
  show StableHlo.after hostOps2 (Gen.V4 m (outs m kits) c) = _
  rw [V4_eq]
theorem V6_eq (c : Dev nD) : Gen.V6 m (outs m kits) c = U6 m kits c := by
  show Function.update (Function.update (Gen.V5 m (outs m kits) c) main_v20_0 (U6 m kits c main_v20_0)) main_v20_1 (U6 m kits c main_v20_1) = _
  rw [V5_eq]
  exact upd2_eq _ _ _ (StableHlo.devRef_ne_of_ne (by decide)) _ _
theorem V7_eq (c : Dev nD) : Gen.V7 m (outs m kits) c = U7 m kits c := by
  show StableHlo.after hostOps3 (Gen.V6 m (outs m kits) c) = _
  rw [V6_eq]
theorem V8_eq (c : Dev nD) : Gen.V8 m (outs m kits) c = U8 m kits c := by
  show Function.update (Gen.V7 m (outs m kits) c) main_v24 (U8 m kits c main_v24) = _
  rw [V7_eq]
  exact upd1_eq _ _ _
theorem V9_eq (c : Dev nD) : Gen.V9 m (outs m kits) c = U9 m kits c := by
  show StableHlo.after hostOps4 (Gen.V8 m (outs m kits) c) = _
  rw [V8_eq]
theorem V10_eq (c : Dev nD) : Gen.V10 m (outs m kits) c = U10 m kits c := by
  show Function.update (Function.update (Gen.V9 m (outs m kits) c) main_v40_0 (U10 m kits c main_v40_0)) main_v40_1 (U10 m kits c main_v40_1) = _
  rw [V9_eq]
  exact upd2_eq _ _ _ (StableHlo.devRef_ne_of_ne (by decide)) _ _
theorem V11_eq (c : Dev nD) : Gen.V11 m (outs m kits) c = U11 m kits c := by
  show StableHlo.after hostOps5 (Gen.V10 m (outs m kits) c) = _
  rw [V10_eq]
theorem V12_eq (c : Dev nD) : Gen.V12 m (outs m kits) c = U12 m kits c := by
  show Function.update (Gen.V11 m (outs m kits) c) main_v44 (U12 m kits c main_v44) = _
  rw [V11_eq]
  exact upd1_eq _ _ _
theorem V13_eq (c : Dev nD) : Gen.V13 m (outs m kits) c = U13 m kits c := by
  show StableHlo.after hostOps6 (Gen.V12 m (outs m kits) c) = _
  rw [V12_eq]
theorem V14_eq (c : Dev nD) : Gen.V14 m (outs m kits) c = U14 m kits c := by
  show Function.update (Function.update (Gen.V13 m (outs m kits) c) main_v46_0 (U14 m kits c main_v46_0)) main_v46_1 (U14 m kits c main_v46_1) = _
  rw [V13_eq]
  exact upd2_eq _ _ _ (StableHlo.devRef_ne_of_ne (by decide)) _ _
theorem V15_eq (c : Dev nD) : Gen.V15 m (outs m kits) c = U15 m kits c := by
  show StableHlo.after hostOps7 (Gen.V14 m (outs m kits) c) = _
  rw [V14_eq]
theorem V16_eq (c : Dev nD) : Gen.V16 m (outs m kits) c = U16 m kits c := by
  show Function.update (Function.update (Gen.V15 m (outs m kits) c) main_v51_0 (U16 m kits c main_v51_0)) main_v51_1 (U16 m kits c main_v51_1) = _
  rw [V15_eq]
  exact upd2_eq _ _ _ (StableHlo.devRef_ne_of_ne (by decide)) _ _
theorem V17_eq (c : Dev nD) : Gen.V17 m (outs m kits) c = U17 m kits c := by
  show StableHlo.after hostOps8 (Gen.V16 m (outs m kits) c) = _
  rw [V16_eq]

end Cert.Kernel.Hand
end
-- ==== Proof.K.Stats0Run.lean ====
import proofs.«110491_j38809324487019_2_alg».proof.Proof.Gen.Kernel.Launch
import proofs.«110491_j38809324487019_2_alg».proof.Proof.Gen.Kernel.Skeleton
import proofs.«110491_j38809324487019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0: the statistics kernel over the edge rows (message and gathered node rows) — the windows' blocks and the body's three runs

The kernel sweeps 125 row blocks. Two (1,128) scratch rows carry the running column sum and the running
column sum of squares of the linear layer's output from one grid point to the next: the first point zeroes them
before accumulating, every point adds its block's column sums, and the last point turns the totals into
the mean and the (clamped) variance, which it stores into the two output windows. The outputs' block
index is constant, so only the last point writes them back; at every other point the output windows
are idle and their staging buffers are handed back as found.

Everything is stated at a parameter `V`: the TensorCore's buffer contents when the region is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: unfetched,
    the block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, over the grid -/

/-- The first conditional (zero the accumulators) is taken at the first point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional (finish: mean and variance) is taken at the last point only. -/
abbrev cond0_1 (i : grid0.Coords) : Prop := k0_cond2 i = 1#1
theorem hcond0_1 : ∀ t : Fin cfg0.N, cond0_1 (grid0.coords t) ↔ t.val = 124 :=
  (by decide +kernel : ∀ t : Fin grid0.N, cond0_1 (grid0.coords t) ↔ t.val = 124)

/-! ## Where the windows are idle, and where the outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the two outputs are idle and are not written back. -/
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
/-- At the last point they are live. -/
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The staging memrefs at a point, and the two scratch rows -/

abbrev ms0_0 (t : Fin cfg0.N) : Memref sig .tc .vmem S6400x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6400x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The running column sum and the running column sum of squares: whole scoped buffers of the kernel's own. -/
abbrev scM0_0 : Memref sig .tc .vmem S1x128 .f32 := Memref.whole cc0_scratch0
abbrev scM0_1 : Memref sig .tc .vmem S1x128 .f32 := Memref.whole cc0_scratch1

/-- The region invariant of a kernel that describes nothing (every scoped buffer no window stages at some
    contents, the generator register at some state), with the two scratch rows taken out of the scoped rest. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The body's run, case by case

Every load and store of the body goes through the whole staging buffer (the unit rectangle at zero offsets), so a load
reads the contents and a store leaves its payload. -/

theorem off00_0 : (![0, 0] : Fin 2 → Nat) = fun _ => 0 := by funext a; fin_cases a <;> rfl

/-- A load through the whole buffer reads its contents. -/
theorem readAt_whole0 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store through the whole buffer, last, leaves its payload whatever the earlier stores were. -/
theorem read_writes_whole0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 4000000 in
/-- THE FIRST point (the zeroing conditional taken, the finishing one not): whatever the two scratch rows held, the running
    sum becomes the block's column sums over the zero row, the running sum of squares the block's column sums of squares
    over the zero row; the inputs and the two idle outputs are left as found. -/
theorem kernelRun0_first (c : Dev nD) (i : grid0.Coords)
    (arg1 : Memref sig .tc .vmem S6400x128 .f32) (harg1 : arg1.IsWhole)
    (arg2 : Memref sig .tc .vmem S6400x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : cond0_0 i) (hc1 : ¬cond0_1 i)
    (x0 : Vec F S6400x128 .f32) (x1 : Vec F S6400x128 .f32) (x2 : Vec F S128x128 .f32) (x3 : Vec F S128x128 .f32) (x4 : Vec F S1x128 .f32) (xi0 xi1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi0 ∗ owns (c : Thread nD τ) arg7 fullShare xi1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi0 ∗ owns (c : Thread nD τ) arg7 fullShare xi1
            ∗ owns (c : Thread nD τ) arg8 fullShare (k0_pay7 x4 x0 x2 x1 x3 k0_pay5) ∗ owns (c : Thread nD τ) arg9 fullShare (k0_pay1 (k0_pay8 x4 x0 x2 x1 x3 k0_pay6))) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fo0, %hfo0, HO0⟩, ⟨%fo1, %hfo1, HO1⟩, ⟨%ds0, %fs0, -, HS0⟩, ⟨%ds1, %fs1, -, HS1⟩, Hk⟩
  subst hf0; subst hf1; subst hf2; subst hf3; subst hf4; subst hfo0; subst hfo1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole0 arg8.view fs0 off00_0]
    try sl_unfold_run_names
    rw [View.readCov_unit_zero arg8.view off00_0, readAt_whole0 arg1.view f0 off00_0, readAt_whole0 arg2.view f1 off00_0, readAt_whole0 arg3.view f2 off00_0, readAt_whole0 arg4.view f3 off00_0, readAt_whole0 arg5.view f4 off00_0]
    try rfl
  iexists _; isplitr
  swap; · iexact HS1
  ipureintro
  try sl_unfold_run_names
  rw [read_writes_whole0 arg9.view fs1 off00_0]
  try sl_unfold_run_names
  rw [View.readCov_unit_zero arg9.view off00_0, readAt_whole0 arg1.view f0 off00_0, readAt_whole0 arg2.view f1 off00_0, readAt_whole0 arg3.view f2 off00_0, readAt_whole0 arg4.view f3 off00_0, readAt_whole0 arg5.view f4 off00_0]
  try rfl

set_option maxHeartbeats 4000000 in
/-- A MIDDLE point (neither conditional taken): the inputs and the two idle outputs are left as found; the running sum
    and the running sum of squares advance by the block's column sums. -/
theorem kernelRun0_mid (c : Dev nD) (i : grid0.Coords)
    (arg1 : Memref sig .tc .vmem S6400x128 .f32) (harg1 : arg1.IsWhole)
    (arg2 : Memref sig .tc .vmem S6400x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : ¬cond0_0 i) (hc1 : ¬cond0_1 i)
    (x0 : Vec F S6400x128 .f32) (x1 : Vec F S6400x128 .f32) (x2 : Vec F S128x128 .f32) (x3 : Vec F S128x128 .f32) (x4 : Vec F S1x128 .f32) (xi0 xi1 s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi0 ∗ owns (c : Thread nD τ) arg7 fullShare xi1
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi0 ∗ owns (c : Thread nD τ) arg7 fullShare xi1
            ∗ owns (c : Thread nD τ) arg8 fullShare (k0_pay7 x4 x0 x2 x1 x3 s0) ∗ owns (c : Thread nD τ) arg9 fullShare (k0_pay1 (k0_pay8 x4 x0 x2 x1 x3 s1))) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fo0, %hfo0, HO0⟩, ⟨%fo1, %hfo1, HO1⟩, ⟨%fs0, %hfs0, HS0⟩, ⟨%fs1, %hfs1, HS1⟩, Hk⟩
  subst hf0; subst hf1; subst hf2; subst hf3; subst hf4; subst hfo0; subst hfo1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole0 arg8.view fs0 off00_0]
    try sl_unfold_run_names
    rw [readAt_whole0 arg1.view f0 off00_0, readAt_whole0 arg2.view f1 off00_0, readAt_whole0 arg3.view f2 off00_0, readAt_whole0 arg4.view f3 off00_0, readAt_whole0 arg5.view f4 off00_0, readAt_whole0 arg8.view fs0 off00_0]
    try rfl
  iexists _; isplitr
  swap; · iexact HS1
  ipureintro
  try sl_unfold_run_names
  rw [read_writes_whole0 arg9.view fs1 off00_0]
  try sl_unfold_run_names
  rw [readAt_whole0 arg1.view f0 off00_0, readAt_whole0 arg2.view f1 off00_0, readAt_whole0 arg3.view f2 off00_0, readAt_whole0 arg4.view f3 off00_0, readAt_whole0 arg5.view f4 off00_0, readAt_whole0 arg9.view fs1 off00_0]
  try rfl

set_option maxHeartbeats 4000000 in
/-- THE LAST point (the finishing conditional taken, the zeroing one not): the accumulators advance as at a middle point,
    and the two outputs, whatever they held, are left at the mean and the variance computed from the final totals. -/
theorem kernelRun0_last (c : Dev nD) (i : grid0.Coords)
    (arg1 : Memref sig .tc .vmem S6400x128 .f32) (harg1 : arg1.IsWhole)
    (arg2 : Memref sig .tc .vmem S6400x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : ¬cond0_0 i) (hc1 : cond0_1 i)
    (x0 : Vec F S6400x128 .f32) (x1 : Vec F S6400x128 .f32) (x2 : Vec F S128x128 .f32) (x3 : Vec F S128x128 .f32) (x4 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay2 (k0_pay7 x4 x0 x2 x1 x3 s0)) ∗ owns (c : Thread nD τ) arg7 fullShare (k0_pay3 (k0_pay7 x4 x0 x2 x1 x3 s0) (k0_pay1 (k0_pay8 x4 x0 x2 x1 x3 s1)))
            ∗ owns (c : Thread nD τ) arg8 fullShare (k0_pay7 x4 x0 x2 x1 x3 s0) ∗ owns (c : Thread nD τ) arg9 fullShare (k0_pay1 (k0_pay8 x4 x0 x2 x1 x3 s1))) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d3, %fo0, -, HO0⟩, ⟨%d4, %fo1, -, HO1⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists _; isplitr
    swap; · iexact HO0
    ipureintro
    try sl_unfold_run_names
    rw [read_writes_whole0 arg6.view fo0 off00_0]
    try sl_unfold_run_names
    rw [View.readCov_unit_zero arg8.view off00_0, readAt_whole0 arg1.view f0 off00_0, readAt_whole0 arg2.view f1 off00_0, readAt_whole0 arg3.view f2 off00_0, readAt_whole0 arg4.view f3 off00_0, readAt_whole0 arg5.view f4 off00_0, readAt_whole0 arg8.view fs0 off00_0]
    try rfl
  isplitl [HO1]
  · iexists _; isplitr
    swap; · iexact HO1
    ipureintro
    try sl_unfold_run_names
    rw [read_writes_whole0 arg7.view fo1 off00_0]
    try sl_unfold_run_names
    rw [View.readCov_unit_zero arg8.view off00_0, View.readCov_unit_zero arg9.view off00_0, readAt_whole0 arg1.view f0 off00_0, readAt_whole0 arg2.view f1 off00_0, readAt_whole0 arg3.view f2 off00_0, readAt_whole0 arg4.view f3 off00_0, readAt_whole0 arg5.view f4 off00_0, readAt_whole0 arg8.view fs0 off00_0, readAt_whole0 arg9.view fs1 off00_0]
    try rfl
  isplitl [HS0]
  · iexists _; isplitr
    swap; · iexact HS0
    ipureintro
    try sl_unfold_run_names
    rw [read_writes_whole0 arg8.view fs0 off00_0]
    try sl_unfold_run_names
    rw [readAt_whole0 arg1.view f0 off00_0, readAt_whole0 arg2.view f1 off00_0, readAt_whole0 arg3.view f2 off00_0, readAt_whole0 arg4.view f3 off00_0, readAt_whole0 arg5.view f4 off00_0, readAt_whole0 arg8.view fs0 off00_0]
    try rfl
  iexists _; isplitr
  swap; · iexact HS1
  ipureintro
  try sl_unfold_run_names
  rw [read_writes_whole0 arg9.view fs1 off00_0]
  try sl_unfold_run_names
  rw [readAt_whole0 arg1.view f0 off00_0, readAt_whole0 arg2.view f1 off00_0, readAt_whole0 arg3.view f2 off00_0, readAt_whole0 arg4.view f3 off00_0, readAt_whole0 arg5.view f4 off00_0, readAt_whole0 arg9.view fs1 off00_0]
  try rfl

end Cert.Kernel.Hand

end
-- ==== Proof.K.Stats0.lean ====
import proofs.«110491_j38809324487019_2_alg».proof.Proof.K.Stats0Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0, the statistics kernel: the accumulators, the proof data, the body obligation, the outputs

Over the three runs of the body (first, middle, last point): the running column sum and sum of squares after each point
by recursion on the point, the region's invariant carrying the two scratch rows at them, the proof data, the body
obligation, the invariant at the region's two ends, and the two output arrays after the region: the mean and the
variance computed from the totals after the last point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulators, point by point -/

/-- The running column sum after point `n`: the first point accumulates onto the zeroed row, each later
    point onto what the point before left. -/
def accSum0 (c : Dev nD) : (n : ℕ) → n < cfg0.N → Vec F S1x128 .f32
  | 0, hn => k0_pay7 (iblk0 V c 4 ⟨0, hn⟩) (iblk0 V c 0 ⟨0, hn⟩) (iblk0 V c 2 ⟨0, hn⟩) (iblk0 V c 1 ⟨0, hn⟩) (iblk0 V c 3 ⟨0, hn⟩) k0_pay5
  | n + 1, hn => k0_pay7 (iblk0 V c 4 ⟨n + 1, hn⟩) (iblk0 V c 0 ⟨n + 1, hn⟩) (iblk0 V c 2 ⟨n + 1, hn⟩) (iblk0 V c 1 ⟨n + 1, hn⟩) (iblk0 V c 3 ⟨n + 1, hn⟩) (accSum0 c n (Nat.lt_of_succ_lt hn))

/-- The running column sum of squares after point `n`. -/
def accSq0 (c : Dev nD) : (n : ℕ) → n < cfg0.N → Vec F S1x128 .f32
  | 0, hn => k0_pay1 (k0_pay8 (iblk0 V c 4 ⟨0, hn⟩) (iblk0 V c 0 ⟨0, hn⟩) (iblk0 V c 2 ⟨0, hn⟩) (iblk0 V c 1 ⟨0, hn⟩) (iblk0 V c 3 ⟨0, hn⟩) k0_pay6)
  | n + 1, hn => k0_pay1 (k0_pay8 (iblk0 V c 4 ⟨n + 1, hn⟩) (iblk0 V c 0 ⟨n + 1, hn⟩) (iblk0 V c 2 ⟨n + 1, hn⟩) (iblk0 V c 1 ⟨n + 1, hn⟩) (iblk0 V c 3 ⟨n + 1, hn⟩) (accSq0 c n (Nat.lt_of_succ_lt hn)))

theorem accSum0_zero (c : Dev nD) (t : Fin cfg0.N) (h : t.val = 0) :
    accSum0 V c t.val t.isLt = k0_pay7 (iblk0 V c 4 t) (iblk0 V c 0 t) (iblk0 V c 2 t) (iblk0 V c 1 t) (iblk0 V c 3 t) k0_pay5 := by
  obtain ⟨n, hn⟩ := t; subst h; rfl

theorem accSum0_pos (c : Dev nD) (t : Fin cfg0.N) (h : t.val ≠ 0) :
    accSum0 V c t.val t.isLt = k0_pay7 (iblk0 V c 4 t) (iblk0 V c 0 t) (iblk0 V c 2 t) (iblk0 V c 1 t) (iblk0 V c 3 t) (accSum0 V c (t.val - 1) (Nat.lt_of_le_of_lt (Nat.sub_le _ _) t.isLt)) := by
  obtain ⟨n, hn⟩ := t
  cases n with
  | zero => exact absurd rfl h
  | succ n => rfl

theorem accSq0_zero (c : Dev nD) (t : Fin cfg0.N) (h : t.val = 0) :
    accSq0 V c t.val t.isLt = k0_pay1 (k0_pay8 (iblk0 V c 4 t) (iblk0 V c 0 t) (iblk0 V c 2 t) (iblk0 V c 1 t) (iblk0 V c 3 t) k0_pay6) := by
  obtain ⟨n, hn⟩ := t; subst h; rfl

theorem accSq0_pos (c : Dev nD) (t : Fin cfg0.N) (h : t.val ≠ 0) :
    accSq0 V c t.val t.isLt = k0_pay1 (k0_pay8 (iblk0 V c 4 t) (iblk0 V c 0 t) (iblk0 V c 2 t) (iblk0 V c 1 t) (iblk0 V c 3 t) (accSq0 V c (t.val - 1) (Nat.lt_of_le_of_lt (Nat.sub_le _ _) t.isLt))) := by
  obtain ⟨n, hn⟩ := t
  cases n with
  | zero => exact absurd rfl h
  | succ n => rfl

/-- The mean and the variance the last point computes from the totals (what the two output windows' staging buffers
    hold after the body at a point, were it the last: consulted at the last point only). -/
def mean0At (c : Dev nD) (t : Fin cfg0.N) : Vec F S1x128 .f32 := k0_pay2 (accSum0 V c t.val t.isLt)
def var0At (c : Dev nD) (t : Fin cfg0.N) : Vec F S1x128 .f32 := k0_pay3 (accSum0 V c t.val t.isLt) (accSq0 V c t.val t.isLt)

/-! ## The region invariant -/

/-- The scoped buffers that are neither a staging buffer of this region nor its two scratch rows, each at some contents. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- Before the first point: every scoped buffer no window stages at some contents, the generator register at some state.
    After point `n`: the two scratch rows at the running sum and the running sum of squares, the other scoped buffers at
    some contents, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accSum0 V c n hn) ∗ owns (c : Thread nD τ) scM0_1 fullShare (accSq0 V c n hn))
      ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accSum0 V c n hn) ∗ owns (c : Thread nD τ) scM0_1 fullShare (accSq0 V c n hn))
      ∗ restBut0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accSum0 V c (n - 1) (by omega)) ∗ owns (c : Thread nD τ) scM0_1 fullShare (accSq0 V c (n - 1) (by omega)))
      ∗ restBut0 c) ∗ (∃ r, prngReg c r)) := by
  cases n with
  | zero => exact absurd rfl hz
  | succ n => rfl

/-! ## The proof data -/

/-- The proof data of the region on core `c`: the arrays as the region finds them; after the body at point `t` each
    input's buffer at its block, the two outputs' at the mean and variance of the totals so far (read at the last point
    only: elsewhere the windows are idle); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => mean0At V c t
    | ⟨6, _⟩ => var0At V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem recorded0 (c : Dev nD) (t : Fin (cfg0.N + 1)) : (dat0 V c).recorded t = Set.univ := rfl
theorem share0 (c : Dev nD) (w : Fin cfg0.W) : (dat0 V c).share w = fullShare :=
  (dat0 V c).share_full (fun _ => rfl) w

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = mean0At V c t := by dsimp only [dat0]
theorem after0_6 (c : Dev nD) (t : Fin cfg0.N) : (dat0 V c).after 6 t = var0At V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem PhiS0_castSucc (c : Dev nD) (t : Fin cfg0.N) :
    (dat0 V c).Φ t.castSucc = PhiS0 V c t.val (Nat.le_of_lt t.isLt) := by
  dsimp only [dat0]; simp only [Fin.coe_castSucc]

/-- The input arrays are never written. -/
theorem arrIn0_0 (c : Dev nD) (t : ℕ) : (dat0 V c).arrAt 0 t = (dat0 V c).A 0 := (dat0 V c).arrAt_in 0 rfl t
theorem arrIn0_1 (c : Dev nD) (t : ℕ) : (dat0 V c).arrAt 1 t = (dat0 V c).A 1 := (dat0 V c).arrAt_in 1 rfl t
theorem arrIn0_2 (c : Dev nD) (t : ℕ) : (dat0 V c).arrAt 2 t = (dat0 V c).A 2 := (dat0 V c).arrAt_in 2 rfl t
theorem arrIn0_3 (c : Dev nD) (t : ℕ) : (dat0 V c).arrAt 3 t = (dat0 V c).A 3 := (dat0 V c).arrAt_in 3 rfl t
theorem arrIn0_4 (c : Dev nD) (t : ℕ) : (dat0 V c).arrAt 4 t = (dat0 V c).A 4 := (dat0 V c).arrAt_in 4 rfl t

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' staging buffers hold their blocks; the point is the first, the last or a middle
    one; the invariant hands the body the two scratch rows at what the point before left (at anything at the first point)
    and takes them back at this point's totals; away from the last point the two outputs are handed back as found, at the
    last they hold the mean and the variance of the totals. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 125 := lt_of_lt_of_eq t.isLt (show cfg0.N = 125 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  by_cases h0 : t.val = 0
  · have h1 : ¬t.val = 124 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [accSum0_zero V c t h0, accSq0_zero V c t h0]
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
    iapply (kernelRun0_first c (grid0.coords t) _ _ _ _ _ _ _ _ _ _ _ _ _ _ _ _ _ _ ((hcond0_0 t).mpr h0) (fun h => h1 ((hcond0_1 t).mp h))
      (iblk0 V c 0 t) (iblk0 V c 1 t) (iblk0 V c 2 t) (iblk0 V c 3 t) (iblk0 V c 4 t) _ _ Set.univ _)
    isplitl [H0]; · iexact H0
    isplitl [H1]; · iexact H1
    isplitl [H2]; · iexact H2
    isplitl [H3]; · iexact H3
    isplitl [H4]; · iexact H4
    isplitl [HO0]; · iexact HO0
    isplitl [HO1]; · iexact HO1
    isplitl [HS0]; · iexact HS0
    isplitl [HS1]; · iexact HS1
    iintro ⟨H0, H1, H2, H3, H4, HO0, HO1, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [HO0]; · iexists _; iexact HO0
    iexists _; iexact HO1
  · by_cases h1 : t.val = 124
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      unfold mean0At var0At
      rw [accSum0_pos V c t h0, accSq0_pos V c t h0]
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
      iapply (kernelRun0_last c (grid0.coords t) _ _ _ _ _ _ _ _ _ _ _ _ _ _ _ _ _ _ (fun h => h0 ((hcond0_0 t).mp h)) ((hcond0_1 t).mpr h1)
        (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [HO0]; · iexists _; iexact HO0
      isplitl [HO1]; · iexists _; iexact HO1
      isplitl [HS0]; · iexact HS0
      isplitl [HS1]; · iexact HS1
      iintro ⟨H0, H1, H2, H3, H4, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [HO0]; · iexact HO0
      iexact HO1
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [accSum0_pos V c t h0, accSq0_pos V c t h0]
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
      iapply (kernelRun0_mid c (grid0.coords t) _ _ _ _ _ _ _ _ _ _ _ _ _ _ _ _ _ _ (fun h => h0 ((hcond0_0 t).mp h)) (fun h => h1 ((hcond0_1 t).mp h))
        (iblk0 V c 0 t) (iblk0 V c 1 t) (iblk0 V c 2 t) (iblk0 V c 3 t) (iblk0 V c 4 t) _ _ _ _ Set.univ _)
      isplitl [H0]; · iexact H0
      isplitl [H1]; · iexact H1
      isplitl [H2]; · iexact H2
      isplitl [H3]; · iexact H3
      isplitl [H4]; · iexact H4
      isplitl [HO0]; · iexact HO0
      isplitl [HO1]; · iexact HO1
      isplitl [HS0]; · iexact HS0
      isplitl [HS1]; · iexact HS1
      iintro ⟨H0, H1, H2, H3, H4, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [HO0]; · iexists _; iexact HO0
      iexists _; iexact HO1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem PhiIn0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the two scratch rows' named contents are forgotten. -/
theorem PhiOut0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 125 := N_0; omega), PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-! ## What the region leaves in the two output arrays

The one write-back of each output, at the last point, writes the whole array: block (0, 0) of the [1,128] array read
through zero offsets is the array, and the last point's block covers it. -/

/-- The last point. -/
def tLast0 : Fin cfg0.N := ⟨124, by rw [show cfg0.N = 125 from N_0]; decide⟩

/-- The mean and the variance of the totals after the last point, as contents of the two result arrays (each array is
    its window's one block). -/
abbrev mean0Res (c : Dev nD) : Buf (Elt F) ((c : Thread nD τ).loc main_v14_0) := mean0At V c tLast0
abbrev var0Res (c : Dev nD) : Buf (Elt F) ((c : Thread nD τ).loc main_v14_1) := var0At V c tLast0

theorem flushed0_5_eq (c : Dev nD) (t : Fin cfg0.N) (hf : (cfg0.win 5).flush t = true) :
    (dat0 V c).flushed 5 t = ((cfg0.win 5).blk t).view.read (Elt F) (mean0Res V c) := by
  have hN : cfg0.N = 125 := N_0
  have h3 : t.val = 124 := by have := (flush0_5 t).mp hf; have := t.isLt; omega
  obtain rfl : t = tLast0 := Fin.ext h3
  show (cfg0.win 5).cut (grid0.coords tLast0) ((dat0 V c).after 5 tLast0) = _
  rw [after0_5]
  have hz' : (fun a => win0_5.index tLast0 a * main_v14_0.ty.shape.size a) = fun _ => 0 := funext fun a => by fin_cases a <;> decide +kernel
  exact (Memref.read_access_unit_zero (Elt F) main_v14_0 hz' (fun a => by rw [congrFun hz' a]; simp) (mean0Res V c)).symm

theorem mean0 (c : Dev nD) : (dat0 V c).arrAt 5 cfg0.N = mean0Res V c :=
  (dat0 V c).arrAt_eq_of_cover 5 (mean0Res V c) (flushed0_5_eq V c) fun i =>
    ⟨tLast0, (flush0_5 tLast0).mpr rfl, by
      show i ∈ ((View.whole main_v14_0).slice (win0_5.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_5.index tLast0 0 * win0_5.size 0 ≤ (i 0 : Nat) ∧ (i 0 : Nat) < win0_5.index tLast0 0 * win0_5.size 0 + win0_5.xsize (grid0.coords tLast0) 0
                  rw [show win0_5.index tLast0 0 * win0_5.size 0 = 0 from by decide +kernel, show win0_5.xsize (grid0.coords tLast0) 0 = 1 from by decide +kernel]; omega
      | ⟨1, _⟩ => show win0_5.index tLast0 1 * win0_5.size 1 ≤ (i 1 : Nat) ∧ (i 1 : Nat) < win0_5.index tLast0 1 * win0_5.size 1 + win0_5.xsize (grid0.coords tLast0) 1
                  rw [show win0_5.index tLast0 1 * win0_5.size 1 = 0 from by decide +kernel, show win0_5.xsize (grid0.coords tLast0) 1 = 128 from by decide +kernel]; omega⟩

theorem flushed0_6_eq (c : Dev nD) (t : Fin cfg0.N) (hf : (cfg0.win 6).flush t = true) :
    (dat0 V c).flushed 6 t = ((cfg0.win 6).blk t).view.read (Elt F) (var0Res V c) := by
  have hN : cfg0.N = 125 := N_0
  have h3 : t.val = 124 := by have := (flush0_6 t).mp hf; have := t.isLt; omega
  obtain rfl : t = tLast0 := Fin.ext h3
  show (cfg0.win 6).cut (grid0.coords tLast0) ((dat0 V c).after 6 tLast0) = _
  rw [after0_6]
  have hz' : (fun a => win0_6.index tLast0 a * main_v14_1.ty.shape.size a) = fun _ => 0 := funext fun a => by fin_cases a <;> decide +kernel
  exact (Memref.read_access_unit_zero (Elt F) main_v14_1 hz' (fun a => by rw [congrFun hz' a]; simp) (var0Res V c)).symm

theorem var0 (c : Dev nD) : (dat0 V c).arrAt 6 cfg0.N = var0Res V c :=
  (dat0 V c).arrAt_eq_of_cover 6 (var0Res V c) (flushed0_6_eq V c) fun i =>
    ⟨tLast0, (flush0_6 tLast0).mpr rfl, by
      show i ∈ ((View.whole main_v14_1).slice (win0_6.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_6.index tLast0 0 * win0_6.size 0 ≤ (i 0 : Nat) ∧ (i 0 : Nat) < win0_6.index tLast0 0 * win0_6.size 0 + win0_6.xsize (grid0.coords tLast0) 0
                  rw [show win0_6.index tLast0 0 * win0_6.size 0 = 0 from by decide +kernel, show win0_6.xsize (grid0.coords tLast0) 0 = 1 from by decide +kernel]; omega
      | ⟨1, _⟩ => show win0_6.index tLast0 1 * win0_6.size 1 ≤ (i 1 : Nat) ∧ (i 1 : Nat) < win0_6.index tLast0 1 * win0_6.size 1 + win0_6.xsize (grid0.coords tLast0) 1
                  rw [show win0_6.index tLast0 1 * win0_6.size 1 = 0 from by decide +kernel, show win0_6.xsize (grid0.coords tLast0) 1 = 128 from by decide +kernel]; omega⟩

end Cert.Kernel.Hand

end
-- ==== Proof.K.Stats2Run.lean ====
import proofs.«110491_j38809324487019_2_alg».proof.Proof.Gen.Kernel.Launch
import proofs.«110491_j38809324487019_2_alg».proof.Proof.Gen.Kernel.Skeleton
import proofs.«110491_j38809324487019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 2: the statistics kernel over the edge rows (one activation input) — the windows' blocks and the body's three runs

The kernel sweeps 125 row blocks. Two (1,128) scratch rows carry the running column sum and the running
column sum of squares of the linear layer's output from one grid point to the next: the first point zeroes them
before accumulating, every point adds its block's column sums, and the last point turns the totals into
the mean and the (clamped) variance, which it stores into the two output windows. The outputs' block
index is constant, so only the last point writes them back; at every other point the output windows
are idle and their staging buffers are handed back as found.

Everything is stated at a parameter `V`: the TensorCore's buffer contents when the region is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not: unfetched,
    the block index has not moved. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- The first conditional (zero the accumulators) is taken at the first point only. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional (finish: mean and variance) is taken at the last point only. -/
abbrev cond2_1 (i : grid2.Coords) : Prop := k2_cond2 i = 1#1
theorem hcond2_1 : ∀ t : Fin cfg2.N, cond2_1 (grid2.coords t) ↔ t.val = 124 :=
  (by decide +kernel : ∀ t : Fin grid2.N, cond2_1 (grid2.coords t) ↔ t.val = 124)

/-! ## Where the windows are idle, and where the outputs are written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the two outputs are idle and are not written back. -/
theorem idleAt2_3 : ∀ t : Fin cfg2.N, ¬cond2_1 (grid2.coords t) → cfg2.idle 3 (grid2.coords t) = true := by decide +kernel
theorem idleAt2_4 : ∀ t : Fin cfg2.N, ¬cond2_1 (grid2.coords t) → cfg2.idle 4 (grid2.coords t) = true := by decide +kernel
theorem noFlush2_3 : ∀ t : Fin cfg2.N, ¬cond2_1 (grid2.coords t) → (cfg2.win 3).flush t = false := by decide +kernel
theorem noFlush2_4 : ∀ t : Fin cfg2.N, ¬cond2_1 (grid2.coords t) → (cfg2.win 4).flush t = false := by decide +kernel
/-- At the last point they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The staging memrefs at a point, and the two scratch rows -/

abbrev ms2_0 (t : Fin cfg2.N) : Memref sig .tc .vmem S6400x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
/-- The running column sum and the running column sum of squares: whole scoped buffers of the kernel's own. -/
abbrev scM2_0 : Memref sig .tc .vmem S1x128 .f32 := Memref.whole cc2_scratch0
abbrev scM2_1 : Memref sig .tc .vmem S1x128 .f32 := Memref.whole cc2_scratch1

/-- The region invariant of a kernel that describes nothing (every scoped buffer no window stages at some
    contents, the generator register at some state), with the two scratch rows taken out of the scoped rest. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The body's run, case by case

Every load and store of the body goes through the whole staging buffer (the unit rectangle at zero offsets), so a load
reads the contents and a store leaves its payload. -/

theorem off00_2 : (![0, 0] : Fin 2 → Nat) = fun _ => 0 := by funext a; fin_cases a <;> rfl

/-- A load through the whole buffer reads its contents. -/
theorem readAt_whole2 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store through the whole buffer, last, leaves its payload whatever the earlier stores were. -/
theorem read_writes_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 4000000 in
/-- THE FIRST point (the zeroing conditional taken, the finishing one not): whatever the two scratch rows held, the running
    sum becomes the block's column sums over the zero row, the running sum of squares the block's column sums of squares
    over the zero row; the inputs and the two idle outputs are left as found. -/
theorem kernelRun2_first (c : Dev nD) (i : grid2.Coords)
    (arg1 : Memref sig .tc .vmem S6400x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole) (hc0 : cond2_0 i) (hc1 : ¬cond2_1 i)
    (x0 : Vec F S6400x128 .bf16) (x1 : Vec F S128x128 .f32) (x2 : Vec F S1x128 .f32) (xi0 xi1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi0 ∗ owns (c : Thread nD τ) arg5 fullShare xi1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi0 ∗ owns (c : Thread nD τ) arg5 fullShare xi1
            ∗ owns (c : Thread nD τ) arg6 fullShare (k2_pay4 x2 x0 x1 k2_pay2) ∗ owns (c : Thread nD τ) arg7 fullShare (k2_pay5 x2 x0 x1 k2_pay3)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%fo0, %hfo0, HO0⟩, ⟨%fo1, %hfo1, HO1⟩, ⟨%ds0, %fs0, -, HS0⟩, ⟨%ds1, %fs1, -, HS1⟩, Hk⟩
  subst hf0; subst hf1; subst hf2; subst hfo0; subst hfo1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole2 arg6.view fs0 off00_2]
    try sl_unfold_run_names
    rw [View.readCov_unit_zero arg6.view off00_2, readAt_whole2 arg1.view f0 off00_2, readAt_whole2 arg2.view f1 off00_2, readAt_whole2 arg3.view f2 off00_2]
    try rfl
  iexists _; isplitr
  swap; · iexact HS1
  ipureintro
  try sl_unfold_run_names
  rw [read_writes_whole2 arg7.view fs1 off00_2]
  try sl_unfold_run_names
  rw [View.readCov_unit_zero arg7.view off00_2, readAt_whole2 arg1.view f0 off00_2, readAt_whole2 arg2.view f1 off00_2, readAt_whole2 arg3.view f2 off00_2]
  try rfl

set_option maxHeartbeats 4000000 in
/-- A MIDDLE point (neither conditional taken): the inputs and the two idle outputs are left as found; the running sum
    and the running sum of squares advance by the block's column sums. -/
theorem kernelRun2_mid (c : Dev nD) (i : grid2.Coords)
    (arg1 : Memref sig .tc .vmem S6400x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole) (hc0 : ¬cond2_0 i) (hc1 : ¬cond2_1 i)
    (x0 : Vec F S6400x128 .bf16) (x1 : Vec F S128x128 .f32) (x2 : Vec F S1x128 .f32) (xi0 xi1 s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi0 ∗ owns (c : Thread nD τ) arg5 fullShare xi1
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare xi0 ∗ owns (c : Thread nD τ) arg5 fullShare xi1
            ∗ owns (c : Thread nD τ) arg6 fullShare (k2_pay4 x2 x0 x1 s0) ∗ owns (c : Thread nD τ) arg7 fullShare (k2_pay5 x2 x0 x1 s1)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%fo0, %hfo0, HO0⟩, ⟨%fo1, %hfo1, HO1⟩, ⟨%fs0, %hfs0, HS0⟩, ⟨%fs1, %hfs1, HS1⟩, Hk⟩
  subst hf0; subst hf1; subst hf2; subst hfo0; subst hfo1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole2 arg6.view fs0 off00_2]
    try sl_unfold_run_names
    rw [readAt_whole2 arg1.view f0 off00_2, readAt_whole2 arg2.view f1 off00_2, readAt_whole2 arg3.view f2 off00_2, readAt_whole2 arg6.view fs0 off00_2]
    try rfl
  iexists _; isplitr
  swap; · iexact HS1
  ipureintro
  try sl_unfold_run_names
  rw [read_writes_whole2 arg7.view fs1 off00_2]
  try sl_unfold_run_names
  rw [readAt_whole2 arg1.view f0 off00_2, readAt_whole2 arg2.view f1 off00_2, readAt_whole2 arg3.view f2 off00_2, readAt_whole2 arg7.view fs1 off00_2]
  try rfl

set_option maxHeartbeats 4000000 in
/-- THE LAST point (the finishing conditional taken, the zeroing one not): the accumulators advance as at a middle point,
    and the two outputs, whatever they held, are left at the mean and the variance computed from the final totals. -/
theorem kernelRun2_last (c : Dev nD) (i : grid2.Coords)
    (arg1 : Memref sig .tc .vmem S6400x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole) (hc0 : ¬cond2_0 i) (hc1 : cond2_1 i)
    (x0 : Vec F S6400x128 .bf16) (x1 : Vec F S128x128 .f32) (x2 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k2_pay6 (k2_pay4 x2 x0 x1 s0)) ∗ owns (c : Thread nD τ) arg5 fullShare (k2_pay7 (k2_pay4 x2 x0 x1 s0) (k2_pay5 x2 x0 x1 s1))
            ∗ owns (c : Thread nD τ) arg6 fullShare (k2_pay4 x2 x0 x1 s0) ∗ owns (c : Thread nD τ) arg7 fullShare (k2_pay5 x2 x0 x1 s1)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%d3, %fo0, -, HO0⟩, ⟨%d4, %fo1, -, HO1⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO0]
  · iexists _; isplitr
    swap; · iexact HO0
    ipureintro
    try sl_unfold_run_names
    rw [read_writes_whole2 arg4.view fo0 off00_2]
    try sl_unfold_run_names
    rw [View.readCov_unit_zero arg6.view off00_2, readAt_whole2 arg1.view f0 off00_2, readAt_whole2 arg2.view f1 off00_2, readAt_whole2 arg3.view f2 off00_2, readAt_whole2 arg6.view fs0 off00_2]
    try rfl
  isplitl [HO1]
  · iexists _; isplitr
    swap; · iexact HO1
    ipureintro
    try sl_unfold_run_names
    rw [read_writes_whole2 arg5.view fo1 off00_2]
    try sl_unfold_run_names
    rw [View.readCov_unit_zero arg6.view off00_2, View.readCov_unit_zero arg7.view off00_2, readAt_whole2 arg1.view f0 off00_2, readAt_whole2 arg2.view f1 off00_2, readAt_whole2 arg3.view f2 off00_2, readAt_whole2 arg6.view fs0 off00_2, readAt_whole2 arg7.view fs1 off00_2]
    try rfl
  isplitl [HS0]
  · iexists _; isplitr
    swap; · iexact HS0
    ipureintro
    try sl_unfold_run_names
    rw [read_writes_whole2 arg6.view fs0 off00_2]
    try sl_unfold_run_names
    rw [readAt_whole2 arg1.view f0 off00_2, readAt_whole2 arg2.view f1 off00_2, readAt_whole2 arg3.view f2 off00_2, readAt_whole2 arg6.view fs0 off00_2]
    try rfl
  iexists _; isplitr
  swap; · iexact HS1
  ipureintro
  try sl_unfold_run_names
  rw [read_writes_whole2 arg7.view fs1 off00_2]
  try sl_unfold_run_names
  rw [readAt_whole2 arg1.view f0 off00_2, readAt_whole2 arg2.view f1 off00_2, readAt_whole2 arg3.view f2 off00_2, readAt_whole2 arg7.view fs1 off00_2]
  try rfl

end Cert.Kernel.Hand

end
-- ==== Proof.K.Stats2.lean ====
import proofs.«110491_j38809324487019_2_alg».proof.Proof.K.Stats2Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 2, the statistics kernel: the accumulators, the proof data, the body obligation, the outputs

Over the three runs of the body (first, middle, last point): the running column sum and sum of squares after each point
by recursion on the point, the region's invariant carrying the two scratch rows at them, the proof data, the body
obligation, the invariant at the region's two ends, and the two output arrays after the region: the mean and the
variance computed from the totals after the last point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulators, point by point -/

/-- The running column sum after point `n`: the first point accumulates onto the zeroed row, each later
    point onto what the point before left. -/
def accSum2 (c : Dev nD) : (n : ℕ) → n < cfg2.N → Vec F S1x128 .f32
  | 0, hn => k2_pay4 (iblk2 V c 2 ⟨0, hn⟩) (iblk2 V c 0 ⟨0, hn⟩) (iblk2 V c 1 ⟨0, hn⟩) k2_pay2
  | n + 1, hn => k2_pay4 (iblk2 V c 2 ⟨n + 1, hn⟩) (iblk2 V c 0 ⟨n + 1, hn⟩) (iblk2 V c 1 ⟨n + 1, hn⟩) (accSum2 c n (Nat.lt_of_succ_lt hn))

/-- The running column sum of squares after point `n`. -/
def accSq2 (c : Dev nD) : (n : ℕ) → n < cfg2.N → Vec F S1x128 .f32
  | 0, hn => k2_pay5 (iblk2 V c 2 ⟨0, hn⟩) (iblk2 V c 0 ⟨0, hn⟩) (iblk2 V c 1 ⟨0, hn⟩) k2_pay3
  | n + 1, hn => k2_pay5 (iblk2 V c 2 ⟨n + 1, hn⟩) (iblk2 V c 0 ⟨n + 1, hn⟩) (iblk2 V c 1 ⟨n + 1, hn⟩) (accSq2 c n (Nat.lt_of_succ_lt hn))

theorem accSum2_zero (c : Dev nD) (t : Fin cfg2.N) (h : t.val = 0) :
    accSum2 V c t.val t.isLt = k2_pay4 (iblk2 V c 2 t) (iblk2 V c 0 t) (iblk2 V c 1 t) k2_pay2 := by
  obtain ⟨n, hn⟩ := t; subst h; rfl

theorem accSum2_pos (c : Dev nD) (t : Fin cfg2.N) (h : t.val ≠ 0) :
    accSum2 V c t.val t.isLt = k2_pay4 (iblk2 V c 2 t) (iblk2 V c 0 t) (iblk2 V c 1 t) (accSum2 V c (t.val - 1) (Nat.lt_of_le_of_lt (Nat.sub_le _ _) t.isLt)) := by
  obtain ⟨n, hn⟩ := t
  cases n with
  | zero => exact absurd rfl h
  | succ n => rfl

theorem accSq2_zero (c : Dev nD) (t : Fin cfg2.N) (h : t.val = 0) :
    accSq2 V c t.val t.isLt = k2_pay5 (iblk2 V c 2 t) (iblk2 V c 0 t) (iblk2 V c 1 t) k2_pay3 := by
  obtain ⟨n, hn⟩ := t; subst h; rfl

theorem accSq2_pos (c : Dev nD) (t : Fin cfg2.N) (h : t.val ≠ 0) :
    accSq2 V c t.val t.isLt = k2_pay5 (iblk2 V c 2 t) (iblk2 V c 0 t) (iblk2 V c 1 t) (accSq2 V c (t.val - 1) (Nat.lt_of_le_of_lt (Nat.sub_le _ _) t.isLt)) := by
  obtain ⟨n, hn⟩ := t
  cases n with
  | zero => exact absurd rfl h
  | succ n => rfl

/-- The mean and the variance the last point computes from the totals (what the two output windows' staging buffers
    hold after the body at a point, were it the last: consulted at the last point only). -/
def mean2At (c : Dev nD) (t : Fin cfg2.N) : Vec F S1x128 .f32 := k2_pay6 (accSum2 V c t.val t.isLt)
def var2At (c : Dev nD) (t : Fin cfg2.N) : Vec F S1x128 .f32 := k2_pay7 (accSum2 V c t.val t.isLt) (accSq2 V c t.val t.isLt)

/-! ## The region invariant -/

/-- The scoped buffers that are neither a staging buffer of this region nor its two scratch rows, each at some contents. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- Before the first point: every scoped buffer no window stages at some contents, the generator register at some state.
    After point `n`: the two scratch rows at the running sum and the running sum of squares, the other scoped buffers at
    some contents, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accSum2 V c n hn) ∗ owns (c : Thread nD τ) scM2_1 fullShare (accSq2 V c n hn))
      ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accSum2 V c n hn) ∗ owns (c : Thread nD τ) scM2_1 fullShare (accSq2 V c n hn))
      ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accSum2 V c (n - 1) (by omega)) ∗ owns (c : Thread nD τ) scM2_1 fullShare (accSq2 V c (n - 1) (by omega)))
      ∗ restBut2 c) ∗ (∃ r, prngReg c r)) := by
  cases n with
  | zero => exact absurd rfl hz
  | succ n => rfl

/-! ## The proof data -/

/-- The proof data of the region on core `c`: the arrays as the region finds them; after the body at point `t` each
    input's buffer at its block, the two outputs' at the mean and variance of the totals so far (read at the last point
    only: elsewhere the windows are idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => mean2At V c t
    | ⟨4, _⟩ => var2At V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem owed2 (c : Dev nD) (t : Fin (cfg2.N + 1)) : (dat2 V c).owed t = 0 := rfl
theorem recorded2 (c : Dev nD) (t : Fin (cfg2.N + 1)) : (dat2 V c).recorded t = Set.univ := rfl
theorem share2 (c : Dev nD) (w : Fin cfg2.W) : (dat2 V c).share w = fullShare :=
  (dat2 V c).share_full (fun _ => rfl) w

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = mean2At V c t := by dsimp only [dat2]
theorem after2_4 (c : Dev nD) (t : Fin cfg2.N) : (dat2 V c).after 4 t = var2At V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem PhiS2_castSucc (c : Dev nD) (t : Fin cfg2.N) :
    (dat2 V c).Φ t.castSucc = PhiS2 V c t.val (Nat.le_of_lt t.isLt) := by
  dsimp only [dat2]; simp only [Fin.coe_castSucc]

/-- The input arrays are never written. -/
theorem arrIn2_0 (c : Dev nD) (t : ℕ) : (dat2 V c).arrAt 0 t = (dat2 V c).A 0 := (dat2 V c).arrAt_in 0 rfl t
theorem arrIn2_1 (c : Dev nD) (t : ℕ) : (dat2 V c).arrAt 1 t = (dat2 V c).A 1 := (dat2 V c).arrAt_in 1 rfl t
theorem arrIn2_2 (c : Dev nD) (t : ℕ) : (dat2 V c).arrAt 2 t = (dat2 V c).A 2 := (dat2 V c).arrAt_in 2 rfl t

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' staging buffers hold their blocks; the point is the first, the last or a middle
    one; the invariant hands the body the two scratch rows at what the point before left (at anything at the first point)
    and takes them back at this point's totals; away from the last point the two outputs are handed back as found, at the
    last they hold the mean and the variance of the totals. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 125 := lt_of_lt_of_eq t.isLt (show cfg2.N = 125 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val = 0
  · have h1 : ¬t.val = 124 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [accSum2_zero V c t h0, accSq2_zero V c t h0]
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%do0, HO0⟩, ⟨%do1, HO1⟩⟩
    iapply (kernelRun2_first c (grid2.coords t) _ _ _ _ _ _ _ _ _ _ _ _ _ _ ((hcond2_0 t).mpr h0) (fun h => h1 ((hcond2_1 t).mp h))
      (iblk2 V c 0 t) (iblk2 V c 1 t) (iblk2 V c 2 t) _ _ Set.univ _)
    isplitl [H0]; · iexact H0
    isplitl [H1]; · iexact H1
    isplitl [H2]; · iexact H2
    isplitl [HO0]; · iexact HO0
    isplitl [HO1]; · iexact HO1
    isplitl [HS0]; · iexact HS0
    isplitl [HS1]; · iexact HS1
    iintro ⟨H0, H1, H2, HO0, HO1, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [HO0]; · iexists _; iexact HO0
    iexists _; iexact HO1
  · by_cases h1 : t.val = 124
    · rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      unfold mean2At var2At
      rw [accSum2_pos V c t h0, accSq2_pos V c t h0]
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%do0, HO0⟩, ⟨%do1, HO1⟩⟩
      iapply (kernelRun2_last c (grid2.coords t) _ _ _ _ _ _ _ _ _ _ _ _ _ _ (fun h => h0 ((hcond2_0 t).mp h)) ((hcond2_1 t).mpr h1)
        (iblk2 V c 0 t) (iblk2 V c 1 t) (iblk2 V c 2 t) _ _ Set.univ _)
      isplitl [H0]; · iexact H0
      isplitl [H1]; · iexact H1
      isplitl [H2]; · iexact H2
      isplitl [HO0]; · iexists _; iexact HO0
      isplitl [HO1]; · iexists _; iexact HO1
      isplitl [HS0]; · iexact HS0
      isplitl [HS1]; · iexact HS1
      iintro ⟨H0, H1, H2, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [HO0]; · iexact HO0
      iexact HO1
    · rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [accSum2_pos V c t h0, accSq2_pos V c t h0]
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%do0, HO0⟩, ⟨%do1, HO1⟩⟩
      iapply (kernelRun2_mid c (grid2.coords t) _ _ _ _ _ _ _ _ _ _ _ _ _ _ (fun h => h0 ((hcond2_0 t).mp h)) (fun h => h1 ((hcond2_1 t).mp h))
        (iblk2 V c 0 t) (iblk2 V c 1 t) (iblk2 V c 2 t) _ _ _ _ Set.univ _)
      isplitl [H0]; · iexact H0
      isplitl [H1]; · iexact H1
      isplitl [H2]; · iexact H2
      isplitl [HO0]; · iexact HO0
      isplitl [HO1]; · iexact HO1
      isplitl [HS0]; · iexact HS0
      isplitl [HS1]; · iexact HS1
      iintro ⟨H0, H1, H2, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [HO0]; · iexists _; iexact HO0
      iexists _; iexact HO1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands the region is the invariant before the first point. -/
theorem PhiIn2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives it back: the two scratch rows' named contents are forgotten. -/
theorem PhiOut2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 125 := N_2; omega), PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-! ## What the region leaves in the two output arrays

The one write-back of each output, at the last point, writes the whole array: block (0, 0) of the [1,128] array read
through zero offsets is the array, and the last point's block covers it. -/

/-- The last point. -/
def tLast2 : Fin cfg2.N := ⟨124, by rw [show cfg2.N = 125 from N_2]; decide⟩

/-- The mean and the variance of the totals after the last point, as contents of the two result arrays (each array is
    its window's one block). -/
abbrev mean2Res (c : Dev nD) : Buf (Elt F) ((c : Thread nD τ).loc main_v20_0) := mean2At V c tLast2
abbrev var2Res (c : Dev nD) : Buf (Elt F) ((c : Thread nD τ).loc main_v20_1) := var2At V c tLast2

theorem flushed2_3_eq (c : Dev nD) (t : Fin cfg2.N) (hf : (cfg2.win 3).flush t = true) :
    (dat2 V c).flushed 3 t = ((cfg2.win 3).blk t).view.read (Elt F) (mean2Res V c) := by
  have hN : cfg2.N = 125 := N_2
  have h3 : t.val = 124 := by have := (flush2_3 t).mp hf; have := t.isLt; omega
  obtain rfl : t = tLast2 := Fin.ext h3
  show (cfg2.win 3).cut (grid2.coords tLast2) ((dat2 V c).after 3 tLast2) = _
  rw [after2_3]
  have hz' : (fun a => win2_3.index tLast2 a * main_v20_0.ty.shape.size a) = fun _ => 0 := funext fun a => by fin_cases a <;> decide +kernel
  exact (Memref.read_access_unit_zero (Elt F) main_v20_0 hz' (fun a => by rw [congrFun hz' a]; simp) (mean2Res V c)).symm

theorem mean2 (c : Dev nD) : (dat2 V c).arrAt 3 cfg2.N = mean2Res V c :=
  (dat2 V c).arrAt_eq_of_cover 3 (mean2Res V c) (flushed2_3_eq V c) fun i =>
    ⟨tLast2, (flush2_3 tLast2).mpr rfl, by
      show i ∈ ((View.whole main_v20_0).slice (win2_3.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_3.index tLast2 0 * win2_3.size 0 ≤ (i 0 : Nat) ∧ (i 0 : Nat) < win2_3.index tLast2 0 * win2_3.size 0 + win2_3.xsize (grid2.coords tLast2) 0
                  rw [show win2_3.index tLast2 0 * win2_3.size 0 = 0 from by decide +kernel, show win2_3.xsize (grid2.coords tLast2) 0 = 1 from by decide +kernel]; omega
      | ⟨1, _⟩ => show win2_3.index tLast2 1 * win2_3.size 1 ≤ (i 1 : Nat) ∧ (i 1 : Nat) < win2_3.index tLast2 1 * win2_3.size 1 + win2_3.xsize (grid2.coords tLast2) 1
                  rw [show win2_3.index tLast2 1 * win2_3.size 1 = 0 from by decide +kernel, show win2_3.xsize (grid2.coords tLast2) 1 = 128 from by decide +kernel]; omega⟩

theorem flushed2_4_eq (c : Dev nD) (t : Fin cfg2.N) (hf : (cfg2.win 4).flush t = true) :
    (dat2 V c).flushed 4 t = ((cfg2.win 4).blk t).view.read (Elt F) (var2Res V c) := by
  have hN : cfg2.N = 125 := N_2
  have h3 : t.val = 124 := by have := (flush2_4 t).mp hf; have := t.isLt; omega
  obtain rfl : t = tLast2 := Fin.ext h3
  show (cfg2.win 4).cut (grid2.coords tLast2) ((dat2 V c).after 4 tLast2) = _
  rw [after2_4]
  have hz' : (fun a => win2_4.index tLast2 a * main_v20_1.ty.shape.size a) = fun _ => 0 := funext fun a => by fin_cases a <;> decide +kernel
  exact (Memref.read_access_unit_zero (Elt F) main_v20_1 hz' (fun a => by rw [congrFun hz' a]; simp) (var2Res V c)).symm

theorem var2 (c : Dev nD) : (dat2 V c).arrAt 4 cfg2.N = var2Res V c :=
  (dat2 V c).arrAt_eq_of_cover 4 (var2Res V c) (flushed2_4_eq V c) fun i =>
    ⟨tLast2, (flush2_4 tLast2).mpr rfl, by
      show i ∈ ((View.whole main_v20_1).slice (win2_4.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_4.index tLast2 0 * win2_4.size 0 ≤ (i 0 : Nat) ∧ (i 0 : Nat) < win2_4.index tLast2 0 * win2_4.size 0 + win2_4.xsize (grid2.coords tLast2) 0
                  rw [show win2_4.index tLast2 0 * win2_4.size 0 = 0 from by decide +kernel, show win2_4.xsize (grid2.coords tLast2) 0 = 1 from by decide +kernel]; omega
      | ⟨1, _⟩ => show win2_4.index tLast2 1 * win2_4.size 1 ≤ (i 1 : Nat) ∧ (i 1 : Nat) < win2_4.index tLast2 1 * win2_4.size 1 + win2_4.xsize (grid2.coords tLast2) 1
                  rw [show win2_4.index tLast2 1 * win2_4.size 1 = 0 from by decide +kernel, show win2_4.xsize (grid2.coords tLast2) 1 = 128 from by decide +kernel]; omega⟩

end Cert.Kernel.Hand

end
-- ==== Proof.K.Stats4Run.lean ====
import proofs.«110491_j38809324487019_2_alg».proof.Proof.Gen.Kernel.Launch
import proofs.«110491_j38809324487019_2_alg».proof.Proof.Gen.Kernel.Skeleton
import proofs.«110491_j38809324487019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 4: the statistics kernel over the node rows (node features and aggregated messages) — the windows' blocks and the body's three runs

The kernel sweeps 10 row blocks. Two (1,128) scratch rows carry the running column sum and the running
column sum of squares of the linear layer's output from one grid point to the next: the first point zeroes them
before accumulating, every point adds its block's column sums, and the last point turns the totals into
the mean and the (clamped) variance, which it stores into the two output windows. The outputs' block
index is constant, so only the last point writes them back; at every other point the output windows
are idle and their staging buffers are handed back as found.

Everything is stated at a parameter `V`: the TensorCore's buffer contents when the region is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not: unfetched,
    the block index has not moved. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, over the grid -/

/-- The first conditional (zero the accumulators) is taken at the first point only. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second conditional (finish: mean and variance) is taken at the last point only. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are idle, and where the outputs are written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Away from the last point the two outputs are idle and are not written back. -/
theorem idleAt4_5 : ∀ t : Fin cfg4.N, ¬cond4_1 (grid4.coords t) → cfg4.idle 5 (grid4.coords t) = true := by decide +kernel
theorem idleAt4_6 : ∀ t : Fin cfg4.N, ¬cond4_1 (grid4.coords t) → cfg4.idle 6 (grid4.coords t) = true := by decide +kernel
theorem noFlush4_5 : ∀ t : Fin cfg4.N, ¬cond4_1 (grid4.coords t) → (cfg4.win 5).flush t = false := by decide +kernel
theorem noFlush4_6 : ∀ t : Fin cfg4.N, ¬cond4_1 (grid4.coords t) → (cfg4.win 6).flush t = false := by decide +kernel
/-- At the last point they are live. -/
theorem liveAt4_5 : ∀ t : Fin cfg4.N, cond4_1 (grid4.coords t) → cfg4.idle 5 (grid4.coords t) = false := by decide +kernel
theorem liveAt4_6 : ∀ t : Fin cfg4.N, cond4_1 (grid4.coords t) → cfg4.idle 6 (grid4.coords t) = false := by decide +kernel

/-! ## The staging memrefs at a point, and the two scratch rows -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
/-- The running column sum and the running column sum of squares: whole scoped buffers of the kernel's own. -/
abbrev scM4_0 : Memref sig .tc .vmem S1x128 .f32 := Memref.whole cc4_scratch0
abbrev scM4_1 : Memref sig .tc .vmem S1x128 .f32 := Memref.whole cc4_scratch1

/-- The region invariant of a kernel that describes nothing (every scoped buffer no window stages at some
    contents, the generator register at some state), with the two scratch rows taken out of the scoped rest. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The body's run, case by case

Every load and store of the body goes through the whole staging buffer (the unit rectangle at zero offsets), so a load
reads the contents and a store leaves its payload. -/

theorem off00_4 : (![0, 0] : Fin 2 → Nat) = fun _ => 0 := by funext a; fin_cases a <;> rfl

/-- A load through the whole buffer reads its contents. -/
theorem readAt_whole4 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store through the whole buffer, last, leaves its payload whatever the earlier stores were. -/
theorem read_writes_whole4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 4000000 in
/-- THE FIRST point (the zeroing conditional taken, the finishing one not): whatever the two scratch rows held, the running
    sum becomes the block's column sums over the zero row, the running sum of squares the block's column sums of squares
    over the zero row; the inputs and the two idle outputs are left as found. -/
theorem kernelRun4_first (c : Dev nD) (i : grid4.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) (xi0 xi1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi0 ∗ owns (c : Thread nD τ) arg7 fullShare xi1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi0 ∗ owns (c : Thread nD τ) arg7 fullShare xi1
            ∗ owns (c : Thread nD τ) arg8 fullShare (k4_pay7 x4 x0 x2 x1 x3 k4_pay5) ∗ owns (c : Thread nD τ) arg9 fullShare (k4_pay1 (k4_pay8 x4 x0 x2 x1 x3 k4_pay6))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%fo0, %hfo0, HO0⟩, ⟨%fo1, %hfo1, HO1⟩, ⟨%ds0, %fs0, -, HS0⟩, ⟨%ds1, %fs1, -, HS1⟩, Hk⟩
  subst hf0; subst hf1; subst hf2; subst hf3; subst hf4; subst hfo0; subst hfo1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole4 arg8.view fs0 off00_4]
    try sl_unfold_run_names
    rw [View.readCov_unit_zero arg8.view off00_4, readAt_whole4 arg1.view f0 off00_4, readAt_whole4 arg2.view f1 off00_4, readAt_whole4 arg3.view f2 off00_4, readAt_whole4 arg4.view f3 off00_4, readAt_whole4 arg5.view f4 off00_4]
    try rfl
  iexists _; isplitr
  swap; · iexact HS1
  ipureintro
  try sl_unfold_run_names
  rw [read_writes_whole4 arg9.view fs1 off00_4]
  try sl_unfold_run_names
  rw [View.readCov_unit_zero arg9.view off00_4, readAt_whole4 arg1.view f0 off00_4, readAt_whole4 arg2.view f1 off00_4, readAt_whole4 arg3.view f2 off00_4, readAt_whole4 arg4.view f3 off00_4, readAt_whole4 arg5.view f4 off00_4]
  try rfl

set_option maxHeartbeats 4000000 in
/-- A MIDDLE point (neither conditional taken): the inputs and the two idle outputs are left as found; the running sum
    and the running sum of squares advance by the block's column sums. -/
theorem kernelRun4_mid (c : Dev nD) (i : grid4.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xi0 xi1 s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi0 ∗ owns (c : Thread nD τ) arg7 fullShare xi1
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi0 ∗ owns (c : Thread nD τ) arg7 fullShare xi1
            ∗ owns (c : Thread nD τ) arg8 fullShare (k4_pay7 x4 x0 x2 x1 x3 s0) ∗ owns (c : Thread nD τ) arg9 fullShare (k4_pay1 (k4_pay8 x4 x0 x2 x1 x3 s1))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%fo0, %hfo0, HO0⟩, ⟨%fo1, %hfo1, HO1⟩, ⟨%fs0, %hfs0, HS0⟩, ⟨%fs1, %hfs1, HS1⟩, Hk⟩
  subst hf0; subst hf1; subst hf2; subst hf3; subst hf4; subst hfo0; subst hfo1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole4 arg8.view fs0 off00_4]
    try sl_unfold_run_names
    rw [readAt_whole4 arg1.view f0 off00_4, readAt_whole4 arg2.view f1 off00_4, readAt_whole4 arg3.view f2 off00_4, readAt_whole4 arg4.view f3 off00_4, readAt_whole4 arg5.view f4 off00_4, readAt_whole4 arg8.view fs0 off00_4]
    try rfl
  iexists _; isplitr
  swap; · iexact HS1
  ipureintro
  try sl_unfold_run_names
  rw [read_writes_whole4 arg9.view fs1 off00_4]
  try sl_unfold_run_names
  rw [readAt_whole4 arg1.view f0 off00_4, readAt_whole4 arg2.view f1 off00_4, readAt_whole4 arg3.view f2 off00_4, readAt_whole4 arg4.view f3 off00_4, readAt_whole4 arg5.view f4 off00_4, readAt_whole4 arg9.view fs1 off00_4]
  try rfl

set_option maxHeartbeats 4000000 in
/-- THE LAST point (the finishing conditional taken, the zeroing one not): the accumulators advance as at a middle point,
    and the two outputs, whatever they held, are left at the mean and the variance computed from the final totals. -/
theorem kernelRun4_last (c : Dev nD) (i : grid4.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k4_pay2 (k4_pay7 x4 x0 x2 x1 x3 s0)) ∗ owns (c : Thread nD τ) arg7 fullShare (k4_pay3 (k4_pay7 x4 x0 x2 x1 x3 s0) (k4_pay1 (k4_pay8 x4 x0 x2 x1 x3 s1)))
            ∗ owns (c : Thread nD τ) arg8 fullShare (k4_pay7 x4 x0 x2 x1 x3 s0) ∗ owns (c : Thread nD τ) arg9 fullShare (k4_pay1 (k4_pay8 x4 x0 x2 x1 x3 s1))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d3, %fo0, -, HO0⟩, ⟨%d4, %fo1, -, HO1⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists _; isplitr
    swap; · iexact HO0
    ipureintro
    try sl_unfold_run_names
    rw [read_writes_whole4 arg6.view fo0 off00_4]
    try sl_unfold_run_names
    rw [View.readCov_unit_zero arg8.view off00_4, readAt_whole4 arg1.view f0 off00_4, readAt_whole4 arg2.view f1 off00_4, readAt_whole4 arg3.view f2 off00_4, readAt_whole4 arg4.view f3 off00_4, readAt_whole4 arg5.view f4 off00_4, readAt_whole4 arg8.view fs0 off00_4]
    try rfl
  isplitl [HO1]
  · iexists _; isplitr
    swap; · iexact HO1
    ipureintro
    try sl_unfold_run_names
    rw [read_writes_whole4 arg7.view fo1 off00_4]
    try sl_unfold_run_names
    rw [View.readCov_unit_zero arg8.view off00_4, View.readCov_unit_zero arg9.view off00_4, readAt_whole4 arg1.view f0 off00_4, readAt_whole4 arg2.view f1 off00_4, readAt_whole4 arg3.view f2 off00_4, readAt_whole4 arg4.view f3 off00_4, readAt_whole4 arg5.view f4 off00_4, readAt_whole4 arg8.view fs0 off00_4, readAt_whole4 arg9.view fs1 off00_4]
    try rfl
  isplitl [HS0]
  · iexists _; isplitr
    swap; · iexact HS0
    ipureintro
    try sl_unfold_run_names
    rw [read_writes_whole4 arg8.view fs0 off00_4]
    try sl_unfold_run_names
    rw [readAt_whole4 arg1.view f0 off00_4, readAt_whole4 arg2.view f1 off00_4, readAt_whole4 arg3.view f2 off00_4, readAt_whole4 arg4.view f3 off00_4, readAt_whole4 arg5.view f4 off00_4, readAt_whole4 arg8.view fs0 off00_4]
    try rfl
  iexists _; isplitr
  swap; · iexact HS1
  ipureintro
  try sl_unfold_run_names
  rw [read_writes_whole4 arg9.view fs1 off00_4]
  try sl_unfold_run_names
  rw [readAt_whole4 arg1.view f0 off00_4, readAt_whole4 arg2.view f1 off00_4, readAt_whole4 arg3.view f2 off00_4, readAt_whole4 arg4.view f3 off00_4, readAt_whole4 arg5.view f4 off00_4, readAt_whole4 arg9.view fs1 off00_4]
  try rfl

end Cert.Kernel.Hand

end
-- ==== Proof.K.Stats4.lean ====
import proofs.«110491_j38809324487019_2_alg».proof.Proof.K.Stats4Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 4, the statistics kernel: the accumulators, the proof data, the body obligation, the outputs

Over the three runs of the body (first, middle, last point): the running column sum and sum of squares after each point
by recursion on the point, the region's invariant carrying the two scratch rows at them, the proof data, the body
obligation, the invariant at the region's two ends, and the two output arrays after the region: the mean and the
variance computed from the totals after the last point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulators, point by point -/

/-- The running column sum after point `n`: the first point accumulates onto the zeroed row, each later
    point onto what the point before left. -/
def accSum4 (c : Dev nD) : (n : ℕ) → n < cfg4.N → Vec F S1x128 .f32
  | 0, hn => k4_pay7 (iblk4 V c 4 ⟨0, hn⟩) (iblk4 V c 0 ⟨0, hn⟩) (iblk4 V c 2 ⟨0, hn⟩) (iblk4 V c 1 ⟨0, hn⟩) (iblk4 V c 3 ⟨0, hn⟩) k4_pay5
  | n + 1, hn => k4_pay7 (iblk4 V c 4 ⟨n + 1, hn⟩) (iblk4 V c 0 ⟨n + 1, hn⟩) (iblk4 V c 2 ⟨n + 1, hn⟩) (iblk4 V c 1 ⟨n + 1, hn⟩) (iblk4 V c 3 ⟨n + 1, hn⟩) (accSum4 c n (Nat.lt_of_succ_lt hn))

/-- The running column sum of squares after point `n`. -/
def accSq4 (c : Dev nD) : (n : ℕ) → n < cfg4.N → Vec F S1x128 .f32
  | 0, hn => k4_pay1 (k4_pay8 (iblk4 V c 4 ⟨0, hn⟩) (iblk4 V c 0 ⟨0, hn⟩) (iblk4 V c 2 ⟨0, hn⟩) (iblk4 V c 1 ⟨0, hn⟩) (iblk4 V c 3 ⟨0, hn⟩) k4_pay6)
  | n + 1, hn => k4_pay1 (k4_pay8 (iblk4 V c 4 ⟨n + 1, hn⟩) (iblk4 V c 0 ⟨n + 1, hn⟩) (iblk4 V c 2 ⟨n + 1, hn⟩) (iblk4 V c 1 ⟨n + 1, hn⟩) (iblk4 V c 3 ⟨n + 1, hn⟩) (accSq4 c n (Nat.lt_of_succ_lt hn)))

theorem accSum4_zero (c : Dev nD) (t : Fin cfg4.N) (h : t.val = 0) :
    accSum4 V c t.val t.isLt = k4_pay7 (iblk4 V c 4 t) (iblk4 V c 0 t) (iblk4 V c 2 t) (iblk4 V c 1 t) (iblk4 V c 3 t) k4_pay5 := by
  obtain ⟨n, hn⟩ := t; subst h; rfl

theorem accSum4_pos (c : Dev nD) (t : Fin cfg4.N) (h : t.val ≠ 0) :
    accSum4 V c t.val t.isLt = k4_pay7 (iblk4 V c 4 t) (iblk4 V c 0 t) (iblk4 V c 2 t) (iblk4 V c 1 t) (iblk4 V c 3 t) (accSum4 V c (t.val - 1) (Nat.lt_of_le_of_lt (Nat.sub_le _ _) t.isLt)) := by
  obtain ⟨n, hn⟩ := t
  cases n with
  | zero => exact absurd rfl h
  | succ n => rfl

theorem accSq4_zero (c : Dev nD) (t : Fin cfg4.N) (h : t.val = 0) :
    accSq4 V c t.val t.isLt = k4_pay1 (k4_pay8 (iblk4 V c 4 t) (iblk4 V c 0 t) (iblk4 V c 2 t) (iblk4 V c 1 t) (iblk4 V c 3 t) k4_pay6) := by
  obtain ⟨n, hn⟩ := t; subst h; rfl

theorem accSq4_pos (c : Dev nD) (t : Fin cfg4.N) (h : t.val ≠ 0) :
    accSq4 V c t.val t.isLt = k4_pay1 (k4_pay8 (iblk4 V c 4 t) (iblk4 V c 0 t) (iblk4 V c 2 t) (iblk4 V c 1 t) (iblk4 V c 3 t) (accSq4 V c (t.val - 1) (Nat.lt_of_le_of_lt (Nat.sub_le _ _) t.isLt))) := by
  obtain ⟨n, hn⟩ := t
  cases n with
  | zero => exact absurd rfl h
  | succ n => rfl

/-- The mean and the variance the last point computes from the totals (what the two output windows' staging buffers
    hold after the body at a point, were it the last: consulted at the last point only). -/
def mean4At (c : Dev nD) (t : Fin cfg4.N) : Vec F S1x128 .f32 := k4_pay2 (accSum4 V c t.val t.isLt)
def var4At (c : Dev nD) (t : Fin cfg4.N) : Vec F S1x128 .f32 := k4_pay3 (accSum4 V c t.val t.isLt) (accSq4 V c t.val t.isLt)

/-! ## The region invariant -/

/-- The scoped buffers that are neither a staging buffer of this region nor its two scratch rows, each at some contents. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- Before the first point: every scoped buffer no window stages at some contents, the generator register at some state.
    After point `n`: the two scratch rows at the running sum and the running sum of squares, the other scoped buffers at
    some contents, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accSum4 V c n hn) ∗ owns (c : Thread nD τ) scM4_1 fullShare (accSq4 V c n hn))
      ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accSum4 V c n hn) ∗ owns (c : Thread nD τ) scM4_1 fullShare (accSq4 V c n hn))
      ∗ restBut4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accSum4 V c (n - 1) (by omega)) ∗ owns (c : Thread nD τ) scM4_1 fullShare (accSq4 V c (n - 1) (by omega)))
      ∗ restBut4 c) ∗ (∃ r, prngReg c r)) := by
  cases n with
  | zero => exact absurd rfl hz
  | succ n => rfl

/-! ## The proof data -/

/-- The proof data of the region on core `c`: the arrays as the region finds them; after the body at point `t` each
    input's buffer at its block, the two outputs' at the mean and variance of the totals so far (read at the last point
    only: elsewhere the windows are idle); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => mean4At V c t
    | ⟨6, _⟩ => var4At V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem owed4 (c : Dev nD) (t : Fin (cfg4.N + 1)) : (dat4 V c).owed t = 0 := rfl
theorem recorded4 (c : Dev nD) (t : Fin (cfg4.N + 1)) : (dat4 V c).recorded t = Set.univ := rfl
theorem share4 (c : Dev nD) (w : Fin cfg4.W) : (dat4 V c).share w = fullShare :=
  (dat4 V c).share_full (fun _ => rfl) w

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = mean4At V c t := by dsimp only [dat4]
theorem after4_6 (c : Dev nD) (t : Fin cfg4.N) : (dat4 V c).after 6 t = var4At V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

theorem PhiS4_castSucc (c : Dev nD) (t : Fin cfg4.N) :
    (dat4 V c).Φ t.castSucc = PhiS4 V c t.val (Nat.le_of_lt t.isLt) := by
  dsimp only [dat4]; simp only [Fin.coe_castSucc]

/-- The input arrays are never written. -/
theorem arrIn4_0 (c : Dev nD) (t : ℕ) : (dat4 V c).arrAt 0 t = (dat4 V c).A 0 := (dat4 V c).arrAt_in 0 rfl t
theorem arrIn4_1 (c : Dev nD) (t : ℕ) : (dat4 V c).arrAt 1 t = (dat4 V c).A 1 := (dat4 V c).arrAt_in 1 rfl t
theorem arrIn4_2 (c : Dev nD) (t : ℕ) : (dat4 V c).arrAt 2 t = (dat4 V c).A 2 := (dat4 V c).arrAt_in 2 rfl t
theorem arrIn4_3 (c : Dev nD) (t : ℕ) : (dat4 V c).arrAt 3 t = (dat4 V c).A 3 := (dat4 V c).arrAt_in 3 rfl t
theorem arrIn4_4 (c : Dev nD) (t : ℕ) : (dat4 V c).arrAt 4 t = (dat4 V c).A 4 := (dat4 V c).arrAt_in 4 rfl t

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point. The inputs' staging buffers hold their blocks; the point is the first, the last or a middle
    one; the invariant hands the body the two scratch rows at what the point before left (at anything at the first point)
    and takes them back at this point's totals; away from the last point the two outputs are handed back as found, at the
    last they hold the mean and the variance of the totals. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  rw [show (dat4 V c).leavesExact 4 t = owns (c : Thread nD τ) (ms4_4 t) fullShare ((dat4 V c).after 4 t) from by
      unfold Dat.leavesExact; rw [liveAt4_4 t], after4_4]
  by_cases h0 : t.val = 0
  · have h1 : ¬t.val = 9 := by omega
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [accSum4_zero V c t h0, accSq4_zero V c t h0]
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
    iapply (kernelRun4_first c (grid4.coords t) _ _ _ _ _ _ _ _ _ _ _ _ _ _ _ _ _ _ ((hcond4_0 t).mpr h0) (fun h => h1 ((hcond4_1 t).mp h))
      (iblk4 V c 0 t) (iblk4 V c 1 t) (iblk4 V c 2 t) (iblk4 V c 3 t) (iblk4 V c 4 t) _ _ Set.univ _)
    isplitl [H0]; · iexact H0
    isplitl [H1]; · iexact H1
    isplitl [H2]; · iexact H2
    isplitl [H3]; · iexact H3
    isplitl [H4]; · iexact H4
    isplitl [HO0]; · iexact HO0
    isplitl [HO1]; · iexact HO1
    isplitl [HS0]; · iexact HS0
    isplitl [HS1]; · iexact HS1
    iintro ⟨H0, H1, H2, H3, H4, HO0, HO1, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [HO0]; · iexists _; iexact HO0
    iexists _; iexact HO1
  · by_cases h1 : t.val = 9
    · rw [show (dat4 V c).leavesExact 5 t = owns (c : Thread nD τ) (ms4_5 t) fullShare ((dat4 V c).after 5 t) from by
        unfold Dat.leavesExact; rw [liveAt4_5 t ((hcond4_1 t).mpr h1)], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      unfold mean4At var4At
      rw [accSum4_pos V c t h0, accSq4_pos V c t h0]
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
      iapply (kernelRun4_last c (grid4.coords t) _ _ _ _ _ _ _ _ _ _ _ _ _ _ _ _ _ _ (fun h => h0 ((hcond4_0 t).mp h)) ((hcond4_1 t).mpr h1)
        (iblk4 V c 0 t) (iblk4 V c 1 t) (iblk4 V c 2 t) (iblk4 V c 3 t) (iblk4 V c 4 t) _ _ Set.univ _)
      isplitl [H0]; · iexact H0
      isplitl [H1]; · iexact H1
      isplitl [H2]; · iexact H2
      isplitl [H3]; · iexact H3
      isplitl [H4]; · iexact H4
      isplitl [HO0]; · iexists _; iexact HO0
      isplitl [HO1]; · iexists _; iexact HO1
      isplitl [HS0]; · iexact HS0
      isplitl [HS1]; · iexact HS1
      iintro ⟨H0, H1, H2, H3, H4, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [HO0]; · iexact HO0
      iexact HO1
    · rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [accSum4_pos V c t h0, accSq4_pos V c t h0]
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
      iapply (kernelRun4_mid c (grid4.coords t) _ _ _ _ _ _ _ _ _ _ _ _ _ _ _ _ _ _ (fun h => h0 ((hcond4_0 t).mp h)) (fun h => h1 ((hcond4_1 t).mp h))
        (iblk4 V c 0 t) (iblk4 V c 1 t) (iblk4 V c 2 t) (iblk4 V c 3 t) (iblk4 V c 4 t) _ _ _ _ Set.univ _)
      isplitl [H0]; · iexact H0
      isplitl [H1]; · iexact H1
      isplitl [H2]; · iexact H2
      isplitl [H3]; · iexact H3
      isplitl [H4]; · iexact H4
      isplitl [HO0]; · iexact HO0
      isplitl [HO1]; · iexact HO1
      isplitl [HS0]; · iexact HS0
      isplitl [HS1]; · iexact HS1
      iintro ⟨H0, H1, H2, H3, H4, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [HO0]; · iexists _; iexact HO0
      iexists _; iexact HO1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- What the launch hands the region is the invariant before the first point. -/
theorem PhiIn4 (c : Dev nD) : Pipeline.ΦA spec4 c ⊢ (dat4 V c).Φ 0 := by
  rw [show (dat4 V c).Φ 0 = PhiS4 V c 0 (Nat.zero_le _) from rfl, PhiS4_zero V c 0 _ rfl]

/-- After the last point the invariant gives it back: the two scratch rows' named contents are forgotten. -/
theorem PhiOut4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-! ## What the region leaves in the two output arrays

The one write-back of each output, at the last point, writes the whole array: block (0, 0) of the [1,128] array read
through zero offsets is the array, and the last point's block covers it. -/

/-- The last point. -/
def tLast4 : Fin cfg4.N := ⟨9, by rw [show cfg4.N = 10 from N_4]; decide⟩

/-- The mean and the variance of the totals after the last point, as contents of the two result arrays (each array is
    its window's one block). -/
abbrev mean4Res (c : Dev nD) : Buf (Elt F) ((c : Thread nD τ).loc main_v40_0) := mean4At V c tLast4
abbrev var4Res (c : Dev nD) : Buf (Elt F) ((c : Thread nD τ).loc main_v40_1) := var4At V c tLast4

theorem flushed4_5_eq (c : Dev nD) (t : Fin cfg4.N) (hf : (cfg4.win 5).flush t = true) :
    (dat4 V c).flushed 5 t = ((cfg4.win 5).blk t).view.read (Elt F) (mean4Res V c) := by
  have hN : cfg4.N = 10 := N_4
  have h3 : t.val = 9 := by have := (flush4_5 t).mp hf; have := t.isLt; omega
  obtain rfl : t = tLast4 := Fin.ext h3
  show (cfg4.win 5).cut (grid4.coords tLast4) ((dat4 V c).after 5 tLast4) = _
  rw [after4_5]
  have hz' : (fun a => win4_5.index tLast4 a * main_v40_0.ty.shape.size a) = fun _ => 0 := funext fun a => by fin_cases a <;> decide +kernel
  exact (Memref.read_access_unit_zero (Elt F) main_v40_0 hz' (fun a => by rw [congrFun hz' a]; simp) (mean4Res V c)).symm

theorem mean4 (c : Dev nD) : (dat4 V c).arrAt 5 cfg4.N = mean4Res V c :=
  (dat4 V c).arrAt_eq_of_cover 5 (mean4Res V c) (flushed4_5_eq V c) fun i =>
    ⟨tLast4, (flush4_5 tLast4).mpr rfl, by
      show i ∈ ((View.whole main_v40_0).slice (win4_5.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_5.index tLast4 0 * win4_5.size 0 ≤ (i 0 : Nat) ∧ (i 0 : Nat) < win4_5.index tLast4 0 * win4_5.size 0 + win4_5.xsize (grid4.coords tLast4) 0
                  rw [show win4_5.index tLast4 0 * win4_5.size 0 = 0 from by decide +kernel, show win4_5.xsize (grid4.coords tLast4) 0 = 1 from by decide +kernel]; omega
      | ⟨1, _⟩ => show win4_5.index tLast4 1 * win4_5.size 1 ≤ (i 1 : Nat) ∧ (i 1 : Nat) < win4_5.index tLast4 1 * win4_5.size 1 + win4_5.xsize (grid4.coords tLast4) 1
                  rw [show win4_5.index tLast4 1 * win4_5.size 1 = 0 from by decide +kernel, show win4_5.xsize (grid4.coords tLast4) 1 = 128 from by decide +kernel]; omega⟩

theorem flushed4_6_eq (c : Dev nD) (t : Fin cfg4.N) (hf : (cfg4.win 6).flush t = true) :
    (dat4 V c).flushed 6 t = ((cfg4.win 6).blk t).view.read (Elt F) (var4Res V c) := by
  have hN : cfg4.N = 10 := N_4
  have h3 : t.val = 9 := by have := (flush4_6 t).mp hf; have := t.isLt; omega
  obtain rfl : t = tLast4 := Fin.ext h3
  show (cfg4.win 6).cut (grid4.coords tLast4) ((dat4 V c).after 6 tLast4) = _
  rw [after4_6]
  have hz' : (fun a => win4_6.index tLast4 a * main_v40_1.ty.shape.size a) = fun _ => 0 := funext fun a => by fin_cases a <;> decide +kernel
  exact (Memref.read_access_unit_zero (Elt F) main_v40_1 hz' (fun a => by rw [congrFun hz' a]; simp) (var4Res V c)).symm

theorem var4 (c : Dev nD) : (dat4 V c).arrAt 6 cfg4.N = var4Res V c :=
  (dat4 V c).arrAt_eq_of_cover 6 (var4Res V c) (flushed4_6_eq V c) fun i =>
    ⟨tLast4, (flush4_6 tLast4).mpr rfl, by
      show i ∈ ((View.whole main_v40_1).slice (win4_6.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_6.index tLast4 0 * win4_6.size 0 ≤ (i 0 : Nat) ∧ (i 0 : Nat) < win4_6.index tLast4 0 * win4_6.size 0 + win4_6.xsize (grid4.coords tLast4) 0
                  rw [show win4_6.index tLast4 0 * win4_6.size 0 = 0 from by decide +kernel, show win4_6.xsize (grid4.coords tLast4) 0 = 1 from by decide +kernel]; omega
      | ⟨1, _⟩ => show win4_6.index tLast4 1 * win4_6.size 1 ≤ (i 1 : Nat) ∧ (i 1 : Nat) < win4_6.index tLast4 1 * win4_6.size 1 + win4_6.xsize (grid4.coords tLast4) 1
                  rw [show win4_6.index tLast4 1 * win4_6.size 1 = 0 from by decide +kernel, show win4_6.xsize (grid4.coords tLast4) 1 = 128 from by decide +kernel]; omega⟩

end Cert.Kernel.Hand

end
-- ==== Proof.K.Stats6Run.lean ====
import proofs.«110491_j38809324487019_2_alg».proof.Proof.Gen.Kernel.Launch
import proofs.«110491_j38809324487019_2_alg».proof.Proof.Gen.Kernel.Skeleton
import proofs.«110491_j38809324487019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 6: the statistics kernel over the node rows (one activation input) — the windows' blocks and the body's three runs

The kernel sweeps 10 row blocks. Two (1,128) scratch rows carry the running column sum and the running
column sum of squares of the linear layer's output from one grid point to the next: the first point zeroes them
before accumulating, every point adds its block's column sums, and the last point turns the totals into
the mean and the (clamped) variance, which it stores into the two output windows. The outputs' block
index is constant, so only the last point writes them back; at every other point the output windows
are idle and their staging buffers are handed back as found.

Everything is stated at a parameter `V`: the TensorCore's buffer contents when the region is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current staging buffer holds its block at every point, fetched there or not: unfetched,
    the block index has not moved. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's two branch conditions, over the grid -/

/-- The first conditional (zero the accumulators) is taken at the first point only. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

/-- The second conditional (finish: mean and variance) is taken at the last point only. -/
abbrev cond6_1 (i : grid6.Coords) : Prop := k6_cond2 i = 1#1
theorem hcond6_1 : ∀ t : Fin cfg6.N, cond6_1 (grid6.coords t) ↔ t.val = 9 :=
  (by decide +kernel : ∀ t : Fin grid6.N, cond6_1 (grid6.coords t) ↔ t.val = 9)

/-! ## Where the windows are idle, and where the outputs are written back -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- Away from the last point the two outputs are idle and are not written back. -/
theorem idleAt6_3 : ∀ t : Fin cfg6.N, ¬cond6_1 (grid6.coords t) → cfg6.idle 3 (grid6.coords t) = true := by decide +kernel
theorem idleAt6_4 : ∀ t : Fin cfg6.N, ¬cond6_1 (grid6.coords t) → cfg6.idle 4 (grid6.coords t) = true := by decide +kernel
theorem noFlush6_3 : ∀ t : Fin cfg6.N, ¬cond6_1 (grid6.coords t) → (cfg6.win 3).flush t = false := by decide +kernel
theorem noFlush6_4 : ∀ t : Fin cfg6.N, ¬cond6_1 (grid6.coords t) → (cfg6.win 4).flush t = false := by decide +kernel
/-- At the last point they are live. -/
theorem liveAt6_3 : ∀ t : Fin cfg6.N, cond6_1 (grid6.coords t) → cfg6.idle 3 (grid6.coords t) = false := by decide +kernel
theorem liveAt6_4 : ∀ t : Fin cfg6.N, cond6_1 (grid6.coords t) → cfg6.idle 4 (grid6.coords t) = false := by decide +kernel

/-! ## The staging memrefs at a point, and the two scratch rows -/

abbrev ms6_0 (t : Fin cfg6.N) : Memref sig .tc .vmem S5000x128 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
/-- The running column sum and the running column sum of squares: whole scoped buffers of the kernel's own. -/
abbrev scM6_0 : Memref sig .tc .vmem S1x128 .f32 := Memref.whole cc6_scratch0
abbrev scM6_1 : Memref sig .tc .vmem S1x128 .f32 := Memref.whole cc6_scratch1

/-- The region invariant of a kernel that describes nothing (every scoped buffer no window stages at some
    contents, the generator register at some state), with the two scratch rows taken out of the scoped rest. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The body's run, case by case

Every load and store of the body goes through the whole staging buffer (the unit rectangle at zero offsets), so a load
reads the contents and a store leaves its payload. -/

theorem off00_6 : (![0, 0] : Fin 2 → Nat) = fun _ => 0 := by funext a; fin_cases a <;> rfl

/-- A load through the whole buffer reads its contents. -/
theorem readAt_whole6 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store through the whole buffer, last, leaves its payload whatever the earlier stores were. -/
theorem read_writes_whole6 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 4000000 in
/-- THE FIRST point (the zeroing conditional taken, the finishing one not): whatever the two scratch rows held, the running
    sum becomes the block's column sums over the zero row, the running sum of squares the block's column sums of squares
    over the zero row; the inputs and the two idle outputs are left as found. -/
theorem kernelRun6_first (c : Dev nD) (i : grid6.Coords)
    (arg1 : Memref sig .tc .vmem S5000x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole) (hc0 : cond6_0 i) (hc1 : ¬cond6_1 i)
    (x0 : Vec F S5000x128 .bf16) (x1 : Vec F S128x128 .f32) (x2 : Vec F S1x128 .f32) (xi0 xi1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi0 ∗ owns (c : Thread nD τ) arg5 fullShare xi1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi0 ∗ owns (c : Thread nD τ) arg5 fullShare xi1
            ∗ owns (c : Thread nD τ) arg6 fullShare (k6_pay4 x2 x0 x1 k6_pay2) ∗ owns (c : Thread nD τ) arg7 fullShare (k6_pay5 x2 x0 x1 k6_pay3)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%fo0, %hfo0, HO0⟩, ⟨%fo1, %hfo1, HO1⟩, ⟨%ds0, %fs0, -, HS0⟩, ⟨%ds1, %fs1, -, HS1⟩, Hk⟩
  subst hf0; subst hf1; subst hf2; subst hfo0; subst hfo1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole6 arg6.view fs0 off00_6]
    try sl_unfold_run_names
    rw [View.readCov_unit_zero arg6.view off00_6, readAt_whole6 arg1.view f0 off00_6, readAt_whole6 arg2.view f1 off00_6, readAt_whole6 arg3.view f2 off00_6]
    try rfl
  iexists _; isplitr
  swap; · iexact HS1
  ipureintro
  try sl_unfold_run_names
  rw [read_writes_whole6 arg7.view fs1 off00_6]
  try sl_unfold_run_names
  rw [View.readCov_unit_zero arg7.view off00_6, readAt_whole6 arg1.view f0 off00_6, readAt_whole6 arg2.view f1 off00_6, readAt_whole6 arg3.view f2 off00_6]
  try rfl

set_option maxHeartbeats 4000000 in
/-- A MIDDLE point (neither conditional taken): the inputs and the two idle outputs are left as found; the running sum
    and the running sum of squares advance by the block's column sums. -/
theorem kernelRun6_mid (c : Dev nD) (i : grid6.Coords)
    (arg1 : Memref sig .tc .vmem S5000x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole) (hc0 : ¬cond6_0 i) (hc1 : ¬cond6_1 i)
    (x0 : Vec F S5000x128 .bf16) (x1 : Vec F S128x128 .f32) (x2 : Vec F S1x128 .f32) (xi0 xi1 s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi0 ∗ owns (c : Thread nD τ) arg5 fullShare xi1
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare xi0 ∗ owns (c : Thread nD τ) arg5 fullShare xi1
            ∗ owns (c : Thread nD τ) arg6 fullShare (k6_pay4 x2 x0 x1 s0) ∗ owns (c : Thread nD τ) arg7 fullShare (k6_pay5 x2 x0 x1 s1)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%fo0, %hfo0, HO0⟩, ⟨%fo1, %hfo1, HO1⟩, ⟨%fs0, %hfs0, HS0⟩, ⟨%fs1, %hfs1, HS1⟩, Hk⟩
  subst hf0; subst hf1; subst hf2; subst hfo0; subst hfo1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole6 arg6.view fs0 off00_6]
    try sl_unfold_run_names
    rw [readAt_whole6 arg1.view f0 off00_6, readAt_whole6 arg2.view f1 off00_6, readAt_whole6 arg3.view f2 off00_6, readAt_whole6 arg6.view fs0 off00_6]
    try rfl
  iexists _; isplitr
  swap; · iexact HS1
  ipureintro
  try sl_unfold_run_names
  rw [read_writes_whole6 arg7.view fs1 off00_6]
  try sl_unfold_run_names
  rw [readAt_whole6 arg1.view f0 off00_6, readAt_whole6 arg2.view f1 off00_6, readAt_whole6 arg3.view f2 off00_6, readAt_whole6 arg7.view fs1 off00_6]
  try rfl

set_option maxHeartbeats 4000000 in
/-- THE LAST point (the finishing conditional taken, the zeroing one not): the accumulators advance as at a middle point,
    and the two outputs, whatever they held, are left at the mean and the variance computed from the final totals. -/
theorem kernelRun6_last (c : Dev nD) (i : grid6.Coords)
    (arg1 : Memref sig .tc .vmem S5000x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole) (hc0 : ¬cond6_0 i) (hc1 : cond6_1 i)
    (x0 : Vec F S5000x128 .bf16) (x1 : Vec F S128x128 .f32) (x2 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k6_pay6 (k6_pay4 x2 x0 x1 s0)) ∗ owns (c : Thread nD τ) arg5 fullShare (k6_pay7 (k6_pay4 x2 x0 x1 s0) (k6_pay5 x2 x0 x1 s1))
            ∗ owns (c : Thread nD τ) arg6 fullShare (k6_pay4 x2 x0 x1 s0) ∗ owns (c : Thread nD τ) arg7 fullShare (k6_pay5 x2 x0 x1 s1)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%d3, %fo0, -, HO0⟩, ⟨%d4, %fo1, -, HO1⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO0]
  · iexists _; isplitr
    swap; · iexact HO0
    ipureintro
    try sl_unfold_run_names
    rw [read_writes_whole6 arg4.view fo0 off00_6]
    try sl_unfold_run_names
    rw [View.readCov_unit_zero arg6.view off00_6, readAt_whole6 arg1.view f0 off00_6, readAt_whole6 arg2.view f1 off00_6, readAt_whole6 arg3.view f2 off00_6, readAt_whole6 arg6.view fs0 off00_6]
    try rfl
  isplitl [HO1]
  · iexists _; isplitr
    swap; · iexact HO1
    ipureintro
    try sl_unfold_run_names
    rw [read_writes_whole6 arg5.view fo1 off00_6]
    try sl_unfold_run_names
    rw [View.readCov_unit_zero arg6.view off00_6, View.readCov_unit_zero arg7.view off00_6, readAt_whole6 arg1.view f0 off00_6, readAt_whole6 arg2.view f1 off00_6, readAt_whole6 arg3.view f2 off00_6, readAt_whole6 arg6.view fs0 off00_6, readAt_whole6 arg7.view fs1 off00_6]
    try rfl
  isplitl [HS0]
  · iexists _; isplitr
    swap; · iexact HS0
    ipureintro
    try sl_unfold_run_names
    rw [read_writes_whole6 arg6.view fs0 off00_6]
    try sl_unfold_run_names
    rw [readAt_whole6 arg1.view f0 off00_6, readAt_whole6 arg2.view f1 off00_6, readAt_whole6 arg3.view f2 off00_6, readAt_whole6 arg6.view fs0 off00_6]
    try rfl
  iexists _; isplitr
  swap; · iexact HS1
  ipureintro
  try sl_unfold_run_names
  rw [read_writes_whole6 arg7.view fs1 off00_6]
  try sl_unfold_run_names
  rw [readAt_whole6 arg1.view f0 off00_6, readAt_whole6 arg2.view f1 off00_6, readAt_whole6 arg3.view f2 off00_6, readAt_whole6 arg7.view fs1 off00_6]
  try rfl

end Cert.Kernel.Hand

end
-- ==== Proof.K.Stats6.lean ====
import proofs.«110491_j38809324487019_2_alg».proof.Proof.K.Stats6Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 6, the statistics kernel: the accumulators, the proof data, the body obligation, the outputs

Over the three runs of the body (first, middle, last point): the running column sum and sum of squares after each point
by recursion on the point, the region's invariant carrying the two scratch rows at them, the proof data, the body
obligation, the invariant at the region's two ends, and the two output arrays after the region: the mean and the
variance computed from the totals after the last point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulators, point by point -/

/-- The running column sum after point `n`: the first point accumulates onto the zeroed row, each later
    point onto what the point before left. -/
def accSum6 (c : Dev nD) : (n : ℕ) → n < cfg6.N → Vec F S1x128 .f32
  | 0, hn => k6_pay4 (iblk6 V c 2 ⟨0, hn⟩) (iblk6 V c 0 ⟨0, hn⟩) (iblk6 V c 1 ⟨0, hn⟩) k6_pay2
  | n + 1, hn => k6_pay4 (iblk6 V c 2 ⟨n + 1, hn⟩) (iblk6 V c 0 ⟨n + 1, hn⟩) (iblk6 V c 1 ⟨n + 1, hn⟩) (accSum6 c n (Nat.lt_of_succ_lt hn))

/-- The running column sum of squares after point `n`. -/
def accSq6 (c : Dev nD) : (n : ℕ) → n < cfg6.N → Vec F S1x128 .f32
  | 0, hn => k6_pay5 (iblk6 V c 2 ⟨0, hn⟩) (iblk6 V c 0 ⟨0, hn⟩) (iblk6 V c 1 ⟨0, hn⟩) k6_pay3
  | n + 1, hn => k6_pay5 (iblk6 V c 2 ⟨n + 1, hn⟩) (iblk6 V c 0 ⟨n + 1, hn⟩) (iblk6 V c 1 ⟨n + 1, hn⟩) (accSq6 c n (Nat.lt_of_succ_lt hn))

theorem accSum6_zero (c : Dev nD) (t : Fin cfg6.N) (h : t.val = 0) :
    accSum6 V c t.val t.isLt = k6_pay4 (iblk6 V c 2 t) (iblk6 V c 0 t) (iblk6 V c 1 t) k6_pay2 := by
  obtain ⟨n, hn⟩ := t; subst h; rfl

theorem accSum6_pos (c : Dev nD) (t : Fin cfg6.N) (h : t.val ≠ 0) :
    accSum6 V c t.val t.isLt = k6_pay4 (iblk6 V c 2 t) (iblk6 V c 0 t) (iblk6 V c 1 t) (accSum6 V c (t.val - 1) (Nat.lt_of_le_of_lt (Nat.sub_le _ _) t.isLt)) := by
  obtain ⟨n, hn⟩ := t
  cases n with
  | zero => exact absurd rfl h
  | succ n => rfl

theorem accSq6_zero (c : Dev nD) (t : Fin cfg6.N) (h : t.val = 0) :
    accSq6 V c t.val t.isLt = k6_pay5 (iblk6 V c 2 t) (iblk6 V c 0 t) (iblk6 V c 1 t) k6_pay3 := by
  obtain ⟨n, hn⟩ := t; subst h; rfl

theorem accSq6_pos (c : Dev nD) (t : Fin cfg6.N) (h : t.val ≠ 0) :
    accSq6 V c t.val t.isLt = k6_pay5 (iblk6 V c 2 t) (iblk6 V c 0 t) (iblk6 V c 1 t) (accSq6 V c (t.val - 1) (Nat.lt_of_le_of_lt (Nat.sub_le _ _) t.isLt)) := by
  obtain ⟨n, hn⟩ := t
  cases n with
  | zero => exact absurd rfl h
  | succ n => rfl

/-- The mean and the variance the last point computes from the totals (what the two output windows' staging buffers
    hold after the body at a point, were it the last: consulted at the last point only). -/
def mean6At (c : Dev nD) (t : Fin cfg6.N) : Vec F S1x128 .f32 := k6_pay6 (accSum6 V c t.val t.isLt)
def var6At (c : Dev nD) (t : Fin cfg6.N) : Vec F S1x128 .f32 := k6_pay7 (accSum6 V c t.val t.isLt) (accSq6 V c t.val t.isLt)

/-! ## The region invariant -/

/-- The scoped buffers that are neither a staging buffer of this region nor its two scratch rows, each at some contents. -/
abbrev restBut6 (c : Dev nD) : sProp 𝕄 :=
  Pipeline.scopedRestBut (Ix := Unit) (Name := ℕ) (U := UR sig nD τ) (Lvl := ℕ) (Val := Elt F) spec6 c [cc6_scratch0, cc6_scratch1]

/-- Before the first point: every scoped buffer no window stages at some contents, the generator register at some state.
    After point `n`: the two scratch rows at the running sum and the running sum of squares, the other scoped buffers at
    some contents, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (accSum6 V c n hn) ∗ owns (c : Thread nD τ) scM6_1 fullShare (accSq6 V c n hn))
      ∗ restBut6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accSum6 V c n hn) ∗ owns (c : Thread nD τ) scM6_1 fullShare (accSq6 V c n hn))
      ∗ restBut6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (accSum6 V c (n - 1) (by omega)) ∗ owns (c : Thread nD τ) scM6_1 fullShare (accSq6 V c (n - 1) (by omega)))
      ∗ restBut6 c) ∗ (∃ r, prngReg c r)) := by
  cases n with
  | zero => exact absurd rfl hz
  | succ n => rfl

/-! ## The proof data -/

/-- The proof data of the region on core `c`: the arrays as the region finds them; after the body at point `t` each
    input's buffer at its block, the two outputs' at the mean and variance of the totals so far (read at the last point
    only: elsewhere the windows are idle); the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => mean6At V c t
    | ⟨4, _⟩ => var6At V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem owed6 (c : Dev nD) (t : Fin (cfg6.N + 1)) : (dat6 V c).owed t = 0 := rfl
theorem recorded6 (c : Dev nD) (t : Fin (cfg6.N + 1)) : (dat6 V c).recorded t = Set.univ := rfl
theorem share6 (c : Dev nD) (w : Fin cfg6.W) : (dat6 V c).share w = fullShare :=
  (dat6 V c).share_full (fun _ => rfl) w

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = mean6At V c t := by dsimp only [dat6]
theorem after6_4 (c : Dev nD) (t : Fin cfg6.N) : (dat6 V c).after 4 t = var6At V c t := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

theorem PhiS6_castSucc (c : Dev nD) (t : Fin cfg6.N) :
    (dat6 V c).Φ t.castSucc = PhiS6 V c t.val (Nat.le_of_lt t.isLt) := by
  dsimp only [dat6]; simp only [Fin.coe_castSucc]

/-- The input arrays are never written. -/
theorem arrIn6_0 (c : Dev nD) (t : ℕ) : (dat6 V c).arrAt 0 t = (dat6 V c).A 0 := (dat6 V c).arrAt_in 0 rfl t
theorem arrIn6_1 (c : Dev nD) (t : ℕ) : (dat6 V c).arrAt 1 t = (dat6 V c).A 1 := (dat6 V c).arrAt_in 1 rfl t
theorem arrIn6_2 (c : Dev nD) (t : ℕ) : (dat6 V c).arrAt 2 t = (dat6 V c).A 2 := (dat6 V c).arrAt_in 2 rfl t

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point. The inputs' staging buffers hold their blocks; the point is the first, the last or a middle
    one; the invariant hands the body the two scratch rows at what the point before left (at anything at the first point)
    and takes them back at this point's totals; away from the last point the two outputs are handed back as found, at the
    last they hold the mean and the variance of the totals. The core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
      unfold Dat.leavesExact; rw [liveAt6_0 t], after6_0]
  rw [show (dat6 V c).leavesExact 1 t = owns (c : Thread nD τ) (ms6_1 t) fullShare ((dat6 V c).after 1 t) from by
      unfold Dat.leavesExact; rw [liveAt6_1 t], after6_1]
  rw [show (dat6 V c).leavesExact 2 t = owns (c : Thread nD τ) (ms6_2 t) fullShare ((dat6 V c).after 2 t) from by
      unfold Dat.leavesExact; rw [liveAt6_2 t], after6_2]
  by_cases h0 : t.val = 0
  · have h1 : ¬t.val = 9 := by omega
    rw [Dat.leavesExact_idle (dat6 V c) 3 t (idleAt6_3 t (fun h => h1 ((hcond6_1 t).mp h))) (noFlush6_3 t (fun h => h1 ((hcond6_1 t).mp h)))]
    rw [Dat.leavesExact_idle (dat6 V c) 4 t (idleAt6_4 t (fun h => h1 ((hcond6_1 t).mp h))) (noFlush6_4 t (fun h => h1 ((hcond6_1 t).mp h)))]
    rw [accSum6_zero V c t h0, accSq6_zero V c t h0]
    rw [PhiS6_castSucc V c t, PhiS6_zero V c _ _ h0, PhiA6_eq]
    iintro ⟨⟨⟨⟨HS0, HS1⟩, Hrest⟩, Hg⟩, Ho, ⟨%d0, H0⟩, ⟨%d1, H1⟩, ⟨%d2, H2⟩, ⟨%do0, HO0⟩, ⟨%do1, HO1⟩⟩
    iapply (kernelRun6_first c (grid6.coords t) _ _ _ _ _ _ _ _ _ _ _ _ _ _ ((hcond6_0 t).mpr h0) (fun h => h1 ((hcond6_1 t).mp h))
      (iblk6 V c 0 t) (iblk6 V c 1 t) (iblk6 V c 2 t) _ _ Set.univ _)
    isplitl [H0]; · iexact H0
    isplitl [H1]; · iexact H1
    isplitl [H2]; · iexact H2
    isplitl [HO0]; · iexact HO0
    isplitl [HO1]; · iexact HO1
    isplitl [HS0]; · iexact HS0
    isplitl [HS1]; · iexact HS1
    iintro ⟨H0, H1, H2, HO0, HO1, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [HO0]; · iexists _; iexact HO0
    iexists _; iexact HO1
  · by_cases h1 : t.val = 9
    · rw [show (dat6 V c).leavesExact 3 t = owns (c : Thread nD τ) (ms6_3 t) fullShare ((dat6 V c).after 3 t) from by
        unfold Dat.leavesExact; rw [liveAt6_3 t ((hcond6_1 t).mpr h1)], after6_3]
      rw [show (dat6 V c).leavesExact 4 t = owns (c : Thread nD τ) (ms6_4 t) fullShare ((dat6 V c).after 4 t) from by
        unfold Dat.leavesExact; rw [liveAt6_4 t ((hcond6_1 t).mpr h1)], after6_4]
      unfold mean6At var6At
      rw [accSum6_pos V c t h0, accSq6_pos V c t h0]
      rw [PhiS6_castSucc V c t, PhiS6_pos V c _ _ h0]
      iintro ⟨⟨⟨⟨HS0, HS1⟩, Hrest⟩, Hg⟩, Ho, ⟨%d0, H0⟩, ⟨%d1, H1⟩, ⟨%d2, H2⟩, ⟨%do0, HO0⟩, ⟨%do1, HO1⟩⟩
      iapply (kernelRun6_last c (grid6.coords t) _ _ _ _ _ _ _ _ _ _ _ _ _ _ (fun h => h0 ((hcond6_0 t).mp h)) ((hcond6_1 t).mpr h1)
        (iblk6 V c 0 t) (iblk6 V c 1 t) (iblk6 V c 2 t) _ _ Set.univ _)
      isplitl [H0]; · iexact H0
      isplitl [H1]; · iexact H1
      isplitl [H2]; · iexact H2
      isplitl [HO0]; · iexists _; iexact HO0
      isplitl [HO1]; · iexists _; iexact HO1
      isplitl [HS0]; · iexact HS0
      isplitl [HS1]; · iexact HS1
      iintro ⟨H0, H1, H2, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [HO0]; · iexact HO0
      iexact HO1
    · rw [Dat.leavesExact_idle (dat6 V c) 3 t (idleAt6_3 t (fun h => h1 ((hcond6_1 t).mp h))) (noFlush6_3 t (fun h => h1 ((hcond6_1 t).mp h)))]
      rw [Dat.leavesExact_idle (dat6 V c) 4 t (idleAt6_4 t (fun h => h1 ((hcond6_1 t).mp h))) (noFlush6_4 t (fun h => h1 ((hcond6_1 t).mp h)))]
      rw [accSum6_pos V c t h0, accSq6_pos V c t h0]
      rw [PhiS6_castSucc V c t, PhiS6_pos V c _ _ h0]
      iintro ⟨⟨⟨⟨HS0, HS1⟩, Hrest⟩, Hg⟩, Ho, ⟨%d0, H0⟩, ⟨%d1, H1⟩, ⟨%d2, H2⟩, ⟨%do0, HO0⟩, ⟨%do1, HO1⟩⟩
      iapply (kernelRun6_mid c (grid6.coords t) _ _ _ _ _ _ _ _ _ _ _ _ _ _ (fun h => h0 ((hcond6_0 t).mp h)) (fun h => h1 ((hcond6_1 t).mp h))
        (iblk6 V c 0 t) (iblk6 V c 1 t) (iblk6 V c 2 t) _ _ _ _ Set.univ _)
      isplitl [H0]; · iexact H0
      isplitl [H1]; · iexact H1
      isplitl [H2]; · iexact H2
      isplitl [HO0]; · iexact HO0
      isplitl [HO1]; · iexact HO1
      isplitl [HS0]; · iexact HS0
      isplitl [HS1]; · iexact HS1
      iintro ⟨H0, H1, H2, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [HO0]; · iexists _; iexact HO0
      iexists _; iexact HO1

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- What the launch hands the region is the invariant before the first point. -/
theorem PhiIn6 (c : Dev nD) : Pipeline.ΦA spec6 c ⊢ (dat6 V c).Φ 0 := by
  rw [show (dat6 V c).Φ 0 = PhiS6 V c 0 (Nat.zero_le _) from rfl, PhiS6_zero V c 0 _ rfl]

/-- After the last point the invariant gives it back: the two scratch rows' named contents are forgotten. -/
theorem PhiOut6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-! ## What the region leaves in the two output arrays

The one write-back of each output, at the last point, writes the whole array: block (0, 0) of the [1,128] array read
through zero offsets is the array, and the last point's block covers it. -/

/-- The last point. -/
def tLast6 : Fin cfg6.N := ⟨9, by rw [show cfg6.N = 10 from N_6]; decide⟩

/-- The mean and the variance of the totals after the last point, as contents of the two result arrays (each array is
    its window's one block). -/
abbrev mean6Res (c : Dev nD) : Buf (Elt F) ((c : Thread nD τ).loc main_v46_0) := mean6At V c tLast6
abbrev var6Res (c : Dev nD) : Buf (Elt F) ((c : Thread nD τ).loc main_v46_1) := var6At V c tLast6

theorem flushed6_3_eq (c : Dev nD) (t : Fin cfg6.N) (hf : (cfg6.win 3).flush t = true) :
    (dat6 V c).flushed 3 t = ((cfg6.win 3).blk t).view.read (Elt F) (mean6Res V c) := by
  have hN : cfg6.N = 10 := N_6
  have h3 : t.val = 9 := by have := (flush6_3 t).mp hf; have := t.isLt; omega
  obtain rfl : t = tLast6 := Fin.ext h3
  show (cfg6.win 3).cut (grid6.coords tLast6) ((dat6 V c).after 3 tLast6) = _
  rw [after6_3]
  have hz' : (fun a => win6_3.index tLast6 a * main_v46_0.ty.shape.size a) = fun _ => 0 := funext fun a => by fin_cases a <;> decide +kernel
  exact (Memref.read_access_unit_zero (Elt F) main_v46_0 hz' (fun a => by rw [congrFun hz' a]; simp) (mean6Res V c)).symm

theorem mean6 (c : Dev nD) : (dat6 V c).arrAt 3 cfg6.N = mean6Res V c :=
  (dat6 V c).arrAt_eq_of_cover 3 (mean6Res V c) (flushed6_3_eq V c) fun i =>
    ⟨tLast6, (flush6_3 tLast6).mpr rfl, by
      show i ∈ ((View.whole main_v46_0).slice (win6_3.rect tLast6)).set
      rw [View.set_slice_whole, Rect.mem_set_unit]
      intro a
      have h0 : (i 0 : Nat) < 1 := (i 0).isLt
      have h1 : (i 1 : Nat) < 128 := (i 1).isLt
      match a with
      | ⟨0, _⟩ => show win6_3.index tLast6 0 * win6_3.size 0 ≤ (i 0 : Nat) ∧ (i 0 : Nat) < win6_3.index tLast6 0 * win6_3.size 0 + win6_3.xsize (grid6.coords tLast6) 0
                  rw [show win6_3.index tLast6 0 * win6_3.size 0 = 0 from by decide +kernel, show win6_3.xsize (grid6.coords tLast6) 0 = 1 from by decide +kernel]; omega
      | ⟨1, _⟩ => show win6_3.index tLast6 1 * win6_3.size 1 ≤ (i 1 : Nat) ∧ (i 1 : Nat) < win6_3.index tLast6 1 * win6_3.size 1 + win6_3.xsize (grid6.coords tLast6) 1
                  rw [show win6_3.index tLast6 1 * win6_3.size 1 = 0 from by decide +kernel, show win6_3.xsize (grid6.coords tLast6) 1 = 128 from by decide +kernel]; omega⟩

theorem flushed6_4_eq (c : Dev nD) (t : Fin cfg6.N) (hf : (cfg6.win 4).flush t = true) :
    (dat6 V c).flushed 4 t = ((cfg6.win 4).blk t).view.read (Elt F) (var6Res V c) := by
  have hN : cfg6.N = 10 := N_6
  have h3 : t.val = 9 := by have := (flush6_4 t).mp hf; have := t.isLt; omega
  obtain rfl : t = tLast6 := Fin.ext h3
  show (cfg6.win 4).cut (grid6.coords tLast6) ((dat6 V c).after 4 tLast6) = _
  rw [after6_4]
  have hz' : (fun a => win6_4.index tLast6 a * main_v46_1.ty.shape.size a) = fun _ => 0 := funext fun a => by fin_cases a <;> decide +kernel
  exact (Memref.read_access_unit_zero (Elt F) main_v46_1 hz' (fun a => by rw [congrFun hz' a]; simp) (var6Res V c)).symm

theorem var6 (c : Dev nD) : (dat6 V c).arrAt 4 cfg6.N = var6Res V c :=
  (dat6 V c).arrAt_eq_of_cover 4 (var6Res V c) (flushed6_4_eq V c) fun i =>
    ⟨tLast6, (flush6_4 tLast6).mpr rfl, by
      show i ∈ ((View.whole main_v46_1).slice (win6_4.rect tLast6)).set
      rw [View.set_slice_whole, Rect.mem_set_unit]
      intro a
      have h0 : (i 0 : Nat) < 1 := (i 0).isLt
      have h1 : (i 1 : Nat) < 128 := (i 1).isLt
      match a with
      | ⟨0, _⟩ => show win6_4.index tLast6 0 * win6_4.size 0 ≤ (i 0 : Nat) ∧ (i 0 : Nat) < win6_4.index tLast6 0 * win6_4.size 0 + win6_4.xsize (grid6.coords tLast6) 0
                  rw [show win6_4.index tLast6 0 * win6_4.size 0 = 0 from by decide +kernel, show win6_4.xsize (grid6.coords tLast6) 0 = 1 from by decide +kernel]; omega
      | ⟨1, _⟩ => show win6_4.index tLast6 1 * win6_4.size 1 ≤ (i 1 : Nat) ∧ (i 1 : Nat) < win6_4.index tLast6 1 * win6_4.size 1 + win6_4.xsize (grid6.coords tLast6) 1
                  rw [show win6_4.index tLast6 1 * win6_4.size 1 = 0 from by decide +kernel, show win6_4.xsize (grid6.coords tLast6) 1 = 128 from by decide +kernel]; omega⟩

end Cert.Kernel.Hand

end
-- ==== Proof.K.Apply1.lean ====
import proofs.«110491_j38809324487019_2_alg».proof.Proof.Gen.Kernel.Launch
import proofs.«110491_j38809324487019_2_alg».proof.Proof.Gen.Kernel.Skeleton
import proofs.«110491_j38809324487019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: `cc1_kernel` (pipeline 1), at the entry contents `V`

The second half of a fused Linear + BatchNorm + ReLU stage: each grid point takes one block of 6400 rows of each of the two f32 activations (windows 0, 1), the two whole 128×128 weights (windows 2, 3)
and five 1×128 rows — bias, scale, shift, and the batch mean and variance the preceding region computed — and writes
the block of the bf16 result (window 9): `bf16(relu(((b + x₀ · w₀ + x₁ · w₁) − mean) · rsqrt(var + ε) · g + be))`, each product
with operands rounded to bf16 and accumulated in f32.
The points are independent: nothing is carried from one to the next.
-/

/-! ## The windows' blocks -/

/-- Window `w`'s block at point `t`: the rectangle of its array, as the region finds it (`V`), that the window's
    index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (where it did not, the block index has not moved since the last fetch), for any proof data whose array is
    `V`'s and whose body leaves the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there or
    not (where it did not, the block index has not moved since the last fetch), for any proof data whose array is
    `V`'s and whose body leaves the block in place; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there or
    not (where it did not, the block index has not moved since the last fetch), for any proof data whose array is
    `V`'s and whose body leaves the block in place; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there or
    not (where it did not, the block index has not moved since the last fetch), for any proof data whose array is
    `V`'s and whose body leaves the block in place; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched it there or
    not (where it did not, the block index has not moved since the last fetch), for any proof data whose array is
    `V`'s and whose body leaves the block in place; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether the pipeline fetched it there or
    not (where it did not, the block index has not moved since the last fetch), for any proof data whose array is
    `V`'s and whose body leaves the block in place; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, whether the pipeline fetched it there or
    not (where it did not, the block index has not moved since the last fetch), for any proof data whose array is
    `V`'s and whose body leaves the block in place; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, whether the pipeline fetched it there or
    not (where it did not, the block index has not moved since the last fetch), for any proof data whose array is
    `V`'s and whose body leaves the block in place; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, whether the pipeline fetched it there or
    not (where it did not, the block index has not moved since the last fetch), for any proof data whose array is
    `V`'s and whose body leaves the block in place; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole buffer -/

abbrev r1_S6400x128 : Rect S6400x128 := Rect.unit (s := S6400x128) ![0, 0] S6400x128.size inb_S6400x128_S6400x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-! ## What the body leaves in each output window's buffer -/

/-- Window 9's staging buffer after the body, from the input windows' blocks: the body's one store, of the whole
    buffer, of the normalized sum of the two products (the skeleton's payload `k1_pay2` of the nine blocks loaded),
    rectified against zero and rounded to bf16 (`k1_pay1`). -/
def out1_9 (x0 : Vec F S6400x128 .f32) (x1 : Vec F S6400x128 .f32) (x2 : Vec F S128x128 .f32) (x3 : Vec F S128x128 .f32) (x4 : Vec F S1x128 .f32) (x5 : Vec F S1x128 .f32) (x6 : Vec F S1x128 .f32) (x7 : Vec F S1x128 .f32) (x8 : Vec F S1x128 .f32) : Vec F S6400x128 .bf16 :=
  View.canon [⟨r1_S6400x128, k1_pay1 (k1_pay2 (View.ld x4 r1_S1x128) (View.ld x0 r1_S6400x128) (View.ld x2 r1_S128x128) (View.ld x1 r1_S6400x128) (View.ld x3 r1_S128x128) (View.ld x7 r1_S1x128) (View.ld x8 r1_S1x128) (View.ld x5 r1_S1x128) (View.ld x6 r1_S1x128)) (Scalar.ofBits .f32 0x00000000#32)⟩]

/-- The one store is of the whole buffer, so it covers it. -/
theorem cover1_9 (p0 : Vec F S6400x128 .bf16) (y : S6400x128.Idx) :
    ∃ pc ∈ ([⟨r1_S6400x128, p0⟩] : List (View.Piece (Elt F) S6400x128 .bf16)), y ∈ pc.1.set :=
  View.cover_of_tiled [⟨r1_S6400x128, p0⟩] S6400x128.size (by rfl) y

/-! ## The body's triple -/

set_option maxHeartbeats 1000000 in
/-- The kernel body on whole staging memrefs — the inputs' at contents `xW`, the outputs' at anything — runs to the
    continuation holding the inputs' as they were and each output's at `out1_W` of the inputs': the printed
    functions are their skeletons, a sequence of whole-buffer loads and stores, which is run symbolically. -/
theorem sound_kernel1 (c : Dev nD) (E : Set ℕ) (i : grid1.Coords) (arg1 : Memref sig .tc .vmem S6400x128 .f32) (harg1 : arg1.IsWhole) (arg2 : Memref sig .tc .vmem S6400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S6400x128 .bf16) (harg10 : arg10.IsWhole)
    (x0 : Vec F S6400x128 .f32) (x1 : Vec F S6400x128 .f32) (x2 : Vec F S128x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  sl_unfold [cc1_kernel, k1_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t`
    each input's buffer at its block and each output's at `out1_W` of the input blocks; the invariant is that the scoped
    rest and the generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The proof data's other fields, as the region's segment record reads them -/

/-- Every array is held at the full share. -/
theorem share1 (c : Dev nD) (w : Fin cfg1.W) : (dat1 V c).share w = fullShare :=
  (dat1 V c).share_full (fun _ => rfl) w

/-- The core owes nothing, before or after any point, -/
theorem owed1 (c : Dev nD) (t : Fin (cfg1.N + 1)) : (dat1 V c).owed t = 0 := rfl

/-- and no bound is put on the waits recorded. -/
theorem recorded1 (c : Dev nD) (t : Fin (cfg1.N + 1)) : (dat1 V c).recorded t = Set.univ := rfl

/-- The invariant at the first point is the class's: the scoped rest and the generator register, -/
theorem PhiIn1 (c : Dev nD) : (Pipeline.ΦA spec1 c : sProp 𝕄) ⊢ (dat1 V c).Φ 0 := by
  rw [show (dat1 V c).Φ 0 = Pipeline.ΦA spec1 c from rfl]

/-- and so it is after the last. -/
theorem PhiOut1 (c : Dev nD) : (dat1 V c).Φ (Fin.last cfg1.N) ⊢ (Pipeline.ΦA spec1 c : sProp 𝕄) := by
  rw [show (dat1 V c).Φ (Fin.last cfg1.N) = Pipeline.ΦA spec1 c from rfl]

/-- An input window's array is never written back: after any number of points it is as the region found it. -/
theorem arrIn1_0 (c : Dev nD) (t : ℕ) : (dat1 V c).arrAt 0 t = (dat1 V c).A 0 := (dat1 V c).arrAt_in 0 rfl t
theorem arrIn1_1 (c : Dev nD) (t : ℕ) : (dat1 V c).arrAt 1 t = (dat1 V c).A 1 := (dat1 V c).arrAt_in 1 rfl t
theorem arrIn1_2 (c : Dev nD) (t : ℕ) : (dat1 V c).arrAt 2 t = (dat1 V c).A 2 := (dat1 V c).arrAt_in 2 rfl t
theorem arrIn1_3 (c : Dev nD) (t : ℕ) : (dat1 V c).arrAt 3 t = (dat1 V c).A 3 := (dat1 V c).arrAt_in 3 rfl t
theorem arrIn1_4 (c : Dev nD) (t : ℕ) : (dat1 V c).arrAt 4 t = (dat1 V c).A 4 := (dat1 V c).arrAt_in 4 rfl t
theorem arrIn1_5 (c : Dev nD) (t : ℕ) : (dat1 V c).arrAt 5 t = (dat1 V c).A 5 := (dat1 V c).arrAt_in 5 rfl t
theorem arrIn1_6 (c : Dev nD) (t : ℕ) : (dat1 V c).arrAt 6 t = (dat1 V c).A 6 := (dat1 V c).arrAt_in 6 rfl t
theorem arrIn1_7 (c : Dev nD) (t : ℕ) : (dat1 V c).arrAt 7 t = (dat1 V c).A 7 := (dat1 V c).arrAt_in 7 rfl t
theorem arrIn1_8 (c : Dev nD) (t : ℕ) : (dat1 V c).arrAt 8 t = (dat1 V c).A 8 := (dat1 V c).arrAt_in 8 rfl t

end Cert.Kernel.Hand

end
-- ==== Proof.K.Apply3.lean ====
import proofs.«110491_j38809324487019_2_alg».proof.Proof.Gen.Kernel.Launch
import proofs.«110491_j38809324487019_2_alg».proof.Proof.Gen.Kernel.Skeleton
import proofs.«110491_j38809324487019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: `cc3_kernel` (pipeline 3), at the entry contents `V`

The second half of a fused Linear + BatchNorm + ReLU stage: each grid point takes one block of 6400 rows of the
bf16 activation (window 0), the whole 128×128 weight (window 1) and five 1×128 rows — bias, scale, shift, and the
batch mean and variance the preceding region computed (windows 2–6) — and writes the block of the f32 result
(window 7): `relu(((b + x · w) − mean) · rsqrt(var + ε) · g + be)`, the product with bf16 operands accumulated in f32.
The points are independent: nothing is carried from one to the next.
-/

/-! ## The windows' blocks -/

/-- Window `w`'s block at point `t`: the rectangle of its array, as the region finds it (`V`), that the window's
    index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not (where it did not, the block index has not moved since the last fetch), for any proof data whose array is
    `V`'s and whose body leaves the block in place; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether the pipeline fetched it there or
    not (where it did not, the block index has not moved since the last fetch), for any proof data whose array is
    `V`'s and whose body leaves the block in place; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether the pipeline fetched it there or
    not (where it did not, the block index has not moved since the last fetch), for any proof data whose array is
    `V`'s and whose body leaves the block in place; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether the pipeline fetched it there or
    not (where it did not, the block index has not moved since the last fetch), for any proof data whose array is
    `V`'s and whose body leaves the block in place; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether the pipeline fetched it there or
    not (where it did not, the block index has not moved since the last fetch), for any proof data whose array is
    `V`'s and whose body leaves the block in place; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether the pipeline fetched it there or
    not (where it did not, the block index has not moved since the last fetch), for any proof data whose array is
    `V`'s and whose body leaves the block in place; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, whether the pipeline fetched it there or
    not (where it did not, the block index has not moved since the last fetch), for any proof data whose array is
    `V`'s and whose body leaves the block in place; the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and every store is of a whole buffer -/

abbrev r3_S6400x128 : Rect S6400x128 := Rect.unit (s := S6400x128) ![0, 0] S6400x128.size inb_S6400x128_S6400x128_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0

/-! ## What the body leaves in each output window's buffer -/

/-- Window 7's staging buffer after the body, from the input windows' blocks: the body's one store, of the whole
    buffer, of the normalized and rectified product (the skeleton's payload `k3_pay1` of the seven blocks loaded). -/
def out3_7 (x0 : Vec F S6400x128 .bf16) (x1 : Vec F S128x128 .f32) (x2 : Vec F S1x128 .f32) (x3 : Vec F S1x128 .f32) (x4 : Vec F S1x128 .f32) (x5 : Vec F S1x128 .f32) (x6 : Vec F S1x128 .f32) : Vec F S6400x128 .f32 :=
  View.canon [⟨r3_S6400x128, k3_pay1 (View.ld x2 r3_S1x128) (View.ld x0 r3_S6400x128) (View.ld x1 r3_S128x128) (View.ld x5 r3_S1x128) (View.ld x6 r3_S1x128) (View.ld x3 r3_S1x128) (View.ld x4 r3_S1x128)⟩]

/-- The one store is of the whole buffer, so it covers it. -/
theorem cover3_7 (p0 : Vec F S6400x128 .f32) (y : S6400x128.Idx) :
    ∃ pc ∈ ([⟨r3_S6400x128, p0⟩] : List (View.Piece (Elt F) S6400x128 .f32)), y ∈ pc.1.set :=
  View.cover_of_tiled [⟨r3_S6400x128, p0⟩] S6400x128.size (by rfl) y

/-! ## The body's triple -/

set_option maxHeartbeats 1000000 in
/-- The kernel body on whole staging memrefs — the inputs' at contents `xW`, the outputs' at anything — runs to the
    continuation holding the inputs' as they were and each output's at `out3_W` of the inputs': the printed
    functions are their skeletons, a sequence of whole-buffer loads and stores, which is run symbolically. -/
theorem sound_kernel3 (c : Dev nD) (E : Set ℕ) (i : grid3.Coords) (arg1 : Memref sig .tc .vmem S6400x128 .bf16) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S6400x128 .f32) (harg8 : arg8.IsWhole)
    (x0 : Vec F S6400x128 .bf16) (x1 : Vec F S128x128 .f32) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3_kernel i arg1 harg1 arg2 harg2 arg3 harg3 arg4 harg4 arg5 harg5 arg6 harg6 arg7 harg7 arg8 harg8) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point `t`
    each input's buffer at its block and each output's at `out3_W` of the input blocks; the invariant is that the scoped
    rest and the generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The proof data's other fields, as the region's segment record reads them -/

/-- Every array is held at the full share. -/
theorem share3 (c : Dev nD) (w : Fin cfg3.W) : (dat3 V c).share w = fullShare :=
  (dat3 V c).share_full (fun _ => rfl) w

/-- The core owes nothing, before or after any point, -/
theorem owed3 (c : Dev nD) (t : Fin (cfg3.N + 1)) : (dat3 V c).owed t = 0 := rfl

/-- and no bound is put on the waits recorded. -/
theorem recorded3 (c : Dev nD) (t : Fin (cfg3.N + 1)) : (dat3 V c).recorded t = Set.univ := rfl

/-- The invariant at the first point is the class's: the scoped rest and the generator register, -/
theorem PhiIn3 (c : Dev nD) : (Pipeline.ΦA spec3 c : sProp 𝕄) ⊢ (dat3 V c).Φ 0 := by
  rw [show (dat3 V c).Φ 0 = Pipeline.ΦA spec3 c from rfl]

/-- and so it is after the last. -/
theorem PhiOut3 (c : Dev nD) : (dat3 V c).Φ (Fin.last cfg3.N) ⊢ (Pipeline.ΦA spec3 c : sProp 𝕄) := by
  rw [show (dat3 V c).Φ (Fin.last cfg3.N) = Pipeline.ΦA spec3 c from rfl]

/-- An input window's array is never written back: after any number of points it is as the region found it. -/
theorem arrIn3_0 (c : Dev nD) (t : ℕ) : (dat3 V c).arrAt 0 t = (dat3 V c).A 0 := (dat3 V c).arrAt_in 0 rfl t
theorem arrIn3_1 (c : Dev nD) (t : ℕ) : (dat3 V c).arrAt 1 t = (dat3 V c).A 1 := (dat3 V c).arrAt_in 1 rfl t
theorem arrIn3_2 (c : Dev nD) (t : ℕ) : (dat3 V c).arrAt 2 t = (dat3 V c).A 2 := (dat3 V c).arrAt_in 2 rfl t
theorem arrIn3_3 (c : Dev nD) (t : ℕ) : (dat3 V c).arrAt 3 t = (dat3 V c).A 3 := (dat3 V c).arrAt_in 3 rfl t
theorem arrIn3_4 (c : Dev nD) (t : ℕ) : (dat3 V c).arrAt 4 t = (dat3 V c).A 4 := (dat3 V c).arrAt_in 4 rfl t
theorem arrIn3_5 (c : Dev nD) (t : ℕ) : (dat3 V c).arrAt 5 t = (dat3 V c).A 5 := (dat3 V c).arrAt_in 5 rfl t
theorem arrIn3_6 (c : Dev nD) (t : ℕ) : (dat3 V c).arrAt 6 t = (dat3 V c).A 6 := (dat3 V c).arrAt_in 6 rfl t

end Cert.Kernel.Hand

end
-- ==== Proof.K.Apply5.lean ====
import proofs.«110491_j38809324487019_2_alg».proof.Proof.Gen.Kernel.Launch
import proofs.«110491_j38809324487019_2_alg».proof.Proof.Gen.Kernel.Skeleton
import proofs.«110491_j38809324487019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5 of @main: `cc5_kernel` (pipeline 5), at the entry contents `V`

The second half of a fused Linear + BatchNorm + ReLU stage: each grid point takes one block of 5000 rows of each of the two f32 activations (windows 0, 1), the two whole 128×128 weights (windows 2, 3)
and five 1×128 rows — bias, scale, shift, and the batch mean and variance the preceding region computed — and writes
the block of the bf16 result (window 9): `bf16(relu(((b + x₀ · w₀ + x₁ · w₁) − mean) · rsqrt(var + ε) · g + be))`, each product
with operands rounded to bf16 and accumulated in f32.
The points are independent: nothing is carried from one to the next.
-/

/-! ## The windows' blocks -/

/-- Window `w`'s block at point `t`: the rectangle of its array, as the region finds it (`V`), that the window's
    index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it there or
    not (where it did not, the block index has not moved since the last fetch), for any proof data whose array is
    `V`'s and whose body leaves the block in place; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether the pipeline fetched it there or
    not (where it did not, the block index has not moved since the last fetch), for any proof data whose array is
    `V`'s and whose body leaves the block in place; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether the pipeline fetched it there or
    not (where it did not, the block index has not moved since the last fetch), for any proof data whose array is
    `V`'s and whose body leaves the block in place; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether the pipeline fetched it there or
    not (where it did not, the block index has not moved since the last fetch), for any proof data whose array is
    `V`'s and whose body leaves the block in place; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether the pipeline fetched it there or
    not (where it did not, the block index has not moved since the last fetch), for any proof data whose array is
    `V`'s and whose body leaves the block in place; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, whether the pipeline fetched it there or
    not (where it did not, the block index has not moved since the last fetch), for any proof data whose array is
    `V`'s and whose body leaves the block in place; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, whether the pipeline fetched it there or
    not (where it did not, the block index has not moved since the last fetch), for any proof data whose array is
    `V`'s and whose body leaves the block in place; the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, whether the pipeline fetched it there or
    not (where it did not, the block index has not moved since the last fetch), for any proof data whose array is
    `V`'s and whose body leaves the block in place; the window is uncut and never idle. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
/-- Input window 8's current staging buffer holds its block at every point, whether the pipeline fetched it there or
    not (where it did not, the block index has not moved since the last fetch), for any proof data whose array is
    `V`'s and whose body leaves the block in place; the window is uncut and never idle. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and every store is of a whole buffer -/

abbrev r5_S5000x128 : Rect S5000x128 := Rect.unit (s := S5000x128) ![0, 0] S5000x128.size inb_S5000x128_S5000x128_0_0
abbrev r5_S128x128 : Rect S128x128 := Rect.unit (s := S128x128) ![0, 0] S128x128.size inb_S128x128_S128x128_0_0
abbrev r5_S1x128 : Rect S1x128 := Rect.unit (s := S1x128) ![0, 0] S1x128.size inb_S1x128_S1x128_0_0

/-! ## What the body leaves in each output window's buffer -/

/-- Window 9's staging buffer after the body, from the input windows' blocks: the body's one store, of the whole
    buffer, of the normalized sum of the two products (the skeleton's payload `k5_pay2` of the nine blocks loaded),
    rectified against zero and rounded to bf16 (`k5_pay1`). -/
def out5_9 (x0 : Vec F S5000x128 .f32) (x1 : Vec F S5000x128 .f32) (x2 : Vec F S128x128 .f32) (x3 : Vec F S128x128 .f32) (x4 : Vec F S1x128 .f32) (x5 : Vec F S1x128 .f32) (x6 : Vec F S1x128 .f32) (x7 : Vec F S1x128 .f32) (x8 : Vec F S1x128 .f32) : Vec F S5000x128 .bf16 :=
  View.canon [⟨r5_S5000x128, k5_pay1 (k5_pay2 (View.ld x4 r5_S1x128) (View.ld x0 r5_S5000x128) (View.ld x2 r5_S128x128) (View.ld x1 r5_S5000x128) (View.ld x3 r5_S128x128) (View.ld x7 r5_S1x128) (View.ld x8 r5_S1x128) (View.ld x5 r5_S1x128) (View.ld x6 r5_S1x128)) (Scalar.ofBits .f32 0x00000000#32)⟩]

/-- The one store is of the whole buffer, so it covers it. -/
theorem cover5_9 (p0 : Vec F S5000x128 .bf16) (y : S5000x128.Idx) :
    ∃ pc ∈ ([⟨r5_S5000x128, p0⟩] : List (View.Piece (Elt F) S5000x128 .bf16)), y ∈ pc.1.set :=
  View.cover_of_tiled [⟨r5_S5000x128, p0⟩] S5000x128.size (by rfl) y

/-! ## The body's triple -/

set_option maxHeartbeats 1000000 in
/-- The kernel body on whole staging memrefs — the inputs' at contents `xW`, the outputs' at anything — runs to the
    continuation holding the inputs' as they were and each output's at `out5_W` of the inputs': the printed
    functions are their skeletons, a sequence of whole-buffer loads and stores, which is run symbolically. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .bf16) (harg10 : arg10.IsWhole)
    (x0 : Vec F S5000x128 .f32) (x1 : Vec F S5000x128 .f32) (x2 : Vec F S128x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5_kernel i arg1 harg1 arg2 harg2 arg3 harg3 arg4 harg4 arg5 harg5 arg6 harg6 arg7 harg7 arg8 harg8 arg9 harg9 arg10 harg10) K := by
  sl_unfold [cc5_kernel, k5_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-! ## The pipeline's proof data -/

/-- The proof data of pipeline 5 on core `c`: the arrays as the region finds them (`V`); after the body at point `t`
    each input's buffer at its block and each output's at `out5_W` of the input blocks; the invariant is that the scoped
    rest and the generator register are untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The proof data's other fields, as the region's segment record reads them -/

/-- Every array is held at the full share. -/
theorem share5 (c : Dev nD) (w : Fin cfg5.W) : (dat5 V c).share w = fullShare :=
  (dat5 V c).share_full (fun _ => rfl) w

/-- The core owes nothing, before or after any point, -/
theorem owed5 (c : Dev nD) (t : Fin (cfg5.N + 1)) : (dat5 V c).owed t = 0 := rfl

/-- and no bound is put on the waits recorded. -/
theorem recorded5 (c : Dev nD) (t : Fin (cfg5.N + 1)) : (dat5 V c).recorded t = Set.univ := rfl

/-- The invariant at the first point is the class's: the scoped rest and the generator register, -/
theorem PhiIn5 (c : Dev nD) : (Pipeline.ΦA spec5 c : sProp 𝕄) ⊢ (dat5 V c).Φ 0 := by
  rw [show (dat5 V c).Φ 0 = Pipeline.ΦA spec5 c from rfl]

/-- and so it is after the last. -/
theorem PhiOut5 (c : Dev nD) : (dat5 V c).Φ (Fin.last cfg5.N) ⊢ (Pipeline.ΦA spec5 c : sProp 𝕄) := by
  rw [show (dat5 V c).Φ (Fin.last cfg5.N) = Pipeline.ΦA spec5 c from rfl]

/-- An input window's array is never written back: after any number of points it is as the region found it. -/
theorem arrIn5_0 (c : Dev nD) (t : ℕ) : (dat5 V c).arrAt 0 t = (dat5 V c).A 0 := (dat5 V c).arrAt_in 0 rfl t
theorem arrIn5_1 (c : Dev nD) (t : ℕ) : (dat5 V c).arrAt 1 t = (dat5 V c).A 1 := (dat5 V c).arrAt_in 1 rfl t
theorem arrIn5_2 (c : Dev nD) (t : ℕ) : (dat5 V c).arrAt 2 t = (dat5 V c).A 2 := (dat5 V c).arrAt_in 2 rfl t
theorem arrIn5_3 (c : Dev nD) (t : ℕ) : (dat5 V c).arrAt 3 t = (dat5 V c).A 3 := (dat5 V c).arrAt_in 3 rfl t
theorem arrIn5_4 (c : Dev nD) (t : ℕ) : (dat5 V c).arrAt 4 t = (dat5 V c).A 4 := (dat5 V c).arrAt_in 4 rfl t
theorem arrIn5_5 (c : Dev nD) (t : ℕ) : (dat5 V c).arrAt 5 t = (dat5 V c).A 5 := (dat5 V c).arrAt_in 5 rfl t
theorem arrIn5_6 (c : Dev nD) (t : ℕ) : (dat5 V c).arrAt 6 t = (dat5 V c).A 6 := (dat5 V c).arrAt_in 6 rfl t
theorem arrIn5_7 (c : Dev nD) (t : ℕ) : (dat5 V c).arrAt 7 t = (dat5 V c).A 7 := (dat5 V c).arrAt_in 7 rfl t
theorem arrIn5_8 (c : Dev nD) (t : ℕ) : (dat5 V c).arrAt 8 t = (dat5 V c).A 8 := (dat5 V c).arrAt_in 8 rfl t

end Cert.Kernel.Hand

end
-- ==== Proof.K.Apply7.lean ====
import proofs.«110491_j38809324487019_2_alg».proof.Proof.Gen.Kernel.Launch
import proofs.«110491_j38809324487019_2_alg».proof.Proof.Gen.Kernel.Skeleton
import proofs.«110491_j38809324487019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7 of @main: `cc7_kernel` (pipeline 7), at the entry contents `V`

The second half of the last fused Linear + BatchNorm + ReLU stage, with the attention head fused in: each grid point
takes one block of 5000 rows of the bf16 activation (window 0), the whole 128×128 weight (window 1), five 1×128 rows —
bias, scale, shift, and the batch mean and variance the preceding region computed (windows 2–6) —, the 128×1 attention
weight (window 7) and its 1×1 bias (window 8), and writes two blocks: the f32 result (window 9),
`h = relu(((b + x · w) − mean) · rsqrt(var + ε) · g + be)`, and the 5000×1 attention column (window 10),
`logistic(bf16(h) · bf16(wa) + ba)`; each product has bf16 operands and is accumulated in f32.
The points are independent: nothing is carried from one to the next.
-/

/-! ## The windows' blocks -/

/-- Window `w`'s block at point `t`: the rectangle of its array, as the region finds it (`V`), that the window's
    index map selects at `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether the pipeline fetched it there or
    not (where it did not, the block index has not moved since the last fetch), for any proof data whose array is
    `V`'s and whose body leaves the block in place; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, whether the pipeline fetched it there or
    not (where it did not, the block index has not moved since the last fetch), for any proof data whose array is
    `V`'s and whose body leaves the block in place; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, whether the pipeline fetched it there or
    not (where it did not, the block index has not moved since the last fetch), for any proof data whose array is
    `V`'s and whose body leaves the block in place; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, whether the pipeline fetched it there or
    not (where it did not, the block index has not moved since the last fetch), for any proof data whose array is
    `V`'s and whose body leaves the block in place; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, whether the pipeline fetched it there or
    not (where it did not, the block index has not moved since the last fetch), for any proof data whose array is
    `V`'s and whose body leaves the block in place; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, whether the pipeline fetched it there or
    not (where it did not, the block index has not moved since the last fetch), for any proof data whose array is
    `V`'s and whose body leaves the block in place; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, whether the pipeline fetched it there or
    not (where it did not, the block index has not moved since the last fetch), for any proof data whose array is
    `V`'s and whose body leaves the block in place; the window is uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, whether the pipeline fetched it there or
    not (where it did not, the block index has not moved since the last fetch), for any proof data whose array is
    `V`'s and whose body leaves the block in place; the window is uncut and never idle. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
/-- Input window 8's current staging buffer holds its block at every point, whether the pipeline fetched it there or
    not (where it did not, the block index has not moved since the last fetch), for any proof data whose array is
    `V`'s and whose body leaves the block in place; the window is uncut and never idle. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and every store is of a whole buffer -/

abbrev r7_S5000x128 : Rect S5000x128 := Rect.unit (s := S5000x128) ![0, 0] S5000x128.size inb_S5000x128_S5000x128_0_0
abbrev r7_S128x128 : Rect S128x128 := Rect.unit (s := S128x128) ![0, 0] S128x128.size inb_S128x128_S128x128_0_0
abbrev r7_S1x128 : Rect S1x128 := Rect.unit (s := S1x128) ![0, 0] S1x128.size inb_S1x128_S1x128_0_0
abbrev r7_S128x1 : Rect S128x1 := Rect.unit (s := S128x1) ![0, 0] S128x1.size inb_S128x1_S128x1_0_0
abbrev r7_S1x1 : Rect S1x1 := Rect.unit (s := S1x1) ![0, 0] S1x1.size inb_S1x1_S1x1_0_0
abbrev r7_S5000x1 : Rect S5000x1 := Rect.unit (s := S5000x1) ![0, 0] S5000x1.size inb_S5000x1_S5000x1_0_0

/-! ## What the body leaves in each output window's buffer -/

/-- Window 9's staging buffer after the body, from the input windows' blocks: the one store into it, of the whole
    buffer, of the normalized and rectified product (the skeleton's payload `k7_pay2` of the seven blocks loaded). -/
def out7_9 (x0 : Vec F S5000x128 .bf16) (x1 : Vec F S128x128 .f32) (x2 : Vec F S1x128 .f32) (x3 : Vec F S1x128 .f32) (x4 : Vec F S1x128 .f32) (x5 : Vec F S1x128 .f32) (x6 : Vec F S1x128 .f32) (x7 : Vec F S128x1 .f32) (x8 : Vec F S1x1 .f32) : Vec F S5000x128 .f32 :=
  View.canon [⟨r7_S5000x128, k7_pay2 (View.ld x2 r7_S1x128) (View.ld x0 r7_S5000x128) (View.ld x1 r7_S128x128) (View.ld x5 r7_S1x128) (View.ld x6 r7_S1x128) (View.ld x3 r7_S1x128) (View.ld x4 r7_S1x128)⟩]

/-- The one store is of the whole buffer, so it covers it. -/
theorem cover7_9 (p0 : Vec F S5000x128 .f32) (y : S5000x128.Idx) :
    ∃ pc ∈ ([⟨r7_S5000x128, p0⟩] : List (View.Piece (Elt F) S5000x128 .f32)), y ∈ pc.1.set :=
  View.cover_of_tiled [⟨r7_S5000x128, p0⟩] S5000x128.size (by rfl) y

/-- Window 10's staging buffer after the body, from the input windows' blocks: the one store into it, of the whole
    buffer, of the logistic of the rectified product's own product with the attention weight (`k7_pay3`) plus the
    attention bias (`k7_pay1`). -/
def out7_10 (x0 : Vec F S5000x128 .bf16) (x1 : Vec F S128x128 .f32) (x2 : Vec F S1x128 .f32) (x3 : Vec F S1x128 .f32) (x4 : Vec F S1x128 .f32) (x5 : Vec F S1x128 .f32) (x6 : Vec F S1x128 .f32) (x7 : Vec F S128x1 .f32) (x8 : Vec F S1x1 .f32) : Vec F S5000x1 .f32 :=
  View.canon [⟨r7_S5000x1, k7_pay1 (k7_pay3 (View.ld x2 r7_S1x128) (View.ld x0 r7_S5000x128) (View.ld x1 r7_S128x128) (View.ld x5 r7_S1x128) (View.ld x6 r7_S1x128) (View.ld x3 r7_S1x128) (View.ld x4 r7_S1x128) (View.ld x7 r7_S128x1)) (View.ld x8 r7_S1x1)⟩]

/-- The one store is of the whole buffer, so it covers it. -/
theorem cover7_10 (p0 : Vec F S5000x1 .f32) (y : S5000x1.Idx) :
    ∃ pc ∈ ([⟨r7_S5000x1, p0⟩] : List (View.Piece (Elt F) S5000x1 .f32)), y ∈ pc.1.set :=
  View.cover_of_tiled [⟨r7_S5000x1, p0⟩] S5000x1.size (by rfl) y

/-! ## The body's triple -/

set_option maxHeartbeats 1000000 in
/-- The kernel body on whole staging memrefs — the inputs' at contents `xW`, the outputs' at anything — runs to the
    continuation holding the inputs' as they were and each output's at `out7_W` of the inputs': the printed
    functions are their skeletons, a sequence of whole-buffer loads and stores, which is run symbolically. -/
theorem sound_kernel7 (c : Dev nD) (E : Set ℕ) (i : grid7.Coords) (arg1 : Memref sig .tc .vmem S5000x128 .bf16) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S5000x128 .f32) (harg10 : arg10.IsWhole) (arg11 : Memref sig .tc .vmem S5000x1 .f32) (harg11 : arg11.IsWhole)
    (x0 : Vec F S5000x128 .bf16) (x1 : Vec F S128x128 .f32) (x2 : Vec F S1x128 .f32) (x3 : Vec F S1x128 .f32) (x4 : Vec F S1x128 .f32) (x5 : Vec F S1x128 .f32) (x6 : Vec F S1x128 .f32) (x7 : Vec F S128x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out7_9 x0 x1 x2 x3 x4 x5 x6 x7 x8) ∗ owns (c : Thread nD τ) arg11 fullShare (out7_10 x0 x1 x2 x3 x4 x5 x6 x7 x8)) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11) K := by
  sl_unfold [cc7_kernel, k7_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover7_9 _)
  iexists _; isplitr
  swap; · iexact H10
  ipureintro
  exact View.read_writes_eq_canon _ _ _ (cover7_10 _)

/-! ## The pipeline's proof data -/

/-- The proof data of pipeline 7 on core `c`: the arrays as the region finds them (`V`); after the body at point `t`
    each input's buffer at its block and each output's at `out7_W` of the input blocks; the invariant is that the scoped
    rest and the generator register are untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
    | ⟨10, _⟩ => out7_10 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]
theorem after7_10 (c : Dev nD) (t : Fin cfg7.N) : (dat7 V c).after 10 t = out7_10 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t))

/-- The body at any point: the inputs' memrefs hold their blocks, so the body's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel7 c Set.univ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The proof data's other fields, as the region's segment record reads them -/

/-- Every array is held at the full share. -/
theorem share7 (c : Dev nD) (w : Fin cfg7.W) : (dat7 V c).share w = fullShare :=
  (dat7 V c).share_full (fun _ => rfl) w

/-- The core owes nothing, before or after any point, -/
theorem owed7 (c : Dev nD) (t : Fin (cfg7.N + 1)) : (dat7 V c).owed t = 0 := rfl

/-- and no bound is put on the waits recorded. -/
theorem recorded7 (c : Dev nD) (t : Fin (cfg7.N + 1)) : (dat7 V c).recorded t = Set.univ := rfl

/-- The invariant at the first point is the class's: the scoped rest and the generator register, -/
theorem PhiIn7 (c : Dev nD) : (Pipeline.ΦA spec7 c : sProp 𝕄) ⊢ (dat7 V c).Φ 0 := by
  rw [show (dat7 V c).Φ 0 = Pipeline.ΦA spec7 c from rfl]

/-- and so it is after the last. -/
theorem PhiOut7 (c : Dev nD) : (dat7 V c).Φ (Fin.last cfg7.N) ⊢ (Pipeline.ΦA spec7 c : sProp 𝕄) := by
  rw [show (dat7 V c).Φ (Fin.last cfg7.N) = Pipeline.ΦA spec7 c from rfl]

/-- An input window's array is never written back: after any number of points it is as the region found it. -/
theorem arrIn7_0 (c : Dev nD) (t : ℕ) : (dat7 V c).arrAt 0 t = (dat7 V c).A 0 := (dat7 V c).arrAt_in 0 rfl t
theorem arrIn7_1 (c : Dev nD) (t : ℕ) : (dat7 V c).arrAt 1 t = (dat7 V c).A 1 := (dat7 V c).arrAt_in 1 rfl t
theorem arrIn7_2 (c : Dev nD) (t : ℕ) : (dat7 V c).arrAt 2 t = (dat7 V c).A 2 := (dat7 V c).arrAt_in 2 rfl t
theorem arrIn7_3 (c : Dev nD) (t : ℕ) : (dat7 V c).arrAt 3 t = (dat7 V c).A 3 := (dat7 V c).arrAt_in 3 rfl t
theorem arrIn7_4 (c : Dev nD) (t : ℕ) : (dat7 V c).arrAt 4 t = (dat7 V c).A 4 := (dat7 V c).arrAt_in 4 rfl t
theorem arrIn7_5 (c : Dev nD) (t : ℕ) : (dat7 V c).arrAt 5 t = (dat7 V c).A 5 := (dat7 V c).arrAt_in 5 rfl t
theorem arrIn7_6 (c : Dev nD) (t : ℕ) : (dat7 V c).arrAt 6 t = (dat7 V c).A 6 := (dat7 V c).arrAt_in 6 rfl t
theorem arrIn7_7 (c : Dev nD) (t : ℕ) : (dat7 V c).arrAt 7 t = (dat7 V c).A 7 := (dat7 V c).arrAt_in 7 rfl t
theorem arrIn7_8 (c : Dev nD) (t : ℕ) : (dat7 V c).arrAt 8 t = (dat7 V c).A 8 := (dat7 V c).arrAt_in 8 rfl t

end Cert.Kernel.Hand

end
-- ==== Proof.K.Kits.lean ====
/-
  The eight kernel regions' proof kits, gathered: region 2k is the statistics kernel of the k-th fused stage (its two
  scratch accumulators carried from grid point to grid point inside the pipeline's invariant), region 2k+1 its
  apply kernel (every block independent).
-/
import proofs.«110491_j38809324487019_2_alg».proof.Proof.K.Chain
import proofs.«110491_j38809324487019_2_alg».proof.Proof.K.Stats0
import proofs.«110491_j38809324487019_2_alg».proof.Proof.K.Stats2
import proofs.«110491_j38809324487019_2_alg».proof.Proof.K.Stats4
import proofs.«110491_j38809324487019_2_alg».proof.Proof.K.Stats6
import proofs.«110491_j38809324487019_2_alg».proof.Proof.K.Apply1
import proofs.«110491_j38809324487019_2_alg».proof.Proof.K.Apply3
import proofs.«110491_j38809324487019_2_alg».proof.Proof.K.Apply5
import proofs.«110491_j38809324487019_2_alg».proof.Proof.K.Apply7

set_option maxRecDepth 16384

noncomputable section

namespace Cert.Kernel.Hand

open Cert.Kernel Cert.Kernel.Gen
open Idealize.ShloMosaic Idealize.ShloMosaic.TcCoe
open Idealize.SL Idealize.SL.BI Idealize.SL.Sem
open Idealize.ShloMosaic.Pipeline (Dat BodyObligation)

variable {F : FTy → Type} [FloatOps F]

/-- Every region's kit. -/
def kits : (p : Fin 8) → Kit F p
  | ⟨0, _⟩ => ⟨fun V c => dat0 V c, fun V c w => A_eq0 V c w, fun V c => body_obligation0 V c, fun V c w => share0 V c w, fun V c t => owed0 V c t, fun V c t => recorded0 V c t, fun V c => PhiIn0 V c, fun V c => PhiOut0 V c⟩
  | ⟨1, _⟩ => ⟨fun V c => dat1 V c, fun V c w => A_eq1 V c w, fun V c => body_obligation1 V c, fun V c w => share1 V c w, fun V c t => owed1 V c t, fun V c t => recorded1 V c t, fun V c => PhiIn1 V c, fun V c => PhiOut1 V c⟩
  | ⟨2, _⟩ => ⟨fun V c => dat2 V c, fun V c w => A_eq2 V c w, fun V c => body_obligation2 V c, fun V c w => share2 V c w, fun V c t => owed2 V c t, fun V c t => recorded2 V c t, fun V c => PhiIn2 V c, fun V c => PhiOut2 V c⟩
  | ⟨3, _⟩ => ⟨fun V c => dat3 V c, fun V c w => A_eq3 V c w, fun V c => body_obligation3 V c, fun V c w => share3 V c w, fun V c t => owed3 V c t, fun V c t => recorded3 V c t, fun V c => PhiIn3 V c, fun V c => PhiOut3 V c⟩
  | ⟨4, _⟩ => ⟨fun V c => dat4 V c, fun V c w => A_eq4 V c w, fun V c => body_obligation4 V c, fun V c w => share4 V c w, fun V c t => owed4 V c t, fun V c t => recorded4 V c t, fun V c => PhiIn4 V c, fun V c => PhiOut4 V c⟩
  | ⟨5, _⟩ => ⟨fun V c => dat5 V c, fun V c w => A_eq5 V c w, fun V c => body_obligation5 V c, fun V c w => share5 V c w, fun V c t => owed5 V c t, fun V c t => recorded5 V c t, fun V c => PhiIn5 V c, fun V c => PhiOut5 V c⟩
  | ⟨6, _⟩ => ⟨fun V c => dat6 V c, fun V c w => A_eq6 V c w, fun V c => body_obligation6 V c, fun V c w => share6 V c w, fun V c t => owed6 V c t, fun V c t => recorded6 V c t, fun V c => PhiIn6 V c, fun V c => PhiOut6 V c⟩
  | ⟨7, _⟩ => ⟨fun V c => dat7 V c, fun V c w => A_eq7 V c w, fun V c => body_obligation7 V c, fun V c w => share7 V c w, fun V c t => owed7 V c t, fun V c t => recorded7 V c t, fun V c => PhiIn7 V c, fun V c => PhiOut7 V c⟩

end Cert.Kernel.Hand

end
-- ==== Proof.K.Segs.lean ====
import proofs.«110491_j38809324487019_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (kits : (p : Fin 8) → Kit F p)

/-! ## The proof data family, and each region as a segment -/

/-- Every pipeline's proof data, each at its region's entry contents. -/
def pdats : (p : Fin 8) → (c : Dev nD) → Dat τ (Elt F) Unit ℕ (UR sig nD τ) ℕ (cfgs p) c
  | ⟨0, _⟩ => fun c => (kits 0).dat (fun c b => U1 m c b) c
  | ⟨1, _⟩ => fun c => (kits 1).dat (fun c b => U3 m kits c b) c
  | ⟨2, _⟩ => fun c => (kits 2).dat (fun c b => U5 m kits c b) c
  | ⟨3, _⟩ => fun c => (kits 3).dat (fun c b => U7 m kits c b) c
  | ⟨4, _⟩ => fun c => (kits 4).dat (fun c b => U9 m kits c b) c
  | ⟨5, _⟩ => fun c => (kits 5).dat (fun c b => U11 m kits c b) c
  | ⟨6, _⟩ => fun c => (kits 6).dat (fun c b => U13 m kits c b) c
  | ⟨7, _⟩ => fun c => (kits 7).dat (fun c b => U15 m kits c b) c
omit [FloatOps F] in
/-- A statement about the 5 window numbers holds when it holds of each. -/
theorem forall_fin5 {P : Fin 5 → Prop} (h0 : P 0) (h1 : P 1) (h2 : P 2) (h3 : P 3) (h4 : P 4) : ∀ w, P w := by
  intro w; fin_cases w <;> assumption

omit [FloatOps F] in
/-- A statement about the 7 window numbers holds when it holds of each. -/
theorem forall_fin7 {P : Fin 7 → Prop} (h0 : P 0) (h1 : P 1) (h2 : P 2) (h3 : P 3) (h4 : P 4) (h5 : P 5) (h6 : P 6) : ∀ w, P w := by
  intro w; fin_cases w <;> assumption

omit [FloatOps F] in
/-- A statement about the 8 window numbers holds when it holds of each. -/
theorem forall_fin8 {P : Fin 8 → Prop} (h0 : P 0) (h1 : P 1) (h2 : P 2) (h3 : P 3) (h4 : P 4) (h5 : P 5) (h6 : P 6) (h7 : P 7) : ∀ w, P w := by
  intro w; fin_cases w <;> assumption

omit [FloatOps F] in
/-- A statement about the 10 window numbers holds when it holds of each. -/
theorem forall_fin10 {P : Fin 10 → Prop} (h0 : P 0) (h1 : P 1) (h2 : P 2) (h3 : P 3) (h4 : P 4) (h5 : P 5) (h6 : P 6) (h7 : P 7) (h8 : P 8) (h9 : P 9) : ∀ w, P w := by
  intro w; fin_cases w <;> assumption

omit [FloatOps F] in
/-- A statement about the 11 window numbers holds when it holds of each. -/
theorem forall_fin11 {P : Fin 11 → Prop} (h0 : P 0) (h1 : P 1) (h2 : P 2) (h3 : P 3) (h4 : P 4) (h5 : P 5) (h6 : P 6) (h7 : P 7) (h8 : P 8) (h9 : P 9) (h10 : P 10) : ∀ w, P w := by
  intro w; fin_cases w <;> assumption

/-! ### Region 0 -/

/-- Region 0 changes only its output arrays. -/
theorem keep0 (c : Dev nD) (b : Ref sig .tc) (h5 : b ≠ main_v14_0) (h6 : b ≠ main_v14_1) : U2 m kits c b = U1 m c b := by
  show Function.update (Function.update (U1 m c) main_v14_0 _) main_v14_1 _ b = _
  rw [Function.update_of_ne (StableHlo.devRef_ne_of_ne h6), Function.update_of_ne (StableHlo.devRef_ne_of_ne h5)]
/-- Region 0's proof data in the family. -/
theorem pdats_0 (c : Dev nD) : pdats m kits 0 c = (kits 0).dat (fun c b => U1 m c b) c := rfl
set_option backward.isDefEq.respectTransparency.types false in
/-- After region 0 its input array `main_arg2` (window 0) holds its entry contents. -/
theorem hF0_0 (c : Dev nD) : (pdats m kits 0 c).arrAt (0 : Fin 7) (cfgs 0).N = U2 m kits c (Pipeline.arrRef (cfgs 0).spec (0 : Fin 7)) := by
  rw [pdats_0]
  refine Eq.trans ?_ (keep0 m kits c main_arg2 (by decide) (by decide)).symm
  exact (((kits 0).dat (fun c b => U1 m c b) c).arrAt_in (0 : Fin 7) rfl _).trans ((kits 0).A_eq (fun c b => U1 m c b) c (0 : Fin 7))
set_option backward.isDefEq.respectTransparency.types false in
/-- After region 0 its input array `main_v10` (window 1) holds its entry contents. -/
theorem hF0_1 (c : Dev nD) : (pdats m kits 0 c).arrAt (1 : Fin 7) (cfgs 0).N = U2 m kits c (Pipeline.arrRef (cfgs 0).spec (1 : Fin 7)) := by
  rw [pdats_0]
  refine Eq.trans ?_ (keep0 m kits c main_v10 (by decide) (by decide)).symm
  exact (((kits 0).dat (fun c b => U1 m c b) c).arrAt_in (1 : Fin 7) rfl _).trans ((kits 0).A_eq (fun c b => U1 m c b) c (1 : Fin 7))
set_option backward.isDefEq.respectTransparency.types false in
/-- After region 0 its input array `main_v11` (window 2) holds its entry contents. -/
theorem hF0_2 (c : Dev nD) : (pdats m kits 0 c).arrAt (2 : Fin 7) (cfgs 0).N = U2 m kits c (Pipeline.arrRef (cfgs 0).spec (2 : Fin 7)) := by
  rw [pdats_0]
  refine Eq.trans ?_ (keep0 m kits c main_v11 (by decide) (by decide)).symm
  exact (((kits 0).dat (fun c b => U1 m c b) c).arrAt_in (2 : Fin 7) rfl _).trans ((kits 0).A_eq (fun c b => U1 m c b) c (2 : Fin 7))
set_option backward.isDefEq.respectTransparency.types false in
/-- After region 0 its input array `main_v12` (window 3) holds its entry contents. -/
theorem hF0_3 (c : Dev nD) : (pdats m kits 0 c).arrAt (3 : Fin 7) (cfgs 0).N = U2 m kits c (Pipeline.arrRef (cfgs 0).spec (3 : Fin 7)) := by
  rw [pdats_0]
  refine Eq.trans ?_ (keep0 m kits c main_v12 (by decide) (by decide)).symm
  exact (((kits 0).dat (fun c b => U1 m c b) c).arrAt_in (3 : Fin 7) rfl _).trans ((kits 0).A_eq (fun c b => U1 m c b) c (3 : Fin 7))
set_option backward.isDefEq.respectTransparency.types false in
/-- After region 0 its input array `main_v13` (window 4) holds its entry contents. -/
theorem hF0_4 (c : Dev nD) : (pdats m kits 0 c).arrAt (4 : Fin 7) (cfgs 0).N = U2 m kits c (Pipeline.arrRef (cfgs 0).spec (4 : Fin 7)) := by
  rw [pdats_0]
  refine Eq.trans ?_ (keep0 m kits c main_v13 (by decide) (by decide)).symm
  exact (((kits 0).dat (fun c b => U1 m c b) c).arrAt_in (4 : Fin 7) rfl _).trans ((kits 0).A_eq (fun c b => U1 m c b) c (4 : Fin 7))
set_option backward.isDefEq.respectTransparency.types false in
/-- After region 0 its output array `main_v14_0` (window 5) holds the entry contents with every point's write-back folded in. -/
theorem hF0_5 (c : Dev nD) : (pdats m kits 0 c).arrAt (5 : Fin 7) (cfgs 0).N = U2 m kits c (Pipeline.arrRef (cfgs 0).spec (5 : Fin 7)) := by
  rw [pdats_0]
  show _ = Function.update (Function.update (U1 m c) main_v14_0 _) main_v14_1 _ main_v14_0
  rw [Function.update_of_ne (StableHlo.devRef_ne_of_ne (by decide : main_v14_0 ≠ main_v14_1)), Function.update_self]
  rfl
set_option backward.isDefEq.respectTransparency.types false in
/-- After region 0 its output array `main_v14_1` (window 6) holds the entry contents with every point's write-back folded in. -/
theorem hF0_6 (c : Dev nD) : (pdats m kits 0 c).arrAt (6 : Fin 7) (cfgs 0).N = U2 m kits c (Pipeline.arrRef (cfgs 0).spec (6 : Fin 7)) := by
  rw [pdats_0]
  show _ = Function.update (Function.update (U1 m c) main_v14_0 _) main_v14_1 _ main_v14_1
  rw [Function.update_self]
  rfl
set_option backward.isDefEq.respectTransparency.types false in
/-- After region 0 each of its arrays holds what the pipeline leaves. -/
theorem hF0 (c : Dev nD) : ∀ w : Fin 7, (pdats m kits 0 c).arrAt w (cfgs 0).N = U2 m kits c (Pipeline.arrRef (cfgs 0).spec w) :=
  forall_fin7 (hF0_0 m kits c) (hF0_1 m kits c) (hF0_2 m kits c) (hF0_3 m kits c) (hF0_4 m kits c) (hF0_5 m kits c) (hF0_6 m kits c)
set_option backward.isDefEq.respectTransparency.types false in
/-- Every buffer that is not one of region 0's arrays is as the region found it. -/
theorem hrest0 (c : Dev nD) : ∀ b : Ref sig .tc, b ∉ Finset.univ.image (Pipeline.arrRef (cfgs 0).spec) → U2 m kits c b = U1 m c b := fun b hb =>
  keep0 m kits c b (fun e => hb (Finset.mem_image.mpr ⟨(5 : Fin 7), Finset.mem_univ _, by rw [e]; rfl⟩)) (fun e => hb (Finset.mem_image.mpr ⟨(6 : Fin 7), Finset.mem_univ _, by rw [e]; rfl⟩))
/-- Region 0 as a segment: entered at the chain's contents before it, left at those after it. -/
def reg0 : Pipeline.RegionSeg (pcfgs (F := F)) adm (pdats m kits) () defs₀ Variants.none L0 lv0 0 :=
  regOf (pdats m kits) 0 launch0 (U1 m) (U2 m kits)
    (fun c w => (kits 0).A_eq _ c w) (fun c => (kits 0).body _ c) (fun c w => (kits 0).share _ c w)
    (fun c t => (kits 0).owed _ c t) (fun c t => (kits 0).recorded _ c t)
    (fun c => by unfold Pipeline.prefHeld; rw [show (Finset.univ : Finset (Fin 0)) = ∅ from rfl, BI.bigSep_empty])
    (fun c => (kits 0).phiIn _ c) (fun c => (kits 0).phiOut _ c)
    (hF0 m kits) (hrest0 m kits)

/-! ### Region 1 -/

/-- Region 1 changes only its output arrays. -/
theorem keep1 (c : Dev nD) (b : Ref sig .tc) (h9 : b ≠ main_v18) : U4 m kits c b = U3 m kits c b := by
  show Function.update (U3 m kits c) main_v18 _ b = _
  rw [Function.update_of_ne (StableHlo.devRef_ne_of_ne h9)]
/-- Region 1's proof data in the family. -/
theorem pdats_1 (c : Dev nD) : pdats m kits 1 c = (kits 1).dat (fun c b => U3 m kits c b) c := rfl
set_option backward.isDefEq.respectTransparency.types false in
/-- After region 1 its input array `main_arg2` (window 0) holds its entry contents. -/
theorem hF1_0 (c : Dev nD) : (pdats m kits 1 c).arrAt (0 : Fin 10) (cfgs 1).N = U4 m kits c (Pipeline.arrRef (cfgs 1).spec (0 : Fin 10)) := by
  rw [pdats_1]
  refine Eq.trans ?_ (keep1 m kits c main_arg2 (by decide)).symm
  exact (((kits 1).dat (fun c b => U3 m kits c b) c).arrAt_in (0 : Fin 10) rfl _).trans ((kits 1).A_eq (fun c b => U3 m kits c b) c (0 : Fin 10))
set_option backward.isDefEq.respectTransparency.types false in
/-- After region 1 its input array `main_v10` (window 1) holds its entry contents. -/
theorem hF1_1 (c : Dev nD) : (pdats m kits 1 c).arrAt (1 : Fin 10) (cfgs 1).N = U4 m kits c (Pipeline.arrRef (cfgs 1).spec (1 : Fin 10)) := by
  rw [pdats_1]
  refine Eq.trans ?_ (keep1 m kits c main_v10 (by decide)).symm
  exact (((kits 1).dat (fun c b => U3 m kits c b) c).arrAt_in (1 : Fin 10) rfl _).trans ((kits 1).A_eq (fun c b => U3 m kits c b) c (1 : Fin 10))
set_option backward.isDefEq.respectTransparency.types false in
/-- After region 1 its input array `main_v11` (window 2) holds its entry contents. -/
theorem hF1_2 (c : Dev nD) : (pdats m kits 1 c).arrAt (2 : Fin 10) (cfgs 1).N = U4 m kits c (Pipeline.arrRef (cfgs 1).spec (2 : Fin 10)) := by
  rw [pdats_1]
  refine Eq.trans ?_ (keep1 m kits c main_v11 (by decide)).symm
  exact (((kits 1).dat (fun c b => U3 m kits c b) c).arrAt_in (2 : Fin 10) rfl _).trans ((kits 1).A_eq (fun c b => U3 m kits c b) c (2 : Fin 10))
set_option backward.isDefEq.respectTransparency.types false in
/-- After region 1 its input array `main_v12` (window 3) holds its entry contents. -/
theorem hF1_3 (c : Dev nD) : (pdats m kits 1 c).arrAt (3 : Fin 10) (cfgs 1).N = U4 m kits c (Pipeline.arrRef (cfgs 1).spec (3 : Fin 10)) := by
  rw [pdats_1]
  refine Eq.trans ?_ (keep1 m kits c main_v12 (by decide)).symm
  exact (((kits 1).dat (fun c b => U3 m kits c b) c).arrAt_in (3 : Fin 10) rfl _).trans ((kits 1).A_eq (fun c b => U3 m kits c b) c (3 : Fin 10))
set_option backward.isDefEq.respectTransparency.types false in
/-- After region 1 its input array `main_v15` (window 4) holds its entry contents. -/
theorem hF1_4 (c : Dev nD) : (pdats m kits 1 c).arrAt (4 : Fin 10) (cfgs 1).N = U4 m kits c (Pipeline.arrRef (cfgs 1).spec (4 : Fin 10)) := by
  rw [pdats_1]
  refine Eq.trans ?_ (keep1 m kits c main_v15 (by decide)).symm
  exact (((kits 1).dat (fun c b => U3 m kits c b) c).arrAt_in (4 : Fin 10) rfl _).trans ((kits 1).A_eq (fun c b => U3 m kits c b) c (4 : Fin 10))
set_option backward.isDefEq.respectTransparency.types false in
/-- After region 1 its input array `main_v16` (window 5) holds its entry contents. -/
theorem hF1_5 (c : Dev nD) : (pdats m kits 1 c).arrAt (5 : Fin 10) (cfgs 1).N = U4 m kits c (Pipeline.arrRef (cfgs 1).spec (5 : Fin 10)) := by
  rw [pdats_1]
  refine Eq.trans ?_ (keep1 m kits c main_v16 (by decide)).symm
  exact (((kits 1).dat (fun c b => U3 m kits c b) c).arrAt_in (5 : Fin 10) rfl _).trans ((kits 1).A_eq (fun c b => U3 m kits c b) c (5 : Fin 10))
set_option backward.isDefEq.respectTransparency.types false in
/-- After region 1 its input array `main_v17` (window 6) holds its entry contents. -/
theorem hF1_6 (c : Dev nD) : (pdats m kits 1 c).arrAt (6 : Fin 10) (cfgs 1).N = U4 m kits c (Pipeline.arrRef (cfgs 1).spec (6 : Fin 10)) := by
  rw [pdats_1]
  refine Eq.trans ?_ (keep1 m kits c main_v17 (by decide)).symm
  exact (((kits 1).dat (fun c b => U3 m kits c b) c).arrAt_in (6 : Fin 10) rfl _).trans ((kits 1).A_eq (fun c b => U3 m kits c b) c (6 : Fin 10))
set_option backward.isDefEq.respectTransparency.types false in
/-- After region 1 its input array `main_v14_0` (window 7) holds its entry contents. -/
theorem hF1_7 (c : Dev nD) : (pdats m kits 1 c).arrAt (7 : Fin 10) (cfgs 1).N = U4 m kits c (Pipeline.arrRef (cfgs 1).spec (7 : Fin 10)) := by
  rw [pdats_1]
  refine Eq.trans ?_ (keep1 m kits c main_v14_0 (by decide)).symm
  exact (((kits 1).dat (fun c b => U3 m kits c b) c).arrAt_in (7 : Fin 10) rfl _).trans ((kits 1).A_eq (fun c b => U3 m kits c b) c (7 : Fin 10))
set_option backward.isDefEq.respectTransparency.types false in
/-- After region 1 its input array `main_v14_1` (window 8) holds its entry contents. -/
theorem hF1_8 (c : Dev nD) : (pdats m kits 1 c).arrAt (8 : Fin 10) (cfgs 1).N = U4 m kits c (Pipeline.arrRef (cfgs 1).spec (8 : Fin 10)) := by
  rw [pdats_1]
  refine Eq.trans ?_ (keep1 m kits c main_v14_1 (by decide)).symm
  exact (((kits 1).dat (fun c b => U3 m kits c b) c).arrAt_in (8 : Fin 10) rfl _).trans ((kits 1).A_eq (fun c b => U3 m kits c b) c (8 : Fin 10))
set_option backward.isDefEq.respectTransparency.types false in
/-- After region 1 its output array `main_v18` (window 9) holds the entry contents with every point's write-back folded in. -/
theorem hF1_9 (c : Dev nD) : (pdats m kits 1 c).arrAt (9 : Fin 10) (cfgs 1).N = U4 m kits c (Pipeline.arrRef (cfgs 1).spec (9 : Fin 10)) := by
  rw [pdats_1]
  show _ = Function.update (U3 m kits c) main_v18 _ main_v18
  rw [Function.update_self]
  rfl
set_option backward.isDefEq.respectTransparency.types false in
/-- After region 1 each of its arrays holds what the pipeline leaves. -/
theorem hF1 (c : Dev nD) : ∀ w : Fin 10, (pdats m kits 1 c).arrAt w (cfgs 1).N = U4 m kits c (Pipeline.arrRef (cfgs 1).spec w) :=
  forall_fin10 (hF1_0 m kits c) (hF1_1 m kits c) (hF1_2 m kits c) (hF1_3 m kits c) (hF1_4 m kits c) (hF1_5 m kits c) (hF1_6 m kits c) (hF1_7 m kits c) (hF1_8 m kits c) (hF1_9 m kits c)
set_option backward.isDefEq.respectTransparency.types false in
/-- Every buffer that is not one of region 1's arrays is as the region found it. -/
theorem hrest1 (c : Dev nD) : ∀ b : Ref sig .tc, b ∉ Finset.univ.image (Pipeline.arrRef (cfgs 1).spec) → U4 m kits c b = U3 m kits c b := fun b hb =>
  keep1 m kits c b (fun e => hb (Finset.mem_image.mpr ⟨(9 : Fin 10), Finset.mem_univ _, by rw [e]; rfl⟩))
/-- Region 1 as a segment: entered at the chain's contents before it, left at those after it. -/
def reg1 : Pipeline.RegionSeg (pcfgs (F := F)) adm (pdats m kits) () defs₀ Variants.none L0 lv0 1 :=
  regOf (pdats m kits) 1 launch1 (U3 m kits) (U4 m kits)
    (fun c w => (kits 1).A_eq _ c w) (fun c => (kits 1).body _ c) (fun c w => (kits 1).share _ c w)
    (fun c t => (kits 1).owed _ c t) (fun c t => (kits 1).recorded _ c t)
    (fun c => by unfold Pipeline.prefHeld; rw [show (Finset.univ : Finset (Fin 0)) = ∅ from rfl, BI.bigSep_empty])
    (fun c => (kits 1).phiIn _ c) (fun c => (kits 1).phiOut _ c)
    (hF1 m kits) (hrest1 m kits)

/-! ### Region 2 -/

/-- Region 2 changes only its output arrays. -/
theorem keep2 (c : Dev nD) (b : Ref sig .tc) (h3 : b ≠ main_v20_0) (h4 : b ≠ main_v20_1) : U6 m kits c b = U5 m kits c b := by
  show Function.update (Function.update (U5 m kits c) main_v20_0 _) main_v20_1 _ b = _
  rw [Function.update_of_ne (StableHlo.devRef_ne_of_ne h4), Function.update_of_ne (StableHlo.devRef_ne_of_ne h3)]
/-- Region 2's proof data in the family. -/
theorem pdats_2 (c : Dev nD) : pdats m kits 2 c = (kits 2).dat (fun c b => U5 m kits c b) c := rfl
set_option backward.isDefEq.respectTransparency.types false in
/-- After region 2 its input array `main_v18` (window 0) holds its entry contents. -/
theorem hF2_0 (c : Dev nD) : (pdats m kits 2 c).arrAt (0 : Fin 5) (cfgs 2).N = U6 m kits c (Pipeline.arrRef (cfgs 2).spec (0 : Fin 5)) := by
  rw [pdats_2]
  refine Eq.trans ?_ (keep2 m kits c main_v18 (by decide) (by decide)).symm
  exact (((kits 2).dat (fun c b => U5 m kits c b) c).arrAt_in (0 : Fin 5) rfl _).trans ((kits 2).A_eq (fun c b => U5 m kits c b) c (0 : Fin 5))
set_option backward.isDefEq.respectTransparency.types false in
/-- After region 2 its input array `main_arg7` (window 1) holds its entry contents. -/
theorem hF2_1 (c : Dev nD) : (pdats m kits 2 c).arrAt (1 : Fin 5) (cfgs 2).N = U6 m kits c (Pipeline.arrRef (cfgs 2).spec (1 : Fin 5)) := by
  rw [pdats_2]
  refine Eq.trans ?_ (keep2 m kits c main_arg7 (by decide) (by decide)).symm
  exact (((kits 2).dat (fun c b => U5 m kits c b) c).arrAt_in (1 : Fin 5) rfl _).trans ((kits 2).A_eq (fun c b => U5 m kits c b) c (1 : Fin 5))
set_option backward.isDefEq.respectTransparency.types false in
/-- After region 2 its input array `main_v19` (window 2) holds its entry contents. -/
theorem hF2_2 (c : Dev nD) : (pdats m kits 2 c).arrAt (2 : Fin 5) (cfgs 2).N = U6 m kits c (Pipeline.arrRef (cfgs 2).spec (2 : Fin 5)) := by
  rw [pdats_2]
  refine Eq.trans ?_ (keep2 m kits c main_v19 (by decide) (by decide)).symm
  exact (((kits 2).dat (fun c b => U5 m kits c b) c).arrAt_in (2 : Fin 5) rfl _).trans ((kits 2).A_eq (fun c b => U5 m kits c b) c (2 : Fin 5))
set_option backward.isDefEq.respectTransparency.types false in
/-- After region 2 its output array `main_v20_0` (window 3) holds the entry contents with every point's write-back folded in. -/
theorem hF2_3 (c : Dev nD) : (pdats m kits 2 c).arrAt (3 : Fin 5) (cfgs 2).N = U6 m kits c (Pipeline.arrRef (cfgs 2).spec (3 : Fin 5)) := by
  rw [pdats_2]
  show _ = Function.update (Function.update (U5 m kits c) main_v20_0 _) main_v20_1 _ main_v20_0
  rw [Function.update_of_ne (StableHlo.devRef_ne_of_ne (by decide : main_v20_0 ≠ main_v20_1)), Function.update_self]
  rfl
set_option backward.isDefEq.respectTransparency.types false in
/-- After region 2 its output array `main_v20_1` (window 4) holds the entry contents with every point's write-back folded in. -/
theorem hF2_4 (c : Dev nD) : (pdats m kits 2 c).arrAt (4 : Fin 5) (cfgs 2).N = U6 m kits c (Pipeline.arrRef (cfgs 2).spec (4 : Fin 5)) := by
  rw [pdats_2]
  show _ = Function.update (Function.update (U5 m kits c) main_v20_0 _) main_v20_1 _ main_v20_1
  rw [Function.update_self]
  rfl
set_option backward.isDefEq.respectTransparency.types false in
/-- After region 2 each of its arrays holds what the pipeline leaves. -/
theorem hF2 (c : Dev nD) : ∀ w : Fin 5, (pdats m kits 2 c).arrAt w (cfgs 2).N = U6 m kits c (Pipeline.arrRef (cfgs 2).spec w) :=
  forall_fin5 (hF2_0 m kits c) (hF2_1 m kits c) (hF2_2 m kits c) (hF2_3 m kits c) (hF2_4 m kits c)
set_option backward.isDefEq.respectTransparency.types false in
/-- Every buffer that is not one of region 2's arrays is as the region found it. -/
theorem hrest2 (c : Dev nD) : ∀ b : Ref sig .tc, b ∉ Finset.univ.image (Pipeline.arrRef (cfgs 2).spec) → U6 m kits c b = U5 m kits c b := fun b hb =>
  keep2 m kits c b (fun e => hb (Finset.mem_image.mpr ⟨(3 : Fin 5), Finset.mem_univ _, by rw [e]; rfl⟩)) (fun e => hb (Finset.mem_image.mpr ⟨(4 : Fin 5), Finset.mem_univ _, by rw [e]; rfl⟩))
/-- Region 2 as a segment: entered at the chain's contents before it, left at those after it. -/
def reg2 : Pipeline.RegionSeg (pcfgs (F := F)) adm (pdats m kits) () defs₀ Variants.none L0 lv0 2 :=
  regOf (pdats m kits) 2 launch2 (U5 m kits) (U6 m kits)
    (fun c w => (kits 2).A_eq _ c w) (fun c => (kits 2).body _ c) (fun c w => (kits 2).share _ c w)
    (fun c t => (kits 2).owed _ c t) (fun c t => (kits 2).recorded _ c t)
    (fun c => by unfold Pipeline.prefHeld; rw [show (Finset.univ : Finset (Fin 0)) = ∅ from rfl, BI.bigSep_empty])
    (fun c => (kits 2).phiIn _ c) (fun c => (kits 2).phiOut _ c)
    (hF2 m kits) (hrest2 m kits)

/-! ### Region 3 -/

/-- Region 3 changes only its output arrays. -/
theorem keep3 (c : Dev nD) (b : Ref sig .tc) (h7 : b ≠ main_v24) : U8 m kits c b = U7 m kits c b := by
  show Function.update (U7 m kits c) main_v24 _ b = _
  rw [Function.update_of_ne (StableHlo.devRef_ne_of_ne h7)]
/-- Region 3's proof data in the family. -/
theorem pdats_3 (c : Dev nD) : pdats m kits 3 c = (kits 3).dat (fun c b => U7 m kits c b) c := rfl
set_option backward.isDefEq.respectTransparency.types false in
/-- After region 3 its input array `main_v18` (window 0) holds its entry contents. -/
theorem hF3_0 (c : Dev nD) : (pdats m kits 3 c).arrAt (0 : Fin 8) (cfgs 3).N = U8 m kits c (Pipeline.arrRef (cfgs 3).spec (0 : Fin 8)) := by
  rw [pdats_3]
  refine Eq.trans ?_ (keep3 m kits c main_v18 (by decide)).symm
  exact (((kits 3).dat (fun c b => U7 m kits c b) c).arrAt_in (0 : Fin 8) rfl _).trans ((kits 3).A_eq (fun c b => U7 m kits c b) c (0 : Fin 8))
set_option backward.isDefEq.respectTransparency.types false in
/-- After region 3 its input array `main_arg7` (window 1) holds its entry contents. -/
theorem hF3_1 (c : Dev nD) : (pdats m kits 3 c).arrAt (1 : Fin 8) (cfgs 3).N = U8 m kits c (Pipeline.arrRef (cfgs 3).spec (1 : Fin 8)) := by
  rw [pdats_3]
  refine Eq.trans ?_ (keep3 m kits c main_arg7 (by decide)).symm
  exact (((kits 3).dat (fun c b => U7 m kits c b) c).arrAt_in (1 : Fin 8) rfl _).trans ((kits 3).A_eq (fun c b => U7 m kits c b) c (1 : Fin 8))
set_option backward.isDefEq.respectTransparency.types false in
/-- After region 3 its input array `main_v21` (window 2) holds its entry contents. -/
theorem hF3_2 (c : Dev nD) : (pdats m kits 3 c).arrAt (2 : Fin 8) (cfgs 3).N = U8 m kits c (Pipeline.arrRef (cfgs 3).spec (2 : Fin 8)) := by
  rw [pdats_3]
  refine Eq.trans ?_ (keep3 m kits c main_v21 (by decide)).symm
  exact (((kits 3).dat (fun c b => U7 m kits c b) c).arrAt_in (2 : Fin 8) rfl _).trans ((kits 3).A_eq (fun c b => U7 m kits c b) c (2 : Fin 8))
set_option backward.isDefEq.respectTransparency.types false in
/-- After region 3 its input array `main_v22` (window 3) holds its entry contents. -/
theorem hF3_3 (c : Dev nD) : (pdats m kits 3 c).arrAt (3 : Fin 8) (cfgs 3).N = U8 m kits c (Pipeline.arrRef (cfgs 3).spec (3 : Fin 8)) := by
  rw [pdats_3]
  refine Eq.trans ?_ (keep3 m kits c main_v22 (by decide)).symm
  exact (((kits 3).dat (fun c b => U7 m kits c b) c).arrAt_in (3 : Fin 8) rfl _).trans ((kits 3).A_eq (fun c b => U7 m kits c b) c (3 : Fin 8))
set_option backward.isDefEq.respectTransparency.types false in
/-- After region 3 its input array `main_v23` (window 4) holds its entry contents. -/
theorem hF3_4 (c : Dev nD) : (pdats m kits 3 c).arrAt (4 : Fin 8) (cfgs 3).N = U8 m kits c (Pipeline.arrRef (cfgs 3).spec (4 : Fin 8)) := by
  rw [pdats_3]
  refine Eq.trans ?_ (keep3 m kits c main_v23 (by decide)).symm
  exact (((kits 3).dat (fun c b => U7 m kits c b) c).arrAt_in (4 : Fin 8) rfl _).trans ((kits 3).A_eq (fun c b => U7 m kits c b) c (4 : Fin 8))
set_option backward.isDefEq.respectTransparency.types false in
/-- After region 3 its input array `main_v20_0` (window 5) holds its entry contents. -/
theorem hF3_5 (c : Dev nD) : (pdats m kits 3 c).arrAt (5 : Fin 8) (cfgs 3).N = U8 m kits c (Pipeline.arrRef (cfgs 3).spec (5 : Fin 8)) := by
  rw [pdats_3]
  refine Eq.trans ?_ (keep3 m kits c main_v20_0 (by decide)).symm
  exact (((kits 3).dat (fun c b => U7 m kits c b) c).arrAt_in (5 : Fin 8) rfl _).trans ((kits 3).A_eq (fun c b => U7 m kits c b) c (5 : Fin 8))
set_option backward.isDefEq.respectTransparency.types false in
/-- After region 3 its input array `main_v20_1` (window 6) holds its entry contents. -/
theorem hF3_6 (c : Dev nD) : (pdats m kits 3 c).arrAt (6 : Fin 8) (cfgs 3).N = U8 m kits c (Pipeline.arrRef (cfgs 3).spec (6 : Fin 8)) := by
  rw [pdats_3]
  refine Eq.trans ?_ (keep3 m kits c main_v20_1 (by decide)).symm
  exact (((kits 3).dat (fun c b => U7 m kits c b) c).arrAt_in (6 : Fin 8) rfl _).trans ((kits 3).A_eq (fun c b => U7 m kits c b) c (6 : Fin 8))
set_option backward.isDefEq.respectTransparency.types false in
/-- After region 3 its output array `main_v24` (window 7) holds the entry contents with every point's write-back folded in. -/
theorem hF3_7 (c : Dev nD) : (pdats m kits 3 c).arrAt (7 : Fin 8) (cfgs 3).N = U8 m kits c (Pipeline.arrRef (cfgs 3).spec (7 : Fin 8)) := by
  rw [pdats_3]
  show _ = Function.update (U7 m kits c) main_v24 _ main_v24
  rw [Function.update_self]
  rfl
set_option backward.isDefEq.respectTransparency.types false in
/-- After region 3 each of its arrays holds what the pipeline leaves. -/
theorem hF3 (c : Dev nD) : ∀ w : Fin 8, (pdats m kits 3 c).arrAt w (cfgs 3).N = U8 m kits c (Pipeline.arrRef (cfgs 3).spec w) :=
  forall_fin8 (hF3_0 m kits c) (hF3_1 m kits c) (hF3_2 m kits c) (hF3_3 m kits c) (hF3_4 m kits c) (hF3_5 m kits c) (hF3_6 m kits c) (hF3_7 m kits c)
set_option backward.isDefEq.respectTransparency.types false in
/-- Every buffer that is not one of region 3's arrays is as the region found it. -/
theorem hrest3 (c : Dev nD) : ∀ b : Ref sig .tc, b ∉ Finset.univ.image (Pipeline.arrRef (cfgs 3).spec) → U8 m kits c b = U7 m kits c b := fun b hb =>
  keep3 m kits c b (fun e => hb (Finset.mem_image.mpr ⟨(7 : Fin 8), Finset.mem_univ _, by rw [e]; rfl⟩))
/-- Region 3 as a segment: entered at the chain's contents before it, left at those after it. -/
def reg3 : Pipeline.RegionSeg (pcfgs (F := F)) adm (pdats m kits) () defs₀ Variants.none L0 lv0 3 :=
  regOf (pdats m kits) 3 launch3 (U7 m kits) (U8 m kits)
    (fun c w => (kits 3).A_eq _ c w) (fun c => (kits 3).body _ c) (fun c w => (kits 3).share _ c w)
    (fun c t => (kits 3).owed _ c t) (fun c t => (kits 3).recorded _ c t)
    (fun c => by unfold Pipeline.prefHeld; rw [show (Finset.univ : Finset (Fin 0)) = ∅ from rfl, BI.bigSep_empty])
    (fun c => (kits 3).phiIn _ c) (fun c => (kits 3).phiOut _ c)
    (hF3 m kits) (hrest3 m kits)

/-! ### Region 4 -/

/-- Region 4 changes only its output arrays. -/
theorem keep4 (c : Dev nD) (b : Ref sig .tc) (h5 : b ≠ main_v40_0) (h6 : b ≠ main_v40_1) : U10 m kits c b = U9 m kits c b := by
  show Function.update (Function.update (U9 m kits c) main_v40_0 _) main_v40_1 _ b = _
  rw [Function.update_of_ne (StableHlo.devRef_ne_of_ne h6), Function.update_of_ne (StableHlo.devRef_ne_of_ne h5)]
/-- Region 4's proof data in the family. -/
theorem pdats_4 (c : Dev nD) : pdats m kits 4 c = (kits 4).dat (fun c b => U9 m kits c b) c := rfl
set_option backward.isDefEq.respectTransparency.types false in
/-- After region 4 its input array `main_arg0` (window 0) holds its entry contents. -/
theorem hF4_0 (c : Dev nD) : (pdats m kits 4 c).arrAt (0 : Fin 7) (cfgs 4).N = U10 m kits c (Pipeline.arrRef (cfgs 4).spec (0 : Fin 7)) := by
  rw [pdats_4]
  refine Eq.trans ?_ (keep4 m kits c main_arg0 (by decide) (by decide)).symm
  exact (((kits 4).dat (fun c b => U9 m kits c b) c).arrAt_in (0 : Fin 7) rfl _).trans ((kits 4).A_eq (fun c b => U9 m kits c b) c (0 : Fin 7))
set_option backward.isDefEq.respectTransparency.types false in
/-- After region 4 its input array `main_v36` (window 1) holds its entry contents. -/
theorem hF4_1 (c : Dev nD) : (pdats m kits 4 c).arrAt (1 : Fin 7) (cfgs 4).N = U10 m kits c (Pipeline.arrRef (cfgs 4).spec (1 : Fin 7)) := by
  rw [pdats_4]
  refine Eq.trans ?_ (keep4 m kits c main_v36 (by decide) (by decide)).symm
  exact (((kits 4).dat (fun c b => U9 m kits c b) c).arrAt_in (1 : Fin 7) rfl _).trans ((kits 4).A_eq (fun c b => U9 m kits c b) c (1 : Fin 7))
set_option backward.isDefEq.respectTransparency.types false in
/-- After region 4 its input array `main_v37` (window 2) holds its entry contents. -/
theorem hF4_2 (c : Dev nD) : (pdats m kits 4 c).arrAt (2 : Fin 7) (cfgs 4).N = U10 m kits c (Pipeline.arrRef (cfgs 4).spec (2 : Fin 7)) := by
  rw [pdats_4]
  refine Eq.trans ?_ (keep4 m kits c main_v37 (by decide) (by decide)).symm
  exact (((kits 4).dat (fun c b => U9 m kits c b) c).arrAt_in (2 : Fin 7) rfl _).trans ((kits 4).A_eq (fun c b => U9 m kits c b) c (2 : Fin 7))
set_option backward.isDefEq.respectTransparency.types false in
/-- After region 4 its input array `main_v38` (window 3) holds its entry contents. -/
theorem hF4_3 (c : Dev nD) : (pdats m kits 4 c).arrAt (3 : Fin 7) (cfgs 4).N = U10 m kits c (Pipeline.arrRef (cfgs 4).spec (3 : Fin 7)) := by
  rw [pdats_4]
  refine Eq.trans ?_ (keep4 m kits c main_v38 (by decide) (by decide)).symm
  exact (((kits 4).dat (fun c b => U9 m kits c b) c).arrAt_in (3 : Fin 7) rfl _).trans ((kits 4).A_eq (fun c b => U9 m kits c b) c (3 : Fin 7))
set_option backward.isDefEq.respectTransparency.types false in
/-- After region 4 its input array `main_v39` (window 4) holds its entry contents. -/
theorem hF4_4 (c : Dev nD) : (pdats m kits 4 c).arrAt (4 : Fin 7) (cfgs 4).N = U10 m kits c (Pipeline.arrRef (cfgs 4).spec (4 : Fin 7)) := by
  rw [pdats_4]
  refine Eq.trans ?_ (keep4 m kits c main_v39 (by decide) (by decide)).symm
  exact (((kits 4).dat (fun c b => U9 m kits c b) c).arrAt_in (4 : Fin 7) rfl _).trans ((kits 4).A_eq (fun c b => U9 m kits c b) c (4 : Fin 7))
set_option backward.isDefEq.respectTransparency.types false in
/-- After region 4 its output array `main_v40_0` (window 5) holds the entry contents with every point's write-back folded in. -/
theorem hF4_5 (c : Dev nD) : (pdats m kits 4 c).arrAt (5 : Fin 7) (cfgs 4).N = U10 m kits c (Pipeline.arrRef (cfgs 4).spec (5 : Fin 7)) := by
  rw [pdats_4]
  show _ = Function.update (Function.update (U9 m kits c) main_v40_0 _) main_v40_1 _ main_v40_0
  rw [Function.update_of_ne (StableHlo.devRef_ne_of_ne (by decide : main_v40_0 ≠ main_v40_1)), Function.update_self]
  rfl
set_option backward.isDefEq.respectTransparency.types false in
/-- After region 4 its output array `main_v40_1` (window 6) holds the entry contents with every point's write-back folded in. -/
theorem hF4_6 (c : Dev nD) : (pdats m kits 4 c).arrAt (6 : Fin 7) (cfgs 4).N = U10 m kits c (Pipeline.arrRef (cfgs 4).spec (6 : Fin 7)) := by
  rw [pdats_4]
  show _ = Function.update (Function.update (U9 m kits c) main_v40_0 _) main_v40_1 _ main_v40_1
  rw [Function.update_self]
  rfl
set_option backward.isDefEq.respectTransparency.types false in
/-- After region 4 each of its arrays holds what the pipeline leaves. -/
theorem hF4 (c : Dev nD) : ∀ w : Fin 7, (pdats m kits 4 c).arrAt w (cfgs 4).N = U10 m kits c (Pipeline.arrRef (cfgs 4).spec w) :=
  forall_fin7 (hF4_0 m kits c) (hF4_1 m kits c) (hF4_2 m kits c) (hF4_3 m kits c) (hF4_4 m kits c) (hF4_5 m kits c) (hF4_6 m kits c)
set_option backward.isDefEq.respectTransparency.types false in
/-- Every buffer that is not one of region 4's arrays is as the region found it. -/
theorem hrest4 (c : Dev nD) : ∀ b : Ref sig .tc, b ∉ Finset.univ.image (Pipeline.arrRef (cfgs 4).spec) → U10 m kits c b = U9 m kits c b := fun b hb =>
  keep4 m kits c b (fun e => hb (Finset.mem_image.mpr ⟨(5 : Fin 7), Finset.mem_univ _, by rw [e]; rfl⟩)) (fun e => hb (Finset.mem_image.mpr ⟨(6 : Fin 7), Finset.mem_univ _, by rw [e]; rfl⟩))
/-- Region 4 as a segment: entered at the chain's contents before it, left at those after it. -/
def reg4 : Pipeline.RegionSeg (pcfgs (F := F)) adm (pdats m kits) () defs₀ Variants.none L0 lv0 4 :=
  regOf (pdats m kits) 4 launch4 (U9 m kits) (U10 m kits)
    (fun c w => (kits 4).A_eq _ c w) (fun c => (kits 4).body _ c) (fun c w => (kits 4).share _ c w)
    (fun c t => (kits 4).owed _ c t) (fun c t => (kits 4).recorded _ c t)
    (fun c => by unfold Pipeline.prefHeld; rw [show (Finset.univ : Finset (Fin 0)) = ∅ from rfl, BI.bigSep_empty])
    (fun c => (kits 4).phiIn _ c) (fun c => (kits 4).phiOut _ c)
    (hF4 m kits) (hrest4 m kits)

/-! ### Region 5 -/

/-- Region 5 changes only its output arrays. -/
theorem keep5 (c : Dev nD) (b : Ref sig .tc) (h9 : b ≠ main_v44) : U12 m kits c b = U11 m kits c b := by
  show Function.update (U11 m kits c) main_v44 _ b = _
  rw [Function.update_of_ne (StableHlo.devRef_ne_of_ne h9)]
/-- Region 5's proof data in the family. -/
theorem pdats_5 (c : Dev nD) : pdats m kits 5 c = (kits 5).dat (fun c b => U11 m kits c b) c := rfl
set_option backward.isDefEq.respectTransparency.types false in
/-- After region 5 its input array `main_arg0` (window 0) holds its entry contents. -/
theorem hF5_0 (c : Dev nD) : (pdats m kits 5 c).arrAt (0 : Fin 10) (cfgs 5).N = U12 m kits c (Pipeline.arrRef (cfgs 5).spec (0 : Fin 10)) := by
  rw [pdats_5]
  refine Eq.trans ?_ (keep5 m kits c main_arg0 (by decide)).symm
  exact (((kits 5).dat (fun c b => U11 m kits c b) c).arrAt_in (0 : Fin 10) rfl _).trans ((kits 5).A_eq (fun c b => U11 m kits c b) c (0 : Fin 10))
set_option backward.isDefEq.respectTransparency.types false in
/-- After region 5 its input array `main_v36` (window 1) holds its entry contents. -/
theorem hF5_1 (c : Dev nD) : (pdats m kits 5 c).arrAt (1 : Fin 10) (cfgs 5).N = U12 m kits c (Pipeline.arrRef (cfgs 5).spec (1 : Fin 10)) := by
  rw [pdats_5]
  refine Eq.trans ?_ (keep5 m kits c main_v36 (by decide)).symm
  exact (((kits 5).dat (fun c b => U11 m kits c b) c).arrAt_in (1 : Fin 10) rfl _).trans ((kits 5).A_eq (fun c b => U11 m kits c b) c (1 : Fin 10))
set_option backward.isDefEq.respectTransparency.types false in
/-- After region 5 its input array `main_v37` (window 2) holds its entry contents. -/
theorem hF5_2 (c : Dev nD) : (pdats m kits 5 c).arrAt (2 : Fin 10) (cfgs 5).N = U12 m kits c (Pipeline.arrRef (cfgs 5).spec (2 : Fin 10)) := by
  rw [pdats_5]
  refine Eq.trans ?_ (keep5 m kits c main_v37 (by decide)).symm
  exact (((kits 5).dat (fun c b => U11 m kits c b) c).arrAt_in (2 : Fin 10) rfl _).trans ((kits 5).A_eq (fun c b => U11 m kits c b) c (2 : Fin 10))
set_option backward.isDefEq.respectTransparency.types false in
/-- After region 5 its input array `main_v38` (window 3) holds its entry contents. -/
theorem hF5_3 (c : Dev nD) : (pdats m kits 5 c).arrAt (3 : Fin 10) (cfgs 5).N = U12 m kits c (Pipeline.arrRef (cfgs 5).spec (3 : Fin 10)) := by
  rw [pdats_5]
  refine Eq.trans ?_ (keep5 m kits c main_v38 (by decide)).symm
  exact (((kits 5).dat (fun c b => U11 m kits c b) c).arrAt_in (3 : Fin 10) rfl _).trans ((kits 5).A_eq (fun c b => U11 m kits c b) c (3 : Fin 10))
set_option backward.isDefEq.respectTransparency.types false in
/-- After region 5 its input array `main_v41` (window 4) holds its entry contents. -/
theorem hF5_4 (c : Dev nD) : (pdats m kits 5 c).arrAt (4 : Fin 10) (cfgs 5).N = U12 m kits c (Pipeline.arrRef (cfgs 5).spec (4 : Fin 10)) := by
  rw [pdats_5]
  refine Eq.trans ?_ (keep5 m kits c main_v41 (by decide)).symm
  exact (((kits 5).dat (fun c b => U11 m kits c b) c).arrAt_in (4 : Fin 10) rfl _).trans ((kits 5).A_eq (fun c b => U11 m kits c b) c (4 : Fin 10))
set_option backward.isDefEq.respectTransparency.types false in
/-- After region 5 its input array `main_v42` (window 5) holds its entry contents. -/
theorem hF5_5 (c : Dev nD) : (pdats m kits 5 c).arrAt (5 : Fin 10) (cfgs 5).N = U12 m kits c (Pipeline.arrRef (cfgs 5).spec (5 : Fin 10)) := by
  rw [pdats_5]
  refine Eq.trans ?_ (keep5 m kits c main_v42 (by decide)).symm
  exact (((kits 5).dat (fun c b => U11 m kits c b) c).arrAt_in (5 : Fin 10) rfl _).trans ((kits 5).A_eq (fun c b => U11 m kits c b) c (5 : Fin 10))
set_option backward.isDefEq.respectTransparency.types false in
/-- After region 5 its input array `main_v43` (window 6) holds its entry contents. -/
theorem hF5_6 (c : Dev nD) : (pdats m kits 5 c).arrAt (6 : Fin 10) (cfgs 5).N = U12 m kits c (Pipeline.arrRef (cfgs 5).spec (6 : Fin 10)) := by
  rw [pdats_5]
  refine Eq.trans ?_ (keep5 m kits c main_v43 (by decide)).symm
  exact (((kits 5).dat (fun c b => U11 m kits c b) c).arrAt_in (6 : Fin 10) rfl _).trans ((kits 5).A_eq (fun c b => U11 m kits c b) c (6 : Fin 10))
set_option backward.isDefEq.respectTransparency.types false in
/-- After region 5 its input array `main_v40_0` (window 7) holds its entry contents. -/
theorem hF5_7 (c : Dev nD) : (pdats m kits 5 c).arrAt (7 : Fin 10) (cfgs 5).N = U12 m kits c (Pipeline.arrRef (cfgs 5).spec (7 : Fin 10)) := by
  rw [pdats_5]
  refine Eq.trans ?_ (keep5 m kits c main_v40_0 (by decide)).symm
  exact (((kits 5).dat (fun c b => U11 m kits c b) c).arrAt_in (7 : Fin 10) rfl _).trans ((kits 5).A_eq (fun c b => U11 m kits c b) c (7 : Fin 10))
set_option backward.isDefEq.respectTransparency.types false in
/-- After region 5 its input array `main_v40_1` (window 8) holds its entry contents. -/
theorem hF5_8 (c : Dev nD) : (pdats m kits 5 c).arrAt (8 : Fin 10) (cfgs 5).N = U12 m kits c (Pipeline.arrRef (cfgs 5).spec (8 : Fin 10)) := by
  rw [pdats_5]
  refine Eq.trans ?_ (keep5 m kits c main_v40_1 (by decide)).symm
  exact (((kits 5).dat (fun c b => U11 m kits c b) c).arrAt_in (8 : Fin 10) rfl _).trans ((kits 5).A_eq (fun c b => U11 m kits c b) c (8 : Fin 10))
set_option backward.isDefEq.respectTransparency.types false in
/-- After region 5 its output array `main_v44` (window 9) holds the entry contents with every point's write-back folded in. -/
theorem hF5_9 (c : Dev nD) : (pdats m kits 5 c).arrAt (9 : Fin 10) (cfgs 5).N = U12 m kits c (Pipeline.arrRef (cfgs 5).spec (9 : Fin 10)) := by
  rw [pdats_5]
  show _ = Function.update (U11 m kits c) main_v44 _ main_v44
  rw [Function.update_self]
  rfl
set_option backward.isDefEq.respectTransparency.types false in
/-- After region 5 each of its arrays holds what the pipeline leaves. -/
theorem hF5 (c : Dev nD) : ∀ w : Fin 10, (pdats m kits 5 c).arrAt w (cfgs 5).N = U12 m kits c (Pipeline.arrRef (cfgs 5).spec w) :=
  forall_fin10 (hF5_0 m kits c) (hF5_1 m kits c) (hF5_2 m kits c) (hF5_3 m kits c) (hF5_4 m kits c) (hF5_5 m kits c) (hF5_6 m kits c) (hF5_7 m kits c) (hF5_8 m kits c) (hF5_9 m kits c)
set_option backward.isDefEq.respectTransparency.types false in
/-- Every buffer that is not one of region 5's arrays is as the region found it. -/
theorem hrest5 (c : Dev nD) : ∀ b : Ref sig .tc, b ∉ Finset.univ.image (Pipeline.arrRef (cfgs 5).spec) → U12 m kits c b = U11 m kits c b := fun b hb =>
  keep5 m kits c b (fun e => hb (Finset.mem_image.mpr ⟨(9 : Fin 10), Finset.mem_univ _, by rw [e]; rfl⟩))
/-- Region 5 as a segment: entered at the chain's contents before it, left at those after it. -/
def reg5 : Pipeline.RegionSeg (pcfgs (F := F)) adm (pdats m kits) () defs₀ Variants.none L0 lv0 5 :=
  regOf (pdats m kits) 5 launch5 (U11 m kits) (U12 m kits)
    (fun c w => (kits 5).A_eq _ c w) (fun c => (kits 5).body _ c) (fun c w => (kits 5).share _ c w)
    (fun c t => (kits 5).owed _ c t) (fun c t => (kits 5).recorded _ c t)
    (fun c => by unfold Pipeline.prefHeld; rw [show (Finset.univ : Finset (Fin 0)) = ∅ from rfl, BI.bigSep_empty])
    (fun c => (kits 5).phiIn _ c) (fun c => (kits 5).phiOut _ c)
    (hF5 m kits) (hrest5 m kits)

/-! ### Region 6 -/

/-- Region 6 changes only its output arrays. -/
theorem keep6 (c : Dev nD) (b : Ref sig .tc) (h3 : b ≠ main_v46_0) (h4 : b ≠ main_v46_1) : U14 m kits c b = U13 m kits c b := by
  show Function.update (Function.update (U13 m kits c) main_v46_0 _) main_v46_1 _ b = _
  rw [Function.update_of_ne (StableHlo.devRef_ne_of_ne h4), Function.update_of_ne (StableHlo.devRef_ne_of_ne h3)]
/-- Region 6's proof data in the family. -/
theorem pdats_6 (c : Dev nD) : pdats m kits 6 c = (kits 6).dat (fun c b => U13 m kits c b) c := rfl
set_option backward.isDefEq.respectTransparency.types false in
/-- After region 6 its input array `main_v44` (window 0) holds its entry contents. -/
theorem hF6_0 (c : Dev nD) : (pdats m kits 6 c).arrAt (0 : Fin 5) (cfgs 6).N = U14 m kits c (Pipeline.arrRef (cfgs 6).spec (0 : Fin 5)) := by
  rw [pdats_6]
  refine Eq.trans ?_ (keep6 m kits c main_v44 (by decide) (by decide)).symm
  exact (((kits 6).dat (fun c b => U13 m kits c b) c).arrAt_in (0 : Fin 5) rfl _).trans ((kits 6).A_eq (fun c b => U13 m kits c b) c (0 : Fin 5))
set_option backward.isDefEq.respectTransparency.types false in
/-- After region 6 its input array `main_arg15` (window 1) holds its entry contents. -/
theorem hF6_1 (c : Dev nD) : (pdats m kits 6 c).arrAt (1 : Fin 5) (cfgs 6).N = U14 m kits c (Pipeline.arrRef (cfgs 6).spec (1 : Fin 5)) := by
  rw [pdats_6]
  refine Eq.trans ?_ (keep6 m kits c main_arg15 (by decide) (by decide)).symm
  exact (((kits 6).dat (fun c b => U13 m kits c b) c).arrAt_in (1 : Fin 5) rfl _).trans ((kits 6).A_eq (fun c b => U13 m kits c b) c (1 : Fin 5))
set_option backward.isDefEq.respectTransparency.types false in
/-- After region 6 its input array `main_v45` (window 2) holds its entry contents. -/
theorem hF6_2 (c : Dev nD) : (pdats m kits 6 c).arrAt (2 : Fin 5) (cfgs 6).N = U14 m kits c (Pipeline.arrRef (cfgs 6).spec (2 : Fin 5)) := by
  rw [pdats_6]
  refine Eq.trans ?_ (keep6 m kits c main_v45 (by decide) (by decide)).symm
  exact (((kits 6).dat (fun c b => U13 m kits c b) c).arrAt_in (2 : Fin 5) rfl _).trans ((kits 6).A_eq (fun c b => U13 m kits c b) c (2 : Fin 5))
set_option backward.isDefEq.respectTransparency.types false in
/-- After region 6 its output array `main_v46_0` (window 3) holds the entry contents with every point's write-back folded in. -/
theorem hF6_3 (c : Dev nD) : (pdats m kits 6 c).arrAt (3 : Fin 5) (cfgs 6).N = U14 m kits c (Pipeline.arrRef (cfgs 6).spec (3 : Fin 5)) := by
  rw [pdats_6]
  show _ = Function.update (Function.update (U13 m kits c) main_v46_0 _) main_v46_1 _ main_v46_0
  rw [Function.update_of_ne (StableHlo.devRef_ne_of_ne (by decide : main_v46_0 ≠ main_v46_1)), Function.update_self]
  rfl
set_option backward.isDefEq.respectTransparency.types false in
/-- After region 6 its output array `main_v46_1` (window 4) holds the entry contents with every point's write-back folded in. -/
theorem hF6_4 (c : Dev nD) : (pdats m kits 6 c).arrAt (4 : Fin 5) (cfgs 6).N = U14 m kits c (Pipeline.arrRef (cfgs 6).spec (4 : Fin 5)) := by
  rw [pdats_6]
  show _ = Function.update (Function.update (U13 m kits c) main_v46_0 _) main_v46_1 _ main_v46_1
  rw [Function.update_self]
  rfl
set_option backward.isDefEq.respectTransparency.types false in
/-- After region 6 each of its arrays holds what the pipeline leaves. -/
theorem hF6 (c : Dev nD) : ∀ w : Fin 5, (pdats m kits 6 c).arrAt w (cfgs 6).N = U14 m kits c (Pipeline.arrRef (cfgs 6).spec w) :=
  forall_fin5 (hF6_0 m kits c) (hF6_1 m kits c) (hF6_2 m kits c) (hF6_3 m kits c) (hF6_4 m kits c)
set_option backward.isDefEq.respectTransparency.types false in
/-- Every buffer that is not one of region 6's arrays is as the region found it. -/
theorem hrest6 (c : Dev nD) : ∀ b : Ref sig .tc, b ∉ Finset.univ.image (Pipeline.arrRef (cfgs 6).spec) → U14 m kits c b = U13 m kits c b := fun b hb =>
  keep6 m kits c b (fun e => hb (Finset.mem_image.mpr ⟨(3 : Fin 5), Finset.mem_univ _, by rw [e]; rfl⟩)) (fun e => hb (Finset.mem_image.mpr ⟨(4 : Fin 5), Finset.mem_univ _, by rw [e]; rfl⟩))
/-- Region 6 as a segment: entered at the chain's contents before it, left at those after it. -/
def reg6 : Pipeline.RegionSeg (pcfgs (F := F)) adm (pdats m kits) () defs₀ Variants.none L0 lv0 6 :=
  regOf (pdats m kits) 6 launch6 (U13 m kits) (U14 m kits)
    (fun c w => (kits 6).A_eq _ c w) (fun c => (kits 6).body _ c) (fun c w => (kits 6).share _ c w)
    (fun c t => (kits 6).owed _ c t) (fun c t => (kits 6).recorded _ c t)
    (fun c => by unfold Pipeline.prefHeld; rw [show (Finset.univ : Finset (Fin 0)) = ∅ from rfl, BI.bigSep_empty])
    (fun c => (kits 6).phiIn _ c) (fun c => (kits 6).phiOut _ c)
    (hF6 m kits) (hrest6 m kits)

/-! ### Region 7 -/

/-- Region 7 changes only its output arrays. -/
theorem keep7 (c : Dev nD) (b : Ref sig .tc) (h9 : b ≠ main_v51_0) (h10 : b ≠ main_v51_1) : U16 m kits c b = U15 m kits c b := by
  show Function.update (Function.update (U15 m kits c) main_v51_0 _) main_v51_1 _ b = _
  rw [Function.update_of_ne (StableHlo.devRef_ne_of_ne h10), Function.update_of_ne (StableHlo.devRef_ne_of_ne h9)]
/-- Region 7's proof data in the family. -/
theorem pdats_7 (c : Dev nD) : pdats m kits 7 c = (kits 7).dat (fun c b => U15 m kits c b) c := rfl
set_option backward.isDefEq.respectTransparency.types false in
/-- After region 7 its input array `main_v44` (window 0) holds its entry contents. -/
theorem hF7_0 (c : Dev nD) : (pdats m kits 7 c).arrAt (0 : Fin 11) (cfgs 7).N = U16 m kits c (Pipeline.arrRef (cfgs 7).spec (0 : Fin 11)) := by
  rw [pdats_7]
  refine Eq.trans ?_ (keep7 m kits c main_v44 (by decide) (by decide)).symm
  exact (((kits 7).dat (fun c b => U15 m kits c b) c).arrAt_in (0 : Fin 11) rfl _).trans ((kits 7).A_eq (fun c b => U15 m kits c b) c (0 : Fin 11))
set_option backward.isDefEq.respectTransparency.types false in
/-- After region 7 its input array `main_arg15` (window 1) holds its entry contents. -/
theorem hF7_1 (c : Dev nD) : (pdats m kits 7 c).arrAt (1 : Fin 11) (cfgs 7).N = U16 m kits c (Pipeline.arrRef (cfgs 7).spec (1 : Fin 11)) := by
  rw [pdats_7]
  refine Eq.trans ?_ (keep7 m kits c main_arg15 (by decide) (by decide)).symm
  exact (((kits 7).dat (fun c b => U15 m kits c b) c).arrAt_in (1 : Fin 11) rfl _).trans ((kits 7).A_eq (fun c b => U15 m kits c b) c (1 : Fin 11))
set_option backward.isDefEq.respectTransparency.types false in
/-- After region 7 its input array `main_v47` (window 2) holds its entry contents. -/
theorem hF7_2 (c : Dev nD) : (pdats m kits 7 c).arrAt (2 : Fin 11) (cfgs 7).N = U16 m kits c (Pipeline.arrRef (cfgs 7).spec (2 : Fin 11)) := by
  rw [pdats_7]
  refine Eq.trans ?_ (keep7 m kits c main_v47 (by decide) (by decide)).symm
  exact (((kits 7).dat (fun c b => U15 m kits c b) c).arrAt_in (2 : Fin 11) rfl _).trans ((kits 7).A_eq (fun c b => U15 m kits c b) c (2 : Fin 11))
set_option backward.isDefEq.respectTransparency.types false in
/-- After region 7 its input array `main_v48` (window 3) holds its entry contents. -/
theorem hF7_3 (c : Dev nD) : (pdats m kits 7 c).arrAt (3 : Fin 11) (cfgs 7).N = U16 m kits c (Pipeline.arrRef (cfgs 7).spec (3 : Fin 11)) := by
  rw [pdats_7]
  refine Eq.trans ?_ (keep7 m kits c main_v48 (by decide) (by decide)).symm
  exact (((kits 7).dat (fun c b => U15 m kits c b) c).arrAt_in (3 : Fin 11) rfl _).trans ((kits 7).A_eq (fun c b => U15 m kits c b) c (3 : Fin 11))
set_option backward.isDefEq.respectTransparency.types false in
/-- After region 7 its input array `main_v49` (window 4) holds its entry contents. -/
theorem hF7_4 (c : Dev nD) : (pdats m kits 7 c).arrAt (4 : Fin 11) (cfgs 7).N = U16 m kits c (Pipeline.arrRef (cfgs 7).spec (4 : Fin 11)) := by
  rw [pdats_7]
  refine Eq.trans ?_ (keep7 m kits c main_v49 (by decide) (by decide)).symm
  exact (((kits 7).dat (fun c b => U15 m kits c b) c).arrAt_in (4 : Fin 11) rfl _).trans ((kits 7).A_eq (fun c b => U15 m kits c b) c (4 : Fin 11))
set_option backward.isDefEq.respectTransparency.types false in
/-- After region 7 its input array `main_v46_0` (window 5) holds its entry contents. -/
theorem hF7_5 (c : Dev nD) : (pdats m kits 7 c).arrAt (5 : Fin 11) (cfgs 7).N = U16 m kits c (Pipeline.arrRef (cfgs 7).spec (5 : Fin 11)) := by
  rw [pdats_7]
  refine Eq.trans ?_ (keep7 m kits c main_v46_0 (by decide) (by decide)).symm
  exact (((kits 7).dat (fun c b => U15 m kits c b) c).arrAt_in (5 : Fin 11) rfl _).trans ((kits 7).A_eq (fun c b => U15 m kits c b) c (5 : Fin 11))
set_option backward.isDefEq.respectTransparency.types false in
/-- After region 7 its input array `main_v46_1` (window 6) holds its entry contents. -/
theorem hF7_6 (c : Dev nD) : (pdats m kits 7 c).arrAt (6 : Fin 11) (cfgs 7).N = U16 m kits c (Pipeline.arrRef (cfgs 7).spec (6 : Fin 11)) := by
  rw [pdats_7]
  refine Eq.trans ?_ (keep7 m kits c main_v46_1 (by decide) (by decide)).symm
  exact (((kits 7).dat (fun c b => U15 m kits c b) c).arrAt_in (6 : Fin 11) rfl _).trans ((kits 7).A_eq (fun c b => U15 m kits c b) c (6 : Fin 11))
set_option backward.isDefEq.respectTransparency.types false in
/-- After region 7 its input array `main_arg19` (window 7) holds its entry contents. -/
theorem hF7_7 (c : Dev nD) : (pdats m kits 7 c).arrAt (7 : Fin 11) (cfgs 7).N = U16 m kits c (Pipeline.arrRef (cfgs 7).spec (7 : Fin 11)) := by
  rw [pdats_7]
  refine Eq.trans ?_ (keep7 m kits c main_arg19 (by decide) (by decide)).symm
  exact (((kits 7).dat (fun c b => U15 m kits c b) c).arrAt_in (7 : Fin 11) rfl _).trans ((kits 7).A_eq (fun c b => U15 m kits c b) c (7 : Fin 11))
set_option backward.isDefEq.respectTransparency.types false in
/-- After region 7 its input array `main_v50` (window 8) holds its entry contents. -/
theorem hF7_8 (c : Dev nD) : (pdats m kits 7 c).arrAt (8 : Fin 11) (cfgs 7).N = U16 m kits c (Pipeline.arrRef (cfgs 7).spec (8 : Fin 11)) := by
  rw [pdats_7]
  refine Eq.trans ?_ (keep7 m kits c main_v50 (by decide) (by decide)).symm
  exact (((kits 7).dat (fun c b => U15 m kits c b) c).arrAt_in (8 : Fin 11) rfl _).trans ((kits 7).A_eq (fun c b => U15 m kits c b) c (8 : Fin 11))
set_option backward.isDefEq.respectTransparency.types false in
/-- After region 7 its output array `main_v51_0` (window 9) holds the entry contents with every point's write-back folded in. -/
theorem hF7_9 (c : Dev nD) : (pdats m kits 7 c).arrAt (9 : Fin 11) (cfgs 7).N = U16 m kits c (Pipeline.arrRef (cfgs 7).spec (9 : Fin 11)) := by
  rw [pdats_7]
  show _ = Function.update (Function.update (U15 m kits c) main_v51_0 _) main_v51_1 _ main_v51_0
  rw [Function.update_of_ne (StableHlo.devRef_ne_of_ne (by decide : main_v51_0 ≠ main_v51_1)), Function.update_self]
  rfl
set_option backward.isDefEq.respectTransparency.types false in
/-- After region 7 its output array `main_v51_1` (window 10) holds the entry contents with every point's write-back folded in. -/
theorem hF7_10 (c : Dev nD) : (pdats m kits 7 c).arrAt (10 : Fin 11) (cfgs 7).N = U16 m kits c (Pipeline.arrRef (cfgs 7).spec (10 : Fin 11)) := by
  rw [pdats_7]
  show _ = Function.update (Function.update (U15 m kits c) main_v51_0 _) main_v51_1 _ main_v51_1
  rw [Function.update_self]
  rfl
set_option backward.isDefEq.respectTransparency.types false in
/-- After region 7 each of its arrays holds what the pipeline leaves. -/
theorem hF7 (c : Dev nD) : ∀ w : Fin 11, (pdats m kits 7 c).arrAt w (cfgs 7).N = U16 m kits c (Pipeline.arrRef (cfgs 7).spec w) :=
  forall_fin11 (hF7_0 m kits c) (hF7_1 m kits c) (hF7_2 m kits c) (hF7_3 m kits c) (hF7_4 m kits c) (hF7_5 m kits c) (hF7_6 m kits c) (hF7_7 m kits c) (hF7_8 m kits c) (hF7_9 m kits c) (hF7_10 m kits c)
set_option backward.isDefEq.respectTransparency.types false in
/-- Every buffer that is not one of region 7's arrays is as the region found it. -/
theorem hrest7 (c : Dev nD) : ∀ b : Ref sig .tc, b ∉ Finset.univ.image (Pipeline.arrRef (cfgs 7).spec) → U16 m kits c b = U15 m kits c b := fun b hb =>
  keep7 m kits c b (fun e => hb (Finset.mem_image.mpr ⟨(9 : Fin 11), Finset.mem_univ _, by rw [e]; rfl⟩)) (fun e => hb (Finset.mem_image.mpr ⟨(10 : Fin 11), Finset.mem_univ _, by rw [e]; rfl⟩))
/-- Region 7 as a segment: entered at the chain's contents before it, left at those after it. -/
def reg7 : Pipeline.RegionSeg (pcfgs (F := F)) adm (pdats m kits) () defs₀ Variants.none L0 lv0 7 :=
  regOf (pdats m kits) 7 launch7 (U15 m kits) (U16 m kits)
    (fun c w => (kits 7).A_eq _ c w) (fun c => (kits 7).body _ c) (fun c w => (kits 7).share _ c w)
    (fun c t => (kits 7).owed _ c t) (fun c t => (kits 7).recorded _ c t)
    (fun c => by unfold Pipeline.prefHeld; rw [show (Finset.univ : Finset (Fin 0)) = ∅ from rfl, BI.bigSep_empty])
    (fun c => (kits 7).phiIn _ c) (fun c => (kits 7).phiOut _ c)
    (hF7 m kits) (hrest7 m kits)

end Cert.Kernel.Hand
end
-- ==== Proof.K.Frame.lean ====
import proofs.«110491_j38809324487019_2_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (kits : (p : Fin 8) → Kit F p)

/-! ## The frame -/

section Frame
variable (ρ : Dev nD → PrngReg)

/-- The rest states between items: the generator register and the core's debts (none), the same throughout. -/
abbrev Es : Fin 9 → Dev nD → sProp 𝕄 := fun _ c => Rr c

theorem hu0 : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0c (c : Dev nD) : iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
    ⊢ (Es (F := F) 0 c : sProp 𝕄) := by
  iintro ⟨-, HO, -, Hp, -⟩
  isplitl [Hp]; · iexists _; iexact Hp
  iexists ∅; iexact HO

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L0 lv0)
    ⊢ (|={Set.univ}=> bigSep Finset.univ (Es (F := F) 0) : sProp 𝕄) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (Es (F := F) 0) : sProp 𝕄) := bigSep_mono fun c _ => hE0c ρ c
  iintro ⟨H, -⟩
  imodintro
  iapply hmono
  iexact H

include kits in
/-- Every weakly fair execution terminates without a fault and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Gen.frame_cond m (emb₁ : Emb (URounds (GSem nD τ sig) Unit) 𝕄) () Variants.none L0 lv0 (fun _ _ => rfl) ρ (outs m kits) (pdats m kits)
    0 (fun _ => (BI.emp : sProp 𝕄)) (initOf (Pipeline.cells cfgs cellOf_inj) (Pipeline.launchToks cfgs cellOf_inj)) hu0
    (Es (F := F)) (hE0 ρ) (fun c => by iintro ⟨-, HO⟩; iexact HO)
    (reg0 m kits) (fun c => by rw [V1_eq]; exact .rfl) (fun c => by rw [V2_eq]; exact .rfl)
    (reg1 m kits) (fun c => by rw [V3_eq]; exact .rfl) (fun c => by rw [V4_eq]; exact .rfl)
    (reg2 m kits) (fun c => by rw [V5_eq]; exact .rfl) (fun c => by rw [V6_eq]; exact .rfl)
    (reg3 m kits) (fun c => by rw [V7_eq]; exact .rfl) (fun c => by rw [V8_eq]; exact .rfl)
    (reg4 m kits) (fun c => by rw [V9_eq]; exact .rfl) (fun c => by rw [V10_eq]; exact .rfl)
    (reg5 m kits) (fun c => by rw [V11_eq]; exact .rfl) (fun c => by rw [V12_eq]; exact .rfl)
    (reg6 m kits) (fun c => by rw [V13_eq]; exact .rfl) (fun c => by rw [V14_eq]; exact .rfl)
    (reg7 m kits) (fun c => by rw [V15_eq]; exact .rfl) (fun c => by rw [V16_eq]; exact .rfl)
end Frame

end Cert.Kernel.Hand
end
-- ==== Proof.KI.Chain.lean ====
import proofs.«110491_j38809324487019_2_alg».proof.Proof.Gen.KernelIdeal.Regions
import proofs.«110491_j38809324487019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The TensorCore's buffer contents on every core: what a region is entered from. -/
abbrev VT (F : FTy → Type) : Type := (c : Dev nD) → (b : Ref sig .tc) → Buf (Elt F) ((c : Thread nD τ).loc b)

abbrev L0 : GSem nD τ sig → Finset Unit := fun _ => ∅
abbrev lv0 : GSem nD τ sig → Unit → ℕ := fun _ _ => 0
/-- What rides beside the buffers through every segment: the core's generator register at some state and its
    debts to the other cores, none. -/
abbrev Rr (c : Dev nD) : sProp 𝕄 := iprop((∃ r, prngReg c r) ∗ ∃ W, owes (c : Thread nD τ) (0 : CellTallies nD τ sig Unit) W)

section RegOf
variable (pdats : (p : Fin 8) → (c : Dev nD) → Dat τ (Elt F) Unit ℕ (UR sig nD τ) ℕ (cfgs p) c)

set_option backward.isDefEq.respectTransparency.types false in
/-- A kernel region as a segment of the program's run, from its proof data: entered with every unscoped buffer at
    the contents `Vin`, left with them at `Vout` — the region's arrays at what its write-backs leave, every other
    buffer as entered. The region's arrays are taken out of the unscoped buffers at entry and put back at exit; the
    generator register passes through the pipeline's invariant; no core owes another anything. -/
def regOf (p : Fin 8) (lf : Pipeline.LaunchFacts (nD := nD) (τ := τ) cfgs p)
    (Vin Vout : Dev nD → Valuation τ sig (Elt F))
    (hA : ∀ c w, (pdats p c).A w = Vin c (Pipeline.arrRef (cfgs p).spec w))
    (hbody : ∀ c, BodyObligation (pdats p c) (defs₀ (F := F)) Variants.none () Set.univ)
    (hshare : ∀ c w, (pdats p c).share w = fullShare)
    (howed : ∀ c t, (pdats p c).owed t = 0)
    (hrec : ∀ c t, (pdats p c).recorded t = Set.univ)
    (hpref : ∀ c, (BI.emp : sProp 𝕄) ⊢ Pipeline.prefHeld (pcfgs (F := F) p).pre c (fun _ => fullShare) (adm (F := F) p).1)
    (hΦin : ∀ c, Pipeline.ΦA (cfgs p).spec c ⊢ (pdats p c).Φ 0)
    (hΦout : ∀ c, (pdats p c).Φ (Fin.last (cfgs p).N) ⊢ Pipeline.ΦA (cfgs p).spec c)
    (hF : ∀ c w, (pdats p c).arrAt w (cfgs p).N = Vout c (Pipeline.arrRef (cfgs p).spec w))
    (hrest : ∀ c, ∀ b : Ref sig .tc, b ∉ Finset.univ.image (Pipeline.arrRef (cfgs p).spec) → Vout c b = Vin c b) :
    Pipeline.RegionSeg (pcfgs (F := F)) adm pdats () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p fun c t => howed c t
  pre c := iprop(StableHlo.held (c : Thread nD τ) (Pipeline.ucRefs τ sig) (Vin c) ∗ Rr c)
  post c := iprop(StableHlo.held (c : Thread nD τ) (Pipeline.ucRefs τ sig) (Vout c) ∗ Rr c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pdats lf.win lf.arr_whole c
      (hshare c) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpref c); iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    have h1 : iprop((∃ r, prngReg c r) ∗ Pipeline.prefHeld (pcfgs (F := F) p).pre c (fun _ => fullShare) (adm (F := F) p).1
        ∗ Pipeline.scopedRest (Ix := Unit) (Name := ℕ) (U := UR sig nD τ) (Lvl := ℕ) (Val := Elt F) (cfgs p).spec c)
        ⊢ (Pipeline.ΦA (cfgs p).spec c : sProp 𝕄) := by
      unfold Pipeline.ΦA
      iintro ⟨Hp, -, Hr⟩
      isplitl [Hr]; · iexact Hr
      iexact Hp
    exact h1.trans (hΦin c)
  hout c := by
    rw [Pipeline.ownSems0_none]
    have h1 : (Pipeline.ΦA (cfgs p).spec c : sProp 𝕄)
        ⊢ iprop((∃ r, prngReg c r) ∗ BI.emp ∗ Pipeline.scopedRest (Ix := Unit) (Name := ℕ) (U := UR sig nD τ) (Lvl := ℕ) (Val := Elt F) (cfgs p).spec c) := by
      unfold Pipeline.ΦA
      iintro ⟨Hr, Hp⟩
      isplitl [Hp]; · iexact Hp
      isplitr; · iempintro
      iexact Hr
    exact (hΦout c).trans h1
  hexit c := by
    have hjoin := Pipeline.unscopedBufs_of_arrays (p := p) (pcfgs (F := F)) adm (Ix := Unit) (Name := ℕ) (U := UR sig nD τ) (Lvl := ℕ)
      lf.win lf.arr_whole c pdats (hshare c)
      (fun b => Vin c b) (fun b => Vout c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO
end RegOf

/-! ## What a region's own module provides -/

/-- A region's proof kit: its proof data at any entry contents `V`, with the facts the run needs about them — the
    arrays start at `V`; the body's triple at every grid point; whole shares; nothing owed to another core; and the
    pipeline's invariant at the region's two ends is the plain one (the scoped buffers no window stages, held at
    something, beside the generator register): a kernel that carries scratch between grid points names its contents
    only strictly inside the grid. -/
structure Kit (F : FTy → Type) [FloatOps F] [Named F] (p : Fin 8) where
  dat : VT F → (c : Dev nD) → Dat τ (Elt F) Unit ℕ (UR sig nD τ) ℕ (cfgs p) c
  A_eq : ∀ V c w, (dat V c).A w = V c (Pipeline.arrRef (cfgs p).spec w)
  body : ∀ V c, BodyObligation (dat V c) (defs₀ (F := F)) Variants.none () Set.univ
  share : ∀ V c w, (dat V c).share w = fullShare
  owed : ∀ V c t, (dat V c).owed t = 0
  recorded : ∀ V c t, (dat V c).recorded t = Set.univ
  phiIn : ∀ V c, Pipeline.ΦA (cfgs p).spec c ⊢ (dat V c).Φ 0
  phiOut : ∀ V c, (dat V c).Φ (Fin.last (cfgs p).N) ⊢ Pipeline.ΦA (cfgs p).spec c

variable (m : (ℓ : Loc nD τ sig) → Buf (Elt F) ℓ) (kits : (p : Fin 8) → Kit F p)

/-! ## The buffer contents between the program's items

  `U J c`: core `c`'s unscoped buffers after item `J − 1` — the launch memory, then alternately a stretch of host
  operations applied and a kernel region's output arrays replaced by what the region's write-backs leave. -/

abbrev U0 (c : Dev nD) : Valuation τ sig (Elt F) := fun b => m (c, b)
abbrev U1 (c : Dev nD) : Valuation τ sig (Elt F) := StableHlo.after hostOps0 (U0 m c)
/-- Region 0's output window `w`'s array as the pipeline leaves it: the entry contents with every point's write-back folded in. -/
def out0 (c : Dev nD) (w : Fin 7) := ((kits 0).dat (fun c b => U1 m c b) c).arrAt w (cfgs 0).N
abbrev U2 (c : Dev nD) : Valuation τ sig (Elt F) := Function.update (Function.update (U1 m c) main_v14_0 (out0 m kits c 5)) main_v14_1 (out0 m kits c 6)
abbrev U3 (c : Dev nD) : Valuation τ sig (Elt F) := StableHlo.after hostOps1 (U2 m kits c)
/-- Region 1's output window `w`'s array as the pipeline leaves it: the entry contents with every point's write-back folded in. -/
def out1 (c : Dev nD) (w : Fin 10) := ((kits 1).dat (fun c b => U3 m kits c b) c).arrAt w (cfgs 1).N
abbrev U4 (c : Dev nD) : Valuation τ sig (Elt F) := Function.update (U3 m kits c) main_v18 (out1 m kits c 9)
abbrev U5 (c : Dev nD) : Valuation τ sig (Elt F) := StableHlo.after hostOps2 (U4 m kits c)
/-- Region 2's output window `w`'s array as the pipeline leaves it: the entry contents with every point's write-back folded in. -/
def out2 (c : Dev nD) (w : Fin 5) := ((kits 2).dat (fun c b => U5 m kits c b) c).arrAt w (cfgs 2).N
abbrev U6 (c : Dev nD) : Valuation τ sig (Elt F) := Function.update (Function.update (U5 m kits c) main_v20_0 (out2 m kits c 3)) main_v20_1 (out2 m kits c 4)
abbrev U7 (c : Dev nD) : Valuation τ sig (Elt F) := StableHlo.after hostOps3 (U6 m kits c)
/-- Region 3's output window `w`'s array as the pipeline leaves it: the entry contents with every point's write-back folded in. -/
def out3 (c : Dev nD) (w : Fin 8) := ((kits 3).dat (fun c b => U7 m kits c b) c).arrAt w (cfgs 3).N
abbrev U8 (c : Dev nD) : Valuation τ sig (Elt F) := Function.update (U7 m kits c) main_v24 (out3 m kits c 7)
abbrev U9 (c : Dev nD) : Valuation τ sig (Elt F) := StableHlo.after hostOps4 (U8 m kits c)
/-- Region 4's output window `w`'s array as the pipeline leaves it: the entry contents with every point's write-back folded in. -/
def out4 (c : Dev nD) (w : Fin 7) := ((kits 4).dat (fun c b => U9 m kits c b) c).arrAt w (cfgs 4).N
abbrev U10 (c : Dev nD) : Valuation τ sig (Elt F) := Function.update (Function.update (U9 m kits c) main_v40_0 (out4 m kits c 5)) main_v40_1 (out4 m kits c 6)
abbrev U11 (c : Dev nD) : Valuation τ sig (Elt F) := StableHlo.after hostOps5 (U10 m kits c)
/-- Region 5's output window `w`'s array as the pipeline leaves it: the entry contents with every point's write-back folded in. -/
def out5 (c : Dev nD) (w : Fin 10) := ((kits 5).dat (fun c b => U11 m kits c b) c).arrAt w (cfgs 5).N
abbrev U12 (c : Dev nD) : Valuation τ sig (Elt F) := Function.update (U11 m kits c) main_v44 (out5 m kits c 9)
abbrev U13 (c : Dev nD) : Valuation τ sig (Elt F) := StableHlo.after hostOps6 (U12 m kits c)
/-- Region 6's output window `w`'s array as the pipeline leaves it: the entry contents with every point's write-back folded in. -/
def out6 (c : Dev nD) (w : Fin 5) := ((kits 6).dat (fun c b => U13 m kits c b) c).arrAt w (cfgs 6).N
abbrev U14 (c : Dev nD) : Valuation τ sig (Elt F) := Function.update (Function.update (U13 m kits c) main_v46_0 (out6 m kits c 3)) main_v46_1 (out6 m kits c 4)
abbrev U15 (c : Dev nD) : Valuation τ sig (Elt F) := StableHlo.after hostOps7 (U14 m kits c)
/-- Region 7's output window `w`'s array as the pipeline leaves it: the entry contents with every point's write-back folded in. -/
def out7 (c : Dev nD) (w : Fin 11) := ((kits 7).dat (fun c b => U15 m kits c b) c).arrAt w (cfgs 7).N
abbrev U16 (c : Dev nD) : Valuation τ sig (Elt F) := Function.update (Function.update (U15 m kits c) main_v51_0 (out7 m kits c 9)) main_v51_1 (out7 m kits c 10)
abbrev U17 (c : Dev nD) : Valuation τ sig (Elt F) := StableHlo.after hostOps8 (U16 m kits c)

/-- What each region leaves in the buffers it may change, read off the chain. -/
def outs : Gen.Outs (F := F) := fun J r c => match J with
  | 2 => U2 m kits c r | 4 => U4 m kits c r | 6 => U6 m kits c r | 8 => U8 m kits c r
  | 10 => U10 m kits c r | 12 => U12 m kits c r | 14 => U14 m kits c r | _ => U16 m kits c r

omit [FloatOps F] [Named F] in
/-- Replacing one buffer's contents by what the replaced valuation already holds there changes nothing. -/
theorem upd1_eq (V : Valuation τ sig (Elt F)) (r : DevRef τ sig) (a : r.ty.Contents (Elt F)) :
    Function.update V r ((Function.update V r a) r) = Function.update V r a := by
  rw [Function.update_self]

omit [FloatOps F] [Named F] in
/-- The same for two distinct buffers. -/
theorem upd2_eq (V : Valuation τ sig (Elt F)) (r1 r2 : DevRef τ sig) (h : r1 ≠ r2) (a1 : r1.ty.Contents (Elt F)) (a2 : r2.ty.Contents (Elt F)) :
    Function.update (Function.update V r1 ((Function.update (Function.update V r1 a1) r2 a2) r1)) r2 ((Function.update (Function.update V r1 a1) r2 a2) r2)
      = Function.update (Function.update V r1 a1) r2 a2 := by
  rw [Function.update_self, Function.update_of_ne h, Function.update_self]

/-! The generated chain of valuations, at these contents, is this module's chain. -/
theorem V1_eq (c : Dev nD) : Gen.V1 m c = U1 m c := rfl
theorem V2_eq (c : Dev nD) : Gen.V2 m (outs m kits) c = U2 m kits c := by
  show Function.update (Function.update (Gen.V1 m c) main_v14_0 (U2 m kits c main_v14_0)) main_v14_1 (U2 m kits c main_v14_1) = _
  rw [V1_eq]
  exact upd2_eq _ _ _ (StableHlo.devRef_ne_of_ne (by decide)) _ _
theorem V3_eq (c : Dev nD) : Gen.V3 m (outs m kits) c = U3 m kits c := by
  show StableHlo.after hostOps1 (Gen.V2 m (outs m kits) c) = _
  rw [V2_eq]
theorem V4_eq (c : Dev nD) : Gen.V4 m (outs m kits) c = U4 m kits c := by
  show Function.update (Gen.V3 m (outs m kits) c) main_v18 (U4 m kits c main_v18) = _
  rw [V3_eq]
  exact upd1_eq _ _ _
theorem V5_eq (c : Dev nD) : Gen.V5 m (outs m kits) c = U5 m kits c := by
  show StableHlo.after hostOps2 (Gen.V4 m (outs m kits) c) = _
  rw [V4_eq]
theorem V6_eq (c : Dev nD) : Gen.V6 m (outs m kits) c = U6 m kits c := by
  show Function.update (Function.update (Gen.V5 m (outs m kits) c) main_v20_0 (U6 m kits c main_v20_0)) main_v20_1 (U6 m kits c main_v20_1) = _
  rw [V5_eq]
  exact upd2_eq _ _ _ (StableHlo.devRef_ne_of_ne (by decide)) _ _
theorem V7_eq (c : Dev nD) : Gen.V7 m (outs m kits) c = U7 m kits c := by
  show StableHlo.after hostOps3 (Gen.V6 m (outs m kits) c) = _
  rw [V6_eq]
theorem V8_eq (c : Dev nD) : Gen.V8 m (outs m kits) c = U8 m kits c := by
  show Function.update (Gen.V7 m (outs m kits) c) main_v24 (U8 m kits c main_v24) = _
  rw [V7_eq]
  exact upd1_eq _ _ _
theorem V9_eq (c : Dev nD) : Gen.V9 m (outs m kits) c = U9 m kits c := by
  show StableHlo.after hostOps4 (Gen.V8 m (outs m kits) c) = _
  rw [V8_eq]
theorem V10_eq (c : Dev nD) : Gen.V10 m (outs m kits) c = U10 m kits c := by
  show Function.update (Function.update (Gen.V9 m (outs m kits) c) main_v40_0 (U10 m kits c main_v40_0)) main_v40_1 (U10 m kits c main_v40_1) = _
  rw [V9_eq]
  exact upd2_eq _ _ _ (StableHlo.devRef_ne_of_ne (by decide)) _ _
theorem V11_eq (c : Dev nD) : Gen.V11 m (outs m kits) c = U11 m kits c := by
  show StableHlo.after hostOps5 (Gen.V10 m (outs m kits) c) = _
  rw [V10_eq]
theorem V12_eq (c : Dev nD) : Gen.V12 m (outs m kits) c = U12 m kits c := by
  show Function.update (Gen.V11 m (outs m kits) c) main_v44 (U12 m kits c main_v44) = _
  rw [V11_eq]
  exact upd1_eq _ _ _
theorem V13_eq (c : Dev nD) : Gen.V13 m (outs m kits) c = U13 m kits c := by
  show StableHlo.after hostOps6 (Gen.V12 m (outs m kits) c) = _
  rw [V12_eq]
theorem V14_eq (c : Dev nD) : Gen.V14 m (outs m kits) c = U14 m kits c := by
  show Function.update (Function.update (Gen.V13 m (outs m kits) c) main_v46_0 (U14 m kits c main_v46_0)) main_v46_1 (U14 m kits c main_v46_1) = _
  rw [V13_eq]
  exact upd2_eq _ _ _ (StableHlo.devRef_ne_of_ne (by decide)) _ _
theorem V15_eq (c : Dev nD) : Gen.V15 m (outs m kits) c = U15 m kits c := by
  show StableHlo.after hostOps7 (Gen.V14 m (outs m kits) c) = _
  rw [V14_eq]
theorem V16_eq (c : Dev nD) : Gen.V16 m (outs m kits) c = U16 m kits c := by
  show Function.update (Function.update (Gen.V15 m (outs m kits) c) main_v51_0 (U16 m kits c main_v51_0)) main_v51_1 (U16 m kits c main_v51_1) = _
  rw [V15_eq]
  exact upd2_eq _ _ _ (StableHlo.devRef_ne_of_ne (by decide)) _ _
theorem V17_eq (c : Dev nD) : Gen.V17 m (outs m kits) c = U17 m kits c := by
  show StableHlo.after hostOps8 (Gen.V16 m (outs m kits) c) = _
  rw [V16_eq]

end Cert.KernelIdeal.Hand
end
-- ==== Proof.KI.Stats0Run.lean ====
import proofs.«110491_j38809324487019_2_alg».proof.Proof.Gen.KernelIdeal.Launch
import proofs.«110491_j38809324487019_2_alg».proof.Proof.Gen.KernelIdeal.Skeleton
import proofs.«110491_j38809324487019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0: the statistics kernel over the edge rows (message and gathered node rows) — the windows' blocks and the body's three runs

The kernel sweeps 125 row blocks. Two (1,128) scratch rows carry the running column sum and the running
column sum of squares of the linear layer's output from one grid point to the next: the first point zeroes them
before accumulating, every point adds its block's column sums, and the last point turns the totals into
the mean and the (clamped) variance, which it stores into the two output windows. The outputs' block
index is constant, so only the last point writes them back; at every other point the output windows
are idle and their staging buffers are handed back as found.

Everything is stated at a parameter `V`: the TensorCore's buffer contents when the region is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: unfetched,
    the block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, over the grid -/

/-- The first conditional (zero the accumulators) is taken at the first point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional (finish: mean and variance) is taken at the last point only. -/
abbrev cond0_1 (i : grid0.Coords) : Prop := k0_cond2 i = 1#1
theorem hcond0_1 : ∀ t : Fin cfg0.N, cond0_1 (grid0.coords t) ↔ t.val = 124 :=
  (by decide +kernel : ∀ t : Fin grid0.N, cond0_1 (grid0.coords t) ↔ t.val = 124)

/-! ## Where the windows are idle, and where the outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the two outputs are idle and are not written back. -/
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
/-- At the last point they are live. -/
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The staging memrefs at a point, and the two scratch rows -/

abbrev ms0_0 (t : Fin cfg0.N) : Memref sig .tc .vmem S6400x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6400x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The running column sum and the running column sum of squares: whole scoped buffers of the kernel's own. -/
abbrev scM0_0 : Memref sig .tc .vmem S1x128 .f32 := Memref.whole cc0_scratch0
abbrev scM0_1 : Memref sig .tc .vmem S1x128 .f32 := Memref.whole cc0_scratch1

/-- The region invariant of a kernel that describes nothing (every scoped buffer no window stages at some
    contents, the generator register at some state), with the two scratch rows taken out of the scoped rest. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The body's run, case by case

Every load and store of the body goes through the whole staging buffer (the unit rectangle at zero offsets), so a load
reads the contents and a store leaves its payload. -/

theorem off00_0 : (![0, 0] : Fin 2 → Nat) = fun _ => 0 := by funext a; fin_cases a <;> rfl

/-- A load through the whole buffer reads its contents. -/
theorem readAt_whole0 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store through the whole buffer, last, leaves its payload whatever the earlier stores were. -/
theorem read_writes_whole0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 4000000 in
/-- THE FIRST point (the zeroing conditional taken, the finishing one not): whatever the two scratch rows held, the running
    sum becomes the block's column sums over the zero row, the running sum of squares the block's column sums of squares
    over the zero row; the inputs and the two idle outputs are left as found. -/
theorem kernelRun0_first (c : Dev nD) (i : grid0.Coords)
    (arg1 : Memref sig .tc .vmem S6400x128 .f32) (harg1 : arg1.IsWhole)
    (arg2 : Memref sig .tc .vmem S6400x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : cond0_0 i) (hc1 : ¬cond0_1 i)
    (x0 : Vec F S6400x128 .f32) (x1 : Vec F S6400x128 .f32) (x2 : Vec F S128x128 .f32) (x3 : Vec F S128x128 .f32) (x4 : Vec F S1x128 .f32) (xi0 xi1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi0 ∗ owns (c : Thread nD τ) arg7 fullShare xi1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi0 ∗ owns (c : Thread nD τ) arg7 fullShare xi1
            ∗ owns (c : Thread nD τ) arg8 fullShare (k0_pay7 x4 x0 x2 x1 x3 k0_pay5) ∗ owns (c : Thread nD τ) arg9 fullShare (k0_pay1 (k0_pay8 x4 x0 x2 x1 x3 k0_pay6))) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fo0, %hfo0, HO0⟩, ⟨%fo1, %hfo1, HO1⟩, ⟨%ds0, %fs0, -, HS0⟩, ⟨%ds1, %fs1, -, HS1⟩, Hk⟩
  subst hf0; subst hf1; subst hf2; subst hf3; subst hf4; subst hfo0; subst hfo1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole0 arg8.view fs0 off00_0]
    try sl_unfold_run_names
    rw [View.readCov_unit_zero arg8.view off00_0, readAt_whole0 arg1.view f0 off00_0, readAt_whole0 arg2.view f1 off00_0, readAt_whole0 arg3.view f2 off00_0, readAt_whole0 arg4.view f3 off00_0, readAt_whole0 arg5.view f4 off00_0]
    try rfl
  iexists _; isplitr
  swap; · iexact HS1
  ipureintro
  try sl_unfold_run_names
  rw [read_writes_whole0 arg9.view fs1 off00_0]
  try sl_unfold_run_names
  rw [View.readCov_unit_zero arg9.view off00_0, readAt_whole0 arg1.view f0 off00_0, readAt_whole0 arg2.view f1 off00_0, readAt_whole0 arg3.view f2 off00_0, readAt_whole0 arg4.view f3 off00_0, readAt_whole0 arg5.view f4 off00_0]
  try rfl

set_option maxHeartbeats 4000000 in
/-- A MIDDLE point (neither conditional taken): the inputs and the two idle outputs are left as found; the running sum
    and the running sum of squares advance by the block's column sums. -/
theorem kernelRun0_mid (c : Dev nD) (i : grid0.Coords)
    (arg1 : Memref sig .tc .vmem S6400x128 .f32) (harg1 : arg1.IsWhole)
    (arg2 : Memref sig .tc .vmem S6400x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : ¬cond0_0 i) (hc1 : ¬cond0_1 i)
    (x0 : Vec F S6400x128 .f32) (x1 : Vec F S6400x128 .f32) (x2 : Vec F S128x128 .f32) (x3 : Vec F S128x128 .f32) (x4 : Vec F S1x128 .f32) (xi0 xi1 s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi0 ∗ owns (c : Thread nD τ) arg7 fullShare xi1
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi0 ∗ owns (c : Thread nD τ) arg7 fullShare xi1
            ∗ owns (c : Thread nD τ) arg8 fullShare (k0_pay7 x4 x0 x2 x1 x3 s0) ∗ owns (c : Thread nD τ) arg9 fullShare (k0_pay1 (k0_pay8 x4 x0 x2 x1 x3 s1))) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fo0, %hfo0, HO0⟩, ⟨%fo1, %hfo1, HO1⟩, ⟨%fs0, %hfs0, HS0⟩, ⟨%fs1, %hfs1, HS1⟩, Hk⟩
  subst hf0; subst hf1; subst hf2; subst hf3; subst hf4; subst hfo0; subst hfo1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole0 arg8.view fs0 off00_0]
    try sl_unfold_run_names
    rw [readAt_whole0 arg1.view f0 off00_0, readAt_whole0 arg2.view f1 off00_0, readAt_whole0 arg3.view f2 off00_0, readAt_whole0 arg4.view f3 off00_0, readAt_whole0 arg5.view f4 off00_0, readAt_whole0 arg8.view fs0 off00_0]
    try rfl
  iexists _; isplitr
  swap; · iexact HS1
  ipureintro
  try sl_unfold_run_names
  rw [read_writes_whole0 arg9.view fs1 off00_0]
  try sl_unfold_run_names
  rw [readAt_whole0 arg1.view f0 off00_0, readAt_whole0 arg2.view f1 off00_0, readAt_whole0 arg3.view f2 off00_0, readAt_whole0 arg4.view f3 off00_0, readAt_whole0 arg5.view f4 off00_0, readAt_whole0 arg9.view fs1 off00_0]
  try rfl

set_option maxHeartbeats 4000000 in
/-- THE LAST point (the finishing conditional taken, the zeroing one not): the accumulators advance as at a middle point,
    and the two outputs, whatever they held, are left at the mean and the variance computed from the final totals. -/
theorem kernelRun0_last (c : Dev nD) (i : grid0.Coords)
    (arg1 : Memref sig .tc .vmem S6400x128 .f32) (harg1 : arg1.IsWhole)
    (arg2 : Memref sig .tc .vmem S6400x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : ¬cond0_0 i) (hc1 : cond0_1 i)
    (x0 : Vec F S6400x128 .f32) (x1 : Vec F S6400x128 .f32) (x2 : Vec F S128x128 .f32) (x3 : Vec F S128x128 .f32) (x4 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay2 (k0_pay7 x4 x0 x2 x1 x3 s0)) ∗ owns (c : Thread nD τ) arg7 fullShare (k0_pay3 (k0_pay7 x4 x0 x2 x1 x3 s0) (k0_pay1 (k0_pay8 x4 x0 x2 x1 x3 s1)))
            ∗ owns (c : Thread nD τ) arg8 fullShare (k0_pay7 x4 x0 x2 x1 x3 s0) ∗ owns (c : Thread nD τ) arg9 fullShare (k0_pay1 (k0_pay8 x4 x0 x2 x1 x3 s1))) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d3, %fo0, -, HO0⟩, ⟨%d4, %fo1, -, HO1⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists _; isplitr
    swap; · iexact HO0
    ipureintro
    try sl_unfold_run_names
    rw [read_writes_whole0 arg6.view fo0 off00_0]
    try sl_unfold_run_names
    rw [View.readCov_unit_zero arg8.view off00_0, readAt_whole0 arg1.view f0 off00_0, readAt_whole0 arg2.view f1 off00_0, readAt_whole0 arg3.view f2 off00_0, readAt_whole0 arg4.view f3 off00_0, readAt_whole0 arg5.view f4 off00_0, readAt_whole0 arg8.view fs0 off00_0]
    try rfl
  isplitl [HO1]
  · iexists _; isplitr
    swap; · iexact HO1
    ipureintro
    try sl_unfold_run_names
    rw [read_writes_whole0 arg7.view fo1 off00_0]
    try sl_unfold_run_names
    rw [View.readCov_unit_zero arg8.view off00_0, View.readCov_unit_zero arg9.view off00_0, readAt_whole0 arg1.view f0 off00_0, readAt_whole0 arg2.view f1 off00_0, readAt_whole0 arg3.view f2 off00_0, readAt_whole0 arg4.view f3 off00_0, readAt_whole0 arg5.view f4 off00_0, readAt_whole0 arg8.view fs0 off00_0, readAt_whole0 arg9.view fs1 off00_0]
    try rfl
  isplitl [HS0]
  · iexists _; isplitr
    swap; · iexact HS0
    ipureintro
    try sl_unfold_run_names
    rw [read_writes_whole0 arg8.view fs0 off00_0]
    try sl_unfold_run_names
    rw [readAt_whole0 arg1.view f0 off00_0, readAt_whole0 arg2.view f1 off00_0, readAt_whole0 arg3.view f2 off00_0, readAt_whole0 arg4.view f3 off00_0, readAt_whole0 arg5.view f4 off00_0, readAt_whole0 arg8.view fs0 off00_0]
    try rfl
  iexists _; isplitr
  swap; · iexact HS1
  ipureintro
  try sl_unfold_run_names
  rw [read_writes_whole0 arg9.view fs1 off00_0]
  try sl_unfold_run_names
  rw [readAt_whole0 arg1.view f0 off00_0, readAt_whole0 arg2.view f1 off00_0, readAt_whole0 arg3.view f2 off00_0, readAt_whole0 arg4.view f3 off00_0, readAt_whole0 arg5.view f4 off00_0, readAt_whole0 arg9.view fs1 off00_0]
  try rfl

end Cert.KernelIdeal.Hand

end
-- ==== Proof.KI.Stats0.lean ====
import proofs.«110491_j38809324487019_2_alg».proof.Proof.KI.Stats0Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0, the statistics kernel: the accumulators, the proof data, the body obligation, the outputs

Over the three runs of the body (first, middle, last point): the running column sum and sum of squares after each point
by recursion on the point, the region's invariant carrying the two scratch rows at them, the proof data, the body
obligation, the invariant at the region's two ends, and the two output arrays after the region: the mean and the
variance computed from the totals after the last point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The accumulators, point by point -/

/-- The running column sum after point `n`: the first point accumulates onto the zeroed row, each later
    point onto what the point before left. -/
def accSum0 (c : Dev nD) : (n : ℕ) → n < cfg0.N → Vec F S1x128 .f32
  | 0, hn => k0_pay7 (iblk0 V c 4 ⟨0, hn⟩) (iblk0 V c 0 ⟨0, hn⟩) (iblk0 V c 2 ⟨0, hn⟩) (iblk0 V c 1 ⟨0, hn⟩) (iblk0 V c 3 ⟨0, hn⟩) k0_pay5
  | n + 1, hn => k0_pay7 (iblk0 V c 4 ⟨n + 1, hn⟩) (iblk0 V c 0 ⟨n + 1, hn⟩) (iblk0 V c 2 ⟨n + 1, hn⟩) (iblk0 V c 1 ⟨n + 1, hn⟩) (iblk0 V c 3 ⟨n + 1, hn⟩) (accSum0 c n (Nat.lt_of_succ_lt hn))

/-- The running column sum of squares after point `n`. -/
def accSq0 (c : Dev nD) : (n : ℕ) → n < cfg0.N → Vec F S1x128 .f32
  | 0, hn => k0_pay1 (k0_pay8 (iblk0 V c 4 ⟨0, hn⟩) (iblk0 V c 0 ⟨0, hn⟩) (iblk0 V c 2 ⟨0, hn⟩) (iblk0 V c 1 ⟨0, hn⟩) (iblk0 V c 3 ⟨0, hn⟩) k0_pay6)
  | n + 1, hn => k0_pay1 (k0_pay8 (iblk0 V c 4 ⟨n + 1, hn⟩) (iblk0 V c 0 ⟨n + 1, hn⟩) (iblk0 V c 2 ⟨n + 1, hn⟩) (iblk0 V c 1 ⟨n + 1, hn⟩) (iblk0 V c 3 ⟨n + 1, hn⟩) (accSq0 c n (Nat.lt_of_succ_lt hn)))

theorem accSum0_zero (c : Dev nD) (t : Fin cfg0.N) (h : t.val = 0) :
    accSum0 V c t.val t.isLt = k0_pay7 (iblk0 V c 4 t) (iblk0 V c 0 t) (iblk0 V c 2 t) (iblk0 V c 1 t) (iblk0 V c 3 t) k0_pay5 := by
  obtain ⟨n, hn⟩ := t; subst h; rfl

theorem accSum0_pos (c : Dev nD) (t : Fin cfg0.N) (h : t.val ≠ 0) :
    accSum0 V c t.val t.isLt = k0_pay7 (iblk0 V c 4 t) (iblk0 V c 0 t) (iblk0 V c 2 t) (iblk0 V c 1 t) (iblk0 V c 3 t) (accSum0 V c (t.val - 1) (Nat.lt_of_le_of_lt (Nat.sub_le _ _) t.isLt)) := by
  obtain ⟨n, hn⟩ := t
  cases n with
  | zero => exact absurd rfl h
  | succ n => rfl

theorem accSq0_zero (c : Dev nD) (t : Fin cfg0.N) (h : t.val = 0) :
    accSq0 V c t.val t.isLt = k0_pay1 (k0_pay8 (iblk0 V c 4 t) (iblk0 V c 0 t) (iblk0 V c 2 t) (iblk0 V c 1 t) (iblk0 V c 3 t) k0_pay6) := by
  obtain ⟨n, hn⟩ := t; subst h; rfl

theorem accSq0_pos (c : Dev nD) (t : Fin cfg0.N) (h : t.val ≠ 0) :
    accSq0 V c t.val t.isLt = k0_pay1 (k0_pay8 (iblk0 V c 4 t) (iblk0 V c 0 t) (iblk0 V c 2 t) (iblk0 V c 1 t) (iblk0 V c 3 t) (accSq0 V c (t.val - 1) (Nat.lt_of_le_of_lt (Nat.sub_le _ _) t.isLt))) := by
  obtain ⟨n, hn⟩ := t
  cases n with
  | zero => exact absurd rfl h
  | succ n => rfl

/-- The mean and the variance the last point computes from the totals (what the two output windows' staging buffers
    hold after the body at a point, were it the last: consulted at the last point only). -/
def mean0At (c : Dev nD) (t : Fin cfg0.N) : Vec F S1x128 .f32 := k0_pay2 (accSum0 V c t.val t.isLt)
def var0At (c : Dev nD) (t : Fin cfg0.N) : Vec F S1x128 .f32 := k0_pay3 (accSum0 V c t.val t.isLt) (accSq0 V c t.val t.isLt)

/-! ## The region invariant -/

/-- The scoped buffers that are neither a staging buffer of this region nor its two scratch rows, each at some contents. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- Before the first point: every scoped buffer no window stages at some contents, the generator register at some state.
    After point `n`: the two scratch rows at the running sum and the running sum of squares, the other scoped buffers at
    some contents, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accSum0 V c n hn) ∗ owns (c : Thread nD τ) scM0_1 fullShare (accSq0 V c n hn))
      ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accSum0 V c n hn) ∗ owns (c : Thread nD τ) scM0_1 fullShare (accSq0 V c n hn))
      ∗ restBut0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accSum0 V c (n - 1) (by omega)) ∗ owns (c : Thread nD τ) scM0_1 fullShare (accSq0 V c (n - 1) (by omega)))
      ∗ restBut0 c) ∗ (∃ r, prngReg c r)) := by
  cases n with
  | zero => exact absurd rfl hz
  | succ n => rfl

/-! ## The proof data -/

/-- The proof data of the region on core `c`: the arrays as the region finds them; after the body at point `t` each
    input's buffer at its block, the two outputs' at the mean and variance of the totals so far (read at the last point
    only: elsewhere the windows are idle); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => mean0At V c t
    | ⟨6, _⟩ => var0At V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem recorded0 (c : Dev nD) (t : Fin (cfg0.N + 1)) : (dat0 V c).recorded t = Set.univ := rfl
theorem share0 (c : Dev nD) (w : Fin cfg0.W) : (dat0 V c).share w = fullShare :=
  (dat0 V c).share_full (fun _ => rfl) w

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = mean0At V c t := by dsimp only [dat0]
theorem after0_6 (c : Dev nD) (t : Fin cfg0.N) : (dat0 V c).after 6 t = var0At V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem PhiS0_castSucc (c : Dev nD) (t : Fin cfg0.N) :
    (dat0 V c).Φ t.castSucc = PhiS0 V c t.val (Nat.le_of_lt t.isLt) := by
  dsimp only [dat0]; simp only [Fin.coe_castSucc]

/-- The input arrays are never written. -/
theorem arrIn0_0 (c : Dev nD) (t : ℕ) : (dat0 V c).arrAt 0 t = (dat0 V c).A 0 := (dat0 V c).arrAt_in 0 rfl t
theorem arrIn0_1 (c : Dev nD) (t : ℕ) : (dat0 V c).arrAt 1 t = (dat0 V c).A 1 := (dat0 V c).arrAt_in 1 rfl t
theorem arrIn0_2 (c : Dev nD) (t : ℕ) : (dat0 V c).arrAt 2 t = (dat0 V c).A 2 := (dat0 V c).arrAt_in 2 rfl t
theorem arrIn0_3 (c : Dev nD) (t : ℕ) : (dat0 V c).arrAt 3 t = (dat0 V c).A 3 := (dat0 V c).arrAt_in 3 rfl t
theorem arrIn0_4 (c : Dev nD) (t : ℕ) : (dat0 V c).arrAt 4 t = (dat0 V c).A 4 := (dat0 V c).arrAt_in 4 rfl t

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' staging buffers hold their blocks; the point is the first, the last or a middle
    one; the invariant hands the body the two scratch rows at what the point before left (at anything at the first point)
    and takes them back at this point's totals; away from the last point the two outputs are handed back as found, at the
    last they hold the mean and the variance of the totals. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 125 := lt_of_lt_of_eq t.isLt (show cfg0.N = 125 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  by_cases h0 : t.val = 0
  · have h1 : ¬t.val = 124 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [accSum0_zero V c t h0, accSq0_zero V c t h0]
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
    iapply (kernelRun0_first c (grid0.coords t) _ _ _ _ _ _ _ _ _ _ _ _ _ _ _ _ _ _ ((hcond0_0 t).mpr h0) (fun h => h1 ((hcond0_1 t).mp h))
      (iblk0 V c 0 t) (iblk0 V c 1 t) (iblk0 V c 2 t) (iblk0 V c 3 t) (iblk0 V c 4 t) _ _ Set.univ _)
    isplitl [H0]; · iexact H0
    isplitl [H1]; · iexact H1
    isplitl [H2]; · iexact H2
    isplitl [H3]; · iexact H3
    isplitl [H4]; · iexact H4
    isplitl [HO0]; · iexact HO0
    isplitl [HO1]; · iexact HO1
    isplitl [HS0]; · iexact HS0
    isplitl [HS1]; · iexact HS1
    iintro ⟨H0, H1, H2, H3, H4, HO0, HO1, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [HO0]; · iexists _; iexact HO0
    iexists _; iexact HO1
  · by_cases h1 : t.val = 124
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      unfold mean0At var0At
      rw [accSum0_pos V c t h0, accSq0_pos V c t h0]
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
      iapply (kernelRun0_last c (grid0.coords t) _ _ _ _ _ _ _ _ _ _ _ _ _ _ _ _ _ _ (fun h => h0 ((hcond0_0 t).mp h)) ((hcond0_1 t).mpr h1)
        (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [HO0]; · iexists _; iexact HO0
      isplitl [HO1]; · iexists _; iexact HO1
      isplitl [HS0]; · iexact HS0
      isplitl [HS1]; · iexact HS1
      iintro ⟨H0, H1, H2, H3, H4, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [HO0]; · iexact HO0
      iexact HO1
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [accSum0_pos V c t h0, accSq0_pos V c t h0]
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
      iapply (kernelRun0_mid c (grid0.coords t) _ _ _ _ _ _ _ _ _ _ _ _ _ _ _ _ _ _ (fun h => h0 ((hcond0_0 t).mp h)) (fun h => h1 ((hcond0_1 t).mp h))
        (iblk0 V c 0 t) (iblk0 V c 1 t) (iblk0 V c 2 t) (iblk0 V c 3 t) (iblk0 V c 4 t) _ _ _ _ Set.univ _)
      isplitl [H0]; · iexact H0
      isplitl [H1]; · iexact H1
      isplitl [H2]; · iexact H2
      isplitl [H3]; · iexact H3
      isplitl [H4]; · iexact H4
      isplitl [HO0]; · iexact HO0
      isplitl [HO1]; · iexact HO1
      isplitl [HS0]; · iexact HS0
      isplitl [HS1]; · iexact HS1
      iintro ⟨H0, H1, H2, H3, H4, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [HO0]; · iexists _; iexact HO0
      iexists _; iexact HO1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem PhiIn0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the two scratch rows' named contents are forgotten. -/
theorem PhiOut0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 125 := N_0; omega), PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-! ## What the region leaves in the two output arrays

The one write-back of each output, at the last point, writes the whole array: block (0, 0) of the [1,128] array read
through zero offsets is the array, and the last point's block covers it. -/

/-- The last point. -/
def tLast0 : Fin cfg0.N := ⟨124, by rw [show cfg0.N = 125 from N_0]; decide⟩

/-- The mean and the variance of the totals after the last point, as contents of the two result arrays (each array is
    its window's one block). -/
abbrev mean0Res (c : Dev nD) : Buf (Elt F) ((c : Thread nD τ).loc main_v14_0) := mean0At V c tLast0
abbrev var0Res (c : Dev nD) : Buf (Elt F) ((c : Thread nD τ).loc main_v14_1) := var0At V c tLast0

theorem flushed0_5_eq (c : Dev nD) (t : Fin cfg0.N) (hf : (cfg0.win 5).flush t = true) :
    (dat0 V c).flushed 5 t = ((cfg0.win 5).blk t).view.read (Elt F) (mean0Res V c) := by
  have hN : cfg0.N = 125 := N_0
  have h3 : t.val = 124 := by have := (flush0_5 t).mp hf; have := t.isLt; omega
  obtain rfl : t = tLast0 := Fin.ext h3
  show (cfg0.win 5).cut (grid0.coords tLast0) ((dat0 V c).after 5 tLast0) = _
  rw [after0_5]
  have hz' : (fun a => win0_5.index tLast0 a * main_v14_0.ty.shape.size a) = fun _ => 0 := funext fun a => by fin_cases a <;> decide +kernel
  exact (Memref.read_access_unit_zero (Elt F) main_v14_0 hz' (fun a => by rw [congrFun hz' a]; simp) (mean0Res V c)).symm

theorem mean0 (c : Dev nD) : (dat0 V c).arrAt 5 cfg0.N = mean0Res V c :=
  (dat0 V c).arrAt_eq_of_cover 5 (mean0Res V c) (flushed0_5_eq V c) fun i =>
    ⟨tLast0, (flush0_5 tLast0).mpr rfl, by
      show i ∈ ((View.whole main_v14_0).slice (win0_5.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_5.index tLast0 0 * win0_5.size 0 ≤ (i 0 : Nat) ∧ (i 0 : Nat) < win0_5.index tLast0 0 * win0_5.size 0 + win0_5.xsize (grid0.coords tLast0) 0
                  rw [show win0_5.index tLast0 0 * win0_5.size 0 = 0 from by decide +kernel, show win0_5.xsize (grid0.coords tLast0) 0 = 1 from by decide +kernel]; omega
      | ⟨1, _⟩ => show win0_5.index tLast0 1 * win0_5.size 1 ≤ (i 1 : Nat) ∧ (i 1 : Nat) < win0_5.index tLast0 1 * win0_5.size 1 + win0_5.xsize (grid0.coords tLast0) 1
                  rw [show win0_5.index tLast0 1 * win0_5.size 1 = 0 from by decide +kernel, show win0_5.xsize (grid0.coords tLast0) 1 = 128 from by decide +kernel]; omega⟩

theorem flushed0_6_eq (c : Dev nD) (t : Fin cfg0.N) (hf : (cfg0.win 6).flush t = true) :
    (dat0 V c).flushed 6 t = ((cfg0.win 6).blk t).view.read (Elt F) (var0Res V c) := by
  have hN : cfg0.N = 125 := N_0
  have h3 : t.val = 124 := by have := (flush0_6 t).mp hf; have := t.isLt; omega
  obtain rfl : t = tLast0 := Fin.ext h3
  show (cfg0.win 6).cut (grid0.coords tLast0) ((dat0 V c).after 6 tLast0) = _
  rw [after0_6]
  have hz' : (fun a => win0_6.index tLast0 a * main_v14_1.ty.shape.size a) = fun _ => 0 := funext fun a => by fin_cases a <;> decide +kernel
  exact (Memref.read_access_unit_zero (Elt F) main_v14_1 hz' (fun a => by rw [congrFun hz' a]; simp) (var0Res V c)).symm

theorem var0 (c : Dev nD) : (dat0 V c).arrAt 6 cfg0.N = var0Res V c :=
  (dat0 V c).arrAt_eq_of_cover 6 (var0Res V c) (flushed0_6_eq V c) fun i =>
    ⟨tLast0, (flush0_6 tLast0).mpr rfl, by
      show i ∈ ((View.whole main_v14_1).slice (win0_6.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_6.index tLast0 0 * win0_6.size 0 ≤ (i 0 : Nat) ∧ (i 0 : Nat) < win0_6.index tLast0 0 * win0_6.size 0 + win0_6.xsize (grid0.coords tLast0) 0
                  rw [show win0_6.index tLast0 0 * win0_6.size 0 = 0 from by decide +kernel, show win0_6.xsize (grid0.coords tLast0) 0 = 1 from by decide +kernel]; omega
      | ⟨1, _⟩ => show win0_6.index tLast0 1 * win0_6.size 1 ≤ (i 1 : Nat) ∧ (i 1 : Nat) < win0_6.index tLast0 1 * win0_6.size 1 + win0_6.xsize (grid0.coords tLast0) 1
                  rw [show win0_6.index tLast0 1 * win0_6.size 1 = 0 from by decide +kernel, show win0_6.xsize (grid0.coords tLast0) 1 = 128 from by decide +kernel]; omega⟩

end Cert.KernelIdeal.Hand

end
-- ==== Proof.KI.Stats2Run.lean ====
import proofs.«110491_j38809324487019_2_alg».proof.Proof.Gen.KernelIdeal.Launch
import proofs.«110491_j38809324487019_2_alg».proof.Proof.Gen.KernelIdeal.Skeleton
import proofs.«110491_j38809324487019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 2: the statistics kernel over the edge rows (one activation input)

The kernel sweeps 125 row blocks. Two (1,128) scratch rows carry the running column sum and the running
column sum of squares of `y = b + x · w` from one grid point to the next: the first point zeroes them
before accumulating, every point adds its block's column sums, and the last point turns the totals into
the mean and the (clamped) variance, which it stores into the two output windows. The outputs' block
index is constant, so only the last point writes them back; at every other point the output windows
are idle and their staging buffers are handed back as found.

Everything is stated at a parameter `V`: the TensorCore's buffer contents when the region is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: unfetched,
    the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- The first conditional (zero the accumulators) is taken at the first point only. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional (finish: mean and variance) is taken at the last point only. -/
abbrev cond2_1 (i : grid2.Coords) : Prop := k2_cond2 i = 1#1
theorem hcond2_1 : ∀ t : Fin cfg2.N, cond2_1 (grid2.coords t) ↔ t.val = 124 :=
  (by decide +kernel : ∀ t : Fin grid2.N, cond2_1 (grid2.coords t) ↔ t.val = 124)

/-! ## Where the windows are idle, and where the outputs are written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the two outputs are idle and are not written back. -/
theorem idleAt2_3 : ∀ t : Fin cfg2.N, ¬cond2_1 (grid2.coords t) → cfg2.idle 3 (grid2.coords t) = true := by decide +kernel
theorem idleAt2_4 : ∀ t : Fin cfg2.N, ¬cond2_1 (grid2.coords t) → cfg2.idle 4 (grid2.coords t) = true := by decide +kernel
theorem noFlush2_3 : ∀ t : Fin cfg2.N, ¬cond2_1 (grid2.coords t) → (cfg2.win 3).flush t = false := by decide +kernel
theorem noFlush2_4 : ∀ t : Fin cfg2.N, ¬cond2_1 (grid2.coords t) → (cfg2.win 4).flush t = false := by decide +kernel
/-- At the last point they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The staging memrefs at a point, and the two scratch rows -/

abbrev ms2_0 (t : Fin cfg2.N) : Memref sig .tc .vmem S6400x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
/-- The running column sum and the running column sum of squares: whole scoped buffers of the kernel's own. -/
abbrev scM2_0 : Memref sig .tc .vmem S1x128 .f32 := Memref.whole cc2_scratch0
abbrev scM2_1 : Memref sig .tc .vmem S1x128 .f32 := Memref.whole cc2_scratch1

/-- The region invariant of a kernel that describes nothing (every scoped buffer no window stages at some
    contents, the generator register at some state), with the two scratch rows taken out of the scoped rest. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The body's run, case by case

Every load and store of the body goes through the whole staging buffer (the unit rectangle at zero offsets), so a load
reads the contents and a store leaves its payload. -/

theorem off00 : (![0, 0] : Fin 2 → Nat) = fun _ => 0 := by funext a; fin_cases a <;> rfl

/-- A load through the whole buffer reads its contents. -/
theorem readAt_whole2 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store through the whole buffer, last, leaves its payload whatever the earlier stores were. -/
theorem read_writes_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 2000000 in
/-- THE FIRST point (the zeroing conditional taken, the finishing one not): whatever the two scratch rows held, the running
    sum becomes `k2_pay4` of the block over the zero row `k2_pay2`, the running sum of squares `k2_pay5` of the block over
    the zero row `k2_pay3`; the inputs and the two idle outputs are left as found. -/
theorem kernelRun2_first (c : Dev nD) (i : grid2.Coords)
    (arg1 : Memref sig .tc .vmem S6400x128 .bf16) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : cond2_0 i) (hc1 : ¬cond2_1 i)
    (x0 : Vec F S6400x128 .bf16) (x1 : Vec F S128x128 .f32) (x2 : Vec F S1x128 .f32) (xi3 xi4 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k2_pay4 x2 x0 x1 k2_pay2) ∗ owns (c : Thread nD τ) arg7 fullShare (k2_pay5 x2 x0 x1 k2_pay3)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    rw [read_writes_whole2 arg6.view fs0 off00, readAt_whole2 arg3.view f2 off00, readAt_whole2 arg1.view f0 off00,
      readAt_whole2 arg2.view f1 off00]
    sl_unfold_run_names
    rw [View.readCov_unit_zero arg6.view off00]
  iexists _; isplitr
  swap; · iexact HS1
  ipureintro
  rw [read_writes_whole2 arg7.view fs1 off00, readAt_whole2 arg3.view f2 off00, readAt_whole2 arg1.view f0 off00,
    readAt_whole2 arg2.view f1 off00]
  sl_unfold_run_names
  rw [View.readCov_unit_zero arg7.view off00]

set_option maxHeartbeats 2000000 in
/-- A MIDDLE point (neither conditional taken): the inputs and the two idle outputs are left as found; the running sum
    becomes `k2_pay4` of the block over the old sum, the running sum of squares `k2_pay5` of the block over the old one. -/
theorem kernelRun2_mid (c : Dev nD) (i : grid2.Coords)
    (arg1 : Memref sig .tc .vmem S6400x128 .bf16) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond2_0 i) (hc1 : ¬cond2_1 i)
    (x0 : Vec F S6400x128 .bf16) (x1 : Vec F S128x128 .f32) (x2 : Vec F S1x128 .f32) (xi3 xi4 s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k2_pay4 x2 x0 x1 s0) ∗ owns (c : Thread nD τ) arg7 fullShare (k2_pay5 x2 x0 x1 s1)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    rw [read_writes_whole2 arg6.view fs0 off00, readAt_whole2 arg3.view f2 off00, readAt_whole2 arg1.view f0 off00,
      readAt_whole2 arg2.view f1 off00, readAt_whole2 arg6.view fs0 off00]
  iexists _; isplitr
  swap; · iexact HS1
  ipureintro
  rw [read_writes_whole2 arg7.view fs1 off00, readAt_whole2 arg3.view f2 off00, readAt_whole2 arg1.view f0 off00,
    readAt_whole2 arg2.view f1 off00, readAt_whole2 arg7.view fs1 off00]

set_option maxHeartbeats 2000000 in
/-- THE LAST point (the finishing conditional taken, the zeroing one not): the accumulators advance as at a middle point,
    and the two outputs, whatever they held, are left at the mean `k2_pay6` of the final sum and the variance `k2_pay7` of
    the final sum and sum of squares. -/
theorem kernelRun2_last (c : Dev nD) (i : grid2.Coords)
    (arg1 : Memref sig .tc .vmem S6400x128 .bf16) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond2_0 i) (hc1 : cond2_1 i)
    (x0 : Vec F S6400x128 .bf16) (x1 : Vec F S128x128 .f32) (x2 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k2_pay6 (k2_pay4 x2 x0 x1 s0)) ∗ owns (c : Thread nD τ) arg5 fullShare (k2_pay7 (k2_pay4 x2 x0 x1 s0) (k2_pay5 x2 x0 x1 s1))
            ∗ owns (c : Thread nD τ) arg6 fullShare (k2_pay4 x2 x0 x1 s0) ∗ owns (c : Thread nD τ) arg7 fullShare (k2_pay5 x2 x0 x1 s1)) -∗ K ⟨⟩))
      ⊢ wp frame (wpE (defs₀ (F := F)) Variants.none c none) E (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole2 arg4.view f3 off00]
    sl_unfold_run_names
    rw [View.readCov_unit_zero arg6.view off00, readAt_whole2 arg3.view f2 off00, readAt_whole2 arg1.view f0 off00,
      readAt_whole2 arg2.view f1 off00, readAt_whole2 arg6.view fs0 off00]
  isplitl [H4]
  · iexists _; isplitr
    swap; · iexact H4
    ipureintro
    rw [read_writes_whole2 arg5.view f4 off00]
    sl_unfold_run_names
    rw [View.readCov_unit_zero arg6.view off00, View.readCov_unit_zero arg7.view off00, readAt_whole2 arg3.view f2 off00,
      readAt_whole2 arg1.view f0 off00, readAt_whole2 arg2.view f1 off00, readAt_whole2 arg6.view fs0 off00,
      readAt_whole2 arg7.view fs1 off00]
  isplitl [HS0]
  · iexists _; isplitr
    swap; · iexact HS0
    ipureintro
    sl_unfold_run_names
    rw [read_writes_whole2 arg6.view fs0 off00, readAt_whole2 arg3.view f2 off00, readAt_whole2 arg1.view f0 off00,
      readAt_whole2 arg2.view f1 off00, readAt_whole2 arg6.view fs0 off00]
  iexists _; isplitr
  swap; · iexact HS1
  ipureintro
  sl_unfold_run_names
  rw [read_writes_whole2 arg7.view fs1 off00, readAt_whole2 arg3.view f2 off00, readAt_whole2 arg1.view f0 off00,
    readAt_whole2 arg2.view f1 off00, readAt_whole2 arg7.view fs1 off00]

end Cert.KernelIdeal.Hand

end
-- ==== Proof.KI.Stats2.lean ====
import proofs.«110491_j38809324487019_2_alg».proof.Proof.KI.Stats2Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 2, the statistics kernel: the accumulators, the proof data, the body obligation, the outputs

Over the three runs of the body (first, middle, last point): the running column sum and sum of squares after each point
by recursion on the point, the region's invariant carrying the two scratch rows at them, the proof data, the body
obligation, the invariant at the region's two ends, and the two output arrays after the region: the mean and the
variance computed from the totals after the last point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The accumulators, point by point -/

/-- The running column sum after point `n`: the first point accumulates onto the zeroed row, each later
    point onto what the point before left. -/
def accSum2 (c : Dev nD) : (n : ℕ) → n < cfg2.N → Vec F S1x128 .f32
  | 0, hn => k2_pay4 (iblk2 V c 2 ⟨0, hn⟩) (iblk2 V c 0 ⟨0, hn⟩) (iblk2 V c 1 ⟨0, hn⟩) k2_pay2
  | n + 1, hn => k2_pay4 (iblk2 V c 2 ⟨n + 1, hn⟩) (iblk2 V c 0 ⟨n + 1, hn⟩) (iblk2 V c 1 ⟨n + 1, hn⟩) (accSum2 c n (Nat.lt_of_succ_lt hn))

/-- The running column sum of squares after point `n`. -/
def accSq2 (c : Dev nD) : (n : ℕ) → n < cfg2.N → Vec F S1x128 .f32
  | 0, hn => k2_pay5 (iblk2 V c 2 ⟨0, hn⟩) (iblk2 V c 0 ⟨0, hn⟩) (iblk2 V c 1 ⟨0, hn⟩) k2_pay3
  | n + 1, hn => k2_pay5 (iblk2 V c 2 ⟨n + 1, hn⟩) (iblk2 V c 0 ⟨n + 1, hn⟩) (iblk2 V c 1 ⟨n + 1, hn⟩) (accSq2 c n (Nat.lt_of_succ_lt hn))

theorem accSum2_zero (c : Dev nD) (t : Fin cfg2.N) (h : t.val = 0) :
    accSum2 V c t.val t.isLt = k2_pay4 (iblk2 V c 2 t) (iblk2 V c 0 t) (iblk2 V c 1 t) k2_pay2 := by
  obtain ⟨n, hn⟩ := t; subst h; rfl

theorem accSum2_pos (c : Dev nD) (t : Fin cfg2.N) (h : t.val ≠ 0) :
    accSum2 V c t.val t.isLt = k2_pay4 (iblk2 V c 2 t) (iblk2 V c 0 t) (iblk2 V c 1 t)
      (accSum2 V c (t.val - 1) (Nat.lt_of_le_of_lt (Nat.sub_le _ _) t.isLt)) := by
  obtain ⟨n, hn⟩ := t
  cases n with
  | zero => exact absurd rfl h
  | succ n => rfl

theorem accSq2_zero (c : Dev nD) (t : Fin cfg2.N) (h : t.val = 0) :
    accSq2 V c t.val t.isLt = k2_pay5 (iblk2 V c 2 t) (iblk2 V c 0 t) (iblk2 V c 1 t) k2_pay3 := by
  obtain ⟨n, hn⟩ := t; subst h; rfl

theorem accSq2_pos (c : Dev nD) (t : Fin cfg2.N) (h : t.val ≠ 0) :
    accSq2 V c t.val t.isLt = k2_pay5 (iblk2 V c 2 t) (iblk2 V c 0 t) (iblk2 V c 1 t)
      (accSq2 V c (t.val - 1) (Nat.lt_of_le_of_lt (Nat.sub_le _ _) t.isLt)) := by
  obtain ⟨n, hn⟩ := t
  cases n with
  | zero => exact absurd rfl h
  | succ n => rfl

/-- The mean and the variance the last point computes from the totals (what the two output windows' staging buffers
    hold after the body at a point, were it the last: consulted at the last point only). -/
def mean2At (c : Dev nD) (t : Fin cfg2.N) : Vec F S1x128 .f32 := k2_pay6 (accSum2 V c t.val t.isLt)
def var2At (c : Dev nD) (t : Fin cfg2.N) : Vec F S1x128 .f32 := k2_pay7 (accSum2 V c t.val t.isLt) (accSq2 V c t.val t.isLt)

/-! ## The region invariant -/

/-- The scoped buffers that are neither a staging buffer of this region nor its two scratch rows, each at some contents. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- Before the first point: every scoped buffer no window stages at some contents, the generator register at some state.
    After point `n`: the two scratch rows at the running sum and the running sum of squares, the other scoped buffers at
    some contents, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accSum2 V c n hn) ∗ owns (c : Thread nD τ) scM2_1 fullShare (accSq2 V c n hn))
      ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accSum2 V c n hn) ∗ owns (c : Thread nD τ) scM2_1 fullShare (accSq2 V c n hn))
      ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accSum2 V c (n - 1) (by omega)) ∗ owns (c : Thread nD τ) scM2_1 fullShare (accSq2 V c (n - 1) (by omega)))
      ∗ restBut2 c) ∗ (∃ r, prngReg c r)) := by
  cases n with
  | zero => exact absurd rfl hz
  | succ n => rfl

/-! ## The proof data -/

/-- The proof data of the region on core `c`: the arrays as the region finds them; after the body at point `t` each
    input's buffer at its block, the two outputs' at the mean and variance of the totals so far (read at the last point
    only: elsewhere the windows are idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => mean2At V c t
    | ⟨4, _⟩ => var2At V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem owed2 (c : Dev nD) (t : Fin (cfg2.N + 1)) : (dat2 V c).owed t = 0 := rfl
theorem recorded2 (c : Dev nD) (t : Fin (cfg2.N + 1)) : (dat2 V c).recorded t = Set.univ := rfl
theorem share2 (c : Dev nD) (w : Fin cfg2.W) : (dat2 V c).share w = fullShare :=
  (dat2 V c).share_full (fun _ => rfl) w

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = mean2At V c t := by dsimp only [dat2]
theorem after2_4 (c : Dev nD) (t : Fin cfg2.N) : (dat2 V c).after 4 t = var2At V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem PhiS2_castSucc (c : Dev nD) (t : Fin cfg2.N) :
    (dat2 V c).Φ t.castSucc = PhiS2 V c t.val (Nat.le_of_lt t.isLt) := by
  dsimp only [dat2]; simp only [Fin.coe_castSucc]

/-- The input arrays are never written. -/
theorem arrIn2_0 (c : Dev nD) (t : ℕ) : (dat2 V c).arrAt 0 t = (dat2 V c).A 0 := (dat2 V c).arrAt_in 0 rfl t
theorem arrIn2_1 (c : Dev nD) (t : ℕ) : (dat2 V c).arrAt 1 t = (dat2 V c).A 1 := (dat2 V c).arrAt_in 1 rfl t
theorem arrIn2_2 (c : Dev nD) (t : ℕ) : (dat2 V c).arrAt 2 t = (dat2 V c).A 2 := (dat2 V c).arrAt_in 2 rfl t

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' staging buffers hold their blocks; the point is the first, the last or a middle
    one; the invariant hands the body the two scratch rows at what the point before left (at anything at the first point)
    and takes them back at this point's totals; away from the last point the two outputs are handed back as found, at the
    last they hold the mean and the variance of the totals. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 125 := lt_of_lt_of_eq t.isLt (show cfg2.N = 125 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val = 0
  · have h1 : ¬t.val = 124 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [accSum2_zero V c t h0, accSq2_zero V c t h0]
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (kernelRun2_first c (grid2.coords t) _ _ _ _ _ _ _ _ _ _ _ _ _ _ ((hcond2_0 t).mpr h0) (fun h => h1 ((hcond2_1 t).mp h))
      (iblk2 V c 0 t) (iblk2 V c 1 t) (iblk2 V c 2 t) _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexists _; iexact H3
    iexists _; iexact H4
  · by_cases h1 : t.val = 124
    · rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      unfold mean2At var2At
      rw [accSum2_pos V c t h0, accSq2_pos V c t h0]
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun2_last c (grid2.coords t) _ _ _ _ _ _ _ _ _ _ _ _ _ _ (fun h => h0 ((hcond2_0 t).mp h)) ((hcond2_1 t).mpr h1)
        (iblk2 V c 0 t) (iblk2 V c 1 t) (iblk2 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [accSum2_pos V c t h0, accSq2_pos V c t h0]
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun2_mid c (grid2.coords t) _ _ _ _ _ _ _ _ _ _ _ _ _ _ (fun h => h0 ((hcond2_0 t).mp h)) (fun h => h1 ((hcond2_1 t).mp h))
        (iblk2 V c 0 t) (iblk2 V c 1 t) (iblk2 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands the region is the invariant before the first point. -/
theorem PhiIn2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives it back: the two scratch rows' named contents are forgotten. -/
theorem PhiOut2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 125 := N_2; omega), PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-! ## What the region leaves in the two output arrays -/

/-- The last point. -/
def tLast2 : Fin cfg2.N := ⟨124, by rw [show cfg2.N = 125 from N_2]; decide⟩

/-- The mean and the variance of the totals after the last point, as contents of the two result arrays (each array is
    its window's one block). -/
abbrev mean2Res (c : Dev nD) : Buf (Elt F) ((c : Thread nD τ).loc main_v20_0) := mean2At V c tLast2
abbrev var2Res (c : Dev nD) : Buf (Elt F) ((c : Thread nD τ).loc main_v20_1) := var2At V c tLast2

/-- The one write-back of the mean, at the last point, writes it: block (0, 0) of the [1,128] array read through zero
    offsets is the array. -/
theorem flushed2_3_eq (c : Dev nD) (t : Fin cfg2.N) (hf : (cfg2.win 3).flush t = true) :
    (dat2 V c).flushed 3 t = ((cfg2.win 3).blk t).view.read (Elt F) (mean2Res V c) := by
  have hN : cfg2.N = 125 := N_2
  have h3 : t.val = 124 := by have := (flush2_3 t).mp hf; have := t.isLt; omega
  obtain rfl : t = tLast2 := Fin.ext h3
  show (cfg2.win 3).cut (grid2.coords tLast2) ((dat2 V c).after 3 tLast2) = _
  rw [after2_3]
  have hz' : (fun a => win2_3.index tLast2 a * main_v20_0.ty.shape.size a) = fun _ => 0 := funext fun a => by fin_cases a <;> decide +kernel
  exact (Memref.read_access_unit_zero (Elt F) main_v20_0 hz' (fun a => by rw [congrFun hz' a]; simp) (mean2Res V c)).symm

theorem flushed2_4_eq (c : Dev nD) (t : Fin cfg2.N) (hf : (cfg2.win 4).flush t = true) :
    (dat2 V c).flushed 4 t = ((cfg2.win 4).blk t).view.read (Elt F) (var2Res V c) := by
  have hN : cfg2.N = 125 := N_2
  have h3 : t.val = 124 := by have := (flush2_4 t).mp hf; have := t.isLt; omega
  obtain rfl : t = tLast2 := Fin.ext h3
  show (cfg2.win 4).cut (grid2.coords tLast2) ((dat2 V c).after 4 tLast2) = _
  rw [after2_4]
  have hz' : (fun a => win2_4.index tLast2 a * main_v20_1.ty.shape.size a) = fun _ => 0 := funext fun a => by fin_cases a <;> decide +kernel
  exact (Memref.read_access_unit_zero (Elt F) main_v20_1 hz' (fun a => by rw [congrFun hz' a]; simp) (var2Res V c)).symm

/-- So the mean array ends holding the mean of the totals after the last point (the last point's block covers it). -/
theorem mean2 (c : Dev nD) : (dat2 V c).arrAt 3 cfg2.N = mean2Res V c :=
  (dat2 V c).arrAt_eq_of_cover 3 (mean2Res V c) (flushed2_3_eq V c) fun i =>
    ⟨tLast2, (flush2_3 tLast2).mpr rfl, by
      show i ∈ ((View.whole main_v20_0).slice (win2_3.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_3.index tLast2 0 * win2_3.size 0 ≤ (i 0 : Nat) ∧ (i 0 : Nat) < win2_3.index tLast2 0 * win2_3.size 0 + win2_3.xsize (grid2.coords tLast2) 0
                  rw [show win2_3.index tLast2 0 * win2_3.size 0 = 0 from by decide +kernel, show win2_3.xsize (grid2.coords tLast2) 0 = 1 from by decide +kernel]; omega
      | ⟨1, _⟩ => show win2_3.index tLast2 1 * win2_3.size 1 ≤ (i 1 : Nat) ∧ (i 1 : Nat) < win2_3.index tLast2 1 * win2_3.size 1 + win2_3.xsize (grid2.coords tLast2) 1
                  rw [show win2_3.index tLast2 1 * win2_3.size 1 = 0 from by decide +kernel, show win2_3.xsize (grid2.coords tLast2) 1 = 128 from by decide +kernel]; omega⟩

/-- and the variance array the variance. -/
theorem var2 (c : Dev nD) : (dat2 V c).arrAt 4 cfg2.N = var2Res V c :=
  (dat2 V c).arrAt_eq_of_cover 4 (var2Res V c) (flushed2_4_eq V c) fun i =>
    ⟨tLast2, (flush2_4 tLast2).mpr rfl, by
      show i ∈ ((View.whole main_v20_1).slice (win2_4.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_4.index tLast2 0 * win2_4.size 0 ≤ (i 0 : Nat) ∧ (i 0 : Nat) < win2_4.index tLast2 0 * win2_4.size 0 + win2_4.xsize (grid2.coords tLast2) 0
                  rw [show win2_4.index tLast2 0 * win2_4.size 0 = 0 from by decide +kernel, show win2_4.xsize (grid2.coords tLast2) 0 = 1 from by decide +kernel]; omega
      | ⟨1, _⟩ => show win2_4.index tLast2 1 * win2_4.size 1 ≤ (i 1 : Nat) ∧ (i 1 : Nat) < win2_4.index tLast2 1 * win2_4.size 1 + win2_4.xsize (grid2.coords tLast2) 1
                  rw [show win2_4.index tLast2 1 * win2_4.size 1 = 0 from by decide +kernel, show win2_4.xsize (grid2.coords tLast2) 1 = 128 from by decide +kernel]; omega⟩

end Cert.KernelIdeal.Hand

end
-- ==== Proof.KI.Stats4Run.lean ====
import proofs.«110491_j38809324487019_2_alg».proof.Proof.Gen.KernelIdeal.Launch
import proofs.«110491_j38809324487019_2_alg».proof.Proof.Gen.KernelIdeal.Skeleton
import proofs.«110491_j38809324487019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 4: the statistics kernel over the node rows (node features and aggregated messages) — the windows' blocks and the body's three runs

The kernel sweeps 10 row blocks. Two (1,128) scratch rows carry the running column sum and the running
column sum of squares of the linear layer's output from one grid point to the next: the first point zeroes them
before accumulating, every point adds its block's column sums, and the last point turns the totals into
the mean and the (clamped) variance, which it stores into the two output windows. The outputs' block
index is constant, so only the last point writes them back; at every other point the output windows
are idle and their staging buffers are handed back as found.

Everything is stated at a parameter `V`: the TensorCore's buffer contents when the region is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not: unfetched,
    the block index has not moved. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, over the grid -/

/-- The first conditional (zero the accumulators) is taken at the first point only. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second conditional (finish: mean and variance) is taken at the last point only. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are idle, and where the outputs are written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Away from the last point the two outputs are idle and are not written back. -/
theorem idleAt4_5 : ∀ t : Fin cfg4.N, ¬cond4_1 (grid4.coords t) → cfg4.idle 5 (grid4.coords t) = true := by decide +kernel
theorem idleAt4_6 : ∀ t : Fin cfg4.N, ¬cond4_1 (grid4.coords t) → cfg4.idle 6 (grid4.coords t) = true := by decide +kernel
theorem noFlush4_5 : ∀ t : Fin cfg4.N, ¬cond4_1 (grid4.coords t) → (cfg4.win 5).flush t = false := by decide +kernel
theorem noFlush4_6 : ∀ t : Fin cfg4.N, ¬cond4_1 (grid4.coords t) → (cfg4.win 6).flush t = false := by decide +kernel
/-- At the last point they are live. -/
theorem liveAt4_5 : ∀ t : Fin cfg4.N, cond4_1 (grid4.coords t) → cfg4.idle 5 (grid4.coords t) = false := by decide +kernel
theorem liveAt4_6 : ∀ t : Fin cfg4.N, cond4_1 (grid4.coords t) → cfg4.idle 6 (grid4.coords t) = false := by decide +kernel

/-! ## The staging memrefs at a point, and the two scratch rows -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
/-- The running column sum and the running column sum of squares: whole scoped buffers of the kernel's own. -/
abbrev scM4_0 : Memref sig .tc .vmem S1x128 .f32 := Memref.whole cc4_scratch0
abbrev scM4_1 : Memref sig .tc .vmem S1x128 .f32 := Memref.whole cc4_scratch1

/-- The region invariant of a kernel that describes nothing (every scoped buffer no window stages at some
    contents, the generator register at some state), with the two scratch rows taken out of the scoped rest. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The body's run, case by case

Every load and store of the body goes through the whole staging buffer (the unit rectangle at zero offsets), so a load
reads the contents and a store leaves its payload. -/

theorem off00_4 : (![0, 0] : Fin 2 → Nat) = fun _ => 0 := by funext a; fin_cases a <;> rfl

/-- A load through the whole buffer reads its contents. -/
theorem readAt_whole4 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store through the whole buffer, last, leaves its payload whatever the earlier stores were. -/
theorem read_writes_whole4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 4000000 in
/-- THE FIRST point (the zeroing conditional taken, the finishing one not): whatever the two scratch rows held, the running
    sum becomes the block's column sums over the zero row, the running sum of squares the block's column sums of squares
    over the zero row; the inputs and the two idle outputs are left as found. -/
theorem kernelRun4_first (c : Dev nD) (i : grid4.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) (xi0 xi1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi0 ∗ owns (c : Thread nD τ) arg7 fullShare xi1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi0 ∗ owns (c : Thread nD τ) arg7 fullShare xi1
            ∗ owns (c : Thread nD τ) arg8 fullShare (k4_pay7 x4 x0 x2 x1 x3 k4_pay5) ∗ owns (c : Thread nD τ) arg9 fullShare (k4_pay1 (k4_pay8 x4 x0 x2 x1 x3 k4_pay6))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%fo0, %hfo0, HO0⟩, ⟨%fo1, %hfo1, HO1⟩, ⟨%ds0, %fs0, -, HS0⟩, ⟨%ds1, %fs1, -, HS1⟩, Hk⟩
  subst hf0; subst hf1; subst hf2; subst hf3; subst hf4; subst hfo0; subst hfo1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole4 arg8.view fs0 off00_4]
    try sl_unfold_run_names
    rw [View.readCov_unit_zero arg8.view off00_4, readAt_whole4 arg1.view f0 off00_4, readAt_whole4 arg2.view f1 off00_4, readAt_whole4 arg3.view f2 off00_4, readAt_whole4 arg4.view f3 off00_4, readAt_whole4 arg5.view f4 off00_4]
    try rfl
  iexists _; isplitr
  swap; · iexact HS1
  ipureintro
  try sl_unfold_run_names
  rw [read_writes_whole4 arg9.view fs1 off00_4]
  try sl_unfold_run_names
  rw [View.readCov_unit_zero arg9.view off00_4, readAt_whole4 arg1.view f0 off00_4, readAt_whole4 arg2.view f1 off00_4, readAt_whole4 arg3.view f2 off00_4, readAt_whole4 arg4.view f3 off00_4, readAt_whole4 arg5.view f4 off00_4]
  try rfl

set_option maxHeartbeats 4000000 in
/-- A MIDDLE point (neither conditional taken): the inputs and the two idle outputs are left as found; the running sum
    and the running sum of squares advance by the block's column sums. -/
theorem kernelRun4_mid (c : Dev nD) (i : grid4.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xi0 xi1 s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi0 ∗ owns (c : Thread nD τ) arg7 fullShare xi1
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi0 ∗ owns (c : Thread nD τ) arg7 fullShare xi1
            ∗ owns (c : Thread nD τ) arg8 fullShare (k4_pay7 x4 x0 x2 x1 x3 s0) ∗ owns (c : Thread nD τ) arg9 fullShare (k4_pay1 (k4_pay8 x4 x0 x2 x1 x3 s1))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%fo0, %hfo0, HO0⟩, ⟨%fo1, %hfo1, HO1⟩, ⟨%fs0, %hfs0, HS0⟩, ⟨%fs1, %hfs1, HS1⟩, Hk⟩
  subst hf0; subst hf1; subst hf2; subst hf3; subst hf4; subst hfo0; subst hfo1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole4 arg8.view fs0 off00_4]
    try sl_unfold_run_names
    rw [readAt_whole4 arg1.view f0 off00_4, readAt_whole4 arg2.view f1 off00_4, readAt_whole4 arg3.view f2 off00_4, readAt_whole4 arg4.view f3 off00_4, readAt_whole4 arg5.view f4 off00_4, readAt_whole4 arg8.view fs0 off00_4]
    try rfl
  iexists _; isplitr
  swap; · iexact HS1
  ipureintro
  try sl_unfold_run_names
  rw [read_writes_whole4 arg9.view fs1 off00_4]
  try sl_unfold_run_names
  rw [readAt_whole4 arg1.view f0 off00_4, readAt_whole4 arg2.view f1 off00_4, readAt_whole4 arg3.view f2 off00_4, readAt_whole4 arg4.view f3 off00_4, readAt_whole4 arg5.view f4 off00_4, readAt_whole4 arg9.view fs1 off00_4]
  try rfl

set_option maxHeartbeats 4000000 in
/-- THE LAST point (the finishing conditional taken, the zeroing one not): the accumulators advance as at a middle point,
    and the two outputs, whatever they held, are left at the mean and the variance computed from the final totals. -/
theorem kernelRun4_last (c : Dev nD) (i : grid4.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k4_pay2 (k4_pay7 x4 x0 x2 x1 x3 s0)) ∗ owns (c : Thread nD τ) arg7 fullShare (k4_pay3 (k4_pay7 x4 x0 x2 x1 x3 s0) (k4_pay1 (k4_pay8 x4 x0 x2 x1 x3 s1)))
            ∗ owns (c : Thread nD τ) arg8 fullShare (k4_pay7 x4 x0 x2 x1 x3 s0) ∗ owns (c : Thread nD τ) arg9 fullShare (k4_pay1 (k4_pay8 x4 x0 x2 x1 x3 s1))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d3, %fo0, -, HO0⟩, ⟨%d4, %fo1, -, HO1⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO0]
  · iexists _; isplitr
    swap; · iexact HO0
    ipureintro
    try sl_unfold_run_names
    rw [read_writes_whole4 arg6.view fo0 off00_4]
    try sl_unfold_run_names
    rw [View.readCov_unit_zero arg8.view off00_4, readAt_whole4 arg1.view f0 off00_4, readAt_whole4 arg2.view f1 off00_4, readAt_whole4 arg3.view f2 off00_4, readAt_whole4 arg4.view f3 off00_4, readAt_whole4 arg5.view f4 off00_4, readAt_whole4 arg8.view fs0 off00_4]
    try rfl
  isplitl [HO1]
  · iexists _; isplitr
    swap; · iexact HO1
    ipureintro
    try sl_unfold_run_names
    rw [read_writes_whole4 arg7.view fo1 off00_4]
    try sl_unfold_run_names
    rw [View.readCov_unit_zero arg8.view off00_4, View.readCov_unit_zero arg9.view off00_4, readAt_whole4 arg1.view f0 off00_4, readAt_whole4 arg2.view f1 off00_4, readAt_whole4 arg3.view f2 off00_4, readAt_whole4 arg4.view f3 off00_4, readAt_whole4 arg5.view f4 off00_4, readAt_whole4 arg8.view fs0 off00_4, readAt_whole4 arg9.view fs1 off00_4]
    try rfl
  isplitl [HS0]
  · iexists _; isplitr
    swap; · iexact HS0
    ipureintro
    try sl_unfold_run_names
    rw [read_writes_whole4 arg8.view fs0 off00_4]
    try sl_unfold_run_names
    rw [readAt_whole4 arg1.view f0 off00_4, readAt_whole4 arg2.view f1 off00_4, readAt_whole4 arg3.view f2 off00_4, readAt_whole4 arg4.view f3 off00_4, readAt_whole4 arg5.view f4 off00_4, readAt_whole4 arg8.view fs0 off00_4]
    try rfl
  iexists _; isplitr
  swap; · iexact HS1
  ipureintro
  try sl_unfold_run_names
  rw [read_writes_whole4 arg9.view fs1 off00_4]
  try sl_unfold_run_names
  rw [readAt_whole4 arg1.view f0 off00_4, readAt_whole4 arg2.view f1 off00_4, readAt_whole4 arg3.view f2 off00_4, readAt_whole4 arg4.view f3 off00_4, readAt_whole4 arg5.view f4 off00_4, readAt_whole4 arg9.view fs1 off00_4]
  try rfl

end Cert.KernelIdeal.Hand

end
-- ==== Proof.KI.Stats4.lean ====
import proofs.«110491_j38809324487019_2_alg».proof.Proof.KI.Stats4Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 4, the statistics kernel: the accumulators, the proof data, the body obligation, the outputs

Over the three runs of the body (first, middle, last point): the running column sum and sum of squares after each point
by recursion on the point, the region's invariant carrying the two scratch rows at them, the proof data, the body
obligation, the invariant at the region's two ends, and the two output arrays after the region: the mean and the
variance computed from the totals after the last point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The accumulators, point by point -/

/-- The running column sum after point `n`: the first point accumulates onto the zeroed row, each later
    point onto what the point before left. -/
def accSum4 (c : Dev nD) : (n : ℕ) → n < cfg4.N → Vec F S1x128 .f32
  | 0, hn => k4_pay7 (iblk4 V c 4 ⟨0, hn⟩) (iblk4 V c 0 ⟨0, hn⟩) (iblk4 V c 2 ⟨0, hn⟩) (iblk4 V c 1 ⟨0, hn⟩) (iblk4 V c 3 ⟨0, hn⟩) k4_pay5
  | n + 1, hn => k4_pay7 (iblk4 V c 4 ⟨n + 1, hn⟩) (iblk4 V c 0 ⟨n + 1, hn⟩) (iblk4 V c 2 ⟨n + 1, hn⟩) (iblk4 V c 1 ⟨n + 1, hn⟩) (iblk4 V c 3 ⟨n + 1, hn⟩) (accSum4 c n (Nat.lt_of_succ_lt hn))

/-- The running column sum of squares after point `n`. -/
def accSq4 (c : Dev nD) : (n : ℕ) → n < cfg4.N → Vec F S1x128 .f32
  | 0, hn => k4_pay1 (k4_pay8 (iblk4 V c 4 ⟨0, hn⟩) (iblk4 V c 0 ⟨0, hn⟩) (iblk4 V c 2 ⟨0, hn⟩) (iblk4 V c 1 ⟨0, hn⟩) (iblk4 V c 3 ⟨0, hn⟩) k4_pay6)
  | n + 1, hn => k4_pay1 (k4_pay8 (iblk4 V c 4 ⟨n + 1, hn⟩) (iblk4 V c 0 ⟨n + 1, hn⟩) (iblk4 V c 2 ⟨n + 1, hn⟩) (iblk4 V c 1 ⟨n + 1, hn⟩) (iblk4 V c 3 ⟨n + 1, hn⟩) (accSq4 c n (Nat.lt_of_succ_lt hn)))

theorem accSum4_zero (c : Dev nD) (t : Fin cfg4.N) (h : t.val = 0) :
    accSum4 V c t.val t.isLt = k4_pay7 (iblk4 V c 4 t) (iblk4 V c 0 t) (iblk4 V c 2 t) (iblk4 V c 1 t) (iblk4 V c 3 t) k4_pay5 := by
  obtain ⟨n, hn⟩ := t; subst h; rfl

theorem accSum4_pos (c : Dev nD) (t : Fin cfg4.N) (h : t.val ≠ 0) :
    accSum4 V c t.val t.isLt = k4_pay7 (iblk4 V c 4 t) (iblk4 V c 0 t) (iblk4 V c 2 t) (iblk4 V c 1 t) (iblk4 V c 3 t) (accSum4 V c (t.val - 1) (Nat.lt_of_le_of_lt (Nat.sub_le _ _) t.isLt)) := by
  obtain ⟨n, hn⟩ := t
  cases n with
  | zero => exact absurd rfl h
  | succ n => rfl

theorem accSq4_zero (c : Dev nD) (t : Fin cfg4.N) (h : t.val = 0) :
    accSq4 V c t.val t.isLt = k4_pay1 (k4_pay8 (iblk4 V c 4 t) (iblk4 V c 0 t) (iblk4 V c 2 t) (iblk4 V c 1 t) (iblk4 V c 3 t) k4_pay6) := by
  obtain ⟨n, hn⟩ := t; subst h; rfl

theorem accSq4_pos (c : Dev nD) (t : Fin cfg4.N) (h : t.val ≠ 0) :
    accSq4 V c t.val t.isLt = k4_pay1 (k4_pay8 (iblk4 V c 4 t) (iblk4 V c 0 t) (iblk4 V c 2 t) (iblk4 V c 1 t) (iblk4 V c 3 t) (accSq4 V c (t.val - 1) (Nat.lt_of_le_of_lt (Nat.sub_le _ _) t.isLt))) := by
  obtain ⟨n, hn⟩ := t
  cases n with
  | zero => exact absurd rfl h
  | succ n => rfl

/-- The mean and the variance the last point computes from the totals (what the two output windows' staging buffers
    hold after the body at a point, were it the last: consulted at the last point only). -/
def mean4At (c : Dev nD) (t : Fin cfg4.N) : Vec F S1x128 .f32 := k4_pay2 (accSum4 V c t.val t.isLt)
def var4At (c : Dev nD) (t : Fin cfg4.N) : Vec F S1x128 .f32 := k4_pay3 (accSum4 V c t.val t.isLt) (accSq4 V c t.val t.isLt)

/-! ## The region invariant -/

/-- The scoped buffers that are neither a staging buffer of this region nor its two scratch rows, each at some contents. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- Before the first point: every scoped buffer no window stages at some contents, the generator register at some state.
    After point `n`: the two scratch rows at the running sum and the running sum of squares, the other scoped buffers at
    some contents, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accSum4 V c n hn) ∗ owns (c : Thread nD τ) scM4_1 fullShare (accSq4 V c n hn))
      ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accSum4 V c n hn) ∗ owns (c : Thread nD τ) scM4_1 fullShare (accSq4 V c n hn))
      ∗ restBut4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accSum4 V c (n - 1) (by omega)) ∗ owns (c : Thread nD τ) scM4_1 fullShare (accSq4 V c (n - 1) (by omega)))
      ∗ restBut4 c) ∗ (∃ r, prngReg c r)) := by
  cases n with
  | zero => exact absurd rfl hz
  | succ n => rfl

/-! ## The proof data -/

/-- The proof data of the region on core `c`: the arrays as the region finds them; after the body at point `t` each
    input's buffer at its block, the two outputs' at the mean and variance of the totals so far (read at the last point
    only: elsewhere the windows are idle); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => mean4At V c t
    | ⟨6, _⟩ => var4At V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem owed4 (c : Dev nD) (t : Fin (cfg4.N + 1)) : (dat4 V c).owed t = 0 := rfl
theorem recorded4 (c : Dev nD) (t : Fin (cfg4.N + 1)) : (dat4 V c).recorded t = Set.univ := rfl
theorem share4 (c : Dev nD) (w : Fin cfg4.W) : (dat4 V c).share w = fullShare :=
  (dat4 V c).share_full (fun _ => rfl) w

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = mean4At V c t := by dsimp only [dat4]
theorem after4_6 (c : Dev nD) (t : Fin cfg4.N) : (dat4 V c).after 6 t = var4At V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

theorem PhiS4_castSucc (c : Dev nD) (t : Fin cfg4.N) :
    (dat4 V c).Φ t.castSucc = PhiS4 V c t.val (Nat.le_of_lt t.isLt) := by
  dsimp only [dat4]; simp only [Fin.coe_castSucc]

/-- The input arrays are never written. -/
theorem arrIn4_0 (c : Dev nD) (t : ℕ) : (dat4 V c).arrAt 0 t = (dat4 V c).A 0 := (dat4 V c).arrAt_in 0 rfl t
theorem arrIn4_1 (c : Dev nD) (t : ℕ) : (dat4 V c).arrAt 1 t = (dat4 V c).A 1 := (dat4 V c).arrAt_in 1 rfl t
theorem arrIn4_2 (c : Dev nD) (t : ℕ) : (dat4 V c).arrAt 2 t = (dat4 V c).A 2 := (dat4 V c).arrAt_in 2 rfl t
theorem arrIn4_3 (c : Dev nD) (t : ℕ) : (dat4 V c).arrAt 3 t = (dat4 V c).A 3 := (dat4 V c).arrAt_in 3 rfl t
theorem arrIn4_4 (c : Dev nD) (t : ℕ) : (dat4 V c).arrAt 4 t = (dat4 V c).A 4 := (dat4 V c).arrAt_in 4 rfl t

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point. The inputs' staging buffers hold their blocks; the point is the first, the last or a middle
    one; the invariant hands the body the two scratch rows at what the point before left (at anything at the first point)
    and takes them back at this point's totals; away from the last point the two outputs are handed back as found, at the
    last they hold the mean and the variance of the totals. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  rw [show (dat4 V c).leavesExact 4 t = owns (c : Thread nD τ) (ms4_4 t) fullShare ((dat4 V c).after 4 t) from by
      unfold Dat.leavesExact; rw [liveAt4_4 t], after4_4]
  by_cases h0 : t.val = 0
  · have h1 : ¬t.val = 9 := by omega
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [accSum4_zero V c t h0, accSq4_zero V c t h0]
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
    iapply (kernelRun4_first c (grid4.coords t) _ _ _ _ _ _ _ _ _ _ _ _ _ _ _ _ _ _ ((hcond4_0 t).mpr h0) (fun h => h1 ((hcond4_1 t).mp h))
      (iblk4 V c 0 t) (iblk4 V c 1 t) (iblk4 V c 2 t) (iblk4 V c 3 t) (iblk4 V c 4 t) _ _ Set.univ _)
    isplitl [H0]; · iexact H0
    isplitl [H1]; · iexact H1
    isplitl [H2]; · iexact H2
    isplitl [H3]; · iexact H3
    isplitl [H4]; · iexact H4
    isplitl [HO0]; · iexact HO0
    isplitl [HO1]; · iexact HO1
    isplitl [HS0]; · iexact HS0
    isplitl [HS1]; · iexact HS1
    iintro ⟨H0, H1, H2, H3, H4, HO0, HO1, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [HO0]; · iexists _; iexact HO0
    iexists _; iexact HO1
  · by_cases h1 : t.val = 9
    · rw [show (dat4 V c).leavesExact 5 t = owns (c : Thread nD τ) (ms4_5 t) fullShare ((dat4 V c).after 5 t) from by
        unfold Dat.leavesExact; rw [liveAt4_5 t ((hcond4_1 t).mpr h1)], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      unfold mean4At var4At
      rw [accSum4_pos V c t h0, accSq4_pos V c t h0]
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
      iapply (kernelRun4_last c (grid4.coords t) _ _ _ _ _ _ _ _ _ _ _ _ _ _ _ _ _ _ (fun h => h0 ((hcond4_0 t).mp h)) ((hcond4_1 t).mpr h1)
        (iblk4 V c 0 t) (iblk4 V c 1 t) (iblk4 V c 2 t) (iblk4 V c 3 t) (iblk4 V c 4 t) _ _ Set.univ _)
      isplitl [H0]; · iexact H0
      isplitl [H1]; · iexact H1
      isplitl [H2]; · iexact H2
      isplitl [H3]; · iexact H3
      isplitl [H4]; · iexact H4
      isplitl [HO0]; · iexists _; iexact HO0
      isplitl [HO1]; · iexists _; iexact HO1
      isplitl [HS0]; · iexact HS0
      isplitl [HS1]; · iexact HS1
      iintro ⟨H0, H1, H2, H3, H4, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [HO0]; · iexact HO0
      iexact HO1
    · rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [accSum4_pos V c t h0, accSq4_pos V c t h0]
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%do0, HO0⟩, ⟨%do1, HO1⟩⟩
      iapply (kernelRun4_mid c (grid4.coords t) _ _ _ _ _ _ _ _ _ _ _ _ _ _ _ _ _ _ (fun h => h0 ((hcond4_0 t).mp h)) (fun h => h1 ((hcond4_1 t).mp h))
        (iblk4 V c 0 t) (iblk4 V c 1 t) (iblk4 V c 2 t) (iblk4 V c 3 t) (iblk4 V c 4 t) _ _ _ _ Set.univ _)
      isplitl [H0]; · iexact H0
      isplitl [H1]; · iexact H1
      isplitl [H2]; · iexact H2
      isplitl [H3]; · iexact H3
      isplitl [H4]; · iexact H4
      isplitl [HO0]; · iexact HO0
      isplitl [HO1]; · iexact HO1
      isplitl [HS0]; · iexact HS0
      isplitl [HS1]; · iexact HS1
      iintro ⟨H0, H1, H2, H3, H4, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [HO0]; · iexists _; iexact HO0
      iexists _; iexact HO1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- What the launch hands the region is the invariant before the first point. -/
theorem PhiIn4 (c : Dev nD) : Pipeline.ΦA spec4 c ⊢ (dat4 V c).Φ 0 := by
  rw [show (dat4 V c).Φ 0 = PhiS4 V c 0 (Nat.zero_le _) from rfl, PhiS4_zero V c 0 _ rfl]

/-- After the last point the invariant gives it back: the two scratch rows' named contents are forgotten. -/
theorem PhiOut4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-! ## What the region leaves in the two output arrays

The one write-back of each output, at the last point, writes the whole array: block (0, 0) of the [1,128] array read
through zero offsets is the array, and the last point's block covers it. -/

/-- The last point. -/
def tLast4 : Fin cfg4.N := ⟨9, by rw [show cfg4.N = 10 from N_4]; decide⟩

/-- The mean and the variance of the totals after the last point, as contents of the two result arrays (each array is
    its window's one block). -/
abbrev mean4Res (c : Dev nD) : Buf (Elt F) ((c : Thread nD τ).loc main_v40_0) := mean4At V c tLast4
abbrev var4Res (c : Dev nD) : Buf (Elt F) ((c : Thread nD τ).loc main_v40_1) := var4At V c tLast4

theorem flushed4_5_eq (c : Dev nD) (t : Fin cfg4.N) (hf : (cfg4.win 5).flush t = true) :
    (dat4 V c).flushed 5 t = ((cfg4.win 5).blk t).view.read (Elt F) (mean4Res V c) := by
  have hN : cfg4.N = 10 := N_4
  have h3 : t.val = 9 := by have := (flush4_5 t).mp hf; have := t.isLt; omega
  obtain rfl : t = tLast4 := Fin.ext h3
  show (cfg4.win 5).cut (grid4.coords tLast4) ((dat4 V c).after 5 tLast4) = _
  rw [after4_5]
  have hz' : (fun a => win4_5.index tLast4 a * main_v40_0.ty.shape.size a) = fun _ => 0 := funext fun a => by fin_cases a <;> decide +kernel
  exact (Memref.read_access_unit_zero (Elt F) main_v40_0 hz' (fun a => by rw [congrFun hz' a]; simp) (mean4Res V c)).symm

theorem mean4 (c : Dev nD) : (dat4 V c).arrAt 5 cfg4.N = mean4Res V c :=
  (dat4 V c).arrAt_eq_of_cover 5 (mean4Res V c) (flushed4_5_eq V c) fun i =>
    ⟨tLast4, (flush4_5 tLast4).mpr rfl, by
      show i ∈ ((View.whole main_v40_0).slice (win4_5.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_5.index tLast4 0 * win4_5.size 0 ≤ (i 0 : Nat) ∧ (i 0 : Nat) < win4_5.index tLast4 0 * win4_5.size 0 + win4_5.xsize (grid4.coords tLast4) 0
                  rw [show win4_5.index tLast4 0 * win4_5.size 0 = 0 from by decide +kernel, show win4_5.xsize (grid4.coords tLast4) 0 = 1 from by decide +kernel]; omega
      | ⟨1, _⟩ => show win4_5.index tLast4 1 * win4_5.size 1 ≤ (i 1 : Nat) ∧ (i 1 : Nat) < win4_5.index tLast4 1 * win4_5.size 1 + win4_5.xsize (grid4.coords tLast4) 1
                  rw [show win4_5.index tLast4 1 * win4_5.size 1 = 0 from by decide +kernel, show win4_5.xsize (grid4.coords tLast4) 1 = 128 from by decide +kernel]; omega⟩

theorem flushed4_6_eq (c : Dev nD) (t : Fin cfg4.N) (hf : (cfg4.win 6).flush t = true) :
    (dat4 V c).flushed 6 t = ((cfg4.win 6).blk t).view.read (Elt F) (var4Res V c) := by
  have hN : cfg4.N = 10 := N_4
  have h3 : t.val = 9 := by have := (flush4_6 t).mp hf; have := t.isLt; omega
  obtain rfl : t = tLast4 := Fin.ext h3
  show (cfg4.win 6).cut (grid4.coords tLast4) ((dat4 V c).after 6 tLast4) = _
  rw [after4_6]
  have hz' : (fun a => win4_6.index tLast4 a * main_v40_1.ty.shape.size a) = fun _ => 0 := funext fun a => by fin_cases a <;> decide +kernel
  exact (Memref.read_access_unit_zero (Elt F) main_v40_1 hz' (fun a => by rw [congrFun hz' a]; simp) (var4Res V c)).symm

theorem var4 (c : Dev nD) : (dat4 V c).arrAt 6 cfg4.N = var4Res V c :=
  (dat4 V c).arrAt_eq_of_cover 6 (var4Res V c) (flushed4_6_eq V c) fun i =>
    ⟨tLast4, (flush4_6 tLast4).mpr rfl, by
      show i ∈ ((View.whole main_v40_1).slice (win4_6.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_6.index tLast4 0 * win4_6.size 0 ≤ (i 0 : Nat) ∧ (i 0 : Nat) < win4_6.index tLast4 0 * win4_6.size 0 + win4_6.xsize (grid4.coords tLast4) 0
                  rw [show win4_6.index tLast4 0 * win4_6.size 0 = 0 from by decide +kernel, show win4_6.xsize (grid4.coords tLast4) 0 = 1 from by decide +kernel]; omega
      | ⟨1, _⟩ => show win4_6.index tLast4 1 * win4_6.size 1 ≤ (i 1 : Nat) ∧ (i 1 : Nat) < win4_6.index tLast4 1 * win4_6.size 1 + win4_6.xsize (grid4.coords tLast4) 1
                  rw [show win4_6.index tLast4 1 * win4_6.size 1 = 0 from by decide +kernel, show win4_6.xsize (grid4.coords tLast4) 1 = 128 from by decide +kernel]; omega⟩

end Cert.KernelIdeal.Hand

end
-- ==== Proof.KI.Stats6Run.lean ====
import proofs.«110491_j38809324487019_2_alg».proof.Proof.Gen.KernelIdeal.Launch
import proofs.«110491_j38809324487019_2_alg».proof.Proof.Gen.KernelIdeal.Skeleton
import proofs.«110491_j38809324487019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 6: the statistics kernel over the node rows (one activation input) — the windows' blocks and the body's three runs

The kernel sweeps 10 row blocks. Two (1,128) scratch rows carry the running column sum and the running
column sum of squares of the linear layer's output from one grid point to the next: the first point zeroes them
before accumulating, every point adds its block's column sums, and the last point turns the totals into
the mean and the (clamped) variance, which it stores into the two output windows. The outputs' block
index is constant, so only the last point writes them back; at every other point the output windows
are idle and their staging buffers are handed back as found.

Everything is stated at a parameter `V`: the TensorCore's buffer contents when the region is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current staging buffer holds its block at every point, fetched there or not: unfetched,
    the block index has not moved. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's two branch conditions, over the grid -/

/-- The first conditional (zero the accumulators) is taken at the first point only. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

/-- The second conditional (finish: mean and variance) is taken at the last point only. -/
abbrev cond6_1 (i : grid6.Coords) : Prop := k6_cond2 i = 1#1
theorem hcond6_1 : ∀ t : Fin cfg6.N, cond6_1 (grid6.coords t) ↔ t.val = 9 :=
  (by decide +kernel : ∀ t : Fin grid6.N, cond6_1 (grid6.coords t) ↔ t.val = 9)

/-! ## Where the windows are idle, and where the outputs are written back -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- Away from the last point the two outputs are idle and are not written back. -/
theorem idleAt6_3 : ∀ t : Fin cfg6.N, ¬cond6_1 (grid6.coords t) → cfg6.idle 3 (grid6.coords t) = true := by decide +kernel
theorem idleAt6_4 : ∀ t : Fin cfg6.N, ¬cond6_1 (grid6.coords t) → cfg6.idle 4 (grid6.coords t) = true := by decide +kernel
theorem noFlush6_3 : ∀ t : Fin cfg6.N, ¬cond6_1 (grid6.coords t) → (cfg6.win 3).flush t = false := by decide +kernel
theorem noFlush6_4 : ∀ t : Fin cfg6.N, ¬cond6_1 (grid6.coords t) → (cfg6.win 4).flush t = false := by decide +kernel
/-- At the last point they are live. -/
theorem liveAt6_3 : ∀ t : Fin cfg6.N, cond6_1 (grid6.coords t) → cfg6.idle 3 (grid6.coords t) = false := by decide +kernel
theorem liveAt6_4 : ∀ t : Fin cfg6.N, cond6_1 (grid6.coords t) → cfg6.idle 4 (grid6.coords t) = false := by decide +kernel

/-! ## The staging memrefs at a point, and the two scratch rows -/

abbrev ms6_0 (t : Fin cfg6.N) : Memref sig .tc .vmem S5000x128 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
/-- The running column sum and the running column sum of squares: whole scoped buffers of the kernel's own. -/
abbrev scM6_0 : Memref sig .tc .vmem S1x128 .f32 := Memref.whole cc6_scratch0
abbrev scM6_1 : Memref sig .tc .vmem S1x128 .f32 := Memref.whole cc6_scratch1

/-- The region invariant of a kernel that describes nothing (every scoped buffer no window stages at some
    contents, the generator register at some state), with the two scratch rows taken out of the scoped rest. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The body's run, case by case

Every load and store of the body goes through the whole staging buffer (the unit rectangle at zero offsets), so a load
reads the contents and a store leaves its payload. -/

theorem off00_6 : (![0, 0] : Fin 2 → Nat) = fun _ => 0 := by funext a; fin_cases a <;> rfl

/-- A load through the whole buffer reads its contents. -/
theorem readAt_whole6 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store through the whole buffer, last, leaves its payload whatever the earlier stores were. -/
theorem read_writes_whole6 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 4000000 in
/-- THE FIRST point (the zeroing conditional taken, the finishing one not): whatever the two scratch rows held, the running
    sum becomes the block's column sums over the zero row, the running sum of squares the block's column sums of squares
    over the zero row; the inputs and the two idle outputs are left as found. -/
theorem kernelRun6_first (c : Dev nD) (i : grid6.Coords)
    (arg1 : Memref sig .tc .vmem S5000x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole) (hc0 : cond6_0 i) (hc1 : ¬cond6_1 i)
    (x0 : Vec F S5000x128 .bf16) (x1 : Vec F S128x128 .f32) (x2 : Vec F S1x128 .f32) (xi0 xi1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi0 ∗ owns (c : Thread nD τ) arg5 fullShare xi1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi0 ∗ owns (c : Thread nD τ) arg5 fullShare xi1
            ∗ owns (c : Thread nD τ) arg6 fullShare (k6_pay4 x2 x0 x1 k6_pay2) ∗ owns (c : Thread nD τ) arg7 fullShare (k6_pay5 x2 x0 x1 k6_pay3)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%fo0, %hfo0, HO0⟩, ⟨%fo1, %hfo1, HO1⟩, ⟨%ds0, %fs0, -, HS0⟩, ⟨%ds1, %fs1, -, HS1⟩, Hk⟩
  subst hf0; subst hf1; subst hf2; subst hfo0; subst hfo1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole6 arg6.view fs0 off00_6]
    try sl_unfold_run_names
    rw [View.readCov_unit_zero arg6.view off00_6, readAt_whole6 arg1.view f0 off00_6, readAt_whole6 arg2.view f1 off00_6, readAt_whole6 arg3.view f2 off00_6]
    try rfl
  iexists _; isplitr
  swap; · iexact HS1
  ipureintro
  try sl_unfold_run_names
  rw [read_writes_whole6 arg7.view fs1 off00_6]
  try sl_unfold_run_names
  rw [View.readCov_unit_zero arg7.view off00_6, readAt_whole6 arg1.view f0 off00_6, readAt_whole6 arg2.view f1 off00_6, readAt_whole6 arg3.view f2 off00_6]
  try rfl

set_option maxHeartbeats 4000000 in
/-- A MIDDLE point (neither conditional taken): the inputs and the two idle outputs are left as found; the running sum
    and the running sum of squares advance by the block's column sums. -/
theorem kernelRun6_mid (c : Dev nD) (i : grid6.Coords)
    (arg1 : Memref sig .tc .vmem S5000x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole) (hc0 : ¬cond6_0 i) (hc1 : ¬cond6_1 i)
    (x0 : Vec F S5000x128 .bf16) (x1 : Vec F S128x128 .f32) (x2 : Vec F S1x128 .f32) (xi0 xi1 s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi0 ∗ owns (c : Thread nD τ) arg5 fullShare xi1
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare xi0 ∗ owns (c : Thread nD τ) arg5 fullShare xi1
            ∗ owns (c : Thread nD τ) arg6 fullShare (k6_pay4 x2 x0 x1 s0) ∗ owns (c : Thread nD τ) arg7 fullShare (k6_pay5 x2 x0 x1 s1)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%fo0, %hfo0, HO0⟩, ⟨%fo1, %hfo1, HO1⟩, ⟨%fs0, %hfs0, HS0⟩, ⟨%fs1, %hfs1, HS1⟩, Hk⟩
  subst hf0; subst hf1; subst hf2; subst hfo0; subst hfo1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO0]
  · iexists fo0; isplitr; · ipureintro; rfl
    iexact HO0
  isplitl [HO1]
  · iexists fo1; isplitr; · ipureintro; rfl
    iexact HO1
  isplitl [HS0]
  · iexists _; isplitr
    swap; · iexact HS0
    ipureintro
    try sl_unfold_run_names
    rw [read_writes_whole6 arg6.view fs0 off00_6]
    try sl_unfold_run_names
    rw [readAt_whole6 arg1.view f0 off00_6, readAt_whole6 arg2.view f1 off00_6, readAt_whole6 arg3.view f2 off00_6, readAt_whole6 arg6.view fs0 off00_6]
    try rfl
  iexists _; isplitr
  swap; · iexact HS1
  ipureintro
  try sl_unfold_run_names
  rw [read_writes_whole6 arg7.view fs1 off00_6]
  try sl_unfold_run_names
  rw [readAt_whole6 arg1.view f0 off00_6, readAt_whole6 arg2.view f1 off00_6, readAt_whole6 arg3.view f2 off00_6, readAt_whole6 arg7.view fs1 off00_6]
  try rfl

set_option maxHeartbeats 4000000 in
/-- THE LAST point (the finishing conditional taken, the zeroing one not): the accumulators advance as at a middle point,
    and the two outputs, whatever they held, are left at the mean and the variance computed from the final totals. -/
theorem kernelRun6_last (c : Dev nD) (i : grid6.Coords)
    (arg1 : Memref sig .tc .vmem S5000x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole) (hc0 : ¬cond6_0 i) (hc1 : cond6_1 i)
    (x0 : Vec F S5000x128 .bf16) (x1 : Vec F S128x128 .f32) (x2 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k6_pay6 (k6_pay4 x2 x0 x1 s0)) ∗ owns (c : Thread nD τ) arg5 fullShare (k6_pay7 (k6_pay4 x2 x0 x1 s0) (k6_pay5 x2 x0 x1 s1))
            ∗ owns (c : Thread nD τ) arg6 fullShare (k6_pay4 x2 x0 x1 s0) ∗ owns (c : Thread nD τ) arg7 fullShare (k6_pay5 x2 x0 x1 s1)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%d3, %fo0, -, HO0⟩, ⟨%d4, %fo1, -, HO1⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO0]
  · iexists _; isplitr
    swap; · iexact HO0
    ipureintro
    try sl_unfold_run_names
    rw [read_writes_whole6 arg4.view fo0 off00_6]
    try sl_unfold_run_names
    rw [View.readCov_unit_zero arg6.view off00_6, readAt_whole6 arg1.view f0 off00_6, readAt_whole6 arg2.view f1 off00_6, readAt_whole6 arg3.view f2 off00_6, readAt_whole6 arg6.view fs0 off00_6]
    try rfl
  isplitl [HO1]
  · iexists _; isplitr
    swap; · iexact HO1
    ipureintro
    try sl_unfold_run_names
    rw [read_writes_whole6 arg5.view fo1 off00_6]
    try sl_unfold_run_names
    rw [View.readCov_unit_zero arg6.view off00_6, View.readCov_unit_zero arg7.view off00_6, readAt_whole6 arg1.view f0 off00_6, readAt_whole6 arg2.view f1 off00_6, readAt_whole6 arg3.view f2 off00_6, readAt_whole6 arg6.view fs0 off00_6, readAt_whole6 arg7.view fs1 off00_6]
    try rfl
  isplitl [HS0]
  · iexists _; isplitr
    swap; · iexact HS0
    ipureintro
    try sl_unfold_run_names
    rw [read_writes_whole6 arg6.view fs0 off00_6]
    try sl_unfold_run_names
    rw [readAt_whole6 arg1.view f0 off00_6, readAt_whole6 arg2.view f1 off00_6, readAt_whole6 arg3.view f2 off00_6, readAt_whole6 arg6.view fs0 off00_6]
    try rfl
  iexists _; isplitr
  swap; · iexact HS1
  ipureintro
  try sl_unfold_run_names
  rw [read_writes_whole6 arg7.view fs1 off00_6]
  try sl_unfold_run_names
  rw [readAt_whole6 arg1.view f0 off00_6, readAt_whole6 arg2.view f1 off00_6, readAt_whole6 arg3.view f2 off00_6, readAt_whole6 arg7.view fs1 off00_6]
  try rfl

end Cert.KernelIdeal.Hand

end
-- ==== Proof.KI.Stats6.lean ====
import proofs.«110491_j38809324487019_2_alg».proof.Proof.KI.Stats6Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 6, the statistics kernel: the accumulators, the proof data, the body obligation, the outputs

Over the three runs of the body (first, middle, last point): the running column sum and sum of squares after each point
by recursion on the point, the region's invariant carrying the two scratch rows at them, the proof data, the body
obligation, the invariant at the region's two ends, and the two output arrays after the region: the mean and the
variance computed from the totals after the last point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The accumulators, point by point -/

/-- The running column sum after point `n`: the first point accumulates onto the zeroed row, each later
    point onto what the point before left. -/
def accSum6 (c : Dev nD) : (n : ℕ) → n < cfg6.N → Vec F S1x128 .f32
  | 0, hn => k6_pay4 (iblk6 V c 2 ⟨0, hn⟩) (iblk6 V c 0 ⟨0, hn⟩) (iblk6 V c 1 ⟨0, hn⟩) k6_pay2
  | n + 1, hn => k6_pay4 (iblk6 V c 2 ⟨n + 1, hn⟩) (iblk6 V c 0 ⟨n + 1, hn⟩) (iblk6 V c 1 ⟨n + 1, hn⟩) (accSum6 c n (Nat.lt_of_succ_lt hn))

/-- The running column sum of squares after point `n`. -/
def accSq6 (c : Dev nD) : (n : ℕ) → n < cfg6.N → Vec F S1x128 .f32
  | 0, hn => k6_pay5 (iblk6 V c 2 ⟨0, hn⟩) (iblk6 V c 0 ⟨0, hn⟩) (iblk6 V c 1 ⟨0, hn⟩) k6_pay3
  | n + 1, hn => k6_pay5 (iblk6 V c 2 ⟨n + 1, hn⟩) (iblk6 V c 0 ⟨n + 1, hn⟩) (iblk6 V c 1 ⟨n + 1, hn⟩) (accSq6 c n (Nat.lt_of_succ_lt hn))

theorem accSum6_zero (c : Dev nD) (t : Fin cfg6.N) (h : t.val = 0) :
    accSum6 V c t.val t.isLt = k6_pay4 (iblk6 V c 2 t) (iblk6 V c 0 t) (iblk6 V c 1 t) k6_pay2 := by
  obtain ⟨n, hn⟩ := t; subst h; rfl

theorem accSum6_pos (c : Dev nD) (t : Fin cfg6.N) (h : t.val ≠ 0) :
    accSum6 V c t.val t.isLt = k6_pay4 (iblk6 V c 2 t) (iblk6 V c 0 t) (iblk6 V c 1 t) (accSum6 V c (t.val - 1) (Nat.lt_of_le_of_lt (Nat.sub_le _ _) t.isLt)) := by
  obtain ⟨n, hn⟩ := t
  cases n with
  | zero => exact absurd rfl h
  | succ n => rfl

theorem accSq6_zero (c : Dev nD) (t : Fin cfg6.N) (h : t.val = 0) :
    accSq6 V c t.val t.isLt = k6_pay5 (iblk6 V c 2 t) (iblk6 V c 0 t) (iblk6 V c 1 t) k6_pay3 := by
  obtain ⟨n, hn⟩ := t; subst h; rfl

theorem accSq6_pos (c : Dev nD) (t : Fin cfg6.N) (h : t.val ≠ 0) :
    accSq6 V c t.val t.isLt = k6_pay5 (iblk6 V c 2 t) (iblk6 V c 0 t) (iblk6 V c 1 t) (accSq6 V c (t.val - 1) (Nat.lt_of_le_of_lt (Nat.sub_le _ _) t.isLt)) := by
  obtain ⟨n, hn⟩ := t
  cases n with
  | zero => exact absurd rfl h
  | succ n => rfl

/-- The mean and the variance the last point computes from the totals (what the two output windows' staging buffers
    hold after the body at a point, were it the last: consulted at the last point only). -/
def mean6At (c : Dev nD) (t : Fin cfg6.N) : Vec F S1x128 .f32 := k6_pay6 (accSum6 V c t.val t.isLt)
def var6At (c : Dev nD) (t : Fin cfg6.N) : Vec F S1x128 .f32 := k6_pay7 (accSum6 V c t.val t.isLt) (accSq6 V c t.val t.isLt)

/-! ## The region invariant -/

/-- The scoped buffers that are neither a staging buffer of this region nor its two scratch rows, each at some contents. -/
abbrev restBut6 (c : Dev nD) : sProp 𝕄 :=
  Pipeline.scopedRestBut (Ix := Unit) (Name := ℕ) (U := UR sig nD τ) (Lvl := ℕ) (Val := Elt F) spec6 c [cc6_scratch0, cc6_scratch1]

/-- Before the first point: every scoped buffer no window stages at some contents, the generator register at some state.
    After point `n`: the two scratch rows at the running sum and the running sum of squares, the other scoped buffers at
    some contents, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (accSum6 V c n hn) ∗ owns (c : Thread nD τ) scM6_1 fullShare (accSq6 V c n hn))
      ∗ restBut6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accSum6 V c n hn) ∗ owns (c : Thread nD τ) scM6_1 fullShare (accSq6 V c n hn))
      ∗ restBut6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (accSum6 V c (n - 1) (by omega)) ∗ owns (c : Thread nD τ) scM6_1 fullShare (accSq6 V c (n - 1) (by omega)))
      ∗ restBut6 c) ∗ (∃ r, prngReg c r)) := by
  cases n with
  | zero => exact absurd rfl hz
  | succ n => rfl

/-! ## The proof data -/

/-- The proof data of the region on core `c`: the arrays as the region finds them; after the body at point `t` each
    input's buffer at its block, the two outputs' at the mean and variance of the totals so far (read at the last point
    only: elsewhere the windows are idle); the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => mean6At V c t
    | ⟨4, _⟩ => var6At V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem owed6 (c : Dev nD) (t : Fin (cfg6.N + 1)) : (dat6 V c).owed t = 0 := rfl
theorem recorded6 (c : Dev nD) (t : Fin (cfg6.N + 1)) : (dat6 V c).recorded t = Set.univ := rfl
theorem share6 (c : Dev nD) (w : Fin cfg6.W) : (dat6 V c).share w = fullShare :=
  (dat6 V c).share_full (fun _ => rfl) w

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = mean6At V c t := by dsimp only [dat6]
theorem after6_4 (c : Dev nD) (t : Fin cfg6.N) : (dat6 V c).after 4 t = var6At V c t := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

theorem PhiS6_castSucc (c : Dev nD) (t : Fin cfg6.N) :
    (dat6 V c).Φ t.castSucc = PhiS6 V c t.val (Nat.le_of_lt t.isLt) := by
  dsimp only [dat6]; simp only [Fin.coe_castSucc]

/-- The input arrays are never written. -/
theorem arrIn6_0 (c : Dev nD) (t : ℕ) : (dat6 V c).arrAt 0 t = (dat6 V c).A 0 := (dat6 V c).arrAt_in 0 rfl t
theorem arrIn6_1 (c : Dev nD) (t : ℕ) : (dat6 V c).arrAt 1 t = (dat6 V c).A 1 := (dat6 V c).arrAt_in 1 rfl t
theorem arrIn6_2 (c : Dev nD) (t : ℕ) : (dat6 V c).arrAt 2 t = (dat6 V c).A 2 := (dat6 V c).arrAt_in 2 rfl t

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point. The inputs' staging buffers hold their blocks; the point is the first, the last or a middle
    one; the invariant hands the body the two scratch rows at what the point before left (at anything at the first point)
    and takes them back at this point's totals; away from the last point the two outputs are handed back as found, at the
    last they hold the mean and the variance of the totals. The core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
      unfold Dat.leavesExact; rw [liveAt6_0 t], after6_0]
  rw [show (dat6 V c).leavesExact 1 t = owns (c : Thread nD τ) (ms6_1 t) fullShare ((dat6 V c).after 1 t) from by
      unfold Dat.leavesExact; rw [liveAt6_1 t], after6_1]
  rw [show (dat6 V c).leavesExact 2 t = owns (c : Thread nD τ) (ms6_2 t) fullShare ((dat6 V c).after 2 t) from by
      unfold Dat.leavesExact; rw [liveAt6_2 t], after6_2]
  by_cases h0 : t.val = 0
  · have h1 : ¬t.val = 9 := by omega
    rw [Dat.leavesExact_idle (dat6 V c) 3 t (idleAt6_3 t (fun h => h1 ((hcond6_1 t).mp h))) (noFlush6_3 t (fun h => h1 ((hcond6_1 t).mp h)))]
    rw [Dat.leavesExact_idle (dat6 V c) 4 t (idleAt6_4 t (fun h => h1 ((hcond6_1 t).mp h))) (noFlush6_4 t (fun h => h1 ((hcond6_1 t).mp h)))]
    rw [accSum6_zero V c t h0, accSq6_zero V c t h0]
    rw [PhiS6_castSucc V c t, PhiS6_zero V c _ _ h0, PhiA6_eq]
    iintro ⟨⟨⟨⟨HS0, HS1⟩, Hrest⟩, Hg⟩, Ho, ⟨%d0, H0⟩, ⟨%d1, H1⟩, ⟨%d2, H2⟩, ⟨%do0, HO0⟩, ⟨%do1, HO1⟩⟩
    iapply (kernelRun6_first c (grid6.coords t) _ _ _ _ _ _ _ _ _ _ _ _ _ _ ((hcond6_0 t).mpr h0) (fun h => h1 ((hcond6_1 t).mp h))
      (iblk6 V c 0 t) (iblk6 V c 1 t) (iblk6 V c 2 t) _ _ Set.univ _)
    isplitl [H0]; · iexact H0
    isplitl [H1]; · iexact H1
    isplitl [H2]; · iexact H2
    isplitl [HO0]; · iexact HO0
    isplitl [HO1]; · iexact HO1
    isplitl [HS0]; · iexact HS0
    isplitl [HS1]; · iexact HS1
    iintro ⟨H0, H1, H2, HO0, HO1, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [HO0]; · iexists _; iexact HO0
    iexists _; iexact HO1
  · by_cases h1 : t.val = 9
    · rw [show (dat6 V c).leavesExact 3 t = owns (c : Thread nD τ) (ms6_3 t) fullShare ((dat6 V c).after 3 t) from by
        unfold Dat.leavesExact; rw [liveAt6_3 t ((hcond6_1 t).mpr h1)], after6_3]
      rw [show (dat6 V c).leavesExact 4 t = owns (c : Thread nD τ) (ms6_4 t) fullShare ((dat6 V c).after 4 t) from by
        unfold Dat.leavesExact; rw [liveAt6_4 t ((hcond6_1 t).mpr h1)], after6_4]
      unfold mean6At var6At
      rw [accSum6_pos V c t h0, accSq6_pos V c t h0]
      rw [PhiS6_castSucc V c t, PhiS6_pos V c _ _ h0]
      iintro ⟨⟨⟨⟨HS0, HS1⟩, Hrest⟩, Hg⟩, Ho, ⟨%d0, H0⟩, ⟨%d1, H1⟩, ⟨%d2, H2⟩, ⟨%do0, HO0⟩, ⟨%do1, HO1⟩⟩
      iapply (kernelRun6_last c (grid6.coords t) _ _ _ _ _ _ _ _ _ _ _ _ _ _ (fun h => h0 ((hcond6_0 t).mp h)) ((hcond6_1 t).mpr h1)
        (iblk6 V c 0 t) (iblk6 V c 1 t) (iblk6 V c 2 t) _ _ Set.univ _)
      isplitl [H0]; · iexact H0
      isplitl [H1]; · iexact H1
      isplitl [H2]; · iexact H2
      isplitl [HO0]; · iexists _; iexact HO0
      isplitl [HO1]; · iexists _; iexact HO1
      isplitl [HS0]; · iexact HS0
      isplitl [HS1]; · iexact HS1
      iintro ⟨H0, H1, H2, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [HO0]; · iexact HO0
      iexact HO1
    · rw [Dat.leavesExact_idle (dat6 V c) 3 t (idleAt6_3 t (fun h => h1 ((hcond6_1 t).mp h))) (noFlush6_3 t (fun h => h1 ((hcond6_1 t).mp h)))]
      rw [Dat.leavesExact_idle (dat6 V c) 4 t (idleAt6_4 t (fun h => h1 ((hcond6_1 t).mp h))) (noFlush6_4 t (fun h => h1 ((hcond6_1 t).mp h)))]
      rw [accSum6_pos V c t h0, accSq6_pos V c t h0]
      rw [PhiS6_castSucc V c t, PhiS6_pos V c _ _ h0]
      iintro ⟨⟨⟨⟨HS0, HS1⟩, Hrest⟩, Hg⟩, Ho, ⟨%d0, H0⟩, ⟨%d1, H1⟩, ⟨%d2, H2⟩, ⟨%do0, HO0⟩, ⟨%do1, HO1⟩⟩
      iapply (kernelRun6_mid c (grid6.coords t) _ _ _ _ _ _ _ _ _ _ _ _ _ _ (fun h => h0 ((hcond6_0 t).mp h)) (fun h => h1 ((hcond6_1 t).mp h))
        (iblk6 V c 0 t) (iblk6 V c 1 t) (iblk6 V c 2 t) _ _ _ _ Set.univ _)
      isplitl [H0]; · iexact H0
      isplitl [H1]; · iexact H1
      isplitl [H2]; · iexact H2
      isplitl [HO0]; · iexact HO0
      isplitl [HO1]; · iexact HO1
      isplitl [HS0]; · iexact HS0
      isplitl [HS1]; · iexact HS1
      iintro ⟨H0, H1, H2, HO0, HO1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [HO0]; · iexists _; iexact HO0
      iexists _; iexact HO1

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- What the launch hands the region is the invariant before the first point. -/
theorem PhiIn6 (c : Dev nD) : Pipeline.ΦA spec6 c ⊢ (dat6 V c).Φ 0 := by
  rw [show (dat6 V c).Φ 0 = PhiS6 V c 0 (Nat.zero_le _) from rfl, PhiS6_zero V c 0 _ rfl]

/-- After the last point the invariant gives it back: the two scratch rows' named contents are forgotten. -/
theorem PhiOut6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-! ## What the region leaves in the two output arrays

The one write-back of each output, at the last point, writes the whole array: block (0, 0) of the [1,128] array read
through zero offsets is the array, and the last point's block covers it. -/

/-- The last point. -/
def tLast6 : Fin cfg6.N := ⟨9, by rw [show cfg6.N = 10 from N_6]; decide⟩

/-- The mean and the variance of the totals after the last point, as contents of the two result arrays (each array is
    its window's one block). -/
abbrev mean6Res (c : Dev nD) : Buf (Elt F) ((c : Thread nD τ).loc main_v46_0) := mean6At V c tLast6
abbrev var6Res (c : Dev nD) : Buf (Elt F) ((c : Thread nD τ).loc main_v46_1) := var6At V c tLast6

theorem flushed6_3_eq (c : Dev nD) (t : Fin cfg6.N) (hf : (cfg6.win 3).flush t = true) :
    (dat6 V c).flushed 3 t = ((cfg6.win 3).blk t).view.read (Elt F) (mean6Res V c) := by
  have hN : cfg6.N = 10 := N_6
  have h3 : t.val = 9 := by have := (flush6_3 t).mp hf; have := t.isLt; omega
  obtain rfl : t = tLast6 := Fin.ext h3
  show (cfg6.win 3).cut (grid6.coords tLast6) ((dat6 V c).after 3 tLast6) = _
  rw [after6_3]
  have hz' : (fun a => win6_3.index tLast6 a * main_v46_0.ty.shape.size a) = fun _ => 0 := funext fun a => by fin_cases a <;> decide +kernel
  exact (Memref.read_access_unit_zero (Elt F) main_v46_0 hz' (fun a => by rw [congrFun hz' a]; simp) (mean6Res V c)).symm

theorem mean6 (c : Dev nD) : (dat6 V c).arrAt 3 cfg6.N = mean6Res V c :=
  (dat6 V c).arrAt_eq_of_cover 3 (mean6Res V c) (flushed6_3_eq V c) fun i =>
    ⟨tLast6, (flush6_3 tLast6).mpr rfl, by
      show i ∈ ((View.whole main_v46_0).slice (win6_3.rect tLast6)).set
      rw [View.set_slice_whole, Rect.mem_set_unit]
      intro a
      have h0 : (i 0 : Nat) < 1 := (i 0).isLt
      have h1 : (i 1 : Nat) < 128 := (i 1).isLt
      match a with
      | ⟨0, _⟩ => show win6_3.index tLast6 0 * win6_3.size 0 ≤ (i 0 : Nat) ∧ (i 0 : Nat) < win6_3.index tLast6 0 * win6_3.size 0 + win6_3.xsize (grid6.coords tLast6) 0
                  rw [show win6_3.index tLast6 0 * win6_3.size 0 = 0 from by decide +kernel, show win6_3.xsize (grid6.coords tLast6) 0 = 1 from by decide +kernel]; omega
      | ⟨1, _⟩ => show win6_3.index tLast6 1 * win6_3.size 1 ≤ (i 1 : Nat) ∧ (i 1 : Nat) < win6_3.index tLast6 1 * win6_3.size 1 + win6_3.xsize (grid6.coords tLast6) 1
                  rw [show win6_3.index tLast6 1 * win6_3.size 1 = 0 from by decide +kernel, show win6_3.xsize (grid6.coords tLast6) 1 = 128 from by decide +kernel]; omega⟩

theorem flushed6_4_eq (c : Dev nD) (t : Fin cfg6.N) (hf : (cfg6.win 4).flush t = true) :
    (dat6 V c).flushed 4 t = ((cfg6.win 4).blk t).view.read (Elt F) (var6Res V c) := by
  have hN : cfg6.N = 10 := N_6
  have h3 : t.val = 9 := by have := (flush6_4 t).mp hf; have := t.isLt; omega
  obtain rfl : t = tLast6 := Fin.ext h3
  show (cfg6.win 4).cut (grid6.coords tLast6) ((dat6 V c).after 4 tLast6) = _
  rw [after6_4]
  have hz' : (fun a => win6_4.index tLast6 a * main_v46_1.ty.shape.size a) = fun _ => 0 := funext fun a => by fin_cases a <;> decide +kernel
  exact (Memref.read_access_unit_zero (Elt F) main_v46_1 hz' (fun a => by rw [congrFun hz' a]; simp) (var6Res V c)).symm

theorem var6 (c : Dev nD) : (dat6 V c).arrAt 4 cfg6.N = var6Res V c :=
  (dat6 V c).arrAt_eq_of_cover 4 (var6Res V c) (flushed6_4_eq V c) fun i =>
    ⟨tLast6, (flush6_4 tLast6).mpr rfl, by
      show i ∈ ((View.whole main_v46_1).slice (win6_4.rect tLast6)).set
      rw [View.set_slice_whole, Rect.mem_set_unit]
      intro a
      have h0 : (i 0 : Nat) < 1 := (i 0).isLt
      have h1 : (i 1 : Nat) < 128 := (i 1).isLt
      match a with
      | ⟨0, _⟩ => show win6_4.index tLast6 0 * win6_4.size 0 ≤ (i 0 : Nat) ∧ (i 0 : Nat) < win6_4.index tLast6 0 * win6_4.size 0 + win6_4.xsize (grid6.coords tLast6) 0
                  rw [show win6_4.index tLast6 0 * win6_4.size 0 = 0 from by decide +kernel, show win6_4.xsize (grid6.coords tLast6) 0 = 1 from by decide +kernel]; omega
      | ⟨1, _⟩ => show win6_4.index tLast6 1 * win6_4.size 1 ≤ (i 1 : Nat) ∧ (i 1 : Nat) < win6_4.index tLast6 1 * win6_4.size 1 + win6_4.xsize (grid6.coords tLast6) 1
                  rw [show win6_4.index tLast6 1 * win6_4.size 1 = 0 from by decide +kernel, show win6_4.xsize (grid6.coords tLast6) 1 = 128 from by decide +kernel]; omega⟩

end Cert.KernelIdeal.Hand

end
-- ==== Proof.KI.Apply1.lean ====
import proofs.«110491_j38809324487019_2_alg».proof.Proof.Gen.KernelIdeal.Launch
import proofs.«110491_j38809324487019_2_alg».proof.Proof.Gen.KernelIdeal.Skeleton
import proofs.«110491_j38809324487019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: `cc1_kernel` (pipeline 1), at the entry contents `V`

The second half of a fused Linear + BatchNorm + ReLU stage: each grid point takes one block of 6400 rows of each of the two f32 activations (windows 0, 1), the two whole 128×128 weights (windows 2, 3)
and five 1×128 rows — bias, scale, shift, and the batch mean and variance the preceding region computed — and writes
the block of the bf16 result (window 9): `bf16(relu(((b + x₀ · w₀ + x₁ · w₁) − mean) · rsqrt(var + ε) · g + be))`, each product
with operands rounded to bf16 and accumulated in f32.
The points are independent: nothing is carried from one to the next.
-/

/-! ## The windows' blocks -/

/-- Window `w`'s block at point `t`: the rectangle of its array, as the region finds it (`V`), that the window's
    index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (where it did not, the block index has not moved since the last fetch), for any proof data whose array is
    `V`'s and whose body leaves the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there or
    not (where it did not, the block index has not moved since the last fetch), for any proof data whose array is
    `V`'s and whose body leaves the block in place; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there or
    not (where it did not, the block index has not moved since the last fetch), for any proof data whose array is
    `V`'s and whose body leaves the block in place; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there or
    not (where it did not, the block index has not moved since the last fetch), for any proof data whose array is
    `V`'s and whose body leaves the block in place; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched it there or
    not (where it did not, the block index has not moved since the last fetch), for any proof data whose array is
    `V`'s and whose body leaves the block in place; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether the pipeline fetched it there or
    not (where it did not, the block index has not moved since the last fetch), for any proof data whose array is
    `V`'s and whose body leaves the block in place; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, whether the pipeline fetched it there or
    not (where it did not, the block index has not moved since the last fetch), for any proof data whose array is
    `V`'s and whose body leaves the block in place; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, whether the pipeline fetched it there or
    not (where it did not, the block index has not moved since the last fetch), for any proof data whose array is
    `V`'s and whose body leaves the block in place; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, whether the pipeline fetched it there or
    not (where it did not, the block index has not moved since the last fetch), for any proof data whose array is
    `V`'s and whose body leaves the block in place; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole buffer -/

abbrev r1_S6400x128 : Rect S6400x128 := Rect.unit (s := S6400x128) ![0, 0] S6400x128.size inb_S6400x128_S6400x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-! ## What the body leaves in each output window's buffer -/

/-- Window 9's staging buffer after the body, from the input windows' blocks: the body's one store, of the whole
    buffer, of the normalized sum of the two products (the skeleton's payload `k1_pay2` of the nine blocks loaded),
    rectified against zero and rounded to bf16 (`k1_pay1`). -/
def out1_9 (x0 : Vec F S6400x128 .f32) (x1 : Vec F S6400x128 .f32) (x2 : Vec F S128x128 .f32) (x3 : Vec F S128x128 .f32) (x4 : Vec F S1x128 .f32) (x5 : Vec F S1x128 .f32) (x6 : Vec F S1x128 .f32) (x7 : Vec F S1x128 .f32) (x8 : Vec F S1x128 .f32) : Vec F S6400x128 .bf16 :=
  View.canon [⟨r1_S6400x128, k1_pay1 (k1_pay2 (View.ld x4 r1_S1x128) (View.ld x0 r1_S6400x128) (View.ld x2 r1_S128x128) (View.ld x1 r1_S6400x128) (View.ld x3 r1_S128x128) (View.ld x7 r1_S1x128) (View.ld x8 r1_S1x128) (View.ld x5 r1_S1x128) (View.ld x6 r1_S1x128)) (Scalar.ofBits .f32 0x00000000#32)⟩]

/-- The one store is of the whole buffer, so it covers it. -/
theorem cover1_9 (p0 : Vec F S6400x128 .bf16) (y : S6400x128.Idx) :
    ∃ pc ∈ ([⟨r1_S6400x128, p0⟩] : List (View.Piece (Elt F) S6400x128 .bf16)), y ∈ pc.1.set :=
  View.cover_of_tiled [⟨r1_S6400x128, p0⟩] S6400x128.size (by rfl) y

/-! ## The body's triple -/

set_option maxHeartbeats 1000000 in
/-- The kernel body on whole staging memrefs — the inputs' at contents `xW`, the outputs' at anything — runs to the
    continuation holding the inputs' as they were and each output's at `out1_W` of the inputs': the printed
    functions are their skeletons, a sequence of whole-buffer loads and stores, which is run symbolically. -/
theorem sound_kernel1 (c : Dev nD) (E : Set ℕ) (i : grid1.Coords) (arg1 : Memref sig .tc .vmem S6400x128 .f32) (harg1 : arg1.IsWhole) (arg2 : Memref sig .tc .vmem S6400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S6400x128 .bf16) (harg10 : arg10.IsWhole)
    (x0 : Vec F S6400x128 .f32) (x1 : Vec F S6400x128 .f32) (x2 : Vec F S128x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  sl_unfold [cc1_kernel, k1_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t`
    each input's buffer at its block and each output's at `out1_W` of the input blocks; the invariant is that the scoped
    rest and the generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The proof data's other fields, as the region's segment record reads them -/

/-- Every array is held at the full share. -/
theorem share1 (c : Dev nD) (w : Fin cfg1.W) : (dat1 V c).share w = fullShare :=
  (dat1 V c).share_full (fun _ => rfl) w

/-- The core owes nothing, before or after any point, -/
theorem owed1 (c : Dev nD) (t : Fin (cfg1.N + 1)) : (dat1 V c).owed t = 0 := rfl

/-- and no bound is put on the waits recorded. -/
theorem recorded1 (c : Dev nD) (t : Fin (cfg1.N + 1)) : (dat1 V c).recorded t = Set.univ := rfl

/-- The invariant at the first point is the class's: the scoped rest and the generator register, -/
theorem PhiIn1 (c : Dev nD) : (Pipeline.ΦA spec1 c : sProp 𝕄) ⊢ (dat1 V c).Φ 0 := by
  rw [show (dat1 V c).Φ 0 = Pipeline.ΦA spec1 c from rfl]

/-- and so it is after the last. -/
theorem PhiOut1 (c : Dev nD) : (dat1 V c).Φ (Fin.last cfg1.N) ⊢ (Pipeline.ΦA spec1 c : sProp 𝕄) := by
  rw [show (dat1 V c).Φ (Fin.last cfg1.N) = Pipeline.ΦA spec1 c from rfl]

/-- An input window's array is never written back: after any number of points it is as the region found it. -/
theorem arrIn1_0 (c : Dev nD) (t : ℕ) : (dat1 V c).arrAt 0 t = (dat1 V c).A 0 := (dat1 V c).arrAt_in 0 rfl t
theorem arrIn1_1 (c : Dev nD) (t : ℕ) : (dat1 V c).arrAt 1 t = (dat1 V c).A 1 := (dat1 V c).arrAt_in 1 rfl t
theorem arrIn1_2 (c : Dev nD) (t : ℕ) : (dat1 V c).arrAt 2 t = (dat1 V c).A 2 := (dat1 V c).arrAt_in 2 rfl t
theorem arrIn1_3 (c : Dev nD) (t : ℕ) : (dat1 V c).arrAt 3 t = (dat1 V c).A 3 := (dat1 V c).arrAt_in 3 rfl t
theorem arrIn1_4 (c : Dev nD) (t : ℕ) : (dat1 V c).arrAt 4 t = (dat1 V c).A 4 := (dat1 V c).arrAt_in 4 rfl t
theorem arrIn1_5 (c : Dev nD) (t : ℕ) : (dat1 V c).arrAt 5 t = (dat1 V c).A 5 := (dat1 V c).arrAt_in 5 rfl t
theorem arrIn1_6 (c : Dev nD) (t : ℕ) : (dat1 V c).arrAt 6 t = (dat1 V c).A 6 := (dat1 V c).arrAt_in 6 rfl t
theorem arrIn1_7 (c : Dev nD) (t : ℕ) : (dat1 V c).arrAt 7 t = (dat1 V c).A 7 := (dat1 V c).arrAt_in 7 rfl t
theorem arrIn1_8 (c : Dev nD) (t : ℕ) : (dat1 V c).arrAt 8 t = (dat1 V c).A 8 := (dat1 V c).arrAt_in 8 rfl t

end Cert.KernelIdeal.Hand

end
-- ==== Proof.KI.Apply3.lean ====
import proofs.«110491_j38809324487019_2_alg».proof.Proof.Gen.KernelIdeal.Launch
import proofs.«110491_j38809324487019_2_alg».proof.Proof.Gen.KernelIdeal.Skeleton
import proofs.«110491_j38809324487019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: `cc3_kernel` (pipeline 3), at the entry contents `V`

The second half of a fused Linear + BatchNorm + ReLU stage: each grid point takes one block of 6400 rows of the
bf16 activation (window 0), the whole 128×128 weight (window 1) and five 1×128 rows — bias, scale, shift, and the
batch mean and variance the preceding region computed (windows 2–6) — and writes the block of the f32 result
(window 7): `relu(((b + x · w) − mean) · rsqrt(var + ε) · g + be)`, the product with bf16 operands accumulated in f32.
The points are independent: nothing is carried from one to the next.
-/

/-! ## The windows' blocks -/

/-- Window `w`'s block at point `t`: the rectangle of its array, as the region finds it (`V`), that the window's
    index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not (where it did not, the block index has not moved since the last fetch), for any proof data whose array is
    `V`'s and whose body leaves the block in place; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether the pipeline fetched it there or
    not (where it did not, the block index has not moved since the last fetch), for any proof data whose array is
    `V`'s and whose body leaves the block in place; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether the pipeline fetched it there or
    not (where it did not, the block index has not moved since the last fetch), for any proof data whose array is
    `V`'s and whose body leaves the block in place; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether the pipeline fetched it there or
    not (where it did not, the block index has not moved since the last fetch), for any proof data whose array is
    `V`'s and whose body leaves the block in place; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether the pipeline fetched it there or
    not (where it did not, the block index has not moved since the last fetch), for any proof data whose array is
    `V`'s and whose body leaves the block in place; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether the pipeline fetched it there or
    not (where it did not, the block index has not moved since the last fetch), for any proof data whose array is
    `V`'s and whose body leaves the block in place; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, whether the pipeline fetched it there or
    not (where it did not, the block index has not moved since the last fetch), for any proof data whose array is
    `V`'s and whose body leaves the block in place; the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and every store is of a whole buffer -/

abbrev r3_S6400x128 : Rect S6400x128 := Rect.unit (s := S6400x128) ![0, 0] S6400x128.size inb_S6400x128_S6400x128_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0

/-! ## What the body leaves in each output window's buffer -/

/-- Window 7's staging buffer after the body, from the input windows' blocks: the body's one store, of the whole
    buffer, of the normalized and rectified product (the skeleton's payload `k3_pay1` of the seven blocks loaded). -/
def out3_7 (x0 : Vec F S6400x128 .bf16) (x1 : Vec F S128x128 .f32) (x2 : Vec F S1x128 .f32) (x3 : Vec F S1x128 .f32) (x4 : Vec F S1x128 .f32) (x5 : Vec F S1x128 .f32) (x6 : Vec F S1x128 .f32) : Vec F S6400x128 .f32 :=
  View.canon [⟨r3_S6400x128, k3_pay1 (View.ld x2 r3_S1x128) (View.ld x0 r3_S6400x128) (View.ld x1 r3_S128x128) (View.ld x5 r3_S1x128) (View.ld x6 r3_S1x128) (View.ld x3 r3_S1x128) (View.ld x4 r3_S1x128)⟩]

/-- The one store is of the whole buffer, so it covers it. -/
theorem cover3_7 (p0 : Vec F S6400x128 .f32) (y : S6400x128.Idx) :
    ∃ pc ∈ ([⟨r3_S6400x128, p0⟩] : List (View.Piece (Elt F) S6400x128 .f32)), y ∈ pc.1.set :=
  View.cover_of_tiled [⟨r3_S6400x128, p0⟩] S6400x128.size (by rfl) y

/-! ## The body's triple -/

set_option maxHeartbeats 1000000 in
/-- The kernel body on whole staging memrefs — the inputs' at contents `xW`, the outputs' at anything — runs to the
    continuation holding the inputs' as they were and each output's at `out3_W` of the inputs': the printed
    functions are their skeletons, a sequence of whole-buffer loads and stores, which is run symbolically. -/
theorem sound_kernel3 (c : Dev nD) (E : Set ℕ) (i : grid3.Coords) (arg1 : Memref sig .tc .vmem S6400x128 .bf16) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S6400x128 .f32) (harg8 : arg8.IsWhole)
    (x0 : Vec F S6400x128 .bf16) (x1 : Vec F S128x128 .f32) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3_kernel i arg1 harg1 arg2 harg2 arg3 harg3 arg4 harg4 arg5 harg5 arg6 harg6 arg7 harg7 arg8 harg8) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point `t`
    each input's buffer at its block and each output's at `out3_W` of the input blocks; the invariant is that the scoped
    rest and the generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The proof data's other fields, as the region's segment record reads them -/

/-- Every array is held at the full share. -/
theorem share3 (c : Dev nD) (w : Fin cfg3.W) : (dat3 V c).share w = fullShare :=
  (dat3 V c).share_full (fun _ => rfl) w

/-- The core owes nothing, before or after any point, -/
theorem owed3 (c : Dev nD) (t : Fin (cfg3.N + 1)) : (dat3 V c).owed t = 0 := rfl

/-- and no bound is put on the waits recorded. -/
theorem recorded3 (c : Dev nD) (t : Fin (cfg3.N + 1)) : (dat3 V c).recorded t = Set.univ := rfl

/-- The invariant at the first point is the class's: the scoped rest and the generator register, -/
theorem PhiIn3 (c : Dev nD) : (Pipeline.ΦA spec3 c : sProp 𝕄) ⊢ (dat3 V c).Φ 0 := by
  rw [show (dat3 V c).Φ 0 = Pipeline.ΦA spec3 c from rfl]

/-- and so it is after the last. -/
theorem PhiOut3 (c : Dev nD) : (dat3 V c).Φ (Fin.last cfg3.N) ⊢ (Pipeline.ΦA spec3 c : sProp 𝕄) := by
  rw [show (dat3 V c).Φ (Fin.last cfg3.N) = Pipeline.ΦA spec3 c from rfl]

/-- An input window's array is never written back: after any number of points it is as the region found it. -/
theorem arrIn3_0 (c : Dev nD) (t : ℕ) : (dat3 V c).arrAt 0 t = (dat3 V c).A 0 := (dat3 V c).arrAt_in 0 rfl t
theorem arrIn3_1 (c : Dev nD) (t : ℕ) : (dat3 V c).arrAt 1 t = (dat3 V c).A 1 := (dat3 V c).arrAt_in 1 rfl t
theorem arrIn3_2 (c : Dev nD) (t : ℕ) : (dat3 V c).arrAt 2 t = (dat3 V c).A 2 := (dat3 V c).arrAt_in 2 rfl t
theorem arrIn3_3 (c : Dev nD) (t : ℕ) : (dat3 V c).arrAt 3 t = (dat3 V c).A 3 := (dat3 V c).arrAt_in 3 rfl t
theorem arrIn3_4 (c : Dev nD) (t : ℕ) : (dat3 V c).arrAt 4 t = (dat3 V c).A 4 := (dat3 V c).arrAt_in 4 rfl t
theorem arrIn3_5 (c : Dev nD) (t : ℕ) : (dat3 V c).arrAt 5 t = (dat3 V c).A 5 := (dat3 V c).arrAt_in 5 rfl t
theorem arrIn3_6 (c : Dev nD) (t : ℕ) : (dat3 V c).arrAt 6 t = (dat3 V c).A 6 := (dat3 V c).arrAt_in 6 rfl t

end Cert.KernelIdeal.Hand

end
-- ==== Proof.KI.Apply5.lean ====
import proofs.«110491_j38809324487019_2_alg».proof.Proof.Gen.KernelIdeal.Launch
import proofs.«110491_j38809324487019_2_alg».proof.Proof.Gen.KernelIdeal.Skeleton
import proofs.«110491_j38809324487019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5 of @main: `cc5_kernel` (pipeline 5), at the entry contents `V`

The second half of a fused Linear + BatchNorm + ReLU stage: each grid point takes one block of 5000 rows of each of the two f32 activations (windows 0, 1), the two whole 128×128 weights (windows 2, 3)
and five 1×128 rows — bias, scale, shift, and the batch mean and variance the preceding region computed — and writes
the block of the bf16 result (window 9): `bf16(relu(((b + x₀ · w₀ + x₁ · w₁) − mean) · rsqrt(var + ε) · g + be))`, each product
with operands rounded to bf16 and accumulated in f32.
The points are independent: nothing is carried from one to the next.
-/

/-! ## The windows' blocks -/

/-- Window `w`'s block at point `t`: the rectangle of its array, as the region finds it (`V`), that the window's
    index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it there or
    not (where it did not, the block index has not moved since the last fetch), for any proof data whose array is
    `V`'s and whose body leaves the block in place; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether the pipeline fetched it there or
    not (where it did not, the block index has not moved since the last fetch), for any proof data whose array is
    `V`'s and whose body leaves the block in place; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether the pipeline fetched it there or
    not (where it did not, the block index has not moved since the last fetch), for any proof data whose array is
    `V`'s and whose body leaves the block in place; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether the pipeline fetched it there or
    not (where it did not, the block index has not moved since the last fetch), for any proof data whose array is
    `V`'s and whose body leaves the block in place; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether the pipeline fetched it there or
    not (where it did not, the block index has not moved since the last fetch), for any proof data whose array is
    `V`'s and whose body leaves the block in place; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, whether the pipeline fetched it there or
    not (where it did not, the block index has not moved since the last fetch), for any proof data whose array is
    `V`'s and whose body leaves the block in place; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, whether the pipeline fetched it there or
    not (where it did not, the block index has not moved since the last fetch), for any proof data whose array is
    `V`'s and whose body leaves the block in place; the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, whether the pipeline fetched it there or
    not (where it did not, the block index has not moved since the last fetch), for any proof data whose array is
    `V`'s and whose body leaves the block in place; the window is uncut and never idle. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
/-- Input window 8's current staging buffer holds its block at every point, whether the pipeline fetched it there or
    not (where it did not, the block index has not moved since the last fetch), for any proof data whose array is
    `V`'s and whose body leaves the block in place; the window is uncut and never idle. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and every store is of a whole buffer -/

abbrev r5_S5000x128 : Rect S5000x128 := Rect.unit (s := S5000x128) ![0, 0] S5000x128.size inb_S5000x128_S5000x128_0_0
abbrev r5_S128x128 : Rect S128x128 := Rect.unit (s := S128x128) ![0, 0] S128x128.size inb_S128x128_S128x128_0_0
abbrev r5_S1x128 : Rect S1x128 := Rect.unit (s := S1x128) ![0, 0] S1x128.size inb_S1x128_S1x128_0_0

/-! ## What the body leaves in each output window's buffer -/

/-- Window 9's staging buffer after the body, from the input windows' blocks: the body's one store, of the whole
    buffer, of the normalized sum of the two products (the skeleton's payload `k5_pay2` of the nine blocks loaded),
    rectified against zero and rounded to bf16 (`k5_pay1`). -/
def out5_9 (x0 : Vec F S5000x128 .f32) (x1 : Vec F S5000x128 .f32) (x2 : Vec F S128x128 .f32) (x3 : Vec F S128x128 .f32) (x4 : Vec F S1x128 .f32) (x5 : Vec F S1x128 .f32) (x6 : Vec F S1x128 .f32) (x7 : Vec F S1x128 .f32) (x8 : Vec F S1x128 .f32) : Vec F S5000x128 .bf16 :=
  View.canon [⟨r5_S5000x128, k5_pay1 (k5_pay2 (View.ld x4 r5_S1x128) (View.ld x0 r5_S5000x128) (View.ld x2 r5_S128x128) (View.ld x1 r5_S5000x128) (View.ld x3 r5_S128x128) (View.ld x7 r5_S1x128) (View.ld x8 r5_S1x128) (View.ld x5 r5_S1x128) (View.ld x6 r5_S1x128)) (Scalar.ofBits .f32 0x00000000#32)⟩]

/-- The one store is of the whole buffer, so it covers it. -/
theorem cover5_9 (p0 : Vec F S5000x128 .bf16) (y : S5000x128.Idx) :
    ∃ pc ∈ ([⟨r5_S5000x128, p0⟩] : List (View.Piece (Elt F) S5000x128 .bf16)), y ∈ pc.1.set :=
  View.cover_of_tiled [⟨r5_S5000x128, p0⟩] S5000x128.size (by rfl) y

/-! ## The body's triple -/

set_option maxHeartbeats 1000000 in
/-- The kernel body on whole staging memrefs — the inputs' at contents `xW`, the outputs' at anything — runs to the
    continuation holding the inputs' as they were and each output's at `out5_W` of the inputs': the printed
    functions are their skeletons, a sequence of whole-buffer loads and stores, which is run symbolically. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .bf16) (harg10 : arg10.IsWhole)
    (x0 : Vec F S5000x128 .f32) (x1 : Vec F S5000x128 .f32) (x2 : Vec F S128x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5_kernel i arg1 harg1 arg2 harg2 arg3 harg3 arg4 harg4 arg5 harg5 arg6 harg6 arg7 harg7 arg8 harg8 arg9 harg9 arg10 harg10) K := by
  sl_unfold [cc5_kernel, k5_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-! ## The pipeline's proof data -/

/-- The proof data of pipeline 5 on core `c`: the arrays as the region finds them (`V`); after the body at point `t`
    each input's buffer at its block and each output's at `out5_W` of the input blocks; the invariant is that the scoped
    rest and the generator register are untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The proof data's other fields, as the region's segment record reads them -/

/-- Every array is held at the full share. -/
theorem share5 (c : Dev nD) (w : Fin cfg5.W) : (dat5 V c).share w = fullShare :=
  (dat5 V c).share_full (fun _ => rfl) w

/-- The core owes nothing, before or after any point, -/
theorem owed5 (c : Dev nD) (t : Fin (cfg5.N + 1)) : (dat5 V c).owed t = 0 := rfl

/-- and no bound is put on the waits recorded. -/
theorem recorded5 (c : Dev nD) (t : Fin (cfg5.N + 1)) : (dat5 V c).recorded t = Set.univ := rfl

/-- The invariant at the first point is the class's: the scoped rest and the generator register, -/
theorem PhiIn5 (c : Dev nD) : (Pipeline.ΦA spec5 c : sProp 𝕄) ⊢ (dat5 V c).Φ 0 := by
  rw [show (dat5 V c).Φ 0 = Pipeline.ΦA spec5 c from rfl]

/-- and so it is after the last. -/
theorem PhiOut5 (c : Dev nD) : (dat5 V c).Φ (Fin.last cfg5.N) ⊢ (Pipeline.ΦA spec5 c : sProp 𝕄) := by
  rw [show (dat5 V c).Φ (Fin.last cfg5.N) = Pipeline.ΦA spec5 c from rfl]

/-- An input window's array is never written back: after any number of points it is as the region found it. -/
theorem arrIn5_0 (c : Dev nD) (t : ℕ) : (dat5 V c).arrAt 0 t = (dat5 V c).A 0 := (dat5 V c).arrAt_in 0 rfl t
theorem arrIn5_1 (c : Dev nD) (t : ℕ) : (dat5 V c).arrAt 1 t = (dat5 V c).A 1 := (dat5 V c).arrAt_in 1 rfl t
theorem arrIn5_2 (c : Dev nD) (t : ℕ) : (dat5 V c).arrAt 2 t = (dat5 V c).A 2 := (dat5 V c).arrAt_in 2 rfl t
theorem arrIn5_3 (c : Dev nD) (t : ℕ) : (dat5 V c).arrAt 3 t = (dat5 V c).A 3 := (dat5 V c).arrAt_in 3 rfl t
theorem arrIn5_4 (c : Dev nD) (t : ℕ) : (dat5 V c).arrAt 4 t = (dat5 V c).A 4 := (dat5 V c).arrAt_in 4 rfl t
theorem arrIn5_5 (c : Dev nD) (t : ℕ) : (dat5 V c).arrAt 5 t = (dat5 V c).A 5 := (dat5 V c).arrAt_in 5 rfl t
theorem arrIn5_6 (c : Dev nD) (t : ℕ) : (dat5 V c).arrAt 6 t = (dat5 V c).A 6 := (dat5 V c).arrAt_in 6 rfl t
theorem arrIn5_7 (c : Dev nD) (t : ℕ) : (dat5 V c).arrAt 7 t = (dat5 V c).A 7 := (dat5 V c).arrAt_in 7 rfl t
theorem arrIn5_8 (c : Dev nD) (t : ℕ) : (dat5 V c).arrAt 8 t = (dat5 V c).A 8 := (dat5 V c).arrAt_in 8 rfl t

end Cert.KernelIdeal.Hand

end
-- ==== Proof.KI.Apply7.lean ====
import proofs.«110491_j38809324487019_2_alg».proof.Proof.Gen.KernelIdeal.Launch
import proofs.«110491_j38809324487019_2_alg».proof.Proof.Gen.KernelIdeal.Skeleton
import proofs.«110491_j38809324487019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7 of @main: `cc7_kernel` (pipeline 7), at the entry contents `V`

The second half of the last fused Linear + BatchNorm + ReLU stage, with the attention head fused in: each grid point
takes one block of 5000 rows of the bf16 activation (window 0), the whole 128×128 weight (window 1), five 1×128 rows —
bias, scale, shift, and the batch mean and variance the preceding region computed (windows 2–6) —, the 128×1 attention
weight (window 7) and its 1×1 bias (window 8), and writes two blocks: the f32 result (window 9),
`h = relu(((b + x · w) − mean) · rsqrt(var + ε) · g + be)`, and the 5000×1 attention column (window 10),
`logistic(bf16(h) · bf16(wa) + ba)`; each product has bf16 operands and is accumulated in f32.
The points are independent: nothing is carried from one to the next.
-/

/-! ## The windows' blocks -/

/-- Window `w`'s block at point `t`: the rectangle of its array, as the region finds it (`V`), that the window's
    index map selects at `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether the pipeline fetched it there or
    not (where it did not, the block index has not moved since the last fetch), for any proof data whose array is
    `V`'s and whose body leaves the block in place; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, whether the pipeline fetched it there or
    not (where it did not, the block index has not moved since the last fetch), for any proof data whose array is
    `V`'s and whose body leaves the block in place; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, whether the pipeline fetched it there or
    not (where it did not, the block index has not moved since the last fetch), for any proof data whose array is
    `V`'s and whose body leaves the block in place; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, whether the pipeline fetched it there or
    not (where it did not, the block index has not moved since the last fetch), for any proof data whose array is
    `V`'s and whose body leaves the block in place; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, whether the pipeline fetched it there or
    not (where it did not, the block index has not moved since the last fetch), for any proof data whose array is
    `V`'s and whose body leaves the block in place; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, whether the pipeline fetched it there or
    not (where it did not, the block index has not moved since the last fetch), for any proof data whose array is
    `V`'s and whose body leaves the block in place; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, whether the pipeline fetched it there or
    not (where it did not, the block index has not moved since the last fetch), for any proof data whose array is
    `V`'s and whose body leaves the block in place; the window is uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, whether the pipeline fetched it there or
    not (where it did not, the block index has not moved since the last fetch), for any proof data whose array is
    `V`'s and whose body leaves the block in place; the window is uncut and never idle. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
/-- Input window 8's current staging buffer holds its block at every point, whether the pipeline fetched it there or
    not (where it did not, the block index has not moved since the last fetch), for any proof data whose array is
    `V`'s and whose body leaves the block in place; the window is uncut and never idle. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and every store is of a whole buffer -/

abbrev r7_S5000x128 : Rect S5000x128 := Rect.unit (s := S5000x128) ![0, 0] S5000x128.size inb_S5000x128_S5000x128_0_0
abbrev r7_S128x128 : Rect S128x128 := Rect.unit (s := S128x128) ![0, 0] S128x128.size inb_S128x128_S128x128_0_0
abbrev r7_S1x128 : Rect S1x128 := Rect.unit (s := S1x128) ![0, 0] S1x128.size inb_S1x128_S1x128_0_0
abbrev r7_S128x1 : Rect S128x1 := Rect.unit (s := S128x1) ![0, 0] S128x1.size inb_S128x1_S128x1_0_0
abbrev r7_S1x1 : Rect S1x1 := Rect.unit (s := S1x1) ![0, 0] S1x1.size inb_S1x1_S1x1_0_0
abbrev r7_S5000x1 : Rect S5000x1 := Rect.unit (s := S5000x1) ![0, 0] S5000x1.size inb_S5000x1_S5000x1_0_0

/-! ## What the body leaves in each output window's buffer -/

/-- Window 9's staging buffer after the body, from the input windows' blocks: the one store into it, of the whole
    buffer, of the normalized and rectified product (the skeleton's payload `k7_pay2` of the seven blocks loaded). -/
def out7_9 (x0 : Vec F S5000x128 .bf16) (x1 : Vec F S128x128 .f32) (x2 : Vec F S1x128 .f32) (x3 : Vec F S1x128 .f32) (x4 : Vec F S1x128 .f32) (x5 : Vec F S1x128 .f32) (x6 : Vec F S1x128 .f32) (x7 : Vec F S128x1 .f32) (x8 : Vec F S1x1 .f32) : Vec F S5000x128 .f32 :=
  View.canon [⟨r7_S5000x128, k7_pay2 (View.ld x2 r7_S1x128) (View.ld x0 r7_S5000x128) (View.ld x1 r7_S128x128) (View.ld x5 r7_S1x128) (View.ld x6 r7_S1x128) (View.ld x3 r7_S1x128) (View.ld x4 r7_S1x128)⟩]

/-- The one store is of the whole buffer, so it covers it. -/
theorem cover7_9 (p0 : Vec F S5000x128 .f32) (y : S5000x128.Idx) :
    ∃ pc ∈ ([⟨r7_S5000x128, p0⟩] : List (View.Piece (Elt F) S5000x128 .f32)), y ∈ pc.1.set :=
  View.cover_of_tiled [⟨r7_S5000x128, p0⟩] S5000x128.size (by rfl) y

/-- Window 10's staging buffer after the body, from the input windows' blocks: the one store into it, of the whole
    buffer, of the logistic of the rectified product's own product with the attention weight (`k7_pay3`) plus the
    attention bias (`k7_pay1`). -/
def out7_10 (x0 : Vec F S5000x128 .bf16) (x1 : Vec F S128x128 .f32) (x2 : Vec F S1x128 .f32) (x3 : Vec F S1x128 .f32) (x4 : Vec F S1x128 .f32) (x5 : Vec F S1x128 .f32) (x6 : Vec F S1x128 .f32) (x7 : Vec F S128x1 .f32) (x8 : Vec F S1x1 .f32) : Vec F S5000x1 .f32 :=
  View.canon [⟨r7_S5000x1, k7_pay1 (k7_pay3 (View.ld x2 r7_S1x128) (View.ld x0 r7_S5000x128) (View.ld x1 r7_S128x128) (View.ld x5 r7_S1x128) (View.ld x6 r7_S1x128) (View.ld x3 r7_S1x128) (View.ld x4 r7_S1x128) (View.ld x7 r7_S128x1)) (View.ld x8 r7_S1x1)⟩]

/-- The one store is of the whole buffer, so it covers it. -/
theorem cover7_10 (p0 : Vec F S5000x1 .f32) (y : S5000x1.Idx) :
    ∃ pc ∈ ([⟨r7_S5000x1, p0⟩] : List (View.Piece (Elt F) S5000x1 .f32)), y ∈ pc.1.set :=
  View.cover_of_tiled [⟨r7_S5000x1, p0⟩] S5000x1.size (by rfl) y

/-! ## The body's triple -/

set_option maxHeartbeats 1000000 in
/-- The kernel body on whole staging memrefs — the inputs' at contents `xW`, the outputs' at anything — runs to the
    continuation holding the inputs' as they were and each output's at `out7_W` of the inputs': the printed
    functions are their skeletons, a sequence of whole-buffer loads and stores, which is run symbolically. -/
theorem sound_kernel7 (c : Dev nD) (E : Set ℕ) (i : grid7.Coords) (arg1 : Memref sig .tc .vmem S5000x128 .bf16) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S5000x128 .f32) (harg10 : arg10.IsWhole) (arg11 : Memref sig .tc .vmem S5000x1 .f32) (harg11 : arg11.IsWhole)
    (x0 : Vec F S5000x128 .bf16) (x1 : Vec F S128x128 .f32) (x2 : Vec F S1x128 .f32) (x3 : Vec F S1x128 .f32) (x4 : Vec F S1x128 .f32) (x5 : Vec F S1x128 .f32) (x6 : Vec F S1x128 .f32) (x7 : Vec F S128x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out7_9 x0 x1 x2 x3 x4 x5 x6 x7 x8) ∗ owns (c : Thread nD τ) arg11 fullShare (out7_10 x0 x1 x2 x3 x4 x5 x6 x7 x8)) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11) K := by
  sl_unfold [cc7_kernel, k7_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover7_9 _)
  iexists _; isplitr
  swap; · iexact H10
  ipureintro
  exact View.read_writes_eq_canon _ _ _ (cover7_10 _)

/-! ## The pipeline's proof data -/

/-- The proof data of pipeline 7 on core `c`: the arrays as the region finds them (`V`); after the body at point `t`
    each input's buffer at its block and each output's at `out7_W` of the input blocks; the invariant is that the scoped
    rest and the generator register are untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
    | ⟨10, _⟩ => out7_10 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]
theorem after7_10 (c : Dev nD) (t : Fin cfg7.N) : (dat7 V c).after 10 t = out7_10 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t))

/-- The body at any point: the inputs' memrefs hold their blocks, so the body's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel7 c Set.univ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The proof data's other fields, as the region's segment record reads them -/

/-- Every array is held at the full share. -/
theorem share7 (c : Dev nD) (w : Fin cfg7.W) : (dat7 V c).share w = fullShare :=
  (dat7 V c).share_full (fun _ => rfl) w

/-- The core owes nothing, before or after any point, -/
theorem owed7 (c : Dev nD) (t : Fin (cfg7.N + 1)) : (dat7 V c).owed t = 0 := rfl

/-- and no bound is put on the waits recorded. -/
theorem recorded7 (c : Dev nD) (t : Fin (cfg7.N + 1)) : (dat7 V c).recorded t = Set.univ := rfl

/-- The invariant at the first point is the class's: the scoped rest and the generator register, -/
theorem PhiIn7 (c : Dev nD) : (Pipeline.ΦA spec7 c : sProp 𝕄) ⊢ (dat7 V c).Φ 0 := by
  rw [show (dat7 V c).Φ 0 = Pipeline.ΦA spec7 c from rfl]

/-- and so it is after the last. -/
theorem PhiOut7 (c : Dev nD) : (dat7 V c).Φ (Fin.last cfg7.N) ⊢ (Pipeline.ΦA spec7 c : sProp 𝕄) := by
  rw [show (dat7 V c).Φ (Fin.last cfg7.N) = Pipeline.ΦA spec7 c from rfl]

/-- An input window's array is never written back: after any number of points it is as the region found it. -/
theorem arrIn7_0 (c : Dev nD) (t : ℕ) : (dat7 V c).arrAt 0 t = (dat7 V c).A 0 := (dat7 V c).arrAt_in 0 rfl t
theorem arrIn7_1 (c : Dev nD) (t : ℕ) : (dat7 V c).arrAt 1 t = (dat7 V c).A 1 := (dat7 V c).arrAt_in 1 rfl t
theorem arrIn7_2 (c : Dev nD) (t : ℕ) : (dat7 V c).arrAt 2 t = (dat7 V c).A 2 := (dat7 V c).arrAt_in 2 rfl t
theorem arrIn7_3 (c : Dev nD) (t : ℕ) : (dat7 V c).arrAt 3 t = (dat7 V c).A 3 := (dat7 V c).arrAt_in 3 rfl t
theorem arrIn7_4 (c : Dev nD) (t : ℕ) : (dat7 V c).arrAt 4 t = (dat7 V c).A 4 := (dat7 V c).arrAt_in 4 rfl t
theorem arrIn7_5 (c : Dev nD) (t : ℕ) : (dat7 V c).arrAt 5 t = (dat7 V c).A 5 := (dat7 V c).arrAt_in 5 rfl t
theorem arrIn7_6 (c : Dev nD) (t : ℕ) : (dat7 V c).arrAt 6 t = (dat7 V c).A 6 := (dat7 V c).arrAt_in 6 rfl t
theorem arrIn7_7 (c : Dev nD) (t : ℕ) : (dat7 V c).arrAt 7 t = (dat7 V c).A 7 := (dat7 V c).arrAt_in 7 rfl t
theorem arrIn7_8 (c : Dev nD) (t : ℕ) : (dat7 V c).arrAt 8 t = (dat7 V c).A 8 := (dat7 V c).arrAt_in 8 rfl t

end Cert.KernelIdeal.Hand

end
-- ==== Proof.KI.Kits.lean ====
/-
  The eight kernel regions' proof kits, gathered: region 2k is the statistics kernel of the k-th fused stage (its two
  scratch accumulators carried from grid point to grid point inside the pipeline's invariant), region 2k+1 its
  apply kernel (every block independent).
-/
import proofs.«110491_j38809324487019_2_alg».proof.Proof.KI.Chain
import proofs.«110491_j38809324487019_2_alg».proof.Proof.KI.Stats0
import proofs.«110491_j38809324487019_2_alg».proof.Proof.KI.Stats2
import proofs.«110491_j38809324487019_2_alg».proof.Proof.KI.Stats4
import proofs.«110491_j38809324487019_2_alg».proof.Proof.KI.Stats6
import proofs.«110491_j38809324487019_2_alg».proof.Proof.KI.Apply1
import proofs.«110491_j38809324487019_2_alg».proof.Proof.KI.Apply3
import proofs.«110491_j38809324487019_2_alg».proof.Proof.KI.Apply5
import proofs.«110491_j38809324487019_2_alg».proof.Proof.KI.Apply7

set_option maxRecDepth 16384

noncomputable section

namespace Cert.KernelIdeal.Hand

open Cert.KernelIdeal Cert.KernelIdeal.Gen
open Idealize.ShloMosaic Idealize.ShloMosaic.TcCoe
open Idealize.SL Idealize.SL.BI Idealize.SL.Sem
open Idealize.ShloMosaic.Pipeline (Dat BodyObligation)

variable {F : FTy → Type} [FloatOps F] [Named F]

/-- Every region's kit. -/
def kits : (p : Fin 8) → Kit F p
  | ⟨0, _⟩ => ⟨fun V c => dat0 V c, fun V c w => A_eq0 V c w, fun V c => body_obligation0 V c, fun V c w => share0 V c w, fun V c t => owed0 V c t, fun V c t => recorded0 V c t, fun V c => PhiIn0 V c, fun V c => PhiOut0 V c⟩
  | ⟨1, _⟩ => ⟨fun V c => dat1 V c, fun V c w => A_eq1 V c w, fun V c => body_obligation1 V c, fun V c w => share1 V c w, fun V c t => owed1 V c t, fun V c t => recorded1 V c t, fun V c => PhiIn1 V c, fun V c => PhiOut1 V c⟩
  | ⟨2, _⟩ => ⟨fun V c => dat2 V c, fun V c w => A_eq2 V c w, fun V c => body_obligation2 V c, fun V c w => share2 V c w, fun V c t => owed2 V c t, fun V c t => recorded2 V c t, fun V c => PhiIn2 V c, fun V c => PhiOut2 V c⟩
  | ⟨3, _⟩ => ⟨fun V c => dat3 V c, fun V c w => A_eq3 V c w, fun V c => body_obligation3 V c, fun V c w => share3 V c w, fun V c t => owed3 V c t, fun V c t => recorded3 V c t, fun V c => PhiIn3 V c, fun V c => PhiOut3 V c⟩
  | ⟨4, _⟩ => ⟨fun V c => dat4 V c, fun V c w => A_eq4 V c w, fun V c => body_obligation4 V c, fun V c w => share4 V c w, fun V c t => owed4 V c t, fun V c t => recorded4 V c t, fun V c => PhiIn4 V c, fun V c => PhiOut4 V c⟩
  | ⟨5, _⟩ => ⟨fun V c => dat5 V c, fun V c w => A_eq5 V c w, fun V c => body_obligation5 V c, fun V c w => share5 V c w, fun V c t => owed5 V c t, fun V c t => recorded5 V c t, fun V c => PhiIn5 V c, fun V c => PhiOut5 V c⟩
  | ⟨6, _⟩ => ⟨fun V c => dat6 V c, fun V c w => A_eq6 V c w, fun V c => body_obligation6 V c, fun V c w => share6 V c w, fun V c t => owed6 V c t, fun V c t => recorded6 V c t, fun V c => PhiIn6 V c, fun V c => PhiOut6 V c⟩
  | ⟨7, _⟩ => ⟨fun V c => dat7 V c, fun V c w => A_eq7 V c w, fun V c => body_obligation7 V c, fun V c w => share7 V c w, fun V c t => owed7 V c t, fun V c t => recorded7 V c t, fun V c => PhiIn7 V c, fun V c => PhiOut7 V c⟩

end Cert.KernelIdeal.Hand

end
-- ==== Proof.KI.Segs.lean ====
import proofs.«110491_j38809324487019_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (kits : (p : Fin 8) → Kit F p)

/-! ## The proof data family, and each region as a segment -/

/-- Every pipeline's proof data, each at its region's entry contents. -/
def pdats : (p : Fin 8) → (c : Dev nD) → Dat τ (Elt F) Unit ℕ (UR sig nD τ) ℕ (cfgs p) c
  | ⟨0, _⟩ => fun c => (kits 0).dat (fun c b => U1 m c b) c
  | ⟨1, _⟩ => fun c => (kits 1).dat (fun c b => U3 m kits c b) c
  | ⟨2, _⟩ => fun c => (kits 2).dat (fun c b => U5 m kits c b) c
  | ⟨3, _⟩ => fun c => (kits 3).dat (fun c b => U7 m kits c b) c
  | ⟨4, _⟩ => fun c => (kits 4).dat (fun c b => U9 m kits c b) c
  | ⟨5, _⟩ => fun c => (kits 5).dat (fun c b => U11 m kits c b) c
  | ⟨6, _⟩ => fun c => (kits 6).dat (fun c b => U13 m kits c b) c
  | ⟨7, _⟩ => fun c => (kits 7).dat (fun c b => U15 m kits c b) c
omit [FloatOps F] [Named F] in
/-- A statement about the 5 window numbers holds when it holds of each. -/
theorem forall_fin5 {P : Fin 5 → Prop} (h0 : P 0) (h1 : P 1) (h2 : P 2) (h3 : P 3) (h4 : P 4) : ∀ w, P w := by
  intro w; fin_cases w <;> assumption

omit [FloatOps F] [Named F] in
/-- A statement about the 7 window numbers holds when it holds of each. -/
theorem forall_fin7 {P : Fin 7 → Prop} (h0 : P 0) (h1 : P 1) (h2 : P 2) (h3 : P 3) (h4 : P 4) (h5 : P 5) (h6 : P 6) : ∀ w, P w := by
  intro w; fin_cases w <;> assumption

omit [FloatOps F] [Named F] in
/-- A statement about the 8 window numbers holds when it holds of each. -/
theorem forall_fin8 {P : Fin 8 → Prop} (h0 : P 0) (h1 : P 1) (h2 : P 2) (h3 : P 3) (h4 : P 4) (h5 : P 5) (h6 : P 6) (h7 : P 7) : ∀ w, P w := by
  intro w; fin_cases w <;> assumption

omit [FloatOps F] [Named F] in
/-- A statement about the 10 window numbers holds when it holds of each. -/
theorem forall_fin10 {P : Fin 10 → Prop} (h0 : P 0) (h1 : P 1) (h2 : P 2) (h3 : P 3) (h4 : P 4) (h5 : P 5) (h6 : P 6) (h7 : P 7) (h8 : P 8) (h9 : P 9) : ∀ w, P w := by
  intro w; fin_cases w <;> assumption

omit [FloatOps F] [Named F] in
/-- A statement about the 11 window numbers holds when it holds of each. -/
theorem forall_fin11 {P : Fin 11 → Prop} (h0 : P 0) (h1 : P 1) (h2 : P 2) (h3 : P 3) (h4 : P 4) (h5 : P 5) (h6 : P 6) (h7 : P 7) (h8 : P 8) (h9 : P 9) (h10 : P 10) : ∀ w, P w := by
  intro w; fin_cases w <;> assumption

/-! ### Region 0 -/

/-- Region 0 changes only its output arrays. -/
theorem keep0 (c : Dev nD) (b : Ref sig .tc) (h5 : b ≠ main_v14_0) (h6 : b ≠ main_v14_1) : U2 m kits c b = U1 m c b := by
  show Function.update (Function.update (U1 m c) main_v14_0 _) main_v14_1 _ b = _
  rw [Function.update_of_ne (StableHlo.devRef_ne_of_ne h6), Function.update_of_ne (StableHlo.devRef_ne_of_ne h5)]
/-- Region 0's proof data in the family. -/
theorem pdats_0 (c : Dev nD) : pdats m kits 0 c = (kits 0).dat (fun c b => U1 m c b) c := rfl
set_option backward.isDefEq.respectTransparency.types false in
/-- After region 0 its input array `main_arg2` (window 0) holds its entry contents. -/
theorem hF0_0 (c : Dev nD) : (pdats m kits 0 c).arrAt (0 : Fin 7) (cfgs 0).N = U2 m kits c (Pipeline.arrRef (cfgs 0).spec (0 : Fin 7)) := by
  rw [pdats_0]
  refine Eq.trans ?_ (keep0 m kits c main_arg2 (by decide) (by decide)).symm
  exact (((kits 0).dat (fun c b => U1 m c b) c).arrAt_in (0 : Fin 7) rfl _).trans ((kits 0).A_eq (fun c b => U1 m c b) c (0 : Fin 7))
set_option backward.isDefEq.respectTransparency.types false in
/-- After region 0 its input array `main_v10` (window 1) holds its entry contents. -/
theorem hF0_1 (c : Dev nD) : (pdats m kits 0 c).arrAt (1 : Fin 7) (cfgs 0).N = U2 m kits c (Pipeline.arrRef (cfgs 0).spec (1 : Fin 7)) := by
  rw [pdats_0]
  refine Eq.trans ?_ (keep0 m kits c main_v10 (by decide) (by decide)).symm
  exact (((kits 0).dat (fun c b => U1 m c b) c).arrAt_in (1 : Fin 7) rfl _).trans ((kits 0).A_eq (fun c b => U1 m c b) c (1 : Fin 7))
set_option backward.isDefEq.respectTransparency.types false in
/-- After region 0 its input array `main_v11` (window 2) holds its entry contents. -/
theorem hF0_2 (c : Dev nD) : (pdats m kits 0 c).arrAt (2 : Fin 7) (cfgs 0).N = U2 m kits c (Pipeline.arrRef (cfgs 0).spec (2 : Fin 7)) := by
  rw [pdats_0]
  refine Eq.trans ?_ (keep0 m kits c main_v11 (by decide) (by decide)).symm
  exact (((kits 0).dat (fun c b => U1 m c b) c).arrAt_in (2 : Fin 7) rfl _).trans ((kits 0).A_eq (fun c b => U1 m c b) c (2 : Fin 7))
set_option backward.isDefEq.respectTransparency.types false in
/-- After region 0 its input array `main_v12` (window 3) holds its entry contents. -/
theorem hF0_3 (c : Dev nD) : (pdats m kits 0 c).arrAt (3 : Fin 7) (cfgs 0).N = U2 m kits c (Pipeline.arrRef (cfgs 0).spec (3 : Fin 7)) := by
  rw [pdats_0]
  refine Eq.trans ?_ (keep0 m kits c main_v12 (by decide) (by decide)).symm
  exact (((kits 0).dat (fun c b => U1 m c b) c).arrAt_in (3 : Fin 7) rfl _).trans ((kits 0).A_eq (fun c b => U1 m c b) c (3 : Fin 7))
set_option backward.isDefEq.respectTransparency.types false in
/-- After region 0 its input array `main_v13` (window 4) holds its entry contents. -/
theorem hF0_4 (c : Dev nD) : (pdats m kits 0 c).arrAt (4 : Fin 7) (cfgs 0).N = U2 m kits c (Pipeline.arrRef (cfgs 0).spec (4 : Fin 7)) := by
  rw [pdats_0]
  refine Eq.trans ?_ (keep0 m kits c main_v13 (by decide) (by decide)).symm
  exact (((kits 0).dat (fun c b => U1 m c b) c).arrAt_in (4 : Fin 7) rfl _).trans ((kits 0).A_eq (fun c b => U1 m c b) c (4 : Fin 7))
set_option backward.isDefEq.respectTransparency.types false in
/-- After region 0 its output array `main_v14_0` (window 5) holds the entry contents with every point's write-back folded in. -/
theorem hF0_5 (c : Dev nD) : (pdats m kits 0 c).arrAt (5 : Fin 7) (cfgs 0).N = U2 m kits c (Pipeline.arrRef (cfgs 0).spec (5 : Fin 7)) := by
  rw [pdats_0]
  show _ = Function.update (Function.update (U1 m c) main_v14_0 _) main_v14_1 _ main_v14_0
  rw [Function.update_of_ne (StableHlo.devRef_ne_of_ne (by decide : main_v14_0 ≠ main_v14_1)), Function.update_self]
  rfl
set_option backward.isDefEq.respectTransparency.types false in
/-- After region 0 its output array `main_v14_1` (window 6) holds the entry contents with every point's write-back folded in. -/
theorem hF0_6 (c : Dev nD) : (pdats m kits 0 c).arrAt (6 : Fin 7) (cfgs 0).N = U2 m kits c (Pipeline.arrRef (cfgs 0).spec (6 : Fin 7)) := by
  rw [pdats_0]
  show _ = Function.update (Function.update (U1 m c) main_v14_0 _) main_v14_1 _ main_v14_1
  rw [Function.update_self]
  rfl
set_option backward.isDefEq.respectTransparency.types false in
/-- After region 0 each of its arrays holds what the pipeline leaves. -/
theorem hF0 (c : Dev nD) : ∀ w : Fin 7, (pdats m kits 0 c).arrAt w (cfgs 0).N = U2 m kits c (Pipeline.arrRef (cfgs 0).spec w) :=
  forall_fin7 (hF0_0 m kits c) (hF0_1 m kits c) (hF0_2 m kits c) (hF0_3 m kits c) (hF0_4 m kits c) (hF0_5 m kits c) (hF0_6 m kits c)
set_option backward.isDefEq.respectTransparency.types false in
/-- Every buffer that is not one of region 0's arrays is as the region found it. -/
theorem hrest0 (c : Dev nD) : ∀ b : Ref sig .tc, b ∉ Finset.univ.image (Pipeline.arrRef (cfgs 0).spec) → U2 m kits c b = U1 m c b := fun b hb =>
  keep0 m kits c b (fun e => hb (Finset.mem_image.mpr ⟨(5 : Fin 7), Finset.mem_univ _, by rw [e]; rfl⟩)) (fun e => hb (Finset.mem_image.mpr ⟨(6 : Fin 7), Finset.mem_univ _, by rw [e]; rfl⟩))
/-- Region 0 as a segment: entered at the chain's contents before it, left at those after it. -/
def reg0 : Pipeline.RegionSeg (pcfgs (F := F)) adm (pdats m kits) () defs₀ Variants.none L0 lv0 0 :=
  regOf (pdats m kits) 0 launch0 (U1 m) (U2 m kits)
    (fun c w => (kits 0).A_eq _ c w) (fun c => (kits 0).body _ c) (fun c w => (kits 0).share _ c w)
    (fun c t => (kits 0).owed _ c t) (fun c t => (kits 0).recorded _ c t)
    (fun c => by unfold Pipeline.prefHeld; rw [show (Finset.univ : Finset (Fin 0)) = ∅ from rfl, BI.bigSep_empty])
    (fun c => (kits 0).phiIn _ c) (fun c => (kits 0).phiOut _ c)
    (hF0 m kits) (hrest0 m kits)

/-! ### Region 1 -/

/-- Region 1 changes only its output arrays. -/
theorem keep1 (c : Dev nD) (b : Ref sig .tc) (h9 : b ≠ main_v18) : U4 m kits c b = U3 m kits c b := by
  show Function.update (U3 m kits c) main_v18 _ b = _
  rw [Function.update_of_ne (StableHlo.devRef_ne_of_ne h9)]
/-- Region 1's proof data in the family. -/
theorem pdats_1 (c : Dev nD) : pdats m kits 1 c = (kits 1).dat (fun c b => U3 m kits c b) c := rfl
set_option backward.isDefEq.respectTransparency.types false in
/-- After region 1 its input array `main_arg2` (window 0) holds its entry contents. -/
theorem hF1_0 (c : Dev nD) : (pdats m kits 1 c).arrAt (0 : Fin 10) (cfgs 1).N = U4 m kits c (Pipeline.arrRef (cfgs 1).spec (0 : Fin 10)) := by
  rw [pdats_1]
  refine Eq.trans ?_ (keep1 m kits c main_arg2 (by decide)).symm
  exact (((kits 1).dat (fun c b => U3 m kits c b) c).arrAt_in (0 : Fin 10) rfl _).trans ((kits 1).A_eq (fun c b => U3 m kits c b) c (0 : Fin 10))
set_option backward.isDefEq.respectTransparency.types false in
/-- After region 1 its input array `main_v10` (window 1) holds its entry contents. -/
theorem hF1_1 (c : Dev nD) : (pdats m kits 1 c).arrAt (1 : Fin 10) (cfgs 1).N = U4 m kits c (Pipeline.arrRef (cfgs 1).spec (1 : Fin 10)) := by
  rw [pdats_1]
  refine Eq.trans ?_ (keep1 m kits c main_v10 (by decide)).symm
  exact (((kits 1).dat (fun c b => U3 m kits c b) c).arrAt_in (1 : Fin 10) rfl _).trans ((kits 1).A_eq (fun c b => U3 m kits c b) c (1 : Fin 10))
set_option backward.isDefEq.respectTransparency.types false in
/-- After region 1 its input array `main_v11` (window 2) holds its entry contents. -/
theorem hF1_2 (c : Dev nD) : (pdats m kits 1 c).arrAt (2 : Fin 10) (cfgs 1).N = U4 m kits c (Pipeline.arrRef (cfgs 1).spec (2 : Fin 10)) := by
  rw [pdats_1]
  refine Eq.trans ?_ (keep1 m kits c main_v11 (by decide)).symm
  exact (((kits 1).dat (fun c b => U3 m kits c b) c).arrAt_in (2 : Fin 10) rfl _).trans ((kits 1).A_eq (fun c b => U3 m kits c b) c (2 : Fin 10))
set_option backward.isDefEq.respectTransparency.types false in
/-- After region 1 its input array `main_v12` (window 3) holds its entry contents. -/
theorem hF1_3 (c : Dev nD) : (pdats m kits 1 c).arrAt (3 : Fin 10) (cfgs 1).N = U4 m kits c (Pipeline.arrRef (cfgs 1).spec (3 : Fin 10)) := by
  rw [pdats_1]
  refine Eq.trans ?_ (keep1 m kits c main_v12 (by decide)).symm
  exact (((kits 1).dat (fun c b => U3 m kits c b) c).arrAt_in (3 : Fin 10) rfl _).trans ((kits 1).A_eq (fun c b => U3 m kits c b) c (3 : Fin 10))
set_option backward.isDefEq.respectTransparency.types false in
/-- After region 1 its input array `main_v15` (window 4) holds its entry contents. -/
theorem hF1_4 (c : Dev nD) : (pdats m kits 1 c).arrAt (4 : Fin 10) (cfgs 1).N = U4 m kits c (Pipeline.arrRef (cfgs 1).spec (4 : Fin 10)) := by
  rw [pdats_1]
  refine Eq.trans ?_ (keep1 m kits c main_v15 (by decide)).symm
  exact (((kits 1).dat (fun c b => U3 m kits c b) c).arrAt_in (4 : Fin 10) rfl _).trans ((kits 1).A_eq (fun c b => U3 m kits c b) c (4 : Fin 10))
set_option backward.isDefEq.respectTransparency.types false in
/-- After region 1 its input array `main_v16` (window 5) holds its entry contents. -/
theorem hF1_5 (c : Dev nD) : (pdats m kits 1 c).arrAt (5 : Fin 10) (cfgs 1).N = U4 m kits c (Pipeline.arrRef (cfgs 1).spec (5 : Fin 10)) := by
  rw [pdats_1]
  refine Eq.trans ?_ (keep1 m kits c main_v16 (by decide)).symm
  exact (((kits 1).dat (fun c b => U3 m kits c b) c).arrAt_in (5 : Fin 10) rfl _).trans ((kits 1).A_eq (fun c b => U3 m kits c b) c (5 : Fin 10))
set_option backward.isDefEq.respectTransparency.types false in
/-- After region 1 its input array `main_v17` (window 6) holds its entry contents. -/
theorem hF1_6 (c : Dev nD) : (pdats m kits 1 c).arrAt (6 : Fin 10) (cfgs 1).N = U4 m kits c (Pipeline.arrRef (cfgs 1).spec (6 : Fin 10)) := by
  rw [pdats_1]
  refine Eq.trans ?_ (keep1 m kits c main_v17 (by decide)).symm
  exact (((kits 1).dat (fun c b => U3 m kits c b) c).arrAt_in (6 : Fin 10) rfl _).trans ((kits 1).A_eq (fun c b => U3 m kits c b) c (6 : Fin 10))
set_option backward.isDefEq.respectTransparency.types false in
/-- After region 1 its input array `main_v14_0` (window 7) holds its entry contents. -/
theorem hF1_7 (c : Dev nD) : (pdats m kits 1 c).arrAt (7 : Fin 10) (cfgs 1).N = U4 m kits c (Pipeline.arrRef (cfgs 1).spec (7 : Fin 10)) := by
  rw [pdats_1]
  refine Eq.trans ?_ (keep1 m kits c main_v14_0 (by decide)).symm
  exact (((kits 1).dat (fun c b => U3 m kits c b) c).arrAt_in (7 : Fin 10) rfl _).trans ((kits 1).A_eq (fun c b => U3 m kits c b) c (7 : Fin 10))
set_option backward.isDefEq.respectTransparency.types false in
/-- After region 1 its input array `main_v14_1` (window 8) holds its entry contents. -/
theorem hF1_8 (c : Dev nD) : (pdats m kits 1 c).arrAt (8 : Fin 10) (cfgs 1).N = U4 m kits c (Pipeline.arrRef (cfgs 1).spec (8 : Fin 10)) := by
  rw [pdats_1]
  refine Eq.trans ?_ (keep1 m kits c main_v14_1 (by decide)).symm
  exact (((kits 1).dat (fun c b => U3 m kits c b) c).arrAt_in (8 : Fin 10) rfl _).trans ((kits 1).A_eq (fun c b => U3 m kits c b) c (8 : Fin 10))
set_option backward.isDefEq.respectTransparency.types false in
/-- After region 1 its output array `main_v18` (window 9) holds the entry contents with every point's write-back folded in. -/
theorem hF1_9 (c : Dev nD) : (pdats m kits 1 c).arrAt (9 : Fin 10) (cfgs 1).N = U4 m kits c (Pipeline.arrRef (cfgs 1).spec (9 : Fin 10)) := by
  rw [pdats_1]
  show _ = Function.update (U3 m kits c) main_v18 _ main_v18
  rw [Function.update_self]
  rfl
set_option backward.isDefEq.respectTransparency.types false in
/-- After region 1 each of its arrays holds what the pipeline leaves. -/
theorem hF1 (c : Dev nD) : ∀ w : Fin 10, (pdats m kits 1 c).arrAt w (cfgs 1).N = U4 m kits c (Pipeline.arrRef (cfgs 1).spec w) :=
  forall_fin10 (hF1_0 m kits c) (hF1_1 m kits c) (hF1_2 m kits c) (hF1_3 m kits c) (hF1_4 m kits c) (hF1_5 m kits c) (hF1_6 m kits c) (hF1_7 m kits c) (hF1_8 m kits c) (hF1_9 m kits c)
set_option backward.isDefEq.respectTransparency.types false in
/-- Every buffer that is not one of region 1's arrays is as the region found it. -/
theorem hrest1 (c : Dev nD) : ∀ b : Ref sig .tc, b ∉ Finset.univ.image (Pipeline.arrRef (cfgs 1).spec) → U4 m kits c b = U3 m kits c b := fun b hb =>
  keep1 m kits c b (fun e => hb (Finset.mem_image.mpr ⟨(9 : Fin 10), Finset.mem_univ _, by rw [e]; rfl⟩))
/-- Region 1 as a segment: entered at the chain's contents before it, left at those after it. -/
def reg1 : Pipeline.RegionSeg (pcfgs (F := F)) adm (pdats m kits) () defs₀ Variants.none L0 lv0 1 :=
  regOf (pdats m kits) 1 launch1 (U3 m kits) (U4 m kits)
    (fun c w => (kits 1).A_eq _ c w) (fun c => (kits 1).body _ c) (fun c w => (kits 1).share _ c w)
    (fun c t => (kits 1).owed _ c t) (fun c t => (kits 1).recorded _ c t)
    (fun c => by unfold Pipeline.prefHeld; rw [show (Finset.univ : Finset (Fin 0)) = ∅ from rfl, BI.bigSep_empty])
    (fun c => (kits 1).phiIn _ c) (fun c => (kits 1).phiOut _ c)
    (hF1 m kits) (hrest1 m kits)

/-! ### Region 2 -/

/-- Region 2 changes only its output arrays. -/
theorem keep2 (c : Dev nD) (b : Ref sig .tc) (h3 : b ≠ main_v20_0) (h4 : b ≠ main_v20_1) : U6 m kits c b = U5 m kits c b := by
  show Function.update (Function.update (U5 m kits c) main_v20_0 _) main_v20_1 _ b = _
  rw [Function.update_of_ne (StableHlo.devRef_ne_of_ne h4), Function.update_of_ne (StableHlo.devRef_ne_of_ne h3)]
/-- Region 2's proof data in the family. -/
theorem pdats_2 (c : Dev nD) : pdats m kits 2 c = (kits 2).dat (fun c b => U5 m kits c b) c := rfl
set_option backward.isDefEq.respectTransparency.types false in
/-- After region 2 its input array `main_v18` (window 0) holds its entry contents. -/
theorem hF2_0 (c : Dev nD) : (pdats m kits 2 c).arrAt (0 : Fin 5) (cfgs 2).N = U6 m kits c (Pipeline.arrRef (cfgs 2).spec (0 : Fin 5)) := by
  rw [pdats_2]
  refine Eq.trans ?_ (keep2 m kits c main_v18 (by decide) (by decide)).symm
  exact (((kits 2).dat (fun c b => U5 m kits c b) c).arrAt_in (0 : Fin 5) rfl _).trans ((kits 2).A_eq (fun c b => U5 m kits c b) c (0 : Fin 5))
set_option backward.isDefEq.respectTransparency.types false in
/-- After region 2 its input array `main_arg7` (window 1) holds its entry contents. -/
theorem hF2_1 (c : Dev nD) : (pdats m kits 2 c).arrAt (1 : Fin 5) (cfgs 2).N = U6 m kits c (Pipeline.arrRef (cfgs 2).spec (1 : Fin 5)) := by
  rw [pdats_2]
  refine Eq.trans ?_ (keep2 m kits c main_arg7 (by decide) (by decide)).symm
  exact (((kits 2).dat (fun c b => U5 m kits c b) c).arrAt_in (1 : Fin 5) rfl _).trans ((kits 2).A_eq (fun c b => U5 m kits c b) c (1 : Fin 5))
set_option backward.isDefEq.respectTransparency.types false in
/-- After region 2 its input array `main_v19` (window 2) holds its entry contents. -/
theorem hF2_2 (c : Dev nD) : (pdats m kits 2 c).arrAt (2 : Fin 5) (cfgs 2).N = U6 m kits c (Pipeline.arrRef (cfgs 2).spec (2 : Fin 5)) := by
  rw [pdats_2]
  refine Eq.trans ?_ (keep2 m kits c main_v19 (by decide) (by decide)).symm
  exact (((kits 2).dat (fun c b => U5 m kits c b) c).arrAt_in (2 : Fin 5) rfl _).trans ((kits 2).A_eq (fun c b => U5 m kits c b) c (2 : Fin 5))
set_option backward.isDefEq.respectTransparency.types false in
/-- After region 2 its output array `main_v20_0` (window 3) holds the entry contents with every point's write-back folded in. -/
theorem hF2_3 (c : Dev nD) : (pdats m kits 2 c).arrAt (3 : Fin 5) (cfgs 2).N = U6 m kits c (Pipeline.arrRef (cfgs 2).spec (3 : Fin 5)) := by
  rw [pdats_2]
  show _ = Function.update (Function.update (U5 m kits c) main_v20_0 _) main_v20_1 _ main_v20_0
  rw [Function.update_of_ne (StableHlo.devRef_ne_of_ne (by decide : main_v20_0 ≠ main_v20_1)), Function.update_self]
  rfl
set_option backward.isDefEq.respectTransparency.types false in
/-- After region 2 its output array `main_v20_1` (window 4) holds the entry contents with every point's write-back folded in. -/
theorem hF2_4 (c : Dev nD) : (pdats m kits 2 c).arrAt (4 : Fin 5) (cfgs 2).N = U6 m kits c (Pipeline.arrRef (cfgs 2).spec (4 : Fin 5)) := by
  rw [pdats_2]
  show _ = Function.update (Function.update (U5 m kits c) main_v20_0 _) main_v20_1 _ main_v20_1
  rw [Function.update_self]
  rfl
set_option backward.isDefEq.respectTransparency.types false in
/-- After region 2 each of its arrays holds what the pipeline leaves. -/
theorem hF2 (c : Dev nD) : ∀ w : Fin 5, (pdats m kits 2 c).arrAt w (cfgs 2).N = U6 m kits c (Pipeline.arrRef (cfgs 2).spec w) :=
  forall_fin5 (hF2_0 m kits c) (hF2_1 m kits c) (hF2_2 m kits c) (hF2_3 m kits c) (hF2_4 m kits c)
set_option backward.isDefEq.respectTransparency.types false in
/-- Every buffer that is not one of region 2's arrays is as the region found it. -/
theorem hrest2 (c : Dev nD) : ∀ b : Ref sig .tc, b ∉ Finset.univ.image (Pipeline.arrRef (cfgs 2).spec) → U6 m kits c b = U5 m kits c b := fun b hb =>
  keep2 m kits c b (fun e => hb (Finset.mem_image.mpr ⟨(3 : Fin 5), Finset.mem_univ _, by rw [e]; rfl⟩)) (fun e => hb (Finset.mem_image.mpr ⟨(4 : Fin 5), Finset.mem_univ _, by rw [e]; rfl⟩))
/-- Region 2 as a segment: entered at the chain's contents before it, left at those after it. -/
def reg2 : Pipeline.RegionSeg (pcfgs (F := F)) adm (pdats m kits) () defs₀ Variants.none L0 lv0 2 :=
  regOf (pdats m kits) 2 launch2 (U5 m kits) (U6 m kits)
    (fun c w => (kits 2).A_eq _ c w) (fun c => (kits 2).body _ c) (fun c w => (kits 2).share _ c w)
    (fun c t => (kits 2).owed _ c t) (fun c t => (kits 2).recorded _ c t)
    (fun c => by unfold Pipeline.prefHeld; rw [show (Finset.univ : Finset (Fin 0)) = ∅ from rfl, BI.bigSep_empty])
    (fun c => (kits 2).phiIn _ c) (fun c => (kits 2).phiOut _ c)
    (hF2 m kits) (hrest2 m kits)

/-! ### Region 3 -/

/-- Region 3 changes only its output arrays. -/
theorem keep3 (c : Dev nD) (b : Ref sig .tc) (h7 : b ≠ main_v24) : U8 m kits c b = U7 m kits c b := by
  show Function.update (U7 m kits c) main_v24 _ b = _
  rw [Function.update_of_ne (StableHlo.devRef_ne_of_ne h7)]
/-- Region 3's proof data in the family. -/
theorem pdats_3 (c : Dev nD) : pdats m kits 3 c = (kits 3).dat (fun c b => U7 m kits c b) c := rfl
set_option backward.isDefEq.respectTransparency.types false in
/-- After region 3 its input array `main_v18` (window 0) holds its entry contents. -/
theorem hF3_0 (c : Dev nD) : (pdats m kits 3 c).arrAt (0 : Fin 8) (cfgs 3).N = U8 m kits c (Pipeline.arrRef (cfgs 3).spec (0 : Fin 8)) := by
  rw [pdats_3]
  refine Eq.trans ?_ (keep3 m kits c main_v18 (by decide)).symm
  exact (((kits 3).dat (fun c b => U7 m kits c b) c).arrAt_in (0 : Fin 8) rfl _).trans ((kits 3).A_eq (fun c b => U7 m kits c b) c (0 : Fin 8))
set_option backward.isDefEq.respectTransparency.types false in
/-- After region 3 its input array `main_arg7` (window 1) holds its entry contents. -/
theorem hF3_1 (c : Dev nD) : (pdats m kits 3 c).arrAt (1 : Fin 8) (cfgs 3).N = U8 m kits c (Pipeline.arrRef (cfgs 3).spec (1 : Fin 8)) := by
  rw [pdats_3]
  refine Eq.trans ?_ (keep3 m kits c main_arg7 (by decide)).symm
  exact (((kits 3).dat (fun c b => U7 m kits c b) c).arrAt_in (1 : Fin 8) rfl _).trans ((kits 3).A_eq (fun c b => U7 m kits c b) c (1 : Fin 8))
set_option backward.isDefEq.respectTransparency.types false in
/-- After region 3 its input array `main_v21` (window 2) holds its entry contents. -/
theorem hF3_2 (c : Dev nD) : (pdats m kits 3 c).arrAt (2 : Fin 8) (cfgs 3).N = U8 m kits c (Pipeline.arrRef (cfgs 3).spec (2 : Fin 8)) := by
  rw [pdats_3]
  refine Eq.trans ?_ (keep3 m kits c main_v21 (by decide)).symm
  exact (((kits 3).dat (fun c b => U7 m kits c b) c).arrAt_in (2 : Fin 8) rfl _).trans ((kits 3).A_eq (fun c b => U7 m kits c b) c (2 : Fin 8))
set_option backward.isDefEq.respectTransparency.types false in
/-- After region 3 its input array `main_v22` (window 3) holds its entry contents. -/
theorem hF3_3 (c : Dev nD) : (pdats m kits 3 c).arrAt (3 : Fin 8) (cfgs 3).N = U8 m kits c (Pipeline.arrRef (cfgs 3).spec (3 : Fin 8)) := by
  rw [pdats_3]
  refine Eq.trans ?_ (keep3 m kits c main_v22 (by decide)).symm
  exact (((kits 3).dat (fun c b => U7 m kits c b) c).arrAt_in (3 : Fin 8) rfl _).trans ((kits 3).A_eq (fun c b => U7 m kits c b) c (3 : Fin 8))
set_option backward.isDefEq.respectTransparency.types false in
/-- After region 3 its input array `main_v23` (window 4) holds its entry contents. -/
theorem hF3_4 (c : Dev nD) : (pdats m kits 3 c).arrAt (4 : Fin 8) (cfgs 3).N = U8 m kits c (Pipeline.arrRef (cfgs 3).spec (4 : Fin 8)) := by
  rw [pdats_3]
  refine Eq.trans ?_ (keep3 m kits c main_v23 (by decide)).symm
  exact (((kits 3).dat (fun c b => U7 m kits c b) c).arrAt_in (4 : Fin 8) rfl _).trans ((kits 3).A_eq (fun c b => U7 m kits c b) c (4 : Fin 8))
set_option backward.isDefEq.respectTransparency.types false in
/-- After region 3 its input array `main_v20_0` (window 5) holds its entry contents. -/
theorem hF3_5 (c : Dev nD) : (pdats m kits 3 c).arrAt (5 : Fin 8) (cfgs 3).N = U8 m kits c (Pipeline.arrRef (cfgs 3).spec (5 : Fin 8)) := by
  rw [pdats_3]
  refine Eq.trans ?_ (keep3 m kits c main_v20_0 (by decide)).symm
  exact (((kits 3).dat (fun c b => U7 m kits c b) c).arrAt_in (5 : Fin 8) rfl _).trans ((kits 3).A_eq (fun c b => U7 m kits c b) c (5 : Fin 8))
set_option backward.isDefEq.respectTransparency.types false in
/-- After region 3 its input array `main_v20_1` (window 6) holds its entry contents. -/
theorem hF3_6 (c : Dev nD) : (pdats m kits 3 c).arrAt (6 : Fin 8) (cfgs 3).N = U8 m kits c (Pipeline.arrRef (cfgs 3).spec (6 : Fin 8)) := by
  rw [pdats_3]
  refine Eq.trans ?_ (keep3 m kits c main_v20_1 (by decide)).symm
  exact (((kits 3).dat (fun c b => U7 m kits c b) c).arrAt_in (6 : Fin 8) rfl _).trans ((kits 3).A_eq (fun c b => U7 m kits c b) c (6 : Fin 8))
set_option backward.isDefEq.respectTransparency.types false in
/-- After region 3 its output array `main_v24` (window 7) holds the entry contents with every point's write-back folded in. -/
theorem hF3_7 (c : Dev nD) : (pdats m kits 3 c).arrAt (7 : Fin 8) (cfgs 3).N = U8 m kits c (Pipeline.arrRef (cfgs 3).spec (7 : Fin 8)) := by
  rw [pdats_3]
  show _ = Function.update (U7 m kits c) main_v24 _ main_v24
  rw [Function.update_self]
  rfl
set_option backward.isDefEq.respectTransparency.types false in
/-- After region 3 each of its arrays holds what the pipeline leaves. -/
theorem hF3 (c : Dev nD) : ∀ w : Fin 8, (pdats m kits 3 c).arrAt w (cfgs 3).N = U8 m kits c (Pipeline.arrRef (cfgs 3).spec w) :=
  forall_fin8 (hF3_0 m kits c) (hF3_1 m kits c) (hF3_2 m kits c) (hF3_3 m kits c) (hF3_4 m kits c) (hF3_5 m kits c) (hF3_6 m kits c) (hF3_7 m kits c)
set_option backward.isDefEq.respectTransparency.types false in
/-- Every buffer that is not one of region 3's arrays is as the region found it. -/
theorem hrest3 (c : Dev nD) : ∀ b : Ref sig .tc, b ∉ Finset.univ.image (Pipeline.arrRef (cfgs 3).spec) → U8 m kits c b = U7 m kits c b := fun b hb =>
  keep3 m kits c b (fun e => hb (Finset.mem_image.mpr ⟨(7 : Fin 8), Finset.mem_univ _, by rw [e]; rfl⟩))
/-- Region 3 as a segment: entered at the chain's contents before it, left at those after it. -/
def reg3 : Pipeline.RegionSeg (pcfgs (F := F)) adm (pdats m kits) () defs₀ Variants.none L0 lv0 3 :=
  regOf (pdats m kits) 3 launch3 (U7 m kits) (U8 m kits)
    (fun c w => (kits 3).A_eq _ c w) (fun c => (kits 3).body _ c) (fun c w => (kits 3).share _ c w)
    (fun c t => (kits 3).owed _ c t) (fun c t => (kits 3).recorded _ c t)
    (fun c => by unfold Pipeline.prefHeld; rw [show (Finset.univ : Finset (Fin 0)) = ∅ from rfl, BI.bigSep_empty])
    (fun c => (kits 3).phiIn _ c) (fun c => (kits 3).phiOut _ c)
    (hF3 m kits) (hrest3 m kits)

/-! ### Region 4 -/

/-- Region 4 changes only its output arrays. -/
theorem keep4 (c : Dev nD) (b : Ref sig .tc) (h5 : b ≠ main_v40_0) (h6 : b ≠ main_v40_1) : U10 m kits c b = U9 m kits c b := by
  show Function.update (Function.update (U9 m kits c) main_v40_0 _) main_v40_1 _ b = _
  rw [Function.update_of_ne (StableHlo.devRef_ne_of_ne h6), Function.update_of_ne (StableHlo.devRef_ne_of_ne h5)]
/-- Region 4's proof data in the family. -/
theorem pdats_4 (c : Dev nD) : pdats m kits 4 c = (kits 4).dat (fun c b => U9 m kits c b) c := rfl
set_option backward.isDefEq.respectTransparency.types false in
/-- After region 4 its input array `main_arg0` (window 0) holds its entry contents. -/
theorem hF4_0 (c : Dev nD) : (pdats m kits 4 c).arrAt (0 : Fin 7) (cfgs 4).N = U10 m kits c (Pipeline.arrRef (cfgs 4).spec (0 : Fin 7)) := by
  rw [pdats_4]
  refine Eq.trans ?_ (keep4 m kits c main_arg0 (by decide) (by decide)).symm
  exact (((kits 4).dat (fun c b => U9 m kits c b) c).arrAt_in (0 : Fin 7) rfl _).trans ((kits 4).A_eq (fun c b => U9 m kits c b) c (0 : Fin 7))
set_option backward.isDefEq.respectTransparency.types false in
/-- After region 4 its input array `main_v36` (window 1) holds its entry contents. -/
theorem hF4_1 (c : Dev nD) : (pdats m kits 4 c).arrAt (1 : Fin 7) (cfgs 4).N = U10 m kits c (Pipeline.arrRef (cfgs 4).spec (1 : Fin 7)) := by
  rw [pdats_4]
  refine Eq.trans ?_ (keep4 m kits c main_v36 (by decide) (by decide)).symm
  exact (((kits 4).dat (fun c b => U9 m kits c b) c).arrAt_in (1 : Fin 7) rfl _).trans ((kits 4).A_eq (fun c b => U9 m kits c b) c (1 : Fin 7))
set_option backward.isDefEq.respectTransparency.types false in
/-- After region 4 its input array `main_v37` (window 2) holds its entry contents. -/
theorem hF4_2 (c : Dev nD) : (pdats m kits 4 c).arrAt (2 : Fin 7) (cfgs 4).N = U10 m kits c (Pipeline.arrRef (cfgs 4).spec (2 : Fin 7)) := by
  rw [pdats_4]
  refine Eq.trans ?_ (keep4 m kits c main_v37 (by decide) (by decide)).symm
  exact (((kits 4).dat (fun c b => U9 m kits c b) c).arrAt_in (2 : Fin 7) rfl _).trans ((kits 4).A_eq (fun c b => U9 m kits c b) c (2 : Fin 7))
set_option backward.isDefEq.respectTransparency.types false in
/-- After region 4 its input array `main_v38` (window 3) holds its entry contents. -/
theorem hF4_3 (c : Dev nD) : (pdats m kits 4 c).arrAt (3 : Fin 7) (cfgs 4).N = U10 m kits c (Pipeline.arrRef (cfgs 4).spec (3 : Fin 7)) := by
  rw [pdats_4]
  refine Eq.trans ?_ (keep4 m kits c main_v38 (by decide) (by decide)).symm
  exact (((kits 4).dat (fun c b => U9 m kits c b) c).arrAt_in (3 : Fin 7) rfl _).trans ((kits 4).A_eq (fun c b => U9 m kits c b) c (3 : Fin 7))
set_option backward.isDefEq.respectTransparency.types false in
/-- After region 4 its input array `main_v39` (window 4) holds its entry contents. -/
theorem hF4_4 (c : Dev nD) : (pdats m kits 4 c).arrAt (4 : Fin 7) (cfgs 4).N = U10 m kits c (Pipeline.arrRef (cfgs 4).spec (4 : Fin 7)) := by
  rw [pdats_4]
  refine Eq.trans ?_ (keep4 m kits c main_v39 (by decide) (by decide)).symm
  exact (((kits 4).dat (fun c b => U9 m kits c b) c).arrAt_in (4 : Fin 7) rfl _).trans ((kits 4).A_eq (fun c b => U9 m kits c b) c (4 : Fin 7))
set_option backward.isDefEq.respectTransparency.types false in
/-- After region 4 its output array `main_v40_0` (window 5) holds the entry contents with every point's write-back folded in. -/
theorem hF4_5 (c : Dev nD) : (pdats m kits 4 c).arrAt (5 : Fin 7) (cfgs 4).N = U10 m kits c (Pipeline.arrRef (cfgs 4).spec (5 : Fin 7)) := by
  rw [pdats_4]
  show _ = Function.update (Function.update (U9 m kits c) main_v40_0 _) main_v40_1 _ main_v40_0
  rw [Function.update_of_ne (StableHlo.devRef_ne_of_ne (by decide : main_v40_0 ≠ main_v40_1)), Function.update_self]
  rfl
set_option backward.isDefEq.respectTransparency.types false in
/-- After region 4 its output array `main_v40_1` (window 6) holds the entry contents with every point's write-back folded in. -/
theorem hF4_6 (c : Dev nD) : (pdats m kits 4 c).arrAt (6 : Fin 7) (cfgs 4).N = U10 m kits c (Pipeline.arrRef (cfgs 4).spec (6 : Fin 7)) := by
  rw [pdats_4]
  show _ = Function.update (Function.update (U9 m kits c) main_v40_0 _) main_v40_1 _ main_v40_1
  rw [Function.update_self]
  rfl
set_option backward.isDefEq.respectTransparency.types false in
/-- After region 4 each of its arrays holds what the pipeline leaves. -/
theorem hF4 (c : Dev nD) : ∀ w : Fin 7, (pdats m kits 4 c).arrAt w (cfgs 4).N = U10 m kits c (Pipeline.arrRef (cfgs 4).spec w) :=
  forall_fin7 (hF4_0 m kits c) (hF4_1 m kits c) (hF4_2 m kits c) (hF4_3 m kits c) (hF4_4 m kits c) (hF4_5 m kits c) (hF4_6 m kits c)
set_option backward.isDefEq.respectTransparency.types false in
/-- Every buffer that is not one of region 4's arrays is as the region found it. -/
theorem hrest4 (c : Dev nD) : ∀ b : Ref sig .tc, b ∉ Finset.univ.image (Pipeline.arrRef (cfgs 4).spec) → U10 m kits c b = U9 m kits c b := fun b hb =>
  keep4 m kits c b (fun e => hb (Finset.mem_image.mpr ⟨(5 : Fin 7), Finset.mem_univ _, by rw [e]; rfl⟩)) (fun e => hb (Finset.mem_image.mpr ⟨(6 : Fin 7), Finset.mem_univ _, by rw [e]; rfl⟩))
/-- Region 4 as a segment: entered at the chain's contents before it, left at those after it. -/
def reg4 : Pipeline.RegionSeg (pcfgs (F := F)) adm (pdats m kits) () defs₀ Variants.none L0 lv0 4 :=
  regOf (pdats m kits) 4 launch4 (U9 m kits) (U10 m kits)
    (fun c w => (kits 4).A_eq _ c w) (fun c => (kits 4).body _ c) (fun c w => (kits 4).share _ c w)
    (fun c t => (kits 4).owed _ c t) (fun c t => (kits 4).recorded _ c t)
    (fun c => by unfold Pipeline.prefHeld; rw [show (Finset.univ : Finset (Fin 0)) = ∅ from rfl, BI.bigSep_empty])
    (fun c => (kits 4).phiIn _ c) (fun c => (kits 4).phiOut _ c)
    (hF4 m kits) (hrest4 m kits)

/-! ### Region 5 -/

/-- Region 5 changes only its output arrays. -/
theorem keep5 (c : Dev nD) (b : Ref sig .tc) (h9 : b ≠ main_v44) : U12 m kits c b = U11 m kits c b := by
  show Function.update (U11 m kits c) main_v44 _ b = _
  rw [Function.update_of_ne (StableHlo.devRef_ne_of_ne h9)]
/-- Region 5's proof data in the family. -/
theorem pdats_5 (c : Dev nD) : pdats m kits 5 c = (kits 5).dat (fun c b => U11 m kits c b) c := rfl
set_option backward.isDefEq.respectTransparency.types false in
/-- After region 5 its input array `main_arg0` (window 0) holds its entry contents. -/
theorem hF5_0 (c : Dev nD) : (pdats m kits 5 c).arrAt (0 : Fin 10) (cfgs 5).N = U12 m kits c (Pipeline.arrRef (cfgs 5).spec (0 : Fin 10)) := by
  rw [pdats_5]
  refine Eq.trans ?_ (keep5 m kits c main_arg0 (by decide)).symm
  exact (((kits 5).dat (fun c b => U11 m kits c b) c).arrAt_in (0 : Fin 10) rfl _).trans ((kits 5).A_eq (fun c b => U11 m kits c b) c (0 : Fin 10))
set_option backward.isDefEq.respectTransparency.types false in
/-- After region 5 its input array `main_v36` (window 1) holds its entry contents. -/
theorem hF5_1 (c : Dev nD) : (pdats m kits 5 c).arrAt (1 : Fin 10) (cfgs 5).N = U12 m kits c (Pipeline.arrRef (cfgs 5).spec (1 : Fin 10)) := by
  rw [pdats_5]
  refine Eq.trans ?_ (keep5 m kits c main_v36 (by decide)).symm
  exact (((kits 5).dat (fun c b => U11 m kits c b) c).arrAt_in (1 : Fin 10) rfl _).trans ((kits 5).A_eq (fun c b => U11 m kits c b) c (1 : Fin 10))
set_option backward.isDefEq.respectTransparency.types false in
/-- After region 5 its input array `main_v37` (window 2) holds its entry contents. -/
theorem hF5_2 (c : Dev nD) : (pdats m kits 5 c).arrAt (2 : Fin 10) (cfgs 5).N = U12 m kits c (Pipeline.arrRef (cfgs 5).spec (2 : Fin 10)) := by
  rw [pdats_5]
  refine Eq.trans ?_ (keep5 m kits c main_v37 (by decide)).symm
  exact (((kits 5).dat (fun c b => U11 m kits c b) c).arrAt_in (2 : Fin 10) rfl _).trans ((kits 5).A_eq (fun c b => U11 m kits c b) c (2 : Fin 10))
set_option backward.isDefEq.respectTransparency.types false in
/-- After region 5 its input array `main_v38` (window 3) holds its entry contents. -/
theorem hF5_3 (c : Dev nD) : (pdats m kits 5 c).arrAt (3 : Fin 10) (cfgs 5).N = U12 m kits c (Pipeline.arrRef (cfgs 5).spec (3 : Fin 10)) := by
  rw [pdats_5]
  refine Eq.trans ?_ (keep5 m kits c main_v38 (by decide)).symm
  exact (((kits 5).dat (fun c b => U11 m kits c b) c).arrAt_in (3 : Fin 10) rfl _).trans ((kits 5).A_eq (fun c b => U11 m kits c b) c (3 : Fin 10))
set_option backward.isDefEq.respectTransparency.types false in
/-- After region 5 its input array `main_v41` (window 4) holds its entry contents. -/
theorem hF5_4 (c : Dev nD) : (pdats m kits 5 c).arrAt (4 : Fin 10) (cfgs 5).N = U12 m kits c (Pipeline.arrRef (cfgs 5).spec (4 : Fin 10)) := by
  rw [pdats_5]
  refine Eq.trans ?_ (keep5 m kits c main_v41 (by decide)).symm
  exact (((kits 5).dat (fun c b => U11 m kits c b) c).arrAt_in (4 : Fin 10) rfl _).trans ((kits 5).A_eq (fun c b => U11 m kits c b) c (4 : Fin 10))
set_option backward.isDefEq.respectTransparency.types false in
/-- After region 5 its input array `main_v42` (window 5) holds its entry contents. -/
theorem hF5_5 (c : Dev nD) : (pdats m kits 5 c).arrAt (5 : Fin 10) (cfgs 5).N = U12 m kits c (Pipeline.arrRef (cfgs 5).spec (5 : Fin 10)) := by
  rw [pdats_5]
  refine Eq.trans ?_ (keep5 m kits c main_v42 (by decide)).symm
  exact (((kits 5).dat (fun c b => U11 m kits c b) c).arrAt_in (5 : Fin 10) rfl _).trans ((kits 5).A_eq (fun c b => U11 m kits c b) c (5 : Fin 10))
set_option backward.isDefEq.respectTransparency.types false in
/-- After region 5 its input array `main_v43` (window 6) holds its entry contents. -/
theorem hF5_6 (c : Dev nD) : (pdats m kits 5 c).arrAt (6 : Fin 10) (cfgs 5).N = U12 m kits c (Pipeline.arrRef (cfgs 5).spec (6 : Fin 10)) := by
  rw [pdats_5]
  refine Eq.trans ?_ (keep5 m kits c main_v43 (by decide)).symm
  exact (((kits 5).dat (fun c b => U11 m kits c b) c).arrAt_in (6 : Fin 10) rfl _).trans ((kits 5).A_eq (fun c b => U11 m kits c b) c (6 : Fin 10))
set_option backward.isDefEq.respectTransparency.types false in
/-- After region 5 its input array `main_v40_0` (window 7) holds its entry contents. -/
theorem hF5_7 (c : Dev nD) : (pdats m kits 5 c).arrAt (7 : Fin 10) (cfgs 5).N = U12 m kits c (Pipeline.arrRef (cfgs 5).spec (7 : Fin 10)) := by
  rw [pdats_5]
  refine Eq.trans ?_ (keep5 m kits c main_v40_0 (by decide)).symm
  exact (((kits 5).dat (fun c b => U11 m kits c b) c).arrAt_in (7 : Fin 10) rfl _).trans ((kits 5).A_eq (fun c b => U11 m kits c b) c (7 : Fin 10))
set_option backward.isDefEq.respectTransparency.types false in
/-- After region 5 its input array `main_v40_1` (window 8) holds its entry contents. -/
theorem hF5_8 (c : Dev nD) : (pdats m kits 5 c).arrAt (8 : Fin 10) (cfgs 5).N = U12 m kits c (Pipeline.arrRef (cfgs 5).spec (8 : Fin 10)) := by
  rw [pdats_5]
  refine Eq.trans ?_ (keep5 m kits c main_v40_1 (by decide)).symm
  exact (((kits 5).dat (fun c b => U11 m kits c b) c).arrAt_in (8 : Fin 10) rfl _).trans ((kits 5).A_eq (fun c b => U11 m kits c b) c (8 : Fin 10))
set_option backward.isDefEq.respectTransparency.types false in
/-- After region 5 its output array `main_v44` (window 9) holds the entry contents with every point's write-back folded in. -/
theorem hF5_9 (c : Dev nD) : (pdats m kits 5 c).arrAt (9 : Fin 10) (cfgs 5).N = U12 m kits c (Pipeline.arrRef (cfgs 5).spec (9 : Fin 10)) := by
  rw [pdats_5]
  show _ = Function.update (U11 m kits c) main_v44 _ main_v44
  rw [Function.update_self]
  rfl
set_option backward.isDefEq.respectTransparency.types false in
/-- After region 5 each of its arrays holds what the pipeline leaves. -/
theorem hF5 (c : Dev nD) : ∀ w : Fin 10, (pdats m kits 5 c).arrAt w (cfgs 5).N = U12 m kits c (Pipeline.arrRef (cfgs 5).spec w) :=
  forall_fin10 (hF5_0 m kits c) (hF5_1 m kits c) (hF5_2 m kits c) (hF5_3 m kits c) (hF5_4 m kits c) (hF5_5 m kits c) (hF5_6 m kits c) (hF5_7 m kits c) (hF5_8 m kits c) (hF5_9 m kits c)
set_option backward.isDefEq.respectTransparency.types false in
/-- Every buffer that is not one of region 5's arrays is as the region found it. -/
theorem hrest5 (c : Dev nD) : ∀ b : Ref sig .tc, b ∉ Finset.univ.image (Pipeline.arrRef (cfgs 5).spec) → U12 m kits c b = U11 m kits c b := fun b hb =>
  keep5 m kits c b (fun e => hb (Finset.mem_image.mpr ⟨(9 : Fin 10), Finset.mem_univ _, by rw [e]; rfl⟩))
/-- Region 5 as a segment: entered at the chain's contents before it, left at those after it. -/
def reg5 : Pipeline.RegionSeg (pcfgs (F := F)) adm (pdats m kits) () defs₀ Variants.none L0 lv0 5 :=
  regOf (pdats m kits) 5 launch5 (U11 m kits) (U12 m kits)
    (fun c w => (kits 5).A_eq _ c w) (fun c => (kits 5).body _ c) (fun c w => (kits 5).share _ c w)
    (fun c t => (kits 5).owed _ c t) (fun c t => (kits 5).recorded _ c t)
    (fun c => by unfold Pipeline.prefHeld; rw [show (Finset.univ : Finset (Fin 0)) = ∅ from rfl, BI.bigSep_empty])
    (fun c => (kits 5).phiIn _ c) (fun c => (kits 5).phiOut _ c)
    (hF5 m kits) (hrest5 m kits)

/-! ### Region 6 -/

/-- Region 6 changes only its output arrays. -/
theorem keep6 (c : Dev nD) (b : Ref sig .tc) (h3 : b ≠ main_v46_0) (h4 : b ≠ main_v46_1) : U14 m kits c b = U13 m kits c b := by
  show Function.update (Function.update (U13 m kits c) main_v46_0 _) main_v46_1 _ b = _
  rw [Function.update_of_ne (StableHlo.devRef_ne_of_ne h4), Function.update_of_ne (StableHlo.devRef_ne_of_ne h3)]
/-- Region 6's proof data in the family. -/
theorem pdats_6 (c : Dev nD) : pdats m kits 6 c = (kits 6).dat (fun c b => U13 m kits c b) c := rfl
set_option backward.isDefEq.respectTransparency.types false in
/-- After region 6 its input array `main_v44` (window 0) holds its entry contents. -/
theorem hF6_0 (c : Dev nD) : (pdats m kits 6 c).arrAt (0 : Fin 5) (cfgs 6).N = U14 m kits c (Pipeline.arrRef (cfgs 6).spec (0 : Fin 5)) := by
  rw [pdats_6]
  refine Eq.trans ?_ (keep6 m kits c main_v44 (by decide) (by decide)).symm
  exact (((kits 6).dat (fun c b => U13 m kits c b) c).arrAt_in (0 : Fin 5) rfl _).trans ((kits 6).A_eq (fun c b => U13 m kits c b) c (0 : Fin 5))
set_option backward.isDefEq.respectTransparency.types false in
/-- After region 6 its input array `main_arg15` (window 1) holds its entry contents. -/
theorem hF6_1 (c : Dev nD) : (pdats m kits 6 c).arrAt (1 : Fin 5) (cfgs 6).N = U14 m kits c (Pipeline.arrRef (cfgs 6).spec (1 : Fin 5)) := by
  rw [pdats_6]
  refine Eq.trans ?_ (keep6 m kits c main_arg15 (by decide) (by decide)).symm
  exact (((kits 6).dat (fun c b => U13 m kits c b) c).arrAt_in (1 : Fin 5) rfl _).trans ((kits 6).A_eq (fun c b => U13 m kits c b) c (1 : Fin 5))
set_option backward.isDefEq.respectTransparency.types false in
/-- After region 6 its input array `main_v45` (window 2) holds its entry contents. -/
theorem hF6_2 (c : Dev nD) : (pdats m kits 6 c).arrAt (2 : Fin 5) (cfgs 6).N = U14 m kits c (Pipeline.arrRef (cfgs 6).spec (2 : Fin 5)) := by
  rw [pdats_6]
  refine Eq.trans ?_ (keep6 m kits c main_v45 (by decide) (by decide)).symm
  exact (((kits 6).dat (fun c b => U13 m kits c b) c).arrAt_in (2 : Fin 5) rfl _).trans ((kits 6).A_eq (fun c b => U13 m kits c b) c (2 : Fin 5))
set_option backward.isDefEq.respectTransparency.types false in
/-- After region 6 its output array `main_v46_0` (window 3) holds the entry contents with every point's write-back folded in. -/
theorem hF6_3 (c : Dev nD) : (pdats m kits 6 c).arrAt (3 : Fin 5) (cfgs 6).N = U14 m kits c (Pipeline.arrRef (cfgs 6).spec (3 : Fin 5)) := by
  rw [pdats_6]
  show _ = Function.update (Function.update (U13 m kits c) main_v46_0 _) main_v46_1 _ main_v46_0
  rw [Function.update_of_ne (StableHlo.devRef_ne_of_ne (by decide : main_v46_0 ≠ main_v46_1)), Function.update_self]
  rfl
set_option backward.isDefEq.respectTransparency.types false in
/-- After region 6 its output array `main_v46_1` (window 4) holds the entry contents with every point's write-back folded in. -/
theorem hF6_4 (c : Dev nD) : (pdats m kits 6 c).arrAt (4 : Fin 5) (cfgs 6).N = U14 m kits c (Pipeline.arrRef (cfgs 6).spec (4 : Fin 5)) := by
  rw [pdats_6]
  show _ = Function.update (Function.update (U13 m kits c) main_v46_0 _) main_v46_1 _ main_v46_1
  rw [Function.update_self]
  rfl
set_option backward.isDefEq.respectTransparency.types false in
/-- After region 6 each of its arrays holds what the pipeline leaves. -/
theorem hF6 (c : Dev nD) : ∀ w : Fin 5, (pdats m kits 6 c).arrAt w (cfgs 6).N = U14 m kits c (Pipeline.arrRef (cfgs 6).spec w) :=
  forall_fin5 (hF6_0 m kits c) (hF6_1 m kits c) (hF6_2 m kits c) (hF6_3 m kits c) (hF6_4 m kits c)
set_option backward.isDefEq.respectTransparency.types false in
/-- Every buffer that is not one of region 6's arrays is as the region found it. -/
theorem hrest6 (c : Dev nD) : ∀ b : Ref sig .tc, b ∉ Finset.univ.image (Pipeline.arrRef (cfgs 6).spec) → U14 m kits c b = U13 m kits c b := fun b hb =>
  keep6 m kits c b (fun e => hb (Finset.mem_image.mpr ⟨(3 : Fin 5), Finset.mem_univ _, by rw [e]; rfl⟩)) (fun e => hb (Finset.mem_image.mpr ⟨(4 : Fin 5), Finset.mem_univ _, by rw [e]; rfl⟩))
/-- Region 6 as a segment: entered at the chain's contents before it, left at those after it. -/
def reg6 : Pipeline.RegionSeg (pcfgs (F := F)) adm (pdats m kits) () defs₀ Variants.none L0 lv0 6 :=
  regOf (pdats m kits) 6 launch6 (U13 m kits) (U14 m kits)
    (fun c w => (kits 6).A_eq _ c w) (fun c => (kits 6).body _ c) (fun c w => (kits 6).share _ c w)
    (fun c t => (kits 6).owed _ c t) (fun c t => (kits 6).recorded _ c t)
    (fun c => by unfold Pipeline.prefHeld; rw [show (Finset.univ : Finset (Fin 0)) = ∅ from rfl, BI.bigSep_empty])
    (fun c => (kits 6).phiIn _ c) (fun c => (kits 6).phiOut _ c)
    (hF6 m kits) (hrest6 m kits)

/-! ### Region 7 -/

/-- Region 7 changes only its output arrays. -/
theorem keep7 (c : Dev nD) (b : Ref sig .tc) (h9 : b ≠ main_v51_0) (h10 : b ≠ main_v51_1) : U16 m kits c b = U15 m kits c b := by
  show Function.update (Function.update (U15 m kits c) main_v51_0 _) main_v51_1 _ b = _
  rw [Function.update_of_ne (StableHlo.devRef_ne_of_ne h10), Function.update_of_ne (StableHlo.devRef_ne_of_ne h9)]
/-- Region 7's proof data in the family. -/
theorem pdats_7 (c : Dev nD) : pdats m kits 7 c = (kits 7).dat (fun c b => U15 m kits c b) c := rfl
set_option backward.isDefEq.respectTransparency.types false in
/-- After region 7 its input array `main_v44` (window 0) holds its entry contents. -/
theorem hF7_0 (c : Dev nD) : (pdats m kits 7 c).arrAt (0 : Fin 11) (cfgs 7).N = U16 m kits c (Pipeline.arrRef (cfgs 7).spec (0 : Fin 11)) := by
  rw [pdats_7]
  refine Eq.trans ?_ (keep7 m kits c main_v44 (by decide) (by decide)).symm
  exact (((kits 7).dat (fun c b => U15 m kits c b) c).arrAt_in (0 : Fin 11) rfl _).trans ((kits 7).A_eq (fun c b => U15 m kits c b) c (0 : Fin 11))
set_option backward.isDefEq.respectTransparency.types false in
/-- After region 7 its input array `main_arg15` (window 1) holds its entry contents. -/
theorem hF7_1 (c : Dev nD) : (pdats m kits 7 c).arrAt (1 : Fin 11) (cfgs 7).N = U16 m kits c (Pipeline.arrRef (cfgs 7).spec (1 : Fin 11)) := by
  rw [pdats_7]
  refine Eq.trans ?_ (keep7 m kits c main_arg15 (by decide) (by decide)).symm
  exact (((kits 7).dat (fun c b => U15 m kits c b) c).arrAt_in (1 : Fin 11) rfl _).trans ((kits 7).A_eq (fun c b => U15 m kits c b) c (1 : Fin 11))
set_option backward.isDefEq.respectTransparency.types false in
/-- After region 7 its input array `main_v47` (window 2) holds its entry contents. -/
theorem hF7_2 (c : Dev nD) : (pdats m kits 7 c).arrAt (2 : Fin 11) (cfgs 7).N = U16 m kits c (Pipeline.arrRef (cfgs 7).spec (2 : Fin 11)) := by
  rw [pdats_7]
  refine Eq.trans ?_ (keep7 m kits c main_v47 (by decide) (by decide)).symm
  exact (((kits 7).dat (fun c b => U15 m kits c b) c).arrAt_in (2 : Fin 11) rfl _).trans ((kits 7).A_eq (fun c b => U15 m kits c b) c (2 : Fin 11))
set_option backward.isDefEq.respectTransparency.types false in
/-- After region 7 its input array `main_v48` (window 3) holds its entry contents. -/
theorem hF7_3 (c : Dev nD) : (pdats m kits 7 c).arrAt (3 : Fin 11) (cfgs 7).N = U16 m kits c (Pipeline.arrRef (cfgs 7).spec (3 : Fin 11)) := by
  rw [pdats_7]
  refine Eq.trans ?_ (keep7 m kits c main_v48 (by decide) (by decide)).symm
  exact (((kits 7).dat (fun c b => U15 m kits c b) c).arrAt_in (3 : Fin 11) rfl _).trans ((kits 7).A_eq (fun c b => U15 m kits c b) c (3 : Fin 11))
set_option backward.isDefEq.respectTransparency.types false in
/-- After region 7 its input array `main_v49` (window 4) holds its entry contents. -/
theorem hF7_4 (c : Dev nD) : (pdats m kits 7 c).arrAt (4 : Fin 11) (cfgs 7).N = U16 m kits c (Pipeline.arrRef (cfgs 7).spec (4 : Fin 11)) := by
  rw [pdats_7]
  refine Eq.trans ?_ (keep7 m kits c main_v49 (by decide) (by decide)).symm
  exact (((kits 7).dat (fun c b => U15 m kits c b) c).arrAt_in (4 : Fin 11) rfl _).trans ((kits 7).A_eq (fun c b => U15 m kits c b) c (4 : Fin 11))
set_option backward.isDefEq.respectTransparency.types false in
/-- After region 7 its input array `main_v46_0` (window 5) holds its entry contents. -/
theorem hF7_5 (c : Dev nD) : (pdats m kits 7 c).arrAt (5 : Fin 11) (cfgs 7).N = U16 m kits c (Pipeline.arrRef (cfgs 7).spec (5 : Fin 11)) := by
  rw [pdats_7]
  refine Eq.trans ?_ (keep7 m kits c main_v46_0 (by decide) (by decide)).symm
  exact (((kits 7).dat (fun c b => U15 m kits c b) c).arrAt_in (5 : Fin 11) rfl _).trans ((kits 7).A_eq (fun c b => U15 m kits c b) c (5 : Fin 11))
set_option backward.isDefEq.respectTransparency.types false in
/-- After region 7 its input array `main_v46_1` (window 6) holds its entry contents. -/
theorem hF7_6 (c : Dev nD) : (pdats m kits 7 c).arrAt (6 : Fin 11) (cfgs 7).N = U16 m kits c (Pipeline.arrRef (cfgs 7).spec (6 : Fin 11)) := by
  rw [pdats_7]
  refine Eq.trans ?_ (keep7 m kits c main_v46_1 (by decide) (by decide)).symm
  exact (((kits 7).dat (fun c b => U15 m kits c b) c).arrAt_in (6 : Fin 11) rfl _).trans ((kits 7).A_eq (fun c b => U15 m kits c b) c (6 : Fin 11))
set_option backward.isDefEq.respectTransparency.types false in
/-- After region 7 its input array `main_arg19` (window 7) holds its entry contents. -/
theorem hF7_7 (c : Dev nD) : (pdats m kits 7 c).arrAt (7 : Fin 11) (cfgs 7).N = U16 m kits c (Pipeline.arrRef (cfgs 7).spec (7 : Fin 11)) := by
  rw [pdats_7]
  refine Eq.trans ?_ (keep7 m kits c main_arg19 (by decide) (by decide)).symm
  exact (((kits 7).dat (fun c b => U15 m kits c b) c).arrAt_in (7 : Fin 11) rfl _).trans ((kits 7).A_eq (fun c b => U15 m kits c b) c (7 : Fin 11))
set_option backward.isDefEq.respectTransparency.types false in
/-- After region 7 its input array `main_v50` (window 8) holds its entry contents. -/
theorem hF7_8 (c : Dev nD) : (pdats m kits 7 c).arrAt (8 : Fin 11) (cfgs 7).N = U16 m kits c (Pipeline.arrRef (cfgs 7).spec (8 : Fin 11)) := by
  rw [pdats_7]
  refine Eq.trans ?_ (keep7 m kits c main_v50 (by decide) (by decide)).symm
  exact (((kits 7).dat (fun c b => U15 m kits c b) c).arrAt_in (8 : Fin 11) rfl _).trans ((kits 7).A_eq (fun c b => U15 m kits c b) c (8 : Fin 11))
set_option backward.isDefEq.respectTransparency.types false in
/-- After region 7 its output array `main_v51_0` (window 9) holds the entry contents with every point's write-back folded in. -/
theorem hF7_9 (c : Dev nD) : (pdats m kits 7 c).arrAt (9 : Fin 11) (cfgs 7).N = U16 m kits c (Pipeline.arrRef (cfgs 7).spec (9 : Fin 11)) := by
  rw [pdats_7]
  show _ = Function.update (Function.update (U15 m kits c) main_v51_0 _) main_v51_1 _ main_v51_0
  rw [Function.update_of_ne (StableHlo.devRef_ne_of_ne (by decide : main_v51_0 ≠ main_v51_1)), Function.update_self]
  rfl
set_option backward.isDefEq.respectTransparency.types false in
/-- After region 7 its output array `main_v51_1` (window 10) holds the entry contents with every point's write-back folded in. -/
theorem hF7_10 (c : Dev nD) : (pdats m kits 7 c).arrAt (10 : Fin 11) (cfgs 7).N = U16 m kits c (Pipeline.arrRef (cfgs 7).spec (10 : Fin 11)) := by
  rw [pdats_7]
  show _ = Function.update (Function.update (U15 m kits c) main_v51_0 _) main_v51_1 _ main_v51_1
  rw [Function.update_self]
  rfl
set_option backward.isDefEq.respectTransparency.types false in
/-- After region 7 each of its arrays holds what the pipeline leaves. -/
theorem hF7 (c : Dev nD) : ∀ w : Fin 11, (pdats m kits 7 c).arrAt w (cfgs 7).N = U16 m kits c (Pipeline.arrRef (cfgs 7).spec w) :=
  forall_fin11 (hF7_0 m kits c) (hF7_1 m kits c) (hF7_2 m kits c) (hF7_3 m kits c) (hF7_4 m kits c) (hF7_5 m kits c) (hF7_6 m kits c) (hF7_7 m kits c) (hF7_8 m kits c) (hF7_9 m kits c) (hF7_10 m kits c)
set_option backward.isDefEq.respectTransparency.types false in
/-- Every buffer that is not one of region 7's arrays is as the region found it. -/
theorem hrest7 (c : Dev nD) : ∀ b : Ref sig .tc, b ∉ Finset.univ.image (Pipeline.arrRef (cfgs 7).spec) → U16 m kits c b = U15 m kits c b := fun b hb =>
  keep7 m kits c b (fun e => hb (Finset.mem_image.mpr ⟨(9 : Fin 11), Finset.mem_univ _, by rw [e]; rfl⟩)) (fun e => hb (Finset.mem_image.mpr ⟨(10 : Fin 11), Finset.mem_univ _, by rw [e]; rfl⟩))
/-- Region 7 as a segment: entered at the chain's contents before it, left at those after it. -/
def reg7 : Pipeline.RegionSeg (pcfgs (F := F)) adm (pdats m kits) () defs₀ Variants.none L0 lv0 7 :=
  regOf (pdats m kits) 7 launch7 (U15 m kits) (U16 m kits)
    (fun c w => (kits 7).A_eq _ c w) (fun c => (kits 7).body _ c) (fun c w => (kits 7).share _ c w)
    (fun c t => (kits 7).owed _ c t) (fun c t => (kits 7).recorded _ c t)
    (fun c => by unfold Pipeline.prefHeld; rw [show (Finset.univ : Finset (Fin 0)) = ∅ from rfl, BI.bigSep_empty])
    (fun c => (kits 7).phiIn _ c) (fun c => (kits 7).phiOut _ c)
    (hF7 m kits) (hrest7 m kits)

end Cert.KernelIdeal.Hand
end
-- ==== Proof.KI.Frame.lean ====
import proofs.«110491_j38809324487019_2_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (kits : (p : Fin 8) → Kit F p)

/-! ## The frame -/

section Frame
variable (ρ : Dev nD → PrngReg)

/-- The rest states between items: the generator register and the core's debts (none), the same throughout. -/
abbrev Es : Fin 9 → Dev nD → sProp 𝕄 := fun _ c => Rr c

theorem hu0 : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0c (c : Dev nD) : iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
    ⊢ (Es (F := F) 0 c : sProp 𝕄) := by
  iintro ⟨-, HO, -, Hp, -⟩
  isplitl [Hp]; · iexists _; iexact Hp
  iexists ∅; iexact HO

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L0 lv0)
    ⊢ (|={Set.univ}=> bigSep Finset.univ (Es (F := F) 0) : sProp 𝕄) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (Es (F := F) 0) : sProp 𝕄) := bigSep_mono fun c _ => hE0c ρ c
  iintro ⟨H, -⟩
  imodintro
  iapply hmono
  iexact H

include kits in
/-- Every weakly fair execution terminates without a fault and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Gen.frame_cond m (emb₁ : Emb (URounds (GSem nD τ sig) Unit) 𝕄) () Variants.none L0 lv0 (fun _ _ => rfl) ρ (outs m kits) (pdats m kits)
    0 (fun _ => (BI.emp : sProp 𝕄)) (initOf (Pipeline.cells cfgs cellOf_inj) (Pipeline.launchToks cfgs cellOf_inj)) hu0
    (Es (F := F)) (hE0 ρ) (fun c => by iintro ⟨-, HO⟩; iexact HO)
    (reg0 m kits) (fun c => by rw [V1_eq]; exact .rfl) (fun c => by rw [V2_eq]; exact .rfl)
    (reg1 m kits) (fun c => by rw [V3_eq]; exact .rfl) (fun c => by rw [V4_eq]; exact .rfl)
    (reg2 m kits) (fun c => by rw [V5_eq]; exact .rfl) (fun c => by rw [V6_eq]; exact .rfl)
    (reg3 m kits) (fun c => by rw [V7_eq]; exact .rfl) (fun c => by rw [V8_eq]; exact .rfl)
    (reg4 m kits) (fun c => by rw [V9_eq]; exact .rfl) (fun c => by rw [V10_eq]; exact .rfl)
    (reg5 m kits) (fun c => by rw [V11_eq]; exact .rfl) (fun c => by rw [V12_eq]; exact .rfl)
    (reg6 m kits) (fun c => by rw [V13_eq]; exact .rfl) (fun c => by rw [V14_eq]; exact .rfl)
    (reg7 m kits) (fun c => by rw [V15_eq]; exact .rfl) (fun c => by rw [V16_eq]; exact .rfl)
end Frame

end Cert.KernelIdeal.Hand
end
-- ==== Proof.Ref.Ops0.lean ====
/- The operations of window main_part0 of the reference program's @main, in order, as a list: each line of the window
   is one entry; a call of an outlined function is replaced by that function's own lines over the call's buffer record
   (and so for the calls it makes). A table read off the printed program; nothing is proved here. -/
import proofs.«110491_j38809324487019_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 104 operations of window main_part0 of @main, in order, the called functions' lines in their calls' places. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_arg2 main_v10 main_v11 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v11 main_arg3 main_v12 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg4 main_v13 (broadcastInDim S1x128 ![1] bcast_S128_S1x128_1 : (⟨S128, .f32⟩ : BufTy).Contents (Elt F) → (⟨S1x128, .f32⟩ : BufTy).Contents (Elt F)),
    unary main_v13 main_v14 (broadcastInDim S800000x128 ![0, 1] bcast_S1x128_S800000x128_0_1 : (⟨S1x128, .f32⟩ : BufTy).Contents (Elt F) → (⟨S800000x128, .f32⟩ : BufTy).Contents (Elt F)),
    binary main_v12 main_v14 main_v15 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    binary main_v15 main_cst main_v16 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    nullary main_cst_1 (constant S_ .f32 0x49435000#32),
    unary main_cst_1 main_v17 (broadcastInDim S128 ![] bcast_S_S128 : (⟨S_, .f32⟩ : BufTy).Contents (Elt F) → (⟨S128, .f32⟩ : BufTy).Contents (Elt F)),
    binary main_v16 main_v17 main_v18 (Host.divf : (⟨S128, .f32⟩ : BufTy).Contents (Elt F) → (⟨S128, .f32⟩ : BufTy).Contents (Elt F) → (⟨S128, .f32⟩ : BufTy).Contents (Elt F)),
    nullary main_c_2 (constantI S_ 32 0#32),
    TRef.nullary main_call0.cst (constant S_ .f32 0x00000000#32),
    TRef.binary (TRef.of main_v15 : TRef sig ⟨S800000x128, .f32⟩) main_call0.cst main_call0.v0 (fun x v => Host.reduceAdd x v reducesTo_S800000x128_S128_d0 h_S_),
    TRef.unary main_call0.v0 main_call0.v1 (broadcastInDim S1x128 ![1] bcast_S128_S1x128_1),
    TRef.nullary main_call0.cst_0 (constant S_ .f32 0x49435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S800000x128 ![0, 1] bcast_S1x128_S800000x128_0_1),
    TRef.binary (TRef.of main_v15 : TRef sig ⟨S800000x128, .f32⟩) main_call0.v4 main_call0.v5 subf,
    TRef.binary main_call0.v5 main_call0.v5 main_call0.v6 mulf,
    TRef.unary (TRef.of main_c_2 : TRef sig ⟨S_, .i32⟩) main_call0.v7 (sitofp .f32),
    TRef.nullary main_call0.cst_1 (constant S_ .f32 0x49435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S800000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v18 main_v20 (broadcastInDim S1x128 ![1] bcast_S128_S1x128_1 : (⟨S128, .f32⟩ : BufTy).Contents (Elt F) → (⟨S1x128, .f32⟩ : BufTy).Contents (Elt F)),
    unary main_v20 main_v21 (broadcastInDim S800000x128 ![0, 1] bcast_S1x128_S800000x128_0_1 : (⟨S1x128, .f32⟩ : BufTy).Contents (Elt F) → (⟨S800000x128, .f32⟩ : BufTy).Contents (Elt F)),
    binary main_v15 main_v21 main_v22 (subf : (⟨S800000x128, .f32⟩ : BufTy).Contents (Elt F) → (⟨S800000x128, .f32⟩ : BufTy).Contents (Elt F) → (⟨S800000x128, .f32⟩ : BufTy).Contents (Elt F)),
    nullary main_cst_3 (constant S_ .f32 0x3727C5AC#32),
    unary main_cst_3 main_v23 (broadcastInDim S128 ![] bcast_S_S128 : (⟨S_, .f32⟩ : BufTy).Contents (Elt F) → (⟨S128, .f32⟩ : BufTy).Contents (Elt F)),
    binary main_v19 main_v23 main_v24 (addf : (⟨S128, .f32⟩ : BufTy).Contents (Elt F) → (⟨S128, .f32⟩ : BufTy).Contents (Elt F) → (⟨S128, .f32⟩ : BufTy).Contents (Elt F)),
    unary main_v24 main_v25 (Host.rsqrt : (⟨S128, .f32⟩ : BufTy).Contents (Elt F) → (⟨S128, .f32⟩ : BufTy).Contents (Elt F)),
    unary main_v25 main_v26 (broadcastInDim S1x128 ![1] bcast_S128_S1x128_1 : (⟨S128, .f32⟩ : BufTy).Contents (Elt F) → (⟨S1x128, .f32⟩ : BufTy).Contents (Elt F)),
    unary main_v26 main_v27 (broadcastInDim S800000x128 ![0, 1] bcast_S1x128_S800000x128_0_1 : (⟨S1x128, .f32⟩ : BufTy).Contents (Elt F) → (⟨S800000x128, .f32⟩ : BufTy).Contents (Elt F)),
    binary main_v22 main_v27 main_v28 (mulf : (⟨S800000x128, .f32⟩ : BufTy).Contents (Elt F) → (⟨S800000x128, .f32⟩ : BufTy).Contents (Elt F) → (⟨S800000x128, .f32⟩ : BufTy).Contents (Elt F)),
    unary main_arg5 main_v29 (broadcastInDim S1x128 ![1] bcast_S128_S1x128_1 : (⟨S128, .f32⟩ : BufTy).Contents (Elt F) → (⟨S1x128, .f32⟩ : BufTy).Contents (Elt F)),
    unary main_v29 main_v30 (broadcastInDim S800000x128 ![0, 1] bcast_S1x128_S800000x128_0_1 : (⟨S1x128, .f32⟩ : BufTy).Contents (Elt F) → (⟨S800000x128, .f32⟩ : BufTy).Contents (Elt F)),
    binary main_v28 main_v30 main_v31 (mulf : (⟨S800000x128, .f32⟩ : BufTy).Contents (Elt F) → (⟨S800000x128, .f32⟩ : BufTy).Contents (Elt F) → (⟨S800000x128, .f32⟩ : BufTy).Contents (Elt F)),
    unary main_arg6 main_v32 (broadcastInDim S1x128 ![1] bcast_S128_S1x128_1 : (⟨S128, .f32⟩ : BufTy).Contents (Elt F) → (⟨S1x128, .f32⟩ : BufTy).Contents (Elt F)),
    unary main_v32 main_v33 (broadcastInDim S800000x128 ![0, 1] bcast_S1x128_S800000x128_0_1 : (⟨S1x128, .f32⟩ : BufTy).Contents (Elt F) → (⟨S800000x128, .f32⟩ : BufTy).Contents (Elt F)),
    binary main_v31 main_v33 main_v34 (addf : (⟨S800000x128, .f32⟩ : BufTy).Contents (Elt F) → (⟨S800000x128, .f32⟩ : BufTy).Contents (Elt F) → (⟨S800000x128, .f32⟩ : BufTy).Contents (Elt F)),
    TRef.nullary main_call1.cst (constant S_ .f32 0x00000000#32),
    TRef.unary main_call1.cst main_call1.v0 (broadcastInDim S800000x128 ![] bcast_S_S800000x128),
    TRef.binary (TRef.of main_v34 : TRef sig ⟨S800000x128, .f32⟩) main_call1.v0 main_call1.v1 maximumf,
    binary main_v35 main_arg7 main_v36 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg8 main_v37 (broadcastInDim S1x128 ![1] bcast_S128_S1x128_1 : (⟨S128, .f32⟩ : BufTy).Contents (Elt F) → (⟨S1x128, .f32⟩ : BufTy).Contents (Elt F)),
    unary main_v37 main_v38 (broadcastInDim S800000x128 ![0, 1] bcast_S1x128_S800000x128_0_1 : (⟨S1x128, .f32⟩ : BufTy).Contents (Elt F) → (⟨S800000x128, .f32⟩ : BufTy).Contents (Elt F)),
    binary main_v36 main_v38 main_v39 (addf : (⟨S800000x128, .f32⟩ : BufTy).Contents (Elt F) → (⟨S800000x128, .f32⟩ : BufTy).Contents (Elt F) → (⟨S800000x128, .f32⟩ : BufTy).Contents (Elt F)),
    nullary main_cst_4 (constant S_ .f32 0x00000000#32),
    binary main_v39 main_cst_4 main_v40 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    nullary main_cst_5 (constant S_ .f32 0x49435000#32),
    unary main_cst_5 main_v41 (broadcastInDim S128 ![] bcast_S_S128 : (⟨S_, .f32⟩ : BufTy).Contents (Elt F) → (⟨S128, .f32⟩ : BufTy).Contents (Elt F)),
    binary main_v40 main_v41 main_v42 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call2.cst (constant S_ .f32 0x00000000#32),
    TRef.binary (TRef.of main_v39 : TRef sig ⟨S800000x128, .f32⟩) main_call2.cst main_call2.v0 (fun x v => Host.reduceAdd x v reducesTo_S800000x128_S128_d0 h_S_),
    TRef.unary main_call2.v0 main_call2.v1 (broadcastInDim S1x128 ![1] bcast_S128_S1x128_1),
    TRef.nullary main_call2.cst_0 (constant S_ .f32 0x49435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S800000x128 ![0, 1] bcast_S1x128_S800000x128_0_1),
    TRef.binary (TRef.of main_v39 : TRef sig ⟨S800000x128, .f32⟩) main_call2.v4 main_call2.v5 subf,
    TRef.binary main_call2.v5 main_call2.v5 main_call2.v6 mulf,
    TRef.unary (TRef.of main_c_6 : TRef sig ⟨S_, .i32⟩) main_call2.v7 (sitofp .f32),
    TRef.nullary main_call2.cst_1 (constant S_ .f32 0x49435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S800000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v42 main_v44 (broadcastInDim S1x128 ![1] bcast_S128_S1x128_1 : (⟨S128, .f32⟩ : BufTy).Contents (Elt F) → (⟨S1x128, .f32⟩ : BufTy).Contents (Elt F)),
    unary main_v44 main_v45 (broadcastInDim S800000x128 ![0, 1] bcast_S1x128_S800000x128_0_1 : (⟨S1x128, .f32⟩ : BufTy).Contents (Elt F) → (⟨S800000x128, .f32⟩ : BufTy).Contents (Elt F)),
    binary main_v39 main_v45 main_v46 (subf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x3727C5AC#32),
    unary main_cst_7 main_v47 (broadcastInDim S128 ![] bcast_S_S128 : (⟨S_, .f32⟩ : BufTy).Contents (Elt F) → (⟨S128, .f32⟩ : BufTy).Contents (Elt F)),
    binary main_v43 main_v47 main_v48 (addf : (⟨S128, .f32⟩ : BufTy).Contents (Elt F) → (⟨S128, .f32⟩ : BufTy).Contents (Elt F) → (⟨S128, .f32⟩ : BufTy).Contents (Elt F)),
    unary main_v48 main_v49 (Host.rsqrt : (⟨S128, .f32⟩ : BufTy).Contents (Elt F) → (⟨S128, .f32⟩ : BufTy).Contents (Elt F)) ]

end Cert.ReferenceIdeal.Hand

end
-- ==== Proof.Ref.Eq0.lean ====
import proofs.«110491_j38809324487019_2_alg».proof.Proof.Ref.Ops0

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The first window of the reference program's @main is the straight line of its operations: the outlined
    functions unfold at their calls, the call records at their fields, and sequencing reassociates, so both sides
    are one chain of host steps. -/

set_option maxRecDepth 8192 in
theorem main_part0_eq (c : Dev nD) : main_part0 (F := F) c = seq ops0 := by
  simp only [main_part0, fn_var.body, fn_where.body, fn_relu.body, seq, bind_assoc, pure_bind] <;> rfl

/-- Every operation of the window touches TensorCore references only. -/
theorem ops0_sub : (ops0 : List (HloOp τ sig (Elt F))).Forall fun op => op.bufs ⊆ tcRefs τ sig := by
  simp only [ops0, List.Forall, nullary_bufs_sub, unary_bufs_sub, binary_bufs_sub, ternary_bufs_sub, reshape_bufs_sub, and_self]

/-- Every operation of the window determines its results. -/
theorem ops0_fresh : ∀ op ∈ (ops0 : List (HloOp τ sig (Elt F))), op.fresh = ∅ := by
  intro _ h; (repeat (cases h with | head => rfl | tail _ h => ?_)); exact nomatch h

/-- No operation of the window writes one of @main's twenty-one argument buffers (the references of index below 21):
    each writes one buffer, of index 21 or more. -/
theorem ops0_keeps {r : Ref sig .tc} (hr : r.idx.val < 21) :
    ∀ op ∈ (ops0 : List (HloOp τ sig (Elt F))), Proc.devRef (τ := τ) .tc r ∉ op.writes := by
  have h : (ops0 : List (HloOp τ sig (Elt F))).Forall fun op => Proc.devRef (τ := τ) .tc r ∉ op.writes := by
    simp only [ops0, List.Forall, nullary_writes, unary_writes, binary_writes, ternary_writes, reshape_writes, Finset.mem_singleton]
    repeat' apply And.intro
    all_goals exact devRef_ne_of_ne (fun e => by subst e; exact absurd hr (by decide))
  exact List.forall_iff_forall_mem.mp h

end Cert.ReferenceIdeal.Hand

end
-- ==== Proof.Ref.Ops1.lean ====
/- The operations of window main_part1 of the reference program's @main, in order, as a list: each line of the window
   is one entry; a call of an outlined function is replaced by that function's own lines over the call's buffer record
   (and so for the calls it makes). A table read off the printed program; nothing is proved here. -/
import proofs.«110491_j38809324487019_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 85 operations of window main_part1 of @main, in order, the called functions' lines in their calls' places. -/
abbrev ops1 : List (HloOp τ sig (Elt F)) :=
  [ unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S800000x128 ![0, 1] bcast_S1x128_S800000x128_0_1 : (⟨S1x128, .f32⟩ : BufTy).Contents (Elt F) → (⟨S800000x128, .f32⟩ : BufTy).Contents (Elt F)),
    binary main_v46 main_v51 main_v52 (mulf : (⟨S800000x128, .f32⟩ : BufTy).Contents (Elt F) → (⟨S800000x128, .f32⟩ : BufTy).Contents (Elt F) → (⟨S800000x128, .f32⟩ : BufTy).Contents (Elt F)),
    unary main_arg9 main_v53 (broadcastInDim S1x128 ![1] bcast_S128_S1x128_1 : (⟨S128, .f32⟩ : BufTy).Contents (Elt F) → (⟨S1x128, .f32⟩ : BufTy).Contents (Elt F)),
    unary main_v53 main_v54 (broadcastInDim S800000x128 ![0, 1] bcast_S1x128_S800000x128_0_1 : (⟨S1x128, .f32⟩ : BufTy).Contents (Elt F) → (⟨S800000x128, .f32⟩ : BufTy).Contents (Elt F)),
    binary main_v52 main_v54 main_v55 (mulf : (⟨S800000x128, .f32⟩ : BufTy).Contents (Elt F) → (⟨S800000x128, .f32⟩ : BufTy).Contents (Elt F) → (⟨S800000x128, .f32⟩ : BufTy).Contents (Elt F)),
    unary main_arg10 main_v56 (broadcastInDim S1x128 ![1] bcast_S128_S1x128_1 : (⟨S128, .f32⟩ : BufTy).Contents (Elt F) → (⟨S1x128, .f32⟩ : BufTy).Contents (Elt F)),
    unary main_v56 main_v57 (broadcastInDim S800000x128 ![0, 1] bcast_S1x128_S800000x128_0_1 : (⟨S1x128, .f32⟩ : BufTy).Contents (Elt F) → (⟨S800000x128, .f32⟩ : BufTy).Contents (Elt F)),
    binary main_v55 main_v57 main_v58 (addf : (⟨S800000x128, .f32⟩ : BufTy).Contents (Elt F) → (⟨S800000x128, .f32⟩ : BufTy).Contents (Elt F) → (⟨S800000x128, .f32⟩ : BufTy).Contents (Elt F)),
    TRef.nullary main_call3.cst (constant S_ .f32 0x00000000#32),
    TRef.unary main_call3.cst main_call3.v0 (broadcastInDim S800000x128 ![] bcast_S_S800000x128),
    TRef.binary (TRef.of main_v58 : TRef sig ⟨S800000x128, .f32⟩) main_call3.v0 main_call3.v1 maximumf,
    nullary main_cst_8 (constant S_ .f32 0x00000000#32),
    unary main_cst_8 main_v60 (broadcastInDim S50000x128 ![] bcast_S_S50000x128 : (⟨S_, .f32⟩ : BufTy).Contents (Elt F) → (⟨S50000x128, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_9 (constant S_ .f32 0x3F800000#32),
    unary main_cst_9 main_v63 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v64 (broadcastInDim S50000 ![] bcast_S_S50000 : (⟨S_, .f32⟩ : BufTy).Contents (Elt F) → (⟨S50000, .f32⟩ : BufTy).Contents (Elt F)),
    unary main_v3 main_v65 (broadcastInDim S800000x1 ![0] bcast_S800000_S800000x1_0 : (⟨S800000, .i32⟩ : BufTy).Contents (Elt F) → (⟨S800000x1, .i32⟩ : BufTy).Contents (Elt F)),
    ternary main_v64 main_v65 main_v63 main_v66 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_11 (constant S_ .f32 0x3F800000#32),
    unary main_cst_11 main_v67 (broadcastInDim S50000 ![] bcast_S_S50000 : (⟨S_, .f32⟩ : BufTy).Contents (Elt F) → (⟨S50000, .f32⟩ : BufTy).Contents (Elt F)),
    binary main_v66 main_v67 main_v68 (maximumf : (⟨S50000, .f32⟩ : BufTy).Contents (Elt F) → (⟨S50000, .f32⟩ : BufTy).Contents (Elt F) → (⟨S50000, .f32⟩ : BufTy).Contents (Elt F)),
    unary main_v68 main_v69 (broadcastInDim S50000x1 ![0] bcast_S50000_S50000x1_0 : (⟨S50000, .f32⟩ : BufTy).Contents (Elt F) → (⟨S50000x1, .f32⟩ : BufTy).Contents (Elt F)),
    unary main_v69 main_v70 (broadcastInDim S50000x128 ![0, 1] bcast_S50000x1_S50000x128_0_1 : (⟨S50000x1, .f32⟩ : BufTy).Contents (Elt F) → (⟨S50000x128, .f32⟩ : BufTy).Contents (Elt F)),
    binary main_v62 main_v70 main_v71 (Host.divf : (⟨S50000x128, .f32⟩ : BufTy).Contents (Elt F) → (⟨S50000x128, .f32⟩ : BufTy).Contents (Elt F) → (⟨S50000x128, .f32⟩ : BufTy).Contents (Elt F)),
    binary main_arg0 main_v71 main_v72 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v72 main_arg11 main_v73 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg12 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v76 main_cst_12 main_v77 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v78 (broadcastInDim S128 ![] bcast_S_S128 : (⟨S_, .f32⟩ : BufTy).Contents (Elt F) → (⟨S128, .f32⟩ : BufTy).Contents (Elt F)),
    binary main_v77 main_v78 main_v79 (Host.divf : (⟨S128, .f32⟩ : BufTy).Contents (Elt F) → (⟨S128, .f32⟩ : BufTy).Contents (Elt F) → (⟨S128, .f32⟩ : BufTy).Contents (Elt F)),
    nullary main_c_14 (constantI S_ 32 0#32),
    TRef.nullary main_call4.cst (constant S_ .f32 0x00000000#32),
    TRef.binary (TRef.of main_v76 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (TRef.of main_v76 : TRef sig ⟨S50000x128, .f32⟩) main_call4.v4 main_call4.v5 subf,
    TRef.binary main_call4.v5 main_call4.v5 main_call4.v6 mulf,
    TRef.unary (TRef.of main_c_14 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v79 main_v81 (broadcastInDim S1x128 ![1] bcast_S128_S1x128_1 : (⟨S128, .f32⟩ : BufTy).Contents (Elt F) → (⟨S1x128, .f32⟩ : BufTy).Contents (Elt F)),
    unary main_v81 main_v82 (broadcastInDim S50000x128 ![0, 1] bcast_S1x128_S50000x128_0_1 : (⟨S1x128, .f32⟩ : BufTy).Contents (Elt F) → (⟨S50000x128, .f32⟩ : BufTy).Contents (Elt F)),
    binary main_v76 main_v82 main_v83 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v84 (broadcastInDim S128 ![] bcast_S_S128 : (⟨S_, .f32⟩ : BufTy).Contents (Elt F) → (⟨S128, .f32⟩ : BufTy).Contents (Elt F)),
    binary main_v80 main_v84 main_v85 (addf : (⟨S128, .f32⟩ : BufTy).Contents (Elt F) → (⟨S128, .f32⟩ : BufTy).Contents (Elt F) → (⟨S128, .f32⟩ : BufTy).Contents (Elt F)),
    unary main_v85 main_v86 (Host.rsqrt : (⟨S128, .f32⟩ : BufTy).Contents (Elt F) → (⟨S128, .f32⟩ : BufTy).Contents (Elt F)),
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v83 main_v88 main_v89 (mulf : (⟨S50000x128, .f32⟩ : BufTy).Contents (Elt F) → (⟨S50000x128, .f32⟩ : BufTy).Contents (Elt F) → (⟨S50000x128, .f32⟩ : BufTy).Contents (Elt F)),
    unary main_arg13 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (mulf : (⟨S50000x128, .f32⟩ : BufTy).Contents (Elt F) → (⟨S50000x128, .f32⟩ : BufTy).Contents (Elt F) → (⟨S50000x128, .f32⟩ : BufTy).Contents (Elt F)),
    unary main_arg14 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v92 main_v94 main_v95 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (TRef.of main_v95 : TRef sig ⟨S50000x128, .f32⟩) main_call5.v0 main_call5.v1 maximumf,
    binary main_v96 main_arg15 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v97 main_v99 main_v100 (addf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x00000000#32) ]

end Cert.ReferenceIdeal.Hand

end
-- ==== Proof.Ref.Eq1.lean ====
import proofs.«110491_j38809324487019_2_alg».proof.Proof.Ref.Ops1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The second window of the reference program's @main is the straight line of its operations: the outlined
    functions unfold at their calls, the call records at their fields, and sequencing reassociates, so both sides
    are one chain of host steps. -/

set_option maxRecDepth 8192 in
theorem main_part1_eq (c : Dev nD) : main_part1 (F := F) c = seq ops1 := by
  simp only [main_part1, fn_relu.body, fn_var_0.body, fn_where.body, fn_relu_1.body, seq, bind_assoc, pure_bind] <;> rfl

/-- Every operation of the window touches TensorCore references only. -/
theorem ops1_sub : (ops1 : List (HloOp τ sig (Elt F))).Forall fun op => op.bufs ⊆ tcRefs τ sig := by
  simp only [ops1, List.Forall, nullary_bufs_sub, unary_bufs_sub, binary_bufs_sub, ternary_bufs_sub, reshape_bufs_sub, and_self]

/-- Every operation of the window determines its results. -/
theorem ops1_fresh : ∀ op ∈ (ops1 : List (HloOp τ sig (Elt F))), op.fresh = ∅ := by
  intro _ h; (repeat (cases h with | head => rfl | tail _ h => ?_)); exact nomatch h

/-- No operation of the window writes one of @main's twenty-one argument buffers (the references of index below 21):
    each writes one buffer, of index 21 or more. -/
theorem ops1_keeps {r : Ref sig .tc} (hr : r.idx.val < 21) :
    ∀ op ∈ (ops1 : List (HloOp τ sig (Elt F))), Proc.devRef (τ := τ) .tc r ∉ op.writes := by
  have h : (ops1 : List (HloOp τ sig (Elt F))).Forall fun op => Proc.devRef (τ := τ) .tc r ∉ op.writes := by
    simp only [ops1, List.Forall, nullary_writes, unary_writes, binary_writes, ternary_writes, reshape_writes, Finset.mem_singleton]
    repeat' apply And.intro
    all_goals exact devRef_ne_of_ne (fun e => by subst e; exact absurd hr (by decide))
  exact List.forall_iff_forall_mem.mp h

end Cert.ReferenceIdeal.Hand

end
-- ==== Proof.Ref.Ops2.lean ====
/- The operations of window main_part2 of the reference program's @main, in order, as a list: each line of the window
   is one entry; a call of an outlined function is replaced by that function's own lines over the call's buffer record
   (and so for the calls it makes). A table read off the printed program; nothing is proved here. -/
import proofs.«110491_j38809324487019_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 59 operations of window main_part2 of @main, in order, the called functions' lines in their calls' places. -/
abbrev ops2 : List (HloOp τ sig (Elt F)) :=
  [ binary main_v100 main_cst_16 main_v101 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_17 (constant S_ .f32 0x47435000#32),
    unary main_cst_17 main_v102 (broadcastInDim S128 ![] bcast_S_S128 : (⟨S_, .f32⟩ : BufTy).Contents (Elt F) → (⟨S128, .f32⟩ : BufTy).Contents (Elt F)),
    binary main_v101 main_v102 main_v103 (Host.divf : (⟨S128, .f32⟩ : BufTy).Contents (Elt F) → (⟨S128, .f32⟩ : BufTy).Contents (Elt F) → (⟨S128, .f32⟩ : BufTy).Contents (Elt F)),
    nullary main_c_18 (constantI S_ 32 0#32),
    TRef.nullary main_call6.cst (constant S_ .f32 0x00000000#32),
    TRef.binary (TRef.of main_v100 : TRef sig ⟨S50000x128, .f32⟩) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (TRef.of main_v100 : TRef sig ⟨S50000x128, .f32⟩) main_call6.v4 main_call6.v5 subf,
    TRef.binary main_call6.v5 main_call6.v5 main_call6.v6 mulf,
    TRef.unary (TRef.of main_c_18 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v103 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)),
    binary main_v100 main_v106 main_v107 (subf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x3727C5AC#32),
    unary main_cst_19 main_v108 (broadcastInDim S128 ![] bcast_S_S128 : (⟨S_, .f32⟩ : BufTy).Contents (Elt F) → (⟨S128, .f32⟩ : BufTy).Contents (Elt F)),
    binary main_v104 main_v108 main_v109 (addf : (⟨S128, .f32⟩ : BufTy).Contents (Elt F) → (⟨S128, .f32⟩ : BufTy).Contents (Elt F) → (⟨S128, .f32⟩ : BufTy).Contents (Elt F)),
    unary main_v109 main_v110 (Host.rsqrt : (⟨S128, .f32⟩ : BufTy).Contents (Elt F) → (⟨S128, .f32⟩ : BufTy).Contents (Elt F)),
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v107 main_v112 main_v113 (mulf : (⟨S50000x128, .f32⟩ : BufTy).Contents (Elt F) → (⟨S50000x128, .f32⟩ : BufTy).Contents (Elt F) → (⟨S50000x128, .f32⟩ : BufTy).Contents (Elt F)),
    unary main_arg17 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (mulf : (⟨S50000x128, .f32⟩ : BufTy).Contents (Elt F) → (⟨S50000x128, .f32⟩ : BufTy).Contents (Elt F) → (⟨S50000x128, .f32⟩ : BufTy).Contents (Elt F)),
    unary main_arg18 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v116 main_v118 main_v119 (addf : (⟨S50000x128, .f32⟩ : BufTy).Contents (Elt F) → (⟨S50000x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (TRef.of main_v119 : TRef sig ⟨S50000x128, .f32⟩) main_call7.v0 main_call7.v1 maximumf,
    binary main_v120 main_arg19 main_v121 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg20 main_v122 (broadcastInDim S1x1 ![1] bcast_S1_S1x1_1 : (⟨S1, .f32⟩ : BufTy).Contents (Elt F) → (⟨S1x1, .f32⟩ : BufTy).Contents (Elt F)),
    unary main_v122 main_v123 (broadcastInDim S50000x1 ![0, 1] bcast_S1x1_S50000x1_0_1 : (⟨S1x1, .f32⟩ : BufTy).Contents (Elt F) → (⟨S50000x1, .f32⟩ : BufTy).Contents (Elt F)),
    binary main_v121 main_v123 main_v124 (addf : (⟨S50000x1, .f32⟩ : BufTy).Contents (Elt F) → (⟨S50000x1, .f32⟩ : BufTy).Contents (Elt F) → (⟨S50000x1, .f32⟩ : BufTy).Contents (Elt F)),
    unary main_v124 main_v125 (Host.negf : (⟨S50000x1, .f32⟩ : BufTy).Contents (Elt F) → (⟨S50000x1, .f32⟩ : BufTy).Contents (Elt F)),
    unary main_v125 main_v126 (Host.exp : (⟨S50000x1, .f32⟩ : BufTy).Contents (Elt F) → (⟨S50000x1, .f32⟩ : BufTy).Contents (Elt F)),
    nullary main_cst_20 (constant S_ .f32 0x3F800000#32),
    unary main_cst_20 main_v127 (broadcastInDim S50000x1 ![] bcast_S_S50000x1 : (⟨S_, .f32⟩ : BufTy).Contents (Elt F) → (⟨S50000x1, .f32⟩ : BufTy).Contents (Elt F)),
    binary main_v127 main_v126 main_v128 (addf : (⟨S50000x1, .f32⟩ : BufTy).Contents (Elt F) → (⟨S50000x1, .f32⟩ : BufTy).Contents (Elt F) → (⟨S50000x1, .f32⟩ : BufTy).Contents (Elt F)),
    nullary main_cst_21 (constant S_ .f32 0x3F800000#32),
    unary main_cst_21 main_v129 (broadcastInDim S50000x1 ![] bcast_S_S50000x1 : (⟨S_, .f32⟩ : BufTy).Contents (Elt F) → (⟨S50000x1, .f32⟩ : BufTy).Contents (Elt F)),
    binary main_v129 main_v128 main_v130 (Host.divf : (⟨S50000x1, .f32⟩ : BufTy).Contents (Elt F) → (⟨S50000x1, .f32⟩ : BufTy).Contents (Elt F) → (⟨S50000x1, .f32⟩ : BufTy).Contents (Elt F)),
    reshape main_v130 main_v131 rfl shapeCasts_S50000x1_S50000 ]

end Cert.ReferenceIdeal.Hand

end
-- ==== Proof.Ref.Eq2.lean ====
import proofs.«110491_j38809324487019_2_alg».proof.Proof.Ref.Ops2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The third window of the reference program's @main is the straight line of its operations: the outlined
    functions unfold at their calls, the call records at their fields, and sequencing reassociates, so both sides
    are one chain of host steps. -/

set_option maxRecDepth 8192 in
theorem main_part2_eq (c : Dev nD) : main_part2 (F := F) c = seq ops2 := by
  simp only [main_part2, fn_var_0.body, fn_where.body, fn_relu_1.body, seq, bind_assoc, pure_bind] <;> rfl

/-- Every operation of the window touches TensorCore references only. -/
theorem ops2_sub : (ops2 : List (HloOp τ sig (Elt F))).Forall fun op => op.bufs ⊆ tcRefs τ sig := by
  simp only [ops2, List.Forall, nullary_bufs_sub, unary_bufs_sub, binary_bufs_sub, ternary_bufs_sub, reshape_bufs_sub, and_self]

/-- Every operation of the window determines its results. -/
theorem ops2_fresh : ∀ op ∈ (ops2 : List (HloOp τ sig (Elt F))), op.fresh = ∅ := by
  intro _ h; (repeat (cases h with | head => rfl | tail _ h => ?_)); exact nomatch h

/-- No operation of the window writes one of @main's twenty-one argument buffers (the references of index below 21):
    each writes one buffer, of index 21 or more. -/
theorem ops2_keeps {r : Ref sig .tc} (hr : r.idx.val < 21) :
    ∀ op ∈ (ops2 : List (HloOp τ sig (Elt F))), Proc.devRef (τ := τ) .tc r ∉ op.writes := by
  have h : (ops2 : List (HloOp τ sig (Elt F))).Forall fun op => Proc.devRef (τ := τ) .tc r ∉ op.writes := by
    simp only [ops2, List.Forall, nullary_writes, unary_writes, binary_writes, ternary_writes, reshape_writes, Finset.mem_singleton]
    repeat' apply And.intro
    all_goals exact devRef_ne_of_ne (fun e => by subst e; exact absurd hr (by decide))
  exact List.forall_iff_forall_mem.mp h

end Cert.ReferenceIdeal.Hand

end
-- ==== Proof.Ref.Run.lean ====
import proofs.«110491_j38809324487019_2_alg».proof.Proof.Ref.Eq0
import proofs.«110491_j38809324487019_2_alg».proof.Proof.Ref.Eq1
import proofs.«110491_j38809324487019_2_alg».proof.Proof.Ref.Eq2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The run of the reference program: its @main is the straight line of `ops` (the three windows' operations, the
    outlined functions' lines in their calls' places), so every weakly fair execution terminates with each TensorCore
    buffer at the fold of the operations over the launch contents; the two results are stated at that fold (kept
    folded), and the twenty-one argument buffers, which no operation writes, end as they began. -/

/-- @main's 248 operations, in order: the three windows' lists, one after the other. -/
abbrev ops : List (HloOp τ sig (Elt F)) := ops0 ++ (ops1 ++ ops2)

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

theorem ops_fresh : ∀ op ∈ (ops : List (HloOp τ sig (Elt F))), op.fresh = ∅ := fun op h => by
  simp only [ops, List.mem_append] at h
  rcases h with h | h | h
  exacts [ops0_fresh op h, ops1_fresh op h, ops2_fresh op h]

/-- No operation of @main writes an argument buffer. -/
theorem ops_keeps {r : Ref sig .tc} (hr : r.idx.val < 21) :
    ∀ op ∈ (ops : List (HloOp τ sig (Elt F))), Proc.devRef (τ := τ) .tc r ∉ op.writes := fun op h => by
  simp only [ops, List.mem_append] at h
  rcases h with h | h | h
  exacts [ops0_keeps hr op h, ops1_keeps hr op h, ops2_keeps hr op h]

/-- An argument buffer holds after the operations what it held before them. -/
theorem after_arg (V : Valuation τ sig (Elt F)) {r : Ref sig .tc} (hr : r.idx.val < 21) :
    after ops V (Proc.devRef .tc r) = V (Proc.devRef .tc r) :=
  after_of_forall_not_mem ops V (ops_keeps hr)

/-- On every device, for any float values, from any memory with zero counters: every weakly fair execution of
    @main terminates with each result at the fold of the operations over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v120) = after ops (launchContents m c) (Proc.devRef .tc main_v120)
      ∧ r.2.mem ((c.tc : Thread nD τ).loc main_v131) = after ops (launchContents m c) (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨h c main_v120, h c main_v131,
      (h c main_arg0).trans (after_arg (launchContents m c) (by decide)),
      (h c main_arg1).trans (after_arg (launchContents m c) (by decide)),
      (h c main_arg2).trans (after_arg (launchContents m c) (by decide)),
      (h c main_arg3).trans (after_arg (launchContents m c) (by decide)),
      (h c main_arg4).trans (after_arg (launchContents m c) (by decide)),
      (h c main_arg5).trans (after_arg (launchContents m c) (by decide)),
      (h c main_arg6).trans (after_arg (launchContents m c) (by decide)),
      (h c main_arg7).trans (after_arg (launchContents m c) (by decide)),
      (h c main_arg8).trans (after_arg (launchContents m c) (by decide)),
      (h c main_arg9).trans (after_arg (launchContents m c) (by decide)),
      (h c main_arg10).trans (after_arg (launchContents m c) (by decide)),
      (h c main_arg11).trans (after_arg (launchContents m c) (by decide)),
      (h c main_arg12).trans (after_arg (launchContents m c) (by decide)),
      (h c main_arg13).trans (after_arg (launchContents m c) (by decide)),
      (h c main_arg14).trans (after_arg (launchContents m c) (by decide)),
      (h c main_arg15).trans (after_arg (launchContents m c) (by decide)),
      (h c main_arg16).trans (after_arg (launchContents m c) (by decide)),
      (h c main_arg17).trans (after_arg (launchContents m c) (by decide)),
      (h c main_arg18).trans (after_arg (launchContents m c) (by decide)),
      (h c main_arg19).trans (after_arg (launchContents m c) (by decide)),
      (h c main_arg20).trans (after_arg (launchContents m c) (by decide))⟩)
    (run_seq scopedRefs_eq scopedSems_eq defs main (fun _ => ops) main_eq (fun _ => ops_sub) m ρ (fun _ => ops_fresh))

end Cert.ReferenceIdeal.Hand

end
-- ==== Proof.Frames.lean ====
/-
  The three frames. Each kernel program's run is its list of host stretches and kernel regions; every region is a
  segment between the chain's valuations, from its kit. The plain program has no kernel: its frame is its run with
  the results dropped.
-/
import proofs.«110491_j38809324487019_2_alg».proof.Defs
import proofs.«110491_j38809324487019_2_alg».proof.Proof.Gen.Pre_finite_inputs
import proofs.«110491_j38809324487019_2_alg».proof.Proof.K.Kits
import proofs.«110491_j38809324487019_2_alg».proof.Proof.K.Frame
import proofs.«110491_j38809324487019_2_alg».proof.Proof.KI.Kits
import proofs.«110491_j38809324487019_2_alg».proof.Proof.KI.Frame
import proofs.«110491_j38809324487019_2_alg».proof.Proof.Ref.Run

noncomputable section

namespace Cert.Proof

open Idealize.ShloMosaic Idealize.SL.Sem

/-- The word-level kernel program runs to its end, faults nowhere and leaves its arguments as launched. -/
theorem frame_k : Cert.frame_Kernel := fun m ρ _ => Cert.Kernel.Hand.frame (F := Bits) m Cert.Kernel.Hand.kits ρ

/-- So does the idealized kernel program. -/
theorem frame_ki : Cert.frame_KernelIdeal := fun m ρ _ => Cert.KernelIdeal.Hand.frame (F := Ideal) m Cert.KernelIdeal.Hand.kits ρ

/-- So does the plain program: its run, the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

end Cert.Proof

end
-- ==== Proof.Preserves.lean ====
/-
  The ideal pass replaced four occurrences of the literal f32(1/800000) and four of f32(1/50000) — the
  reciprocals of the two batch sizes, by which the statistics kernels turn a column sum into a mean — by named
  constants whose value at the ideal instance is the exact rational. Each replacement is sanctioned by the rule
  for named constants: the certificate's table gives the name that rational, and the printed constant is that
  value.
-/
import proofs.«110491_j38809324487019_2_alg».proof.Defs

noncomputable section

namespace Cert.Proof

open Idealize.ShloMosaic

/-- The table gives "inv_800000" the rational 1/800000. -/
theorem inv_E_stmt : IdealRules.named_const.Statement Cert.KernelIdeal.κ "inv_800000" .f32 0x35A7C5AC#32 ((1 / 800000 : ℝ) : EReal) :=
  IdealRules.named_const.statement Cert.KernelIdeal.κ "inv_800000" .f32 0x35A7C5AC#32 ((1 / 800000 : ℝ) : EReal) rfl

/-- The table gives "inv_50000" the rational 1/50000. -/
theorem inv_N_stmt : IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

/-- All eight ledger entries: the mean's and the mean-of-squares' scale in each of the four statistics kernels. -/
theorem preserves : Cert.preserves_Kernel_KernelIdeal :=
  ⟨inv_E_stmt, inv_E_stmt, inv_E_stmt, inv_E_stmt, inv_N_stmt, inv_N_stmt, inv_N_stmt, inv_N_stmt⟩

end Cert.Proof

end
-- ==== Proof.KI.RunCond.lean ====
/-
  The idealized kernel program's run with its two results named. The generated conditional frame states, of the
  final memory, only that the argument arrays are as launched; the same run — the program as its list of host
  stretches and kernel regions, each region a segment record between two thread states, the launch, the last thread
  state read against the final memory — also gives the contents of every other unscoped buffer at the end of the
  chain of valuations, in particular the two result buffers.
-/
import proofs.«110491_j38809324487019_2_alg».proof.Proof.Gen.KernelIdeal.Regions

set_option maxRecDepth 1204

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ)

set_option backward.isDefEq.respectTransparency.types false in
/-- The program's run with its results named: given, per kernel region, a segment record entered from the thread state
    before it and left at the one after it, every weakly fair execution of the program from memory `m` with zero
    counters terminates, every final memory holds the two result buffers at the last valuation of the chain, and
    every argument array is as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c)) :
    θ_run defs (onTc (τ := τ) (main (F := F))) ⟨m, fun _ => 0, ρ⟩ (fun r => ∀ c : Dev nD,
      r.2.mem ((c.tc : Thread nD τ).loc main_v51_0) = V17 m outs c (Proc.devRef .tc main_v51_0)
      ∧ r.2.mem ((c.tc : Thread nD τ).loc main_v52) = V17 m outs c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, sep_mono .rfl (hE8 c)⟩)
    (hinit := ?_) (QY := fun c s => s.mem ((c.tc : Thread nD τ).loc main_v51_0) = V17 m outs c (Proc.devRef .tc main_v51_0) ∧ s.mem ((c.tc : Thread nD τ).loc main_v52) = V17 m outs c (Proc.devRef .tc main_v52) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨h (Proc.devRef .tc main_v51_0) (Finset.mem_filter.mpr ⟨StableHlo.devRef_mem_tcRefs main_v51_0, by decide⟩),
        h (Proc.devRef .tc main_v52) (Finset.mem_filter.mpr ⟨StableHlo.devRef_mem_tcRefs main_v52, by decide⟩),
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c),
        (h (Proc.devRef .tc main_arg3) (Finset.mem_filter.mpr ⟨StableHlo.devRef_mem_tcRefs main_arg3, by decide⟩)).trans (V17_main_arg3 m outs c),
        (h (Proc.devRef .tc main_arg4) (Finset.mem_filter.mpr ⟨StableHlo.devRef_mem_tcRefs main_arg4, by decide⟩)).trans (V17_main_arg4 m outs c),
        (h (Proc.devRef .tc main_arg5) (Finset.mem_filter.mpr ⟨StableHlo.devRef_mem_tcRefs main_arg5, by decide⟩)).trans (V17_main_arg5 m outs c),
        (h (Proc.devRef .tc main_arg6) (Finset.mem_filter.mpr ⟨StableHlo.devRef_mem_tcRefs main_arg6, by decide⟩)).trans (V17_main_arg6 m outs c),
        (h (Proc.devRef .tc main_arg7) (Finset.mem_filter.mpr ⟨StableHlo.devRef_mem_tcRefs main_arg7, by decide⟩)).trans (V17_main_arg7 m outs c),
        (h (Proc.devRef .tc main_arg8) (Finset.mem_filter.mpr ⟨StableHlo.devRef_mem_tcRefs main_arg8, by decide⟩)).trans (V17_main_arg8 m outs c),
        (h (Proc.devRef .tc main_arg9) (Finset.mem_filter.mpr ⟨StableHlo.devRef_mem_tcRefs main_arg9, by decide⟩)).trans (V17_main_arg9 m outs c),
        (h (Proc.devRef .tc main_arg10) (Finset.mem_filter.mpr ⟨StableHlo.devRef_mem_tcRefs main_arg10, by decide⟩)).trans (V17_main_arg10 m outs c),
        (h (Proc.devRef .tc main_arg11) (Finset.mem_filter.mpr ⟨StableHlo.devRef_mem_tcRefs main_arg11, by decide⟩)).trans (V17_main_arg11 m outs c),
        (h (Proc.devRef .tc main_arg12) (Finset.mem_filter.mpr ⟨StableHlo.devRef_mem_tcRefs main_arg12, by decide⟩)).trans (V17_main_arg12 m outs c),
        (h (Proc.devRef .tc main_arg13) (Finset.mem_filter.mpr ⟨StableHlo.devRef_mem_tcRefs main_arg13, by decide⟩)).trans (V17_main_arg13 m outs c),
        (h (Proc.devRef .tc main_arg14) (Finset.mem_filter.mpr ⟨StableHlo.devRef_mem_tcRefs main_arg14, by decide⟩)).trans (V17_main_arg14 m outs c),
        (h (Proc.devRef .tc main_arg15) (Finset.mem_filter.mpr ⟨StableHlo.devRef_mem_tcRefs main_arg15, by decide⟩)).trans (V17_main_arg15 m outs c),
        (h (Proc.devRef .tc main_arg16) (Finset.mem_filter.mpr ⟨StableHlo.devRef_mem_tcRefs main_arg16, by decide⟩)).trans (V17_main_arg16 m outs c),
        (h (Proc.devRef .tc main_arg17) (Finset.mem_filter.mpr ⟨StableHlo.devRef_mem_tcRefs main_arg17, by decide⟩)).trans (V17_main_arg17 m outs c),
        (h (Proc.devRef .tc main_arg18) (Finset.mem_filter.mpr ⟨StableHlo.devRef_mem_tcRefs main_arg18, by decide⟩)).trans (V17_main_arg18 m outs c),
        (h (Proc.devRef .tc main_arg19) (Finset.mem_filter.mpr ⟨StableHlo.devRef_mem_tcRefs main_arg19, by decide⟩)).trans (V17_main_arg19 m outs c),
        (h (Proc.devRef .tc main_arg20) (Finset.mem_filter.mpr ⟨StableHlo.devRef_mem_tcRefs main_arg20, by decide⟩)).trans (V17_main_arg20 m outs c)⟩
    · iexact HSI

end Cert.KernelIdeal.Hand

end
-- ==== Proof.KI.Run.lean ====
import proofs.«110491_j38809324487019_2_alg».proof.Proof.KI.Frame
import proofs.«110491_j38809324487019_2_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (kits : (p : Fin 8) → Kit F p)

section Run
variable (ρ : Dev nD → PrngReg)

include kits in
/-- Every weakly fair execution terminates without a fault with the two result buffers at the end of the chain of
    valuations and each argument array as launched. -/
theorem run : θ_run defs (onTc (τ := τ) (main (F := F))) ⟨m, fun _ => 0, ρ⟩ (fun r => ∀ c : Dev nD,
      r.2.mem ((c.tc : Thread nD τ).loc main_v51_0) = U17 m kits c (Proc.devRef .tc main_v51_0)
      ∧ r.2.mem ((c.tc : Thread nD τ).loc main_v52) = U17 m kits c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  have h := run_cond m (emb₁ : Emb (URounds (GSem nD τ sig) Unit) 𝕄) () Variants.none L0 lv0 (fun _ _ => rfl) ρ (outs m kits) (pdats m kits)
    0 (fun _ => (BI.emp : sProp 𝕄)) (initOf (Pipeline.cells cfgs cellOf_inj) (Pipeline.launchToks cfgs cellOf_inj)) hu0
    (Es (F := F)) (hE0 ρ) (fun c => by iintro ⟨-, HO⟩; iexact HO)
    (reg0 m kits) (fun c => by rw [V1_eq]; exact .rfl) (fun c => by rw [V2_eq]; exact .rfl)
    (reg1 m kits) (fun c => by rw [V3_eq]; exact .rfl) (fun c => by rw [V4_eq]; exact .rfl)
    (reg2 m kits) (fun c => by rw [V5_eq]; exact .rfl) (fun c => by rw [V6_eq]; exact .rfl)
    (reg3 m kits) (fun c => by rw [V7_eq]; exact .rfl) (fun c => by rw [V8_eq]; exact .rfl)
    (reg4 m kits) (fun c => by rw [V9_eq]; exact .rfl) (fun c => by rw [V10_eq]; exact .rfl)
    (reg5 m kits) (fun c => by rw [V11_eq]; exact .rfl) (fun c => by rw [V12_eq]; exact .rfl)
    (reg6 m kits) (fun c => by rw [V13_eq]; exact .rfl) (fun c => by rw [V14_eq]; exact .rfl)
    (reg7 m kits) (fun c => by rw [V15_eq]; exact .rfl) (fun c => by rw [V16_eq]; exact .rfl)
  refine (θ_run defs _ _).mono (fun r hr c => ?_) h
  have hc := hr c
  rw [V17_eq] at hc
  exact hc
end Run

end Cert.KernelIdeal.Hand
end
-- ==== Proof.Ref.Stretches.lean ====
/- The operations of the reference program's @main, in order (the called functions' lines in their calls' places), cut
   into consecutive lists: list st_<name> ends with the operation that writes the named intermediate value's buffer.
   A table read off the printed program; nothing is proved here. -/
import proofs.«110491_j38809324487019_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 14 of @main: they write the buffers of index 21 … 34, the last being main_v11. -/
abbrev st_h0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_arg2 main_v10 main_v11 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)) ]

/-- Operations 15 … 18 of @main: they write the buffers of index 35 … 38, the last being main_v15. -/
abbrev st_y1 : List (HloOp τ sig (Elt F)) :=
  [ binary main_v11 main_arg3 main_v12 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg4 main_v13 (broadcastInDim S1x128 ![1] bcast_S128_S1x128_1 : (⟨S128, .f32⟩ : BufTy).Contents (Elt F) → (⟨S1x128, .f32⟩ : BufTy).Contents (Elt F)),
    unary main_v13 main_v14 (broadcastInDim S800000x128 ![0, 1] bcast_S1x128_S800000x128_0_1 : (⟨S1x128, .f32⟩ : BufTy).Contents (Elt F) → (⟨S800000x128, .f32⟩ : BufTy).Contents (Elt F)),
    binary main_v12 main_v14 main_v15 (addf : (⟨S800000x128, .f32⟩ : BufTy).Contents (Elt F) → (⟨S800000x128, .f32⟩ : BufTy).Contents (Elt F) → (⟨S800000x128, .f32⟩ : BufTy).Contents (Elt F)) ]

/-- Operations 19 … 23 of @main: they write the buffers of index 39 … 43, the last being main_v18. -/
abbrev st_m1 : List (HloOp τ sig (Elt F)) :=
  [ nullary main_cst (constant S_ .f32 0x00000000#32),
    binary main_v15 main_cst main_v16 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    nullary main_cst_1 (constant S_ .f32 0x49435000#32),
    unary main_cst_1 main_v17 (broadcastInDim S128 ![] bcast_S_S128 : (⟨S_, .f32⟩ : BufTy).Contents (Elt F) → (⟨S128, .f32⟩ : BufTy).Contents (Elt F)),
    binary main_v16 main_v17 main_v18 (Host.divf : (⟨S128, .f32⟩ : BufTy).Contents (Elt F) → (⟨S128, .f32⟩ : BufTy).Contents (Elt F) → (⟨S128, .f32⟩ : BufTy).Contents (Elt F)) ]

/-- Operations 24 … 46 of @main: they write the buffers of index 44 … 66, the last being main_v19. -/
abbrev st_v1 : List (HloOp τ sig (Elt F)) :=
  [ nullary main_c_2 (constantI S_ 32 0#32),
    TRef.nullary main_call0.cst (constant S_ .f32 0x00000000#32),
    TRef.binary (TRef.of main_v15 : TRef sig ⟨S800000x128, .f32⟩) main_call0.cst main_call0.v0 (fun x v => Host.reduceAdd x v reducesTo_S800000x128_S128_d0 h_S_),
    TRef.unary main_call0.v0 main_call0.v1 (broadcastInDim S1x128 ![1] bcast_S128_S1x128_1),
    TRef.nullary main_call0.cst_0 (constant S_ .f32 0x49435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S800000x128 ![0, 1] bcast_S1x128_S800000x128_0_1),
    TRef.binary (TRef.of main_v15 : TRef sig ⟨S800000x128, .f32⟩) main_call0.v4 main_call0.v5 subf,
    TRef.binary main_call0.v5 main_call0.v5 main_call0.v6 mulf,
    TRef.unary (TRef.of main_c_2 : TRef sig ⟨S_, .i32⟩) main_call0.v7 (sitofp .f32),
    TRef.nullary main_call0.cst_1 (constant S_ .f32 0x49435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S800000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- Operations 47 … 65 of @main: they write the buffers of index 67 … 85, the last being main_v35. -/
abbrev st_h1 : List (HloOp τ sig (Elt F)) :=
  [ unary main_v18 main_v20 (broadcastInDim S1x128 ![1] bcast_S128_S1x128_1 : (⟨S128, .f32⟩ : BufTy).Contents (Elt F) → (⟨S1x128, .f32⟩ : BufTy).Contents (Elt F)),
    unary main_v20 main_v21 (broadcastInDim S800000x128 ![0, 1] bcast_S1x128_S800000x128_0_1 : (⟨S1x128, .f32⟩ : BufTy).Contents (Elt F) → (⟨S800000x128, .f32⟩ : BufTy).Contents (Elt F)),
    binary main_v15 main_v21 main_v22 (subf : (⟨S800000x128, .f32⟩ : BufTy).Contents (Elt F) → (⟨S800000x128, .f32⟩ : BufTy).Contents (Elt F) → (⟨S800000x128, .f32⟩ : BufTy).Contents (Elt F)),
    nullary main_cst_3 (constant S_ .f32 0x3727C5AC#32),
    unary main_cst_3 main_v23 (broadcastInDim S128 ![] bcast_S_S128 : (⟨S_, .f32⟩ : BufTy).Contents (Elt F) → (⟨S128, .f32⟩ : BufTy).Contents (Elt F)),
    binary main_v19 main_v23 main_v24 (addf : (⟨S128, .f32⟩ : BufTy).Contents (Elt F) → (⟨S128, .f32⟩ : BufTy).Contents (Elt F) → (⟨S128, .f32⟩ : BufTy).Contents (Elt F)),
    unary main_v24 main_v25 (Host.rsqrt : (⟨S128, .f32⟩ : BufTy).Contents (Elt F) → (⟨S128, .f32⟩ : BufTy).Contents (Elt F)),
    unary main_v25 main_v26 (broadcastInDim S1x128 ![1] bcast_S128_S1x128_1 : (⟨S128, .f32⟩ : BufTy).Contents (Elt F) → (⟨S1x128, .f32⟩ : BufTy).Contents (Elt F)),
    unary main_v26 main_v27 (broadcastInDim S800000x128 ![0, 1] bcast_S1x128_S800000x128_0_1 : (⟨S1x128, .f32⟩ : BufTy).Contents (Elt F) → (⟨S800000x128, .f32⟩ : BufTy).Contents (Elt F)),
    binary main_v22 main_v27 main_v28 (mulf : (⟨S800000x128, .f32⟩ : BufTy).Contents (Elt F) → (⟨S800000x128, .f32⟩ : BufTy).Contents (Elt F) → (⟨S800000x128, .f32⟩ : BufTy).Contents (Elt F)),
    unary main_arg5 main_v29 (broadcastInDim S1x128 ![1] bcast_S128_S1x128_1 : (⟨S128, .f32⟩ : BufTy).Contents (Elt F) → (⟨S1x128, .f32⟩ : BufTy).Contents (Elt F)),
    unary main_v29 main_v30 (broadcastInDim S800000x128 ![0, 1] bcast_S1x128_S800000x128_0_1 : (⟨S1x128, .f32⟩ : BufTy).Contents (Elt F) → (⟨S800000x128, .f32⟩ : BufTy).Contents (Elt F)),
    binary main_v28 main_v30 main_v31 (mulf : (⟨S800000x128, .f32⟩ : BufTy).Contents (Elt F) → (⟨S800000x128, .f32⟩ : BufTy).Contents (Elt F) → (⟨S800000x128, .f32⟩ : BufTy).Contents (Elt F)),
    unary main_arg6 main_v32 (broadcastInDim S1x128 ![1] bcast_S128_S1x128_1 : (⟨S128, .f32⟩ : BufTy).Contents (Elt F) → (⟨S1x128, .f32⟩ : BufTy).Contents (Elt F)),
    unary main_v32 main_v33 (broadcastInDim S800000x128 ![0, 1] bcast_S1x128_S800000x128_0_1 : (⟨S1x128, .f32⟩ : BufTy).Contents (Elt F) → (⟨S800000x128, .f32⟩ : BufTy).Contents (Elt F)),
    binary main_v31 main_v33 main_v34 (addf : (⟨S800000x128, .f32⟩ : BufTy).Contents (Elt F) → (⟨S800000x128, .f32⟩ : BufTy).Contents (Elt F) → (⟨S800000x128, .f32⟩ : BufTy).Contents (Elt F)),
    TRef.nullary main_call1.cst (constant S_ .f32 0x00000000#32),
    TRef.unary main_call1.cst main_call1.v0 (broadcastInDim S800000x128 ![] bcast_S_S800000x128),
    TRef.binary (TRef.of main_v34 : TRef sig ⟨S800000x128, .f32⟩) main_call1.v0 main_call1.v1 maximumf ]

/-- Operations 66 … 69 of @main: they write the buffers of index 86 … 89, the last being main_v39. -/
abbrev st_y2 : List (HloOp τ sig (Elt F)) :=
  [ binary main_v35 main_arg7 main_v36 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg8 main_v37 (broadcastInDim S1x128 ![1] bcast_S128_S1x128_1 : (⟨S128, .f32⟩ : BufTy).Contents (Elt F) → (⟨S1x128, .f32⟩ : BufTy).Contents (Elt F)),
    unary main_v37 main_v38 (broadcastInDim S800000x128 ![0, 1] bcast_S1x128_S800000x128_0_1 : (⟨S1x128, .f32⟩ : BufTy).Contents (Elt F) → (⟨S800000x128, .f32⟩ : BufTy).Contents (Elt F)),
    binary main_v36 main_v38 main_v39 (addf : (⟨S800000x128, .f32⟩ : BufTy).Contents (Elt F) → (⟨S800000x128, .f32⟩ : BufTy).Contents (Elt F) → (⟨S800000x128, .f32⟩ : BufTy).Contents (Elt F)) ]

/-- Operations 70 … 74 of @main: they write the buffers of index 90 … 94, the last being main_v42. -/
abbrev st_m2 : List (HloOp τ sig (Elt F)) :=
  [ nullary main_cst_4 (constant S_ .f32 0x00000000#32),
    binary main_v39 main_cst_4 main_v40 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    nullary main_cst_5 (constant S_ .f32 0x49435000#32),
    unary main_cst_5 main_v41 (broadcastInDim S128 ![] bcast_S_S128 : (⟨S_, .f32⟩ : BufTy).Contents (Elt F) → (⟨S128, .f32⟩ : BufTy).Contents (Elt F)),
    binary main_v40 main_v41 main_v42 (Host.divf : (⟨S128, .f32⟩ : BufTy).Contents (Elt F) → (⟨S128, .f32⟩ : BufTy).Contents (Elt F) → (⟨S128, .f32⟩ : BufTy).Contents (Elt F)) ]

/-- Operations 75 … 97 of @main: they write the buffers of index 95 … 117, the last being main_v43. -/
abbrev st_v2 : List (HloOp τ sig (Elt F)) :=
  [ nullary main_c_6 (constantI S_ 32 0#32),
    TRef.nullary main_call2.cst (constant S_ .f32 0x00000000#32),
    TRef.binary (TRef.of main_v39 : TRef sig ⟨S800000x128, .f32⟩) main_call2.cst main_call2.v0 (fun x v => Host.reduceAdd x v reducesTo_S800000x128_S128_d0 h_S_),
    TRef.unary main_call2.v0 main_call2.v1 (broadcastInDim S1x128 ![1] bcast_S128_S1x128_1),
    TRef.nullary main_call2.cst_0 (constant S_ .f32 0x49435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S800000x128 ![0, 1] bcast_S1x128_S800000x128_0_1),
    TRef.binary (TRef.of main_v39 : TRef sig ⟨S800000x128, .f32⟩) main_call2.v4 main_call2.v5 subf,
    TRef.binary main_call2.v5 main_call2.v5 main_call2.v6 mulf,
    TRef.unary (TRef.of main_c_6 : TRef sig ⟨S_, .i32⟩) main_call2.v7 (sitofp .f32),
    TRef.nullary main_call2.cst_1 (constant S_ .f32 0x49435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S800000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- Operations 98 … 116 of @main: they write the buffers of index 118 … 136, the last being main_v59. -/
abbrev st_h2 : List (HloOp τ sig (Elt F)) :=
  [ unary main_v42 main_v44 (broadcastInDim S1x128 ![1] bcast_S128_S1x128_1 : (⟨S128, .f32⟩ : BufTy).Contents (Elt F) → (⟨S1x128, .f32⟩ : BufTy).Contents (Elt F)),
    unary main_v44 main_v45 (broadcastInDim S800000x128 ![0, 1] bcast_S1x128_S800000x128_0_1 : (⟨S1x128, .f32⟩ : BufTy).Contents (Elt F) → (⟨S800000x128, .f32⟩ : BufTy).Contents (Elt F)),
    binary main_v39 main_v45 main_v46 (subf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x3727C5AC#32),
    unary main_cst_7 main_v47 (broadcastInDim S128 ![] bcast_S_S128 : (⟨S_, .f32⟩ : BufTy).Contents (Elt F) → (⟨S128, .f32⟩ : BufTy).Contents (Elt F)),
    binary main_v43 main_v47 main_v48 (addf : (⟨S128, .f32⟩ : BufTy).Contents (Elt F) → (⟨S128, .f32⟩ : BufTy).Contents (Elt F) → (⟨S128, .f32⟩ : BufTy).Contents (Elt F)),
    unary main_v48 main_v49 (Host.rsqrt : (⟨S128, .f32⟩ : BufTy).Contents (Elt F) → (⟨S128, .f32⟩ : BufTy).Contents (Elt F)),
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S800000x128 ![0, 1] bcast_S1x128_S800000x128_0_1 : (⟨S1x128, .f32⟩ : BufTy).Contents (Elt F) → (⟨S800000x128, .f32⟩ : BufTy).Contents (Elt F)),
    binary main_v46 main_v51 main_v52 (mulf : (⟨S800000x128, .f32⟩ : BufTy).Contents (Elt F) → (⟨S800000x128, .f32⟩ : BufTy).Contents (Elt F) → (⟨S800000x128, .f32⟩ : BufTy).Contents (Elt F)),
    unary main_arg9 main_v53 (broadcastInDim S1x128 ![1] bcast_S128_S1x128_1 : (⟨S128, .f32⟩ : BufTy).Contents (Elt F) → (⟨S1x128, .f32⟩ : BufTy).Contents (Elt F)),
    unary main_v53 main_v54 (broadcastInDim S800000x128 ![0, 1] bcast_S1x128_S800000x128_0_1 : (⟨S1x128, .f32⟩ : BufTy).Contents (Elt F) → (⟨S800000x128, .f32⟩ : BufTy).Contents (Elt F)),
    binary main_v52 main_v54 main_v55 (mulf : (⟨S800000x128, .f32⟩ : BufTy).Contents (Elt F) → (⟨S800000x128, .f32⟩ : BufTy).Contents (Elt F) → (⟨S800000x128, .f32⟩ : BufTy).Contents (Elt F)),
    unary main_arg10 main_v56 (broadcastInDim S1x128 ![1] bcast_S128_S1x128_1 : (⟨S128, .f32⟩ : BufTy).Contents (Elt F) → (⟨S1x128, .f32⟩ : BufTy).Contents (Elt F)),
    unary main_v56 main_v57 (broadcastInDim S800000x128 ![0, 1] bcast_S1x128_S800000x128_0_1 : (⟨S1x128, .f32⟩ : BufTy).Contents (Elt F) → (⟨S800000x128, .f32⟩ : BufTy).Contents (Elt F)),
    binary main_v55 main_v57 main_v58 (addf : (⟨S800000x128, .f32⟩ : BufTy).Contents (Elt F) → (⟨S800000x128, .f32⟩ : BufTy).Contents (Elt F) → (⟨S800000x128, .f32⟩ : BufTy).Contents (Elt F)),
    TRef.nullary main_call3.cst (constant S_ .f32 0x00000000#32),
    TRef.unary main_call3.cst main_call3.v0 (broadcastInDim S800000x128 ![] bcast_S_S800000x128),
    TRef.binary (TRef.of main_v58 : TRef sig ⟨S800000x128, .f32⟩) main_call3.v0 main_call3.v1 maximumf ]

/-- Operations 117 … 120 of @main: they write the buffers of index 137 … 140, the last being main_v62. -/
abbrev st_s : List (HloOp τ sig (Elt F)) :=
  [ nullary main_cst_8 (constant S_ .f32 0x00000000#32),
    unary main_cst_8 main_v60 (broadcastInDim S50000x128 ![] bcast_S_S50000x128 : (⟨S_, .f32⟩ : BufTy).Contents (Elt F) → (⟨S50000x128, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Operations 121 … 126 of @main: they write the buffers of index 141 … 146, the last being main_v66. -/
abbrev st_cnt : List (HloOp τ sig (Elt F)) :=
  [ nullary main_cst_9 (constant S_ .f32 0x3F800000#32),
    unary main_cst_9 main_v63 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v64 (broadcastInDim S50000 ![] bcast_S_S50000 : (⟨S_, .f32⟩ : BufTy).Contents (Elt F) → (⟨S50000, .f32⟩ : BufTy).Contents (Elt F)),
    unary main_v3 main_v65 (broadcastInDim S800000x1 ![0] bcast_S800000_S800000x1_0 : (⟨S800000, .i32⟩ : BufTy).Contents (Elt F) → (⟨S800000x1, .i32⟩ : BufTy).Contents (Elt F)),
    ternary main_v64 main_v65 main_v63 main_v66 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

/-- Operations 127 … 132 of @main: they write the buffers of index 147 … 152, the last being main_v71. -/
abbrev st_agg : List (HloOp τ sig (Elt F)) :=
  [ nullary main_cst_11 (constant S_ .f32 0x3F800000#32),
    unary main_cst_11 main_v67 (broadcastInDim S50000 ![] bcast_S_S50000 : (⟨S_, .f32⟩ : BufTy).Contents (Elt F) → (⟨S50000, .f32⟩ : BufTy).Contents (Elt F)),
    binary main_v66 main_v67 main_v68 (maximumf : (⟨S50000, .f32⟩ : BufTy).Contents (Elt F) → (⟨S50000, .f32⟩ : BufTy).Contents (Elt F) → (⟨S50000, .f32⟩ : BufTy).Contents (Elt F)),
    unary main_v68 main_v69 (broadcastInDim S50000x1 ![0] bcast_S50000_S50000x1_0 : (⟨S50000, .f32⟩ : BufTy).Contents (Elt F) → (⟨S50000x1, .f32⟩ : BufTy).Contents (Elt F)),
    unary main_v69 main_v70 (broadcastInDim S50000x128 ![0, 1] bcast_S50000x1_S50000x128_0_1 : (⟨S50000x1, .f32⟩ : BufTy).Contents (Elt F) → (⟨S50000x128, .f32⟩ : BufTy).Contents (Elt F)),
    binary main_v62 main_v70 main_v71 (Host.divf : (⟨S50000x128, .f32⟩ : BufTy).Contents (Elt F) → (⟨S50000x128, .f32⟩ : BufTy).Contents (Elt F) → (⟨S50000x128, .f32⟩ : BufTy).Contents (Elt F)) ]

/-- Operations 133 … 133 of @main: they write the buffers of index 153 … 153, the last being main_v72. -/
abbrev st_o0 : List (HloOp τ sig (Elt F)) :=
  [ binary main_arg0 main_v71 main_v72 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]

/-- Operations 134 … 137 of @main: they write the buffers of index 154 … 157, the last being main_v76. -/
abbrev st_y3 : List (HloOp τ sig (Elt F)) :=
  [ binary main_v72 main_arg11 main_v73 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg12 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)) ]

/-- Operations 138 … 142 of @main: they write the buffers of index 158 … 162, the last being main_v79. -/
abbrev st_m3 : List (HloOp τ sig (Elt F)) :=
  [ nullary main_cst_12 (constant S_ .f32 0x00000000#32),
    binary main_v76 main_cst_12 main_v77 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v78 (broadcastInDim S128 ![] bcast_S_S128 : (⟨S_, .f32⟩ : BufTy).Contents (Elt F) → (⟨S128, .f32⟩ : BufTy).Contents (Elt F)),
    binary main_v77 main_v78 main_v79 (Host.divf : (⟨S128, .f32⟩ : BufTy).Contents (Elt F) → (⟨S128, .f32⟩ : BufTy).Contents (Elt F) → (⟨S128, .f32⟩ : BufTy).Contents (Elt F)) ]

/-- Operations 143 … 165 of @main: they write the buffers of index 163 … 185, the last being main_v80. -/
abbrev st_v3 : List (HloOp τ sig (Elt F)) :=
  [ nullary main_c_14 (constantI S_ 32 0#32),
    TRef.nullary main_call4.cst (constant S_ .f32 0x00000000#32),
    TRef.binary (TRef.of main_v76 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (TRef.of main_v76 : TRef sig ⟨S50000x128, .f32⟩) main_call4.v4 main_call4.v5 subf,
    TRef.binary main_call4.v5 main_call4.v5 main_call4.v6 mulf,
    TRef.unary (TRef.of main_c_14 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b) ]

/-- Operations 166 … 184 of @main: they write the buffers of index 186 … 204, the last being main_v96. -/
abbrev st_o1 : List (HloOp τ sig (Elt F)) :=
  [ unary main_v79 main_v81 (broadcastInDim S1x128 ![1] bcast_S128_S1x128_1 : (⟨S128, .f32⟩ : BufTy).Contents (Elt F) → (⟨S1x128, .f32⟩ : BufTy).Contents (Elt F)),
    unary main_v81 main_v82 (broadcastInDim S50000x128 ![0, 1] bcast_S1x128_S50000x128_0_1 : (⟨S1x128, .f32⟩ : BufTy).Contents (Elt F) → (⟨S50000x128, .f32⟩ : BufTy).Contents (Elt F)),
    binary main_v76 main_v82 main_v83 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v84 (broadcastInDim S128 ![] bcast_S_S128 : (⟨S_, .f32⟩ : BufTy).Contents (Elt F) → (⟨S128, .f32⟩ : BufTy).Contents (Elt F)),
    binary main_v80 main_v84 main_v85 (addf : (⟨S128, .f32⟩ : BufTy).Contents (Elt F) → (⟨S128, .f32⟩ : BufTy).Contents (Elt F) → (⟨S128, .f32⟩ : BufTy).Contents (Elt F)),
    unary main_v85 main_v86 (Host.rsqrt : (⟨S128, .f32⟩ : BufTy).Contents (Elt F) → (⟨S128, .f32⟩ : BufTy).Contents (Elt F)),
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v83 main_v88 main_v89 (mulf : (⟨S50000x128, .f32⟩ : BufTy).Contents (Elt F) → (⟨S50000x128, .f32⟩ : BufTy).Contents (Elt F) → (⟨S50000x128, .f32⟩ : BufTy).Contents (Elt F)),
    unary main_arg13 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (mulf : (⟨S50000x128, .f32⟩ : BufTy).Contents (Elt F) → (⟨S50000x128, .f32⟩ : BufTy).Contents (Elt F) → (⟨S50000x128, .f32⟩ : BufTy).Contents (Elt F)),
    unary main_arg14 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v92 main_v94 main_v95 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (TRef.of main_v95 : TRef sig ⟨S50000x128, .f32⟩) main_call5.v0 main_call5.v1 maximumf ]

/-- Operations 185 … 188 of @main: they write the buffers of index 205 … 208, the last being main_v100. -/
abbrev st_y4 : List (HloOp τ sig (Elt F)) :=
  [ binary main_v96 main_arg15 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v97 main_v99 main_v100 (addf : (⟨S50000x128, .f32⟩ : BufTy).Contents (Elt F) → (⟨S50000x128, .f32⟩ : BufTy).Contents (Elt F) → (⟨S50000x128, .f32⟩ : BufTy).Contents (Elt F)) ]

/-- Operations 189 … 193 of @main: they write the buffers of index 209 … 213, the last being main_v103. -/
abbrev st_m4 : List (HloOp τ sig (Elt F)) :=
  [ nullary main_cst_16 (constant S_ .f32 0x00000000#32),
    binary main_v100 main_cst_16 main_v101 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_17 (constant S_ .f32 0x47435000#32),
    unary main_cst_17 main_v102 (broadcastInDim S128 ![] bcast_S_S128 : (⟨S_, .f32⟩ : BufTy).Contents (Elt F) → (⟨S128, .f32⟩ : BufTy).Contents (Elt F)),
    binary main_v101 main_v102 main_v103 (Host.divf : (⟨S128, .f32⟩ : BufTy).Contents (Elt F) → (⟨S128, .f32⟩ : BufTy).Contents (Elt F) → (⟨S128, .f32⟩ : BufTy).Contents (Elt F)) ]

/-- Operations 194 … 216 of @main: they write the buffers of index 214 … 236, the last being main_v104. -/
abbrev st_v4 : List (HloOp τ sig (Elt F)) :=
  [ nullary main_c_18 (constantI S_ 32 0#32),
    TRef.nullary main_call6.cst (constant S_ .f32 0x00000000#32),
    TRef.binary (TRef.of main_v100 : TRef sig ⟨S50000x128, .f32⟩) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (TRef.of main_v100 : TRef sig ⟨S50000x128, .f32⟩) main_call6.v4 main_call6.v5 subf,
    TRef.binary main_call6.v5 main_call6.v5 main_call6.v6 mulf,
    TRef.unary (TRef.of main_c_18 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b) ]

/-- Operations 217 … 235 of @main: they write the buffers of index 237 … 255, the last being main_v120. -/
abbrev st_o2 : List (HloOp τ sig (Elt F)) :=
  [ unary main_v103 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)),
    binary main_v100 main_v106 main_v107 (subf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x3727C5AC#32),
    unary main_cst_19 main_v108 (broadcastInDim S128 ![] bcast_S_S128 : (⟨S_, .f32⟩ : BufTy).Contents (Elt F) → (⟨S128, .f32⟩ : BufTy).Contents (Elt F)),
    binary main_v104 main_v108 main_v109 (addf : (⟨S128, .f32⟩ : BufTy).Contents (Elt F) → (⟨S128, .f32⟩ : BufTy).Contents (Elt F) → (⟨S128, .f32⟩ : BufTy).Contents (Elt F)),
    unary main_v109 main_v110 (Host.rsqrt : (⟨S128, .f32⟩ : BufTy).Contents (Elt F) → (⟨S128, .f32⟩ : BufTy).Contents (Elt F)),
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v107 main_v112 main_v113 (mulf : (⟨S50000x128, .f32⟩ : BufTy).Contents (Elt F) → (⟨S50000x128, .f32⟩ : BufTy).Contents (Elt F) → (⟨S50000x128, .f32⟩ : BufTy).Contents (Elt F)),
    unary main_arg17 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (mulf : (⟨S50000x128, .f32⟩ : BufTy).Contents (Elt F) → (⟨S50000x128, .f32⟩ : BufTy).Contents (Elt F) → (⟨S50000x128, .f32⟩ : BufTy).Contents (Elt F)),
    unary main_arg18 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v116 main_v118 main_v119 (addf : (⟨S50000x128, .f32⟩ : BufTy).Contents (Elt F) → (⟨S50000x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (TRef.of main_v119 : TRef sig ⟨S50000x128, .f32⟩) main_call7.v0 main_call7.v1 maximumf ]

/-- Operations 236 … 248 of @main: they write the buffers of index 256 … 268, the last being main_v131. -/
abbrev st_attn : List (HloOp τ sig (Elt F)) :=
  [ binary main_v120 main_arg19 main_v121 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg20 main_v122 (broadcastInDim S1x1 ![1] bcast_S1_S1x1_1 : (⟨S1, .f32⟩ : BufTy).Contents (Elt F) → (⟨S1x1, .f32⟩ : BufTy).Contents (Elt F)),
    unary main_v122 main_v123 (broadcastInDim S50000x1 ![0, 1] bcast_S1x1_S50000x1_0_1 : (⟨S1x1, .f32⟩ : BufTy).Contents (Elt F) → (⟨S50000x1, .f32⟩ : BufTy).Contents (Elt F)),
    binary main_v121 main_v123 main_v124 (addf : (⟨S50000x1, .f32⟩ : BufTy).Contents (Elt F) → (⟨S50000x1, .f32⟩ : BufTy).Contents (Elt F) → (⟨S50000x1, .f32⟩ : BufTy).Contents (Elt F)),
    unary main_v124 main_v125 (Host.negf : (⟨S50000x1, .f32⟩ : BufTy).Contents (Elt F) → (⟨S50000x1, .f32⟩ : BufTy).Contents (Elt F)),
    unary main_v125 main_v126 (Host.exp : (⟨S50000x1, .f32⟩ : BufTy).Contents (Elt F) → (⟨S50000x1, .f32⟩ : BufTy).Contents (Elt F)),
    nullary main_cst_20 (constant S_ .f32 0x3F800000#32),
    unary main_cst_20 main_v127 (broadcastInDim S50000x1 ![] bcast_S_S50000x1 : (⟨S_, .f32⟩ : BufTy).Contents (Elt F) → (⟨S50000x1, .f32⟩ : BufTy).Contents (Elt F)),
    binary main_v127 main_v126 main_v128 (addf : (⟨S50000x1, .f32⟩ : BufTy).Contents (Elt F) → (⟨S50000x1, .f32⟩ : BufTy).Contents (Elt F) → (⟨S50000x1, .f32⟩ : BufTy).Contents (Elt F)),
    nullary main_cst_21 (constant S_ .f32 0x3F800000#32),
    unary main_cst_21 main_v129 (broadcastInDim S50000x1 ![] bcast_S_S50000x1 : (⟨S_, .f32⟩ : BufTy).Contents (Elt F) → (⟨S50000x1, .f32⟩ : BufTy).Contents (Elt F)),
    binary main_v129 main_v128 main_v130 (Host.divf : (⟨S50000x1, .f32⟩ : BufTy).Contents (Elt F) → (⟨S50000x1, .f32⟩ : BufTy).Contents (Elt F) → (⟨S50000x1, .f32⟩ : BufTy).Contents (Elt F)),
    reshape main_v130 main_v131 rfl shapeCasts_S50000x1_S50000 ]

end Cert.ReferenceIdeal.Hand

end
-- ==== Proof.Ref.StageDefs.lean ====
import proofs.«110491_j38809324487019_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-! The reference computation, stage by stage, as pure functions of array contents: each definition is the composed
    value of one stretch of @main's operations in terms of the values the stretch reads. The two row counts (the
    800000 edges, the 50000 nodes) have a copy each of the row-wise functions. -/

/-- The source-node row of the edge table. -/
def rowOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The destination-node row of the edge table. -/
def colOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- Indexing's wrap of negative node indices: 50000 is added to an index below zero. -/
def wrapIdx (r : (⟨S800000, .i32⟩ : BufTy).Contents (Elt F)) : (⟨S800000, .i32⟩ : BufTy).Contents (Elt F) :=
  select (cmpi .slt r (broadcastInDim S800000 ![] bcast_S_S800000 (constantI S_ 32 0#32)))
    (addi r (broadcastInDim S800000 ![] bcast_S_S800000 (constantI S_ 32 50000#32))) r

/-- The first layer's input: each edge's message beside its source node's features. -/
def H0 (x : (⟨S50000x128, .f32⟩ : BufTy).Contents (Elt F)) (ei : (⟨S2x800000, .i32⟩ : BufTy).Contents (Elt F)) (msg : (⟨S800000x128, .f32⟩ : BufTy).Contents (Elt F)) : (⟨S800000x256, .f32⟩ : BufTy).Contents (Elt F) :=
  concatenate S800000x256 1
    [⟨S800000x128, msg⟩,
     ⟨S800000x128, Host.gather gather_S50000x128_S800000x1_S800000x128_1_0_n_n_0_1_1128 x
        (broadcastInDim S800000x1 ![0] bcast_S800000_S800000x1_0 (wrapIdx (rowOf ei)))⟩]
    concatenates_S800000x128_S800000x128_S800000x256_d1

/-- A per-column vector repeated along the 800000 rows. -/
def rowsE (v : (⟨S128, .f32⟩ : BufTy).Contents (Elt F)) : (⟨S800000x128, .f32⟩ : BufTy).Contents (Elt F) :=
  broadcastInDim S800000x128 ![0, 1] bcast_S1x128_S800000x128_0_1 (broadcastInDim S1x128 ![1] bcast_S128_S1x128_1 v)

/-- The column means over the 800000 rows: the column sums divided by the row count. -/
def meanE (y : (⟨S800000x128, .f32⟩ : BufTy).Contents (Elt F)) : (⟨S128, .f32⟩ : BufTy).Contents (Elt F) :=
  Host.divf (Host.reduceAdd y (constant S_ .f32 0x00000000#32) reducesTo_S800000x128_S128_d0 h_S_)
    (broadcastInDim S128 ![] bcast_S_S128 (constant S_ .f32 0x49435000#32))

/-- The row count minus the (zero) degrees-of-freedom correction, as the variance function computes it. -/
def dofE : (⟨S_, .f32⟩ : BufTy).Contents (Elt F) :=
  subf (constant S_ .f32 0x49435000#32) (sitofp .f32 (constantI S_ 32 0#32 : (⟨S_, .i32⟩ : BufTy).Contents (Elt F)))

/-- Each entry minus its column's mean, the mean computed as the variance function does (a 1×128 row divided, then repeated). -/
def devE (y : (⟨S800000x128, .f32⟩ : BufTy).Contents (Elt F)) : (⟨S800000x128, .f32⟩ : BufTy).Contents (Elt F) :=
  subf y (broadcastInDim S800000x128 ![0, 1] bcast_S1x128_S800000x128_0_1
    (Host.divf (broadcastInDim S1x128 ![1] bcast_S128_S1x128_1 (Host.reduceAdd y (constant S_ .f32 0x00000000#32) reducesTo_S800000x128_S128_d0 h_S_))
      (broadcastInDim S1x128 ![] bcast_S_S1x128 (constant S_ .f32 0x49435000#32))))

/-- The biased column variances over the 800000 rows, as the outlined variance function computes them: the sum of squared
    deviations over the corrected count where that count is positive, the not-a-number constant elsewhere. -/
def varE (y : (⟨S800000x128, .f32⟩ : BufTy).Contents (Elt F)) : (⟨S128, .f32⟩ : BufTy).Contents (Elt F) :=
  select (broadcastInDim S128 ![] bcast_S_S128 (cmpf .ogt (dofE (F := F)) (constant S_ .f32 0x00000000#32)))
    (Host.divf (Host.reduceAdd (mulf (devE y) (devE y)) (constant S_ .f32 0x00000000#32) reducesTo_S800000x128_S128_d0 h_S_)
      (broadcastInDim S128 ![] bcast_S_S128 (dofE (F := F))))
    (broadcastInDim S128 ![] bcast_S_S128 (id (constant S_ .f32 0x7FC00000#32)))

/-- Batch normalisation with the given column means and variances, scale and shift, then the rectifier. -/
def bnReluE (y : (⟨S800000x128, .f32⟩ : BufTy).Contents (Elt F)) (m v g be : (⟨S128, .f32⟩ : BufTy).Contents (Elt F)) : (⟨S800000x128, .f32⟩ : BufTy).Contents (Elt F) :=
  maximumf
    (addf (mulf (mulf (subf y (rowsE m))
        (rowsE (Host.rsqrt (addf v (broadcastInDim S128 ![] bcast_S_S128 (constant S_ .f32 0x3727C5AC#32)))))) (rowsE g)) (rowsE be))
    (broadcastInDim S800000x128 ![] bcast_S_S800000x128 (constant S_ .f32 0x00000000#32))

/-- A per-column vector repeated along the 50000 rows. -/
def rowsN (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The column means over the 50000 rows: the column sums divided by the row count. -/
def meanN (y : (⟨S50000x128, .f32⟩ : BufTy).Contents (Elt F)) : (⟨S128, .f32⟩ : BufTy).Contents (Elt F) :=
  Host.divf (Host.reduceAdd y (constant S_ .f32 0x00000000#32) reducesTo_S50000x128_S128_d0 h_S_)
    (broadcastInDim S128 ![] bcast_S_S128 (constant S_ .f32 0x47435000#32))

/-- The row count minus the (zero) degrees-of-freedom correction, as the variance function computes it. -/
def dofN : (⟨S_, .f32⟩ : BufTy).Contents (Elt F) :=
  subf (constant S_ .f32 0x47435000#32) (sitofp .f32 (constantI S_ 32 0#32 : (⟨S_, .i32⟩ : BufTy).Contents (Elt F)))

/-- Each entry minus its column's mean, the mean computed as the variance function does (a 1×128 row divided, then repeated). -/
def devN (y : (⟨S50000x128, .f32⟩ : BufTy).Contents (Elt F)) : (⟨S50000x128, .f32⟩ : BufTy).Contents (Elt F) :=
  subf y (broadcastInDim S50000x128 ![0, 1] bcast_S1x128_S50000x128_0_1
    (Host.divf (broadcastInDim S1x128 ![1] bcast_S128_S1x128_1 (Host.reduceAdd y (constant S_ .f32 0x00000000#32) reducesTo_S50000x128_S128_d0 h_S_))
      (broadcastInDim S1x128 ![] bcast_S_S1x128 (constant S_ .f32 0x47435000#32))))

/-- The biased column variances over the 50000 rows, as the outlined variance function computes them: the sum of squared
    deviations over the corrected count where that count is positive, the not-a-number constant elsewhere. -/
def varN (y : (⟨S50000x128, .f32⟩ : BufTy).Contents (Elt F)) : (⟨S128, .f32⟩ : BufTy).Contents (Elt F) :=
  select (broadcastInDim S128 ![] bcast_S_S128 (cmpf .ogt (dofN (F := F)) (constant S_ .f32 0x00000000#32)))
    (Host.divf (Host.reduceAdd (mulf (devN y) (devN y)) (constant S_ .f32 0x00000000#32) reducesTo_S50000x128_S128_d0 h_S_)
      (broadcastInDim S128 ![] bcast_S_S128 (dofN (F := F))))
    (broadcastInDim S128 ![] bcast_S_S128 (id (constant S_ .f32 0x7FC00000#32)))

/-- Batch normalisation with the given column means and variances, scale and shift, then the rectifier. -/
def bnReluN (y : (⟨S50000x128, .f32⟩ : BufTy).Contents (Elt F)) (m v g be : (⟨S128, .f32⟩ : BufTy).Contents (Elt F)) : (⟨S50000x128, .f32⟩ : BufTy).Contents (Elt F) :=
  maximumf
    (addf (mulf (mulf (subf y (rowsN m))
        (rowsN (Host.rsqrt (addf v (broadcastInDim S128 ![] bcast_S_S128 (constant S_ .f32 0x3727C5AC#32)))))) (rowsN g)) (rowsN be))
    (broadcastInDim S50000x128 ![] bcast_S_S50000x128 (constant S_ .f32 0x00000000#32))

/-- A linear layer: the product with the weight matrix plus the bias repeated along the rows. -/
def lin1 (h : (⟨S800000x256, .f32⟩ : BufTy).Contents (Elt F)) (w : (⟨S256x128, .f32⟩ : BufTy).Contents (Elt F)) (b : (⟨S128, .f32⟩ : BufTy).Contents (Elt F)) : (⟨S800000x128, .f32⟩ : BufTy).Contents (Elt F) :=
  addf (Host.dotGeneral dot_S800000x256_S256x128_S800000x128_1_0_0_1_n_n none h w) (rowsE b)

/-- A linear layer: the product with the weight matrix plus the bias repeated along the rows. -/
def lin2 (h : (⟨S800000x128, .f32⟩ : BufTy).Contents (Elt F)) (w : (⟨S128x128, .f32⟩ : BufTy).Contents (Elt F)) (b : (⟨S128, .f32⟩ : BufTy).Contents (Elt F)) : (⟨S800000x128, .f32⟩ : BufTy).Contents (Elt F) :=
  addf (Host.dotGeneral dot_S800000x128_S128x128_S800000x128_1_0_0_1_n_n none h w) (rowsE b)

/-- A linear layer: the product with the weight matrix plus the bias repeated along the rows. -/
def lin3 (h : (⟨S50000x256, .f32⟩ : BufTy).Contents (Elt F)) (w : (⟨S256x128, .f32⟩ : BufTy).Contents (Elt F)) (b : (⟨S128, .f32⟩ : BufTy).Contents (Elt F)) : (⟨S50000x128, .f32⟩ : BufTy).Contents (Elt F) :=
  addf (Host.dotGeneral dot_S50000x256_S256x128_S50000x128_1_0_0_1_n_n none h w) (rowsN b)

/-- A linear layer: the product with the weight matrix plus the bias repeated along the rows. -/
def lin4 (h : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  addf (Host.dotGeneral dot_S50000x128_S128x128_S50000x128_1_0_0_1_n_n none h w) (rowsN b)

/-- The per-node sums of the edge features over each node's incoming edges (a scatter-add into zeros). -/
def segSum (col : (⟨S800000, .i32⟩ : BufTy).Contents (Elt F)) (h : (⟨S800000x128, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 col) h

/-- The per-node counts of incoming edges (a scatter-add of ones into zeros). -/
def segCnt (col : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 col)
    (broadcastInDim S800000 ![] bcast_S_S800000 (constant S_ .f32 0x3F800000#32))

/-- The scatter-mean: each node's sum divided by its count, the count raised to at least one. -/
def aggOf (s : (⟨S50000x128, .f32⟩ : BufTy).Contents (Elt F)) (cnt : (⟨S50000, .f32⟩ : BufTy).Contents (Elt F)) : (⟨S50000x128, .f32⟩ : BufTy).Contents (Elt F) :=
  Host.divf s (broadcastInDim S50000x128 ![0, 1] bcast_S50000x1_S50000x128_0_1
    (broadcastInDim S50000x1 ![0] bcast_S50000_S50000x1_0
      (maximumf cnt (broadcastInDim S50000 ![] bcast_S_S50000 (constant S_ .f32 0x3F800000#32)))))

/-- The second block's input: each node's features beside its aggregate. -/
def O0 (x agg : (⟨S50000x128, .f32⟩ : BufTy).Contents (Elt F)) : (⟨S50000x256, .f32⟩ : BufTy).Contents (Elt F) :=
  concatenate S50000x256 1 [⟨S50000x128, x⟩, ⟨S50000x128, agg⟩] concatenates_S50000x128_S50000x128_S50000x256_d1

/-- The all-ones 50000×1 column. -/
def onesCol : (⟨S50000x1, .f32⟩ : BufTy).Contents (Elt F) := broadcastInDim S50000x1 ![] bcast_S_S50000x1 (constant S_ .f32 0x3F800000#32)

/-- The attention head: the logistic function of the one-column linear layer, as a vector over the nodes. -/
def attnOf (o : (⟨S50000x128, .f32⟩ : BufTy).Contents (Elt F)) (wa : (⟨S128x1, .f32⟩ : BufTy).Contents (Elt F)) (ba : (⟨S1, .f32⟩ : BufTy).Contents (Elt F)) : (⟨S50000, .f32⟩ : BufTy).Contents (Elt F) :=
  shapeCast S50000
    (Host.divf (onesCol (F := F)) (addf (onesCol (F := F)) (Host.exp (Host.negf
      (addf (Host.dotGeneral dot_S50000x128_S128x1_S50000x1_1_0_0_1_n_n none o wa)
        (broadcastInDim S50000x1 ![0, 1] bcast_S1x1_S50000x1_0_1 (broadcastInDim S1x1 ![1] bcast_S1_S1x1_1 ba)))))))
    shapeCasts_S50000x1_S50000

end Cert.ReferenceIdeal.Hand

end
-- ==== Proof.Ref.StagesA.lean ====
import proofs.«110491_j38809324487019_2_alg».proof.Proof.Ref.Stretches
import proofs.«110491_j38809324487019_2_alg».proof.Proof.Ref.StageDefs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's values, stage by stage, over the 800000 edges: for each stretch of @main's operations, what the stretch leaves in the buffer of its named intermediate value as a pure function of the contents it starts from, and that it leaves every buffer outside its range of written indices alone. -/

/-- A stretch's operations each write one buffer; a reference whose index lies outside the stretch's range of written
    indices (the hypothesis `h`) differs from each of them, the indices being literals once the two references are
    identified. -/
local macro "stretch_keeps" h:ident : tactic =>
  `(tactic| (simp only [List.Forall, nullary_writes, unary_writes, binary_writes, ternary_writes, reshape_writes, Finset.mem_singleton]
             repeat' apply And.intro
             all_goals exact devRef_ne_of_ne (fun e => by subst e; exact absurd $h (by decide))))

/-- The stretch writes the buffers of index 21 … 34 only: any other buffer keeps its contents. -/
theorem st_h0_keeps (W : Valuation τ sig (Elt F)) {r : Ref sig .tc} (hr : r.idx.val < 21 ∨ 34 < r.idx.val) :
    after st_h0 W (Proc.devRef .tc r) = W (Proc.devRef .tc r) := by
  have h : (st_h0 : List (HloOp τ sig (Elt F))).Forall fun op => Proc.devRef (τ := τ) .tc r ∉ op.writes := by
    unfold st_h0
    stretch_keeps hr
  exact after_of_forall_not_mem st_h0 W (List.forall_iff_forall_mem.mp h)

/-- The stretch writes the buffers of index 35 … 38 only: any other buffer keeps its contents. -/
theorem st_y1_keeps (W : Valuation τ sig (Elt F)) {r : Ref sig .tc} (hr : r.idx.val < 35 ∨ 38 < r.idx.val) :
    after st_y1 W (Proc.devRef .tc r) = W (Proc.devRef .tc r) := by
  have h : (st_y1 : List (HloOp τ sig (Elt F))).Forall fun op => Proc.devRef (τ := τ) .tc r ∉ op.writes := by
    unfold st_y1
    stretch_keeps hr
  exact after_of_forall_not_mem st_y1 W (List.forall_iff_forall_mem.mp h)

/-- The stretch writes the buffers of index 39 … 43 only: any other buffer keeps its contents. -/
theorem st_m1_keeps (W : Valuation τ sig (Elt F)) {r : Ref sig .tc} (hr : r.idx.val < 39 ∨ 43 < r.idx.val) :
    after st_m1 W (Proc.devRef .tc r) = W (Proc.devRef .tc r) := by
  have h : (st_m1 : List (HloOp τ sig (Elt F))).Forall fun op => Proc.devRef (τ := τ) .tc r ∉ op.writes := by
    unfold st_m1
    stretch_keeps hr
  exact after_of_forall_not_mem st_m1 W (List.forall_iff_forall_mem.mp h)

/-- The stretch writes the buffers of index 44 … 66 only: any other buffer keeps its contents. -/
theorem st_v1_keeps (W : Valuation τ sig (Elt F)) {r : Ref sig .tc} (hr : r.idx.val < 44 ∨ 66 < r.idx.val) :
    after st_v1 W (Proc.devRef .tc r) = W (Proc.devRef .tc r) := by
  have h : (st_v1 : List (HloOp τ sig (Elt F))).Forall fun op => Proc.devRef (τ := τ) .tc r ∉ op.writes := by
    unfold st_v1
    stretch_keeps hr
  exact after_of_forall_not_mem st_v1 W (List.forall_iff_forall_mem.mp h)

/-- The stretch writes the buffers of index 67 … 85 only: any other buffer keeps its contents. -/
theorem st_h1_keeps (W : Valuation τ sig (Elt F)) {r : Ref sig .tc} (hr : r.idx.val < 67 ∨ 85 < r.idx.val) :
    after st_h1 W (Proc.devRef .tc r) = W (Proc.devRef .tc r) := by
  have h : (st_h1 : List (HloOp τ sig (Elt F))).Forall fun op => Proc.devRef (τ := τ) .tc r ∉ op.writes := by
    unfold st_h1
    stretch_keeps hr
  exact after_of_forall_not_mem st_h1 W (List.forall_iff_forall_mem.mp h)

/-- The stretch writes the buffers of index 86 … 89 only: any other buffer keeps its contents. -/
theorem st_y2_keeps (W : Valuation τ sig (Elt F)) {r : Ref sig .tc} (hr : r.idx.val < 86 ∨ 89 < r.idx.val) :
    after st_y2 W (Proc.devRef .tc r) = W (Proc.devRef .tc r) := by
  have h : (st_y2 : List (HloOp τ sig (Elt F))).Forall fun op => Proc.devRef (τ := τ) .tc r ∉ op.writes := by
    unfold st_y2
    stretch_keeps hr
  exact after_of_forall_not_mem st_y2 W (List.forall_iff_forall_mem.mp h)

/-- The stretch writes the buffers of index 90 … 94 only: any other buffer keeps its contents. -/
theorem st_m2_keeps (W : Valuation τ sig (Elt F)) {r : Ref sig .tc} (hr : r.idx.val < 90 ∨ 94 < r.idx.val) :
    after st_m2 W (Proc.devRef .tc r) = W (Proc.devRef .tc r) := by
  have h : (st_m2 : List (HloOp τ sig (Elt F))).Forall fun op => Proc.devRef (τ := τ) .tc r ∉ op.writes := by
    unfold st_m2
    stretch_keeps hr
  exact after_of_forall_not_mem st_m2 W (List.forall_iff_forall_mem.mp h)

/-- The stretch writes the buffers of index 95 … 117 only: any other buffer keeps its contents. -/
theorem st_v2_keeps (W : Valuation τ sig (Elt F)) {r : Ref sig .tc} (hr : r.idx.val < 95 ∨ 117 < r.idx.val) :
    after st_v2 W (Proc.devRef .tc r) = W (Proc.devRef .tc r) := by
  have h : (st_v2 : List (HloOp τ sig (Elt F))).Forall fun op => Proc.devRef (τ := τ) .tc r ∉ op.writes := by
    unfold st_v2
    stretch_keeps hr
  exact after_of_forall_not_mem st_v2 W (List.forall_iff_forall_mem.mp h)

/-- The stretch writes the buffers of index 118 … 136 only: any other buffer keeps its contents. -/
theorem st_h2_keeps (W : Valuation τ sig (Elt F)) {r : Ref sig .tc} (hr : r.idx.val < 118 ∨ 136 < r.idx.val) :
    after st_h2 W (Proc.devRef .tc r) = W (Proc.devRef .tc r) := by
  have h : (st_h2 : List (HloOp τ sig (Elt F))).Forall fun op => Proc.devRef (τ := τ) .tc r ∉ op.writes := by
    unfold st_h2
    stretch_keeps hr
  exact after_of_forall_not_mem st_h2 W (List.forall_iff_forall_mem.mp h)

/-- The destination-node indices, read off the edge table. -/
theorem stage_col (W : Valuation τ sig (Elt F)) :
    after st_h0 W (Proc.devRef .tc main_v3) = colOf (W (Proc.devRef .tc main_arg1)) := by
  after_results_simp <;> rfl

/-- The first layer's input. -/
theorem stage_h0 (W : Valuation τ sig (Elt F)) :
    after st_h0 W (Proc.devRef .tc main_v11) = H0 (W (Proc.devRef .tc main_arg0)) (W (Proc.devRef .tc main_arg1)) (W (Proc.devRef .tc main_arg2)) := by
  after_results_simp <;> rfl

/-- The first linear layer. -/
theorem stage_y1 (W : Valuation τ sig (Elt F)) :
    after st_y1 W (Proc.devRef .tc main_v15) = lin1 (W (Proc.devRef .tc main_v11)) (W (Proc.devRef .tc main_arg3)) (W (Proc.devRef .tc main_arg4)) := by
  after_results_simp <;> rfl

/-- Its column means. -/
theorem stage_m1 (W : Valuation τ sig (Elt F)) :
    after st_m1 W (Proc.devRef .tc main_v18) = meanE (W (Proc.devRef .tc main_v15)) := by
  after_results_simp <;> rfl

/-- Its column variances. -/
theorem stage_v1 (W : Valuation τ sig (Elt F)) :
    after st_v1 W (Proc.devRef .tc main_v19) = varE (W (Proc.devRef .tc main_v15)) := by
  after_results_simp <;> rfl

/-- The first normalised, rectified layer. -/
theorem stage_h1 (W : Valuation τ sig (Elt F)) :
    after st_h1 W (Proc.devRef .tc main_v35) = bnReluE (W (Proc.devRef .tc main_v15)) (W (Proc.devRef .tc main_v18)) (W (Proc.devRef .tc main_v19)) (W (Proc.devRef .tc main_arg5)) (W (Proc.devRef .tc main_arg6)) := by
  after_results_simp <;> rfl

/-- The second linear layer. -/
theorem stage_y2 (W : Valuation τ sig (Elt F)) :
    after st_y2 W (Proc.devRef .tc main_v39) = lin2 (W (Proc.devRef .tc main_v35)) (W (Proc.devRef .tc main_arg7)) (W (Proc.devRef .tc main_arg8)) := by
  after_results_simp <;> rfl

/-- Its column means. -/
theorem stage_m2 (W : Valuation τ sig (Elt F)) :
    after st_m2 W (Proc.devRef .tc main_v42) = meanE (W (Proc.devRef .tc main_v39)) := by
  after_results_simp <;> rfl

/-- Its column variances. -/
theorem stage_v2 (W : Valuation τ sig (Elt F)) :
    after st_v2 W (Proc.devRef .tc main_v43) = varE (W (Proc.devRef .tc main_v39)) := by
  after_results_simp <;> rfl

/-- The second normalised, rectified layer. -/
theorem stage_h2 (W : Valuation τ sig (Elt F)) :
    after st_h2 W (Proc.devRef .tc main_v59) = bnReluE (W (Proc.devRef .tc main_v39)) (W (Proc.devRef .tc main_v42)) (W (Proc.devRef .tc main_v43)) (W (Proc.devRef .tc main_arg9)) (W (Proc.devRef .tc main_arg10)) := by
  after_results_simp <;> rfl

end Cert.ReferenceIdeal.Hand

end
-- ==== Proof.Ref.StagesB.lean ====
import proofs.«110491_j38809324487019_2_alg».proof.Proof.Ref.Stretches
import proofs.«110491_j38809324487019_2_alg».proof.Proof.Ref.StageDefs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's values, stage by stage, for the scatter-mean over the destination nodes: for each stretch of @main's operations, what the stretch leaves in the buffer of its named intermediate value as a pure function of the contents it starts from, and that it leaves every buffer outside its range of written indices alone. -/

/-- A stretch's operations each write one buffer; a reference whose index lies outside the stretch's range of written
    indices (the hypothesis `h`) differs from each of them, the indices being literals once the two references are
    identified. -/
local macro "stretch_keeps" h:ident : tactic =>
  `(tactic| (simp only [List.Forall, nullary_writes, unary_writes, binary_writes, ternary_writes, reshape_writes, Finset.mem_singleton]
             repeat' apply And.intro
             all_goals exact devRef_ne_of_ne (fun e => by subst e; exact absurd $h (by decide))))

/-- The stretch writes the buffers of index 137 … 140 only: any other buffer keeps its contents. -/
theorem st_s_keeps (W : Valuation τ sig (Elt F)) {r : Ref sig .tc} (hr : r.idx.val < 137 ∨ 140 < r.idx.val) :
    after st_s W (Proc.devRef .tc r) = W (Proc.devRef .tc r) := by
  have h : (st_s : List (HloOp τ sig (Elt F))).Forall fun op => Proc.devRef (τ := τ) .tc r ∉ op.writes := by
    unfold st_s
    stretch_keeps hr
  exact after_of_forall_not_mem st_s W (List.forall_iff_forall_mem.mp h)

/-- The stretch writes the buffers of index 141 … 146 only: any other buffer keeps its contents. -/
theorem st_cnt_keeps (W : Valuation τ sig (Elt F)) {r : Ref sig .tc} (hr : r.idx.val < 141 ∨ 146 < r.idx.val) :
    after st_cnt W (Proc.devRef .tc r) = W (Proc.devRef .tc r) := by
  have h : (st_cnt : List (HloOp τ sig (Elt F))).Forall fun op => Proc.devRef (τ := τ) .tc r ∉ op.writes := by
    unfold st_cnt
    stretch_keeps hr
  exact after_of_forall_not_mem st_cnt W (List.forall_iff_forall_mem.mp h)

/-- The stretch writes the buffers of index 147 … 152 only: any other buffer keeps its contents. -/
theorem st_agg_keeps (W : Valuation τ sig (Elt F)) {r : Ref sig .tc} (hr : r.idx.val < 147 ∨ 152 < r.idx.val) :
    after st_agg W (Proc.devRef .tc r) = W (Proc.devRef .tc r) := by
  have h : (st_agg : List (HloOp τ sig (Elt F))).Forall fun op => Proc.devRef (τ := τ) .tc r ∉ op.writes := by
    unfold st_agg
    stretch_keeps hr
  exact after_of_forall_not_mem st_agg W (List.forall_iff_forall_mem.mp h)

/-- The stretch writes the buffers of index 153 … 153 only: any other buffer keeps its contents. -/
theorem st_o0_keeps (W : Valuation τ sig (Elt F)) {r : Ref sig .tc} (hr : r.idx.val < 153 ∨ 153 < r.idx.val) :
    after st_o0 W (Proc.devRef .tc r) = W (Proc.devRef .tc r) := by
  have h : (st_o0 : List (HloOp τ sig (Elt F))).Forall fun op => Proc.devRef (τ := τ) .tc r ∉ op.writes := by
    unfold st_o0
    stretch_keeps hr
  exact after_of_forall_not_mem st_o0 W (List.forall_iff_forall_mem.mp h)

/-- The per-node sums. -/
theorem stage_s (W : Valuation τ sig (Elt F)) :
    after st_s W (Proc.devRef .tc main_v62) = segSum (W (Proc.devRef .tc main_v3)) (W (Proc.devRef .tc main_v59)) := by
  after_results_simp <;> rfl

/-- The per-node counts. -/
theorem stage_cnt (W : Valuation τ sig (Elt F)) :
    after st_cnt W (Proc.devRef .tc main_v66) = segCnt (W (Proc.devRef .tc main_v3)) := by
  after_results_simp <;> rfl

/-- The scatter-mean. -/
theorem stage_agg (W : Valuation τ sig (Elt F)) :
    after st_agg W (Proc.devRef .tc main_v71) = aggOf (W (Proc.devRef .tc main_v62)) (W (Proc.devRef .tc main_v66)) := by
  after_results_simp <;> rfl

/-- The second block's input. -/
theorem stage_o0 (W : Valuation τ sig (Elt F)) :
    after st_o0 W (Proc.devRef .tc main_v72) = O0 (W (Proc.devRef .tc main_arg0)) (W (Proc.devRef .tc main_v71)) := by
  after_results_simp <;> rfl

end Cert.ReferenceIdeal.Hand

end
-- ==== Proof.Ref.StagesC.lean ====
import proofs.«110491_j38809324487019_2_alg».proof.Proof.Ref.Stretches
import proofs.«110491_j38809324487019_2_alg».proof.Proof.Ref.StageDefs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's values, stage by stage, over the 50000 nodes: for each stretch of @main's operations, what the stretch leaves in the buffer of its named intermediate value as a pure function of the contents it starts from, and that it leaves every buffer outside its range of written indices alone. -/

/-- A stretch's operations each write one buffer; a reference whose index lies outside the stretch's range of written
    indices (the hypothesis `h`) differs from each of them, the indices being literals once the two references are
    identified. -/
local macro "stretch_keeps" h:ident : tactic =>
  `(tactic| (simp only [List.Forall, nullary_writes, unary_writes, binary_writes, ternary_writes, reshape_writes, Finset.mem_singleton]
             repeat' apply And.intro
             all_goals exact devRef_ne_of_ne (fun e => by subst e; exact absurd $h (by decide))))

/-- The stretch writes the buffers of index 154 … 157 only: any other buffer keeps its contents. -/
theorem st_y3_keeps (W : Valuation τ sig (Elt F)) {r : Ref sig .tc} (hr : r.idx.val < 154 ∨ 157 < r.idx.val) :
    after st_y3 W (Proc.devRef .tc r) = W (Proc.devRef .tc r) := by
  have h : (st_y3 : List (HloOp τ sig (Elt F))).Forall fun op => Proc.devRef (τ := τ) .tc r ∉ op.writes := by
    unfold st_y3
    stretch_keeps hr
  exact after_of_forall_not_mem st_y3 W (List.forall_iff_forall_mem.mp h)

/-- The stretch writes the buffers of index 158 … 162 only: any other buffer keeps its contents. -/
theorem st_m3_keeps (W : Valuation τ sig (Elt F)) {r : Ref sig .tc} (hr : r.idx.val < 158 ∨ 162 < r.idx.val) :
    after st_m3 W (Proc.devRef .tc r) = W (Proc.devRef .tc r) := by
  have h : (st_m3 : List (HloOp τ sig (Elt F))).Forall fun op => Proc.devRef (τ := τ) .tc r ∉ op.writes := by
    unfold st_m3
    stretch_keeps hr
  exact after_of_forall_not_mem st_m3 W (List.forall_iff_forall_mem.mp h)

/-- The stretch writes the buffers of index 163 … 185 only: any other buffer keeps its contents. -/
theorem st_v3_keeps (W : Valuation τ sig (Elt F)) {r : Ref sig .tc} (hr : r.idx.val < 163 ∨ 185 < r.idx.val) :
    after st_v3 W (Proc.devRef .tc r) = W (Proc.devRef .tc r) := by
  have h : (st_v3 : List (HloOp τ sig (Elt F))).Forall fun op => Proc.devRef (τ := τ) .tc r ∉ op.writes := by
    unfold st_v3
    stretch_keeps hr
  exact after_of_forall_not_mem st_v3 W (List.forall_iff_forall_mem.mp h)

/-- The stretch writes the buffers of index 186 … 204 only: any other buffer keeps its contents. -/
theorem st_o1_keeps (W : Valuation τ sig (Elt F)) {r : Ref sig .tc} (hr : r.idx.val < 186 ∨ 204 < r.idx.val) :
    after st_o1 W (Proc.devRef .tc r) = W (Proc.devRef .tc r) := by
  have h : (st_o1 : List (HloOp τ sig (Elt F))).Forall fun op => Proc.devRef (τ := τ) .tc r ∉ op.writes := by
    unfold st_o1
    stretch_keeps hr
  exact after_of_forall_not_mem st_o1 W (List.forall_iff_forall_mem.mp h)

/-- The stretch writes the buffers of index 205 … 208 only: any other buffer keeps its contents. -/
theorem st_y4_keeps (W : Valuation τ sig (Elt F)) {r : Ref sig .tc} (hr : r.idx.val < 205 ∨ 208 < r.idx.val) :
    after st_y4 W (Proc.devRef .tc r) = W (Proc.devRef .tc r) := by
  have h : (st_y4 : List (HloOp τ sig (Elt F))).Forall fun op => Proc.devRef (τ := τ) .tc r ∉ op.writes := by
    unfold st_y4
    stretch_keeps hr
  exact after_of_forall_not_mem st_y4 W (List.forall_iff_forall_mem.mp h)

/-- The stretch writes the buffers of index 209 … 213 only: any other buffer keeps its contents. -/
theorem st_m4_keeps (W : Valuation τ sig (Elt F)) {r : Ref sig .tc} (hr : r.idx.val < 209 ∨ 213 < r.idx.val) :
    after st_m4 W (Proc.devRef .tc r) = W (Proc.devRef .tc r) := by
  have h : (st_m4 : List (HloOp τ sig (Elt F))).Forall fun op => Proc.devRef (τ := τ) .tc r ∉ op.writes := by
    unfold st_m4
    stretch_keeps hr
  exact after_of_forall_not_mem st_m4 W (List.forall_iff_forall_mem.mp h)

/-- The stretch writes the buffers of index 214 … 236 only: any other buffer keeps its contents. -/
theorem st_v4_keeps (W : Valuation τ sig (Elt F)) {r : Ref sig .tc} (hr : r.idx.val < 214 ∨ 236 < r.idx.val) :
    after st_v4 W (Proc.devRef .tc r) = W (Proc.devRef .tc r) := by
  have h : (st_v4 : List (HloOp τ sig (Elt F))).Forall fun op => Proc.devRef (τ := τ) .tc r ∉ op.writes := by
    unfold st_v4
    stretch_keeps hr
  exact after_of_forall_not_mem st_v4 W (List.forall_iff_forall_mem.mp h)

/-- The stretch writes the buffers of index 237 … 255 only: any other buffer keeps its contents. -/
theorem st_o2_keeps (W : Valuation τ sig (Elt F)) {r : Ref sig .tc} (hr : r.idx.val < 237 ∨ 255 < r.idx.val) :
    after st_o2 W (Proc.devRef .tc r) = W (Proc.devRef .tc r) := by
  have h : (st_o2 : List (HloOp τ sig (Elt F))).Forall fun op => Proc.devRef (τ := τ) .tc r ∉ op.writes := by
    unfold st_o2
    stretch_keeps hr
  exact after_of_forall_not_mem st_o2 W (List.forall_iff_forall_mem.mp h)

/-- The stretch writes the buffers of index 256 … 268 only: any other buffer keeps its contents. -/
theorem st_attn_keeps (W : Valuation τ sig (Elt F)) {r : Ref sig .tc} (hr : r.idx.val < 256 ∨ 268 < r.idx.val) :
    after st_attn W (Proc.devRef .tc r) = W (Proc.devRef .tc r) := by
  have h : (st_attn : List (HloOp τ sig (Elt F))).Forall fun op => Proc.devRef (τ := τ) .tc r ∉ op.writes := by
    unfold st_attn
    stretch_keeps hr
  exact after_of_forall_not_mem st_attn W (List.forall_iff_forall_mem.mp h)

/-- The third linear layer. -/
theorem stage_y3 (W : Valuation τ sig (Elt F)) :
    after st_y3 W (Proc.devRef .tc main_v76) = lin3 (W (Proc.devRef .tc main_v72)) (W (Proc.devRef .tc main_arg11)) (W (Proc.devRef .tc main_arg12)) := by
  after_results_simp <;> rfl

/-- Its column means. -/
theorem stage_m3 (W : Valuation τ sig (Elt F)) :
    after st_m3 W (Proc.devRef .tc main_v79) = meanN (W (Proc.devRef .tc main_v76)) := by
  after_results_simp <;> rfl

/-- Its column variances. -/
theorem stage_v3 (W : Valuation τ sig (Elt F)) :
    after st_v3 W (Proc.devRef .tc main_v80) = varN (W (Proc.devRef .tc main_v76)) := by
  after_results_simp <;> rfl

/-- The third normalised, rectified layer. -/
theorem stage_o1 (W : Valuation τ sig (Elt F)) :
    after st_o1 W (Proc.devRef .tc main_v96) = bnReluN (W (Proc.devRef .tc main_v76)) (W (Proc.devRef .tc main_v79)) (W (Proc.devRef .tc main_v80)) (W (Proc.devRef .tc main_arg13)) (W (Proc.devRef .tc main_arg14)) := by
  after_results_simp <;> rfl

/-- The fourth linear layer. -/
theorem stage_y4 (W : Valuation τ sig (Elt F)) :
    after st_y4 W (Proc.devRef .tc main_v100) = lin4 (W (Proc.devRef .tc main_v96)) (W (Proc.devRef .tc main_arg15)) (W (Proc.devRef .tc main_arg16)) := by
  after_results_simp <;> rfl

/-- Its column means. -/
theorem stage_m4 (W : Valuation τ sig (Elt F)) :
    after st_m4 W (Proc.devRef .tc main_v103) = meanN (W (Proc.devRef .tc main_v100)) := by
  after_results_simp <;> rfl

/-- Its column variances. -/
theorem stage_v4 (W : Valuation τ sig (Elt F)) :
    after st_v4 W (Proc.devRef .tc main_v104) = varN (W (Proc.devRef .tc main_v100)) := by
  after_results_simp <;> rfl

/-- The fourth normalised, rectified layer: @main's first result. -/
theorem stage_o2 (W : Valuation τ sig (Elt F)) :
    after st_o2 W (Proc.devRef .tc main_v120) = bnReluN (W (Proc.devRef .tc main_v100)) (W (Proc.devRef .tc main_v103)) (W (Proc.devRef .tc main_v104)) (W (Proc.devRef .tc main_arg17)) (W (Proc.devRef .tc main_arg18)) := by
  after_results_simp <;> rfl

/-- The attention weights: @main's second result. -/
theorem stage_attn (W : Valuation τ sig (Elt F)) :
    after st_attn W (Proc.devRef .tc main_v131) = attnOf (W (Proc.devRef .tc main_v120)) (W (Proc.devRef .tc main_arg19)) (W (Proc.devRef .tc main_arg20)) := by
  after_results_simp <;> rfl

end Cert.ReferenceIdeal.Hand

end
-- ==== Proof.Ref.Value.lean ====
import proofs.«110491_j38809324487019_2_alg».proof.Proof.Ref.Run
import proofs.«110491_j38809324487019_2_alg».proof.Proof.Ref.StagesA
import proofs.«110491_j38809324487019_2_alg».proof.Proof.Ref.StagesB
import proofs.«110491_j38809324487019_2_alg».proof.Proof.Ref.StagesC
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's two results as pure functions of the argument arrays. @main's operation list is its twenty-two
    stretches one after the other, so the fold over it is the stretches' folds composed; each stretch's stage lemma
    gives its named value from the values before it, every other live buffer lying outside the stretch's written
    range, and the arguments outside every stretch's. -/

/-- The three windows' lists and the twenty-two stretches are one list of operations cut two ways. -/
theorem ops_cut : (ops : List (HloOp τ sig (Elt F))) =
    st_h0 ++ (st_y1 ++ (st_m1 ++ (st_v1 ++ (st_h1 ++ (st_y2 ++ (st_m2 ++ (st_v2 ++ (st_h2 ++ (st_s ++ (st_cnt ++ (st_agg ++ (st_o0 ++ (st_y3 ++ (st_m3 ++ (st_v3 ++ (st_o1 ++ (st_y4 ++ (st_m4 ++ (st_v4 ++ (st_o2 ++ (st_attn))))))))))))))))))))) := rfl

variable (V : Valuation τ sig (Elt F))

/-- The destination-node indices. -/
def valCol : (⟨S800000, .i32⟩ : BufTy).Contents (Elt F) := colOf (V (Proc.devRef .tc main_arg1))
/-- The first layer's input. -/
def valH0 : (⟨S800000x256, .f32⟩ : BufTy).Contents (Elt F) := H0 (V (Proc.devRef .tc main_arg0)) (V (Proc.devRef .tc main_arg1)) (V (Proc.devRef .tc main_arg2))
/-- The first linear layer. -/
def valY1 : (⟨S800000x128, .f32⟩ : BufTy).Contents (Elt F) := lin1 (valH0 V) (V (Proc.devRef .tc main_arg3)) (V (Proc.devRef .tc main_arg4))
/-- The first normalised, rectified layer. -/
def valH1 : (⟨S800000x128, .f32⟩ : BufTy).Contents (Elt F) := bnReluE (valY1 V) (meanE (valY1 V)) (varE (valY1 V)) (V (Proc.devRef .tc main_arg5)) (V (Proc.devRef .tc main_arg6))
/-- The second linear layer. -/
def valY2 : (⟨S800000x128, .f32⟩ : BufTy).Contents (Elt F) := lin2 (valH1 V) (V (Proc.devRef .tc main_arg7)) (V (Proc.devRef .tc main_arg8))
/-- The second normalised, rectified layer. -/
def valH2 : (⟨S800000x128, .f32⟩ : BufTy).Contents (Elt F) := bnReluE (valY2 V) (meanE (valY2 V)) (varE (valY2 V)) (V (Proc.devRef .tc main_arg9)) (V (Proc.devRef .tc main_arg10))
/-- The scatter-mean over the destination nodes. -/
def valAgg : (⟨S50000x128, .f32⟩ : BufTy).Contents (Elt F) := aggOf (segSum (valCol V) (valH2 V)) (segCnt (valCol V))
/-- The third linear layer. -/
def valY3 : (⟨S50000x128, .f32⟩ : BufTy).Contents (Elt F) := lin3 (O0 (V (Proc.devRef .tc main_arg0)) (valAgg V)) (V (Proc.devRef .tc main_arg11)) (V (Proc.devRef .tc main_arg12))
/-- The third normalised, rectified layer. -/
def valO1 : (⟨S50000x128, .f32⟩ : BufTy).Contents (Elt F) := bnReluN (valY3 V) (meanN (valY3 V)) (varN (valY3 V)) (V (Proc.devRef .tc main_arg13)) (V (Proc.devRef .tc main_arg14))
/-- The fourth linear layer. -/
def valY4 : (⟨S50000x128, .f32⟩ : BufTy).Contents (Elt F) := lin4 (valO1 V) (V (Proc.devRef .tc main_arg15)) (V (Proc.devRef .tc main_arg16))
/-- The fourth normalised, rectified layer: the first result. -/
def valO2 : (⟨S50000x128, .f32⟩ : BufTy).Contents (Elt F) := bnReluN (valY4 V) (meanN (valY4 V)) (varN (valY4 V)) (V (Proc.devRef .tc main_arg17)) (V (Proc.devRef .tc main_arg18))
/-- The attention weights: the second result. -/
def valAttn : (⟨S50000, .f32⟩ : BufTy).Contents (Elt F) := attnOf (valO2 V) (V (Proc.devRef .tc main_arg19)) (V (Proc.devRef .tc main_arg20))

/-- The buffer contents after the stretches up to `st_h0`. -/
def Ph0 : Valuation τ sig (Elt F) := after st_h0 V

theorem Ph0_arg {r : Ref sig .tc} (hr : r.idx.val < 21) : Ph0 V (Proc.devRef .tc r) = V (Proc.devRef .tc r) := by
  rw [Ph0, st_h0_keeps (r := r) _ (Or.inl (by omega))]

theorem Ph0_v3 : Ph0 V (Proc.devRef .tc main_v3) = valCol V := by
  rw [Ph0, stage_col]; rfl

theorem Ph0_v11 : Ph0 V (Proc.devRef .tc main_v11) = valH0 V := by
  rw [Ph0, stage_h0]; rfl

/-- The buffer contents after the stretches up to `st_y1`. -/
def Py1 : Valuation τ sig (Elt F) := after st_y1 (Ph0 V)

theorem Py1_arg {r : Ref sig .tc} (hr : r.idx.val < 21) : Py1 V (Proc.devRef .tc r) = V (Proc.devRef .tc r) := by
  rw [Py1, st_y1_keeps (r := r) _ (Or.inl (by omega)), Ph0_arg V hr]

theorem Py1_v3 : Py1 V (Proc.devRef .tc main_v3) = valCol V := by
  rw [Py1, st_y1_keeps (r := main_v3) _ (by decide), Ph0_v3]

theorem Py1_v15 : Py1 V (Proc.devRef .tc main_v15) = valY1 V := by
  rw [Py1, stage_y1, Ph0_v11, Ph0_arg V (r := main_arg3) (by decide), Ph0_arg V (r := main_arg4) (by decide)]; rfl

/-- The buffer contents after the stretches up to `st_m1`. -/
def Pm1 : Valuation τ sig (Elt F) := after st_m1 (Py1 V)

theorem Pm1_arg {r : Ref sig .tc} (hr : r.idx.val < 21) : Pm1 V (Proc.devRef .tc r) = V (Proc.devRef .tc r) := by
  rw [Pm1, st_m1_keeps (r := r) _ (Or.inl (by omega)), Py1_arg V hr]

theorem Pm1_v3 : Pm1 V (Proc.devRef .tc main_v3) = valCol V := by
  rw [Pm1, st_m1_keeps (r := main_v3) _ (by decide), Py1_v3]

theorem Pm1_v15 : Pm1 V (Proc.devRef .tc main_v15) = valY1 V := by
  rw [Pm1, st_m1_keeps (r := main_v15) _ (by decide), Py1_v15]

theorem Pm1_v18 : Pm1 V (Proc.devRef .tc main_v18) = meanE (valY1 V) := by
  rw [Pm1, stage_m1, Py1_v15]

/-- The buffer contents after the stretches up to `st_v1`. -/
def Pv1 : Valuation τ sig (Elt F) := after st_v1 (Pm1 V)

theorem Pv1_arg {r : Ref sig .tc} (hr : r.idx.val < 21) : Pv1 V (Proc.devRef .tc r) = V (Proc.devRef .tc r) := by
  rw [Pv1, st_v1_keeps (r := r) _ (Or.inl (by omega)), Pm1_arg V hr]

theorem Pv1_v3 : Pv1 V (Proc.devRef .tc main_v3) = valCol V := by
  rw [Pv1, st_v1_keeps (r := main_v3) _ (by decide), Pm1_v3]

theorem Pv1_v15 : Pv1 V (Proc.devRef .tc main_v15) = valY1 V := by
  rw [Pv1, st_v1_keeps (r := main_v15) _ (by decide), Pm1_v15]

theorem Pv1_v18 : Pv1 V (Proc.devRef .tc main_v18) = meanE (valY1 V) := by
  rw [Pv1, st_v1_keeps (r := main_v18) _ (by decide), Pm1_v18]

theorem Pv1_v19 : Pv1 V (Proc.devRef .tc main_v19) = varE (valY1 V) := by
  rw [Pv1, stage_v1, Pm1_v15]

/-- The buffer contents after the stretches up to `st_h1`. -/
def Ph1 : Valuation τ sig (Elt F) := after st_h1 (Pv1 V)

theorem Ph1_arg {r : Ref sig .tc} (hr : r.idx.val < 21) : Ph1 V (Proc.devRef .tc r) = V (Proc.devRef .tc r) := by
  rw [Ph1, st_h1_keeps (r := r) _ (Or.inl (by omega)), Pv1_arg V hr]

theorem Ph1_v3 : Ph1 V (Proc.devRef .tc main_v3) = valCol V := by
  rw [Ph1, st_h1_keeps (r := main_v3) _ (by decide), Pv1_v3]

theorem Ph1_v35 : Ph1 V (Proc.devRef .tc main_v35) = valH1 V := by
  rw [Ph1, stage_h1, Pv1_v15, Pv1_v18, Pv1_v19, Pv1_arg V (r := main_arg5) (by decide), Pv1_arg V (r := main_arg6) (by decide)]; rfl

/-- The buffer contents after the stretches up to `st_y2`. -/
def Py2 : Valuation τ sig (Elt F) := after st_y2 (Ph1 V)

theorem Py2_arg {r : Ref sig .tc} (hr : r.idx.val < 21) : Py2 V (Proc.devRef .tc r) = V (Proc.devRef .tc r) := by
  rw [Py2, st_y2_keeps (r := r) _ (Or.inl (by omega)), Ph1_arg V hr]

theorem Py2_v3 : Py2 V (Proc.devRef .tc main_v3) = valCol V := by
  rw [Py2, st_y2_keeps (r := main_v3) _ (by decide), Ph1_v3]

theorem Py2_v39 : Py2 V (Proc.devRef .tc main_v39) = valY2 V := by
  rw [Py2, stage_y2, Ph1_v35, Ph1_arg V (r := main_arg7) (by decide), Ph1_arg V (r := main_arg8) (by decide)]; rfl

/-- The buffer contents after the stretches up to `st_m2`. -/
def Pm2 : Valuation τ sig (Elt F) := after st_m2 (Py2 V)

theorem Pm2_arg {r : Ref sig .tc} (hr : r.idx.val < 21) : Pm2 V (Proc.devRef .tc r) = V (Proc.devRef .tc r) := by
  rw [Pm2, st_m2_keeps (r := r) _ (Or.inl (by omega)), Py2_arg V hr]

theorem Pm2_v3 : Pm2 V (Proc.devRef .tc main_v3) = valCol V := by
  rw [Pm2, st_m2_keeps (r := main_v3) _ (by decide), Py2_v3]

theorem Pm2_v39 : Pm2 V (Proc.devRef .tc main_v39) = valY2 V := by
  rw [Pm2, st_m2_keeps (r := main_v39) _ (by decide), Py2_v39]

theorem Pm2_v42 : Pm2 V (Proc.devRef .tc main_v42) = meanE (valY2 V) := by
  rw [Pm2, stage_m2, Py2_v39]

/-- The buffer contents after the stretches up to `st_v2`. -/
def Pv2 : Valuation τ sig (Elt F) := after st_v2 (Pm2 V)

theorem Pv2_arg {r : Ref sig .tc} (hr : r.idx.val < 21) : Pv2 V (Proc.devRef .tc r) = V (Proc.devRef .tc r) := by
  rw [Pv2, st_v2_keeps (r := r) _ (Or.inl (by omega)), Pm2_arg V hr]

theorem Pv2_v3 : Pv2 V (Proc.devRef .tc main_v3) = valCol V := by
  rw [Pv2, st_v2_keeps (r := main_v3) _ (by decide), Pm2_v3]

theorem Pv2_v39 : Pv2 V (Proc.devRef .tc main_v39) = valY2 V := by
  rw [Pv2, st_v2_keeps (r := main_v39) _ (by decide), Pm2_v39]

theorem Pv2_v42 : Pv2 V (Proc.devRef .tc main_v42) = meanE (valY2 V) := by
  rw [Pv2, st_v2_keeps (r := main_v42) _ (by decide), Pm2_v42]

theorem Pv2_v43 : Pv2 V (Proc.devRef .tc main_v43) = varE (valY2 V) := by
  rw [Pv2, stage_v2, Pm2_v39]

/-- The buffer contents after the stretches up to `st_h2`. -/
def Ph2 : Valuation τ sig (Elt F) := after st_h2 (Pv2 V)

theorem Ph2_arg {r : Ref sig .tc} (hr : r.idx.val < 21) : Ph2 V (Proc.devRef .tc r) = V (Proc.devRef .tc r) := by
  rw [Ph2, st_h2_keeps (r := r) _ (Or.inl (by omega)), Pv2_arg V hr]

theorem Ph2_v3 : Ph2 V (Proc.devRef .tc main_v3) = valCol V := by
  rw [Ph2, st_h2_keeps (r := main_v3) _ (by decide), Pv2_v3]

theorem Ph2_v59 : Ph2 V (Proc.devRef .tc main_v59) = valH2 V := by
  rw [Ph2, stage_h2, Pv2_v39, Pv2_v42, Pv2_v43, Pv2_arg V (r := main_arg9) (by decide), Pv2_arg V (r := main_arg10) (by decide)]; rfl

/-- The buffer contents after the stretches up to `st_s`. -/
def Ps : Valuation τ sig (Elt F) := after st_s (Ph2 V)

theorem Ps_arg {r : Ref sig .tc} (hr : r.idx.val < 21) : Ps V (Proc.devRef .tc r) = V (Proc.devRef .tc r) := by
  rw [Ps, st_s_keeps (r := r) _ (Or.inl (by omega)), Ph2_arg V hr]

theorem Ps_v3 : Ps V (Proc.devRef .tc main_v3) = valCol V := by
  rw [Ps, st_s_keeps (r := main_v3) _ (by decide), Ph2_v3]

theorem Ps_v62 : Ps V (Proc.devRef .tc main_v62) = segSum (valCol V) (valH2 V) := by
  rw [Ps, stage_s, Ph2_v3, Ph2_v59]

/-- The buffer contents after the stretches up to `st_cnt`. -/
def Pcnt : Valuation τ sig (Elt F) := after st_cnt (Ps V)

theorem Pcnt_arg {r : Ref sig .tc} (hr : r.idx.val < 21) : Pcnt V (Proc.devRef .tc r) = V (Proc.devRef .tc r) := by
  rw [Pcnt, st_cnt_keeps (r := r) _ (Or.inl (by omega)), Ps_arg V hr]

theorem Pcnt_v62 : Pcnt V (Proc.devRef .tc main_v62) = segSum (valCol V) (valH2 V) := by
  rw [Pcnt, st_cnt_keeps (r := main_v62) _ (by decide), Ps_v62]

theorem Pcnt_v66 : Pcnt V (Proc.devRef .tc main_v66) = segCnt (valCol V) := by
  rw [Pcnt, stage_cnt, Ps_v3]

/-- The buffer contents after the stretches up to `st_agg`. -/
def Pagg : Valuation τ sig (Elt F) := after st_agg (Pcnt V)

theorem Pagg_arg {r : Ref sig .tc} (hr : r.idx.val < 21) : Pagg V (Proc.devRef .tc r) = V (Proc.devRef .tc r) := by
  rw [Pagg, st_agg_keeps (r := r) _ (Or.inl (by omega)), Pcnt_arg V hr]

theorem Pagg_v71 : Pagg V (Proc.devRef .tc main_v71) = valAgg V := by
  rw [Pagg, stage_agg, Pcnt_v62, Pcnt_v66]; rfl

/-- The buffer contents after the stretches up to `st_o0`. -/
def Po0 : Valuation τ sig (Elt F) := after st_o0 (Pagg V)

theorem Po0_arg {r : Ref sig .tc} (hr : r.idx.val < 21) : Po0 V (Proc.devRef .tc r) = V (Proc.devRef .tc r) := by
  rw [Po0, st_o0_keeps (r := r) _ (Or.inl (by omega)), Pagg_arg V hr]

theorem Po0_v72 : Po0 V (Proc.devRef .tc main_v72) = O0 (V (Proc.devRef .tc main_arg0)) (valAgg V) := by
  rw [Po0, stage_o0, Pagg_arg V (r := main_arg0) (by decide), Pagg_v71]

/-- The buffer contents after the stretches up to `st_y3`. -/
def Py3 : Valuation τ sig (Elt F) := after st_y3 (Po0 V)

theorem Py3_arg {r : Ref sig .tc} (hr : r.idx.val < 21) : Py3 V (Proc.devRef .tc r) = V (Proc.devRef .tc r) := by
  rw [Py3, st_y3_keeps (r := r) _ (Or.inl (by omega)), Po0_arg V hr]

theorem Py3_v76 : Py3 V (Proc.devRef .tc main_v76) = valY3 V := by
  rw [Py3, stage_y3, Po0_v72, Po0_arg V (r := main_arg11) (by decide), Po0_arg V (r := main_arg12) (by decide)]; rfl

/-- The buffer contents after the stretches up to `st_m3`. -/
def Pm3 : Valuation τ sig (Elt F) := after st_m3 (Py3 V)

theorem Pm3_arg {r : Ref sig .tc} (hr : r.idx.val < 21) : Pm3 V (Proc.devRef .tc r) = V (Proc.devRef .tc r) := by
  rw [Pm3, st_m3_keeps (r := r) _ (Or.inl (by omega)), Py3_arg V hr]

theorem Pm3_v76 : Pm3 V (Proc.devRef .tc main_v76) = valY3 V := by
  rw [Pm3, st_m3_keeps (r := main_v76) _ (by decide), Py3_v76]

theorem Pm3_v79 : Pm3 V (Proc.devRef .tc main_v79) = meanN (valY3 V) := by
  rw [Pm3, stage_m3, Py3_v76]

/-- The buffer contents after the stretches up to `st_v3`. -/
def Pv3 : Valuation τ sig (Elt F) := after st_v3 (Pm3 V)

theorem Pv3_arg {r : Ref sig .tc} (hr : r.idx.val < 21) : Pv3 V (Proc.devRef .tc r) = V (Proc.devRef .tc r) := by
  rw [Pv3, st_v3_keeps (r := r) _ (Or.inl (by omega)), Pm3_arg V hr]

theorem Pv3_v76 : Pv3 V (Proc.devRef .tc main_v76) = valY3 V := by
  rw [Pv3, st_v3_keeps (r := main_v76) _ (by decide), Pm3_v76]

theorem Pv3_v79 : Pv3 V (Proc.devRef .tc main_v79) = meanN (valY3 V) := by
  rw [Pv3, st_v3_keeps (r := main_v79) _ (by decide), Pm3_v79]

theorem Pv3_v80 : Pv3 V (Proc.devRef .tc main_v80) = varN (valY3 V) := by
  rw [Pv3, stage_v3, Pm3_v76]

/-- The buffer contents after the stretches up to `st_o1`. -/
def Po1 : Valuation τ sig (Elt F) := after st_o1 (Pv3 V)

theorem Po1_arg {r : Ref sig .tc} (hr : r.idx.val < 21) : Po1 V (Proc.devRef .tc r) = V (Proc.devRef .tc r) := by
  rw [Po1, st_o1_keeps (r := r) _ (Or.inl (by omega)), Pv3_arg V hr]

theorem Po1_v96 : Po1 V (Proc.devRef .tc main_v96) = valO1 V := by
  rw [Po1, stage_o1, Pv3_v76, Pv3_v79, Pv3_v80, Pv3_arg V (r := main_arg13) (by decide), Pv3_arg V (r := main_arg14) (by decide)]; rfl

/-- The buffer contents after the stretches up to `st_y4`. -/
def Py4 : Valuation τ sig (Elt F) := after st_y4 (Po1 V)

theorem Py4_arg {r : Ref sig .tc} (hr : r.idx.val < 21) : Py4 V (Proc.devRef .tc r) = V (Proc.devRef .tc r) := by
  rw [Py4, st_y4_keeps (r := r) _ (Or.inl (by omega)), Po1_arg V hr]

theorem Py4_v100 : Py4 V (Proc.devRef .tc main_v100) = valY4 V := by
  rw [Py4, stage_y4, Po1_v96, Po1_arg V (r := main_arg15) (by decide), Po1_arg V (r := main_arg16) (by decide)]; rfl

/-- The buffer contents after the stretches up to `st_m4`. -/
def Pm4 : Valuation τ sig (Elt F) := after st_m4 (Py4 V)

theorem Pm4_arg {r : Ref sig .tc} (hr : r.idx.val < 21) : Pm4 V (Proc.devRef .tc r) = V (Proc.devRef .tc r) := by
  rw [Pm4, st_m4_keeps (r := r) _ (Or.inl (by omega)), Py4_arg V hr]

theorem Pm4_v100 : Pm4 V (Proc.devRef .tc main_v100) = valY4 V := by
  rw [Pm4, st_m4_keeps (r := main_v100) _ (by decide), Py4_v100]

theorem Pm4_v103 : Pm4 V (Proc.devRef .tc main_v103) = meanN (valY4 V) := by
  rw [Pm4, stage_m4, Py4_v100]

/-- The buffer contents after the stretches up to `st_v4`. -/
def Pv4 : Valuation τ sig (Elt F) := after st_v4 (Pm4 V)

theorem Pv4_arg {r : Ref sig .tc} (hr : r.idx.val < 21) : Pv4 V (Proc.devRef .tc r) = V (Proc.devRef .tc r) := by
  rw [Pv4, st_v4_keeps (r := r) _ (Or.inl (by omega)), Pm4_arg V hr]

theorem Pv4_v100 : Pv4 V (Proc.devRef .tc main_v100) = valY4 V := by
  rw [Pv4, st_v4_keeps (r := main_v100) _ (by decide), Pm4_v100]

theorem Pv4_v103 : Pv4 V (Proc.devRef .tc main_v103) = meanN (valY4 V) := by
  rw [Pv4, st_v4_keeps (r := main_v103) _ (by decide), Pm4_v103]

theorem Pv4_v104 : Pv4 V (Proc.devRef .tc main_v104) = varN (valY4 V) := by
  rw [Pv4, stage_v4, Pm4_v100]

/-- The buffer contents after the stretches up to `st_o2`. -/
def Po2 : Valuation τ sig (Elt F) := after st_o2 (Pv4 V)

theorem Po2_arg {r : Ref sig .tc} (hr : r.idx.val < 21) : Po2 V (Proc.devRef .tc r) = V (Proc.devRef .tc r) := by
  rw [Po2, st_o2_keeps (r := r) _ (Or.inl (by omega)), Pv4_arg V hr]

theorem Po2_v120 : Po2 V (Proc.devRef .tc main_v120) = valO2 V := by
  rw [Po2, stage_o2, Pv4_v100, Pv4_v103, Pv4_v104, Pv4_arg V (r := main_arg17) (by decide), Pv4_arg V (r := main_arg18) (by decide)]; rfl

/-- The buffer contents after the stretches up to `st_attn`. -/
def Pattn : Valuation τ sig (Elt F) := after st_attn (Po2 V)

theorem Pattn_arg {r : Ref sig .tc} (hr : r.idx.val < 21) : Pattn V (Proc.devRef .tc r) = V (Proc.devRef .tc r) := by
  rw [Pattn, st_attn_keeps (r := r) _ (Or.inl (by omega)), Po2_arg V hr]

theorem Pattn_v120 : Pattn V (Proc.devRef .tc main_v120) = valO2 V := by
  rw [Pattn, st_attn_keeps (r := main_v120) _ (by decide), Po2_v120]

theorem Pattn_v131 : Pattn V (Proc.devRef .tc main_v131) = valAttn V := by
  rw [Pattn, stage_attn, Po2_v120, Po2_arg V (r := main_arg19) (by decide), Po2_arg V (r := main_arg20) (by decide)]; rfl

/-- The fold over @main's operations is the stretches' folds composed. -/
theorem after_ops : after ops V = Pattn V := by
  rw [ops_cut]
  simp only [after_append]
  rfl

/-- @main's first result, as a pure function of the argument arrays. -/
theorem value_v120 : after ops V (Proc.devRef .tc main_v120) = valO2 V := by
  rw [after_ops, Pattn_v120]

/-- @main's second result, as a pure function of the argument arrays. -/
theorem value_v131 : after ops V (Proc.devRef .tc main_v131) = valAttn V := by
  rw [after_ops, Pattn_v131]

end Cert.ReferenceIdeal.Hand

end
-- ==== Proof.KI.Keeps.lean ====
import proofs.«110491_j38809324487019_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (kits : (p : Fin 8) → Kit F p)

/-! ## What each item of the program leaves unchanged, along the chain of valuations

  A stretch of host operations changes only the buffers its operations write; a kernel region only its output
  arrays. So a buffer's contents after an item are its contents before it unless the item writes it — which lets a
  read anywhere along the chain be walked back to the item that wrote the buffer. -/

theorem U1_of (c : Dev nD) (r : Ref sig .tc) (h : r ∉ hostOps0_W) : U1 m c r = U0 m c r := Gen.V1_of m c r h
theorem U2_of (c : Dev nD) (r : Ref sig .tc) (h : r ∉ ([main_v14_0, main_v14_1] : List (Ref sig .tc))) : U2 m kits c r = U1 m c r := by
  rw [← V2_eq, ← V1_eq]; exact Gen.V2_of m (outs m kits) c r h
theorem U3_of (c : Dev nD) (r : Ref sig .tc) (h : r ∉ hostOps1_W) : U3 m kits c r = U2 m kits c r := by
  rw [← V3_eq, ← V2_eq]; exact Gen.V3_of m (outs m kits) c r h
theorem U4_of (c : Dev nD) (r : Ref sig .tc) (h : r ∉ ([main_v18] : List (Ref sig .tc))) : U4 m kits c r = U3 m kits c r := by
  rw [← V4_eq, ← V3_eq]; exact Gen.V4_of m (outs m kits) c r h
theorem U5_of (c : Dev nD) (r : Ref sig .tc) (h : r ∉ hostOps2_W) : U5 m kits c r = U4 m kits c r := by
  rw [← V5_eq, ← V4_eq]; exact Gen.V5_of m (outs m kits) c r h
theorem U6_of (c : Dev nD) (r : Ref sig .tc) (h : r ∉ ([main_v20_0, main_v20_1] : List (Ref sig .tc))) : U6 m kits c r = U5 m kits c r := by
  rw [← V6_eq, ← V5_eq]; exact Gen.V6_of m (outs m kits) c r h
theorem U7_of (c : Dev nD) (r : Ref sig .tc) (h : r ∉ hostOps3_W) : U7 m kits c r = U6 m kits c r := by
  rw [← V7_eq, ← V6_eq]; exact Gen.V7_of m (outs m kits) c r h
theorem U8_of (c : Dev nD) (r : Ref sig .tc) (h : r ∉ ([main_v24] : List (Ref sig .tc))) : U8 m kits c r = U7 m kits c r := by
  rw [← V8_eq, ← V7_eq]; exact Gen.V8_of m (outs m kits) c r h
theorem U9_of (c : Dev nD) (r : Ref sig .tc) (h : r ∉ hostOps4_W) : U9 m kits c r = U8 m kits c r := by
  rw [← V9_eq, ← V8_eq]; exact Gen.V9_of m (outs m kits) c r h
theorem U10_of (c : Dev nD) (r : Ref sig .tc) (h : r ∉ ([main_v40_0, main_v40_1] : List (Ref sig .tc))) : U10 m kits c r = U9 m kits c r := by
  rw [← V10_eq, ← V9_eq]; exact Gen.V10_of m (outs m kits) c r h
theorem U11_of (c : Dev nD) (r : Ref sig .tc) (h : r ∉ hostOps5_W) : U11 m kits c r = U10 m kits c r := by
  rw [← V11_eq, ← V10_eq]; exact Gen.V11_of m (outs m kits) c r h
theorem U12_of (c : Dev nD) (r : Ref sig .tc) (h : r ∉ ([main_v44] : List (Ref sig .tc))) : U12 m kits c r = U11 m kits c r := by
  rw [← V12_eq, ← V11_eq]; exact Gen.V12_of m (outs m kits) c r h
theorem U13_of (c : Dev nD) (r : Ref sig .tc) (h : r ∉ hostOps6_W) : U13 m kits c r = U12 m kits c r := by
  rw [← V13_eq, ← V12_eq]; exact Gen.V13_of m (outs m kits) c r h
theorem U14_of (c : Dev nD) (r : Ref sig .tc) (h : r ∉ ([main_v46_0, main_v46_1] : List (Ref sig .tc))) : U14 m kits c r = U13 m kits c r := by
  rw [← V14_eq, ← V13_eq]; exact Gen.V14_of m (outs m kits) c r h
theorem U15_of (c : Dev nD) (r : Ref sig .tc) (h : r ∉ hostOps7_W) : U15 m kits c r = U14 m kits c r := by
  rw [← V15_eq, ← V14_eq]; exact Gen.V15_of m (outs m kits) c r h
theorem U16_of (c : Dev nD) (r : Ref sig .tc) (h : r ∉ ([main_v51_0, main_v51_1] : List (Ref sig .tc))) : U16 m kits c r = U15 m kits c r := by
  rw [← V16_eq, ← V15_eq]; exact Gen.V16_of m (outs m kits) c r h
theorem U17_of (c : Dev nD) (r : Ref sig .tc) (h : r ∉ hostOps8_W) : U17 m kits c r = U16 m kits c r := by
  rw [← V17_eq, ← V16_eq]; exact Gen.V17_of m (outs m kits) c r h

end Cert.KernelIdeal.Hand
end
-- ==== Proof.KI.Reads.lean ====
import proofs.«110491_j38809324487019_2_alg».proof.Proof.KI.Keeps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (kits : (p : Fin 8) → Kit F p)

/-! ## Each region's input arrays, walked back to the item that wrote them -/
theorem rd0_0 (c : Dev nD) : U1 m c main_arg2 = U0 m c main_arg2 := by
  rw [U1_of m c main_arg2 (by decide)]
theorem rd1_0 (c : Dev nD) : U3 m kits c main_arg2 = U0 m c main_arg2 := by
  rw [U3_of m kits c main_arg2 (by decide), U2_of m kits c main_arg2 (by decide), U1_of m c main_arg2 (by decide)]
theorem rd1_1 (c : Dev nD) : U3 m kits c main_v10 = U1 m c main_v10 := by
  rw [U3_of m kits c main_v10 (by decide), U2_of m kits c main_v10 (by decide)]
theorem rd1_2 (c : Dev nD) : U3 m kits c main_v11 = U1 m c main_v11 := by
  rw [U3_of m kits c main_v11 (by decide), U2_of m kits c main_v11 (by decide)]
theorem rd1_3 (c : Dev nD) : U3 m kits c main_v12 = U1 m c main_v12 := by
  rw [U3_of m kits c main_v12 (by decide), U2_of m kits c main_v12 (by decide)]
theorem rd1_7 (c : Dev nD) : U3 m kits c main_v14_0 = U2 m kits c main_v14_0 := by
  rw [U3_of m kits c main_v14_0 (by decide)]
theorem rd1_8 (c : Dev nD) : U3 m kits c main_v14_1 = U2 m kits c main_v14_1 := by
  rw [U3_of m kits c main_v14_1 (by decide)]
theorem rd2_0 (c : Dev nD) : U5 m kits c main_v18 = U4 m kits c main_v18 := by
  rw [U5_of m kits c main_v18 (by decide)]
theorem rd2_1 (c : Dev nD) : U5 m kits c main_arg7 = U0 m c main_arg7 := by
  rw [U5_of m kits c main_arg7 (by decide), U4_of m kits c main_arg7 (by decide), U3_of m kits c main_arg7 (by decide), U2_of m kits c main_arg7 (by decide), U1_of m c main_arg7 (by decide)]
theorem rd3_0 (c : Dev nD) : U7 m kits c main_v18 = U4 m kits c main_v18 := by
  rw [U7_of m kits c main_v18 (by decide), U6_of m kits c main_v18 (by decide), U5_of m kits c main_v18 (by decide)]
theorem rd3_1 (c : Dev nD) : U7 m kits c main_arg7 = U0 m c main_arg7 := by
  rw [U7_of m kits c main_arg7 (by decide), U6_of m kits c main_arg7 (by decide), U5_of m kits c main_arg7 (by decide), U4_of m kits c main_arg7 (by decide), U3_of m kits c main_arg7 (by decide), U2_of m kits c main_arg7 (by decide), U1_of m c main_arg7 (by decide)]
theorem rd3_5 (c : Dev nD) : U7 m kits c main_v20_0 = U6 m kits c main_v20_0 := by
  rw [U7_of m kits c main_v20_0 (by decide)]
theorem rd3_6 (c : Dev nD) : U7 m kits c main_v20_1 = U6 m kits c main_v20_1 := by
  rw [U7_of m kits c main_v20_1 (by decide)]
theorem rd4_0 (c : Dev nD) : U9 m kits c main_arg0 = U0 m c main_arg0 := by
  rw [U9_of m kits c main_arg0 (by decide), U8_of m kits c main_arg0 (by decide), U7_of m kits c main_arg0 (by decide), U6_of m kits c main_arg0 (by decide), U5_of m kits c main_arg0 (by decide), U4_of m kits c main_arg0 (by decide), U3_of m kits c main_arg0 (by decide), U2_of m kits c main_arg0 (by decide), U1_of m c main_arg0 (by decide)]
theorem rd5_0 (c : Dev nD) : U11 m kits c main_arg0 = U0 m c main_arg0 := by
  rw [U11_of m kits c main_arg0 (by decide), U10_of m kits c main_arg0 (by decide), U9_of m kits c main_arg0 (by decide), U8_of m kits c main_arg0 (by decide), U7_of m kits c main_arg0 (by decide), U6_of m kits c main_arg0 (by decide), U5_of m kits c main_arg0 (by decide), U4_of m kits c main_arg0 (by decide), U3_of m kits c main_arg0 (by decide), U2_of m kits c main_arg0 (by decide), U1_of m c main_arg0 (by decide)]
theorem rd5_1 (c : Dev nD) : U11 m kits c main_v36 = U9 m kits c main_v36 := by
  rw [U11_of m kits c main_v36 (by decide), U10_of m kits c main_v36 (by decide)]
theorem rd5_2 (c : Dev nD) : U11 m kits c main_v37 = U9 m kits c main_v37 := by
  rw [U11_of m kits c main_v37 (by decide), U10_of m kits c main_v37 (by decide)]
theorem rd5_3 (c : Dev nD) : U11 m kits c main_v38 = U9 m kits c main_v38 := by
  rw [U11_of m kits c main_v38 (by decide), U10_of m kits c main_v38 (by decide)]
theorem rd5_7 (c : Dev nD) : U11 m kits c main_v40_0 = U10 m kits c main_v40_0 := by
  rw [U11_of m kits c main_v40_0 (by decide)]
theorem rd5_8 (c : Dev nD) : U11 m kits c main_v40_1 = U10 m kits c main_v40_1 := by
  rw [U11_of m kits c main_v40_1 (by decide)]
theorem rd6_0 (c : Dev nD) : U13 m kits c main_v44 = U12 m kits c main_v44 := by
  rw [U13_of m kits c main_v44 (by decide)]
theorem rd6_1 (c : Dev nD) : U13 m kits c main_arg15 = U0 m c main_arg15 := by
  rw [U13_of m kits c main_arg15 (by decide), U12_of m kits c main_arg15 (by decide), U11_of m kits c main_arg15 (by decide), U10_of m kits c main_arg15 (by decide), U9_of m kits c main_arg15 (by decide), U8_of m kits c main_arg15 (by decide), U7_of m kits c main_arg15 (by decide), U6_of m kits c main_arg15 (by decide), U5_of m kits c main_arg15 (by decide), U4_of m kits c main_arg15 (by decide), U3_of m kits c main_arg15 (by decide), U2_of m kits c main_arg15 (by decide), U1_of m c main_arg15 (by decide)]
theorem rd7_0 (c : Dev nD) : U15 m kits c main_v44 = U12 m kits c main_v44 := by
  rw [U15_of m kits c main_v44 (by decide), U14_of m kits c main_v44 (by decide), U13_of m kits c main_v44 (by decide)]
theorem rd7_1 (c : Dev nD) : U15 m kits c main_arg15 = U0 m c main_arg15 := by
  rw [U15_of m kits c main_arg15 (by decide), U14_of m kits c main_arg15 (by decide), U13_of m kits c main_arg15 (by decide), U12_of m kits c main_arg15 (by decide), U11_of m kits c main_arg15 (by decide), U10_of m kits c main_arg15 (by decide), U9_of m kits c main_arg15 (by decide), U8_of m kits c main_arg15 (by decide), U7_of m kits c main_arg15 (by decide), U6_of m kits c main_arg15 (by decide), U5_of m kits c main_arg15 (by decide), U4_of m kits c main_arg15 (by decide), U3_of m kits c main_arg15 (by decide), U2_of m kits c main_arg15 (by decide), U1_of m c main_arg15 (by decide)]
theorem rd7_5 (c : Dev nD) : U15 m kits c main_v46_0 = U14 m kits c main_v46_0 := by
  rw [U15_of m kits c main_v46_0 (by decide)]
theorem rd7_6 (c : Dev nD) : U15 m kits c main_v46_1 = U14 m kits c main_v46_1 := by
  rw [U15_of m kits c main_v46_1 (by decide)]
theorem rd7_7 (c : Dev nD) : U15 m kits c main_arg19 = U0 m c main_arg19 := by
  rw [U15_of m kits c main_arg19 (by decide), U14_of m kits c main_arg19 (by decide), U13_of m kits c main_arg19 (by decide), U12_of m kits c main_arg19 (by decide), U11_of m kits c main_arg19 (by decide), U10_of m kits c main_arg19 (by decide), U9_of m kits c main_arg19 (by decide), U8_of m kits c main_arg19 (by decide), U7_of m kits c main_arg19 (by decide), U6_of m kits c main_arg19 (by decide), U5_of m kits c main_arg19 (by decide), U4_of m kits c main_arg19 (by decide), U3_of m kits c main_arg19 (by decide), U2_of m kits c main_arg19 (by decide), U1_of m c main_arg19 (by decide)]
/-! The host stretch between the second and third fused stages reads the second stage's output and the destination row;
    the last stretch reads the attention column; the first result is not touched by the last stretch. -/
theorem rdH4_v3 (c : Dev nD) : U8 m kits c main_v3 = U1 m c main_v3 := by
  rw [U8_of m kits c main_v3 (by decide), U7_of m kits c main_v3 (by decide), U6_of m kits c main_v3 (by decide), U5_of m kits c main_v3 (by decide), U4_of m kits c main_v3 (by decide), U3_of m kits c main_v3 (by decide), U2_of m kits c main_v3 (by decide)]
theorem rdH4_arg11 (c : Dev nD) : U8 m kits c main_arg11 = U0 m c main_arg11 := by
  rw [U8_of m kits c main_arg11 (by decide), U7_of m kits c main_arg11 (by decide), U6_of m kits c main_arg11 (by decide), U5_of m kits c main_arg11 (by decide), U4_of m kits c main_arg11 (by decide), U3_of m kits c main_arg11 (by decide), U2_of m kits c main_arg11 (by decide), U1_of m c main_arg11 (by decide)]
theorem rdH4_arg12 (c : Dev nD) : U8 m kits c main_arg12 = U0 m c main_arg12 := by
  rw [U8_of m kits c main_arg12 (by decide), U7_of m kits c main_arg12 (by decide), U6_of m kits c main_arg12 (by decide), U5_of m kits c main_arg12 (by decide), U4_of m kits c main_arg12 (by decide), U3_of m kits c main_arg12 (by decide), U2_of m kits c main_arg12 (by decide), U1_of m c main_arg12 (by decide)]
theorem rdRes0 (c : Dev nD) : U17 m kits c main_v51_0 = U16 m kits c main_v51_0 := by
  rw [U17_of m kits c main_v51_0 (by decide)]

end Cert.KernelIdeal.Hand
end
-- ==== Proof.Spec.lean ====
/-
  The layer's arithmetic, entry by entry, on the extended reals — the functions both programs are read into.

  A fused stage computes, for a table y of R rows and 128 columns, the column means and variances and then
  max(((y − mean) · rsqrt(var + ε)) · g + be, 0).  The kernels form y as  bias + x₁·w₁ (+ x₂·w₂)  and take the
  statistics in one pass (mean = sum · 1/R, var = max(sumsq · 1/R − mean², 0)); the plain program forms
  y = [x₁ x₂]·w + bias and takes them in two passes (mean = sum / R, var = sum of squared deviations / R).
-/
import Idealize.ShloMosaic.PureOps.Ideal
import Idealize.ShloMosaic.PureOps.Ideal.Laws
import Idealize.ShloMosaic.Lib.ValueIdx

noncomputable section

namespace Cert.Spec

open Idealize.ShloMosaic

/-- The batch-normalisation ε: the single-precision number nearest 1e-5. -/
def eps : EReal := Ideal.ofBits .f32 0x3727C5AC#32
/-- The zero pattern (it denotes 0). -/
def z0 : EReal := Ideal.ofBits .f32 0x00000000#32

/-- One normalised, scaled, shifted and rectified entry. -/
def bnrelu (y m v g be : EReal) : EReal := max ((y - m) * Ideal.rsqrt (v + eps) * g + be) z0

/-- A linear layer's entry in the kernels' arrangement, one input: the bias, then the product. -/
def lin1 {R : ℕ} (x : Fin R → Fin 128 → EReal) (w : Fin 128 → Fin 128 → EReal) (b : Fin 128 → EReal) (e : Fin R) (j : Fin 128) : EReal :=
  b j + ∑ k, x e k * w k j

/-- A linear layer's entry in the kernels' arrangement, two inputs side by side: the bias, then the two half products in turn. -/
def lin2 {R : ℕ} (x1 x2 : Fin R → Fin 128 → EReal) (w1 w2 : Fin 128 → Fin 128 → EReal) (b : Fin 128 → EReal) (e : Fin R) (j : Fin 128) : EReal :=
  (b j + ∑ k, x1 e k * w1 k j) + ∑ k, x2 e k * w2 k j

/-- A linear layer's entry in the plain program's arrangement: the product over all K input columns, then the bias. -/
def linR {R K : ℕ} (x : Fin R → Fin K → EReal) (w : Fin K → Fin 128 → EReal) (b : Fin 128 → EReal) (e : Fin R) (j : Fin 128) : EReal :=
  (∑ k, x e k * w k j) + b j

/-- Column mean, one pass: the column sum times the reciprocal r of the row count. -/
def meanK {R : ℕ} (r : EReal) (y : Fin R → Fin 128 → EReal) (j : Fin 128) : EReal := (∑ e, y e j) * r

/-- Column variance, one pass: the mean of the squares minus the squared mean, not below zero. -/
def varK {R : ℕ} (r : EReal) (y : Fin R → Fin 128 → EReal) (j : Fin 128) : EReal :=
  max ((∑ e, y e j * y e j) * r - meanK r y j * meanK r y j) z0

/-- Column mean, plain program: the column sum (started from the zero pattern) over the row count n. -/
def meanR {R : ℕ} (n : EReal) (y : Fin R → Fin 128 → EReal) (j : Fin 128) : EReal := Ideal.div (z0 + ∑ e, y e j) n

/-- Column variance, plain program: the sum of squared deviations from the mean (started from the zero pattern) over the row count. -/
def varR {R : ℕ} (n : EReal) (y : Fin R → Fin 128 → EReal) (j : Fin 128) : EReal :=
  Ideal.div (z0 + ∑ e, (y e j - meanR n y j) * (y e j - meanR n y j)) n

end Cert.Spec

end
-- ==== Proof.KI.ApplyValueLib.lean ====
import proofs.«110491_j38809324487019_2_alg».proof.Proof.Gen.KernelIdeal.Skeleton
import proofs.«110491_j38809324487019_2_alg».proof.Proof.Spec
import Idealize.ShloMosaic.Lib.Pipeline.Value
import Idealize.ShloMosaic.Lib.ValueLayout
import Idealize.ShloMosaic.PureOps.Ideal.Laws

/-!
  What the apply kernels' payloads need to be read at an entry on the extended reals: each matrix product into a zero
  accumulator as a sum over the contracted axis, the reciprocal square root and the logistic function entry by entry,
  and the congruence of a normalised entry in its five arguments.
-/

noncomputable section

namespace Cert.KernelIdeal.Hand

open Cert.KernelIdeal Cert.KernelIdeal.Gen Idealize.ShloMosaic Idealize.ShloMosaic.ValueIdx

/-- Zero offsets, however spelt. -/
theorem hz2 : (![0, 0] : Fin 2 → Nat) = fun _ => 0 := funext fun a => by fin_cases a <;> rfl

/-- The reciprocal square root of a vector, entry by entry. -/
theorem rsqrt_apply {s : Shape} {φ : FTy} (a : FVec Ideal s φ) (i : s.Idx) : rsqrt a i = Ideal.rsqrt (a i) := rfl

/-- The logistic function of a vector, entry by entry. -/
theorem logistic_apply {s : Shape} {φ : FTy} (a : FVec Ideal s φ) (i : s.Idx) : logistic a i = Ideal.logistic (a i) := rfl

/-- Equal arguments, equal normalised entries. -/
theorem bnrelu_congr {y y' m m' v v' g g' be be' : EReal} (hy : y = y') (hm : m = m') (hv : v = v') (hg : g = g') (hbe : be = be') :
    Spec.bnrelu y m v g be = Spec.bnrelu y' m' v' g' be' := by subst hy hm hv hg hbe; rfl

/-! ## The product `S6400x128 · S128x128` read at an entry -/

abbrev D6400 : DotDims S6400x128 S128x128 S6400x128 := dot_S6400x128_S128x128_S6400x128_1_0_0_1_n_n

theorem lhsD6400_0 (i : S6400x128.Idx) (q : D6400.contr.Idx) : (D6400.lhsIdx i q 0).val = (i 0).val := by
  unfold DotDims.lhsIdx
  rw [dif_neg (show ¬(0 : Fin S6400x128.rank) ∈ D6400.lhsBatch by decide), dif_pos (show (0 : Fin S6400x128.rank) ∈ D6400.lhsNonContracting by decide)]
  rfl
theorem lhsD6400_1 (i : S6400x128.Idx) (q : D6400.contr.Idx) : (D6400.lhsIdx i q 1).val = (q ⟨0, by decide⟩).val :=
  D6400.lhsIdx_val_of_single rfl i q
theorem rhsD6400_0 (i : S6400x128.Idx) (q : D6400.contr.Idx) : (D6400.rhsIdx i q 0).val = (q ⟨0, by decide⟩).val :=
  D6400.rhsIdx_val_of_single rfl i q
theorem rhsD6400_1 (i : S6400x128.Idx) (q : D6400.contr.Idx) : (D6400.rhsIdx i q 1).val = (i 1).val := by
  unfold DotDims.rhsIdx
  rw [dif_neg (show ¬(1 : Fin S128x128.rank) ∈ D6400.rhsBatch by decide), dif_pos (show (1 : Fin S128x128.rank) ∈ D6400.rhsNonContracting by decide)]
  rfl

/-- The product into a zero accumulator, entry by entry: row p of the left operand against column q of the right,
    summed over the 128 positions of the contracted axis. -/
theorem matmulD6400_apply (x : FVec Ideal S6400x128 .bf16) (w : FVec Ideal S128x128 .bf16) (p : Fin 6400) (q : Fin 128) :
    matmul D6400 none x w (constant S6400x128 .f32 0x00000000#32) (ix2 p q) = ∑ k : Fin 128, x (ix2 p k) * w (ix2 k q) := by
  simp only [matmul]
  rw [Ideal.matmul_constant_zero_apply, ← Equiv.sum_comp (contrEquiv1 D6400 128 rfl rfl).symm]
  refine Finset.sum_congr rfl fun k _ => ?_
  have hk := contrEquiv1_symm_val D6400 128 rfl rfl k
  have el : D6400.lhsIdx (ix2 p q) ((contrEquiv1 D6400 128 rfl rfl).symm k) = ix2 p k := funext fun a => Fin.ext (by
    match a with
    | ⟨0, _⟩ => exact lhsD6400_0 _ _
    | ⟨1, _⟩ => exact (lhsD6400_1 _ _).trans hk)
  have er : D6400.rhsIdx (ix2 p q) ((contrEquiv1 D6400 128 rfl rfl).symm k) = ix2 k q := funext fun a => Fin.ext (by
    match a with
    | ⟨0, _⟩ => exact (rhsD6400_0 _ _).trans hk
    | ⟨1, _⟩ => exact rhsD6400_1 _ _)
  rw [el, er]

/-! ## The product `S5000x128 · S128x128` read at an entry -/

abbrev D5000 : DotDims S5000x128 S128x128 S5000x128 := dot_S5000x128_S128x128_S5000x128_1_0_0_1_n_n

theorem lhsD5000_0 (i : S5000x128.Idx) (q : D5000.contr.Idx) : (D5000.lhsIdx i q 0).val = (i 0).val := by
  unfold DotDims.lhsIdx
  rw [dif_neg (show ¬(0 : Fin S5000x128.rank) ∈ D5000.lhsBatch by decide), dif_pos (show (0 : Fin S5000x128.rank) ∈ D5000.lhsNonContracting by decide)]
  rfl
theorem lhsD5000_1 (i : S5000x128.Idx) (q : D5000.contr.Idx) : (D5000.lhsIdx i q 1).val = (q ⟨0, by decide⟩).val :=
  D5000.lhsIdx_val_of_single rfl i q
theorem rhsD5000_0 (i : S5000x128.Idx) (q : D5000.contr.Idx) : (D5000.rhsIdx i q 0).val = (q ⟨0, by decide⟩).val :=
  D5000.rhsIdx_val_of_single rfl i q
theorem rhsD5000_1 (i : S5000x128.Idx) (q : D5000.contr.Idx) : (D5000.rhsIdx i q 1).val = (i 1).val := by
  unfold DotDims.rhsIdx
  rw [dif_neg (show ¬(1 : Fin S128x128.rank) ∈ D5000.rhsBatch by decide), dif_pos (show (1 : Fin S128x128.rank) ∈ D5000.rhsNonContracting by decide)]
  rfl

/-- The product into a zero accumulator, entry by entry: row p of the left operand against column q of the right,
    summed over the 128 positions of the contracted axis. -/
theorem matmulD5000_apply (x : FVec Ideal S5000x128 .bf16) (w : FVec Ideal S128x128 .bf16) (p : Fin 5000) (q : Fin 128) :
    matmul D5000 none x w (constant S5000x128 .f32 0x00000000#32) (ix2 p q) = ∑ k : Fin 128, x (ix2 p k) * w (ix2 k q) := by
  simp only [matmul]
  rw [Ideal.matmul_constant_zero_apply, ← Equiv.sum_comp (contrEquiv1 D5000 128 rfl rfl).symm]
  refine Finset.sum_congr rfl fun k _ => ?_
  have hk := contrEquiv1_symm_val D5000 128 rfl rfl k
  have el : D5000.lhsIdx (ix2 p q) ((contrEquiv1 D5000 128 rfl rfl).symm k) = ix2 p k := funext fun a => Fin.ext (by
    match a with
    | ⟨0, _⟩ => exact lhsD5000_0 _ _
    | ⟨1, _⟩ => exact (lhsD5000_1 _ _).trans hk)
  have er : D5000.rhsIdx (ix2 p q) ((contrEquiv1 D5000 128 rfl rfl).symm k) = ix2 k q := funext fun a => Fin.ext (by
    match a with
    | ⟨0, _⟩ => exact (rhsD5000_0 _ _).trans hk
    | ⟨1, _⟩ => exact rhsD5000_1 _ _)
  rw [el, er]

/-! ## The product `S5000x128 · S128x1` read at an entry -/

abbrev DAtt : DotDims S5000x128 S128x1 S5000x1 := dot_S5000x128_S128x1_S5000x1_1_0_0_1_n_n

theorem lhsDAtt_0 (i : S5000x1.Idx) (q : DAtt.contr.Idx) : (DAtt.lhsIdx i q 0).val = (i 0).val := by
  unfold DotDims.lhsIdx
  rw [dif_neg (show ¬(0 : Fin S5000x128.rank) ∈ DAtt.lhsBatch by decide), dif_pos (show (0 : Fin S5000x128.rank) ∈ DAtt.lhsNonContracting by decide)]
  rfl
theorem lhsDAtt_1 (i : S5000x1.Idx) (q : DAtt.contr.Idx) : (DAtt.lhsIdx i q 1).val = (q ⟨0, by decide⟩).val :=
  DAtt.lhsIdx_val_of_single rfl i q
theorem rhsDAtt_0 (i : S5000x1.Idx) (q : DAtt.contr.Idx) : (DAtt.rhsIdx i q 0).val = (q ⟨0, by decide⟩).val :=
  DAtt.rhsIdx_val_of_single rfl i q
theorem rhsDAtt_1 (i : S5000x1.Idx) (q : DAtt.contr.Idx) : (DAtt.rhsIdx i q 1).val = (i 1).val := by
  unfold DotDims.rhsIdx
  rw [dif_neg (show ¬(1 : Fin S128x1.rank) ∈ DAtt.rhsBatch by decide), dif_pos (show (1 : Fin S128x1.rank) ∈ DAtt.rhsNonContracting by decide)]
  rfl

/-- The product into a zero accumulator, entry by entry: row p of the left operand against column q of the right,
    summed over the 128 positions of the contracted axis. -/
theorem matmulDAtt_apply (x : FVec Ideal S5000x128 .bf16) (w : FVec Ideal S128x1 .bf16) (p : Fin 5000) (q : Fin 1) :
    matmul DAtt none x w (constant S5000x1 .f32 0x00000000#32) (ix2 p q) = ∑ k : Fin 128, x (ix2 p k) * w (ix2 k q) := by
  simp only [matmul]
  rw [Ideal.matmul_constant_zero_apply, ← Equiv.sum_comp (contrEquiv1 DAtt 128 rfl rfl).symm]
  refine Finset.sum_congr rfl fun k _ => ?_
  have hk := contrEquiv1_symm_val DAtt 128 rfl rfl k
  have el : DAtt.lhsIdx (ix2 p q) ((contrEquiv1 DAtt 128 rfl rfl).symm k) = ix2 p k := funext fun a => Fin.ext (by
    match a with
    | ⟨0, _⟩ => exact lhsDAtt_0 _ _
    | ⟨1, _⟩ => exact (lhsDAtt_1 _ _).trans hk)
  have er : DAtt.rhsIdx (ix2 p q) ((contrEquiv1 DAtt 128 rfl rfl).symm k) = ix2 k q := funext fun a => Fin.ext (by
    match a with
    | ⟨0, _⟩ => exact (rhsDAtt_0 _ _).trans hk
    | ⟨1, _⟩ => exact rhsDAtt_1 _ _)
  rw [el, er]

end Cert.KernelIdeal.Hand

end
-- ==== Proof.KI.Apply1Value.lean ====
import proofs.«110491_j38809324487019_2_alg».proof.Proof.KI.Apply1
import proofs.«110491_j38809324487019_2_alg».proof.Proof.KI.ApplyValueLib

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # What region 1 leaves in its result array, on the extended reals

The block a point writes back is the body's payload of the point's input blocks; read entry by entry it is the rectified,
normalised linear layer of the rows of the two activations the point holds, so the blocks together are one function of
the arrays the region is entered with, and they cover the result array. -/

/-! ## The body's payload at an entry -/

/-- The bias plus the two row–column products in turn (every operand rounded to bf16, the identity on the extended
    reals), normalised by the batch statistics, scaled, shifted, rectified and rounded to bf16. -/
theorem pay1_apply (v0 : FVec Ideal S1x128 .f32) (v2 : FVec Ideal S6400x128 .f32) (v4 : FVec Ideal S128x128 .f32) (v10 : FVec Ideal S6400x128 .f32)
    (v13 : FVec Ideal S128x128 .f32) (v18 v22 v29 v33 : FVec Ideal S1x128 .f32) (p : Fin 6400) (q : Fin 128) :
    k1_pay1 (F := Ideal) (k1_pay2 v0 v2 v4 v10 v13 v18 v22 v29 v33) (Scalar.ofBits .f32 0x00000000#32) (ix2 p q) =
      Spec.bnrelu ((v0 (ix2 0 q) + ∑ k : Fin 128, v2 (ix2 p k) * v4 (ix2 k q)) + ∑ k : Fin 128, v10 (ix2 p k) * v13 (ix2 k q))
        (v18 (ix2 0 q)) (v22 (ix2 0 q)) (v29 (ix2 0 q)) (v33 (ix2 0 q)) := by
  unfold k1_pay1 k1_pay2
  simp only [truncf_apply, maximumf_apply, addf_apply, mulf_apply, subf_apply, shapeCast_self, broadcastTo_1b_ab_apply, rsqrt_apply, broadcast_apply]
  rw [show matmul dot_S6400x128_S128x128_S6400x128_1_0_0_1_n_n none (truncf .bf16 v2 bitsLt_bf16_f32) (truncf .bf16 v4 bitsLt_bf16_f32) (constant S6400x128 .f32 0x00000000#32) (ix2 p q) = ∑ k : Fin 128, v2 (ix2 p k) * v4 (ix2 k q) from matmulD6400_apply (truncf .bf16 v2 bitsLt_bf16_f32) (truncf .bf16 v4 bitsLt_bf16_f32) p q,
    show matmul dot_S6400x128_S128x128_S6400x128_1_0_0_1_n_n none (truncf .bf16 v10 bitsLt_bf16_f32) (truncf .bf16 v13 bitsLt_bf16_f32) (constant S6400x128 .f32 0x00000000#32) (ix2 p q) = ∑ k : Fin 128, v10 (ix2 p k) * v13 (ix2 k q) from matmulD6400_apply (truncf .bf16 v10 bitsLt_bf16_f32) (truncf .bf16 v13 bitsLt_bf16_f32) p q]
  rfl

/-! ## The windows' index maps, decided over the grid

The activations' and the results' blocks move down the rows with the point; every other window stays at block 0. -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)

/-! ## Each input window's block, read off the array the region is entered with -/

/-- Window 0's block at point t is rows 6400·t … 6400·t + 6399 of its array. -/
theorem iblk1_0_apply (c : Dev nD) (t : Fin cfg1.N) (p : Fin 6400) (k : Fin 128) (e : Fin 800000) (he : e.val = 6400 * t.val + p.val) :
    (iblk1 V c 0 t : FVec Ideal S6400x128 .f32) (ix2 p k) = (V c main_arg2 : S800000x128.Idx → EReal) (ix2 e k) := by
  obtain ⟨h0, h1⟩ := idx1_0 t
  unfold iblk1
  rw [View.read_apply]
  show V c main_arg2 _ = V c main_arg2 _
  refine congrArg _ (funext fun a => Fin.ext ?_)
  match a with
  | ⟨0, _⟩ => show win1_0.index t 0 * 6400 + 1 * p.val = e.val; rw [h0, he]; omega
  | ⟨1, _⟩ => show win1_0.index t 1 * 128 + 1 * k.val = k.val; rw [h1]; omega
/-- Window 1's block at point t is rows 6400·t … 6400·t + 6399 of its array. -/
theorem iblk1_1_apply (c : Dev nD) (t : Fin cfg1.N) (p : Fin 6400) (k : Fin 128) (e : Fin 800000) (he : e.val = 6400 * t.val + p.val) :
    (iblk1 V c 1 t : FVec Ideal S6400x128 .f32) (ix2 p k) = (V c main_v10 : S800000x128.Idx → EReal) (ix2 e k) := by
  obtain ⟨h0, h1⟩ := idx1_1 t
  unfold iblk1
  rw [View.read_apply]
  show V c main_v10 _ = V c main_v10 _
  refine congrArg _ (funext fun a => Fin.ext ?_)
  match a with
  | ⟨0, _⟩ => show win1_1.index t 0 * 6400 + 1 * p.val = e.val; rw [h0, he]; omega
  | ⟨1, _⟩ => show win1_1.index t 1 * 128 + 1 * k.val = k.val; rw [h1]; omega
/-- Window 2's block is its whole array, at every point. -/
theorem iblk1_2_apply (c : Dev nD) (t : Fin cfg1.N) (k j : Fin 128) :
    (iblk1 V c 2 t : FVec Ideal S128x128 .f32) (ix2 k j) = (V c main_v11 : S128x128.Idx → EReal) (ix2 k j) := by
  obtain ⟨h0, h1⟩ := idx1_2 t
  unfold iblk1
  rw [View.read_apply]
  show V c main_v11 _ = V c main_v11 _
  refine congrArg _ (funext fun a => Fin.ext ?_)
  match a with
  | ⟨0, _⟩ => show win1_2.index t 0 * 128 + 1 * k.val = k.val; rw [h0]; omega
  | ⟨1, _⟩ => show win1_2.index t 1 * 128 + 1 * j.val = j.val; rw [h1]; omega
/-- Window 3's block is its whole array, at every point. -/
theorem iblk1_3_apply (c : Dev nD) (t : Fin cfg1.N) (k j : Fin 128) :
    (iblk1 V c 3 t : FVec Ideal S128x128 .f32) (ix2 k j) = (V c main_v12 : S128x128.Idx → EReal) (ix2 k j) := by
  obtain ⟨h0, h1⟩ := idx1_3 t
  unfold iblk1
  rw [View.read_apply]
  show V c main_v12 _ = V c main_v12 _
  refine congrArg _ (funext fun a => Fin.ext ?_)
  match a with
  | ⟨0, _⟩ => show win1_3.index t 0 * 128 + 1 * k.val = k.val; rw [h0]; omega
  | ⟨1, _⟩ => show win1_3.index t 1 * 128 + 1 * j.val = j.val; rw [h1]; omega
/-- Window 4's block is its whole row, at every point. -/
theorem iblk1_4_apply (c : Dev nD) (t : Fin cfg1.N) (j : Fin 128) :
    (iblk1 V c 4 t : FVec Ideal S1x128 .f32) (ix2 0 j) = (V c main_v15 : S1x128.Idx → EReal) (ix2 0 j) := by
  obtain ⟨h0, h1⟩ := idx1_4 t
  unfold iblk1
  rw [View.read_apply]
  show V c main_v15 _ = V c main_v15 _
  refine congrArg _ (funext fun a => Fin.ext ?_)
  match a with
  | ⟨0, _⟩ => show win1_4.index t 0 * 1 + 1 * 0 = 0; rw [h0]
  | ⟨1, _⟩ => show win1_4.index t 1 * 128 + 1 * j.val = j.val; rw [h1]; omega
/-- Window 5's block is its whole row, at every point. -/
theorem iblk1_5_apply (c : Dev nD) (t : Fin cfg1.N) (j : Fin 128) :
    (iblk1 V c 5 t : FVec Ideal S1x128 .f32) (ix2 0 j) = (V c main_v16 : S1x128.Idx → EReal) (ix2 0 j) := by
  obtain ⟨h0, h1⟩ := idx1_5 t
  unfold iblk1
  rw [View.read_apply]
  show V c main_v16 _ = V c main_v16 _
  refine congrArg _ (funext fun a => Fin.ext ?_)
  match a with
  | ⟨0, _⟩ => show win1_5.index t 0 * 1 + 1 * 0 = 0; rw [h0]
  | ⟨1, _⟩ => show win1_5.index t 1 * 128 + 1 * j.val = j.val; rw [h1]; omega
/-- Window 6's block is its whole row, at every point. -/
theorem iblk1_6_apply (c : Dev nD) (t : Fin cfg1.N) (j : Fin 128) :
    (iblk1 V c 6 t : FVec Ideal S1x128 .f32) (ix2 0 j) = (V c main_v17 : S1x128.Idx → EReal) (ix2 0 j) := by
  obtain ⟨h0, h1⟩ := idx1_6 t
  unfold iblk1
  rw [View.read_apply]
  show V c main_v17 _ = V c main_v17 _
  refine congrArg _ (funext fun a => Fin.ext ?_)
  match a with
  | ⟨0, _⟩ => show win1_6.index t 0 * 1 + 1 * 0 = 0; rw [h0]
  | ⟨1, _⟩ => show win1_6.index t 1 * 128 + 1 * j.val = j.val; rw [h1]; omega
/-- Window 7's block is its whole row, at every point. -/
theorem iblk1_7_apply (c : Dev nD) (t : Fin cfg1.N) (j : Fin 128) :
    (iblk1 V c 7 t : FVec Ideal S1x128 .f32) (ix2 0 j) = (V c main_v14_0 : S1x128.Idx → EReal) (ix2 0 j) := by
  obtain ⟨h0, h1⟩ := idx1_7 t
  unfold iblk1
  rw [View.read_apply]
  show V c main_v14_0 _ = V c main_v14_0 _
  refine congrArg _ (funext fun a => Fin.ext ?_)
  match a with
  | ⟨0, _⟩ => show win1_7.index t 0 * 1 + 1 * 0 = 0; rw [h0]
  | ⟨1, _⟩ => show win1_7.index t 1 * 128 + 1 * j.val = j.val; rw [h1]; omega
/-- Window 8's block is its whole row, at every point. -/
theorem iblk1_8_apply (c : Dev nD) (t : Fin cfg1.N) (j : Fin 128) :
    (iblk1 V c 8 t : FVec Ideal S1x128 .f32) (ix2 0 j) = (V c main_v14_1 : S1x128.Idx → EReal) (ix2 0 j) := by
  obtain ⟨h0, h1⟩ := idx1_8 t
  unfold iblk1
  rw [View.read_apply]
  show V c main_v14_1 _ = V c main_v14_1 _
  refine congrArg _ (funext fun a => Fin.ext ?_)
  match a with
  | ⟨0, _⟩ => show win1_8.index t 0 * 1 + 1 * 0 = 0; rw [h0]
  | ⟨1, _⟩ => show win1_8.index t 1 * 128 + 1 * j.val = j.val; rw [h1]; omega

/-! ## The result array as one function of the arrays the region is entered with -/

/-- What the region leaves in window 9's array: at row e and column j the rectified, normalised linear layer of row e of
    the two activations side by side. -/
def G1 (c : Dev nD) : S800000x128.Idx → EReal := fun i =>
  Spec.bnrelu
    (Spec.lin2 (R := 800000) (fun e k => (V c main_arg2 : S800000x128.Idx → EReal) (ix2 e k)) (fun e k => (V c main_v10 : S800000x128.Idx → EReal) (ix2 e k))
      (fun k j => (V c main_v11 : S128x128.Idx → EReal) (ix2 k j)) (fun k j => (V c main_v12 : S128x128.Idx → EReal) (ix2 k j))
      (fun j => (V c main_v15 : S1x128.Idx → EReal) (ix2 0 j)) (i 0) (i 1))
    ((V c main_v14_0 : S1x128.Idx → EReal) (ix2 0 (i 1))) ((V c main_v14_1 : S1x128.Idx → EReal) (ix2 0 (i 1)))
    ((V c main_v16 : S1x128.Idx → EReal) (ix2 0 (i 1))) ((V c main_v17 : S1x128.Idx → EReal) (ix2 0 (i 1)))

/-- The payload of the blocks at point t, at row p and column q of the block, is that function at row 6400·t + p. -/
theorem pay1_blocks (c : Dev nD) (t : Fin cfg1.N) (p : Fin 6400) (q : Fin 128) (hb : 6400 * t.val + p.val < 800000) :
    k1_pay1 (F := Ideal) (k1_pay2 (iblk1 V c 4 t) (iblk1 V c 0 t) (iblk1 V c 2 t) (iblk1 V c 1 t) (iblk1 V c 3 t) (iblk1 V c 7 t) (iblk1 V c 8 t) (iblk1 V c 5 t) (iblk1 V c 6 t)) (Scalar.ofBits .f32 0x00000000#32) (ix2 p q)
      = G1 V c (ix2 (⟨6400 * t.val + p.val, hb⟩ : Fin 800000) q) := by
  refine (pay1_apply _ _ _ _ _ _ _ _ _ p q).trans ?_
  refine bnrelu_congr ?_ (iblk1_7_apply V c t q) (iblk1_8_apply V c t q) (iblk1_5_apply V c t q) (iblk1_6_apply V c t q)
  refine congrArg₂ (· + ·) (congrArg₂ (· + ·) (iblk1_4_apply V c t q) (Finset.sum_congr rfl fun k _ => ?_)) (Finset.sum_congr rfl fun k _ => ?_)
  · exact congrArg₂ (· * ·) (iblk1_0_apply V c t p k ⟨6400 * t.val + p.val, hb⟩ rfl) (iblk1_2_apply V c t k q)
  · exact congrArg₂ (· * ·) (iblk1_1_apply V c t p k ⟨6400 * t.val + p.val, hb⟩ rfl) (iblk1_3_apply V c t k q)

/-- What point t writes back to window 9's array is block t of that function. -/
theorem flushed1_9_eq (c : Dev nD) (t : Fin cfg1.N) :
    (dat1 (F := Ideal) V c).flushed 9 t = ((cfg1.win 9).blk t).view.read (Elt Ideal) (G1 V c) := by
  show (cfg1.win 9).cut (grid1.coords t) ((dat1 V c).after 9 t) = _
  rw [after1_9]
  unfold out1_9
  rw [View.canon_unit_zero hz2]
  simp only [View.ld_unit_zero (S := S6400x128) hz2, View.ld_unit_zero (S := S128x128) hz2, View.ld_unit_zero (S := S1x128) hz2]
  funext j
  obtain ⟨p, q, rfl⟩ : ∃ (p : Fin 6400) (q : Fin 128), j = ix2 p q := ⟨j 0, j 1, eq_ix2 j⟩
  obtain ⟨h0, h1⟩ := idx1_9 t
  have hN : cfg1.N = 125 := N_1
  have ht : t.val < 125 := hN ▸ t.isLt
  have hb : 6400 * t.val + p.val < 800000 := by have := p.isLt; omega
  have hemb : ((cfg1.win 9).blk t).view.emb (ix2 p q) = (ix2 (⟨6400 * t.val + p.val, hb⟩ : Fin 800000) q : S800000x128.Idx) :=
    funext fun a => Fin.ext (by
      match a with
      | ⟨0, _⟩ => show win1_9.index t 0 * 6400 + 1 * p.val = 6400 * t.val + p.val; rw [h0]; omega
      | ⟨1, _⟩ => show win1_9.index t 1 * 128 + 1 * q.val = q.val; rw [h1]; omega)
  show k1_pay1 (F := Ideal) (k1_pay2 (iblk1 V c 4 t) (iblk1 V c 0 t) (iblk1 V c 2 t) (iblk1 V c 1 t) (iblk1 V c 3 t) (iblk1 V c 7 t) (iblk1 V c 8 t) (iblk1 V c 5 t) (iblk1 V c 6 t)) (Scalar.ofBits .f32 0x00000000#32) (ix2 p q)
    = G1 V c (((cfg1.win 9).blk t).view.emb (ix2 p q))
  rw [hemb]
  exact pay1_blocks V c t p q hb

/-- An index of window 9's array is in point t's block iff each coordinate is in the block's range on its axis. -/
theorem mem_blk1_9 (t : Fin cfg1.N) (i : S800000x128.Idx) :
    i ∈ ((cfg1.win 9).blk t).view.set ↔ ∀ a : Fin 2, win1_9.index t a * S6400x128.size a ≤ (i a).val ∧ (i a).val < win1_9.index t a * S6400x128.size a + S6400x128.size a := by
  show i ∈ ((View.whole main_v18).slice (win1_9.rect t)).set ↔ _
  rw [View.set_slice_whole, Rect.mem_set_unit]
  exact Iff.rfl

/-- Every row of window 9's array is in some point's block: row r in that of point r / 6400. -/
theorem cover1_9_arr (i : S800000x128.Idx) : ∃ t : Fin cfg1.N, (cfg1.win 9).flush t = true ∧ i ∈ ((cfg1.win 9).blk t).view.set := by
  have hi0 : (i 0).val < 800000 := (i 0).isLt
  have hi1 : (i 1).val < 128 := (i 1).isLt
  have hN : cfg1.N = 125 := N_1
  refine ⟨⟨(i 0).val / 6400, by rw [hN]; omega⟩, flush1_9 _, ?_⟩
  rw [mem_blk1_9]
  obtain ⟨h0, h1⟩ := idx1_9 ⟨(i 0).val / 6400, by rw [hN]; omega⟩
  intro a
  match a with
  | ⟨0, _⟩ => show win1_9.index _ 0 * 6400 ≤ (i 0).val ∧ (i 0).val < win1_9.index _ 0 * 6400 + 6400; rw [h0]; show (i 0).val / 6400 * 6400 ≤ (i 0).val ∧ (i 0).val < (i 0).val / 6400 * 6400 + 6400; omega
  | ⟨1, _⟩ => show win1_9.index _ 1 * 128 ≤ (i 1).val ∧ (i 1).val < win1_9.index _ 1 * 128 + 128; rw [h1]; omega

/-- The result array after the region: the rectified, normalised linear layer of the two activations, entry by entry. -/
theorem final1_9 (c : Dev nD) : (dat1 (F := Ideal) V c).arrAt 9 cfg1.N = G1 V c :=
  (dat1 (F := Ideal) V c).arrAt_eq_of_cover 9 (G1 V c) (fun t _ => flushed1_9_eq V c t) cover1_9_arr

end Cert.KernelIdeal.Hand

end
-- ==== Proof.KI.Apply3Value.lean ====
import proofs.«110491_j38809324487019_2_alg».proof.Proof.KI.Apply3
import proofs.«110491_j38809324487019_2_alg».proof.Proof.KI.ApplyValueLib

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # What region 3 leaves in its result array, on the extended reals

The block a point writes back is the body's payload of the point's input blocks; read entry by entry it is the rectified,
normalised linear layer of the rows of the activation the point holds, so the blocks together are one function of the
arrays the region is entered with, and they cover the result array. -/

/-! ## The body's payload at an entry -/

/-- The bias plus the row–column product (the weight rounded to bf16, the identity on the extended reals),
    normalised by the batch statistics, scaled, shifted and rectified. -/
theorem pay3_apply (v0 : FVec Ideal S1x128 .f32) (v2 : FVec Ideal S6400x128 .bf16) (v4 : FVec Ideal S128x128 .f32)
    (v9 v13 v20 v24 : FVec Ideal S1x128 .f32) (p : Fin 6400) (q : Fin 128) :
    k3_pay1 (F := Ideal) v0 v2 v4 v9 v13 v20 v24 (ix2 p q) =
      Spec.bnrelu (v0 (ix2 0 q) + ∑ k : Fin 128, v2 (ix2 p k) * v4 (ix2 k q)) (v9 (ix2 0 q)) (v13 (ix2 0 q)) (v20 (ix2 0 q)) (v24 (ix2 0 q)) := by
  unfold k3_pay1
  simp only [maximumf_apply, addf_apply, mulf_apply, subf_apply, shapeCast_self, broadcastTo_1b_ab_apply, rsqrt_apply, broadcast_apply]
  rw [show matmul dot_S6400x128_S128x128_S6400x128_1_0_0_1_n_n none v2 (truncf .bf16 v4 bitsLt_bf16_f32) (constant S6400x128 .f32 0x00000000#32) (ix2 p q) = ∑ k : Fin 128, v2 (ix2 p k) * v4 (ix2 k q) from matmulD6400_apply v2 (truncf .bf16 v4 bitsLt_bf16_f32) p q]
  rfl

/-! ## The windows' index maps, decided over the grid

The activations' and the results' blocks move down the rows with the point; every other window stays at block 0. -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)

/-! ## Each input window's block, read off the array the region is entered with -/

/-- Window 0's block at point t is rows 6400·t … 6400·t + 6399 of its array. -/
theorem iblk3_0_apply (c : Dev nD) (t : Fin cfg3.N) (p : Fin 6400) (k : Fin 128) (e : Fin 800000) (he : e.val = 6400 * t.val + p.val) :
    (iblk3 V c 0 t : FVec Ideal S6400x128 .bf16) (ix2 p k) = (V c main_v18 : S800000x128.Idx → EReal) (ix2 e k) := by
  obtain ⟨h0, h1⟩ := idx3_0 t
  unfold iblk3
  rw [View.read_apply]
  show V c main_v18 _ = V c main_v18 _
  refine congrArg _ (funext fun a => Fin.ext ?_)
  match a with
  | ⟨0, _⟩ => show win3_0.index t 0 * 6400 + 1 * p.val = e.val; rw [h0, he]; omega
  | ⟨1, _⟩ => show win3_0.index t 1 * 128 + 1 * k.val = k.val; rw [h1]; omega
/-- Window 1's block is its whole array, at every point. -/
theorem iblk3_1_apply (c : Dev nD) (t : Fin cfg3.N) (k j : Fin 128) :
    (iblk3 V c 1 t : FVec Ideal S128x128 .f32) (ix2 k j) = (V c main_arg7 : S128x128.Idx → EReal) (ix2 k j) := by
  obtain ⟨h0, h1⟩ := idx3_1 t
  unfold iblk3
  rw [View.read_apply]
  show V c main_arg7 _ = V c main_arg7 _
  refine congrArg _ (funext fun a => Fin.ext ?_)
  match a with
  | ⟨0, _⟩ => show win3_1.index t 0 * 128 + 1 * k.val = k.val; rw [h0]; omega
  | ⟨1, _⟩ => show win3_1.index t 1 * 128 + 1 * j.val = j.val; rw [h1]; omega
/-- Window 2's block is its whole row, at every point. -/
theorem iblk3_2_apply (c : Dev nD) (t : Fin cfg3.N) (j : Fin 128) :
    (iblk3 V c 2 t : FVec Ideal S1x128 .f32) (ix2 0 j) = (V c main_v21 : S1x128.Idx → EReal) (ix2 0 j) := by
  obtain ⟨h0, h1⟩ := idx3_2 t
  unfold iblk3
  rw [View.read_apply]
  show V c main_v21 _ = V c main_v21 _
  refine congrArg _ (funext fun a => Fin.ext ?_)
  match a with
  | ⟨0, _⟩ => show win3_2.index t 0 * 1 + 1 * 0 = 0; rw [h0]
  | ⟨1, _⟩ => show win3_2.index t 1 * 128 + 1 * j.val = j.val; rw [h1]; omega
/-- Window 3's block is its whole row, at every point. -/
theorem iblk3_3_apply (c : Dev nD) (t : Fin cfg3.N) (j : Fin 128) :
    (iblk3 V c 3 t : FVec Ideal S1x128 .f32) (ix2 0 j) = (V c main_v22 : S1x128.Idx → EReal) (ix2 0 j) := by
  obtain ⟨h0, h1⟩ := idx3_3 t
  unfold iblk3
  rw [View.read_apply]
  show V c main_v22 _ = V c main_v22 _
  refine congrArg _ (funext fun a => Fin.ext ?_)
  match a with
  | ⟨0, _⟩ => show win3_3.index t 0 * 1 + 1 * 0 = 0; rw [h0]
  | ⟨1, _⟩ => show win3_3.index t 1 * 128 + 1 * j.val = j.val; rw [h1]; omega
/-- Window 4's block is its whole row, at every point. -/
theorem iblk3_4_apply (c : Dev nD) (t : Fin cfg3.N) (j : Fin 128) :
    (iblk3 V c 4 t : FVec Ideal S1x128 .f32) (ix2 0 j) = (V c main_v23 : S1x128.Idx → EReal) (ix2 0 j) := by
  obtain ⟨h0, h1⟩ := idx3_4 t
  unfold iblk3
  rw [View.read_apply]
  show V c main_v23 _ = V c main_v23 _
  refine congrArg _ (funext fun a => Fin.ext ?_)
  match a with
  | ⟨0, _⟩ => show win3_4.index t 0 * 1 + 1 * 0 = 0; rw [h0]
  | ⟨1, _⟩ => show win3_4.index t 1 * 128 + 1 * j.val = j.val; rw [h1]; omega
/-- Window 5's block is its whole row, at every point. -/
theorem iblk3_5_apply (c : Dev nD) (t : Fin cfg3.N) (j : Fin 128) :
    (iblk3 V c 5 t : FVec Ideal S1x128 .f32) (ix2 0 j) = (V c main_v20_0 : S1x128.Idx → EReal) (ix2 0 j) := by
  obtain ⟨h0, h1⟩ := idx3_5 t
  unfold iblk3
  rw [View.read_apply]
  show V c main_v20_0 _ = V c main_v20_0 _
  refine congrArg _ (funext fun a => Fin.ext ?_)
  match a with
  | ⟨0, _⟩ => show win3_5.index t 0 * 1 + 1 * 0 = 0; rw [h0]
  | ⟨1, _⟩ => show win3_5.index t 1 * 128 + 1 * j.val = j.val; rw [h1]; omega
/-- Window 6's block is its whole row, at every point. -/
theorem iblk3_6_apply (c : Dev nD) (t : Fin cfg3.N) (j : Fin 128) :
    (iblk3 V c 6 t : FVec Ideal S1x128 .f32) (ix2 0 j) = (V c main_v20_1 : S1x128.Idx → EReal) (ix2 0 j) := by
  obtain ⟨h0, h1⟩ := idx3_6 t
  unfold iblk3
  rw [View.read_apply]
  show V c main_v20_1 _ = V c main_v20_1 _
  refine congrArg _ (funext fun a => Fin.ext ?_)
  match a with
  | ⟨0, _⟩ => show win3_6.index t 0 * 1 + 1 * 0 = 0; rw [h0]
  | ⟨1, _⟩ => show win3_6.index t 1 * 128 + 1 * j.val = j.val; rw [h1]; omega

/-! ## The result array as one function of the arrays the region is entered with -/

/-- What the region leaves in window 7's array: at row e and column j the rectified, normalised linear layer of row e of
    the activation. -/
def G3 (c : Dev nD) : S800000x128.Idx → EReal := fun i =>
  Spec.bnrelu
    (Spec.lin1 (R := 800000) (fun e k => (V c main_v18 : S800000x128.Idx → EReal) (ix2 e k))
      (fun k j => (V c main_arg7 : S128x128.Idx → EReal) (ix2 k j)) (fun j => (V c main_v21 : S1x128.Idx → EReal) (ix2 0 j)) (i 0) (i 1))
    ((V c main_v20_0 : S1x128.Idx → EReal) (ix2 0 (i 1))) ((V c main_v20_1 : S1x128.Idx → EReal) (ix2 0 (i 1)))
    ((V c main_v22 : S1x128.Idx → EReal) (ix2 0 (i 1))) ((V c main_v23 : S1x128.Idx → EReal) (ix2 0 (i 1)))

/-- The payload of the blocks at point t, at row p and column q of the block, is that function at row 6400·t + p. -/
theorem pay3_blocks (c : Dev nD) (t : Fin cfg3.N) (p : Fin 6400) (q : Fin 128) (hb : 6400 * t.val + p.val < 800000) :
    k3_pay1 (F := Ideal) (iblk3 V c 2 t) (iblk3 V c 0 t) (iblk3 V c 1 t) (iblk3 V c 5 t) (iblk3 V c 6 t) (iblk3 V c 3 t) (iblk3 V c 4 t) (ix2 p q)
      = G3 V c (ix2 (⟨6400 * t.val + p.val, hb⟩ : Fin 800000) q) := by
  refine (pay3_apply _ _ _ _ _ _ _ p q).trans ?_
  refine bnrelu_congr ?_ (iblk3_5_apply V c t q) (iblk3_6_apply V c t q) (iblk3_3_apply V c t q) (iblk3_4_apply V c t q)
  refine congrArg₂ (· + ·) (iblk3_2_apply V c t q) (Finset.sum_congr rfl fun k _ => ?_)
  exact congrArg₂ (· * ·) (iblk3_0_apply V c t p k ⟨6400 * t.val + p.val, hb⟩ rfl) (iblk3_1_apply V c t k q)

/-- What point t writes back to window 7's array is block t of that function. -/
theorem flushed3_7_eq (c : Dev nD) (t : Fin cfg3.N) :
    (dat3 (F := Ideal) V c).flushed 7 t = ((cfg3.win 7).blk t).view.read (Elt Ideal) (G3 V c) := by
  show (cfg3.win 7).cut (grid3.coords t) ((dat3 V c).after 7 t) = _
  rw [after3_7]
  unfold out3_7
  rw [View.canon_unit_zero hz2]
  simp only [View.ld_unit_zero (S := S6400x128) hz2, View.ld_unit_zero (S := S128x128) hz2, View.ld_unit_zero (S := S1x128) hz2]
  funext j
  obtain ⟨p, q, rfl⟩ : ∃ (p : Fin 6400) (q : Fin 128), j = ix2 p q := ⟨j 0, j 1, eq_ix2 j⟩
  obtain ⟨h0, h1⟩ := idx3_7 t
  have hN : cfg3.N = 125 := N_3
  have ht : t.val < 125 := hN ▸ t.isLt
  have hb : 6400 * t.val + p.val < 800000 := by have := p.isLt; omega
  have hemb : ((cfg3.win 7).blk t).view.emb (ix2 p q) = (ix2 (⟨6400 * t.val + p.val, hb⟩ : Fin 800000) q : S800000x128.Idx) :=
    funext fun a => Fin.ext (by
      match a with
      | ⟨0, _⟩ => show win3_7.index t 0 * 6400 + 1 * p.val = 6400 * t.val + p.val; rw [h0]; omega
      | ⟨1, _⟩ => show win3_7.index t 1 * 128 + 1 * q.val = q.val; rw [h1]; omega)
  show k3_pay1 (F := Ideal) (iblk3 V c 2 t) (iblk3 V c 0 t) (iblk3 V c 1 t) (iblk3 V c 5 t) (iblk3 V c 6 t) (iblk3 V c 3 t) (iblk3 V c 4 t) (ix2 p q)
    = G3 V c (((cfg3.win 7).blk t).view.emb (ix2 p q))
  rw [hemb]
  exact pay3_blocks V c t p q hb

/-- An index of window 7's array is in point t's block iff each coordinate is in the block's range on its axis. -/
theorem mem_blk3_7 (t : Fin cfg3.N) (i : S800000x128.Idx) :
    i ∈ ((cfg3.win 7).blk t).view.set ↔ ∀ a : Fin 2, win3_7.index t a * S6400x128.size a ≤ (i a).val ∧ (i a).val < win3_7.index t a * S6400x128.size a + S6400x128.size a := by
  show i ∈ ((View.whole main_v24).slice (win3_7.rect t)).set ↔ _
  rw [View.set_slice_whole, Rect.mem_set_unit]
  exact Iff.rfl

/-- Every row of window 7's array is in some point's block: row r in that of point r / 6400. -/
theorem cover3_7_arr (i : S800000x128.Idx) : ∃ t : Fin cfg3.N, (cfg3.win 7).flush t = true ∧ i ∈ ((cfg3.win 7).blk t).view.set := by
  have hi0 : (i 0).val < 800000 := (i 0).isLt
  have hi1 : (i 1).val < 128 := (i 1).isLt
  have hN : cfg3.N = 125 := N_3
  refine ⟨⟨(i 0).val / 6400, by rw [hN]; omega⟩, flush3_7 _, ?_⟩
  rw [mem_blk3_7]
  obtain ⟨h0, h1⟩ := idx3_7 ⟨(i 0).val / 6400, by rw [hN]; omega⟩
  intro a
  match a with
  | ⟨0, _⟩ => show win3_7.index _ 0 * 6400 ≤ (i 0).val ∧ (i 0).val < win3_7.index _ 0 * 6400 + 6400; rw [h0]; show (i 0).val / 6400 * 6400 ≤ (i 0).val ∧ (i 0).val < (i 0).val / 6400 * 6400 + 6400; omega
  | ⟨1, _⟩ => show win3_7.index _ 1 * 128 ≤ (i 1).val ∧ (i 1).val < win3_7.index _ 1 * 128 + 128; rw [h1]; omega

/-- The result array after the region: the rectified, normalised linear layer of the activation, entry by entry. -/
theorem final3_7 (c : Dev nD) : (dat3 (F := Ideal) V c).arrAt 7 cfg3.N = G3 V c :=
  (dat3 (F := Ideal) V c).arrAt_eq_of_cover 7 (G3 V c) (fun t _ => flushed3_7_eq V c t) cover3_7_arr

end Cert.KernelIdeal.Hand

end
-- ==== Proof.KI.Apply5Value.lean ====
import proofs.«110491_j38809324487019_2_alg».proof.Proof.KI.Apply5
import proofs.«110491_j38809324487019_2_alg».proof.Proof.KI.ApplyValueLib

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # What region 5 leaves in its result array, on the extended reals

The block a point writes back is the body's payload of the point's input blocks; read entry by entry it is the rectified,
normalised linear layer of the rows of the two activations the point holds, so the blocks together are one function of
the arrays the region is entered with, and they cover the result array. -/

/-! ## The body's payload at an entry -/

/-- The bias plus the two row–column products in turn (every operand rounded to bf16, the identity on the extended
    reals), normalised by the batch statistics, scaled, shifted, rectified and rounded to bf16. -/
theorem pay5_apply (v0 : FVec Ideal S1x128 .f32) (v2 : FVec Ideal S5000x128 .f32) (v4 : FVec Ideal S128x128 .f32) (v10 : FVec Ideal S5000x128 .f32)
    (v13 : FVec Ideal S128x128 .f32) (v18 v22 v29 v33 : FVec Ideal S1x128 .f32) (p : Fin 5000) (q : Fin 128) :
    k5_pay1 (F := Ideal) (k5_pay2 v0 v2 v4 v10 v13 v18 v22 v29 v33) (Scalar.ofBits .f32 0x00000000#32) (ix2 p q) =
      Spec.bnrelu ((v0 (ix2 0 q) + ∑ k : Fin 128, v2 (ix2 p k) * v4 (ix2 k q)) + ∑ k : Fin 128, v10 (ix2 p k) * v13 (ix2 k q))
        (v18 (ix2 0 q)) (v22 (ix2 0 q)) (v29 (ix2 0 q)) (v33 (ix2 0 q)) := by
  unfold k5_pay1 k5_pay2
  simp only [truncf_apply, maximumf_apply, addf_apply, mulf_apply, subf_apply, shapeCast_self, broadcastTo_1b_ab_apply, rsqrt_apply, broadcast_apply]
  rw [show matmul dot_S5000x128_S128x128_S5000x128_1_0_0_1_n_n none (truncf .bf16 v2 bitsLt_bf16_f32) (truncf .bf16 v4 bitsLt_bf16_f32) (constant S5000x128 .f32 0x00000000#32) (ix2 p q) = ∑ k : Fin 128, v2 (ix2 p k) * v4 (ix2 k q) from matmulD5000_apply (truncf .bf16 v2 bitsLt_bf16_f32) (truncf .bf16 v4 bitsLt_bf16_f32) p q,
    show matmul dot_S5000x128_S128x128_S5000x128_1_0_0_1_n_n none (truncf .bf16 v10 bitsLt_bf16_f32) (truncf .bf16 v13 bitsLt_bf16_f32) (constant S5000x128 .f32 0x00000000#32) (ix2 p q) = ∑ k : Fin 128, v10 (ix2 p k) * v13 (ix2 k q) from matmulD5000_apply (truncf .bf16 v10 bitsLt_bf16_f32) (truncf .bf16 v13 bitsLt_bf16_f32) p q]
  rfl

/-! ## The windows' index maps, decided over the grid

The activations' and the results' blocks move down the rows with the point; every other window stays at block 0. -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_8 : ∀ t : Fin cfg5.N, win5_8.index t (0 : Fin 2) = 0 ∧ win5_8.index t (1 : Fin 2) = 0 :=
  (by decide +kernel : ∀ t : Fin grid5.N, _)
theorem idx5_9 : ∀ t : Fin cfg5.N, win5_9.index t (0 : Fin 2) = t.val ∧ win5_9.index t (1 : Fin 2) = 0 :=
  (by decide +kernel : ∀ t : Fin grid5.N, _)

/-! ## Each input window's block, read off the array the region is entered with -/

/-- Window 0's block at point t is rows 5000·t … 5000·t + 4999 of its array. -/
theorem iblk5_0_apply (c : Dev nD) (t : Fin cfg5.N) (p : Fin 5000) (k : Fin 128) (e : Fin 50000) (he : e.val = 5000 * t.val + p.val) :
    (iblk5 V c 0 t : FVec Ideal S5000x128 .f32) (ix2 p k) = (V c main_arg0 : S50000x128.Idx → EReal) (ix2 e k) := by
  obtain ⟨h0, h1⟩ := idx5_0 t
  unfold iblk5
  rw [View.read_apply]
  show V c main_arg0 _ = V c main_arg0 _
  refine congrArg _ (funext fun a => Fin.ext ?_)
  match a with
  | ⟨0, _⟩ => show win5_0.index t 0 * 5000 + 1 * p.val = e.val; rw [h0, he]; omega
  | ⟨1, _⟩ => show win5_0.index t 1 * 128 + 1 * k.val = k.val; rw [h1]; omega
/-- Window 1's block at point t is rows 5000·t … 5000·t + 4999 of its array. -/
theorem iblk5_1_apply (c : Dev nD) (t : Fin cfg5.N) (p : Fin 5000) (k : Fin 128) (e : Fin 50000) (he : e.val = 5000 * t.val + p.val) :
    (iblk5 V c 1 t : FVec Ideal S5000x128 .f32) (ix2 p k) = (V c main_v36 : S50000x128.Idx → EReal) (ix2 e k) := by
  obtain ⟨h0, h1⟩ := idx5_1 t
  unfold iblk5
  rw [View.read_apply]
  show V c main_v36 _ = V c main_v36 _
  refine congrArg _ (funext fun a => Fin.ext ?_)
  match a with
  | ⟨0, _⟩ => show win5_1.index t 0 * 5000 + 1 * p.val = e.val; rw [h0, he]; omega
  | ⟨1, _⟩ => show win5_1.index t 1 * 128 + 1 * k.val = k.val; rw [h1]; omega
/-- Window 2's block is its whole array, at every point. -/
theorem iblk5_2_apply (c : Dev nD) (t : Fin cfg5.N) (k j : Fin 128) :
    (iblk5 V c 2 t : FVec Ideal S128x128 .f32) (ix2 k j) = (V c main_v37 : S128x128.Idx → EReal) (ix2 k j) := by
  obtain ⟨h0, h1⟩ := idx5_2 t
  unfold iblk5
  rw [View.read_apply]
  show V c main_v37 _ = V c main_v37 _
  refine congrArg _ (funext fun a => Fin.ext ?_)
  match a with
  | ⟨0, _⟩ => show win5_2.index t 0 * 128 + 1 * k.val = k.val; rw [h0]; omega
  | ⟨1, _⟩ => show win5_2.index t 1 * 128 + 1 * j.val = j.val; rw [h1]; omega
/-- Window 3's block is its whole array, at every point. -/
theorem iblk5_3_apply (c : Dev nD) (t : Fin cfg5.N) (k j : Fin 128) :
    (iblk5 V c 3 t : FVec Ideal S128x128 .f32) (ix2 k j) = (V c main_v38 : S128x128.Idx → EReal) (ix2 k j) := by
  obtain ⟨h0, h1⟩ := idx5_3 t
  unfold iblk5
  rw [View.read_apply]
  show V c main_v38 _ = V c main_v38 _
  refine congrArg _ (funext fun a => Fin.ext ?_)
  match a with
  | ⟨0, _⟩ => show win5_3.index t 0 * 128 + 1 * k.val = k.val; rw [h0]; omega
  | ⟨1, _⟩ => show win5_3.index t 1 * 128 + 1 * j.val = j.val; rw [h1]; omega
/-- Window 4's block is its whole row, at every point. -/
theorem iblk5_4_apply (c : Dev nD) (t : Fin cfg5.N) (j : Fin 128) :
    (iblk5 V c 4 t : FVec Ideal S1x128 .f32) (ix2 0 j) = (V c main_v41 : S1x128.Idx → EReal) (ix2 0 j) := by
  obtain ⟨h0, h1⟩ := idx5_4 t
  unfold iblk5
  rw [View.read_apply]
  show V c main_v41 _ = V c main_v41 _
  refine congrArg _ (funext fun a => Fin.ext ?_)
  match a with
  | ⟨0, _⟩ => show win5_4.index t 0 * 1 + 1 * 0 = 0; rw [h0]
  | ⟨1, _⟩ => show win5_4.index t 1 * 128 + 1 * j.val = j.val; rw [h1]; omega
/-- Window 5's block is its whole row, at every point. -/
theorem iblk5_5_apply (c : Dev nD) (t : Fin cfg5.N) (j : Fin 128) :
    (iblk5 V c 5 t : FVec Ideal S1x128 .f32) (ix2 0 j) = (V c main_v42 : S1x128.Idx → EReal) (ix2 0 j) := by
  obtain ⟨h0, h1⟩ := idx5_5 t
  unfold iblk5
  rw [View.read_apply]
  show V c main_v42 _ = V c main_v42 _
  refine congrArg _ (funext fun a => Fin.ext ?_)
  match a with
  | ⟨0, _⟩ => show win5_5.index t 0 * 1 + 1 * 0 = 0; rw [h0]
  | ⟨1, _⟩ => show win5_5.index t 1 * 128 + 1 * j.val = j.val; rw [h1]; omega
/-- Window 6's block is its whole row, at every point. -/
theorem iblk5_6_apply (c : Dev nD) (t : Fin cfg5.N) (j : Fin 128) :
    (iblk5 V c 6 t : FVec Ideal S1x128 .f32) (ix2 0 j) = (V c main_v43 : S1x128.Idx → EReal) (ix2 0 j) := by
  obtain ⟨h0, h1⟩ := idx5_6 t
  unfold iblk5
  rw [View.read_apply]
  show V c main_v43 _ = V c main_v43 _
  refine congrArg _ (funext fun a => Fin.ext ?_)
  match a with
  | ⟨0, _⟩ => show win5_6.index t 0 * 1 + 1 * 0 = 0; rw [h0]
  | ⟨1, _⟩ => show win5_6.index t 1 * 128 + 1 * j.val = j.val; rw [h1]; omega
/-- Window 7's block is its whole row, at every point. -/
theorem iblk5_7_apply (c : Dev nD) (t : Fin cfg5.N) (j : Fin 128) :
    (iblk5 V c 7 t : FVec Ideal S1x128 .f32) (ix2 0 j) = (V c main_v40_0 : S1x128.Idx → EReal) (ix2 0 j) := by
  obtain ⟨h0, h1⟩ := idx5_7 t
  unfold iblk5
  rw [View.read_apply]
  show V c main_v40_0 _ = V c main_v40_0 _
  refine congrArg _ (funext fun a => Fin.ext ?_)
  match a with
  | ⟨0, _⟩ => show win5_7.index t 0 * 1 + 1 * 0 = 0; rw [h0]
  | ⟨1, _⟩ => show win5_7.index t 1 * 128 + 1 * j.val = j.val; rw [h1]; omega
/-- Window 8's block is its whole row, at every point. -/
theorem iblk5_8_apply (c : Dev nD) (t : Fin cfg5.N) (j : Fin 128) :
    (iblk5 V c 8 t : FVec Ideal S1x128 .f32) (ix2 0 j) = (V c main_v40_1 : S1x128.Idx → EReal) (ix2 0 j) := by
  obtain ⟨h0, h1⟩ := idx5_8 t
  unfold iblk5
  rw [View.read_apply]
  show V c main_v40_1 _ = V c main_v40_1 _
  refine congrArg _ (funext fun a => Fin.ext ?_)
  match a with
  | ⟨0, _⟩ => show win5_8.index t 0 * 1 + 1 * 0 = 0; rw [h0]
  | ⟨1, _⟩ => show win5_8.index t 1 * 128 + 1 * j.val = j.val; rw [h1]; omega

/-! ## The result array as one function of the arrays the region is entered with -/

/-- What the region leaves in window 9's array: at row e and column j the rectified, normalised linear layer of row e of
    the two activations side by side. -/
def G5 (c : Dev nD) : S50000x128.Idx → EReal := fun i =>
  Spec.bnrelu
    (Spec.lin2 (R := 50000) (fun e k => (V c main_arg0 : S50000x128.Idx → EReal) (ix2 e k)) (fun e k => (V c main_v36 : S50000x128.Idx → EReal) (ix2 e k))
      (fun k j => (V c main_v37 : S128x128.Idx → EReal) (ix2 k j)) (fun k j => (V c main_v38 : S128x128.Idx → EReal) (ix2 k j))
      (fun j => (V c main_v41 : S1x128.Idx → EReal) (ix2 0 j)) (i 0) (i 1))
    ((V c main_v40_0 : S1x128.Idx → EReal) (ix2 0 (i 1))) ((V c main_v40_1 : S1x128.Idx → EReal) (ix2 0 (i 1)))
    ((V c main_v42 : S1x128.Idx → EReal) (ix2 0 (i 1))) ((V c main_v43 : S1x128.Idx → EReal) (ix2 0 (i 1)))

/-- The payload of the blocks at point t, at row p and column q of the block, is that function at row 5000·t + p. -/
theorem pay5_blocks (c : Dev nD) (t : Fin cfg5.N) (p : Fin 5000) (q : Fin 128) (hb : 5000 * t.val + p.val < 50000) :
    k5_pay1 (F := Ideal) (k5_pay2 (iblk5 V c 4 t) (iblk5 V c 0 t) (iblk5 V c 2 t) (iblk5 V c 1 t) (iblk5 V c 3 t) (iblk5 V c 7 t) (iblk5 V c 8 t) (iblk5 V c 5 t) (iblk5 V c 6 t)) (Scalar.ofBits .f32 0x00000000#32) (ix2 p q)
      = G5 V c (ix2 (⟨5000 * t.val + p.val, hb⟩ : Fin 50000) q) := by
  refine (pay5_apply _ _ _ _ _ _ _ _ _ p q).trans ?_
  refine bnrelu_congr ?_ (iblk5_7_apply V c t q) (iblk5_8_apply V c t q) (iblk5_5_apply V c t q) (iblk5_6_apply V c t q)
  refine congrArg₂ (· + ·) (congrArg₂ (· + ·) (iblk5_4_apply V c t q) (Finset.sum_congr rfl fun k _ => ?_)) (Finset.sum_congr rfl fun k _ => ?_)
  · exact congrArg₂ (· * ·) (iblk5_0_apply V c t p k ⟨5000 * t.val + p.val, hb⟩ rfl) (iblk5_2_apply V c t k q)
  · exact congrArg₂ (· * ·) (iblk5_1_apply V c t p k ⟨5000 * t.val + p.val, hb⟩ rfl) (iblk5_3_apply V c t k q)

/-- What point t writes back to window 9's array is block t of that function. -/
theorem flushed5_9_eq (c : Dev nD) (t : Fin cfg5.N) :
    (dat5 (F := Ideal) V c).flushed 9 t = ((cfg5.win 9).blk t).view.read (Elt Ideal) (G5 V c) := by
  show (cfg5.win 9).cut (grid5.coords t) ((dat5 V c).after 9 t) = _
  rw [after5_9]
  unfold out5_9
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 j⟩
  obtain ⟨h0, h1⟩ := idx5_9 t
  have hN : cfg5.N = 10 := N_5
  have ht : t.val < 10 := hN ▸ t.isLt
  have hb : 5000 * t.val + p.val < 50000 := by have := p.isLt; omega
  have hemb : ((cfg5.win 9).blk t).view.emb (ix2 p q) = (ix2 (⟨5000 * t.val + p.val, hb⟩ : Fin 50000) q : S50000x128.Idx) :=
    funext fun a => Fin.ext (by
      match a with
      | ⟨0, _⟩ => show win5_9.index t 0 * 5000 + 1 * p.val = 5000 * t.val + p.val; rw [h0]; omega
      | ⟨1, _⟩ => show win5_9.index t 1 * 128 + 1 * q.val = q.val; rw [h1]; omega)
  show k5_pay1 (F := Ideal) (k5_pay2 (iblk5 V c 4 t) (iblk5 V c 0 t) (iblk5 V c 2 t) (iblk5 V c 1 t) (iblk5 V c 3 t) (iblk5 V c 7 t) (iblk5 V c 8 t) (iblk5 V c 5 t) (iblk5 V c 6 t)) (Scalar.ofBits .f32 0x00000000#32) (ix2 p q)
    = G5 V c (((cfg5.win 9).blk t).view.emb (ix2 p q))
  rw [hemb]
  exact pay5_blocks V c t p q hb

/-- An index of window 9's array is in point t's block iff each coordinate is in the block's range on its axis. -/
theorem mem_blk5_9 (t : Fin cfg5.N) (i : S50000x128.Idx) :
    i ∈ ((cfg5.win 9).blk t).view.set ↔ ∀ a : Fin 2, win5_9.index t a * S5000x128.size a ≤ (i a).val ∧ (i a).val < win5_9.index t a * S5000x128.size a + S5000x128.size a := by
  show i ∈ ((View.whole main_v44).slice (win5_9.rect t)).set ↔ _
  rw [View.set_slice_whole, Rect.mem_set_unit]
  exact Iff.rfl

/-- Every row of window 9's array is in some point's block: row r in that of point r / 5000. -/
theorem cover5_9_arr (i : S50000x128.Idx) : ∃ t : Fin cfg5.N, (cfg5.win 9).flush t = true ∧ i ∈ ((cfg5.win 9).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_9 _, ?_⟩
  rw [mem_blk5_9]
  obtain ⟨h0, h1⟩ := idx5_9 ⟨(i 0).val / 5000, by rw [hN]; omega⟩
  intro a
  match a with
  | ⟨0, _⟩ => show win5_9.index _ 0 * 5000 ≤ (i 0).val ∧ (i 0).val < win5_9.index _ 0 * 5000 + 5000; rw [h0]; show (i 0).val / 5000 * 5000 ≤ (i 0).val ∧ (i 0).val < (i 0).val / 5000 * 5000 + 5000; omega
  | ⟨1, _⟩ => show win5_9.index _ 1 * 128 ≤ (i 1).val ∧ (i 1).val < win5_9.index _ 1 * 128 + 128; rw [h1]; omega

/-- The result array after the region: the rectified, normalised linear layer of the two activations, entry by entry. -/
theorem final5_9 (c : Dev nD) : (dat5 (F := Ideal) V c).arrAt 9 cfg5.N = G5 V c :=
  (dat5 (F := Ideal) V c).arrAt_eq_of_cover 9 (G5 V c) (fun t _ => flushed5_9_eq V c t) cover5_9_arr

end Cert.KernelIdeal.Hand

end
-- ==== Proof.KI.Apply7Value.lean ====
import proofs.«110491_j38809324487019_2_alg».proof.Proof.KI.Apply7
import proofs.«110491_j38809324487019_2_alg».proof.Proof.KI.ApplyValueLib

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # What region 7 leaves in its two result arrays, on the extended reals

The block a point writes back is the body's payload of the point's input blocks; read entry by entry it is the rectified,
normalised linear layer of the rows of the activation the point holds and, for the attention column, the logistic function
of those rows against the attention weight; so the blocks together are one function of the arrays the region is entered
with, and they cover each result array. -/

/-! ## The body's payload at an entry -/

/-- The bias plus the row–column product (the weight rounded to bf16, the identity on the extended reals),
    normalised by the batch statistics, scaled, shifted and rectified. -/
theorem pay7_apply (v0 : FVec Ideal S1x128 .f32) (v2 : FVec Ideal S5000x128 .bf16) (v4 : FVec Ideal S128x128 .f32)
    (v9 v13 v20 v24 : FVec Ideal S1x128 .f32) (p : Fin 5000) (q : Fin 128) :
    k7_pay2 (F := Ideal) v0 v2 v4 v9 v13 v20 v24 (ix2 p q) =
      Spec.bnrelu (v0 (ix2 0 q) + ∑ k : Fin 128, v2 (ix2 p k) * v4 (ix2 k q)) (v9 (ix2 0 q)) (v13 (ix2 0 q)) (v20 (ix2 0 q)) (v24 (ix2 0 q)) := by
  unfold k7_pay2
  simp only [maximumf_apply, addf_apply, mulf_apply, subf_apply, shapeCast_self, broadcastTo_1b_ab_apply, rsqrt_apply, broadcast_apply]
  rw [show matmul dot_S5000x128_S128x128_S5000x128_1_0_0_1_n_n none v2 (truncf .bf16 v4 bitsLt_bf16_f32) (constant S5000x128 .f32 0x00000000#32) (ix2 p q) = ∑ k : Fin 128, v2 (ix2 p k) * v4 (ix2 k q) from matmulD5000_apply v2 (truncf .bf16 v4 bitsLt_bf16_f32) p q]
  rfl

/-! ## The windows' index maps, decided over the grid

The activations' and the results' blocks move down the rows with the point; every other window stays at block 0. -/

theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 2) = 0 ∧ win7_1.index t (1 : Fin 2) = 0 :=
  (by decide +kernel : ∀ t : Fin grid7.N, _)
theorem idx7_2 : ∀ t : Fin cfg7.N, win7_2.index t (0 : Fin 2) = 0 ∧ win7_2.index t (1 : Fin 2) = 0 :=
  (by decide +kernel : ∀ t : Fin grid7.N, _)
theorem idx7_3 : ∀ t : Fin cfg7.N, win7_3.index t (0 : Fin 2) = 0 ∧ win7_3.index t (1 : Fin 2) = 0 :=
  (by decide +kernel : ∀ t : Fin grid7.N, _)
theorem idx7_4 : ∀ t : Fin cfg7.N, win7_4.index t (0 : Fin 2) = 0 ∧ win7_4.index t (1 : Fin 2) = 0 :=
  (by decide +kernel : ∀ t : Fin grid7.N, _)
theorem idx7_5 : ∀ t : Fin cfg7.N, win7_5.index t (0 : Fin 2) = 0 ∧ win7_5.index t (1 : Fin 2) = 0 :=
  (by decide +kernel : ∀ t : Fin grid7.N, _)
theorem idx7_6 : ∀ t : Fin cfg7.N, win7_6.index t (0 : Fin 2) = 0 ∧ win7_6.index t (1 : Fin 2) = 0 :=
  (by decide +kernel : ∀ t : Fin grid7.N, _)
theorem idx7_7 : ∀ t : Fin cfg7.N, win7_7.index t (0 : Fin 2) = 0 ∧ win7_7.index t (1 : Fin 2) = 0 :=
  (by decide +kernel : ∀ t : Fin grid7.N, _)
theorem idx7_8 : ∀ t : Fin cfg7.N, win7_8.index t (0 : Fin 2) = 0 ∧ win7_8.index t (1 : Fin 2) = 0 :=
  (by decide +kernel : ∀ t : Fin grid7.N, _)
theorem idx7_9 : ∀ t : Fin cfg7.N, win7_9.index t (0 : Fin 2) = t.val ∧ win7_9.index t (1 : Fin 2) = 0 :=
  (by decide +kernel : ∀ t : Fin grid7.N, _)
theorem idx7_10 : ∀ t : Fin cfg7.N, win7_10.index t (0 : Fin 2) = t.val ∧ win7_10.index t (1 : Fin 2) = 0 :=
  (by decide +kernel : ∀ t : Fin grid7.N, _)

/-! ## Each input window's block, read off the array the region is entered with -/

/-- Window 0's block at point t is rows 5000·t … 5000·t + 4999 of its array. -/
theorem iblk7_0_apply (c : Dev nD) (t : Fin cfg7.N) (p : Fin 5000) (k : Fin 128) (e : Fin 50000) (he : e.val = 5000 * t.val + p.val) :
    (iblk7 V c 0 t : FVec Ideal S5000x128 .bf16) (ix2 p k) = (V c main_v44 : S50000x128.Idx → EReal) (ix2 e k) := by
  obtain ⟨h0, h1⟩ := idx7_0 t
  unfold iblk7
  rw [View.read_apply]
  show V c main_v44 _ = V c main_v44 _
  refine congrArg _ (funext fun a => Fin.ext ?_)
  match a with
  | ⟨0, _⟩ => show win7_0.index t 0 * 5000 + 1 * p.val = e.val; rw [h0, he]; omega
  | ⟨1, _⟩ => show win7_0.index t 1 * 128 + 1 * k.val = k.val; rw [h1]; omega
/-- Window 1's block is its whole array, at every point. -/
theorem iblk7_1_apply (c : Dev nD) (t : Fin cfg7.N) (k j : Fin 128) :
    (iblk7 V c 1 t : FVec Ideal S128x128 .f32) (ix2 k j) = (V c main_arg15 : S128x128.Idx → EReal) (ix2 k j) := by
  obtain ⟨h0, h1⟩ := idx7_1 t
  unfold iblk7
  rw [View.read_apply]
  show V c main_arg15 _ = V c main_arg15 _
  refine congrArg _ (funext fun a => Fin.ext ?_)
  match a with
  | ⟨0, _⟩ => show win7_1.index t 0 * 128 + 1 * k.val = k.val; rw [h0]; omega
  | ⟨1, _⟩ => show win7_1.index t 1 * 128 + 1 * j.val = j.val; rw [h1]; omega
/-- Window 2's block is its whole row, at every point. -/
theorem iblk7_2_apply (c : Dev nD) (t : Fin cfg7.N) (j : Fin 128) :
    (iblk7 V c 2 t : FVec Ideal S1x128 .f32) (ix2 0 j) = (V c main_v47 : S1x128.Idx → EReal) (ix2 0 j) := by
  obtain ⟨h0, h1⟩ := idx7_2 t
  unfold iblk7
  rw [View.read_apply]
  show V c main_v47 _ = V c main_v47 _
  refine congrArg _ (funext fun a => Fin.ext ?_)
  match a with
  | ⟨0, _⟩ => show win7_2.index t 0 * 1 + 1 * 0 = 0; rw [h0]
  | ⟨1, _⟩ => show win7_2.index t 1 * 128 + 1 * j.val = j.val; rw [h1]; omega
/-- Window 3's block is its whole row, at every point. -/
theorem iblk7_3_apply (c : Dev nD) (t : Fin cfg7.N) (j : Fin 128) :
    (iblk7 V c 3 t : FVec Ideal S1x128 .f32) (ix2 0 j) = (V c main_v48 : S1x128.Idx → EReal) (ix2 0 j) := by
  obtain ⟨h0, h1⟩ := idx7_3 t
  unfold iblk7
  rw [View.read_apply]
  show V c main_v48 _ = V c main_v48 _
  refine congrArg _ (funext fun a => Fin.ext ?_)
  match a with
  | ⟨0, _⟩ => show win7_3.index t 0 * 1 + 1 * 0 = 0; rw [h0]
  | ⟨1, _⟩ => show win7_3.index t 1 * 128 + 1 * j.val = j.val; rw [h1]; omega
/-- Window 4's block is its whole row, at every point. -/
theorem iblk7_4_apply (c : Dev nD) (t : Fin cfg7.N) (j : Fin 128) :
    (iblk7 V c 4 t : FVec Ideal S1x128 .f32) (ix2 0 j) = (V c main_v49 : S1x128.Idx → EReal) (ix2 0 j) := by
  obtain ⟨h0, h1⟩ := idx7_4 t
  unfold iblk7
  rw [View.read_apply]
  show V c main_v49 _ = V c main_v49 _
  refine congrArg _ (funext fun a => Fin.ext ?_)
  match a with
  | ⟨0, _⟩ => show win7_4.index t 0 * 1 + 1 * 0 = 0; rw [h0]
  | ⟨1, _⟩ => show win7_4.index t 1 * 128 + 1 * j.val = j.val; rw [h1]; omega
/-- Window 5's block is its whole row, at every point. -/
theorem iblk7_5_apply (c : Dev nD) (t : Fin cfg7.N) (j : Fin 128) :
    (iblk7 V c 5 t : FVec Ideal S1x128 .f32) (ix2 0 j) = (V c main_v46_0 : S1x128.Idx → EReal) (ix2 0 j) := by
  obtain ⟨h0, h1⟩ := idx7_5 t
  unfold iblk7
  rw [View.read_apply]
  show V c main_v46_0 _ = V c main_v46_0 _
  refine congrArg _ (funext fun a => Fin.ext ?_)
  match a with
  | ⟨0, _⟩ => show win7_5.index t 0 * 1 + 1 * 0 = 0; rw [h0]
  | ⟨1, _⟩ => show win7_5.index t 1 * 128 + 1 * j.val = j.val; rw [h1]; omega
/-- Window 6's block is its whole row, at every point. -/
theorem iblk7_6_apply (c : Dev nD) (t : Fin cfg7.N) (j : Fin 128) :
    (iblk7 V c 6 t : FVec Ideal S1x128 .f32) (ix2 0 j) = (V c main_v46_1 : S1x128.Idx → EReal) (ix2 0 j) := by
  obtain ⟨h0, h1⟩ := idx7_6 t
  unfold iblk7
  rw [View.read_apply]
  show V c main_v46_1 _ = V c main_v46_1 _
  refine congrArg _ (funext fun a => Fin.ext ?_)
  match a with
  | ⟨0, _⟩ => show win7_6.index t 0 * 1 + 1 * 0 = 0; rw [h0]
  | ⟨1, _⟩ => show win7_6.index t 1 * 128 + 1 * j.val = j.val; rw [h1]; omega
/-- Window 7's block is its whole column, at every point. -/
theorem iblk7_7_apply (c : Dev nD) (t : Fin cfg7.N) (k : Fin 128) :
    (iblk7 V c 7 t : FVec Ideal S128x1 .f32) (ix2 k 0) = (V c main_arg19 : S128x1.Idx → EReal) (ix2 k 0) := by
  obtain ⟨h0, h1⟩ := idx7_7 t
  unfold iblk7
  rw [View.read_apply]
  show V c main_arg19 _ = V c main_arg19 _
  refine congrArg _ (funext fun a => Fin.ext ?_)
  match a with
  | ⟨0, _⟩ => show win7_7.index t 0 * 128 + 1 * k.val = k.val; rw [h0]; omega
  | ⟨1, _⟩ => show win7_7.index t 1 * 1 + 1 * 0 = 0; rw [h1]
/-- Window 8's block is its one entry, at every point. -/
theorem iblk7_8_apply (c : Dev nD) (t : Fin cfg7.N)  :
    (iblk7 V c 8 t : FVec Ideal S1x1 .f32) (ix2 0 0) = (V c main_v50 : S1x1.Idx → EReal) (ix2 0 0) := by
  obtain ⟨h0, h1⟩ := idx7_8 t
  unfold iblk7
  rw [View.read_apply]
  show V c main_v50 _ = V c main_v50 _
  refine congrArg _ (funext fun a => Fin.ext ?_)
  match a with
  | ⟨0, _⟩ => show win7_8.index t 0 * 1 + 1 * 0 = 0; rw [h0]
  | ⟨1, _⟩ => show win7_8.index t 1 * 1 + 1 * 0 = 0; rw [h1]

/-! ## The result array as one function of the arrays the region is entered with -/

/-- What the region leaves in window 9's array: at row e and column j the rectified, normalised linear layer of row e of
    the activation. -/
def G7 (c : Dev nD) : S50000x128.Idx → EReal := fun i =>
  Spec.bnrelu
    (Spec.lin1 (R := 50000) (fun e k => (V c main_v44 : S50000x128.Idx → EReal) (ix2 e k))
      (fun k j => (V c main_arg15 : S128x128.Idx → EReal) (ix2 k j)) (fun j => (V c main_v47 : S1x128.Idx → EReal) (ix2 0 j)) (i 0) (i 1))
    ((V c main_v46_0 : S1x128.Idx → EReal) (ix2 0 (i 1))) ((V c main_v46_1 : S1x128.Idx → EReal) (ix2 0 (i 1)))
    ((V c main_v48 : S1x128.Idx → EReal) (ix2 0 (i 1))) ((V c main_v49 : S1x128.Idx → EReal) (ix2 0 (i 1)))

/-- The payload of the blocks at point t, at row p and column q of the block, is that function at row 5000·t + p. -/
theorem pay7_blocks (c : Dev nD) (t : Fin cfg7.N) (p : Fin 5000) (q : Fin 128) (hb : 5000 * t.val + p.val < 50000) :
    k7_pay2 (F := Ideal) (iblk7 V c 2 t) (iblk7 V c 0 t) (iblk7 V c 1 t) (iblk7 V c 5 t) (iblk7 V c 6 t) (iblk7 V c 3 t) (iblk7 V c 4 t) (ix2 p q)
      = G7 V c (ix2 (⟨5000 * t.val + p.val, hb⟩ : Fin 50000) q) := by
  refine (pay7_apply _ _ _ _ _ _ _ p q).trans ?_
  refine bnrelu_congr ?_ (iblk7_5_apply V c t q) (iblk7_6_apply V c t q) (iblk7_3_apply V c t q) (iblk7_4_apply V c t q)
  refine congrArg₂ (· + ·) (iblk7_2_apply V c t q) (Finset.sum_congr rfl fun k _ => ?_)
  exact congrArg₂ (· * ·) (iblk7_0_apply V c t p k ⟨5000 * t.val + p.val, hb⟩ rfl) (iblk7_1_apply V c t k q)

/-- What point t writes back to window 9's array is block t of that function. -/
theorem flushed7_9_eq (c : Dev nD) (t : Fin cfg7.N) :
    (dat7 (F := Ideal) V c).flushed 9 t = ((cfg7.win 9).blk t).view.read (Elt Ideal) (G7 V c) := by
  show (cfg7.win 9).cut (grid7.coords t) ((dat7 V c).after 9 t) = _
  rw [after7_9]
  unfold out7_9
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 j⟩
  obtain ⟨h0, h1⟩ := idx7_9 t
  have hN : cfg7.N = 10 := N_7
  have ht : t.val < 10 := hN ▸ t.isLt
  have hb : 5000 * t.val + p.val < 50000 := by have := p.isLt; omega
  have hemb : ((cfg7.win 9).blk t).view.emb (ix2 p q) = (ix2 (⟨5000 * t.val + p.val, hb⟩ : Fin 50000) q : S50000x128.Idx) :=
    funext fun a => Fin.ext (by
      match a with
      | ⟨0, _⟩ => show win7_9.index t 0 * 5000 + 1 * p.val = 5000 * t.val + p.val; rw [h0]; omega
      | ⟨1, _⟩ => show win7_9.index t 1 * 128 + 1 * q.val = q.val; rw [h1]; omega)
  show k7_pay2 (F := Ideal) (iblk7 V c 2 t) (iblk7 V c 0 t) (iblk7 V c 1 t) (iblk7 V c 5 t) (iblk7 V c 6 t) (iblk7 V c 3 t) (iblk7 V c 4 t) (ix2 p q)
    = G7 V c (((cfg7.win 9).blk t).view.emb (ix2 p q))
  rw [hemb]
  exact pay7_blocks V c t p q hb

/-- An index of window 9's array is in point t's block iff each coordinate is in the block's range on its axis. -/
theorem mem_blk7_9 (t : Fin cfg7.N) (i : S50000x128.Idx) :
    i ∈ ((cfg7.win 9).blk t).view.set ↔ ∀ a : Fin 2, win7_9.index t a * S5000x128.size a ≤ (i a).val ∧ (i a).val < win7_9.index t a * S5000x128.size a + S5000x128.size a := by
  show i ∈ ((View.whole main_v51_0).slice (win7_9.rect t)).set ↔ _
  rw [View.set_slice_whole, Rect.mem_set_unit]
  exact Iff.rfl

/-- Every row of window 9's array is in some point's block: row r in that of point r / 5000. -/
theorem cover7_9_arr (i : S50000x128.Idx) : ∃ t : Fin cfg7.N, (cfg7.win 9).flush t = true ∧ i ∈ ((cfg7.win 9).blk t).view.set := by
  have hi0 : (i 0).val < 50000 := (i 0).isLt
  have hi1 : (i 1).val < 128 := (i 1).isLt
  have hN : cfg7.N = 10 := N_7
  refine ⟨⟨(i 0).val / 5000, by rw [hN]; omega⟩, flush7_9 _, ?_⟩
  rw [mem_blk7_9]
  obtain ⟨h0, h1⟩ := idx7_9 ⟨(i 0).val / 5000, by rw [hN]; omega⟩
  intro a
  match a with
  | ⟨0, _⟩ => show win7_9.index _ 0 * 5000 ≤ (i 0).val ∧ (i 0).val < win7_9.index _ 0 * 5000 + 5000; rw [h0]; show (i 0).val / 5000 * 5000 ≤ (i 0).val ∧ (i 0).val < (i 0).val / 5000 * 5000 + 5000; omega
  | ⟨1, _⟩ => show win7_9.index _ 1 * 128 ≤ (i 1).val ∧ (i 1).val < win7_9.index _ 1 * 128 + 128; rw [h1]; omega

/-- The rectified result array after the region: the rectified, normalised linear layer of the activation, entry by entry. -/
theorem final7_9 (c : Dev nD) : (dat7 (F := Ideal) V c).arrAt 9 cfg7.N = G7 V c :=
  (dat7 (F := Ideal) V c).arrAt_eq_of_cover 9 (G7 V c) (fun t _ => flushed7_9_eq V c t) cover7_9_arr

/-! ## The attention column -/

/-- The attention payload at an entry: the logistic function of the row of the rectified result (rounded to bf16, the
    identity on the extended reals) against the attention weight's column, plus the attention bias. -/
theorem pay7att_apply (v0 : FVec Ideal S1x128 .f32) (v2 : FVec Ideal S5000x128 .bf16) (v4 : FVec Ideal S128x128 .f32)
    (v9 v13 v20 v24 : FVec Ideal S1x128 .f32) (v32 : FVec Ideal S128x1 .f32) (v35 : FVec Ideal S1x1 .f32) (p : Fin 5000) (q : Fin 1) :
    k7_pay1 (F := Ideal) (k7_pay3 v0 v2 v4 v9 v13 v20 v24 v32) v35 (ix2 p q) =
      Ideal.logistic ((∑ k : Fin 128, k7_pay2 (F := Ideal) v0 v2 v4 v9 v13 v20 v24 (ix2 p k) * v32 (ix2 k q)) + v35 (ix2 0 q)) := by
  unfold k7_pay1 k7_pay3
  simp only [logistic_apply, addf_apply, shapeCast_self, broadcastTo_1b_ab_apply]
  rw [show matmul dot_S5000x128_S128x1_S5000x1_1_0_0_1_n_n none (truncf .bf16 (k7_pay2 (F := Ideal) v0 v2 v4 v9 v13 v20 v24) bitsLt_bf16_f32) (truncf .bf16 v32 bitsLt_bf16_f32) (constant S5000x1 .f32 0x00000000#32) (ix2 p q)
      = ∑ k : Fin 128, k7_pay2 (F := Ideal) v0 v2 v4 v9 v13 v20 v24 (ix2 p k) * v32 (ix2 k q)
    from matmulDAtt_apply (truncf .bf16 (k7_pay2 (F := Ideal) v0 v2 v4 v9 v13 v20 v24) bitsLt_bf16_f32) (truncf .bf16 v32 bitsLt_bf16_f32) p q]

/-- What the region leaves in window 10's array: at row e the logistic function of row e of the rectified result
    against the attention weight, plus the attention bias. -/
def G7att (c : Dev nD) : S50000x1.Idx → EReal := fun i =>
  Ideal.logistic ((∑ k : Fin 128, G7 V c (ix2 (i 0) k) * (V c main_arg19 : S128x1.Idx → EReal) (ix2 k 0)) + (V c main_v50 : S1x1.Idx → EReal) (ix2 0 0))

/-- The attention payload of the blocks at point t, at row p of the block, is that function at row 5000·t + p. -/
theorem pay7att_blocks (c : Dev nD) (t : Fin cfg7.N) (p : Fin 5000) (hb : 5000 * t.val + p.val < 50000) :
    k7_pay1 (F := Ideal) (k7_pay3 (iblk7 V c 2 t) (iblk7 V c 0 t) (iblk7 V c 1 t) (iblk7 V c 5 t) (iblk7 V c 6 t) (iblk7 V c 3 t) (iblk7 V c 4 t) (iblk7 V c 7 t)) (iblk7 V c 8 t) (ix2 p 0)
      = G7att V c (ix2 (⟨5000 * t.val + p.val, hb⟩ : Fin 50000) 0) := by
  refine (pay7att_apply _ _ _ _ _ _ _ _ _ p 0).trans ?_
  refine congrArg Ideal.logistic (congrArg₂ (· + ·) (Finset.sum_congr rfl fun k _ => ?_) (iblk7_8_apply V c t))
  exact congrArg₂ (· * ·) (pay7_blocks V c t p k hb) (iblk7_7_apply V c t k)

/-- What point t writes back to window 10's array is block t of that function. -/
theorem flushed7_10_eq (c : Dev nD) (t : Fin cfg7.N) :
    (dat7 (F := Ideal) V c).flushed 10 t = ((cfg7.win 10).blk t).view.read (Elt Ideal) (G7att V c) := by
  show (cfg7.win 10).cut (grid7.coords t) ((dat7 V c).after 10 t) = _
  rw [after7_10]
  unfold out7_10
  rw [View.canon_unit_zero hz2]
  simp only [View.ld_unit_zero (S := S5000x128) hz2, View.ld_unit_zero (S := S128x128) hz2, View.ld_unit_zero (S := S1x128) hz2, View.ld_unit_zero (S := S128x1) hz2, View.ld_unit_zero (S := S1x1) hz2]
  funext j
  obtain ⟨p, q, rfl⟩ : ∃ (p : Fin 5000) (q : Fin 1), j = ix2 p q := ⟨j 0, j 1, eq_ix2 j⟩
  obtain rfl : q = 0 := Fin.ext (by have := q.isLt; omega)
  obtain ⟨h0, h1⟩ := idx7_10 t
  have hN : cfg7.N = 10 := N_7
  have ht : t.val < 10 := hN ▸ t.isLt
  have hb : 5000 * t.val + p.val < 50000 := by have := p.isLt; omega
  have hemb : ((cfg7.win 10).blk t).view.emb (ix2 p 0) = (ix2 (⟨5000 * t.val + p.val, hb⟩ : Fin 50000) 0 : S50000x1.Idx) :=
    funext fun a => Fin.ext (by
      match a with
      | ⟨0, _⟩ => show win7_10.index t 0 * 5000 + 1 * p.val = 5000 * t.val + p.val; rw [h0]; omega
      | ⟨1, _⟩ => show win7_10.index t 1 * 1 + 1 * 0 = 0; rw [h1])
  show k7_pay1 (F := Ideal) (k7_pay3 (iblk7 V c 2 t) (iblk7 V c 0 t) (iblk7 V c 1 t) (iblk7 V c 5 t) (iblk7 V c 6 t) (iblk7 V c 3 t) (iblk7 V c 4 t) (iblk7 V c 7 t)) (iblk7 V c 8 t) (ix2 p 0)
    = G7att V c (((cfg7.win 10).blk t).view.emb (ix2 p 0))
  rw [hemb]
  exact pay7att_blocks V c t p hb

/-- An index of window 10's array is in point t's block iff each coordinate is in the block's range on its axis. -/
theorem mem_blk7_10 (t : Fin cfg7.N) (i : S50000x1.Idx) :
    i ∈ ((cfg7.win 10).blk t).view.set ↔ ∀ a : Fin 2, win7_10.index t a * S5000x1.size a ≤ (i a).val ∧ (i a).val < win7_10.index t a * S5000x1.size a + S5000x1.size a := by
  show i ∈ ((View.whole main_v51_1).slice (win7_10.rect t)).set ↔ _
  rw [View.set_slice_whole, Rect.mem_set_unit]
  exact Iff.rfl

/-- Every row of window 10's array is in some point's block: row r in that of point r / 5000. -/
theorem cover7_10_arr (i : S50000x1.Idx) : ∃ t : Fin cfg7.N, (cfg7.win 10).flush t = true ∧ i ∈ ((cfg7.win 10).blk t).view.set := by
  have hi0 : (i 0).val < 50000 := (i 0).isLt
  have hi1 : (i 1).val < 1 := (i 1).isLt
  have hN : cfg7.N = 10 := N_7
  refine ⟨⟨(i 0).val / 5000, by rw [hN]; omega⟩, flush7_10 _, ?_⟩
  rw [mem_blk7_10]
  obtain ⟨h0, h1⟩ := idx7_10 ⟨(i 0).val / 5000, by rw [hN]; omega⟩
  intro a
  match a with
  | ⟨0, _⟩ => show win7_10.index _ 0 * 5000 ≤ (i 0).val ∧ (i 0).val < win7_10.index _ 0 * 5000 + 5000; rw [h0]; show (i 0).val / 5000 * 5000 ≤ (i 0).val ∧ (i 0).val < (i 0).val / 5000 * 5000 + 5000; omega
  | ⟨1, _⟩ => show win7_10.index _ 1 * 1 ≤ (i 1).val ∧ (i 1).val < win7_10.index _ 1 * 1 + 1; rw [h1]; omega

/-- The attention column after the region. -/
theorem final7_10 (c : Dev nD) : (dat7 (F := Ideal) V c).arrAt 10 cfg7.N = G7att V c :=
  (dat7 (F := Ideal) V c).arrAt_eq_of_cover 10 (G7att V c) (fun t _ => flushed7_10_eq V c t) cover7_10_arr

end Cert.KernelIdeal.Hand

end
-- ==== Proof.KI.Vals.lean ====
/-
  The idealized kernel program's chain of buffer contents, with each region's outputs named by what the region
  computes: an apply region's output array is one function of the region's entry arrays, index by index; a
  statistics region's two outputs are its final accumulators' mean and variance.
-/
import proofs.«110491_j38809324487019_2_alg».proof.Proof.KI.Kits
import proofs.«110491_j38809324487019_2_alg».proof.Proof.KI.Segs
import proofs.«110491_j38809324487019_2_alg».proof.Proof.KI.Reads
import proofs.«110491_j38809324487019_2_alg».proof.Proof.KI.Apply1Value
import proofs.«110491_j38809324487019_2_alg».proof.Proof.KI.Apply3Value
import proofs.«110491_j38809324487019_2_alg».proof.Proof.KI.Apply5Value
import proofs.«110491_j38809324487019_2_alg».proof.Proof.KI.Apply7Value

set_option maxRecDepth 16384

noncomputable section

namespace Cert.KernelIdeal.Hand

open Cert.KernelIdeal Cert.KernelIdeal.Gen
open Idealize.ShloMosaic Idealize.ShloMosaic.TcCoe
open Idealize.SL Idealize.SL.BI Idealize.SL.Sem
open Idealize.ShloMosaic.Pipeline (Dat)

variable (m : (ℓ : Loc nD τ sig) → Buf (Elt Ideal) ℓ)

/-- The regions' kits at the ideal instance. -/
abbrev kI : (p : Fin 8) → Kit Ideal p := kits (F := Ideal)

/-- The contents each region is entered from. -/
abbrev E1 : VT Ideal := fun c b => U1 m c b
abbrev E3 : VT Ideal := fun c b => U3 m kI c b
abbrev E5 : VT Ideal := fun c b => U5 m kI c b
abbrev E7 : VT Ideal := fun c b => U7 m kI c b
abbrev E9 : VT Ideal := fun c b => U9 m kI c b
abbrev E11 : VT Ideal := fun c b => U11 m kI c b
abbrev E13 : VT Ideal := fun c b => U13 m kI c b
abbrev E15 : VT Ideal := fun c b => U15 m kI c b

set_option backward.isDefEq.respectTransparency.types false in
/-- The first stage's activations. -/
theorem res1_9 (c : Dev nD) : U4 m kI c main_v18 = G1 (E3 m) c := by
  have h := hF1_9 m kI c
  rw [pdats_1] at h
  exact h.symm.trans (final1_9 (E3 m) c)
set_option backward.isDefEq.respectTransparency.types false in
/-- The second stage's activations. -/
theorem res3_7 (c : Dev nD) : U8 m kI c main_v24 = G3 (E7 m) c := by
  have h := hF3_7 m kI c
  rw [pdats_3] at h
  exact h.symm.trans (final3_7 (E7 m) c)
set_option backward.isDefEq.respectTransparency.types false in
/-- The third stage's activations. -/
theorem res5_9 (c : Dev nD) : U12 m kI c main_v44 = G5 (E11 m) c := by
  have h := hF5_9 m kI c
  rw [pdats_5] at h
  exact h.symm.trans (final5_9 (E11 m) c)
set_option backward.isDefEq.respectTransparency.types false in
/-- The fourth stage's activations: the first result. -/
theorem res7_9 (c : Dev nD) : U16 m kI c main_v51_0 = G7 (E15 m) c := by
  have h := hF7_9 m kI c
  rw [pdats_7] at h
  exact h.symm.trans (final7_9 (E15 m) c)
set_option backward.isDefEq.respectTransparency.types false in
/-- The attention column. -/
theorem res7_10 (c : Dev nD) : U16 m kI c main_v51_1 = G7att (E15 m) c := by
  have h := hF7_10 m kI c
  rw [pdats_7] at h
  exact h.symm.trans (final7_10 (E15 m) c)
set_option backward.isDefEq.respectTransparency.types false in
/-- Stage 1's column means as the statistics region leaves them. -/
theorem resMean0 (c : Dev nD) : U2 m kI c main_v14_0 = mean0Res (F := Ideal) (E1 m) c := by
  have h := hF0_5 m kI c
  rw [pdats_0] at h
  exact h.symm.trans (mean0 (E1 m) c)
set_option backward.isDefEq.respectTransparency.types false in
/-- Stage 1's column variances as the statistics region leaves them. -/
theorem resVar0 (c : Dev nD) : U2 m kI c main_v14_1 = var0Res (F := Ideal) (E1 m) c := by
  have h := hF0_6 m kI c
  rw [pdats_0] at h
  exact h.symm.trans (var0 (E1 m) c)
set_option backward.isDefEq.respectTransparency.types false in
/-- Stage 2's column means as the statistics region leaves them. -/
theorem resMean2 (c : Dev nD) : U6 m kI c main_v20_0 = mean2Res (F := Ideal) (E5 m) c := by
  have h := hF2_3 m kI c
  rw [pdats_2] at h
  exact h.symm.trans (mean2 (E5 m) c)
set_option backward.isDefEq.respectTransparency.types false in
/-- Stage 2's column variances as the statistics region leaves them. -/
theorem resVar2 (c : Dev nD) : U6 m kI c main_v20_1 = var2Res (F := Ideal) (E5 m) c := by
  have h := hF2_4 m kI c
  rw [pdats_2] at h
  exact h.symm.trans (var2 (E5 m) c)
set_option backward.isDefEq.respectTransparency.types false in
/-- Stage 3's column means as the statistics region leaves them. -/
theorem resMean4 (c : Dev nD) : U10 m kI c main_v40_0 = mean4Res (F := Ideal) (E9 m) c := by
  have h := hF4_5 m kI c
  rw [pdats_4] at h
  exact h.symm.trans (mean4 (E9 m) c)
set_option backward.isDefEq.respectTransparency.types false in
/-- Stage 3's column variances as the statistics region leaves them. -/
theorem resVar4 (c : Dev nD) : U10 m kI c main_v40_1 = var4Res (F := Ideal) (E9 m) c := by
  have h := hF4_6 m kI c
  rw [pdats_4] at h
  exact h.symm.trans (var4 (E9 m) c)
set_option backward.isDefEq.respectTransparency.types false in
/-- Stage 4's column means as the statistics region leaves them. -/
theorem resMean6 (c : Dev nD) : U14 m kI c main_v46_0 = mean6Res (F := Ideal) (E13 m) c := by
  have h := hF6_3 m kI c
  rw [pdats_6] at h
  exact h.symm.trans (mean6 (E13 m) c)
set_option backward.isDefEq.respectTransparency.types false in
/-- Stage 4's column variances as the statistics region leaves them. -/
theorem resVar6 (c : Dev nD) : U14 m kI c main_v46_1 = var6Res (F := Ideal) (E13 m) c := by
  have h := hF6_4 m kI c
  rw [pdats_6] at h
  exact h.symm.trans (var6 (E13 m) c)

end Cert.KernelIdeal.Hand
end
-- ==== Proof.Bridge.Defs.lean ====
/-
  The setting in which the two idealized programs are compared: the kernel program's launch memory on a core, and the
  plain program's launch contents, agreeing on the twenty-one arguments.
-/
import proofs.«110491_j38809324487019_2_alg».proof.Proof.KI.Vals
import proofs.«110491_j38809324487019_2_alg».proof.Proof.Ref.Value

noncomputable section

namespace Cert.Bridge

open Idealize.ShloMosaic Idealize.SL.Sem

/-- The plain program's contents agree with the kernel program's launch memory on every argument. -/
structure Agree (m : (ℓ : Loc Cert.KernelIdeal.nD Cert.KernelIdeal.τ Cert.KernelIdeal.sig) → Buf (Elt Ideal) ℓ) (c : Dev Cert.KernelIdeal.nD)
    (V' : Valuation Cert.ReferenceIdeal.τ Cert.ReferenceIdeal.sig (Elt Ideal)) : Prop where
  a0 : V' (Proc.devRef .tc Cert.ReferenceIdeal.main_arg0) = m ((c.tc : Thread Cert.KernelIdeal.nD Cert.KernelIdeal.τ).loc Cert.KernelIdeal.main_arg0)
  a1 : V' (Proc.devRef .tc Cert.ReferenceIdeal.main_arg1) = m ((c.tc : Thread Cert.KernelIdeal.nD Cert.KernelIdeal.τ).loc Cert.KernelIdeal.main_arg1)
  a2 : V' (Proc.devRef .tc Cert.ReferenceIdeal.main_arg2) = m ((c.tc : Thread Cert.KernelIdeal.nD Cert.KernelIdeal.τ).loc Cert.KernelIdeal.main_arg2)
  a3 : V' (Proc.devRef .tc Cert.ReferenceIdeal.main_arg3) = m ((c.tc : Thread Cert.KernelIdeal.nD Cert.KernelIdeal.τ).loc Cert.KernelIdeal.main_arg3)
  a4 : V' (Proc.devRef .tc Cert.ReferenceIdeal.main_arg4) = m ((c.tc : Thread Cert.KernelIdeal.nD Cert.KernelIdeal.τ).loc Cert.KernelIdeal.main_arg4)
  a5 : V' (Proc.devRef .tc Cert.ReferenceIdeal.main_arg5) = m ((c.tc : Thread Cert.KernelIdeal.nD Cert.KernelIdeal.τ).loc Cert.KernelIdeal.main_arg5)
  a6 : V' (Proc.devRef .tc Cert.ReferenceIdeal.main_arg6) = m ((c.tc : Thread Cert.KernelIdeal.nD Cert.KernelIdeal.τ).loc Cert.KernelIdeal.main_arg6)
  a7 : V' (Proc.devRef .tc Cert.ReferenceIdeal.main_arg7) = m ((c.tc : Thread Cert.KernelIdeal.nD Cert.KernelIdeal.τ).loc Cert.KernelIdeal.main_arg7)
  a8 : V' (Proc.devRef .tc Cert.ReferenceIdeal.main_arg8) = m ((c.tc : Thread Cert.KernelIdeal.nD Cert.KernelIdeal.τ).loc Cert.KernelIdeal.main_arg8)
  a9 : V' (Proc.devRef .tc Cert.ReferenceIdeal.main_arg9) = m ((c.tc : Thread Cert.KernelIdeal.nD Cert.KernelIdeal.τ).loc Cert.KernelIdeal.main_arg9)
  a10 : V' (Proc.devRef .tc Cert.ReferenceIdeal.main_arg10) = m ((c.tc : Thread Cert.KernelIdeal.nD Cert.KernelIdeal.τ).loc Cert.KernelIdeal.main_arg10)
  a11 : V' (Proc.devRef .tc Cert.ReferenceIdeal.main_arg11) = m ((c.tc : Thread Cert.KernelIdeal.nD Cert.KernelIdeal.τ).loc Cert.KernelIdeal.main_arg11)
  a12 : V' (Proc.devRef .tc Cert.ReferenceIdeal.main_arg12) = m ((c.tc : Thread Cert.KernelIdeal.nD Cert.KernelIdeal.τ).loc Cert.KernelIdeal.main_arg12)
  a13 : V' (Proc.devRef .tc Cert.ReferenceIdeal.main_arg13) = m ((c.tc : Thread Cert.KernelIdeal.nD Cert.KernelIdeal.τ).loc Cert.KernelIdeal.main_arg13)
  a14 : V' (Proc.devRef .tc Cert.ReferenceIdeal.main_arg14) = m ((c.tc : Thread Cert.KernelIdeal.nD Cert.KernelIdeal.τ).loc Cert.KernelIdeal.main_arg14)
  a15 : V' (Proc.devRef .tc Cert.ReferenceIdeal.main_arg15) = m ((c.tc : Thread Cert.KernelIdeal.nD Cert.KernelIdeal.τ).loc Cert.KernelIdeal.main_arg15)
  a16 : V' (Proc.devRef .tc Cert.ReferenceIdeal.main_arg16) = m ((c.tc : Thread Cert.KernelIdeal.nD Cert.KernelIdeal.τ).loc Cert.KernelIdeal.main_arg16)
  a17 : V' (Proc.devRef .tc Cert.ReferenceIdeal.main_arg17) = m ((c.tc : Thread Cert.KernelIdeal.nD Cert.KernelIdeal.τ).loc Cert.KernelIdeal.main_arg17)
  a18 : V' (Proc.devRef .tc Cert.ReferenceIdeal.main_arg18) = m ((c.tc : Thread Cert.KernelIdeal.nD Cert.KernelIdeal.τ).loc Cert.KernelIdeal.main_arg18)
  a19 : V' (Proc.devRef .tc Cert.ReferenceIdeal.main_arg19) = m ((c.tc : Thread Cert.KernelIdeal.nD Cert.KernelIdeal.τ).loc Cert.KernelIdeal.main_arg19)
  a20 : V' (Proc.devRef .tc Cert.ReferenceIdeal.main_arg20) = m ((c.tc : Thread Cert.KernelIdeal.nD Cert.KernelIdeal.τ).loc Cert.KernelIdeal.main_arg20)

end Cert.Bridge

end
-- ==== Proof.LibFinite.lean ====
/-
  Finiteness on the extended reals, and its closure under the exact operations.

  An extended real is called REAL here when it is the image of a real number, that is, neither infinity.  This file
  proves that the real extended reals are closed under the exact operations an idealized float program is made of:
  sum, difference, product, negation, a finite sum, maximum and minimum, the quotient by a nonzero real (the ideal
  quotient is the product with the reciprocal there), the reciprocal square root of a positive real (in particular
  of a nonnegative real plus a positive one), the exponential, and the logarithm of a positive real.  It also reads
  three single-precision bit patterns as the reals they denote: the zero pattern as 0, the pattern of 100000 as
  100000, and the pattern of the single-precision number nearest to 1e-5 as the positive dyadic rational
  10995116 / 2^40; and the signed reading of the 32-bit integer zero as the real 0.
-/
import Idealize.ShloMosaic.PureOps.Ideal
import Idealize.ShloMosaic.PureOps.Ideal.Laws
import Idealize.ShloMosaic.Lib.ValueIdx

namespace Cert.LibStats

open Idealize.ShloMosaic

/-- An extended real is REAL when it is (the image of) a real number: neither of the two infinities. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- A real extended real is not the top infinity. -/
theorem IsReal.ne_top {x : EReal} (h : IsReal x) : x ≠ ⊤ := by
  obtain ⟨r, rfl⟩ := h; exact EReal.coe_ne_top r

/-- A real extended real is not the bottom infinity. -/
theorem IsReal.ne_bot {x : EReal} (h : IsReal x) : x ≠ ⊥ := by
  obtain ⟨r, rfl⟩ := h; exact EReal.coe_ne_bot r

/-- Real means exactly: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact isReal_coe r

/-- A real extended real is the image of its own real part. -/
theorem IsReal.coe_toReal {x : EReal} (h : IsReal x) : ((x.toReal : ℝ) : EReal) = x := by
  obtain ⟨r, rfl⟩ := h; rw [EReal.toReal_coe]

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is real. -/
theorem IsReal.neg {x : EReal} (hx : IsReal x) : IsReal (-x) := by
  obtain ⟨a, rfl⟩ := hx; exact ⟨-a, (EReal.coe_neg a).symm⟩

/-- The maximum of two reals is real (it is one of them). -/
theorem IsReal.max {x y : EReal} (hx : IsReal x) (hy : IsReal y) : IsReal (max x y) := by
  rcases max_choice x y with h | h <;> rw [h] <;> assumption

/-- The minimum of two reals is real (it is one of them). -/
theorem IsReal.min {x y : EReal} (hx : IsReal x) (hy : IsReal y) : IsReal (min x y) := by
  rcases min_choice x y with h | h <;> rw [h] <;> assumption

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of reals over a whole finite type is real. -/
theorem IsReal.sum_univ {ι : Type*} [Fintype ι] (f : ι → EReal) (h : ∀ i, IsReal (f i)) : IsReal (∑ i, f i) :=
  IsReal.sum Finset.univ f fun i _ => h i

/-- The image of a finite sum of real numbers is the sum of the images. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The ideal quotient of a real by a nonzero real number is real: it is the product with the reciprocal. -/
theorem IsReal.div_coe {x : EReal} (hx : IsReal x) {y : ℝ} (hy : y ≠ 0) : IsReal (Ideal.div x (y : EReal)) := by
  rw [Ideal.div_coe hy]; exact hx.mul (isReal_coe _)

/-- The ideal quotient of two real numbers, the divisor not zero, is the image of their real quotient. -/
theorem div_coe_coe (a : ℝ) {y : ℝ} (hy : y ≠ 0) : Ideal.div (a : EReal) (y : EReal) = ((a / y : ℝ) : EReal) := by
  rw [Ideal.div_coe hy, ← EReal.coe_mul, mul_one_div]

/-- The ideal quotient of a real by a nonzero real is real. -/
theorem IsReal.div {x y : EReal} (hx : IsReal x) (hy : IsReal y) (hy0 : y ≠ 0) : IsReal (Ideal.div x y) := by
  obtain ⟨b, rfl⟩ := hy
  exact hx.div_coe fun h => hy0 (by rw [h, EReal.coe_zero])

/-- The ideal reciprocal square root at a positive real number: the reciprocal of the real square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is real. -/
theorem IsReal.rsqrt {x : EReal} (hx : IsReal x) (hpos : 0 < x) : IsReal (Ideal.rsqrt x) := by
  obtain ⟨r, rfl⟩ := hx
  rw [rsqrt_coe_pos (EReal.coe_pos.mp hpos)]; exact isReal_coe _

/-- A nonnegative extended real plus a positive one is positive. -/
theorem add_pos_of_nonneg_of_pos {v e : EReal} (hv0 : 0 ≤ v) (he0 : 0 < e) : 0 < v + e :=
  lt_of_lt_of_le he0 (le_add_of_nonneg_left hv0)

/-- The ideal reciprocal square root of (a nonnegative real plus a positive real) is real: the argument is a
    positive real, where the operation is the reciprocal of the square root. -/
theorem IsReal.rsqrt_add {v e : EReal} (hv : IsReal v) (he : IsReal e) (hv0 : 0 ≤ v) (he0 : 0 < e) :
    IsReal (Ideal.rsqrt (v + e)) :=
  (hv.add he).rsqrt (add_pos_of_nonneg_of_pos hv0 he0)

/-- The ideal exponential of a real is real. -/
theorem IsReal.exp {x : EReal} (hx : IsReal x) : IsReal (Ideal.exp x) := by
  obtain ⟨r, rfl⟩ := hx; rw [Ideal.exp_coe]; exact isReal_coe _

/-- The ideal exponential of a real is positive. -/
theorem exp_pos_of_isReal {x : EReal} (hx : IsReal x) : 0 < Ideal.exp x := by
  obtain ⟨r, rfl⟩ := hx; rw [Ideal.exp_coe]; exact EReal.coe_pos.mpr (Real.exp_pos r)

/-- The ideal logarithm of a positive real is real. -/
theorem IsReal.log {x : EReal} (hx : IsReal x) (hpos : 0 < x) : IsReal (Ideal.log x) := by
  obtain ⟨r, rfl⟩ := hx
  rw [Ideal.log_coe, if_neg (not_le.mpr (EReal.coe_pos.mp hpos))]; exact isReal_coe _

/-! ### Three single-precision patterns, and the integer zero -/

/-- The zero pattern denotes 0. -/
theorem ofBits_zero : Ideal.ofBits .f32 0x00000000#32 = 0 := Ideal.ofBits_zero_f32

/-- The pattern 0x47C35000 (sign 0, exponent 143, fraction 4411392) denotes 12800000 / 2^7 = 100000. -/
theorem ofBits_100000 : Ideal.ofBits .f32 0x47C35000#32 = ((100000 : ℝ) : EReal) := by
  simp [Ideal.ofBits, Ideal.ieee, -EReal.coe_mul]; norm_num

/-- The pattern 0x3727C5AC (sign 0, exponent 110, fraction 2606508), the single-precision number nearest to
    1e-5, denotes 10995116 / 2^40. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The zero pattern is real. -/
theorem isReal_ofBits_zero : IsReal (Ideal.ofBits .f32 0x00000000#32) := by rw [ofBits_zero]; exact isReal_zero

/-- The pattern of 100000 is real. -/
theorem isReal_ofBits_100000 : IsReal (Ideal.ofBits .f32 0x47C35000#32) := by rw [ofBits_100000]; exact isReal_coe _

/-- The pattern of 100000 is not zero. -/
theorem ofBits_100000_ne_zero : Ideal.ofBits .f32 0x47C35000#32 ≠ 0 := by
  rw [ofBits_100000, ← EReal.coe_zero]; exact fun h => by have := EReal.coe_eq_coe_iff.mp h; norm_num at this

/-- The pattern nearest 1e-5 is real. -/
theorem isReal_ofBits_eps : IsReal (Ideal.ofBits .f32 0x3727C5AC#32) := by rw [ofBits_eps]; exact isReal_coe _

/-- The pattern nearest 1e-5 is positive. -/
theorem ofBits_eps_pos : 0 < Ideal.ofBits .f32 0x3727C5AC#32 := by
  rw [ofBits_eps]; exact EReal.coe_pos.mpr (by positivity)

/-- The 32-bit integer zero, read signed and exactly, is the real 0. -/
theorem sitofp_zero : (((0#32 : BitVec 32).toInt : ℝ) : EReal) = 0 := by
  simp

/-- The same through the operation's own name at the ideal values. -/
theorem sitofp_zero_f32 : FloatOps.sitofp (F := Ideal) .f32 (0#32 : BitVec 32) = 0 := sitofp_zero

end Cert.LibStats
-- ==== Proof.LibBatchStats.lean ====
/-
  The batch-statistics identity over the extended reals, and two re-groupings of a sum over tiles.

  For a column c of 100000 real entries, with S the sum of the entries, Q the sum of their squares and mean = S / 100000,
  the one-pass variance  max (Q / 100000 - mean * mean) 0  equals the two-pass variance, the sum of the squared
  deviations from the mean divided by (100000 - 0): expanding the square, the cross term is -2 * mean * S and the
  constant term is 100000 * mean * mean, and S = 100000 * mean; the common value is a sum of squares over a positive
  count, hence nonnegative, so the maximum with 0 is the identity.  The identity is proved on the real numbers and
  transported along the embedding of the reals (which respects sum, difference, product, finite sums, and the ideal
  quotient by a nonzero real); it fails at the infinities, hence the hypothesis that every entry is real.  The
  comparison "100000 - 0 is greater than 0", as the ideal comparison spells it, is the one-bit word 1.

  The re-groupings: a sum over 8 * n positions that are zero off the multiples of 8 is the sum of the n values at
  the multiples of 8; and a sum over B * n consecutive positions is the sum of the n block sums of length B.  Both
  hold in every commutative additive monoid.
-/
import proofs.«110491_j38809324487019_2_alg».proof.Proof.LibFinite

namespace Cert.LibStats

open Idealize.ShloMosaic

/-! ### The identity on the real numbers -/

/-- On the reals: for n numbers and N the real number n, not zero, the mean square deviation from the mean is the
    mean of the squares minus the square of the mean. -/
theorem real_var {n : ℕ} (r : Fin n → ℝ) (N : ℝ) (hN : (n : ℝ) = N) (hN0 : N ≠ 0) :
    (∑ k, (r k - (∑ k, r k) / N) * (r k - (∑ k, r k) / N)) / N
      = (∑ k, r k * r k) / N - (∑ k, r k) / N * ((∑ k, r k) / N) := by
  have hexp : ∀ m : ℝ, ∑ k, (r k - m) * (r k - m) = (∑ k, r k * r k) - 2 * m * (∑ k, r k) + N * (m * m) := by
    intro m
    have : ∀ k, (r k - m) * (r k - m) = r k * r k - 2 * m * r k + m * m := fun k => by ring
    rw [Finset.sum_congr rfl fun k _ => this k, Finset.sum_add_distrib, Finset.sum_sub_distrib, ← Finset.mul_sum,
      Finset.sum_const, Finset.card_univ, Fintype.card_fin, nsmul_eq_mul, hN]
  rw [hexp]
  field_simp
  ring

/-! ### The identity on the extended reals -/

/-- The mean of a real column is real. -/
theorem mean_isReal (c : Fin 100000 → EReal) (hc : ∀ k, IsReal (c k)) :
    IsReal (Ideal.div (∑ k, c k) (Ideal.ofBits .f32 0x47C35000#32)) := by
  rw [ofBits_100000]; exact (IsReal.sum_univ c hc).div_coe (by norm_num)

/-- THE BATCH-STATISTICS IDENTITY.  For a column c of 100000 real entries, S its sum, Q the sum of its squares,
    mean the ideal quotient of S by the pattern of 100000, and z = 0 (the count's correction):
    max (Q / 100000 - mean * mean) 0 is the sum of the squared deviations from the mean over (100000 - z). -/
theorem batch_var (c : Fin 100000 → EReal) (hc : ∀ k, IsReal (c k)) (S Q μ z : EReal)
    (hS : S = ∑ k, c k) (hQ : Q = ∑ k, c k * c k)
    (hμ : μ = Ideal.div S (Ideal.ofBits .f32 0x47C35000#32)) (hz : z = 0) :
    max (Ideal.div Q (Ideal.ofBits .f32 0x47C35000#32) - μ * μ) 0
      = Ideal.div (∑ k, (c k - μ) * (c k - μ)) (Ideal.ofBits .f32 0x47C35000#32 - z) := by
  choose r hr using hc
  have hN : (100000 : ℝ) ≠ 0 := by norm_num
  have hSr : S = ((∑ k, r k : ℝ) : EReal) := by
    rw [hS, coe_sum]; exact Finset.sum_congr rfl fun k _ => hr k
  have hQr : Q = ((∑ k, r k * r k : ℝ) : EReal) := by
    rw [hQ, coe_sum]; exact Finset.sum_congr rfl fun k _ => by rw [hr k, EReal.coe_mul]
  have hμr : μ = (((∑ k, r k) / 100000 : ℝ) : EReal) := by
    rw [hμ, hSr, ofBits_100000, div_coe_coe _ hN]
  have hD : ∑ k, (c k - μ) * (c k - μ)
      = ((∑ k, (r k - (∑ k, r k) / 100000) * (r k - (∑ k, r k) / 100000) : ℝ) : EReal) := by
    rw [coe_sum]; exact Finset.sum_congr rfl fun k _ => by rw [hr k, hμr, ← EReal.coe_sub, ← EReal.coe_mul]
  rw [hD, hz, sub_zero, hQr, hμr, ofBits_100000, div_coe_coe _ hN, div_coe_coe _ hN, ← EReal.coe_mul,
    ← EReal.coe_sub, ← real_var r 100000 (by norm_num) hN]
  exact max_eq_left (EReal.coe_nonneg.mpr
    (div_nonneg (Finset.sum_nonneg fun k _ => mul_self_nonneg _) (by norm_num)))

/-- The variance of a real column (either side of the identity) is real. -/
theorem batch_var_isReal (c : Fin 100000 → EReal) (hc : ∀ k, IsReal (c k)) (S Q μ : EReal)
    (hS : S = ∑ k, c k) (hQ : Q = ∑ k, c k * c k)
    (hμ : μ = Ideal.div S (Ideal.ofBits .f32 0x47C35000#32)) :
    IsReal (max (Ideal.div Q (Ideal.ofBits .f32 0x47C35000#32) - μ * μ) 0) := by
  have hμR : IsReal μ := by rw [hμ, hS]; exact mean_isReal c hc
  have hQR : IsReal (Ideal.div Q (Ideal.ofBits .f32 0x47C35000#32)) := by
    rw [hQ, ofBits_100000]
    exact (IsReal.sum_univ _ fun k => (hc k).mul (hc k)).div_coe (by norm_num)
  exact (hQR.sub (hμR.mul hμR)).max isReal_zero

/-- The variance, as a maximum with 0, is nonnegative. -/
theorem batch_var_nonneg (v : EReal) : 0 ≤ max v 0 := le_max_right v 0

/-- The count 100000 - z, z = 0, compares greater than the zero pattern: the ideal comparison answers the word 1. -/
theorem cmp_count_pos (z : EReal) (hz : z = 0) :
    Ideal.cmp .ogt (Ideal.ofBits .f32 0x47C35000#32 - z) (Ideal.ofBits .f32 0x00000000#32) = 1#1 := by
  have h : (0 : EReal) < ((100000 : ℝ) : EReal) := EReal.coe_pos.mpr (by norm_num)
  rw [hz, sub_zero, ofBits_100000, ofBits_zero]
  simp [Ideal.cmp, h]

/-- The same through the operation's own name at the ideal values. -/
theorem cmpf_count_pos (z : EReal) (hz : z = 0) :
    FloatOps.cmpf (F := Ideal) (φ := .f32) .ogt (Ideal.ofBits .f32 0x47C35000#32 - z)
      (Ideal.ofBits .f32 0x00000000#32) = 1#1 :=
  cmp_count_pos z hz

/-- The two-pass variance exactly as a plain program spells it — each sum started from the zero pattern, the
    quotient guarded by the comparison of the count with zero, any word w on the branch not taken — is the
    one-pass variance of the column's plain sums. -/
theorem two_pass_eq_one_pass (c : Fin 100000 → EReal) (hc : ∀ k, IsReal (c k)) (z w : EReal) (hz : z = 0) :
    Scalar.select (Ideal.cmp .ogt (Ideal.ofBits .f32 0x47C35000#32 - z) (Ideal.ofBits .f32 0x00000000#32))
        (Ideal.div
          (Ideal.ofBits .f32 0x00000000#32
            + ∑ k, (c k - Ideal.div (Ideal.ofBits .f32 0x00000000#32 + ∑ k, c k) (Ideal.ofBits .f32 0x47C35000#32))
                * (c k - Ideal.div (Ideal.ofBits .f32 0x00000000#32 + ∑ k, c k) (Ideal.ofBits .f32 0x47C35000#32)))
          (Ideal.ofBits .f32 0x47C35000#32 - z))
        w
      = max (Ideal.div (∑ k, c k * c k) (Ideal.ofBits .f32 0x47C35000#32)
              - Ideal.div (∑ k, c k) (Ideal.ofBits .f32 0x47C35000#32)
                * Ideal.div (∑ k, c k) (Ideal.ofBits .f32 0x47C35000#32))
          (Ideal.ofBits .f32 0x00000000#32) := by
  rw [cmp_count_pos z hz, ofBits_zero, zero_add, zero_add]
  exact (batch_var c hc _ _ _ z rfl rfl rfl hz).symm

/-! ### Sums over tiles -/

section Tiles

variable {M : Type*} [AddCommMonoid M]

/-- A sum over B * n consecutive positions is the sum of the n sums over the blocks of length B. -/
theorem sum_blocks (n B N : ℕ) (hN : N = n * B) (f : Fin N → M) :
    ∑ t : Fin n, ∑ i : Fin B, f ⟨B * t.val + i.val, by
        have := t.isLt; have := i.isLt; subst hN
        calc B * t.val + i.val < B * t.val + B := by omega
          _ = B * (t.val + 1) := by ring
          _ ≤ B * n := Nat.mul_le_mul_left B (by omega)
          _ = n * B := Nat.mul_comm B n⟩
      = ∑ k, f k := by
  subst hN
  rw [← Equiv.sum_comp finProdFinEquiv f, Fintype.sum_prod_type]
  exact Finset.sum_congr rfl fun t _ => Finset.sum_congr rfl fun i _ =>
    congrArg f (Fin.ext (by simp [finProdFinEquiv, Nat.add_comm]))

/-- The 100000 rows in 20 tiles of 5000. -/
theorem sum_tiles (f : Fin 100000 → M) :
    ∑ t : Fin 20, ∑ i : Fin 5000, f ⟨5000 * t.val + i.val, by have := t.isLt; have := i.isLt; omega⟩ = ∑ k, f k :=
  sum_blocks 20 5000 100000 (by norm_num) f

/-- A sum over n * 8 positions that vanish off the multiples of 8 is the sum of the values at the multiples of 8. -/
theorem sum_padded_of (n N : ℕ) (hN : N = n * 8) (T : Fin n → M) (P : Fin N → M)
    (h0 : ∀ (r : Fin N) (t : Fin n), r.val = 8 * t.val → P r = T t)
    (h1 : ∀ r : Fin N, r.val % 8 ≠ 0 → P r = 0) :
    ∑ r, P r = ∑ t, T t := by
  subst hN
  rw [← Equiv.sum_comp finProdFinEquiv P, Fintype.sum_prod_type]
  refine Finset.sum_congr rfl fun t _ => ?_
  rw [Finset.sum_eq_single (0 : Fin 8)]
  · exact h0 _ t (by simp [finProdFinEquiv])
  · intro i _ hi
    refine h1 _ ?_
    have : i.val ≠ 0 := fun h => hi (Fin.ext h)
    have := i.isLt
    simp only [finProdFinEquiv, Equiv.coe_fn_mk]
    omega
  · intro h; exact absurd (Finset.mem_univ _) h

/-- The 160 rows of per-tile partial sums: row 8 t holds tile t's value, every other row is zero. -/
theorem sum_padded (T : Fin 20 → M) (P : Fin 160 → M)
    (hP : ∀ r : Fin 160, P r = if r.val % 8 = 0 then T ⟨r.val / 8, by have := r.isLt; omega⟩ else 0) :
    ∑ r, P r = ∑ t, T t :=
  sum_padded_of 20 160 (by norm_num) T P
    (fun r t h => by
      rw [hP r, if_pos (by omega)]
      exact congrArg T (Fin.ext (by simp only; omega)))
    (fun r h => by rw [hP r, if_neg h])

end Tiles

/-- The kernel's column statistics from its 160 rows of partial sums agree with the plain sums over the 100000
    rows: the padded rows sum to the tile sums, and the tile sums to the whole. -/
theorem sum_padded_tiles {M : Type*} [AddCommMonoid M] (f : Fin 100000 → M) (P : Fin 160 → M)
    (hP : ∀ r : Fin 160, P r = if r.val % 8 = 0
      then ∑ i : Fin 5000, f ⟨5000 * (r.val / 8) + i.val, by have := r.isLt; have := i.isLt; omega⟩ else 0) :
    ∑ r, P r = ∑ k, f k := by
  rw [sum_padded (fun t : Fin 20 => ∑ i : Fin 5000, f ⟨5000 * t.val + i.val, by
    have := t.isLt; have := i.isLt; omega⟩) P hP]
  exact sum_tiles f

end Cert.LibStats
-- ==== Proof.Laws.lean ====
/-
  The laws between the two arrangements of a fused stage's arithmetic on the extended reals.

  A product over 256 input columns is the sum of the products over its two halves (the sum over a range is the sum
  over its two parts; addition of extended reals is commutative and associative, so no finiteness is used).
  A quotient by a nonzero real is the product with its reciprocal, on every extended real. The one-pass variance
  max(E[y²] − E[y]², 0) is the two-pass variance E[(y − E y)²] when every entry of the column is a real number:
  there the identity is the real one, and the value is a mean of squares, hence not below zero.
-/
import proofs.«110491_j38809324487019_2_alg».proof.Proof.Spec
import proofs.«110491_j38809324487019_2_alg».proof.Proof.LibBatchStats

noncomputable section

namespace Cert.Spec

open Idealize.ShloMosaic Cert.LibStats

/-- The zero pattern denotes 0. -/
theorem z0_eq : z0 = 0 := Ideal.ofBits_zero_f32

/-- The plain program's linear layer over 256 input columns, the first 128 of them the table x1 and the last 128 the
    table x2, is the kernels' layer over the two halves of the weights. -/
theorem linR_eq_lin2 {R : ℕ} (x : Fin R → Fin 256 → EReal) (w : Fin 256 → Fin 128 → EReal) (b : Fin 128 → EReal)
    (x1 x2 : Fin R → Fin 128 → EReal) (w1 w2 : Fin 128 → Fin 128 → EReal)
    (hx1 : ∀ e (k : Fin 128), x e (Fin.castAdd 128 k) = x1 e k) (hx2 : ∀ e (k : Fin 128), x e (Fin.natAdd 128 k) = x2 e k)
    (hw1 : ∀ (k : Fin 128) j, w (Fin.castAdd 128 k) j = w1 k j) (hw2 : ∀ (k : Fin 128) j, w (Fin.natAdd 128 k) j = w2 k j)
    (e : Fin R) (j : Fin 128) : linR x w b e j = lin2 x1 x2 w1 w2 b e j := by
  unfold linR lin2
  rw [show (∑ k : Fin 256, x e k * w k j) = ∑ k : Fin (128 + 128), x e k * w k j from rfl, Fin.sum_univ_add]
  simp only [hx1, hx2, hw1, hw2]
  abel

/-- One input: the plain program's layer is the kernels' with the bias moved in front. -/
theorem linR_eq_lin1 {R : ℕ} (x : Fin R → Fin 128 → EReal) (w : Fin 128 → Fin 128 → EReal) (b : Fin 128 → EReal)
    (e : Fin R) (j : Fin 128) : linR x w b e j = lin1 x w b e j := by
  unfold linR lin1; exact add_comm _ _

/-- The column mean as a quotient by the row count is the column sum times the count's reciprocal. -/
theorem meanR_eq_meanK {R : ℕ} (N : ℝ) (hN0 : N ≠ 0) (y : Fin R → Fin 128 → EReal) (j : Fin 128) :
    meanR (N : EReal) y j = meanK (((1 / N : ℝ) : ℝ) : EReal) y j := by
  unfold meanR meanK; rw [z0_eq, zero_add, Ideal.div_coe hN0]

/-- THE BATCH-STATISTICS IDENTITY: for a column of real entries, R of them, the two-pass variance is the one-pass one. -/
theorem varR_eq_varK {R : ℕ} (N : ℝ) (hN : (R : ℝ) = N) (hN0 : N ≠ 0) (y : Fin R → Fin 128 → EReal) (j : Fin 128)
    (hy : ∀ e, IsReal (y e j)) : varR (N : EReal) y j = varK (((1 / N : ℝ) : ℝ) : EReal) y j := by
  choose r hr using hy
  have hS : ∑ e, y e j = ((∑ e, r e : ℝ) : EReal) := by
    rw [coe_sum]; exact Finset.sum_congr rfl fun e _ => hr e
  have hQ : ∑ e, y e j * y e j = ((∑ e, r e * r e : ℝ) : EReal) := by
    rw [coe_sum]; exact Finset.sum_congr rfl fun e _ => by rw [hr e, EReal.coe_mul]
  have hμ : meanR (N : EReal) y j = (((∑ e, r e) / N : ℝ) : EReal) := by
    unfold meanR; rw [z0_eq, zero_add, hS, div_coe_coe _ hN0]
  have hD : ∑ e, (y e j - meanR (N : EReal) y j) * (y e j - meanR (N : EReal) y j)
      = ((∑ e, (r e - (∑ e, r e) / N) * (r e - (∑ e, r e) / N) : ℝ) : EReal) := by
    rw [coe_sum]; exact Finset.sum_congr rfl fun e _ => by rw [hr e, hμ, ← EReal.coe_sub, ← EReal.coe_mul]
  have hNn : 0 ≤ N := hN ▸ Nat.cast_nonneg R
  unfold varR varK meanK
  rw [hD, z0_eq, zero_add, div_coe_coe _ hN0, hQ, hS, ← EReal.coe_mul, ← EReal.coe_mul, ← EReal.coe_mul, ← EReal.coe_sub,
    real_var r N hN hN0]
  have h2 : (∑ e, r e * r e) * (1 / N) - (∑ e, r e) * (1 / N) * ((∑ e, r e) * (1 / N))
      = (∑ e, r e * r e) / N - (∑ e, r e) / N * ((∑ e, r e) / N) := by ring
  rw [h2]
  refine (max_eq_left (EReal.coe_nonneg.mpr ?_)).symm
  rw [← real_var r N hN hN0]
  exact div_nonneg (Finset.sum_nonneg fun e _ => mul_self_nonneg _) hNn

end Cert.Spec

end
-- ==== Proof.StageLaw.lean ====
/-
  One fused stage, both arrangements: when the two programs' pre-activation tables agree entry by entry and every
  entry is a real number, the normalised, rectified outputs agree entry by entry — the two means are one number
  (a quotient by the row count is the product with its reciprocal), the two variances are one number (the
  batch-statistics identity), and the rest of the expression is the same in both. Also: what is real stays real
  through a stage — a linear layer of real tables is real; the one-pass variance is a maximum with zero, so not
  below zero, and ε is positive, so the reciprocal square root is taken at a positive real.
-/
import proofs.«110491_j38809324487019_2_alg».proof.Proof.Laws

noncomputable section

namespace Cert.Spec

open Idealize.ShloMosaic Cert.LibStats

/-- The fused stage's output entry, plain arrangement over the table yR, is the kernels' over yK. -/
theorem stage_eq {R : ℕ} (N : ℝ) (hN : (R : ℝ) = N) (hN0 : N ≠ 0) (yK yR : Fin R → Fin 128 → EReal)
    (hy : ∀ e j, yR e j = yK e j) (hreal : ∀ e j, IsReal (yK e j)) (g be : EReal) (e : Fin R) (j : Fin 128) :
    bnrelu (yR e j) (meanR (N : EReal) yR j) (varR (N : EReal) yR j) g be
      = bnrelu (yK e j) (meanK (((1 / N : ℝ) : ℝ) : EReal) yK j) (varK (((1 / N : ℝ) : ℝ) : EReal) yK j) g be := by
  have hfun : yR = yK := funext fun e => funext fun j => hy e j
  rw [hfun, meanR_eq_meanK N hN0, varR_eq_varK N hN hN0 yK j (fun e => hreal e j)]

/-- The zero pattern is real. -/
theorem isReal_z0 : IsReal z0 := by rw [z0_eq]; exact isReal_zero

/-- ε is real and positive. -/
theorem isReal_eps : IsReal eps := isReal_ofBits_eps
theorem eps_pos : 0 < eps := ofBits_eps_pos

/-- The kernels' one-pass variance is not below zero. -/
theorem varK_nonneg {R : ℕ} (r : EReal) (y : Fin R → Fin 128 → EReal) (j : Fin 128) : 0 ≤ varK r y j := by
  unfold varK; rw [z0_eq]; exact le_max_right _ _

/-- The kernels' one-pass mean of a real column, with a real reciprocal, is real. -/
theorem isReal_meanK {R : ℕ} (r : ℝ) (y : Fin R → Fin 128 → EReal) (j : Fin 128) (hy : ∀ e, IsReal (y e j)) :
    IsReal (meanK (r : EReal) y j) := by
  unfold meanK; exact (IsReal.sum_univ _ hy).mul (isReal_coe r)

/-- The kernels' one-pass variance of a real column, with a real reciprocal, is real. -/
theorem isReal_varK {R : ℕ} (r : ℝ) (y : Fin R → Fin 128 → EReal) (j : Fin 128) (hy : ∀ e, IsReal (y e j)) :
    IsReal (varK (r : EReal) y j) := by
  unfold varK
  exact ((((IsReal.sum_univ _ fun e => (hy e).mul (hy e)).mul (isReal_coe r)).sub ((isReal_meanK r y j hy).mul (isReal_meanK r y j hy)))).max isReal_z0

/-- A normalised, rectified entry of reals, the variance real and not below zero, is real. -/
theorem isReal_bnrelu {y m v g be : EReal} (hy : IsReal y) (hm : IsReal m) (hv : IsReal v) (hv0 : 0 ≤ v) (hg : IsReal g) (hbe : IsReal be) :
    IsReal (bnrelu y m v g be) := by
  unfold bnrelu
  exact ((((hy.sub hm).mul (IsReal.rsqrt_add hv isReal_eps hv0 eps_pos)).mul hg).add hbe).max isReal_z0

/-- A linear layer's entry over real tables is real (one input). -/
theorem isReal_lin1 {R : ℕ} (x : Fin R → Fin 128 → EReal) (w : Fin 128 → Fin 128 → EReal) (b : Fin 128 → EReal)
    (hx : ∀ e k, IsReal (x e k)) (hw : ∀ k j, IsReal (w k j)) (hb : ∀ j, IsReal (b j)) (e : Fin R) (j : Fin 128) :
    IsReal (lin1 x w b e j) := by
  unfold lin1; exact (hb j).add (IsReal.sum_univ _ fun k => (hx e k).mul (hw k j))

/-- A linear layer's entry over real tables is real (two inputs). -/
theorem isReal_lin2 {R : ℕ} (x1 x2 : Fin R → Fin 128 → EReal) (w1 w2 : Fin 128 → Fin 128 → EReal) (b : Fin 128 → EReal)
    (hx1 : ∀ e k, IsReal (x1 e k)) (hx2 : ∀ e k, IsReal (x2 e k)) (hw1 : ∀ k j, IsReal (w1 k j)) (hw2 : ∀ k j, IsReal (w2 k j))
    (hb : ∀ j, IsReal (b j)) (e : Fin R) (j : Fin 128) : IsReal (lin2 x1 x2 w1 w2 b e j) := by
  unfold lin2
  exact ((hb j).add (IsReal.sum_univ _ fun k => (hx1 e k).mul (hw1 k j))).add (IsReal.sum_univ _ fun k => (hx2 e k).mul (hw2 k j))

end Cert.Spec

end
-- ==== Proof.Ref.ReadLit.lean ====
import proofs.«110491_j38809324487019_2_alg».proof.Proof.Spec
import proofs.«110491_j38809324487019_2_alg».proof.Proof.LibFinite
import Idealize.ShloMosaic.Lib.IdealHost

noncomputable section

namespace Cert.ReferenceIdeal.Hand

open Idealize.ShloMosaic

/-! The two row counts as single-precision patterns. -/

/-- The pattern 0x49435000 (exponent 146, fraction 4411392) denotes 12800000 / 2^4 = 800000. -/
theorem ofBits_800000 : Ideal.ofBits .f32 0x49435000#32 = ((800000 : ℝ) : EReal) := by
  simp [Ideal.ofBits, Ideal.ieee, -EReal.coe_mul]; norm_num

/-- The pattern 0x47435000 (exponent 142, fraction 4411392) denotes 12800000 / 2^8 = 50000. -/
theorem ofBits_50000 : Ideal.ofBits .f32 0x47435000#32 = ((50000 : ℝ) : EReal) := by
  simp [Ideal.ofBits, Ideal.ieee, -EReal.coe_mul]; norm_num

end Cert.ReferenceIdeal.Hand

end
-- ==== Proof.Ref.ReadE.lean ====
import proofs.«110491_j38809324487019_2_alg».proof.Proof.Ref.StageDefs
import proofs.«110491_j38809324487019_2_alg».proof.Proof.Ref.ReadLit
import Idealize.ShloMosaic.Lib.Pipeline.Value

noncomputable section

namespace Cert.ReferenceIdeal.Hand

open Cert.ReferenceIdeal Cert.ReferenceIdeal.Gen Idealize.ShloMosaic Idealize.ShloMosaic.ValueIdx Idealize.SL.Sem

/-! The reference's stage functions over the 800000 edges, read at an entry on the extended reals: each linear layer as the plain program's sum-then-bias, the column means and variances in their two-pass forms, and the normalised rectified entry. -/

/-! The dot `dot_S800000x256_S256x128_S800000x128_1_0_0_1_n_n`: its operand indices at an output index and a contraction index, coordinate by coordinate. -/
theorem lhs_y1_0 (i : S800000x128.Idx) (q : dot_S800000x256_S256x128_S800000x128_1_0_0_1_n_n.contr.Idx) : (dot_S800000x256_S256x128_S800000x128_1_0_0_1_n_n.lhsIdx i q 0).val = (i 0).val := by
  unfold DotDims.lhsIdx
  rw [dif_neg (show ¬(0 : Fin S800000x256.rank) ∈ dot_S800000x256_S256x128_S800000x128_1_0_0_1_n_n.lhsBatch by decide), dif_pos (show (0 : Fin S800000x256.rank) ∈ dot_S800000x256_S256x128_S800000x128_1_0_0_1_n_n.lhsNonContracting by decide)]
  rfl
theorem lhs_y1_1 (i : S800000x128.Idx) (q : dot_S800000x256_S256x128_S800000x128_1_0_0_1_n_n.contr.Idx) : (dot_S800000x256_S256x128_S800000x128_1_0_0_1_n_n.lhsIdx i q 1).val = (q ⟨0, by decide⟩).val :=
  dot_S800000x256_S256x128_S800000x128_1_0_0_1_n_n.lhsIdx_val_of_single rfl i q
theorem rhs_y1_0 (i : S800000x128.Idx) (q : dot_S800000x256_S256x128_S800000x128_1_0_0_1_n_n.contr.Idx) : (dot_S800000x256_S256x128_S800000x128_1_0_0_1_n_n.rhsIdx i q 0).val = (q ⟨0, by decide⟩).val :=
  dot_S800000x256_S256x128_S800000x128_1_0_0_1_n_n.rhsIdx_val_of_single rfl i q
theorem rhs_y1_1 (i : S800000x128.Idx) (q : dot_S800000x256_S256x128_S800000x128_1_0_0_1_n_n.contr.Idx) : (dot_S800000x256_S256x128_S800000x128_1_0_0_1_n_n.rhsIdx i q 1).val = (i 1).val := by
  unfold DotDims.rhsIdx
  rw [dif_neg (show ¬(1 : Fin S256x128.rank) ∈ dot_S800000x256_S256x128_S800000x128_1_0_0_1_n_n.rhsBatch by decide), dif_pos (show (1 : Fin S256x128.rank) ∈ dot_S800000x256_S256x128_S800000x128_1_0_0_1_n_n.rhsNonContracting by decide)]
  rfl

/-- The host product at an entry: the sum over the 256 contracted columns of the row's entries times the column's. -/
theorem dot_y1_apply (h : FVec Ideal S800000x256 .f32) (w : FVec Ideal S256x128 .f32) (e : Fin 800000) (j : Fin 128) :
    Host.dotGeneral (F := Ideal) dot_S800000x256_S256x128_S800000x128_1_0_0_1_n_n none h w (ix2 e j) = ∑ k : Fin 256, h (ix2 e k) * w (ix2 k j) := by
  simp only [Host.dotGeneral]
  rw [Ideal.dotGeneral_apply, ← Equiv.sum_comp (contrEquiv1 dot_S800000x256_S256x128_S800000x128_1_0_0_1_n_n 256 rfl rfl).symm]
  refine Finset.sum_congr rfl fun k _ => ?_
  have hk := contrEquiv1_symm_val dot_S800000x256_S256x128_S800000x128_1_0_0_1_n_n 256 rfl rfl k
  have el : dot_S800000x256_S256x128_S800000x128_1_0_0_1_n_n.lhsIdx (ix2 e j) ((contrEquiv1 dot_S800000x256_S256x128_S800000x128_1_0_0_1_n_n 256 rfl rfl).symm k) = ix2 e k := funext fun a => Fin.ext (by
    match a with
    | ⟨0, _⟩ => exact lhs_y1_0 _ _
    | ⟨1, _⟩ => exact (lhs_y1_1 _ _).trans hk)
  have er : dot_S800000x256_S256x128_S800000x128_1_0_0_1_n_n.rhsIdx (ix2 e j) ((contrEquiv1 dot_S800000x256_S256x128_S800000x128_1_0_0_1_n_n 256 rfl rfl).symm k) = ix2 k j := funext fun a => Fin.ext (by
    match a with
    | ⟨0, _⟩ => exact (rhs_y1_0 _ _).trans hk
    | ⟨1, _⟩ => exact rhs_y1_1 _ _)
  rw [el, er]

/-! The dot `dot_S800000x128_S128x128_S800000x128_1_0_0_1_n_n`: its operand indices at an output index and a contraction index, coordinate by coordinate. -/
theorem lhs_y2_0 (i : S800000x128.Idx) (q : dot_S800000x128_S128x128_S800000x128_1_0_0_1_n_n.contr.Idx) : (dot_S800000x128_S128x128_S800000x128_1_0_0_1_n_n.lhsIdx i q 0).val = (i 0).val := by
  unfold DotDims.lhsIdx
  rw [dif_neg (show ¬(0 : Fin S800000x128.rank) ∈ dot_S800000x128_S128x128_S800000x128_1_0_0_1_n_n.lhsBatch by decide), dif_pos (show (0 : Fin S800000x128.rank) ∈ dot_S800000x128_S128x128_S800000x128_1_0_0_1_n_n.lhsNonContracting by decide)]
  rfl
theorem lhs_y2_1 (i : S800000x128.Idx) (q : dot_S800000x128_S128x128_S800000x128_1_0_0_1_n_n.contr.Idx) : (dot_S800000x128_S128x128_S800000x128_1_0_0_1_n_n.lhsIdx i q 1).val = (q ⟨0, by decide⟩).val :=
  dot_S800000x128_S128x128_S800000x128_1_0_0_1_n_n.lhsIdx_val_of_single rfl i q
theorem rhs_y2_0 (i : S800000x128.Idx) (q : dot_S800000x128_S128x128_S800000x128_1_0_0_1_n_n.contr.Idx) : (dot_S800000x128_S128x128_S800000x128_1_0_0_1_n_n.rhsIdx i q 0).val = (q ⟨0, by decide⟩).val :=
  dot_S800000x128_S128x128_S800000x128_1_0_0_1_n_n.rhsIdx_val_of_single rfl i q
theorem rhs_y2_1 (i : S800000x128.Idx) (q : dot_S800000x128_S128x128_S800000x128_1_0_0_1_n_n.contr.Idx) : (dot_S800000x128_S128x128_S800000x128_1_0_0_1_n_n.rhsIdx i q 1).val = (i 1).val := by
  unfold DotDims.rhsIdx
  rw [dif_neg (show ¬(1 : Fin S128x128.rank) ∈ dot_S800000x128_S128x128_S800000x128_1_0_0_1_n_n.rhsBatch by decide), dif_pos (show (1 : Fin S128x128.rank) ∈ dot_S800000x128_S128x128_S800000x128_1_0_0_1_n_n.rhsNonContracting by decide)]
  rfl

/-- The host product at an entry: the sum over the 128 contracted columns of the row's entries times the column's. -/
theorem dot_y2_apply (h : FVec Ideal S800000x128 .f32) (w : FVec Ideal S128x128 .f32) (e : Fin 800000) (j : Fin 128) :
    Host.dotGeneral (F := Ideal) dot_S800000x128_S128x128_S800000x128_1_0_0_1_n_n none h w (ix2 e j) = ∑ k : Fin 128, h (ix2 e k) * w (ix2 k j) := by
  simp only [Host.dotGeneral]
  rw [Ideal.dotGeneral_apply, ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  have el : dot_S800000x128_S128x128_S800000x128_1_0_0_1_n_n.lhsIdx (ix2 e j) ((contrEquiv1 dot_S800000x128_S128x128_S800000x128_1_0_0_1_n_n 128 rfl rfl).symm k) = ix2 e k := funext fun a => Fin.ext (by
    match a with
    | ⟨0, _⟩ => exact lhs_y2_0 _ _
    | ⟨1, _⟩ => exact (lhs_y2_1 _ _).trans hk)
  have er : dot_S800000x128_S128x128_S800000x128_1_0_0_1_n_n.rhsIdx (ix2 e j) ((contrEquiv1 dot_S800000x128_S128x128_S800000x128_1_0_0_1_n_n 128 rfl rfl).symm k) = ix2 k j := funext fun a => Fin.ext (by
    match a with
    | ⟨0, _⟩ => exact (rhs_y2_0 _ _).trans hk
    | ⟨1, _⟩ => exact rhs_y2_1 _ _)
  rw [el, er]

/-! ### The 800000-row functions at an entry -/

theorem rowsE_apply (v : (⟨S128, .f32⟩ : BufTy).Contents (Elt Ideal)) (e : Fin 800000) (j : Fin 128) :
    rowsE (F := Ideal) v (ix2 e j) = v (ix1 j) := by
  unfold rowsE
  rw [broadcastInDim_apply _ _ _ (ix2 e j) (ix2 (0 : Fin 1) j) (fun a => by match a with | ⟨0, _⟩ => rfl | ⟨1, _⟩ => rfl)]
  exact broadcastInDim_apply _ _ _ (ix2 (0 : Fin 1) j) (ix1 j) (fun a => by match a with | ⟨0, _⟩ => rfl)

/-- The host's column sum, started from the zero pattern. -/
theorem colsumE_apply (y : (⟨S800000x128, .f32⟩ : BufTy).Contents (Elt Ideal)) (j : Fin 128) :
    Host.reduceAdd y (constant (F := Ideal) S_ .f32 0x00000000#32) reducesTo_S800000x128_S128_d0 h_S_ (ix1 j)
      = Spec.z0 + ∑ e : Fin 800000, y (ix2 e j) := by
  rw [hostReduceAdd_apply, Ideal.hostReduceAdd_single reducesTo_S800000x128_S128_d0 (by decide)]
  refine congrArg₂ (· + ·) rfl (Finset.sum_congr rfl fun k _ => ?_)
  exact congrArg y (funext fun a => Fin.ext (by match a with | ⟨0, _⟩ => rfl | ⟨1, _⟩ => rfl))

theorem meanE_apply (y : (⟨S800000x128, .f32⟩ : BufTy).Contents (Elt Ideal)) (j : Fin 128) :
    meanE (F := Ideal) y (ix1 j) = Spec.meanR (Ideal.ofBits .f32 0x49435000#32) (fun e j => y (ix2 e j)) j := by
  unfold meanE Spec.meanR
  rw [hostDivf_apply, colsumE_apply, broadcastInDim_scalar_apply]
  rfl

/-- The corrected count is the row count: the correction is the integer zero. -/
theorem dofE_apply : dofE (F := Ideal) ix0 = Ideal.ofBits .f32 0x49435000#32 := by
  unfold dofE
  rw [subf_apply, sitofp_apply, constant_apply]
  show Ideal.ofBits .f32 _ - FloatOps.sitofp (F := Ideal) .f32 (0#32 : BitVec 32) = _
  rw [Cert.LibStats.sitofp_zero_f32]
  exact sub_zero _

theorem devE_apply (y : (⟨S800000x128, .f32⟩ : BufTy).Contents (Elt Ideal)) (e : Fin 800000) (j : Fin 128) :
    devE (F := Ideal) y (ix2 e j) = y (ix2 e j) - Spec.meanR (Ideal.ofBits .f32 0x49435000#32) (fun e j => y (ix2 e j)) j := by
  unfold devE Spec.meanR
  rw [subf_apply, broadcastInDim_apply _ _ _ (ix2 e j) (ix2 (0 : Fin 1) j) (fun a => by match a with | ⟨0, _⟩ => rfl | ⟨1, _⟩ => rfl),
    hostDivf_apply, broadcastInDim_apply _ _ _ (ix2 (0 : Fin 1) j) (ix1 j) (fun a => by match a with | ⟨0, _⟩ => rfl),
    colsumE_apply, broadcastInDim_scalar_apply]
  rfl

/-- The row count 800000 is positive. -/
theorem nE_pos : (0 : EReal) < Ideal.ofBits .f32 0x49435000#32 := by
  rw [ofBits_800000]; exact EReal.coe_pos.mpr (by norm_num)

/-- The column variance at an entry: the variance function's guard holds (the corrected count is the positive row
    count), so the quotient is chosen. -/
theorem varE_apply (y : (⟨S800000x128, .f32⟩ : BufTy).Contents (Elt Ideal)) (j : Fin 128) :
    varE (F := Ideal) y (ix1 j) = Spec.varR (Ideal.ofBits .f32 0x49435000#32) (fun e j => y (ix2 e j)) j := by
  have hc : broadcastInDim S128 ![] bcast_S_S128 (cmpf (F := Ideal) .ogt (dofE (F := Ideal)) (constant S_ .f32 0x00000000#32)) (ix1 j) = 1#1 := by
    rw [broadcastInDim_scalar_apply, cmpf_apply, dofE_apply, constant_apply, Ideal.ofBits_zero_f32, Ideal.cmpf_def]
    show BitVec.ofBool (decide ((0 : EReal) < Ideal.ofBits .f32 0x49435000#32)) = 1#1
    rw [decide_eq_true nE_pos]; rfl
  unfold varE Spec.varR
  rw [select_apply, hc, select_one, hostDivf_apply, colsumE_apply, broadcastInDim_scalar_apply, dofE_apply]
  refine congrArg₂ Ideal.div (congrArg₂ (· + ·) rfl (Finset.sum_congr rfl fun e _ => ?_)) rfl
  rw [mulf_apply, devE_apply]

/-- The normalised, scaled, shifted and rectified entry. -/
theorem bnReluE_apply (y : (⟨S800000x128, .f32⟩ : BufTy).Contents (Elt Ideal)) (m v g be : (⟨S128, .f32⟩ : BufTy).Contents (Elt Ideal)) (e : Fin 800000) (j : Fin 128) :
    bnReluE (F := Ideal) y m v g be (ix2 e j)
      = Spec.bnrelu (y (ix2 e j)) (m (ix1 j)) (v (ix1 j)) (g (ix1 j)) (be (ix1 j)) := by
  unfold bnReluE Spec.bnrelu Spec.eps Spec.z0
  rw [maximumf_apply, addf_apply, mulf_apply, mulf_apply, subf_apply, rowsE_apply, rowsE_apply, rowsE_apply, rowsE_apply,
    broadcastInDim_scalar_apply]
  rfl

/-- The linear layer at an entry: the plain program's arrangement, the product over all 256 input columns, then the bias. -/
theorem lin1_apply (h : (⟨S800000x256, .f32⟩ : BufTy).Contents (Elt Ideal)) (w : (⟨S256x128, .f32⟩ : BufTy).Contents (Elt Ideal)) (b : (⟨S128, .f32⟩ : BufTy).Contents (Elt Ideal)) (e : Fin 800000) (j : Fin 128) :
    lin1 (F := Ideal) h w b (ix2 e j)
      = Spec.linR (fun e k => h (ix2 e k)) (fun k j => w (ix2 k j)) (fun j => b (ix1 j)) e j := by
  unfold lin1 Spec.linR
  rw [addf_apply, rowsE_apply, dot_y1_apply]

/-- The linear layer at an entry: the plain program's arrangement, the product over all 128 input columns, then the bias. -/
theorem lin2_apply (h : (⟨S800000x128, .f32⟩ : BufTy).Contents (Elt Ideal)) (w : (⟨S128x128, .f32⟩ : BufTy).Contents (Elt Ideal)) (b : (⟨S128, .f32⟩ : BufTy).Contents (Elt Ideal)) (e : Fin 800000) (j : Fin 128) :
    lin2 (F := Ideal) h w b (ix2 e j)
      = Spec.linR (fun e k => h (ix2 e k)) (fun k j => w (ix2 k j)) (fun j => b (ix1 j)) e j := by
  unfold lin2 Spec.linR
  rw [addf_apply, rowsE_apply, dot_y2_apply]

end Cert.ReferenceIdeal.Hand

end
-- ==== Proof.Ref.ReadN.lean ====
import proofs.«110491_j38809324487019_2_alg».proof.Proof.Ref.StageDefs
import proofs.«110491_j38809324487019_2_alg».proof.Proof.Ref.ReadLit
import Idealize.ShloMosaic.Lib.Pipeline.Value

noncomputable section

namespace Cert.ReferenceIdeal.Hand

open Cert.ReferenceIdeal Cert.ReferenceIdeal.Gen Idealize.ShloMosaic Idealize.ShloMosaic.ValueIdx Idealize.SL.Sem

/-! The reference's stage functions over the 50000 nodes, read at an entry on the extended reals: each linear layer as the plain program's sum-then-bias, the column means and variances in their two-pass forms, and the normalised rectified entry. -/

/-! The dot `dot_S50000x256_S256x128_S50000x128_1_0_0_1_n_n`: its operand indices at an output index and a contraction index, coordinate by coordinate. -/
theorem lhs_y3_0 (i : S50000x128.Idx) (q : dot_S50000x256_S256x128_S50000x128_1_0_0_1_n_n.contr.Idx) : (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem lhs_y3_1 (i : S50000x128.Idx) (q : dot_S50000x256_S256x128_S50000x128_1_0_0_1_n_n.contr.Idx) : (dot_S50000x256_S256x128_S50000x128_1_0_0_1_n_n.lhsIdx i q 1).val = (q ⟨0, by decide⟩).val :=
  dot_S50000x256_S256x128_S50000x128_1_0_0_1_n_n.lhsIdx_val_of_single rfl i q
theorem rhs_y3_0 (i : S50000x128.Idx) (q : dot_S50000x256_S256x128_S50000x128_1_0_0_1_n_n.contr.Idx) : (dot_S50000x256_S256x128_S50000x128_1_0_0_1_n_n.rhsIdx i q 0).val = (q ⟨0, by decide⟩).val :=
  dot_S50000x256_S256x128_S50000x128_1_0_0_1_n_n.rhsIdx_val_of_single rfl i q
theorem rhs_y3_1 (i : S50000x128.Idx) (q : dot_S50000x256_S256x128_S50000x128_1_0_0_1_n_n.contr.Idx) : (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- The host product at an entry: the sum over the 256 contracted columns of the row's entries times the column's. -/
theorem dot_y3_apply (h : FVec Ideal S50000x256 .f32) (w : FVec Ideal S256x128 .f32) (e : Fin 50000) (j : Fin 128) :
    Host.dotGeneral (F := Ideal) dot_S50000x256_S256x128_S50000x128_1_0_0_1_n_n none h w (ix2 e j) = ∑ k : Fin 256, h (ix2 e k) * w (ix2 k j) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 e j) ((contrEquiv1 dot_S50000x256_S256x128_S50000x128_1_0_0_1_n_n 256 rfl rfl).symm k) = ix2 e k := funext fun a => Fin.ext (by
    match a with
    | ⟨0, _⟩ => exact lhs_y3_0 _ _
    | ⟨1, _⟩ => exact (lhs_y3_1 _ _).trans hk)
  have er : dot_S50000x256_S256x128_S50000x128_1_0_0_1_n_n.rhsIdx (ix2 e j) ((contrEquiv1 dot_S50000x256_S256x128_S50000x128_1_0_0_1_n_n 256 rfl rfl).symm k) = ix2 k j := funext fun a => Fin.ext (by
    match a with
    | ⟨0, _⟩ => exact (rhs_y3_0 _ _).trans hk
    | ⟨1, _⟩ => exact rhs_y3_1 _ _)
  rw [el, er]

/-! The dot `dot_S50000x128_S128x128_S50000x128_1_0_0_1_n_n`: its operand indices at an output index and a contraction index, coordinate by coordinate. -/
theorem lhs_y4_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_y4_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhs_y4_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhs_y4_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host product at an entry: the sum over the 128 contracted columns of the row's entries times the column's. -/
theorem dot_y4_apply (h : FVec Ideal S50000x128 .f32) (w : FVec Ideal S128x128 .f32) (e : Fin 50000) (j : Fin 128) :
    Host.dotGeneral (F := Ideal) dot_S50000x128_S128x128_S50000x128_1_0_0_1_n_n none h w (ix2 e j) = ∑ k : Fin 128, h (ix2 e k) * w (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 e j) ((contrEquiv1 dot_S50000x128_S128x128_S50000x128_1_0_0_1_n_n 128 rfl rfl).symm k) = ix2 e k := funext fun a => Fin.ext (by
    match a with
    | ⟨0, _⟩ => exact lhs_y4_0 _ _
    | ⟨1, _⟩ => exact (lhs_y4_1 _ _).trans hk)
  have er : dot_S50000x128_S128x128_S50000x128_1_0_0_1_n_n.rhsIdx (ix2 e j) ((contrEquiv1 dot_S50000x128_S128x128_S50000x128_1_0_0_1_n_n 128 rfl rfl).symm k) = ix2 k j := funext fun a => Fin.ext (by
    match a with
    | ⟨0, _⟩ => exact (rhs_y4_0 _ _).trans hk
    | ⟨1, _⟩ => exact rhs_y4_1 _ _)
  rw [el, er]

/-! ### The 50000-row functions at an entry -/

theorem rowsN_apply (v : (⟨S128, .f32⟩ : BufTy).Contents (Elt Ideal)) (e : Fin 50000) (j : Fin 128) :
    rowsN (F := Ideal) v (ix2 e j) = v (ix1 j) := by
  unfold rowsN
  rw [broadcastInDim_apply _ _ _ (ix2 e j) (ix2 (0 : Fin 1) j) (fun a => by match a with | ⟨0, _⟩ => rfl | ⟨1, _⟩ => rfl)]
  exact broadcastInDim_apply _ _ _ (ix2 (0 : Fin 1) j) (ix1 j) (fun a => by match a with | ⟨0, _⟩ => rfl)

/-- The host's column sum, started from the zero pattern. -/
theorem colsumN_apply (y : (⟨S50000x128, .f32⟩ : BufTy).Contents (Elt Ideal)) (j : Fin 128) :
    Host.reduceAdd y (constant (F := Ideal) S_ .f32 0x00000000#32) reducesTo_S50000x128_S128_d0 h_S_ (ix1 j)
      = Spec.z0 + ∑ e : Fin 50000, y (ix2 e j) := by
  rw [hostReduceAdd_apply, Ideal.hostReduceAdd_single reducesTo_S50000x128_S128_d0 (by decide)]
  refine congrArg₂ (· + ·) rfl (Finset.sum_congr rfl fun k _ => ?_)
  exact congrArg y (funext fun a => Fin.ext (by match a with | ⟨0, _⟩ => rfl | ⟨1, _⟩ => rfl))

theorem meanN_apply (y : (⟨S50000x128, .f32⟩ : BufTy).Contents (Elt Ideal)) (j : Fin 128) :
    meanN (F := Ideal) y (ix1 j) = Spec.meanR (Ideal.ofBits .f32 0x47435000#32) (fun e j => y (ix2 e j)) j := by
  unfold meanN Spec.meanR
  rw [hostDivf_apply, colsumN_apply, broadcastInDim_scalar_apply]
  rfl

/-- The corrected count is the row count: the correction is the integer zero. -/
theorem dofN_apply : dofN (F := Ideal) ix0 = Ideal.ofBits .f32 0x47435000#32 := by
  unfold dofN
  rw [subf_apply, sitofp_apply, constant_apply]
  show Ideal.ofBits .f32 _ - FloatOps.sitofp (F := Ideal) .f32 (0#32 : BitVec 32) = _
  rw [Cert.LibStats.sitofp_zero_f32]
  exact sub_zero _

theorem devN_apply (y : (⟨S50000x128, .f32⟩ : BufTy).Contents (Elt Ideal)) (e : Fin 50000) (j : Fin 128) :
    devN (F := Ideal) y (ix2 e j) = y (ix2 e j) - Spec.meanR (Ideal.ofBits .f32 0x47435000#32) (fun e j => y (ix2 e j)) j := by
  unfold devN Spec.meanR
  rw [subf_apply, broadcastInDim_apply _ _ _ (ix2 e j) (ix2 (0 : Fin 1) j) (fun a => by match a with | ⟨0, _⟩ => rfl | ⟨1, _⟩ => rfl),
    hostDivf_apply, broadcastInDim_apply _ _ _ (ix2 (0 : Fin 1) j) (ix1 j) (fun a => by match a with | ⟨0, _⟩ => rfl),
    colsumN_apply, broadcastInDim_scalar_apply]
  rfl

/-- The row count 50000 is positive. -/
theorem nN_pos : (0 : EReal) < Ideal.ofBits .f32 0x47435000#32 := by
  rw [ofBits_50000]; exact EReal.coe_pos.mpr (by norm_num)

/-- The column variance at an entry: the variance function's guard holds (the corrected count is the positive row
    count), so the quotient is chosen. -/
theorem varN_apply (y : (⟨S50000x128, .f32⟩ : BufTy).Contents (Elt Ideal)) (j : Fin 128) :
    varN (F := Ideal) y (ix1 j) = Spec.varR (Ideal.ofBits .f32 0x47435000#32) (fun e j => y (ix2 e j)) j := by
  have hc : broadcastInDim S128 ![] bcast_S_S128 (cmpf (F := Ideal) .ogt (dofN (F := Ideal)) (constant S_ .f32 0x00000000#32)) (ix1 j) = 1#1 := by
    rw [broadcastInDim_scalar_apply, cmpf_apply, dofN_apply, constant_apply, Ideal.ofBits_zero_f32, Ideal.cmpf_def]
    show BitVec.ofBool (decide ((0 : EReal) < Ideal.ofBits .f32 0x47435000#32)) = 1#1
    rw [decide_eq_true nN_pos]; rfl
  unfold varN Spec.varR
  rw [select_apply, hc, select_one, hostDivf_apply, colsumN_apply, broadcastInDim_scalar_apply, dofN_apply]
  refine congrArg₂ Ideal.div (congrArg₂ (· + ·) rfl (Finset.sum_congr rfl fun e _ => ?_)) rfl
  rw [mulf_apply, devN_apply]

/-- The normalised, scaled, shifted and rectified entry. -/
theorem bnReluN_apply (y : (⟨S50000x128, .f32⟩ : BufTy).Contents (Elt Ideal)) (m v g be : (⟨S128, .f32⟩ : BufTy).Contents (Elt Ideal)) (e : Fin 50000) (j : Fin 128) :
    bnReluN (F := Ideal) y m v g be (ix2 e j)
      = Spec.bnrelu (y (ix2 e j)) (m (ix1 j)) (v (ix1 j)) (g (ix1 j)) (be (ix1 j)) := by
  unfold bnReluN Spec.bnrelu Spec.eps Spec.z0
  rw [maximumf_apply, addf_apply, mulf_apply, mulf_apply, subf_apply, rowsN_apply, rowsN_apply, rowsN_apply, rowsN_apply,
    broadcastInDim_scalar_apply]
  rfl

/-- The linear layer at an entry: the plain program's arrangement, the product over all 256 input columns, then the bias. -/
theorem lin3_apply (h : (⟨S50000x256, .f32⟩ : BufTy).Contents (Elt Ideal)) (w : (⟨S256x128, .f32⟩ : BufTy).Contents (Elt Ideal)) (b : (⟨S128, .f32⟩ : BufTy).Contents (Elt Ideal)) (e : Fin 50000) (j : Fin 128) :
    lin3 (F := Ideal) h w b (ix2 e j)
      = Spec.linR (fun e k => h (ix2 e k)) (fun k j => w (ix2 k j)) (fun j => b (ix1 j)) e j := by
  unfold lin3 Spec.linR
  rw [addf_apply, rowsN_apply, dot_y3_apply]

/-- The linear layer at an entry: the plain program's arrangement, the product over all 128 input columns, then the bias. -/
theorem lin4_apply (h : (⟨S50000x128, .f32⟩ : BufTy).Contents (Elt Ideal)) (w : (⟨S128x128, .f32⟩ : BufTy).Contents (Elt Ideal)) (b : (⟨S128, .f32⟩ : BufTy).Contents (Elt Ideal)) (e : Fin 50000) (j : Fin 128) :
    lin4 (F := Ideal) h w b (ix2 e j)
      = Spec.linR (fun e k => h (ix2 e k)) (fun k j => w (ix2 k j)) (fun j => b (ix1 j)) e j := by
  unfold lin4 Spec.linR
  rw [addf_apply, rowsN_apply, dot_y4_apply]

end Cert.ReferenceIdeal.Hand

end
-- ==== Proof.Bridge.Layer.lean ====
import proofs.«110491_j38809324487019_2_alg».proof.Proof.StageLaw
import proofs.«110491_j38809324487019_2_alg».proof.Proof.Ref.ReadE
import proofs.«110491_j38809324487019_2_alg».proof.Proof.Ref.ReadN

noncomputable section

namespace Cert.Bridge

open Idealize.ShloMosaic Idealize.ShloMosaic.ValueIdx Cert.LibStats
open Cert.ReferenceIdeal Cert.ReferenceIdeal.Gen Cert.ReferenceIdeal.Hand

/-! One fused stage over two inputs side by side, the plain program against the kernels' arrangement, for either row
    count: the plain program multiplies the 256-column table by the whole weight matrix and adds the bias; the kernels
    add to the bias the two half products. -/

/-- The kernels' pre-activation table over the two half tables and the two halves of the weight matrix. -/
def yK2 {R : ℕ} (X1 X2 : Fin R → Fin 128 → EReal) (W : FVec Ideal S256x128 .f32) (B : FVec Ideal S128 .f32) :
    Fin R → Fin 128 → EReal := fun e j =>
  Spec.lin2 X1 X2 (fun k j => W (ix2 (Fin.castAdd 128 k) j)) (fun k j => W (ix2 (Fin.natAdd 128 k) j)) (fun j => B (ix1 j)) e j

/-- It is real when its inputs are. -/
theorem yK2_real {R : ℕ} (X1 X2 : Fin R → Fin 128 → EReal) (W : FVec Ideal S256x128 .f32) (B : FVec Ideal S128 .f32)
    (hX1 : ∀ e k, IsReal (X1 e k)) (hX2 : ∀ e k, IsReal (X2 e k)) (hW : ∀ i, IsReal (W i)) (hB : ∀ i, IsReal (B i))
    (e : Fin R) (j : Fin 128) : IsReal (yK2 X1 X2 W B e j) :=
  Spec.isReal_lin2 _ _ _ _ _ hX1 hX2 (fun _ _ => hW _) (fun _ _ => hW _) (fun _ => hB _) e j

/-- The layerE2 fused stage over a side-by-side input table: the plain program's normalised, rectified linear layer at an
    entry is the kernels' arrangement of it over the two halves — the two pre-activation tables agree entry by entry and
    are real, so the two-pass statistics are the one-pass ones. -/
theorem layerE2_eq (H : FVec Ideal S800000x256 .f32) (W : FVec Ideal S256x128 .f32) (B G Be : FVec Ideal S128 .f32)
    (X1 X2 : Fin 800000 → Fin 128 → EReal)
    (hHl : ∀ e (k : Fin 128), H (ix2 e (Fin.castAdd 128 k)) = X1 e k)
    (hHr : ∀ e (k : Fin 128), H (ix2 e (Fin.natAdd 128 k)) = X2 e k)
    (hX1 : ∀ e k, IsReal (X1 e k)) (hX2 : ∀ e k, IsReal (X2 e k)) (hW : ∀ i, IsReal (W i)) (hB : ∀ i, IsReal (B i))
    (e : Fin 800000) (j : Fin 128) :
    bnReluE (F := Ideal) (lin1 H W B) (meanE (lin1 H W B)) (varE (lin1 H W B)) G Be (ix2 e j)
      = Spec.bnrelu (yK2 X1 X2 W B e j) (Spec.meanK (((1 / 800000 : ℝ) : ℝ) : EReal) (yK2 X1 X2 W B) j)
          (Spec.varK (((1 / 800000 : ℝ) : ℝ) : EReal) (yK2 X1 X2 W B) j) (G (ix1 j)) (Be (ix1 j)) := by
  rw [bnReluE_apply, meanE_apply, varE_apply, ofBits_800000]
  have hy : ∀ e j, (fun e j => lin1 (F := Ideal) H W B (ix2 e j)) e j = yK2 X1 X2 W B e j := fun e j => by
    show lin1 (F := Ideal) H W B (ix2 e j) = _
    rw [lin1_apply]
    exact Spec.linR_eq_lin2 _ _ _ X1 X2 _ _ hHl hHr (fun _ _ => rfl) (fun _ _ => rfl) e j
  exact Spec.stage_eq 800000 (by norm_num) (by norm_num) (yK2 X1 X2 W B) (fun e j => lin1 (F := Ideal) H W B (ix2 e j)) hy
    (yK2_real X1 X2 W B hX1 hX2 hW hB) _ _ e j

/-- … and that entry is a real number. -/
theorem layerE2_real (H : FVec Ideal S800000x256 .f32) (W : FVec Ideal S256x128 .f32) (B G Be : FVec Ideal S128 .f32)
    (X1 X2 : Fin 800000 → Fin 128 → EReal)
    (hHl : ∀ e (k : Fin 128), H (ix2 e (Fin.castAdd 128 k)) = X1 e k)
    (hHr : ∀ e (k : Fin 128), H (ix2 e (Fin.natAdd 128 k)) = X2 e k)
    (hX1 : ∀ e k, IsReal (X1 e k)) (hX2 : ∀ e k, IsReal (X2 e k)) (hW : ∀ i, IsReal (W i)) (hB : ∀ i, IsReal (B i))
    (hG : ∀ i, IsReal (G i)) (hBe : ∀ i, IsReal (Be i)) (e : Fin 800000) (j : Fin 128) :
    IsReal (bnReluE (F := Ideal) (lin1 H W B) (meanE (lin1 H W B)) (varE (lin1 H W B)) G Be (ix2 e j)) := by
  rw [layerE2_eq H W B G Be X1 X2 hHl hHr hX1 hX2 hW hB e j]
  have hr := yK2_real X1 X2 W B hX1 hX2 hW hB
  exact Spec.isReal_bnrelu (hr e j) (Spec.isReal_meanK _ _ j fun e => hr e j) (Spec.isReal_varK _ _ j fun e => hr e j)
    (Spec.varK_nonneg _ _ j) (hG _) (hBe _)

/-- The layerN2 fused stage over a side-by-side input table: the plain program's normalised, rectified linear layer at an
    entry is the kernels' arrangement of it over the two halves — the two pre-activation tables agree entry by entry and
    are real, so the two-pass statistics are the one-pass ones. -/
theorem layerN2_eq (H : FVec Ideal S50000x256 .f32) (W : FVec Ideal S256x128 .f32) (B G Be : FVec Ideal S128 .f32)
    (X1 X2 : Fin 50000 → Fin 128 → EReal)
    (hHl : ∀ e (k : Fin 128), H (ix2 e (Fin.castAdd 128 k)) = X1 e k)
    (hHr : ∀ e (k : Fin 128), H (ix2 e (Fin.natAdd 128 k)) = X2 e k)
    (hX1 : ∀ e k, IsReal (X1 e k)) (hX2 : ∀ e k, IsReal (X2 e k)) (hW : ∀ i, IsReal (W i)) (hB : ∀ i, IsReal (B i))
    (e : Fin 50000) (j : Fin 128) :
    bnReluN (F := Ideal) (lin3 H W B) (meanN (lin3 H W B)) (varN (lin3 H W B)) G Be (ix2 e j)
      = Spec.bnrelu (yK2 X1 X2 W B e j) (Spec.meanK (((1 / 50000 : ℝ) : ℝ) : EReal) (yK2 X1 X2 W B) j)
          (Spec.varK (((1 / 50000 : ℝ) : ℝ) : EReal) (yK2 X1 X2 W B) j) (G (ix1 j)) (Be (ix1 j)) := by
  rw [bnReluN_apply, meanN_apply, varN_apply, ofBits_50000]
  have hy : ∀ e j, (fun e j => lin3 (F := Ideal) H W B (ix2 e j)) e j = yK2 X1 X2 W B e j := fun e j => by
    show lin3 (F := Ideal) H W B (ix2 e j) = _
    rw [lin3_apply]
    exact Spec.linR_eq_lin2 _ _ _ X1 X2 _ _ hHl hHr (fun _ _ => rfl) (fun _ _ => rfl) e j
  exact Spec.stage_eq 50000 (by norm_num) (by norm_num) (yK2 X1 X2 W B) (fun e j => lin3 (F := Ideal) H W B (ix2 e j)) hy
    (yK2_real X1 X2 W B hX1 hX2 hW hB) _ _ e j

/-- … and that entry is a real number. -/
theorem layerN2_real (H : FVec Ideal S50000x256 .f32) (W : FVec Ideal S256x128 .f32) (B G Be : FVec Ideal S128 .f32)
    (X1 X2 : Fin 50000 → Fin 128 → EReal)
    (hHl : ∀ e (k : Fin 128), H (ix2 e (Fin.castAdd 128 k)) = X1 e k)
    (hHr : ∀ e (k : Fin 128), H (ix2 e (Fin.natAdd 128 k)) = X2 e k)
    (hX1 : ∀ e k, IsReal (X1 e k)) (hX2 : ∀ e k, IsReal (X2 e k)) (hW : ∀ i, IsReal (W i)) (hB : ∀ i, IsReal (B i))
    (hG : ∀ i, IsReal (G i)) (hBe : ∀ i, IsReal (Be i)) (e : Fin 50000) (j : Fin 128) :
    IsReal (bnReluN (F := Ideal) (lin3 H W B) (meanN (lin3 H W B)) (varN (lin3 H W B)) G Be (ix2 e j)) := by
  rw [layerN2_eq H W B G Be X1 X2 hHl hHr hX1 hX2 hW hB e j]
  have hr := yK2_real X1 X2 W B hX1 hX2 hW hB
  exact Spec.isReal_bnrelu (hr e j) (Spec.isReal_meanK _ _ j fun e => hr e j) (Spec.isReal_varK _ _ j fun e => hr e j)
    (Spec.varK_nonneg _ _ j) (hG _) (hBe _)

end Cert.Bridge

end
-- ==== Proof.Bridge.Congr.lean ====
import proofs.«110491_j38809324487019_2_alg».proof.Proof.Spec

/-! Equal tables give equal linear-layer entries and equal one-pass column statistics. -/

noncomputable section

namespace Cert.Bridge

/-- Equal tables, equal linear-layer entries. -/
theorem lin1_congr {R : ℕ} {x x' : Fin R → Fin 128 → EReal} {w w' : Fin 128 → Fin 128 → EReal} {b b' : Fin 128 → EReal}
    (hx : ∀ e k, x e k = x' e k) (hw : ∀ k j, w k j = w' k j) (hb : ∀ j, b j = b' j) (e : Fin R) (j : Fin 128) :
    Spec.lin1 x w b e j = Spec.lin1 x' w' b' e j := by
  have e1 : x = x' := funext fun e => funext fun k => hx e k
  have e2 : w = w' := funext fun k => funext fun j => hw k j
  have e3 : b = b' := funext hb
  rw [e1, e2, e3]

/-- Equal tables, equal one-pass column means. -/
theorem meanK_congr {R : ℕ} (r : EReal) {y y' : Fin R → Fin 128 → EReal} (hy : ∀ e j, y e j = y' e j) (j : Fin 128) :
    Spec.meanK r y j = Spec.meanK r y' j := by
  rw [show y = y' from funext fun e => funext fun j => hy e j]

/-- Equal tables, equal one-pass column variances. -/
theorem varK_congr {R : ℕ} (r : EReal) {y y' : Fin R → Fin 128 → EReal} (hy : ∀ e j, y e j = y' e j) (j : Fin 128) :
    Spec.varK r y j = Spec.varK r y' j := by
  rw [show y = y' from funext fun e => funext fun j => hy e j]

end Cert.Bridge

end
-- ==== Proof.KHost.lean ====
import proofs.«110491_j38809324487019_2_alg».proof.Proof.Gen.KernelIdeal.Launch
import proofs.«110491_j38809324487019_2_alg».proof.Proof.Ref.StageDefs
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Named F]

/-! The kernel program's host stretches between its kernel launches, read back: for each buffer a later launch or
    stretch reads, what the stretch leaves in it as a pure function of the contents it starts from. The index
    arithmetic, the gather and the scatter-mean are stated in the reference's own functions (the two programs'
    shapes and dimension records are the same literals), the weight halves and one-row tables in this program's. -/

/-- The destination-node indices, in the reference's spelling. -/
theorem kstage_v3 (W : Valuation τ sig (Elt F)) :
    after hostOps0 W (Proc.devRef .tc main_v3) = Cert.ReferenceIdeal.Hand.colOf (W (Proc.devRef .tc main_arg1)) := by
  after_results_simp <;> rfl

/-- The source nodes' feature rows, gathered: the reference's spelling of the second half of its first layer's input. -/
theorem kstage_v10 (W : Valuation τ sig (Elt F)) :
    after hostOps0 W (Proc.devRef .tc main_v10) = Host.gather Cert.ReferenceIdeal.gather_S50000x128_S800000x1_S800000x128_1_0_n_n_0_1_1128 (W (Proc.devRef .tc main_arg0))
          (broadcastInDim Cert.ReferenceIdeal.S800000x1 ![0] Cert.ReferenceIdeal.Gen.bcast_S800000_S800000x1_0 (Cert.ReferenceIdeal.Hand.wrapIdx (Cert.ReferenceIdeal.Hand.rowOf (W (Proc.devRef .tc main_arg1))))) := by
  after_results_simp <;> rfl

/-- The top half of the first weight matrix. -/
theorem kstage_v11 (W : Valuation τ sig (Elt F)) :
    after hostOps0 W (Proc.devRef .tc main_v11) = extractStridedSlice S128x128 ![0, 0] (W (Proc.devRef .tc main_arg3)) slices_S256x128_S128x128_0_0 := by
  after_results_simp <;> rfl

/-- The bottom half of the first weight matrix. -/
theorem kstage_v12 (W : Valuation τ sig (Elt F)) :
    after hostOps0 W (Proc.devRef .tc main_v12) = extractStridedSlice S128x128 ![128, 0] (W (Proc.devRef .tc main_arg3)) slices_S256x128_S128x128_128_0 := by
  after_results_simp <;> rfl

/-- The first bias as a one-row table. -/
theorem kstage_v13 (W : Valuation τ sig (Elt F)) :
    after hostOps0 W (Proc.devRef .tc main_v13) = shapeCast S1x128 (W (Proc.devRef .tc main_arg4)) shapeCasts_S128_S1x128 := by
  after_results_simp <;> rfl

/-- The first bias as a one-row table. -/
theorem kstage_v15 (W : Valuation τ sig (Elt F)) :
    after hostOps1 W (Proc.devRef .tc main_v15) = shapeCast S1x128 (W (Proc.devRef .tc main_arg4)) shapeCasts_S128_S1x128 := by
  after_results_simp <;> rfl

/-- The first scale as a one-row table. -/
theorem kstage_v16 (W : Valuation τ sig (Elt F)) :
    after hostOps1 W (Proc.devRef .tc main_v16) = shapeCast S1x128 (W (Proc.devRef .tc main_arg5)) shapeCasts_S128_S1x128 := by
  after_results_simp <;> rfl

/-- The first shift as a one-row table. -/
theorem kstage_v17 (W : Valuation τ sig (Elt F)) :
    after hostOps1 W (Proc.devRef .tc main_v17) = shapeCast S1x128 (W (Proc.devRef .tc main_arg6)) shapeCasts_S128_S1x128 := by
  after_results_simp <;> rfl

/-- The second bias as a one-row table. -/
theorem kstage_v19 (W : Valuation τ sig (Elt F)) :
    after hostOps2 W (Proc.devRef .tc main_v19) = shapeCast S1x128 (W (Proc.devRef .tc main_arg8)) shapeCasts_S128_S1x128 := by
  after_results_simp <;> rfl

/-- The second bias as a one-row table. -/
theorem kstage_v21 (W : Valuation τ sig (Elt F)) :
    after hostOps3 W (Proc.devRef .tc main_v21) = shapeCast S1x128 (W (Proc.devRef .tc main_arg8)) shapeCasts_S128_S1x128 := by
  after_results_simp <;> rfl

/-- The second scale as a one-row table. -/
theorem kstage_v22 (W : Valuation τ sig (Elt F)) :
    after hostOps3 W (Proc.devRef .tc main_v22) = shapeCast S1x128 (W (Proc.devRef .tc main_arg9)) shapeCasts_S128_S1x128 := by
  after_results_simp <;> rfl

/-- The second shift as a one-row table. -/
theorem kstage_v23 (W : Valuation τ sig (Elt F)) :
    after hostOps3 W (Proc.devRef .tc main_v23) = shapeCast S1x128 (W (Proc.devRef .tc main_arg10)) shapeCasts_S128_S1x128 := by
  after_results_simp <;> rfl

/-- The scatter-mean over the destination nodes, in the reference's spelling. -/
theorem kstage_v36 (W : Valuation τ sig (Elt F)) :
    after hostOps4 W (Proc.devRef .tc main_v36) = Cert.ReferenceIdeal.Hand.aggOf (Cert.ReferenceIdeal.Hand.segSum (W (Proc.devRef .tc main_v3)) (W (Proc.devRef .tc main_v24))) (Cert.ReferenceIdeal.Hand.segCnt (W (Proc.devRef .tc main_v3))) := by
  after_results_simp <;> rfl

/-- The top half of the third weight matrix. -/
theorem kstage_v37 (W : Valuation τ sig (Elt F)) :
    after hostOps4 W (Proc.devRef .tc main_v37) = extractStridedSlice S128x128 ![0, 0] (W (Proc.devRef .tc main_arg11)) slices_S256x128_S128x128_0_0 := by
  after_results_simp <;> rfl

/-- The bottom half of the third weight matrix. -/
theorem kstage_v38 (W : Valuation τ sig (Elt F)) :
    after hostOps4 W (Proc.devRef .tc main_v38) = extractStridedSlice S128x128 ![128, 0] (W (Proc.devRef .tc main_arg11)) slices_S256x128_S128x128_128_0 := by
  after_results_simp <;> rfl

/-- The third bias as a one-row table. -/
theorem kstage_v39 (W : Valuation τ sig (Elt F)) :
    after hostOps4 W (Proc.devRef .tc main_v39) = shapeCast S1x128 (W (Proc.devRef .tc main_arg12)) shapeCasts_S128_S1x128 := by
  after_results_simp <;> rfl

/-- The third bias as a one-row table. -/
theorem kstage_v41 (W : Valuation τ sig (Elt F)) :
    after hostOps5 W (Proc.devRef .tc main_v41) = shapeCast S1x128 (W (Proc.devRef .tc main_arg12)) shapeCasts_S128_S1x128 := by
  after_results_simp <;> rfl

/-- The third scale as a one-row table. -/
theorem kstage_v42 (W : Valuation τ sig (Elt F)) :
    after hostOps5 W (Proc.devRef .tc main_v42) = shapeCast S1x128 (W (Proc.devRef .tc main_arg13)) shapeCasts_S128_S1x128 := by
  after_results_simp <;> rfl

/-- The third shift as a one-row table. -/
theorem kstage_v43 (W : Valuation τ sig (Elt F)) :
    after hostOps5 W (Proc.devRef .tc main_v43) = shapeCast S1x128 (W (Proc.devRef .tc main_arg14)) shapeCasts_S128_S1x128 := by
  after_results_simp <;> rfl

/-- The fourth bias as a one-row table. -/
theorem kstage_v45 (W : Valuation τ sig (Elt F)) :
    after hostOps6 W (Proc.devRef .tc main_v45) = shapeCast S1x128 (W (Proc.devRef .tc main_arg16)) shapeCasts_S128_S1x128 := by
  after_results_simp <;> rfl

/-- The fourth bias as a one-row table. -/
theorem kstage_v47 (W : Valuation τ sig (Elt F)) :
    after hostOps7 W (Proc.devRef .tc main_v47) = shapeCast S1x128 (W (Proc.devRef .tc main_arg16)) shapeCasts_S128_S1x128 := by
  after_results_simp <;> rfl

/-- The fourth scale as a one-row table. -/
theorem kstage_v48 (W : Valuation τ sig (Elt F)) :
    after hostOps7 W (Proc.devRef .tc main_v48) = shapeCast S1x128 (W (Proc.devRef .tc main_arg17)) shapeCasts_S128_S1x128 := by
  after_results_simp <;> rfl

/-- The fourth shift as a one-row table. -/
theorem kstage_v49 (W : Valuation τ sig (Elt F)) :
    after hostOps7 W (Proc.devRef .tc main_v49) = shapeCast S1x128 (W (Proc.devRef .tc main_arg18)) shapeCasts_S128_S1x128 := by
  after_results_simp <;> rfl

/-- The attention bias as a one-by-one table. -/
theorem kstage_v50 (W : Valuation τ sig (Elt F)) :
    after hostOps7 W (Proc.devRef .tc main_v50) = shapeCast S1x1 (W (Proc.devRef .tc main_arg20)) shapeCasts_S1_S1x1 := by
  after_results_simp <;> rfl

/-- The attention weights as a vector over the nodes. -/
theorem kstage_v52 (W : Valuation τ sig (Elt F)) :
    after hostOps8 W (Proc.devRef .tc main_v52) = shapeCast S50000 (W (Proc.devRef .tc main_v51_1)) shapeCasts_S50000x1_S50000 := by
  after_results_simp <;> rfl

/-! ### The cheap ones at an entry

A one-row table reads the vector it was cast from, a weight half reads the whole matrix 0 or 128 rows down, and the
last cast reads the one-column table. -/

section AtAnEntry
open Idealize.ShloMosaic.ValueIdx

theorem kread_v13 (W : Valuation τ sig (Elt F)) (j : Fin 128) :
    after hostOps0 W (Proc.devRef .tc main_v13) (ix2 (0 : Fin 1) j) = W (Proc.devRef .tc main_arg4) (ix1 j) :=
  (congrFun (kstage_v13 W) _).trans (shapeCast_a_1a_apply _ _ 0 j)

theorem kread_v15 (W : Valuation τ sig (Elt F)) (j : Fin 128) :
    after hostOps1 W (Proc.devRef .tc main_v15) (ix2 (0 : Fin 1) j) = W (Proc.devRef .tc main_arg4) (ix1 j) :=
  (congrFun (kstage_v15 W) _).trans (shapeCast_a_1a_apply _ _ 0 j)

theorem kread_v16 (W : Valuation τ sig (Elt F)) (j : Fin 128) :
    after hostOps1 W (Proc.devRef .tc main_v16) (ix2 (0 : Fin 1) j) = W (Proc.devRef .tc main_arg5) (ix1 j) :=
  (congrFun (kstage_v16 W) _).trans (shapeCast_a_1a_apply _ _ 0 j)

theorem kread_v17 (W : Valuation τ sig (Elt F)) (j : Fin 128) :
    after hostOps1 W (Proc.devRef .tc main_v17) (ix2 (0 : Fin 1) j) = W (Proc.devRef .tc main_arg6) (ix1 j) :=
  (congrFun (kstage_v17 W) _).trans (shapeCast_a_1a_apply _ _ 0 j)

theorem kread_v19 (W : Valuation τ sig (Elt F)) (j : Fin 128) :
    after hostOps2 W (Proc.devRef .tc main_v19) (ix2 (0 : Fin 1) j) = W (Proc.devRef .tc main_arg8) (ix1 j) :=
  (congrFun (kstage_v19 W) _).trans (shapeCast_a_1a_apply _ _ 0 j)

theorem kread_v21 (W : Valuation τ sig (Elt F)) (j : Fin 128) :
    after hostOps3 W (Proc.devRef .tc main_v21) (ix2 (0 : Fin 1) j) = W (Proc.devRef .tc main_arg8) (ix1 j) :=
  (congrFun (kstage_v21 W) _).trans (shapeCast_a_1a_apply _ _ 0 j)

theorem kread_v22 (W : Valuation τ sig (Elt F)) (j : Fin 128) :
    after hostOps3 W (Proc.devRef .tc main_v22) (ix2 (0 : Fin 1) j) = W (Proc.devRef .tc main_arg9) (ix1 j) :=
  (congrFun (kstage_v22 W) _).trans (shapeCast_a_1a_apply _ _ 0 j)

theorem kread_v23 (W : Valuation τ sig (Elt F)) (j : Fin 128) :
    after hostOps3 W (Proc.devRef .tc main_v23) (ix2 (0 : Fin 1) j) = W (Proc.devRef .tc main_arg10) (ix1 j) :=
  (congrFun (kstage_v23 W) _).trans (shapeCast_a_1a_apply _ _ 0 j)

theorem kread_v39 (W : Valuation τ sig (Elt F)) (j : Fin 128) :
    after hostOps4 W (Proc.devRef .tc main_v39) (ix2 (0 : Fin 1) j) = W (Proc.devRef .tc main_arg12) (ix1 j) :=
  (congrFun (kstage_v39 W) _).trans (shapeCast_a_1a_apply _ _ 0 j)

theorem kread_v41 (W : Valuation τ sig (Elt F)) (j : Fin 128) :
    after hostOps5 W (Proc.devRef .tc main_v41) (ix2 (0 : Fin 1) j) = W (Proc.devRef .tc main_arg12) (ix1 j) :=
  (congrFun (kstage_v41 W) _).trans (shapeCast_a_1a_apply _ _ 0 j)

theorem kread_v42 (W : Valuation τ sig (Elt F)) (j : Fin 128) :
    after hostOps5 W (Proc.devRef .tc main_v42) (ix2 (0 : Fin 1) j) = W (Proc.devRef .tc main_arg13) (ix1 j) :=
  (congrFun (kstage_v42 W) _).trans (shapeCast_a_1a_apply _ _ 0 j)

theorem kread_v43 (W : Valuation τ sig (Elt F)) (j : Fin 128) :
    after hostOps5 W (Proc.devRef .tc main_v43) (ix2 (0 : Fin 1) j) = W (Proc.devRef .tc main_arg14) (ix1 j) :=
  (congrFun (kstage_v43 W) _).trans (shapeCast_a_1a_apply _ _ 0 j)

theorem kread_v45 (W : Valuation τ sig (Elt F)) (j : Fin 128) :
    after hostOps6 W (Proc.devRef .tc main_v45) (ix2 (0 : Fin 1) j) = W (Proc.devRef .tc main_arg16) (ix1 j) :=
  (congrFun (kstage_v45 W) _).trans (shapeCast_a_1a_apply _ _ 0 j)

theorem kread_v47 (W : Valuation τ sig (Elt F)) (j : Fin 128) :
    after hostOps7 W (Proc.devRef .tc main_v47) (ix2 (0 : Fin 1) j) = W (Proc.devRef .tc main_arg16) (ix1 j) :=
  (congrFun (kstage_v47 W) _).trans (shapeCast_a_1a_apply _ _ 0 j)

theorem kread_v48 (W : Valuation τ sig (Elt F)) (j : Fin 128) :
    after hostOps7 W (Proc.devRef .tc main_v48) (ix2 (0 : Fin 1) j) = W (Proc.devRef .tc main_arg17) (ix1 j) :=
  (congrFun (kstage_v48 W) _).trans (shapeCast_a_1a_apply _ _ 0 j)

theorem kread_v49 (W : Valuation τ sig (Elt F)) (j : Fin 128) :
    after hostOps7 W (Proc.devRef .tc main_v49) (ix2 (0 : Fin 1) j) = W (Proc.devRef .tc main_arg18) (ix1 j) :=
  (congrFun (kstage_v49 W) _).trans (shapeCast_a_1a_apply _ _ 0 j)

theorem kread_v50 (W : Valuation τ sig (Elt F)) :
    after hostOps7 W (Proc.devRef .tc main_v50) (ix2 (0 : Fin 1) (0 : Fin 1)) = W (Proc.devRef .tc main_arg20) (ix1 (0 : Fin 1)) :=
  (congrFun (kstage_v50 W) _).trans (shapeCast_a_1a_apply _ _ 0 0)

theorem kread_v11 (W : Valuation τ sig (Elt F)) (k : Fin 128) (j : Fin 128) :
    after hostOps0 W (Proc.devRef .tc main_v11) (ix2 k j) = W (Proc.devRef .tc main_arg3) (ix2 (⟨k.val, by omega⟩ : Fin 256) j) :=
  (congrFun (kstage_v11 W) _).trans (slice2_axis0_apply 0 _ _ k j ⟨k.val, by omega⟩ (Nat.zero_add _).symm)

theorem kread_v12 (W : Valuation τ sig (Elt F)) (k : Fin 128) (j : Fin 128) :
    after hostOps0 W (Proc.devRef .tc main_v12) (ix2 k j) = W (Proc.devRef .tc main_arg3) (ix2 (⟨128 + k.val, by omega⟩ : Fin 256) j) :=
  (congrFun (kstage_v12 W) _).trans (slice2_axis0_apply 128 _ _ k j ⟨128 + k.val, by omega⟩ rfl)

theorem kread_v37 (W : Valuation τ sig (Elt F)) (k : Fin 128) (j : Fin 128) :
    after hostOps4 W (Proc.devRef .tc main_v37) (ix2 k j) = W (Proc.devRef .tc main_arg11) (ix2 (⟨k.val, by omega⟩ : Fin 256) j) :=
  (congrFun (kstage_v37 W) _).trans (slice2_axis0_apply 0 _ _ k j ⟨k.val, by omega⟩ (Nat.zero_add _).symm)

theorem kread_v38 (W : Valuation τ sig (Elt F)) (k : Fin 128) (j : Fin 128) :
    after hostOps4 W (Proc.devRef .tc main_v38) (ix2 k j) = W (Proc.devRef .tc main_arg11) (ix2 (⟨128 + k.val, by omega⟩ : Fin 256) j) :=
  (congrFun (kstage_v38 W) _).trans (slice2_axis0_apply 128 _ _ k j ⟨128 + k.val, by omega⟩ rfl)

theorem kread_v52 (W : Valuation τ sig (Elt F)) (n : Fin 50000) :
    after hostOps8 W (Proc.devRef .tc main_v52) (ix1 n) = W (Proc.devRef .tc main_v51_1) (ix2 n (0 : Fin 1)) :=
  (congrFun (kstage_v52 W) _).trans (shapeCast_apply _ _ (ix1 n) (ix2 n (0 : Fin 1))
    (by rw [Shape.rowMajor_val_two, Shape.rowMajor_val_one]; show n.val * 1 + 0 = n.val; omega))

end AtAnEntry

/-! ### The two programs' dimension records are the same literals -/

theorem gatherDims_eq : gather_S50000x128_S800000x1_S800000x128_1_0_n_n_0_1_1128
    = Cert.ReferenceIdeal.gather_S50000x128_S800000x1_S800000x128_1_0_n_n_0_1_1128 := rfl
theorem scatterDims_eq : scatter_S50000x128_S800000x1_S800000x128_1_0_0_1
    = Cert.ReferenceIdeal.scatter_S50000x128_S800000x1_S800000x128_1_0_0_1 := rfl
theorem scatterDims1_eq : scatter_S50000_S800000x1_S800000_n_0_0_1
    = Cert.ReferenceIdeal.scatter_S50000_S800000x1_S800000_n_0_0_1 := rfl

end Cert.KernelIdeal.Hand

end
-- ==== Proof.Ref.ReadMisc.lean ====
import proofs.«110491_j38809324487019_2_alg».proof.Proof.Ref.StageDefs
import proofs.«110491_j38809324487019_2_alg».proof.Proof.Ref.ReadLit
import Idealize.ShloMosaic.Lib.Pipeline.Value

noncomputable section

namespace Cert.ReferenceIdeal.Hand

open Cert.ReferenceIdeal Cert.ReferenceIdeal.Gen Idealize.ShloMosaic Idealize.ShloMosaic.ValueIdx Idealize.SL.Sem

/-! The reference's remaining stage functions read at an entry: the two side-by-side inputs (a column of the first
    half reads the first piece, a column of the second half the second piece 128 columns to the left), the
    scatter-mean's quotient, and the attention head. -/

section AnyInstance
variable {F : FTy → Type} [FloatOps F]

/-- The first layer's input at a column of the first half: the edge's message. -/
theorem H0_apply_left (x : (⟨S50000x128, .f32⟩ : BufTy).Contents (Elt F)) (ei : (⟨S2x800000, .i32⟩ : BufTy).Contents (Elt F)) (msg : (⟨S800000x128, .f32⟩ : BufTy).Contents (Elt F))
    (e : Fin 800000) (k : Fin 256) (hk : k.val < 128) :
    H0 x ei msg (ix2 e k) = msg (ix2 e ⟨k.val, hk⟩) := by
  unfold H0
  exact concatenate_pair_apply_left 1 msg _ concatenates_S800000x128_S800000x128_S800000x256_d1 (ix2 e k) rfl (ix2 e ⟨k.val, hk⟩)
    (fun b => by match b with | ⟨0, _⟩ => rfl | ⟨1, _⟩ => rfl)

/-- The first layer's input at a column of the second half: the source node's feature row, gathered. -/
theorem H0_apply_right (x : (⟨S50000x128, .f32⟩ : BufTy).Contents (Elt F)) (ei : (⟨S2x800000, .i32⟩ : BufTy).Contents (Elt F)) (msg : (⟨S800000x128, .f32⟩ : BufTy).Contents (Elt F))
    (e : Fin 800000) (k : Fin 256) (hk : 128 ≤ k.val) :
    H0 x ei msg (ix2 e k)
      = Host.gather gather_S50000x128_S800000x1_S800000x128_1_0_n_n_0_1_1128 x
          (broadcastInDim S800000x1 ![0] bcast_S800000_S800000x1_0 (wrapIdx (rowOf ei))) (ix2 e ⟨k.val - 128, by omega⟩) := by
  unfold H0
  exact concatenate_pair_apply_right 1 msg _ concatenates_S800000x128_S800000x128_S800000x256_d1 (ix2 e k) rfl rfl
    (ix2 e ⟨k.val - 128, by omega⟩)
    (fun b hb => by match b with | ⟨0, _⟩ => rfl | ⟨1, _⟩ => exact absurd rfl hb)
    (by show k.val - 128 + 128 = k.val; omega)

/-- The second block's input at a column of the first half: the node's features. -/
theorem O0_apply_left (x agg : (⟨S50000x128, .f32⟩ : BufTy).Contents (Elt F)) (n : Fin 50000) (k : Fin 256) (hk : k.val < 128) :
    O0 x agg (ix2 n k) = x (ix2 n ⟨k.val, hk⟩) := by
  unfold O0
  exact concatenate_pair_apply_left 1 x _ concatenates_S50000x128_S50000x128_S50000x256_d1 (ix2 n k) rfl (ix2 n ⟨k.val, hk⟩)
    (fun b => by match b with | ⟨0, _⟩ => rfl | ⟨1, _⟩ => rfl)

/-- The second block's input at a column of the second half: the node's aggregate. -/
theorem O0_apply_right (x agg : (⟨S50000x128, .f32⟩ : BufTy).Contents (Elt F)) (n : Fin 50000) (k : Fin 256) (hk : 128 ≤ k.val) :
    O0 x agg (ix2 n k) = agg (ix2 n ⟨k.val - 128, by omega⟩) := by
  unfold O0
  exact concatenate_pair_apply_right 1 x _ concatenates_S50000x128_S50000x128_S50000x256_d1 (ix2 n k) rfl rfl
    (ix2 n ⟨k.val - 128, by omega⟩)
    (fun b hb => by match b with | ⟨0, _⟩ => rfl | ⟨1, _⟩ => exact absurd rfl hb)
    (by show k.val - 128 + 128 = k.val; omega)

end AnyInstance

/-- The scatter-mean at an entry: the node's sum over its count raised to at least one. -/
theorem aggOf_apply (s : FVec Ideal S50000x128 .f32) (cnt : FVec Ideal S50000 .f32) (n : Fin 50000) (j : Fin 128) :
    aggOf (F := Ideal) s cnt (ix2 n j) = Ideal.div (s (ix2 n j)) (max (cnt (ix1 n)) (Ideal.ofBits .f32 0x3F800000#32)) := by
  unfold aggOf
  rw [hostDivf_apply,
    broadcastInDim_apply _ _ _ (ix2 n j) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl),
    maximumf_apply, broadcastInDim_scalar_apply]
  rfl

/-- The one-column product of the attention head at a node. -/
theorem lhs_attn_0 (i : S50000x1.Idx) (q : dot_S50000x128_S128x1_S50000x1_1_0_0_1_n_n.contr.Idx) : (dot_S50000x128_S128x1_S50000x1_1_0_0_1_n_n.lhsIdx i q 0).val = (i 0).val := by
  unfold DotDims.lhsIdx
  rw [dif_neg (show ¬(0 : Fin S50000x128.rank) ∈ dot_S50000x128_S128x1_S50000x1_1_0_0_1_n_n.lhsBatch by decide), dif_pos (show (0 : Fin S50000x128.rank) ∈ dot_S50000x128_S128x1_S50000x1_1_0_0_1_n_n.lhsNonContracting by decide)]
  rfl
theorem lhs_attn_1 (i : S50000x1.Idx) (q : dot_S50000x128_S128x1_S50000x1_1_0_0_1_n_n.contr.Idx) : (dot_S50000x128_S128x1_S50000x1_1_0_0_1_n_n.lhsIdx i q 1).val = (q ⟨0, by decide⟩).val :=
  dot_S50000x128_S128x1_S50000x1_1_0_0_1_n_n.lhsIdx_val_of_single rfl i q
theorem rhs_attn_0 (i : S50000x1.Idx) (q : dot_S50000x128_S128x1_S50000x1_1_0_0_1_n_n.contr.Idx) : (dot_S50000x128_S128x1_S50000x1_1_0_0_1_n_n.rhsIdx i q 0).val = (q ⟨0, by decide⟩).val :=
  dot_S50000x128_S128x1_S50000x1_1_0_0_1_n_n.rhsIdx_val_of_single rfl i q
theorem rhs_attn_1 (i : S50000x1.Idx) (q : dot_S50000x128_S128x1_S50000x1_1_0_0_1_n_n.contr.Idx) : (dot_S50000x128_S128x1_S50000x1_1_0_0_1_n_n.rhsIdx i q 1).val = (i 1).val := by
  unfold DotDims.rhsIdx
  rw [dif_neg (show ¬(1 : Fin S128x1.rank) ∈ dot_S50000x128_S128x1_S50000x1_1_0_0_1_n_n.rhsBatch by decide), dif_pos (show (1 : Fin S128x1.rank) ∈ dot_S50000x128_S128x1_S50000x1_1_0_0_1_n_n.rhsNonContracting by decide)]
  rfl

/-- The host product at an entry: the sum over the 128 contracted columns of the row's entries times the column's. -/
theorem dot_attn_apply (h : FVec Ideal S50000x128 .f32) (w : FVec Ideal S128x1 .f32) (e : Fin 50000) (j : Fin 1) :
    Host.dotGeneral (F := Ideal) dot_S50000x128_S128x1_S50000x1_1_0_0_1_n_n none h w (ix2 e j) = ∑ k : Fin 128, h (ix2 e k) * w (ix2 k j) := by
  simp only [Host.dotGeneral]
  rw [Ideal.dotGeneral_apply, ← Equiv.sum_comp (contrEquiv1 dot_S50000x128_S128x1_S50000x1_1_0_0_1_n_n 128 rfl rfl).symm]
  refine Finset.sum_congr rfl fun k _ => ?_
  have hk := contrEquiv1_symm_val dot_S50000x128_S128x1_S50000x1_1_0_0_1_n_n 128 rfl rfl k
  have el : dot_S50000x128_S128x1_S50000x1_1_0_0_1_n_n.lhsIdx (ix2 e j) ((contrEquiv1 dot_S50000x128_S128x1_S50000x1_1_0_0_1_n_n 128 rfl rfl).symm k) = ix2 e k := funext fun a => Fin.ext (by
    match a with
    | ⟨0, _⟩ => exact lhs_attn_0 _ _
    | ⟨1, _⟩ => exact (lhs_attn_1 _ _).trans hk)
  have er : dot_S50000x128_S128x1_S50000x1_1_0_0_1_n_n.rhsIdx (ix2 e j) ((contrEquiv1 dot_S50000x128_S128x1_S50000x1_1_0_0_1_n_n 128 rfl rfl).symm k) = ix2 k j := funext fun a => Fin.ext (by
    match a with
    | ⟨0, _⟩ => exact (rhs_attn_0 _ _).trans hk
    | ⟨1, _⟩ => exact rhs_attn_1 _ _)
  rw [el, er]

/-- The host's exponential and negation at an entry. -/
theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl

/-- The attention weight of a node: the logistic function, as one over one plus the exponential of the negated
    one-column linear layer. -/
theorem attnOf_apply (o : FVec Ideal S50000x128 .f32) (wa : FVec Ideal S128x1 .f32) (ba : FVec Ideal S1 .f32) (n : Fin 50000) :
    attnOf (F := Ideal) o wa ba (ix1 n)
      = Ideal.div (Ideal.ofBits .f32 0x3F800000#32) ((Ideal.ofBits .f32 0x3F800000#32) + Ideal.exp (-((∑ k : Fin 128, o (ix2 n k) * wa (ix2 k (0 : Fin 1))) + ba (ix1 (0 : Fin 1))))) := by
  unfold attnOf onesCol
  rw [shapeCast_apply _ _ (ix1 n) (ix2 n (0 : Fin 1)) (by rw [Shape.rowMajor_val_two, Shape.rowMajor_val_one]; show n.val * 1 + 0 = n.val; omega),
    hostDivf_apply, addf_apply, broadcastInDim_scalar_apply, hostExp_apply, hostNegf_apply, addf_apply, dot_attn_apply,
    broadcastInDim_apply _ _ _ (ix2 n (0 : Fin 1)) (ix2 (0 : Fin 1) (0 : Fin 1)) (fun a => by match a with | ⟨0, _⟩ => rfl | ⟨1, _⟩ => rfl),
    broadcastInDim_apply _ _ _ (ix2 (0 : Fin 1) (0 : Fin 1)) (ix1 (0 : Fin 1)) (fun a => by match a with | ⟨0, _⟩ => rfl)]
  rfl

end Cert.ReferenceIdeal.Hand

end
-- ==== Proof.Bridge.Stage1.lean ====
import proofs.«110491_j38809324487019_2_alg».proof.Proof.Bridge.Defs
import proofs.«110491_j38809324487019_2_alg».proof.Proof.Bridge.Layer
import proofs.«110491_j38809324487019_2_alg».proof.Proof.Bridge.Congr
import proofs.«110491_j38809324487019_2_alg».proof.Proof.KHost
import proofs.«110491_j38809324487019_2_alg».proof.Proof.Ref.ReadMisc

noncomputable section

namespace Cert.Bridge

open Idealize.ShloMosaic Idealize.ShloMosaic.TcCoe Idealize.ShloMosaic.ValueIdx Idealize.SL.Sem Cert.LibStats
open Cert.KernelIdeal.Hand Cert.ReferenceIdeal.Hand

/-! The first fused stage: the kernel program's first activation buffer holds the plain program's first normalised, rectified layer. The kernel reads the message table and the gathered feature rows as two inputs against the two halves of the weight matrix; the plain program reads them side by side against the whole matrix. The statistics the kernel's first launch leaves are taken as the one-pass mean and variance of the kernel's own pre-activation table (the two hypotheses). -/

/-- The kernels' linear layer over two inputs respects entrywise equality of its five tables. -/
theorem lin2_congr {R : ℕ} {x1 x1' x2 x2' : Fin R → Fin 128 → EReal} {w1 w1' w2 w2' : Fin 128 → Fin 128 → EReal} {b b' : Fin 128 → EReal}
    (h1 : ∀ e k, x1 e k = x1' e k) (h2 : ∀ e k, x2 e k = x2' e k) (g1 : ∀ k j, w1 k j = w1' k j) (g2 : ∀ k j, w2 k j = w2' k j)
    (hb : ∀ j, b j = b' j) (e : Fin R) (j : Fin 128) : Spec.lin2 x1 x2 w1 w2 b e j = Spec.lin2 x1' x2' w1' w2' b' e j := by
  have e1 : x1 = x1' := funext fun e => funext fun k => h1 e k
  have e2 : x2 = x2' := funext fun e => funext fun k => h2 e k
  have e3 : w1 = w1' := funext fun k => funext fun j => g1 k j
  have e4 : w2 = w2' := funext fun k => funext fun j => g2 k j
  have e5 : b = b' := funext hb
  rw [e1, e2, e3, e4, e5]

/-- The normalised, rectified entry respects equality of its five arguments. -/
theorem bnrelu_congr5 {y y' mu mu' v v' g g' be be' : EReal} (hy : y = y') (hm : mu = mu') (hv : v = v') (hg : g = g') (hbe : be = be') :
    Spec.bnrelu y mu v g be = Spec.bnrelu y' mu' v' g' be' := by rw [hy, hm, hv, hg, hbe]

/-- The kernel program's pre-activation table of the first stage as its first launch sees it: over the buffers after
    the first host stretch. -/
def yKst1 (m : (ℓ : Loc Cert.KernelIdeal.nD Cert.KernelIdeal.τ Cert.KernelIdeal.sig) → Buf (Elt Ideal) ℓ) (c : Dev Cert.KernelIdeal.nD) : Fin 800000 → Fin 128 → EReal := fun e j =>
  Spec.lin2 (R := 800000) (fun e k => (U1 m c Cert.KernelIdeal.main_arg2 : Cert.KernelIdeal.S800000x128.Idx → EReal) (ix2 e k))
    (fun e k => (U1 m c Cert.KernelIdeal.main_v10 : Cert.KernelIdeal.S800000x128.Idx → EReal) (ix2 e k))
    (fun k j => (U1 m c Cert.KernelIdeal.main_v11 : Cert.KernelIdeal.S128x128.Idx → EReal) (ix2 k j))
    (fun k j => (U1 m c Cert.KernelIdeal.main_v12 : Cert.KernelIdeal.S128x128.Idx → EReal) (ix2 k j))
    (fun j => (U1 m c Cert.KernelIdeal.main_v13 : Cert.KernelIdeal.S1x128.Idx → EReal) (ix2 0 j)) e j

/-- The gathered feature rows, over the plain program's argument arrays. -/
def xRows (V' : Valuation Cert.ReferenceIdeal.τ Cert.ReferenceIdeal.sig (Elt Ideal)) : Cert.ReferenceIdeal.S800000x128.Idx → EReal :=
  Host.gather Cert.ReferenceIdeal.gather_S50000x128_S800000x1_S800000x128_1_0_n_n_0_1_1128 (V' (Proc.devRef .tc Cert.ReferenceIdeal.main_arg0))
    (broadcastInDim Cert.ReferenceIdeal.S800000x1 ![0] Cert.ReferenceIdeal.Gen.bcast_S800000_S800000x1_0 (wrapIdx (rowOf (V' (Proc.devRef .tc Cert.ReferenceIdeal.main_arg1)))))

/-- The kernel program's first activation buffer holds the plain program's first layer, a table of reals. -/
theorem stage1 (m : (ℓ : Loc Cert.KernelIdeal.nD Cert.KernelIdeal.τ Cert.KernelIdeal.sig) → Buf (Elt Ideal) ℓ) (c : Dev Cert.KernelIdeal.nD)
    (r0 : ∀ i : Cert.KernelIdeal.S50000x128.Idx, IsReal (m ((c.tc : Thread Cert.KernelIdeal.nD Cert.KernelIdeal.τ).loc Cert.KernelIdeal.main_arg0) i))
    (r2 : ∀ i : Cert.KernelIdeal.S800000x128.Idx, IsReal (m ((c.tc : Thread Cert.KernelIdeal.nD Cert.KernelIdeal.τ).loc Cert.KernelIdeal.main_arg2) i))
    (r3 : ∀ i : Cert.KernelIdeal.S256x128.Idx, IsReal (m ((c.tc : Thread Cert.KernelIdeal.nD Cert.KernelIdeal.τ).loc Cert.KernelIdeal.main_arg3) i))
    (r4 : ∀ i : Cert.KernelIdeal.S128.Idx, IsReal (m ((c.tc : Thread Cert.KernelIdeal.nD Cert.KernelIdeal.τ).loc Cert.KernelIdeal.main_arg4) i))
    (r5 : ∀ i : Cert.KernelIdeal.S128.Idx, IsReal (m ((c.tc : Thread Cert.KernelIdeal.nD Cert.KernelIdeal.τ).loc Cert.KernelIdeal.main_arg5) i))
    (r6 : ∀ i : Cert.KernelIdeal.S128.Idx, IsReal (m ((c.tc : Thread Cert.KernelIdeal.nD Cert.KernelIdeal.τ).loc Cert.KernelIdeal.main_arg6) i))
    (V' : Valuation Cert.ReferenceIdeal.τ Cert.ReferenceIdeal.sig (Elt Ideal)) (hA : Agree m c V')
    (hmean : ∀ j : Fin 128, (mean0Res (F := Ideal) (E1 m) c : Cert.KernelIdeal.S1x128.Idx → EReal) (ix2 0 j)
      = Spec.meanK (((1 / 800000 : ℝ) : ℝ) : EReal) (yKst1 m c) j)
    (hvar : ∀ j : Fin 128, (var0Res (F := Ideal) (E1 m) c : Cert.KernelIdeal.S1x128.Idx → EReal) (ix2 0 j)
      = Spec.varK (((1 / 800000 : ℝ) : ℝ) : EReal) (yKst1 m c) j) :
    (U4 m kI c Cert.KernelIdeal.main_v18 : Cert.KernelIdeal.S800000x128.Idx → EReal) = valH1 V' ∧ ∀ i, IsReal (valH1 V' i) := by
  -- the plain program's arrays are the kernel program's launch arrays
  have a0 := hA.a0; have a1 := hA.a1; have a2 := hA.a2; have a3 := hA.a3; have a4 := hA.a4; have a5 := hA.a5; have a6 := hA.a6
  -- the two input tables and their realness
  let X1 : Fin 800000 → Fin 128 → EReal := fun e k => V' (Proc.devRef .tc Cert.ReferenceIdeal.main_arg2) (ix2 e k)
  let X2 : Fin 800000 → Fin 128 → EReal := fun e k => xRows V' (ix2 e k)
  have hX1 : ∀ e k, IsReal (X1 e k) := fun e k => by
    show IsReal (V' (Proc.devRef .tc Cert.ReferenceIdeal.main_arg2) (ix2 e k)); rw [a2]; exact r2 _
  have hX2 : ∀ e k, IsReal (X2 e k) := fun e k => by
    show IsReal (V' (Proc.devRef .tc Cert.ReferenceIdeal.main_arg0) _); rw [a0]; exact r0 _
  have hW : ∀ i, IsReal (V' (Proc.devRef .tc Cert.ReferenceIdeal.main_arg3) i) := fun i => by rw [a3]; exact r3 i
  have hB : ∀ i, IsReal (V' (Proc.devRef .tc Cert.ReferenceIdeal.main_arg4) i) := fun i => by rw [a4]; exact r4 i
  have hG : ∀ i, IsReal (V' (Proc.devRef .tc Cert.ReferenceIdeal.main_arg5) i) := fun i => by rw [a5]; exact r5 i
  have hBe : ∀ i, IsReal (V' (Proc.devRef .tc Cert.ReferenceIdeal.main_arg6) i) := fun i => by rw [a6]; exact r6 i
  -- the side-by-side table's two halves
  have hHl : ∀ e (k : Fin 128), valH0 V' (ix2 e (Fin.castAdd 128 k)) = X1 e k := fun e k =>
    H0_apply_left _ _ _ e (Fin.castAdd 128 k) k.isLt
  have hHr : ∀ e (k : Fin 128), valH0 V' (ix2 e (Fin.natAdd 128 k)) = X2 e k := fun e k => by
    refine (H0_apply_right _ _ _ e (Fin.natAdd 128 k) (Nat.le_add_right 128 k.val)).trans ?_
    show xRows V' _ = xRows V' _
    exact congrArg (xRows V') (congrArg (ix2 e) (Fin.ext (by show 128 + k.val - 128 = k.val; omega)))
  -- the plain program's layer in the kernels' arrangement
  have hR : ∀ e j, valH1 V' (ix2 e j)
      = Spec.bnrelu (yK2 X1 X2 (V' (Proc.devRef .tc Cert.ReferenceIdeal.main_arg3)) (V' (Proc.devRef .tc Cert.ReferenceIdeal.main_arg4)) e j)
          (Spec.meanK (((1 / 800000 : ℝ) : ℝ) : EReal) (yK2 X1 X2 (V' (Proc.devRef .tc Cert.ReferenceIdeal.main_arg3)) (V' (Proc.devRef .tc Cert.ReferenceIdeal.main_arg4))) j)
          (Spec.varK (((1 / 800000 : ℝ) : ℝ) : EReal) (yK2 X1 X2 (V' (Proc.devRef .tc Cert.ReferenceIdeal.main_arg3)) (V' (Proc.devRef .tc Cert.ReferenceIdeal.main_arg4))) j)
          (V' (Proc.devRef .tc Cert.ReferenceIdeal.main_arg5) (ix1 j)) (V' (Proc.devRef .tc Cert.ReferenceIdeal.main_arg6) (ix1 j)) := fun e j =>
    layerE2_eq (valH0 V') _ _ _ _ X1 X2 hHl hHr hX1 hX2 hW hB e j
  have hReal : ∀ i, IsReal (valH1 V' i) := fun i => by
    rw [eq_ix2 i]
    exact layerE2_real (valH0 V') _ _ _ _ X1 X2 hHl hHr hX1 hX2 hW hB hG hBe _ _
  refine ⟨?_, hReal⟩
  -- the kernel program's buffers, walked back to the launch arrays
  have hx10 : (U1 m c Cert.KernelIdeal.main_v10 : Cert.KernelIdeal.S800000x128.Idx → EReal) = xRows V' := by
    refine (kstage_v10 (U0 m c)).trans ?_
    unfold xRows
    rw [a0, a1]
  have hU1a2 : ∀ e k, (U1 m c Cert.KernelIdeal.main_arg2 : Cert.KernelIdeal.S800000x128.Idx → EReal) (ix2 e k) = X1 e k := fun e k =>
    (congrFun (rd0_0 m c) _).trans (congrFun a2.symm _)
  have hW1 : ∀ (k j : Fin 128), (U1 m c Cert.KernelIdeal.main_v11 : Cert.KernelIdeal.S128x128.Idx → EReal) (ix2 k j) = (V' (Proc.devRef .tc Cert.ReferenceIdeal.main_arg3)) (ix2 (Fin.castAdd 128 k) j) := fun k j =>
    (kread_v11 (U0 m c) k j).trans (congrFun a3.symm _)
  have hW2 : ∀ (k j : Fin 128), (U1 m c Cert.KernelIdeal.main_v12 : Cert.KernelIdeal.S128x128.Idx → EReal) (ix2 k j) = (V' (Proc.devRef .tc Cert.ReferenceIdeal.main_arg3)) (ix2 (Fin.natAdd 128 k) j) := fun k j =>
    (kread_v12 (U0 m c) k j).trans (congrFun a3.symm _)
  have hb13 : ∀ j : Fin 128, (U1 m c Cert.KernelIdeal.main_v13 : Cert.KernelIdeal.S1x128.Idx → EReal) (ix2 0 j) = (V' (Proc.devRef .tc Cert.ReferenceIdeal.main_arg4)) (ix1 j) := fun j =>
    (kread_v13 (U0 m c) j).trans (congrFun a4.symm _)
  have hU2a4 : U2 m kI c Cert.KernelIdeal.main_arg4 = (V' (Proc.devRef .tc Cert.ReferenceIdeal.main_arg4)) :=
    (U2_of m kI c Cert.KernelIdeal.main_arg4 (by decide)).trans ((U1_of m c Cert.KernelIdeal.main_arg4 (by decide)).trans a4.symm)
  have hU2a5 : U2 m kI c Cert.KernelIdeal.main_arg5 = (V' (Proc.devRef .tc Cert.ReferenceIdeal.main_arg5)) :=
    (U2_of m kI c Cert.KernelIdeal.main_arg5 (by decide)).trans ((U1_of m c Cert.KernelIdeal.main_arg5 (by decide)).trans a5.symm)
  have hU2a6 : U2 m kI c Cert.KernelIdeal.main_arg6 = (V' (Proc.devRef .tc Cert.ReferenceIdeal.main_arg6)) :=
    (U2_of m kI c Cert.KernelIdeal.main_arg6 (by decide)).trans ((U1_of m c Cert.KernelIdeal.main_arg6 (by decide)).trans a6.symm)
  -- the launch's own table is the kernels' arrangement over the launch arrays
  have hst : ∀ e j, yKst1 m c e j = yK2 X1 X2 (V' (Proc.devRef .tc Cert.ReferenceIdeal.main_arg3)) (V' (Proc.devRef .tc Cert.ReferenceIdeal.main_arg4)) e j := fun e j => by
    unfold yKst1 yK2
    exact lin2_congr hU1a2 (fun e k => congrFun hx10 _) hW1 hW2 hb13 e j
  funext i
  obtain ⟨e, j, rfl⟩ : ∃ (e : Fin 800000) (j : Fin 128), i = ix2 e j := ⟨i 0, i 1, eq_ix2 i⟩
  rw [hR e j]
  refine (congrFun (res1_9 m c) (ix2 e j)).trans ?_
  unfold G1
  refine bnrelu_congr5 ?_ ?_ ?_ ?_ ?_
  · unfold yK2
    refine lin2_congr (fun e k => ?_) (fun e k => ?_) (fun k j => ?_) (fun k j => ?_) (fun j => ?_) e j
    · exact (congrFun (rd1_0 m kI c) _).trans (congrFun a2.symm _)
    · exact (congrFun (rd1_1 m kI c) _).trans (congrFun hx10 _)
    · exact (congrFun (rd1_2 m kI c) _).trans (hW1 k j)
    · exact (congrFun (rd1_3 m kI c) _).trans (hW2 k j)
    · exact (kread_v15 (U2 m kI c) j).trans (congrFun hU2a4 _)
  · refine (congrFun (rd1_7 m kI c) _).trans ((congrFun (resMean0 m c) _).trans ((hmean j).trans (meanK_congr _ hst j)))
  · refine (congrFun (rd1_8 m kI c) _).trans ((congrFun (resVar0 m c) _).trans ((hvar j).trans (varK_congr _ hst j)))
  · exact (kread_v16 (U2 m kI c) j).trans (congrFun hU2a5 _)
  · exact (kread_v17 (U2 m kI c) j).trans (congrFun hU2a6 _)

end Cert.Bridge

end
-- ==== Proof.Bridge.StageCore.lean ====
import proofs.«110491_j38809324487019_2_alg».proof.Proof.StageLaw
import proofs.«110491_j38809324487019_2_alg».proof.Proof.Ref.ReadE
import proofs.«110491_j38809324487019_2_alg».proof.Proof.Ref.ReadN

/-!
  The second and fourth fused stages — a linear layer of one table, batch-normalised and rectified — in the plain
  program's functions, read at an entry and brought to the kernels' arrangement: the bias in front of the product, the
  column statistics taken in one pass with the reciprocal of the row count. Over real tables the two arrangements are
  one number at every entry, and that number is real.
-/

noncomputable section

namespace Cert.Bridge

open Idealize.ShloMosaic Idealize.ShloMosaic.ValueIdx Idealize.SL.Sem Cert.LibStats
open Cert.ReferenceIdeal Cert.ReferenceIdeal.Hand

/-- The second stage over the 800000 edges, both arrangements at an entry: the plain program's normalised, rectified
    linear layer of a real table H with real weights, bias, scale and shift is the kernels' arrangement of it — the
    bias first, the statistics in one pass with the reciprocal of the row count — and it is real. -/
theorem stageE_core (H : (⟨S800000x128, .f32⟩ : BufTy).Contents (Elt Ideal)) (A7 : (⟨S128x128, .f32⟩ : BufTy).Contents (Elt Ideal))
    (A8 A9 A10 : (⟨S128, .f32⟩ : BufTy).Contents (Elt Ideal))
    (rH : ∀ i, IsReal (H i)) (r7 : ∀ i, IsReal (A7 i)) (r8 : ∀ i, IsReal (A8 i)) (r9 : ∀ i, IsReal (A9 i)) (r10 : ∀ i, IsReal (A10 i))
    (e : Fin 800000) (j : Fin 128) :
    bnReluE (F := Ideal) (lin2 H A7 A8) (meanE (lin2 H A7 A8)) (varE (lin2 H A7 A8)) A9 A10 (ix2 e j)
      = Spec.bnrelu (Spec.lin1 (fun e k => H (ix2 e k)) (fun k j => A7 (ix2 k j)) (fun j => A8 (ix1 j)) e j)
          (Spec.meanK (((1 / 800000 : ℝ) : ℝ) : EReal) (fun e j => Spec.lin1 (fun e k => H (ix2 e k)) (fun k j => A7 (ix2 k j)) (fun j => A8 (ix1 j)) e j) j)
          (Spec.varK (((1 / 800000 : ℝ) : ℝ) : EReal) (fun e j => Spec.lin1 (fun e k => H (ix2 e k)) (fun k j => A7 (ix2 k j)) (fun j => A8 (ix1 j)) e j) j)
          (A9 (ix1 j)) (A10 (ix1 j))
      ∧ IsReal (bnReluE (F := Ideal) (lin2 H A7 A8) (meanE (lin2 H A7 A8)) (varE (lin2 H A7 A8)) A9 A10 (ix2 e j)) := by
  have hy : ∀ e j, lin2 (F := Ideal) H A7 A8 (ix2 e j) = Spec.lin1 (fun e k => H (ix2 e k)) (fun k j => A7 (ix2 k j)) (fun j => A8 (ix1 j)) e j :=
    fun e j => (lin2_apply H A7 A8 e j).trans (Spec.linR_eq_lin1 _ _ _ e j)
  have hreal : ∀ e j, IsReal (Spec.lin1 (fun e k => H (ix2 e k)) (fun k j => A7 (ix2 k j)) (fun j => A8 (ix1 j)) e j) :=
    fun e j => Spec.isReal_lin1 _ _ _ (fun e k => rH _) (fun k j => r7 _) (fun j => r8 _) e j
  have heq := Spec.stage_eq (R := 800000) 800000 (by norm_num) (by norm_num)
    (fun e j => Spec.lin1 (fun e k => H (ix2 e k)) (fun k j => A7 (ix2 k j)) (fun j => A8 (ix1 j)) e j)
    (fun e j => lin2 (F := Ideal) H A7 A8 (ix2 e j)) hy hreal (A9 (ix1 j)) (A10 (ix1 j)) e j
  have hmain : bnReluE (F := Ideal) (lin2 H A7 A8) (meanE (lin2 H A7 A8)) (varE (lin2 H A7 A8)) A9 A10 (ix2 e j)
      = Spec.bnrelu (lin2 (F := Ideal) H A7 A8 (ix2 e j)) (Spec.meanR ((800000 : ℝ) : EReal) (fun e j => lin2 (F := Ideal) H A7 A8 (ix2 e j)) j)
          (Spec.varR ((800000 : ℝ) : EReal) (fun e j => lin2 (F := Ideal) H A7 A8 (ix2 e j)) j) (A9 (ix1 j)) (A10 (ix1 j)) := by
    rw [bnReluE_apply, meanE_apply, varE_apply, ofBits_800000]
  refine ⟨hmain.trans heq, ?_⟩
  rw [hmain.trans heq]
  exact Spec.isReal_bnrelu (hreal e j) (Spec.isReal_meanK _ _ j fun e => hreal e j) (Spec.isReal_varK _ _ j fun e => hreal e j)
    (Spec.varK_nonneg _ _ j) (r9 _) (r10 _)

/-- The fourth stage over the 50000 nodes, both arrangements at an entry: the plain program's normalised, rectified
    linear layer of a real table H with real weights, bias, scale and shift is the kernels' arrangement of it — the
    bias first, the statistics in one pass with the reciprocal of the row count — and it is real. -/
theorem stageN_core (H : (⟨S50000x128, .f32⟩ : BufTy).Contents (Elt Ideal)) (A15 : (⟨S128x128, .f32⟩ : BufTy).Contents (Elt Ideal))
    (A16 A17 A18 : (⟨S128, .f32⟩ : BufTy).Contents (Elt Ideal))
    (rH : ∀ i, IsReal (H i)) (r15 : ∀ i, IsReal (A15 i)) (r16 : ∀ i, IsReal (A16 i)) (r17 : ∀ i, IsReal (A17 i)) (r18 : ∀ i, IsReal (A18 i))
    (e : Fin 50000) (j : Fin 128) :
    bnReluN (F := Ideal) (lin4 H A15 A16) (meanN (lin4 H A15 A16)) (varN (lin4 H A15 A16)) A17 A18 (ix2 e j)
      = Spec.bnrelu (Spec.lin1 (fun e k => H (ix2 e k)) (fun k j => A15 (ix2 k j)) (fun j => A16 (ix1 j)) e j)
          (Spec.meanK (((1 / 50000 : ℝ) : ℝ) : EReal) (fun e j => Spec.lin1 (fun e k => H (ix2 e k)) (fun k j => A15 (ix2 k j)) (fun j => A16 (ix1 j)) e j) j)
          (Spec.varK (((1 / 50000 : ℝ) : ℝ) : EReal) (fun e j => Spec.lin1 (fun e k => H (ix2 e k)) (fun k j => A15 (ix2 k j)) (fun j => A16 (ix1 j)) e j) j)
          (A17 (ix1 j)) (A18 (ix1 j))
      ∧ IsReal (bnReluN (F := Ideal) (lin4 H A15 A16) (meanN (lin4 H A15 A16)) (varN (lin4 H A15 A16)) A17 A18 (ix2 e j)) := by
  have hy : ∀ e j, lin4 (F := Ideal) H A15 A16 (ix2 e j) = Spec.lin1 (fun e k => H (ix2 e k)) (fun k j => A15 (ix2 k j)) (fun j => A16 (ix1 j)) e j :=
    fun e j => (lin4_apply H A15 A16 e j).trans (Spec.linR_eq_lin1 _ _ _ e j)
  have hreal : ∀ e j, IsReal (Spec.lin1 (fun e k => H (ix2 e k)) (fun k j => A15 (ix2 k j)) (fun j => A16 (ix1 j)) e j) :=
    fun e j => Spec.isReal_lin1 _ _ _ (fun e k => rH _) (fun k j => r15 _) (fun j => r16 _) e j
  have heq := Spec.stage_eq (R := 50000) 50000 (by norm_num) (by norm_num)
    (fun e j => Spec.lin1 (fun e k => H (ix2 e k)) (fun k j => A15 (ix2 k j)) (fun j => A16 (ix1 j)) e j)
    (fun e j => lin4 (F := Ideal) H A15 A16 (ix2 e j)) hy hreal (A17 (ix1 j)) (A18 (ix1 j)) e j
  have hmain : bnReluN (F := Ideal) (lin4 H A15 A16) (meanN (lin4 H A15 A16)) (varN (lin4 H A15 A16)) A17 A18 (ix2 e j)
      = Spec.bnrelu (lin4 (F := Ideal) H A15 A16 (ix2 e j)) (Spec.meanR ((50000 : ℝ) : EReal) (fun e j => lin4 (F := Ideal) H A15 A16 (ix2 e j)) j)
          (Spec.varR ((50000 : ℝ) : EReal) (fun e j => lin4 (F := Ideal) H A15 A16 (ix2 e j)) j) (A17 (ix1 j)) (A18 (ix1 j)) := by
    rw [bnReluN_apply, meanN_apply, varN_apply, ofBits_50000]
  refine ⟨hmain.trans heq, ?_⟩
  rw [hmain.trans heq]
  exact Spec.isReal_bnrelu (hreal e j) (Spec.isReal_meanK _ _ j fun e => hreal e j) (Spec.isReal_varK _ _ j fun e => hreal e j)
    (Spec.varK_nonneg _ _ j) (r17 _) (r18 _)

end Cert.Bridge

end
-- ==== Proof.KI.StatsVal2.lean ====
import proofs.«110491_j38809324487019_2_alg».proof.Proof.KI.Stats2
import proofs.«110491_j38809324487019_2_alg».proof.Proof.Spec
import Idealize.ShloMosaic.PureOps.Ideal
import Idealize.ShloMosaic.PureOps.Ideal.Laws
import Idealize.ShloMosaic.Lib.ValueIdx
import Idealize.ShloMosaic.Lib.ValueLayout

/-!
# Region 2, the statistics kernel: the two outputs as exact values

At the exact values (every float operation the textbook one on the extended reals, a change of format the identity) the
body's payloads are read entry by entry: an entry of the linear layer's output on a block is the bias plus the row's product
with the weight column; the running sum advances by the block's column sums, the running sum of squares by the column sums
of the squared entries; block `t` of the activations is rows `6400·t …` of the array. By induction on the grid point the
accumulators after point `n` are the column sums over the first `6400·(n+1)` rows, so after the last point over all 800000
rows; the mean is that total times the named reciprocal of the row count, the variance the mean of the squares minus the
squared mean, not below zero.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The payloads at the exact values, entry by entry -/

/-- The reduced index with the row put back: the column-sum's source index. -/
theorem lift_row2 (h : S6400x128.Reduces [0] S128) (j : Fin 128) (r : Fin 6400) : h.lift (ix1 j) r = ix2 r j := by
  funext c
  apply Fin.ext
  refine (Shape.Reduces.lift_val h (ix1 j) r c).trans ?_
  match c with
  | ⟨0, _⟩ => simp [Shape.Reduces.liftVal]
  | ⟨1, _⟩ => simp [Shape.Reduces.liftVal]

theorem pay4_apply2 (b : Vec Ideal S1x128 .f32) (h : Vec Ideal S6400x128 .bf16) (w : Vec Ideal S128x128 .f32) (s : Vec Ideal S1x128 .f32) (j : Fin 128) :
    k2_pay4 b h w s (ix2 (0 : Fin 1) j) = s (ix2 (0 : Fin 1) j) + ∑ r : Fin 6400, k2_pay1 b h w (ix2 r j) := by
  unfold k2_pay4
  rw [shapeCast_self]
  refine (addf_apply _ _ _).trans ?_
  refine congrArg (s (ix2 0 j) + ·) ?_
  refine (shapeCast_a_1a_apply _ _ 0 j).trans ?_
  refine (Ideal.multiReduction_add_single (k2_pay1 b h w) 0x00000000#32 _ _ _ (ix1 j)).trans ?_
  exact Finset.sum_congr rfl fun r _ => congrArg (k2_pay1 b h w) (lift_row2 _ j r)

/-- The linear layer's product: contraction over the 128 input columns. -/
abbrev D2 : DotDims S6400x128 S128x128 S6400x128 := dot_S6400x128_S128x128_S6400x128_1_0_0_1_n_n

theorem D2_lhs0 (x : S6400x128.Idx) (k : D2.contr.Idx) : (D2.lhsIdx x k 0 : ℕ) = x 0 := by
  simp [DotDims.lhsIdx, D2, dot_S6400x128_S128x128_S6400x128_1_0_0_1_n_n]; rfl
theorem D2_lhs1 (x : S6400x128.Idx) (k : D2.contr.Idx) : (D2.lhsIdx x k 1 : ℕ) = k ⟨0, by decide⟩ := by
  simp [DotDims.lhsIdx, D2, dot_S6400x128_S128x128_S6400x128_1_0_0_1_n_n]; rfl
theorem D2_rhs0 (x : S6400x128.Idx) (k : D2.contr.Idx) : (D2.rhsIdx x k 0 : ℕ) = k ⟨0, by decide⟩ := by
  simp [DotDims.rhsIdx, D2, dot_S6400x128_S128x128_S6400x128_1_0_0_1_n_n]; rfl
theorem D2_rhs1 (x : S6400x128.Idx) (k : D2.contr.Idx) : (D2.rhsIdx x k 1 : ℕ) = x 1 := by
  simp [DotDims.rhsIdx, D2, dot_S6400x128_S128x128_S6400x128_1_0_0_1_n_n]; rfl

/-- The contraction index is its one coordinate. -/
abbrev e2 : D2.contr.Idx ≃ Fin 128 := contrEquiv1 D2 128 rfl rfl

theorem D2_lhs (r : Fin 6400) (j k : Fin 128) : D2.lhsIdx (ix2 r j) (e2.symm k) = ix2 r k := by
  funext a; apply Fin.ext
  match a with
  | ⟨0, _⟩ => exact D2_lhs0 _ _
  | ⟨1, _⟩ => exact (D2_lhs1 _ _).trans (contrEquiv1_symm_val D2 128 rfl rfl k)
theorem D2_rhs (r : Fin 6400) (j k : Fin 128) : D2.rhsIdx (ix2 r j) (e2.symm k) = ix2 k j := by
  funext a; apply Fin.ext
  match a with
  | ⟨0, _⟩ => exact (D2_rhs0 _ _).trans (contrEquiv1_symm_val D2 128 rfl rfl k)
  | ⟨1, _⟩ => exact D2_rhs1 _ _

/-- One entry of the linear layer's output on a block: the bias plus the row's product with the weight column
    (rounding to bf16 is the identity on the exact values). -/
theorem pay1_apply2 (b : Vec Ideal S1x128 .f32) (h : Vec Ideal S6400x128 .bf16) (w : Vec Ideal S128x128 .f32) (r : Fin 6400) (j : Fin 128) :
    k2_pay1 b h w (ix2 r j) = b (ix2 (0 : Fin 1) j) + ∑ k : Fin 128, h (ix2 r k) * w (ix2 k j) := by
  unfold k2_pay1
  refine (addf_apply _ _ _).trans ?_
  rw [broadcastTo_1b_ab_apply, shapeCast_self]
  refine congrArg (b (ix2 0 j) + ·) ?_
  refine (Ideal.matmul_constant_zero_apply D2 none _ _ (ix2 r j)).trans ?_
  refine (Equiv.sum_comp e2.symm _).symm.trans ?_
  refine Finset.sum_congr rfl fun k _ => ?_
  rw [D2_lhs, D2_rhs, shapeCast_self]
  rfl

/-- The zero rows the first point stores denote 0. -/
theorem pay2_apply2 (i : S1x128.Idx) : (k2_pay2 (F := Ideal)) i = 0 := by
  unfold k2_pay2
  rw [shapeCast_self]
  exact Ideal.ofBits_zero_f32
theorem pay3_apply2 (i : S1x128.Idx) : (k2_pay3 (F := Ideal)) i = 0 := by
  unfold k2_pay3
  rw [shapeCast_self]
  exact Ideal.ofBits_zero_f32

/-- The running sum of squares advances by the column sums of the block's squared entries. -/
theorem pay5_apply2 (b : Vec Ideal S1x128 .f32) (h : Vec Ideal S6400x128 .bf16) (w : Vec Ideal S128x128 .f32) (s : Vec Ideal S1x128 .f32) (j : Fin 128) :
    k2_pay5 b h w s (ix2 (0 : Fin 1) j) = s (ix2 (0 : Fin 1) j) + ∑ r : Fin 6400, k2_pay1 b h w (ix2 r j) * k2_pay1 b h w (ix2 r j) := by
  unfold k2_pay5
  rw [shapeCast_self]
  refine (addf_apply _ _ _).trans ?_
  refine congrArg (s (ix2 0 j) + ·) ?_
  refine (shapeCast_a_1a_apply _ _ 0 j).trans ?_
  refine (Ideal.multiReduction_add_single (mulf (k2_pay1 b h w) (k2_pay1 b h w)) 0x00000000#32 _ _ _ (ix1 j)).trans ?_
  exact Finset.sum_congr rfl fun r _ => congrArg (mulf (k2_pay1 b h w) (k2_pay1 b h w)) (lift_row2 _ j r)

/-- The named reciprocal of the row count denotes the rational. -/
theorem named_inv2 : Named.named (F := Ideal) κ "inv_800000" (φ := .f32) 0x35A7C5AC#32 = ((1 / 800000 : ℝ) : EReal) :=
  IdealRules.named_const.ideal_named_scalar _ _ _ _ rfl

/-- The mean: the total times the reciprocal of the row count. -/
theorem pay6_apply2 (S : Vec Ideal S1x128 .f32) (i : S1x128.Idx) : k2_pay6 S i = S i * ((1 / 800000 : ℝ) : EReal) := by
  unfold k2_pay6
  refine (mulf_apply _ _ _).trans ?_
  exact congrArg (S i * ·) named_inv2

/-- The variance: the mean of the squares minus the squared mean, not below the zero pattern. -/
theorem pay7_apply2 (S Q : Vec Ideal S1x128 .f32) (i : S1x128.Idx) :
    k2_pay7 S Q i = max (Q i * ((1 / 800000 : ℝ) : EReal) - (S i * ((1 / 800000 : ℝ) : EReal)) * (S i * ((1 / 800000 : ℝ) : EReal))) (Ideal.ofBits .f32 0x00000000#32) := by
  unfold k2_pay7
  refine (maximumf_apply _ _ _).trans ?_
  refine congrArg (max · _) ?_
  refine (subf_apply _ _ _).trans ?_
  rw [mulf_apply, mulf_apply, pay6_apply2]
  exact congrArg (fun z => Q i * z - _) named_inv2

/-! ## The windows' blocks, entry by entry -/

variable (V : (c : Dev nD) → (b : Ref sig .tc) → Buf (Elt Ideal) ((c : Thread nD τ).loc b))

/-- The region's three input arrays as tables of exact values: the activations, the weight, the bias row. -/
def X2 (c : Dev nD) (e : Fin 800000) (k : Fin 128) : EReal := V c main_v18 (ix2 e k)
def W2 (c : Dev nD) (k j : Fin 128) : EReal := V c main_arg7 (ix2 k j)
def B2 (c : Dev nD) (j : Fin 128) : EReal := V c main_v19 (ix2 (0 : Fin 1) j)

theorem index2_0 : ∀ t : Fin grid2.N, win2_0.index t 0 = t.val ∧ win2_0.index t 1 = 0 := by decide +kernel
theorem index2_1 : ∀ t : Fin grid2.N, win2_1.index t 0 = 0 ∧ win2_1.index t 1 = 0 := by decide +kernel
theorem index2_2 : ∀ t : Fin grid2.N, win2_2.index t 0 = 0 ∧ win2_2.index t 1 = 0 := by decide +kernel

/-- Row `r` of the activation block at point `t` is row `6400·t + r` of the array. -/
theorem iblk2_0_apply (c : Dev nD) (t : Fin cfg2.N) (r : Fin 6400) (k : Fin 128) (hr : 6400 * t.val + r.val < 800000) :
    iblk2 V c 0 t (ix2 r k) = X2 V c ⟨6400 * t.val + r.val, hr⟩ k := by
  unfold iblk2 X2
  rw [View.read_apply]
  show V c main_v18 _ = V c main_v18 _
  refine congrArg (V c main_v18) ?_
  funext a; apply Fin.ext
  match a with
  | ⟨0, _⟩ => show win2_0.index t 0 * 6400 + 1 * r.val = 6400 * t.val + r.val; rw [(index2_0 t).1]; omega
  | ⟨1, _⟩ => show win2_0.index t 1 * 128 + 1 * k.val = k.val; rw [(index2_0 t).2]; omega

/-- The weight and the bias windows hold their whole arrays at every point. -/
theorem iblk2_1_apply (c : Dev nD) (t : Fin cfg2.N) (k j : Fin 128) :
    iblk2 V c 1 t (ix2 k j) = W2 V c k j := by
  unfold iblk2 W2
  rw [View.read_apply]
  show V c main_arg7 _ = V c main_arg7 _
  refine congrArg (V c main_arg7) ?_
  funext a; apply Fin.ext
  match a with
  | ⟨0, _⟩ => show win2_1.index t 0 * 128 + 1 * k.val = k.val; rw [(index2_1 t).1]; omega
  | ⟨1, _⟩ => show win2_1.index t 1 * 128 + 1 * j.val = j.val; rw [(index2_1 t).2]; omega

theorem iblk2_2_apply (c : Dev nD) (t : Fin cfg2.N) (j : Fin 128) :
    iblk2 V c 2 t (ix2 (0 : Fin 1) j) = B2 V c j := by
  unfold iblk2 B2
  rw [View.read_apply]
  show V c main_v19 _ = V c main_v19 _
  refine congrArg (V c main_v19) ?_
  funext a; apply Fin.ext
  match a with
  | ⟨0, _⟩ => show win2_2.index t 0 * 1 + 1 * 0 = 0; rw [(index2_2 t).1]
  | ⟨1, _⟩ => show win2_2.index t 1 * 128 + 1 * j.val = j.val; rw [(index2_2 t).2]; omega

/-! ## The accumulators as sums over all rows -/

/-- The linear layer's output on all 800000 rows, as a table of exact values. -/
def linTab2 (c : Dev nD) : Fin 800000 → Fin 128 → EReal := Spec.lin1 (X2 V c) (W2 V c) (B2 V c)

/-- The same with the row a natural number (zero past the last row). -/
def linNat2 (c : Dev nD) (n : ℕ) (j : Fin 128) : EReal := if h : n < 800000 then linTab2 V c ⟨n, h⟩ j else 0

/-- An entry of the layer's output on the block of point `t` is the table's entry at row `6400·t + r`. -/
theorem pay1_blk2 (c : Dev nD) (t : Fin cfg2.N) (r : Fin 6400) (j : Fin 128) :
    k2_pay1 (iblk2 V c 2 t) (iblk2 V c 0 t) (iblk2 V c 1 t) (ix2 r j) = linNat2 V c (6400 * t.val + r.val) j := by
  have ht : t.val < 125 := lt_of_lt_of_eq t.isLt N_2
  have hr : 6400 * t.val + r.val < 800000 := by have := r.isLt; omega
  refine (pay1_apply2 _ _ _ r j).trans ?_
  unfold linNat2; rw [dif_pos hr]
  show _ = B2 V c j + ∑ k : Fin 128, X2 V c ⟨6400 * t.val + r.val, hr⟩ k * W2 V c k j
  rw [iblk2_2_apply]
  exact congrArg (fun z : EReal => B2 V c j + z)
    (Finset.sum_congr rfl fun k _ => by rw [iblk2_0_apply V c t r k hr, iblk2_1_apply])

/-- The column sums of the block of point `t`, as a sum over a range of rows. -/
theorem blockSum2 (c : Dev nD) (t : Fin cfg2.N) (j : Fin 128) :
    ∑ r : Fin 6400, k2_pay1 (iblk2 V c 2 t) (iblk2 V c 0 t) (iblk2 V c 1 t) (ix2 r j)
      = ∑ x ∈ Finset.range 6400, linNat2 V c (6400 * t.val + x) j :=
  (Finset.sum_congr rfl fun r _ => pay1_blk2 V c t r j).trans (Finset.sum_range (fun x => linNat2 V c (6400 * t.val + x) j)).symm

theorem blockSumSq2 (c : Dev nD) (t : Fin cfg2.N) (j : Fin 128) :
    ∑ r : Fin 6400, k2_pay1 (iblk2 V c 2 t) (iblk2 V c 0 t) (iblk2 V c 1 t) (ix2 r j) * k2_pay1 (iblk2 V c 2 t) (iblk2 V c 0 t) (iblk2 V c 1 t) (ix2 r j)
      = ∑ x ∈ Finset.range 6400, linNat2 V c (6400 * t.val + x) j * linNat2 V c (6400 * t.val + x) j :=
  (Finset.sum_congr rfl fun r _ => by rw [pay1_blk2 V c t r j]).trans
    (Finset.sum_range (fun x => linNat2 V c (6400 * t.val + x) j * linNat2 V c (6400 * t.val + x) j)).symm

/-- After point `n` the running sum holds the column sums of the first `6400·(n+1)` rows. -/
theorem accSum2_val (c : Dev nD) (j : Fin 128) : ∀ (n : ℕ) (hn : n < cfg2.N),
    accSum2 V c n hn (ix2 (0 : Fin 1) j) = ∑ e ∈ Finset.range (6400 * (n + 1)), linNat2 V c e j
  | 0, hn => by
    refine (pay4_apply2 _ _ _ _ j).trans ?_
    rw [pay2_apply2, zero_add, blockSum2 V c ⟨0, hn⟩ j]
    simp only [Nat.mul_zero, Nat.zero_add, Nat.mul_one]
  | n + 1, hn => by
    refine (pay4_apply2 _ _ _ _ j).trans ?_
    rw [accSum2_val c j n (Nat.lt_of_succ_lt hn), blockSum2 V c ⟨n + 1, hn⟩ j,
      show 6400 * (n + 1 + 1) = 6400 * (n + 1) + 6400 from by ring, Finset.sum_range_add]

theorem accSq2_val (c : Dev nD) (j : Fin 128) : ∀ (n : ℕ) (hn : n < cfg2.N),
    accSq2 V c n hn (ix2 (0 : Fin 1) j) = ∑ e ∈ Finset.range (6400 * (n + 1)), linNat2 V c e j * linNat2 V c e j
  | 0, hn => by
    refine (pay5_apply2 _ _ _ _ j).trans ?_
    rw [pay3_apply2, zero_add, blockSumSq2 V c ⟨0, hn⟩ j]
    simp only [Nat.mul_zero, Nat.zero_add, Nat.mul_one]
  | n + 1, hn => by
    refine (pay5_apply2 _ _ _ _ j).trans ?_
    rw [accSq2_val c j n (Nat.lt_of_succ_lt hn), blockSumSq2 V c ⟨n + 1, hn⟩ j,
      show 6400 * (n + 1 + 1) = 6400 * (n + 1) + 6400 from by ring, Finset.sum_range_add]

/-- A sum over the first 800000 naturals of the table read at naturals is the sum over the table's rows. -/
theorem sum_linNat2 (c : Dev nD) (j : Fin 128) :
    ∑ e ∈ Finset.range 800000, linNat2 V c e j = ∑ e : Fin 800000, linTab2 V c e j := by
  rw [Finset.sum_range]
  exact Finset.sum_congr rfl fun e _ => by unfold linNat2; rw [dif_pos e.isLt]

theorem sum_linNat2_sq (c : Dev nD) (j : Fin 128) :
    ∑ e ∈ Finset.range 800000, linNat2 V c e j * linNat2 V c e j = ∑ e : Fin 800000, linTab2 V c e j * linTab2 V c e j := by
  rw [Finset.sum_range]
  exact Finset.sum_congr rfl fun e _ => by unfold linNat2; rw [dif_pos e.isLt]

/-! ## The two outputs -/

/-- After the last point the running sum holds the column sums over all rows, the running sum of squares the column sums
    of the squares. -/
theorem accSum2_last (c : Dev nD) (j : Fin 128) :
    accSum2 V c tLast2.val tLast2.isLt (ix2 (0 : Fin 1) j) = ∑ e : Fin 800000, linTab2 V c e j :=
  (accSum2_val V c j 124 tLast2.isLt).trans (sum_linNat2 V c j)

theorem accSq2_last (c : Dev nD) (j : Fin 128) :
    accSq2 V c tLast2.val tLast2.isLt (ix2 (0 : Fin 1) j) = ∑ e : Fin 800000, linTab2 V c e j * linTab2 V c e j :=
  (accSq2_val V c j 124 tLast2.isLt).trans (sum_linNat2_sq V c j)

/-- An index of a one-row table is its column. -/
theorem exists_col2 (i : S1x128.Idx) : ∃ j : Fin 128, i = ix2 (0 : Fin 1) j :=
  ⟨i 1, by
    funext a
    match a with
    | ⟨0, _⟩ => apply Fin.ext; have := idx2_lt0 i; show (i 0).val = 0; omega
    | ⟨1, _⟩ => rfl⟩

/-- THE MEAN the region leaves: the column mean, one pass, of the linear layer's output over all rows. -/
theorem mean2Res_col (c : Dev nD) (j : Fin 128) :
    mean2Res V c (ix2 (0 : Fin 1) j) = Spec.meanK (((1 / 800000 : ℝ) : EReal)) (linTab2 V c) j := by
  show k2_pay6 (accSum2 V c tLast2.val tLast2.isLt) (ix2 (0 : Fin 1) j) = _
  rw [pay6_apply2, accSum2_last]
  rfl

/-- THE VARIANCE the region leaves: the column variance, one pass, of the same. -/
theorem var2Res_col (c : Dev nD) (j : Fin 128) :
    var2Res V c (ix2 (0 : Fin 1) j) = Spec.varK (((1 / 800000 : ℝ) : EReal)) (linTab2 V c) j := by
  show k2_pay7 (accSum2 V c tLast2.val tLast2.isLt) (accSq2 V c tLast2.val tLast2.isLt) (ix2 (0 : Fin 1) j) = _
  rw [pay7_apply2, accSum2_last, accSq2_last]
  rfl

theorem mean2_val (c : Dev nD) :
    (dat2 V c).arrAt 3 cfg2.N = fun i => Spec.meanK (((1 / 800000 : ℝ) : EReal)) (linTab2 V c) (i 1) := by
  rw [mean2]; funext i
  obtain ⟨j, rfl⟩ := exists_col2 i
  exact mean2Res_col V c j

theorem var2_val (c : Dev nD) :
    (dat2 V c).arrAt 4 cfg2.N = fun i => Spec.varK (((1 / 800000 : ℝ) : EReal)) (linTab2 V c) (i 1) := by
  rw [var2]; funext i
  obtain ⟨j, rfl⟩ := exists_col2 i
  exact var2Res_col V c j

end Cert.KernelIdeal.Hand

end
-- ==== Proof.Bridge.Stage2.lean ====
import proofs.«110491_j38809324487019_2_alg».proof.Proof.Bridge.Defs
import proofs.«110491_j38809324487019_2_alg».proof.Proof.Bridge.StageCore
import proofs.«110491_j38809324487019_2_alg».proof.Proof.Bridge.Congr
import proofs.«110491_j38809324487019_2_alg».proof.Proof.KHost
import proofs.«110491_j38809324487019_2_alg».proof.Proof.KI.StatsVal2

/-!
  The second fused stage, kernel program against plain program. The kernel program's second-stage activations are one
  function of the arrays its apply region is entered with; walked back along the program those arrays are the first
  stage's activations, the arguments, and the statistics region's column mean and variance, themselves the one-pass
  statistics of the same linear layer. With the first stage's activations equal to the plain program's and real, that
  function is the kernels' arrangement of the plain program's second stage, entry by entry.
-/

set_option maxRecDepth 16384

noncomputable section

namespace Cert.Bridge

open Idealize.ShloMosaic Idealize.ShloMosaic.ValueIdx Idealize.ShloMosaic.TcCoe Idealize.SL.Sem Cert.LibStats
open Cert.KernelIdeal Cert.KernelIdeal.Gen Cert.KernelIdeal.Hand

variable (m : (ℓ : Loc nD τ sig) → Buf (Elt Ideal) ℓ)

/-! ## The arguments the second stage reads, walked back to the launch -/

theorem keep8_U4 (c : Dev nD) : U4 m kI c main_arg8 = U0 m c main_arg8 := by
  rw [U4_of m kI c main_arg8 (by decide), U3_of m kI c main_arg8 (by decide), U2_of m kI c main_arg8 (by decide), U1_of m c main_arg8 (by decide)]
theorem keep8_U6 (c : Dev nD) : U6 m kI c main_arg8 = U0 m c main_arg8 := by
  rw [U6_of m kI c main_arg8 (by decide), U5_of m kI c main_arg8 (by decide), keep8_U4]
theorem keep9_U6 (c : Dev nD) : U6 m kI c main_arg9 = U0 m c main_arg9 := by
  rw [U6_of m kI c main_arg9 (by decide), U5_of m kI c main_arg9 (by decide), U4_of m kI c main_arg9 (by decide), U3_of m kI c main_arg9 (by decide), U2_of m kI c main_arg9 (by decide), U1_of m c main_arg9 (by decide)]
theorem keep10_U6 (c : Dev nD) : U6 m kI c main_arg10 = U0 m c main_arg10 := by
  rw [U6_of m kI c main_arg10 (by decide), U5_of m kI c main_arg10 (by decide), U4_of m kI c main_arg10 (by decide), U3_of m kI c main_arg10 (by decide), U2_of m kI c main_arg10 (by decide), U1_of m c main_arg10 (by decide)]

/-- THE SECOND STAGE: the kernel program's second-stage activations are the plain program's, and real. -/
theorem stage2 (c : Dev nD) (V' : Valuation Cert.ReferenceIdeal.τ Cert.ReferenceIdeal.sig (Elt Ideal)) (hA : Agree m c V')
    (r7 : ∀ i : S128x128.Idx, IsReal (m ((c.tc : Thread nD τ).loc main_arg7) i))
    (r8 : ∀ i : S128.Idx, IsReal (m ((c.tc : Thread nD τ).loc main_arg8) i))
    (r9 : ∀ i : S128.Idx, IsReal (m ((c.tc : Thread nD τ).loc main_arg9) i))
    (r10 : ∀ i : S128.Idx, IsReal (m ((c.tc : Thread nD τ).loc main_arg10) i))
    (h1 : (U4 m kI c main_v18 : S800000x128.Idx → EReal) = Cert.ReferenceIdeal.Hand.valH1 V') (r1 : ∀ i, IsReal (Cert.ReferenceIdeal.Hand.valH1 V' i)) :
    (U8 m kI c main_v24 : S800000x128.Idx → EReal) = Cert.ReferenceIdeal.Hand.valH2 V' ∧ ∀ i, IsReal (Cert.ReferenceIdeal.Hand.valH2 V' i) := by
  -- the arguments on the plain program's side
  have r7' : ∀ i, IsReal (V' (Proc.devRef .tc Cert.ReferenceIdeal.main_arg7) i) := by rw [hA.a7]; exact r7
  have r8' : ∀ i, IsReal (V' (Proc.devRef .tc Cert.ReferenceIdeal.main_arg8) i) := by rw [hA.a8]; exact r8
  have r9' : ∀ i, IsReal (V' (Proc.devRef .tc Cert.ReferenceIdeal.main_arg9) i) := by rw [hA.a9]; exact r9
  have r10' : ∀ i, IsReal (V' (Proc.devRef .tc Cert.ReferenceIdeal.main_arg10) i) := by rw [hA.a10]; exact r10
  have hcore := fun e j => stageE_core (Cert.ReferenceIdeal.Hand.valH1 V') (V' (Proc.devRef .tc Cert.ReferenceIdeal.main_arg7)) (V' (Proc.devRef .tc Cert.ReferenceIdeal.main_arg8))
    (V' (Proc.devRef .tc Cert.ReferenceIdeal.main_arg9)) (V' (Proc.devRef .tc Cert.ReferenceIdeal.main_arg10)) r1 r7' r8' r9' r10' e j
  -- the kernel program's reads
  have hH7 : (E7 m c main_v18 : S800000x128.Idx → EReal) = Cert.ReferenceIdeal.Hand.valH1 V' := (rd3_0 m kI c).trans h1
  have hH5 : (E5 m c main_v18 : S800000x128.Idx → EReal) = Cert.ReferenceIdeal.Hand.valH1 V' := (rd2_0 m kI c).trans h1
  have hW7 : (E7 m c main_arg7 : S128x128.Idx → EReal) = V' (Proc.devRef .tc Cert.ReferenceIdeal.main_arg7) := (rd3_1 m kI c).trans hA.a7.symm
  have hW5 : (E5 m c main_arg7 : S128x128.Idx → EReal) = V' (Proc.devRef .tc Cert.ReferenceIdeal.main_arg7) := (rd2_1 m kI c).trans hA.a7.symm
  have hb7 : ∀ j : Fin 128, (E7 m c main_v21 : S1x128.Idx → EReal) (ix2 0 j) = V' (Proc.devRef .tc Cert.ReferenceIdeal.main_arg8) (ix1 j) := fun j =>
    (kread_v21 (U6 m kI c) j).trans (congrFun ((keep8_U6 m c).trans hA.a8.symm) (ix1 j))
  have hb5 : ∀ j : Fin 128, (E5 m c main_v19 : S1x128.Idx → EReal) (ix2 0 j) = V' (Proc.devRef .tc Cert.ReferenceIdeal.main_arg8) (ix1 j) := fun j =>
    (kread_v19 (U4 m kI c) j).trans (congrFun ((keep8_U4 m c).trans hA.a8.symm) (ix1 j))
  have hg7 : ∀ j : Fin 128, (E7 m c main_v22 : S1x128.Idx → EReal) (ix2 0 j) = V' (Proc.devRef .tc Cert.ReferenceIdeal.main_arg9) (ix1 j) := fun j =>
    (kread_v22 (U6 m kI c) j).trans (congrFun ((keep9_U6 m c).trans hA.a9.symm) (ix1 j))
  have hbe7 : ∀ j : Fin 128, (E7 m c main_v23 : S1x128.Idx → EReal) (ix2 0 j) = V' (Proc.devRef .tc Cert.ReferenceIdeal.main_arg10) (ix1 j) := fun j =>
    (kread_v23 (U6 m kI c) j).trans (congrFun ((keep10_U6 m c).trans hA.a10.symm) (ix1 j))
  -- the linear layer's table, as the statistics region and as the apply region read it
  have hy5 : ∀ (e : Fin 800000) (j : Fin 128), linTab2 (E5 m) c e j
        = Spec.lin1 (fun e k => Cert.ReferenceIdeal.Hand.valH1 V' (ix2 e k)) (fun k j => V' (Proc.devRef .tc Cert.ReferenceIdeal.main_arg7) (ix2 k j)) (fun j => V' (Proc.devRef .tc Cert.ReferenceIdeal.main_arg8) (ix1 j)) e j :=
    fun e j => lin1_congr (fun e k => congrFun hH5 _) (fun k j => congrFun hW5 _) hb5 e j
  have hmean7 : ∀ j : Fin 128, (E7 m c main_v20_0 : S1x128.Idx → EReal) (ix2 0 j)
      = Spec.meanK (((1 / 800000 : ℝ) : ℝ) : EReal) (fun e j => Spec.lin1 (fun e k => Cert.ReferenceIdeal.Hand.valH1 V' (ix2 e k)) (fun k j => V' (Proc.devRef .tc Cert.ReferenceIdeal.main_arg7) (ix2 k j)) (fun j => V' (Proc.devRef .tc Cert.ReferenceIdeal.main_arg8) (ix1 j)) e j) j := fun j =>
    (congrFun ((rd3_5 m kI c).trans (resMean2 m c)) (ix2 0 j)).trans ((mean2Res_col (E5 m) c j).trans (meanK_congr _ hy5 j))
  have hvar7 : ∀ j : Fin 128, (E7 m c main_v20_1 : S1x128.Idx → EReal) (ix2 0 j)
      = Spec.varK (((1 / 800000 : ℝ) : ℝ) : EReal) (fun e j => Spec.lin1 (fun e k => Cert.ReferenceIdeal.Hand.valH1 V' (ix2 e k)) (fun k j => V' (Proc.devRef .tc Cert.ReferenceIdeal.main_arg7) (ix2 k j)) (fun j => V' (Proc.devRef .tc Cert.ReferenceIdeal.main_arg8) (ix1 j)) e j) j := fun j =>
    (congrFun ((rd3_6 m kI c).trans (resVar2 m c)) (ix2 0 j)).trans ((var2Res_col (E5 m) c j).trans (varK_congr _ hy5 j))
  refine ⟨?_, fun i => ?_⟩
  · funext i
    obtain ⟨e, j, rfl⟩ : ∃ (e : Fin 800000) (j : Fin 128), i = ix2 e j := ⟨i 0, i 1, eq_ix2 i⟩
    refine (congrFun (res3_7 m c) (ix2 e j)).trans ?_
    refine Eq.trans ?_ (hcore e j).1.symm
    show Spec.bnrelu _ _ _ _ _ = _
    exact bnrelu_congr (lin1_congr (fun e k => congrFun hH7 _) (fun k j => congrFun hW7 _) hb7 e j) (hmean7 j) (hvar7 j) (hg7 j) (hbe7 j)
  · obtain ⟨e, j, rfl⟩ : ∃ (e : Fin 800000) (j : Fin 128), i = ix2 e j := ⟨i 0, i 1, eq_ix2 i⟩
    exact (hcore e j).2

end Cert.Bridge

end
-- ==== Proof.AggReal.lean ====
/-
  The scatter-mean of a table of real numbers is a table of real numbers.

  A scatter-add, read over the extended reals, gives at every index the operand's entry plus the sum of those update
  entries that land on the index; so when the operand's entries and the update entries are all real numbers, so is every
  entry of the result (a finite sum of reals is real).  The per-node sum of the edge rows is such a scatter-add into
  zeros, and the per-node count is the scatter-add of ones into zeros: both are tables of reals.  The scatter-mean
  divides each entry of the sum by the larger of its node's count and 1; that divisor is a real number which is at
  least 1, hence not zero, and the exact quotient of a real by a nonzero real is real.

  The facts are first proved for arrays of arbitrary shapes and then read at the shapes of the reference's stages.
-/
import proofs.«110491_j38809324487019_2_alg».proof.Proof.Ref.StageDefs
import proofs.«110491_j38809324487019_2_alg».proof.Proof.LibFinite

noncomputable section

namespace Cert.Proof.AggReal

open Idealize.ShloMosaic Cert.LibStats Cert.ReferenceIdeal Cert.ReferenceIdeal.Hand

/-- The single-precision pattern 0x3F800000 (sign 0, exponent 127, fraction 0) denotes 1. -/
theorem ofBits_one : Ideal.ofBits .f32 0x3F800000#32 = 1 := by
  simp [Ideal.ofBits, Ideal.ieee, -EReal.coe_mul]; norm_num

/-- A scatter-add of real updates into a real operand is real at every index: the operand's entry plus a finite sum of
    update entries. -/
theorem hostScatterAdd_real {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (IsReal.sum _ _ fun j _ => hu j)

/-- Every entry of the all-zeros table (of any shape) is real. -/
theorem zeros_real {s : Shape} (hb : S_.BroadcastsInDim s (![] : Fin 0 → Fin s.rank)) (i : s.Idx) :
    IsReal ((broadcastInDim s ![] hb (constant S_ .f32 0x00000000#32) : FVec Ideal s .f32) i) := by
  show IsReal (Ideal.ofBits .f32 0x00000000#32)
  exact isReal_ofBits_zero

/-- Every entry of the all-ones table (of any shape) is real. -/
theorem ones_real {s : Shape} (hb : S_.BroadcastsInDim s (![] : Fin 0 → Fin s.rank)) (i : s.Idx) :
    IsReal ((broadcastInDim s ![] hb (constant S_ .f32 0x3F800000#32) : FVec Ideal s .f32) i) := by
  show IsReal (Ideal.ofBits .f32 0x3F800000#32)
  rw [ofBits_one]; exact isReal_one

/-- A scatter-add of real updates into zeros, for arrays of any shapes, is real at every index. -/
theorem scatterAdd_zeros_real {s si su : Shape} {w : Nat} (d : ScatterDims s si su)
    (hb : S_.BroadcastsInDim s (![] : Fin 0 → Fin s.rank)) (idx : IVec si w) (upd : FVec Ideal su .f32)
    (hu : ∀ j, IsReal (upd j)) (i : s.Idx) :
    IsReal (Host.scatterAdd (F := Ideal) d (broadcastInDim s ![] hb (constant S_ .f32 0x00000000#32)) idx upd i) := by
  show IsReal (Ideal.hostScatterAdd d _ idx upd i)
  exact hostScatterAdd_real d _ idx upd (zeros_real hb) hu i

/-- The quotient of a real table by a twice re-laid table of (count raised to at least 1), for arrays of any shapes, is
    real at every index: the divisor is a real number that is at least 1. -/
theorem divMax_real {s2 s1 s0 : Shape} (num : FVec Ideal s2 .f32) (cnt : FVec Ideal s0 .f32)
    (d2 : Fin s1.rank → Fin s2.rank) (hb2 : s1.BroadcastsInDim s2 d2)
    (d1 : Fin s0.rank → Fin s1.rank) (hb1 : s0.BroadcastsInDim s1 d1)
    (hb0 : S_.BroadcastsInDim s0 (![] : Fin 0 → Fin s0.rank))
    (hn : ∀ i, IsReal (num i)) (hc : ∀ k, IsReal (cnt k)) (i : s2.Idx) :
    IsReal (Host.divf (F := Ideal) num (broadcastInDim s2 d2 hb2 (broadcastInDim s1 d1 hb1
      (maximumf cnt (broadcastInDim s0 ![] hb0 (constant S_ .f32 0x3F800000#32))))) i) := by
  show IsReal (Ideal.div (num i) (max (cnt _) (Ideal.ofBits .f32 0x3F800000#32)))
  rw [ofBits_one]
  exact (hn i).div ((hc _).max isReal_one) (lt_of_lt_of_le zero_lt_one (le_max_right _ _)).ne'

/-- The per-node sums of a real edge table are real. -/
theorem segSum_real (col : (⟨S800000, .i32⟩ : BufTy).Contents (Elt Ideal))
    (h : (⟨S800000x128, .f32⟩ : BufTy).Contents (Elt Ideal)) (hh : ∀ i, IsReal (h i)) (i : S50000x128.Idx) :
    IsReal (segSum (F := Ideal) col h i) :=
  scatterAdd_zeros_real _ _ _ h hh i

/-- The per-node edge counts are real. -/
theorem segCnt_real (col : (⟨S800000, .i32⟩ : BufTy).Contents (Elt Ideal)) (k : S50000.Idx) :
    IsReal (segCnt (F := Ideal) col k) :=
  scatterAdd_zeros_real _ _ _ _ (ones_real _) k

/-- The scatter-mean of real sums by real counts is real. -/
theorem aggOf_real_of (s : (⟨S50000x128, .f32⟩ : BufTy).Contents (Elt Ideal))
    (cnt : (⟨S50000, .f32⟩ : BufTy).Contents (Elt Ideal)) (hs : ∀ i, IsReal (s i)) (hc : ∀ k, IsReal (cnt k))
    (i : S50000x128.Idx) : IsReal (aggOf (F := Ideal) s cnt i) :=
  divMax_real s cnt _ _ _ _ _ hs hc i

/-- Every entry of the scatter-mean of a real edge table is real. -/
theorem aggOf_real (col : (⟨S800000, .i32⟩ : BufTy).Contents (Elt Ideal))
    (h : (⟨S800000x128, .f32⟩ : BufTy).Contents (Elt Ideal)) (hh : ∀ i, IsReal (h i)) :
    ∀ i, IsReal (aggOf (F := Ideal) (segSum col h) (segCnt col) i) :=
  aggOf_real_of _ _ (segSum_real col h hh) (segCnt_real col)

end Cert.Proof.AggReal
-- ==== Proof.Bridge.StageAgg.lean ====
import proofs.«110491_j38809324487019_2_alg».proof.Proof.Bridge.Defs
import proofs.«110491_j38809324487019_2_alg».proof.Proof.KHost
import proofs.«110491_j38809324487019_2_alg».proof.Proof.AggReal

noncomputable section

namespace Cert.Bridge

open Idealize.ShloMosaic Idealize.ShloMosaic.TcCoe Idealize.ShloMosaic.ValueIdx Idealize.SL.Sem Cert.LibStats
open Cert.KernelIdeal.Hand Cert.ReferenceIdeal.Hand

/-! The scatter-mean between the two blocks: the kernel program's host stretch computes it with the same operations as the plain program, from the second stage's activations and the destination-node indices, both already identified. -/

/-- The kernel program's scatter-mean buffer holds the plain program's scatter-mean, a table of reals. -/
theorem stageAgg (m : (ℓ : Loc Cert.KernelIdeal.nD Cert.KernelIdeal.τ Cert.KernelIdeal.sig) → Buf (Elt Ideal) ℓ) (c : Dev Cert.KernelIdeal.nD)
    (V' : Valuation Cert.ReferenceIdeal.τ Cert.ReferenceIdeal.sig (Elt Ideal)) (hA : Agree m c V')
    (h2 : (U8 m kI c Cert.KernelIdeal.main_v24 : Cert.KernelIdeal.S800000x128.Idx → EReal) = valH2 V') (r2 : ∀ i, IsReal (valH2 V' i)) :
    (U9 m kI c Cert.KernelIdeal.main_v36 : Cert.KernelIdeal.S50000x128.Idx → EReal) = valAgg V' ∧ ∀ i, IsReal (valAgg V' i) := by
  have hcol : (U8 m kI c Cert.KernelIdeal.main_v3 : Cert.KernelIdeal.S800000.Idx → BitVec 32) = valCol V' := by
    rw [rdH4_v3 m kI c]
    refine (kstage_v3 (U0 m c)).trans ?_
    unfold valCol
    exact congrArg colOf hA.a1.symm
  refine ⟨?_, ?_⟩
  · refine (kstage_v36 (U8 m kI c)).trans ?_
    unfold valAgg
    rw [show (U8 m kI c (Proc.devRef .tc Cert.KernelIdeal.main_v3)) = valCol V' from hcol, show (U8 m kI c (Proc.devRef .tc Cert.KernelIdeal.main_v24)) = valH2 V' from h2]
  · unfold valAgg
    exact Cert.Proof.AggReal.aggOf_real (valCol V') (valH2 V') r2

end Cert.Bridge

end
-- ==== Proof.Bridge.Stage3.lean ====
import proofs.«110491_j38809324487019_2_alg».proof.Proof.Bridge.Defs
import proofs.«110491_j38809324487019_2_alg».proof.Proof.Bridge.Layer
import proofs.«110491_j38809324487019_2_alg».proof.Proof.Bridge.Stage1
import proofs.«110491_j38809324487019_2_alg».proof.Proof.KHost
import proofs.«110491_j38809324487019_2_alg».proof.Proof.Ref.ReadMisc

noncomputable section

namespace Cert.Bridge

open Idealize.ShloMosaic Idealize.ShloMosaic.TcCoe Idealize.ShloMosaic.ValueIdx Idealize.SL.Sem Cert.LibStats
open Cert.KernelIdeal.Hand Cert.ReferenceIdeal.Hand

/-! The third fused stage: the kernel program's third activation buffer holds the plain program's third normalised, rectified layer. The kernel reads the node features and the scatter-mean as two inputs against the two halves of the weight matrix; the plain program reads them side by side against the whole matrix. The statistics the kernel's fifth launch leaves are taken as the one-pass mean and variance of the kernel's own pre-activation table (the two hypotheses). -/

/-- The kernel program's pre-activation table of the third stage as its statistics launch sees it: over the buffers
    after the host stretch that forms the scatter-mean. -/
def yKst3 (m : (ℓ : Loc Cert.KernelIdeal.nD Cert.KernelIdeal.τ Cert.KernelIdeal.sig) → Buf (Elt Ideal) ℓ) (c : Dev Cert.KernelIdeal.nD) : Fin 50000 → Fin 128 → EReal := fun e j =>
  Spec.lin2 (R := 50000) (fun e k => (U9 m kI c Cert.KernelIdeal.main_arg0 : Cert.KernelIdeal.S50000x128.Idx → EReal) (ix2 e k))
    (fun e k => (U9 m kI c Cert.KernelIdeal.main_v36 : Cert.KernelIdeal.S50000x128.Idx → EReal) (ix2 e k))
    (fun k j => (U9 m kI c Cert.KernelIdeal.main_v37 : Cert.KernelIdeal.S128x128.Idx → EReal) (ix2 k j))
    (fun k j => (U9 m kI c Cert.KernelIdeal.main_v38 : Cert.KernelIdeal.S128x128.Idx → EReal) (ix2 k j))
    (fun j => (U9 m kI c Cert.KernelIdeal.main_v39 : Cert.KernelIdeal.S1x128.Idx → EReal) (ix2 0 j)) e j

/-- The kernel program's third activation buffer holds the plain program's third layer, a table of reals. -/
theorem stage3 (m : (ℓ : Loc Cert.KernelIdeal.nD Cert.KernelIdeal.τ Cert.KernelIdeal.sig) → Buf (Elt Ideal) ℓ) (c : Dev Cert.KernelIdeal.nD)
    (r0 : ∀ i : Cert.KernelIdeal.S50000x128.Idx, IsReal (m ((c.tc : Thread Cert.KernelIdeal.nD Cert.KernelIdeal.τ).loc Cert.KernelIdeal.main_arg0) i))
    (r11 : ∀ i : Cert.KernelIdeal.S256x128.Idx, IsReal (m ((c.tc : Thread Cert.KernelIdeal.nD Cert.KernelIdeal.τ).loc Cert.KernelIdeal.main_arg11) i))
    (r12 : ∀ i : Cert.KernelIdeal.S128.Idx, IsReal (m ((c.tc : Thread Cert.KernelIdeal.nD Cert.KernelIdeal.τ).loc Cert.KernelIdeal.main_arg12) i))
    (r13 : ∀ i : Cert.KernelIdeal.S128.Idx, IsReal (m ((c.tc : Thread Cert.KernelIdeal.nD Cert.KernelIdeal.τ).loc Cert.KernelIdeal.main_arg13) i))
    (r14 : ∀ i : Cert.KernelIdeal.S128.Idx, IsReal (m ((c.tc : Thread Cert.KernelIdeal.nD Cert.KernelIdeal.τ).loc Cert.KernelIdeal.main_arg14) i))
    (V' : Valuation Cert.ReferenceIdeal.τ Cert.ReferenceIdeal.sig (Elt Ideal)) (hA : Agree m c V')
    (hg : (U9 m kI c Cert.KernelIdeal.main_v36 : Cert.KernelIdeal.S50000x128.Idx → EReal) = valAgg V') (rg : ∀ i, IsReal (valAgg V' i))
    (hmean : ∀ j : Fin 128, (mean4Res (F := Ideal) (E9 m) c : Cert.KernelIdeal.S1x128.Idx → EReal) (ix2 0 j)
      = Spec.meanK (((1 / 50000 : ℝ) : ℝ) : EReal) (yKst3 m c) j)
    (hvar : ∀ j : Fin 128, (var4Res (F := Ideal) (E9 m) c : Cert.KernelIdeal.S1x128.Idx → EReal) (ix2 0 j)
      = Spec.varK (((1 / 50000 : ℝ) : ℝ) : EReal) (yKst3 m c) j) :
    (U12 m kI c Cert.KernelIdeal.main_v44 : Cert.KernelIdeal.S50000x128.Idx → EReal) = valO1 V' ∧ ∀ i, IsReal (valO1 V' i) := by
  have a0 := hA.a0; have a11 := hA.a11; have a12 := hA.a12; have a13 := hA.a13; have a14 := hA.a14
  let X1 : Fin 50000 → Fin 128 → EReal := fun e k => (V' (Proc.devRef .tc Cert.ReferenceIdeal.main_arg0)) (ix2 e k)
  let X2 : Fin 50000 → Fin 128 → EReal := fun e k => valAgg V' (ix2 e k)
  have hX1 : ∀ e k, IsReal (X1 e k) := fun e k => by
    show IsReal ((V' (Proc.devRef .tc Cert.ReferenceIdeal.main_arg0)) (ix2 e k)); rw [a0]; exact r0 _
  have hX2 : ∀ e k, IsReal (X2 e k) := fun e k => rg _
  have hW : ∀ i, IsReal ((V' (Proc.devRef .tc Cert.ReferenceIdeal.main_arg11)) i) := fun i => by rw [a11]; exact r11 i
  have hB : ∀ i, IsReal ((V' (Proc.devRef .tc Cert.ReferenceIdeal.main_arg12)) i) := fun i => by rw [a12]; exact r12 i
  have hG : ∀ i, IsReal ((V' (Proc.devRef .tc Cert.ReferenceIdeal.main_arg13)) i) := fun i => by rw [a13]; exact r13 i
  have hBe : ∀ i, IsReal ((V' (Proc.devRef .tc Cert.ReferenceIdeal.main_arg14)) i) := fun i => by rw [a14]; exact r14 i
  -- the side-by-side table's two halves
  have hHl : ∀ e (k : Fin 128), O0 (V' (Proc.devRef .tc Cert.ReferenceIdeal.main_arg0)) (valAgg V') (ix2 e (Fin.castAdd 128 k)) = X1 e k := fun e k =>
    O0_apply_left _ _ e (Fin.castAdd 128 k) k.isLt
  have hHr : ∀ e (k : Fin 128), O0 (V' (Proc.devRef .tc Cert.ReferenceIdeal.main_arg0)) (valAgg V') (ix2 e (Fin.natAdd 128 k)) = X2 e k := fun e k => by
    refine (O0_apply_right _ _ e (Fin.natAdd 128 k) (Nat.le_add_right 128 k.val)).trans ?_
    exact congrArg (valAgg V') (congrArg (ix2 e) (Fin.ext (by show 128 + k.val - 128 = k.val; omega)))
  have hR : ∀ e j, valO1 V' (ix2 e j)
      = Spec.bnrelu (yK2 X1 X2 (V' (Proc.devRef .tc Cert.ReferenceIdeal.main_arg11)) (V' (Proc.devRef .tc Cert.ReferenceIdeal.main_arg12)) e j)
          (Spec.meanK (((1 / 50000 : ℝ) : ℝ) : EReal) (yK2 X1 X2 (V' (Proc.devRef .tc Cert.ReferenceIdeal.main_arg11)) (V' (Proc.devRef .tc Cert.ReferenceIdeal.main_arg12))) j)
          (Spec.varK (((1 / 50000 : ℝ) : ℝ) : EReal) (yK2 X1 X2 (V' (Proc.devRef .tc Cert.ReferenceIdeal.main_arg11)) (V' (Proc.devRef .tc Cert.ReferenceIdeal.main_arg12))) j)
          ((V' (Proc.devRef .tc Cert.ReferenceIdeal.main_arg13)) (ix1 j)) ((V' (Proc.devRef .tc Cert.ReferenceIdeal.main_arg14)) (ix1 j)) := fun e j =>
    layerN2_eq (O0 (V' (Proc.devRef .tc Cert.ReferenceIdeal.main_arg0)) (valAgg V')) _ _ _ _ X1 X2 hHl hHr hX1 hX2 hW hB e j
  have hReal : ∀ i, IsReal (valO1 V' i) := fun i => by
    rw [eq_ix2 i]
    exact layerN2_real (O0 (V' (Proc.devRef .tc Cert.ReferenceIdeal.main_arg0)) (valAgg V')) _ _ _ _ X1 X2 hHl hHr hX1 hX2 hW hB hG hBe _ _
  refine ⟨?_, hReal⟩
  -- the kernel program's buffers, walked back to the launch arrays
  have hU9a0 : ∀ e k, (U9 m kI c Cert.KernelIdeal.main_arg0 : Cert.KernelIdeal.S50000x128.Idx → EReal) (ix2 e k) = X1 e k := fun e k =>
    (congrFun (rd4_0 m kI c) _).trans (congrFun a0.symm _)
  have hW1 : ∀ (k j : Fin 128), (U9 m kI c Cert.KernelIdeal.main_v37 : Cert.KernelIdeal.S128x128.Idx → EReal) (ix2 k j) = (V' (Proc.devRef .tc Cert.ReferenceIdeal.main_arg11)) (ix2 (Fin.castAdd 128 k) j) := fun k j =>
    (kread_v37 (U8 m kI c) k j).trans ((congrFun (rdH4_arg11 m kI c) _).trans (congrFun a11.symm _))
  have hW2 : ∀ (k j : Fin 128), (U9 m kI c Cert.KernelIdeal.main_v38 : Cert.KernelIdeal.S128x128.Idx → EReal) (ix2 k j) = (V' (Proc.devRef .tc Cert.ReferenceIdeal.main_arg11)) (ix2 (Fin.natAdd 128 k) j) := fun k j =>
    (kread_v38 (U8 m kI c) k j).trans ((congrFun (rdH4_arg11 m kI c) _).trans (congrFun a11.symm _))
  have hb39 : ∀ j : Fin 128, (U9 m kI c Cert.KernelIdeal.main_v39 : Cert.KernelIdeal.S1x128.Idx → EReal) (ix2 0 j) = (V' (Proc.devRef .tc Cert.ReferenceIdeal.main_arg12)) (ix1 j) := fun j =>
    (kread_v39 (U8 m kI c) j).trans ((congrFun (rdH4_arg12 m kI c) _).trans (congrFun a12.symm _))
  have hU10a12 : U10 m kI c Cert.KernelIdeal.main_arg12 = (V' (Proc.devRef .tc Cert.ReferenceIdeal.main_arg12)) := by
    refine Eq.trans ?_ a12.symm
    rw [U10_of m kI c Cert.KernelIdeal.main_arg12 (by decide), U9_of m kI c Cert.KernelIdeal.main_arg12 (by decide), U8_of m kI c Cert.KernelIdeal.main_arg12 (by decide), U7_of m kI c Cert.KernelIdeal.main_arg12 (by decide), U6_of m kI c Cert.KernelIdeal.main_arg12 (by decide), U5_of m kI c Cert.KernelIdeal.main_arg12 (by decide), U4_of m kI c Cert.KernelIdeal.main_arg12 (by decide), U3_of m kI c Cert.KernelIdeal.main_arg12 (by decide), U2_of m kI c Cert.KernelIdeal.main_arg12 (by decide), U1_of m c Cert.KernelIdeal.main_arg12 (by decide)]
  have hU10a13 : U10 m kI c Cert.KernelIdeal.main_arg13 = (V' (Proc.devRef .tc Cert.ReferenceIdeal.main_arg13)) := by
    refine Eq.trans ?_ a13.symm
    rw [U10_of m kI c Cert.KernelIdeal.main_arg13 (by decide), U9_of m kI c Cert.KernelIdeal.main_arg13 (by decide), U8_of m kI c Cert.KernelIdeal.main_arg13 (by decide), U7_of m kI c Cert.KernelIdeal.main_arg13 (by decide), U6_of m kI c Cert.KernelIdeal.main_arg13 (by decide), U5_of m kI c Cert.KernelIdeal.main_arg13 (by decide), U4_of m kI c Cert.KernelIdeal.main_arg13 (by decide), U3_of m kI c Cert.KernelIdeal.main_arg13 (by decide), U2_of m kI c Cert.KernelIdeal.main_arg13 (by decide), U1_of m c Cert.KernelIdeal.main_arg13 (by decide)]
  have hU10a14 : U10 m kI c Cert.KernelIdeal.main_arg14 = (V' (Proc.devRef .tc Cert.ReferenceIdeal.main_arg14)) := by
    refine Eq.trans ?_ a14.symm
    rw [U10_of m kI c Cert.KernelIdeal.main_arg14 (by decide), U9_of m kI c Cert.KernelIdeal.main_arg14 (by decide), U8_of m kI c Cert.KernelIdeal.main_arg14 (by decide), U7_of m kI c Cert.KernelIdeal.main_arg14 (by decide), U6_of m kI c Cert.KernelIdeal.main_arg14 (by decide), U5_of m kI c Cert.KernelIdeal.main_arg14 (by decide), U4_of m kI c Cert.KernelIdeal.main_arg14 (by decide), U3_of m kI c Cert.KernelIdeal.main_arg14 (by decide), U2_of m kI c Cert.KernelIdeal.main_arg14 (by decide), U1_of m c Cert.KernelIdeal.main_arg14 (by decide)]
  have hst : ∀ e j, yKst3 m c e j = yK2 X1 X2 (V' (Proc.devRef .tc Cert.ReferenceIdeal.main_arg11)) (V' (Proc.devRef .tc Cert.ReferenceIdeal.main_arg12)) e j := fun e j => by
    unfold yKst3 yK2
    exact lin2_congr hU9a0 (fun e k => congrFun hg _) hW1 hW2 hb39 e j
  funext i
  obtain ⟨e, j, rfl⟩ : ∃ (e : Fin 50000) (j : Fin 128), i = ix2 e j := ⟨i 0, i 1, eq_ix2 i⟩
  rw [hR e j]
  refine (congrFun (res5_9 m c) (ix2 e j)).trans ?_
  unfold G5
  refine bnrelu_congr5 ?_ ?_ ?_ ?_ ?_
  · unfold yK2
    refine lin2_congr (fun e k => ?_) (fun e k => ?_) (fun k j => ?_) (fun k j => ?_) (fun j => ?_) e j
    · exact (congrFun (rd5_0 m kI c) _).trans (congrFun a0.symm _)
    · exact (congrFun (rd5_1 m kI c) _).trans (congrFun hg _)
    · exact (congrFun (rd5_2 m kI c) _).trans (hW1 k j)
    · exact (congrFun (rd5_3 m kI c) _).trans (hW2 k j)
    · exact (kread_v41 (U10 m kI c) j).trans (congrFun hU10a12 _)
  · refine (congrFun (rd5_7 m kI c) _).trans ((congrFun (resMean4 m c) _).trans ((hmean j).trans (meanK_congr _ hst j)))
  · refine (congrFun (rd5_8 m kI c) _).trans ((congrFun (resVar4 m c) _).trans ((hvar j).trans (varK_congr _ hst j)))
  · exact (kread_v42 (U10 m kI c) j).trans (congrFun hU10a13 _)
  · exact (kread_v43 (U10 m kI c) j).trans (congrFun hU10a14 _)

end Cert.Bridge

end
-- ==== Proof.KI.StatsVal6.lean ====
import proofs.«110491_j38809324487019_2_alg».proof.Proof.KI.Stats6
import proofs.«110491_j38809324487019_2_alg».proof.Proof.Spec
import Idealize.ShloMosaic.PureOps.Ideal
import Idealize.ShloMosaic.PureOps.Ideal.Laws
import Idealize.ShloMosaic.Lib.ValueIdx
import Idealize.ShloMosaic.Lib.ValueLayout

/-!
# Region 6, the statistics kernel: the two outputs as exact values

At the exact values (every float operation the textbook one on the extended reals, a change of format the identity) the
body's payloads are read entry by entry: an entry of the linear layer's output on a block is the bias plus the row's product
with the weight column; the running sum advances by the block's column sums, the running sum of squares by the column sums
of the squared entries; block `t` of the activations is rows `5000·t …` of the array. By induction on the grid point the
accumulators after point `n` are the column sums over the first `5000·(n+1)` rows, so after the last point over all 50000
rows; the mean is that total times the named reciprocal of the row count, the variance the mean of the squares minus the
squared mean, not below zero.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The payloads at the exact values, entry by entry -/

/-- The reduced index with the row put back: the column-sum's source index. -/
theorem lift_row6 (h : S5000x128.Reduces [0] S128) (j : Fin 128) (r : Fin 5000) : h.lift (ix1 j) r = ix2 r j := by
  funext c
  apply Fin.ext
  refine (Shape.Reduces.lift_val h (ix1 j) r c).trans ?_
  match c with
  | ⟨0, _⟩ => simp [Shape.Reduces.liftVal]
  | ⟨1, _⟩ => simp [Shape.Reduces.liftVal]

theorem pay4_apply6 (b : Vec Ideal S1x128 .f32) (h : Vec Ideal S5000x128 .bf16) (w : Vec Ideal S128x128 .f32) (s : Vec Ideal S1x128 .f32) (j : Fin 128) :
    k6_pay4 b h w s (ix2 (0 : Fin 1) j) = s (ix2 (0 : Fin 1) j) + ∑ r : Fin 5000, k6_pay1 b h w (ix2 r j) := by
  unfold k6_pay4
  rw [shapeCast_self]
  refine (addf_apply _ _ _).trans ?_
  refine congrArg (s (ix2 0 j) + ·) ?_
  refine (shapeCast_a_1a_apply _ _ 0 j).trans ?_
  refine (Ideal.multiReduction_add_single (k6_pay1 b h w) 0x00000000#32 _ _ _ (ix1 j)).trans ?_
  exact Finset.sum_congr rfl fun r _ => congrArg (k6_pay1 b h w) (lift_row6 _ j r)

/-- The linear layer's product: contraction over the 128 input columns. -/
abbrev D6 : DotDims S5000x128 S128x128 S5000x128 := dot_S5000x128_S128x128_S5000x128_1_0_0_1_n_n

theorem D6_lhs0 (x : S5000x128.Idx) (k : D6.contr.Idx) : (D6.lhsIdx x k 0 : ℕ) = x 0 := by
  simp [DotDims.lhsIdx, D6, dot_S5000x128_S128x128_S5000x128_1_0_0_1_n_n]; rfl
theorem D6_lhs1 (x : S5000x128.Idx) (k : D6.contr.Idx) : (D6.lhsIdx x k 1 : ℕ) = k ⟨0, by decide⟩ := by
  simp [DotDims.lhsIdx, D6, dot_S5000x128_S128x128_S5000x128_1_0_0_1_n_n]; rfl
theorem D6_rhs0 (x : S5000x128.Idx) (k : D6.contr.Idx) : (D6.rhsIdx x k 0 : ℕ) = k ⟨0, by decide⟩ := by
  simp [DotDims.rhsIdx, D6, dot_S5000x128_S128x128_S5000x128_1_0_0_1_n_n]; rfl
theorem D6_rhs1 (x : S5000x128.Idx) (k : D6.contr.Idx) : (D6.rhsIdx x k 1 : ℕ) = x 1 := by
  simp [DotDims.rhsIdx, D6, dot_S5000x128_S128x128_S5000x128_1_0_0_1_n_n]; rfl

/-- The contraction index is its one coordinate. -/
abbrev e6 : D6.contr.Idx ≃ Fin 128 := contrEquiv1 D6 128 rfl rfl

theorem D6_lhs (r : Fin 5000) (j k : Fin 128) : D6.lhsIdx (ix2 r j) (e6.symm k) = ix2 r k := by
  funext a; apply Fin.ext
  match a with
  | ⟨0, _⟩ => exact D6_lhs0 _ _
  | ⟨1, _⟩ => exact (D6_lhs1 _ _).trans (contrEquiv1_symm_val D6 128 rfl rfl k)
theorem D6_rhs (r : Fin 5000) (j k : Fin 128) : D6.rhsIdx (ix2 r j) (e6.symm k) = ix2 k j := by
  funext a; apply Fin.ext
  match a with
  | ⟨0, _⟩ => exact (D6_rhs0 _ _).trans (contrEquiv1_symm_val D6 128 rfl rfl k)
  | ⟨1, _⟩ => exact D6_rhs1 _ _

/-- One entry of the linear layer's output on a block: the bias plus the row's product with the weight column
    (rounding to bf16 is the identity on the exact values). -/
theorem pay1_apply6 (b : Vec Ideal S1x128 .f32) (h : Vec Ideal S5000x128 .bf16) (w : Vec Ideal S128x128 .f32) (r : Fin 5000) (j : Fin 128) :
    k6_pay1 b h w (ix2 r j) = b (ix2 (0 : Fin 1) j) + ∑ k : Fin 128, h (ix2 r k) * w (ix2 k j) := by
  unfold k6_pay1
  refine (addf_apply _ _ _).trans ?_
  rw [broadcastTo_1b_ab_apply, shapeCast_self]
  refine congrArg (b (ix2 0 j) + ·) ?_
  refine (Ideal.matmul_constant_zero_apply D6 none _ _ (ix2 r j)).trans ?_
  refine (Equiv.sum_comp e6.symm _).symm.trans ?_
  refine Finset.sum_congr rfl fun k _ => ?_
  rw [D6_lhs, D6_rhs, shapeCast_self]
  rfl

/-- The zero rows the first point stores denote 0. -/
theorem pay2_apply6 (i : S1x128.Idx) : (k6_pay2 (F := Ideal)) i = 0 := by
  unfold k6_pay2
  rw [shapeCast_self]
  exact Ideal.ofBits_zero_f32
theorem pay3_apply6 (i : S1x128.Idx) : (k6_pay3 (F := Ideal)) i = 0 := by
  unfold k6_pay3
  rw [shapeCast_self]
  exact Ideal.ofBits_zero_f32

/-- The running sum of squares advances by the column sums of the block's squared entries. -/
theorem pay5_apply6 (b : Vec Ideal S1x128 .f32) (h : Vec Ideal S5000x128 .bf16) (w : Vec Ideal S128x128 .f32) (s : Vec Ideal S1x128 .f32) (j : Fin 128) :
    k6_pay5 b h w s (ix2 (0 : Fin 1) j) = s (ix2 (0 : Fin 1) j) + ∑ r : Fin 5000, k6_pay1 b h w (ix2 r j) * k6_pay1 b h w (ix2 r j) := by
  unfold k6_pay5
  rw [shapeCast_self]
  refine (addf_apply _ _ _).trans ?_
  refine congrArg (s (ix2 0 j) + ·) ?_
  refine (shapeCast_a_1a_apply _ _ 0 j).trans ?_
  refine (Ideal.multiReduction_add_single (mulf (k6_pay1 b h w) (k6_pay1 b h w)) 0x00000000#32 _ _ _ (ix1 j)).trans ?_
  exact Finset.sum_congr rfl fun r _ => congrArg (mulf (k6_pay1 b h w) (k6_pay1 b h w)) (lift_row6 _ j r)

/-- The named reciprocal of the row count denotes the rational. -/
theorem named_inv6 : Named.named (F := Ideal) κ "inv_50000" (φ := .f32) 0x37A7C5AC#32 = ((1 / 50000 : ℝ) : EReal) :=
  IdealRules.named_const.ideal_named_scalar _ _ _ _ rfl

/-- The mean: the total times the reciprocal of the row count. -/
theorem pay6_apply6 (S : Vec Ideal S1x128 .f32) (i : S1x128.Idx) : k6_pay6 S i = S i * ((1 / 50000 : ℝ) : EReal) := by
  unfold k6_pay6
  refine (mulf_apply _ _ _).trans ?_
  exact congrArg (S i * ·) named_inv6

/-- The variance: the mean of the squares minus the squared mean, not below the zero pattern. -/
theorem pay7_apply6 (S Q : Vec Ideal S1x128 .f32) (i : S1x128.Idx) :
    k6_pay7 S Q i = max (Q i * ((1 / 50000 : ℝ) : EReal) - (S i * ((1 / 50000 : ℝ) : EReal)) * (S i * ((1 / 50000 : ℝ) : EReal))) (Ideal.ofBits .f32 0x00000000#32) := by
  unfold k6_pay7
  refine (maximumf_apply _ _ _).trans ?_
  refine congrArg (max · _) ?_
  refine (subf_apply _ _ _).trans ?_
  rw [mulf_apply, mulf_apply, pay6_apply6]
  exact congrArg (fun z => Q i * z - _) named_inv6

/-! ## The windows' blocks, entry by entry -/

variable (V : (c : Dev nD) → (b : Ref sig .tc) → Buf (Elt Ideal) ((c : Thread nD τ).loc b))

/-- The region's three input arrays as tables of exact values: the activations, the weight, the bias row. -/
def X6 (c : Dev nD) (e : Fin 50000) (k : Fin 128) : EReal := V c main_v44 (ix2 e k)
def W6 (c : Dev nD) (k j : Fin 128) : EReal := V c main_arg15 (ix2 k j)
def B6 (c : Dev nD) (j : Fin 128) : EReal := V c main_v45 (ix2 (0 : Fin 1) j)

theorem index6_0 : ∀ t : Fin grid6.N, win6_0.index t 0 = t.val ∧ win6_0.index t 1 = 0 := by decide +kernel
theorem index6_1 : ∀ t : Fin grid6.N, win6_1.index t 0 = 0 ∧ win6_1.index t 1 = 0 := by decide +kernel
theorem index6_2 : ∀ t : Fin grid6.N, win6_2.index t 0 = 0 ∧ win6_2.index t 1 = 0 := by decide +kernel

/-- Row `r` of the activation block at point `t` is row `5000·t + r` of the array. -/
theorem iblk6_0_apply (c : Dev nD) (t : Fin cfg6.N) (r : Fin 5000) (k : Fin 128) (hr : 5000 * t.val + r.val < 50000) :
    iblk6 V c 0 t (ix2 r k) = X6 V c ⟨5000 * t.val + r.val, hr⟩ k := by
  unfold iblk6 X6
  rw [View.read_apply]
  show V c main_v44 _ = V c main_v44 _
  refine congrArg (V c main_v44) ?_
  funext a; apply Fin.ext
  match a with
  | ⟨0, _⟩ => show win6_0.index t 0 * 5000 + 1 * r.val = 5000 * t.val + r.val; rw [(index6_0 t).1]; omega
  | ⟨1, _⟩ => show win6_0.index t 1 * 128 + 1 * k.val = k.val; rw [(index6_0 t).2]; omega

/-- The weight and the bias windows hold their whole arrays at every point. -/
theorem iblk6_1_apply (c : Dev nD) (t : Fin cfg6.N) (k j : Fin 128) :
    iblk6 V c 1 t (ix2 k j) = W6 V c k j := by
  unfold iblk6 W6
  rw [View.read_apply]
  show V c main_arg15 _ = V c main_arg15 _
  refine congrArg (V c main_arg15) ?_
  funext a; apply Fin.ext
  match a with
  | ⟨0, _⟩ => show win6_1.index t 0 * 128 + 1 * k.val = k.val; rw [(index6_1 t).1]; omega
  | ⟨1, _⟩ => show win6_1.index t 1 * 128 + 1 * j.val = j.val; rw [(index6_1 t).2]; omega

theorem iblk6_2_apply (c : Dev nD) (t : Fin cfg6.N) (j : Fin 128) :
    iblk6 V c 2 t (ix2 (0 : Fin 1) j) = B6 V c j := by
  unfold iblk6 B6
  rw [View.read_apply]
  show V c main_v45 _ = V c main_v45 _
  refine congrArg (V c main_v45) ?_
  funext a; apply Fin.ext
  match a with
  | ⟨0, _⟩ => show win6_2.index t 0 * 1 + 1 * 0 = 0; rw [(index6_2 t).1]
  | ⟨1, _⟩ => show win6_2.index t 1 * 128 + 1 * j.val = j.val; rw [(index6_2 t).2]; omega

/-! ## The accumulators as sums over all rows -/

/-- The linear layer's output on all 50000 rows, as a table of exact values. -/
def linTab6 (c : Dev nD) : Fin 50000 → Fin 128 → EReal := Spec.lin1 (X6 V c) (W6 V c) (B6 V c)

/-- The same with the row a natural number (zero past the last row). -/
def linNat6 (c : Dev nD) (n : ℕ) (j : Fin 128) : EReal := if h : n < 50000 then linTab6 V c ⟨n, h⟩ j else 0

/-- An entry of the layer's output on the block of point `t` is the table's entry at row `5000·t + r`. -/
theorem pay1_blk6 (c : Dev nD) (t : Fin cfg6.N) (r : Fin 5000) (j : Fin 128) :
    k6_pay1 (iblk6 V c 2 t) (iblk6 V c 0 t) (iblk6 V c 1 t) (ix2 r j) = linNat6 V c (5000 * t.val + r.val) j := by
  have ht : t.val < 10 := lt_of_lt_of_eq t.isLt N_6
  have hr : 5000 * t.val + r.val < 50000 := by have := r.isLt; omega
  refine (pay1_apply6 _ _ _ r j).trans ?_
  unfold linNat6; rw [dif_pos hr]
  show _ = B6 V c j + ∑ k : Fin 128, X6 V c ⟨5000 * t.val + r.val, hr⟩ k * W6 V c k j
  rw [iblk6_2_apply]
  exact congrArg (fun z : EReal => B6 V c j + z)
    (Finset.sum_congr rfl fun k _ => by rw [iblk6_0_apply V c t r k hr, iblk6_1_apply])

/-- The column sums of the block of point `t`, as a sum over a range of rows. -/
theorem blockSum6 (c : Dev nD) (t : Fin cfg6.N) (j : Fin 128) :
    ∑ r : Fin 5000, k6_pay1 (iblk6 V c 2 t) (iblk6 V c 0 t) (iblk6 V c 1 t) (ix2 r j)
      = ∑ x ∈ Finset.range 5000, linNat6 V c (5000 * t.val + x) j :=
  (Finset.sum_congr rfl fun r _ => pay1_blk6 V c t r j).trans (Finset.sum_range (fun x => linNat6 V c (5000 * t.val + x) j)).symm

theorem blockSumSq6 (c : Dev nD) (t : Fin cfg6.N) (j : Fin 128) :
    ∑ r : Fin 5000, k6_pay1 (iblk6 V c 2 t) (iblk6 V c 0 t) (iblk6 V c 1 t) (ix2 r j) * k6_pay1 (iblk6 V c 2 t) (iblk6 V c 0 t) (iblk6 V c 1 t) (ix2 r j)
      = ∑ x ∈ Finset.range 5000, linNat6 V c (5000 * t.val + x) j * linNat6 V c (5000 * t.val + x) j :=
  (Finset.sum_congr rfl fun r _ => by rw [pay1_blk6 V c t r j]).trans
    (Finset.sum_range (fun x => linNat6 V c (5000 * t.val + x) j * linNat6 V c (5000 * t.val + x) j)).symm

/-- After point `n` the running sum holds the column sums of the first `5000·(n+1)` rows. -/
theorem accSum6_val (c : Dev nD) (j : Fin 128) : ∀ (n : ℕ) (hn : n < cfg6.N),
    accSum6 V c n hn (ix2 (0 : Fin 1) j) = ∑ e ∈ Finset.range (5000 * (n + 1)), linNat6 V c e j
  | 0, hn => by
    refine (pay4_apply6 _ _ _ _ j).trans ?_
    rw [pay2_apply6, zero_add, blockSum6 V c ⟨0, hn⟩ j]
    simp only [Nat.mul_zero, Nat.zero_add, Nat.mul_one]
  | n + 1, hn => by
    refine (pay4_apply6 _ _ _ _ j).trans ?_
    rw [accSum6_val c j n (Nat.lt_of_succ_lt hn), blockSum6 V c ⟨n + 1, hn⟩ j,
      show 5000 * (n + 1 + 1) = 5000 * (n + 1) + 5000 from by ring, Finset.sum_range_add]

theorem accSq6_val (c : Dev nD) (j : Fin 128) : ∀ (n : ℕ) (hn : n < cfg6.N),
    accSq6 V c n hn (ix2 (0 : Fin 1) j) = ∑ e ∈ Finset.range (5000 * (n + 1)), linNat6 V c e j * linNat6 V c e j
  | 0, hn => by
    refine (pay5_apply6 _ _ _ _ j).trans ?_
    rw [pay3_apply6, zero_add, blockSumSq6 V c ⟨0, hn⟩ j]
    simp only [Nat.mul_zero, Nat.zero_add, Nat.mul_one]
  | n + 1, hn => by
    refine (pay5_apply6 _ _ _ _ j).trans ?_
    rw [accSq6_val c j n (Nat.lt_of_succ_lt hn), blockSumSq6 V c ⟨n + 1, hn⟩ j,
      show 5000 * (n + 1 + 1) = 5000 * (n + 1) + 5000 from by ring, Finset.sum_range_add]

/-- A sum over the first 50000 naturals of the table read at naturals is the sum over the table's rows. -/
theorem sum_linNat6 (c : Dev nD) (j : Fin 128) :
    ∑ e ∈ Finset.range 50000, linNat6 V c e j = ∑ e : Fin 50000, linTab6 V c e j := by
  rw [Finset.sum_range]
  exact Finset.sum_congr rfl fun e _ => by unfold linNat6; rw [dif_pos e.isLt]

theorem sum_linNat6_sq (c : Dev nD) (j : Fin 128) :
    ∑ e ∈ Finset.range 50000, linNat6 V c e j * linNat6 V c e j = ∑ e : Fin 50000, linTab6 V c e j * linTab6 V c e j := by
  rw [Finset.sum_range]
  exact Finset.sum_congr rfl fun e _ => by unfold linNat6; rw [dif_pos e.isLt]

/-! ## The two outputs -/

/-- After the last point the running sum holds the column sums over all rows, the running sum of squares the column sums
    of the squares. -/
theorem accSum6_last (c : Dev nD) (j : Fin 128) :
    accSum6 V c tLast6.val tLast6.isLt (ix2 (0 : Fin 1) j) = ∑ e : Fin 50000, linTab6 V c e j :=
  (accSum6_val V c j 9 tLast6.isLt).trans (sum_linNat6 V c j)

theorem accSq6_last (c : Dev nD) (j : Fin 128) :
    accSq6 V c tLast6.val tLast6.isLt (ix2 (0 : Fin 1) j) = ∑ e : Fin 50000, linTab6 V c e j * linTab6 V c e j :=
  (accSq6_val V c j 9 tLast6.isLt).trans (sum_linNat6_sq V c j)

/-- An index of a one-row table is its column. -/
theorem exists_col6 (i : S1x128.Idx) : ∃ j : Fin 128, i = ix2 (0 : Fin 1) j :=
  ⟨i 1, by
    funext a
    match a with
    | ⟨0, _⟩ => apply Fin.ext; have := idx2_lt0 i; show (i 0).val = 0; omega
    | ⟨1, _⟩ => rfl⟩

/-- THE MEAN the region leaves: the column mean, one pass, of the linear layer's output over all rows. -/
theorem mean6Res_col (c : Dev nD) (j : Fin 128) :
    mean6Res V c (ix2 (0 : Fin 1) j) = Spec.meanK (((1 / 50000 : ℝ) : EReal)) (linTab6 V c) j := by
  show k6_pay6 (accSum6 V c tLast6.val tLast6.isLt) (ix2 (0 : Fin 1) j) = _
  rw [pay6_apply6, accSum6_last]
  rfl

/-- THE VARIANCE the region leaves: the column variance, one pass, of the same. -/
theorem var6Res_col (c : Dev nD) (j : Fin 128) :
    var6Res V c (ix2 (0 : Fin 1) j) = Spec.varK (((1 / 50000 : ℝ) : EReal)) (linTab6 V c) j := by
  show k6_pay7 (accSum6 V c tLast6.val tLast6.isLt) (accSq6 V c tLast6.val tLast6.isLt) (ix2 (0 : Fin 1) j) = _
  rw [pay7_apply6, accSum6_last, accSq6_last]
  rfl

theorem mean6_val (c : Dev nD) :
    (dat6 V c).arrAt 3 cfg6.N = fun i => Spec.meanK (((1 / 50000 : ℝ) : EReal)) (linTab6 V c) (i 1) := by
  rw [mean6]; funext i
  obtain ⟨j, rfl⟩ := exists_col6 i
  exact mean6Res_col V c j

theorem var6_val (c : Dev nD) :
    (dat6 V c).arrAt 4 cfg6.N = fun i => Spec.varK (((1 / 50000 : ℝ) : EReal)) (linTab6 V c) (i 1) := by
  rw [var6]; funext i
  obtain ⟨j, rfl⟩ := exists_col6 i
  exact var6Res_col V c j

end Cert.KernelIdeal.Hand

end
-- ==== Proof.Bridge.Stage4.lean ====
import proofs.«110491_j38809324487019_2_alg».proof.Proof.Bridge.Defs
import proofs.«110491_j38809324487019_2_alg».proof.Proof.Bridge.StageCore
import proofs.«110491_j38809324487019_2_alg».proof.Proof.Bridge.Congr
import proofs.«110491_j38809324487019_2_alg».proof.Proof.KHost
import proofs.«110491_j38809324487019_2_alg».proof.Proof.KI.StatsVal6
import proofs.«110491_j38809324487019_2_alg».proof.Proof.Ref.ReadMisc
import Idealize.ShloMosaic.Lib.IdealHost

/-!
  The fourth fused stage and the attention weights, kernel program against plain program. The kernel program's last
  apply region leaves two arrays, each one function of the arrays it is entered with: the fourth-stage activations — the
  kernels' arrangement of the plain program's fourth stage, as in the second stage — and the attention column, the
  logistic function of each activation row against the attention weight plus its bias. The plain program spells the
  logistic function out as one over one plus the exponential of the negation; on the extended reals that is its
  definition.
-/

set_option maxRecDepth 16384

noncomputable section

namespace Cert.Bridge

open Idealize.ShloMosaic Idealize.ShloMosaic.ValueIdx Idealize.ShloMosaic.TcCoe Idealize.SL.Sem Cert.LibStats
open Cert.KernelIdeal Cert.KernelIdeal.Gen Cert.KernelIdeal.Hand

variable (m : (ℓ : Loc nD τ sig) → Buf (Elt Ideal) ℓ)

/-! ## The arguments the fourth stage reads, walked back to the launch -/

theorem keep16_U12 (c : Dev nD) : U12 m kI c main_arg16 = U0 m c main_arg16 := by
  rw [U12_of m kI c main_arg16 (by decide), U11_of m kI c main_arg16 (by decide), U10_of m kI c main_arg16 (by decide), U9_of m kI c main_arg16 (by decide), U8_of m kI c main_arg16 (by decide), U7_of m kI c main_arg16 (by decide), U6_of m kI c main_arg16 (by decide), U5_of m kI c main_arg16 (by decide), U4_of m kI c main_arg16 (by decide), U3_of m kI c main_arg16 (by decide), U2_of m kI c main_arg16 (by decide), U1_of m c main_arg16 (by decide)]
theorem keep16_U14 (c : Dev nD) : U14 m kI c main_arg16 = U0 m c main_arg16 := by
  rw [U14_of m kI c main_arg16 (by decide), U13_of m kI c main_arg16 (by decide), keep16_U12]
theorem keep17_U14 (c : Dev nD) : U14 m kI c main_arg17 = U0 m c main_arg17 := by
  rw [U14_of m kI c main_arg17 (by decide), U13_of m kI c main_arg17 (by decide), U12_of m kI c main_arg17 (by decide), U11_of m kI c main_arg17 (by decide), U10_of m kI c main_arg17 (by decide), U9_of m kI c main_arg17 (by decide), U8_of m kI c main_arg17 (by decide), U7_of m kI c main_arg17 (by decide), U6_of m kI c main_arg17 (by decide), U5_of m kI c main_arg17 (by decide), U4_of m kI c main_arg17 (by decide), U3_of m kI c main_arg17 (by decide), U2_of m kI c main_arg17 (by decide), U1_of m c main_arg17 (by decide)]
theorem keep18_U14 (c : Dev nD) : U14 m kI c main_arg18 = U0 m c main_arg18 := by
  rw [U14_of m kI c main_arg18 (by decide), U13_of m kI c main_arg18 (by decide), U12_of m kI c main_arg18 (by decide), U11_of m kI c main_arg18 (by decide), U10_of m kI c main_arg18 (by decide), U9_of m kI c main_arg18 (by decide), U8_of m kI c main_arg18 (by decide), U7_of m kI c main_arg18 (by decide), U6_of m kI c main_arg18 (by decide), U5_of m kI c main_arg18 (by decide), U4_of m kI c main_arg18 (by decide), U3_of m kI c main_arg18 (by decide), U2_of m kI c main_arg18 (by decide), U1_of m c main_arg18 (by decide)]
theorem keep20_U14 (c : Dev nD) : U14 m kI c main_arg20 = U0 m c main_arg20 := by
  rw [U14_of m kI c main_arg20 (by decide), U13_of m kI c main_arg20 (by decide), U12_of m kI c main_arg20 (by decide), U11_of m kI c main_arg20 (by decide), U10_of m kI c main_arg20 (by decide), U9_of m kI c main_arg20 (by decide), U8_of m kI c main_arg20 (by decide), U7_of m kI c main_arg20 (by decide), U6_of m kI c main_arg20 (by decide), U5_of m kI c main_arg20 (by decide), U4_of m kI c main_arg20 (by decide), U3_of m kI c main_arg20 (by decide), U2_of m kI c main_arg20 (by decide), U1_of m c main_arg20 (by decide)]

/-- THE FOURTH STAGE AND THE ATTENTION WEIGHTS: the kernel program's two results are the plain program's. -/
theorem stage4 (c : Dev nD) (V' : Valuation Cert.ReferenceIdeal.τ Cert.ReferenceIdeal.sig (Elt Ideal)) (hA : Agree m c V')
    (r15 : ∀ i : S128x128.Idx, IsReal (m ((c.tc : Thread nD τ).loc main_arg15) i))
    (r16 : ∀ i : S128.Idx, IsReal (m ((c.tc : Thread nD τ).loc main_arg16) i))
    (r17 : ∀ i : S128.Idx, IsReal (m ((c.tc : Thread nD τ).loc main_arg17) i))
    (r18 : ∀ i : S128.Idx, IsReal (m ((c.tc : Thread nD τ).loc main_arg18) i))
    (h3 : (U12 m kI c main_v44 : S50000x128.Idx → EReal) = Cert.ReferenceIdeal.Hand.valO1 V') (r3 : ∀ i, IsReal (Cert.ReferenceIdeal.Hand.valO1 V' i)) :
    (U16 m kI c main_v51_0 : S50000x128.Idx → EReal) = Cert.ReferenceIdeal.Hand.valO2 V'
      ∧ (U17 m kI c main_v52 : S50000.Idx → EReal) = Cert.ReferenceIdeal.Hand.valAttn V' := by
  -- the arguments on the plain program's side
  have r15' : ∀ i, IsReal (V' (Proc.devRef .tc Cert.ReferenceIdeal.main_arg15) i) := by rw [hA.a15]; exact r15
  have r16' : ∀ i, IsReal (V' (Proc.devRef .tc Cert.ReferenceIdeal.main_arg16) i) := by rw [hA.a16]; exact r16
  have r17' : ∀ i, IsReal (V' (Proc.devRef .tc Cert.ReferenceIdeal.main_arg17) i) := by rw [hA.a17]; exact r17
  have r18' : ∀ i, IsReal (V' (Proc.devRef .tc Cert.ReferenceIdeal.main_arg18) i) := by rw [hA.a18]; exact r18
  have hcore := fun e j => stageN_core (Cert.ReferenceIdeal.Hand.valO1 V') (V' (Proc.devRef .tc Cert.ReferenceIdeal.main_arg15)) (V' (Proc.devRef .tc Cert.ReferenceIdeal.main_arg16))
    (V' (Proc.devRef .tc Cert.ReferenceIdeal.main_arg17)) (V' (Proc.devRef .tc Cert.ReferenceIdeal.main_arg18)) r3 r15' r16' r17' r18' e j
  -- the kernel program's reads
  have hH15 : (E15 m c main_v44 : S50000x128.Idx → EReal) = Cert.ReferenceIdeal.Hand.valO1 V' := (rd7_0 m kI c).trans h3
  have hH13 : (E13 m c main_v44 : S50000x128.Idx → EReal) = Cert.ReferenceIdeal.Hand.valO1 V' := (rd6_0 m kI c).trans h3
  have hW15 : (E15 m c main_arg15 : S128x128.Idx → EReal) = V' (Proc.devRef .tc Cert.ReferenceIdeal.main_arg15) := (rd7_1 m kI c).trans hA.a15.symm
  have hW13 : (E13 m c main_arg15 : S128x128.Idx → EReal) = V' (Proc.devRef .tc Cert.ReferenceIdeal.main_arg15) := (rd6_1 m kI c).trans hA.a15.symm
  have hb15 : ∀ j : Fin 128, (E15 m c main_v47 : S1x128.Idx → EReal) (ix2 0 j) = V' (Proc.devRef .tc Cert.ReferenceIdeal.main_arg16) (ix1 j) := fun j =>
    (kread_v47 (U14 m kI c) j).trans (congrFun ((keep16_U14 m c).trans hA.a16.symm) (ix1 j))
  have hb13 : ∀ j : Fin 128, (E13 m c main_v45 : S1x128.Idx → EReal) (ix2 0 j) = V' (Proc.devRef .tc Cert.ReferenceIdeal.main_arg16) (ix1 j) := fun j =>
    (kread_v45 (U12 m kI c) j).trans (congrFun ((keep16_U12 m c).trans hA.a16.symm) (ix1 j))
  have hg15 : ∀ j : Fin 128, (E15 m c main_v48 : S1x128.Idx → EReal) (ix2 0 j) = V' (Proc.devRef .tc Cert.ReferenceIdeal.main_arg17) (ix1 j) := fun j =>
    (kread_v48 (U14 m kI c) j).trans (congrFun ((keep17_U14 m c).trans hA.a17.symm) (ix1 j))
  have hbe15 : ∀ j : Fin 128, (E15 m c main_v49 : S1x128.Idx → EReal) (ix2 0 j) = V' (Proc.devRef .tc Cert.ReferenceIdeal.main_arg18) (ix1 j) := fun j =>
    (kread_v49 (U14 m kI c) j).trans (congrFun ((keep18_U14 m c).trans hA.a18.symm) (ix1 j))
  -- the linear layer's table, as the statistics region and as the apply region read it
  have hy13 : ∀ (e : Fin 50000) (j : Fin 128), linTab6 (E13 m) c e j
        = Spec.lin1 (fun e k => Cert.ReferenceIdeal.Hand.valO1 V' (ix2 e k)) (fun k j => V' (Proc.devRef .tc Cert.ReferenceIdeal.main_arg15) (ix2 k j)) (fun j => V' (Proc.devRef .tc Cert.ReferenceIdeal.main_arg16) (ix1 j)) e j :=
    fun e j => lin1_congr (fun e k => congrFun hH13 _) (fun k j => congrFun hW13 _) hb13 e j
  have hmean15 : ∀ j : Fin 128, (E15 m c main_v46_0 : S1x128.Idx → EReal) (ix2 0 j)
      = Spec.meanK (((1 / 50000 : ℝ) : ℝ) : EReal) (fun e j => Spec.lin1 (fun e k => Cert.ReferenceIdeal.Hand.valO1 V' (ix2 e k)) (fun k j => V' (Proc.devRef .tc Cert.ReferenceIdeal.main_arg15) (ix2 k j)) (fun j => V' (Proc.devRef .tc Cert.ReferenceIdeal.main_arg16) (ix1 j)) e j) j := fun j =>
    (congrFun ((rd7_5 m kI c).trans (resMean6 m c)) (ix2 0 j)).trans ((mean6Res_col (E13 m) c j).trans (meanK_congr _ hy13 j))
  have hvar15 : ∀ j : Fin 128, (E15 m c main_v46_1 : S1x128.Idx → EReal) (ix2 0 j)
      = Spec.varK (((1 / 50000 : ℝ) : ℝ) : EReal) (fun e j => Spec.lin1 (fun e k => Cert.ReferenceIdeal.Hand.valO1 V' (ix2 e k)) (fun k j => V' (Proc.devRef .tc Cert.ReferenceIdeal.main_arg15) (ix2 k j)) (fun j => V' (Proc.devRef .tc Cert.ReferenceIdeal.main_arg16) (ix1 j)) e j) j := fun j =>
    (congrFun ((rd7_6 m kI c).trans (resVar6 m c)) (ix2 0 j)).trans ((var6Res_col (E13 m) c j).trans (varK_congr _ hy13 j))
  -- the activations
  have hG : ∀ (e : Fin 50000) (j : Fin 128), G7 (E15 m) c (ix2 e j) = Cert.ReferenceIdeal.Hand.valO2 V' (ix2 e j) := fun e j => by
    refine Eq.trans ?_ (hcore e j).1.symm
    show Spec.bnrelu _ _ _ _ _ = _
    exact bnrelu_congr (lin1_congr (fun e k => congrFun hH15 _) (fun k j => congrFun hW15 _) hb15 e j) (hmean15 j) (hvar15 j) (hg15 j) (hbe15 j)
  refine ⟨?_, ?_⟩
  · funext i
    obtain ⟨e, j, rfl⟩ : ∃ (e : Fin 50000) (j : Fin 128), i = ix2 e j := ⟨i 0, i 1, eq_ix2 i⟩
    exact (congrFun (res7_9 m c) (ix2 e j)).trans (hG e j)
  -- the attention weights
  · funext i
    obtain ⟨n, rfl⟩ : ∃ n : Fin 50000, i = ix1 n := ⟨i 0, eq_ix1 i⟩
    have hwa : ∀ k : Fin 128, (E15 m c main_arg19 : S128x1.Idx → EReal) (ix2 k 0) = V' (Proc.devRef .tc Cert.ReferenceIdeal.main_arg19) (ix2 k 0) := fun k =>
      congrFun ((rd7_7 m kI c).trans hA.a19.symm) (ix2 k 0)
    have hba : (E15 m c main_v50 : S1x1.Idx → EReal) (ix2 0 0) = V' (Proc.devRef .tc Cert.ReferenceIdeal.main_arg20) (ix1 0) :=
      (kread_v50 (U14 m kI c)).trans (congrFun ((keep20_U14 m c).trans hA.a20.symm) (ix1 0))
    refine (kread_v52 (U16 m kI c) n).trans ?_
    refine (congrFun (res7_10 m c) (ix2 n 0)).trans ?_
    refine Eq.trans ?_ (Cert.ReferenceIdeal.Hand.attnOf_apply (Cert.ReferenceIdeal.Hand.valO2 V') (V' (Proc.devRef .tc Cert.ReferenceIdeal.main_arg19)) (V' (Proc.devRef .tc Cert.ReferenceIdeal.main_arg20)) n).symm
    rw [Ideal.ofBits_one_f32]
    show Ideal.logistic _ = Ideal.logistic _
    refine congrArg Ideal.logistic (congrArg₂ (· + ·) (Finset.sum_congr rfl fun k _ => ?_) hba)
    exact congrArg₂ (· * ·) (hG n k) (hwa k)

end Cert.Bridge

end
-- ==== Proof.KI.StatsVal0.lean ====
import proofs.«110491_j38809324487019_2_alg».proof.Proof.KI.Stats0
import proofs.«110491_j38809324487019_2_alg».proof.Proof.Spec
import Idealize.ShloMosaic.PureOps.Ideal
import Idealize.ShloMosaic.PureOps.Ideal.Laws
import Idealize.ShloMosaic.Lib.ValueIdx
import Idealize.ShloMosaic.Lib.ValueLayout

/-!
# Region 0, the statistics kernel: the two outputs as exact values

At the exact values (every float operation the textbook one on the extended reals, a change of format the identity) the
body's payloads are read entry by entry: an entry of the linear layer's output on a block is the bias plus the two rows' products
with the two weight columns, in turn; the running sum advances by the block's column sums, the running sum of squares by the column sums
of the squared entries; block `t` of each row input is rows `6400·t …` of the array. By induction on the grid point the
accumulators after point `n` are the column sums over the first `6400·(n+1)` rows, so after the last point over all 800000
rows; the mean is that total times the named reciprocal of the row count, the variance the mean of the squares minus the
squared mean, not below zero.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The payloads at the exact values, entry by entry -/

/-- The reduced index with the row put back: the column-sum's source index. -/
theorem lift_row0 (h : S6400x128.Reduces [0] S128) (j : Fin 128) (r : Fin 6400) : h.lift (ix1 j) r = ix2 r j := by
  funext c
  apply Fin.ext
  refine (Shape.Reduces.lift_val h (ix1 j) r c).trans ?_
  match c with
  | ⟨0, _⟩ => simp [Shape.Reduces.liftVal]
  | ⟨1, _⟩ => simp [Shape.Reduces.liftVal]

/-- The linear layer's two products: contraction over the 128 input columns. -/
abbrev D0 : DotDims S6400x128 S128x128 S6400x128 := dot_S6400x128_S128x128_S6400x128_1_0_0_1_n_n

theorem D0_lhs0 (x : S6400x128.Idx) (k : D0.contr.Idx) : (D0.lhsIdx x k 0 : ℕ) = x 0 := by
  simp [DotDims.lhsIdx, D0, dot_S6400x128_S128x128_S6400x128_1_0_0_1_n_n]; rfl
theorem D0_lhs1 (x : S6400x128.Idx) (k : D0.contr.Idx) : (D0.lhsIdx x k 1 : ℕ) = k ⟨0, by decide⟩ := by
  simp [DotDims.lhsIdx, D0, dot_S6400x128_S128x128_S6400x128_1_0_0_1_n_n]; rfl
theorem D0_rhs0 (x : S6400x128.Idx) (k : D0.contr.Idx) : (D0.rhsIdx x k 0 : ℕ) = k ⟨0, by decide⟩ := by
  simp [DotDims.rhsIdx, D0, dot_S6400x128_S128x128_S6400x128_1_0_0_1_n_n]; rfl
theorem D0_rhs1 (x : S6400x128.Idx) (k : D0.contr.Idx) : (D0.rhsIdx x k 1 : ℕ) = x 1 := by
  simp [DotDims.rhsIdx, D0, dot_S6400x128_S128x128_S6400x128_1_0_0_1_n_n]; rfl

/-- The contraction index is its one coordinate. -/
abbrev e0 : D0.contr.Idx ≃ Fin 128 := contrEquiv1 D0 128 rfl rfl

theorem D0_lhs (r : Fin 6400) (j k : Fin 128) : D0.lhsIdx (ix2 r j) (e0.symm k) = ix2 r k := by
  funext a; apply Fin.ext
  match a with
  | ⟨0, _⟩ => exact D0_lhs0 _ _
  | ⟨1, _⟩ => exact (D0_lhs1 _ _).trans (contrEquiv1_symm_val D0 128 rfl rfl k)
theorem D0_rhs (r : Fin 6400) (j k : Fin 128) : D0.rhsIdx (ix2 r j) (e0.symm k) = ix2 k j := by
  funext a; apply Fin.ext
  match a with
  | ⟨0, _⟩ => exact (D0_rhs0 _ _).trans (contrEquiv1_symm_val D0 128 rfl rfl k)
  | ⟨1, _⟩ => exact D0_rhs1 _ _

/-- One product into the zero accumulator, at an entry: the row's product with the weight column. -/
theorem mm_apply0 {φ₁ φ₂ : FTy} (x : FVec Ideal S6400x128 φ₁) (w : FVec Ideal S128x128 φ₂) (r : Fin 6400) (j : Fin 128) :
    FloatOps.matmul D0 none x w (constant S6400x128 .f32 0x00000000#32) (ix2 r j) = ∑ k : Fin 128, x (ix2 r k) * w (ix2 k j) := by
  refine (Ideal.matmul_constant_zero_apply D0 none _ _ (ix2 r j)).trans ?_
  refine (Equiv.sum_comp e0.symm _).symm.trans ?_
  refine Finset.sum_congr rfl fun k _ => ?_
  rw [D0_lhs, D0_rhs]

/-- One entry of the linear layer's output on a block: the bias, then the two half products in turn (rounding to bf16 is
    the identity on the exact values). -/
theorem pay4_apply0 (b : Vec Ideal S1x128 .f32) (x0 : Vec Ideal S6400x128 .f32) (w0 : Vec Ideal S128x128 .f32)
    (x1 : Vec Ideal S6400x128 .f32) (w1 : Vec Ideal S128x128 .f32) (r : Fin 6400) (j : Fin 128) :
    k0_pay4 b x0 w0 x1 w1 (ix2 r j)
      = (b (ix2 (0 : Fin 1) j) + ∑ k : Fin 128, x0 (ix2 r k) * w0 (ix2 k j)) + ∑ k : Fin 128, x1 (ix2 r k) * w1 (ix2 k j) := by
  unfold k0_pay4
  refine (addf_apply _ _ _).trans ?_
  refine congr (congrArg (fun a z : EReal => a + z) ?_) ?_
  · refine (addf_apply _ _ _).trans ?_
    rw [broadcastTo_1b_ab_apply, shapeCast_self]
    refine congrArg (b (ix2 0 j) + ·) ?_
    refine (mm_apply0 _ _ r j).trans ?_
    refine Finset.sum_congr rfl fun k _ => ?_
    rw [shapeCast_self]; rfl
  · refine (mm_apply0 _ _ r j).trans ?_
    refine Finset.sum_congr rfl fun k _ => ?_
    rw [shapeCast_self, shapeCast_self]; rfl

/-- The running sum advances by the block's column sums. -/
theorem pay7_apply0 (b : Vec Ideal S1x128 .f32) (x0 : Vec Ideal S6400x128 .f32) (w0 : Vec Ideal S128x128 .f32)
    (x1 : Vec Ideal S6400x128 .f32) (w1 : Vec Ideal S128x128 .f32) (s : Vec Ideal S1x128 .f32) (j : Fin 128) :
    k0_pay7 b x0 w0 x1 w1 s (ix2 (0 : Fin 1) j) = s (ix2 (0 : Fin 1) j) + ∑ r : Fin 6400, k0_pay4 b x0 w0 x1 w1 (ix2 r j) := by
  unfold k0_pay7
  rw [shapeCast_self]
  refine (addf_apply _ _ _).trans ?_
  refine congrArg (s (ix2 0 j) + ·) ?_
  refine (shapeCast_a_1a_apply _ _ 0 j).trans ?_
  refine (Ideal.multiReduction_add_single (k0_pay4 b x0 w0 x1 w1) 0x00000000#32 _ _ _ (ix1 j)).trans ?_
  exact Finset.sum_congr rfl fun r _ => congrArg (k0_pay4 b x0 w0 x1 w1) (lift_row0 _ j r)

/-- The running sum of squares advances by the column sums of the block's squared entries. -/
theorem pay8_apply0 (b : Vec Ideal S1x128 .f32) (x0 : Vec Ideal S6400x128 .f32) (w0 : Vec Ideal S128x128 .f32)
    (x1 : Vec Ideal S6400x128 .f32) (w1 : Vec Ideal S128x128 .f32) (s : Vec Ideal S1x128 .f32) (j : Fin 128) :
    k0_pay1 (k0_pay8 b x0 w0 x1 w1 s) (ix2 (0 : Fin 1) j)
      = s (ix2 (0 : Fin 1) j) + ∑ r : Fin 6400, k0_pay4 b x0 w0 x1 w1 (ix2 r j) * k0_pay4 b x0 w0 x1 w1 (ix2 r j) := by
  unfold k0_pay1 k0_pay8
  rw [shapeCast_self]
  refine (addf_apply _ _ _).trans ?_
  refine congrArg (s (ix2 0 j) + ·) ?_
  refine (shapeCast_a_1a_apply _ _ 0 j).trans ?_
  refine (Ideal.multiReduction_add_single (mulf (k0_pay4 b x0 w0 x1 w1) (k0_pay4 b x0 w0 x1 w1)) 0x00000000#32 _ _ _ (ix1 j)).trans ?_
  exact Finset.sum_congr rfl fun r _ => congrArg (mulf (k0_pay4 b x0 w0 x1 w1) (k0_pay4 b x0 w0 x1 w1)) (lift_row0 _ j r)

/-- The zero rows the first point stores denote 0. -/
theorem pay5_apply0 (i : S1x128.Idx) : (k0_pay5 (F := Ideal)) i = 0 := by
  unfold k0_pay5
  rw [shapeCast_self]
  exact Ideal.ofBits_zero_f32
theorem pay6_apply0 (i : S1x128.Idx) : (k0_pay6 (F := Ideal)) i = 0 := by
  unfold k0_pay6
  rw [shapeCast_self]
  exact Ideal.ofBits_zero_f32

/-- The named reciprocal of the row count denotes the rational. -/
theorem named_inv0 : Named.named (F := Ideal) κ "inv_800000" (φ := .f32) 0x35A7C5AC#32 = ((1 / 800000 : ℝ) : EReal) :=
  IdealRules.named_const.ideal_named_scalar _ _ _ _ rfl

/-- The mean: the total times the reciprocal of the row count. -/
theorem pay2_apply0 (S : Vec Ideal S1x128 .f32) (i : S1x128.Idx) : k0_pay2 S i = S i * ((1 / 800000 : ℝ) : EReal) := by
  unfold k0_pay2
  refine (mulf_apply _ _ _).trans ?_
  exact congrArg (S i * ·) named_inv0

/-- The variance: the mean of the squares minus the squared mean, not below the zero pattern. -/
theorem pay3_apply0 (S Q : Vec Ideal S1x128 .f32) (i : S1x128.Idx) :
    k0_pay3 S Q i = max (Q i * ((1 / 800000 : ℝ) : EReal) - (S i * ((1 / 800000 : ℝ) : EReal)) * (S i * ((1 / 800000 : ℝ) : EReal))) (Ideal.ofBits .f32 0x00000000#32) := by
  unfold k0_pay3
  refine (maximumf_apply _ _ _).trans ?_
  refine congrArg (max · _) ?_
  refine (subf_apply _ _ _).trans ?_
  rw [mulf_apply, mulf_apply, pay2_apply0]
  exact congrArg (fun z => Q i * z - _) named_inv0

/-! ## The windows' blocks, entry by entry -/

variable (V : (c : Dev nD) → (b : Ref sig .tc) → Buf (Elt Ideal) ((c : Thread nD τ).loc b))

/-- The region's five input arrays as tables of exact values: the two row inputs, the two weight halves, the bias row. -/
def XA0 (c : Dev nD) (e : Fin 800000) (k : Fin 128) : EReal := V c main_arg2 (ix2 e k)
def XB0 (c : Dev nD) (e : Fin 800000) (k : Fin 128) : EReal := V c main_v10 (ix2 e k)
def WA0 (c : Dev nD) (k j : Fin 128) : EReal := V c main_v11 (ix2 k j)
def WB0 (c : Dev nD) (k j : Fin 128) : EReal := V c main_v12 (ix2 k j)
def B0 (c : Dev nD) (j : Fin 128) : EReal := V c main_v13 (ix2 (0 : Fin 1) j)

theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel
theorem index0_2 : ∀ t : Fin grid0.N, win0_2.index t 0 = 0 ∧ win0_2.index t 1 = 0 := by decide +kernel
theorem index0_3 : ∀ t : Fin grid0.N, win0_3.index t 0 = 0 ∧ win0_3.index t 1 = 0 := by decide +kernel
theorem index0_4 : ∀ t : Fin grid0.N, win0_4.index t 0 = 0 ∧ win0_4.index t 1 = 0 := by decide +kernel

/-- Row `r` of a row input's block at point `t` is row `6400·t + r` of the array. -/
theorem iblk0_0_apply (c : Dev nD) (t : Fin cfg0.N) (r : Fin 6400) (k : Fin 128) (hr : 6400 * t.val + r.val < 800000) :
    iblk0 V c 0 t (ix2 r k) = XA0 V c ⟨6400 * t.val + r.val, hr⟩ k := by
  unfold iblk0 XA0
  rw [View.read_apply]
  show V c main_arg2 _ = V c main_arg2 _
  refine congrArg (V c main_arg2) ?_
  funext a; apply Fin.ext
  match a with
  | ⟨0, _⟩ => show win0_0.index t 0 * 6400 + 1 * r.val = 6400 * t.val + r.val; rw [(index0_0 t).1]; omega
  | ⟨1, _⟩ => show win0_0.index t 1 * 128 + 1 * k.val = k.val; rw [(index0_0 t).2]; omega

theorem iblk0_1_apply (c : Dev nD) (t : Fin cfg0.N) (r : Fin 6400) (k : Fin 128) (hr : 6400 * t.val + r.val < 800000) :
    iblk0 V c 1 t (ix2 r k) = XB0 V c ⟨6400 * t.val + r.val, hr⟩ k := by
  unfold iblk0 XB0
  rw [View.read_apply]
  show V c main_v10 _ = V c main_v10 _
  refine congrArg (V c main_v10) ?_
  funext a; apply Fin.ext
  match a with
  | ⟨0, _⟩ => show win0_1.index t 0 * 6400 + 1 * r.val = 6400 * t.val + r.val; rw [(index0_1 t).1]; omega
  | ⟨1, _⟩ => show win0_1.index t 1 * 128 + 1 * k.val = k.val; rw [(index0_1 t).2]; omega

/-- The weight and the bias windows hold their whole arrays at every point. -/
theorem iblk0_2_apply (c : Dev nD) (t : Fin cfg0.N) (k j : Fin 128) :
    iblk0 V c 2 t (ix2 k j) = WA0 V c k j := by
  unfold iblk0 WA0
  rw [View.read_apply]
  show V c main_v11 _ = V c main_v11 _
  refine congrArg (V c main_v11) ?_
  funext a; apply Fin.ext
  match a with
  | ⟨0, _⟩ => show win0_2.index t 0 * 128 + 1 * k.val = k.val; rw [(index0_2 t).1]; omega
  | ⟨1, _⟩ => show win0_2.index t 1 * 128 + 1 * j.val = j.val; rw [(index0_2 t).2]; omega

theorem iblk0_3_apply (c : Dev nD) (t : Fin cfg0.N) (k j : Fin 128) :
    iblk0 V c 3 t (ix2 k j) = WB0 V c k j := by
  unfold iblk0 WB0
  rw [View.read_apply]
  show V c main_v12 _ = V c main_v12 _
  refine congrArg (V c main_v12) ?_
  funext a; apply Fin.ext
  match a with
  | ⟨0, _⟩ => show win0_3.index t 0 * 128 + 1 * k.val = k.val; rw [(index0_3 t).1]; omega
  | ⟨1, _⟩ => show win0_3.index t 1 * 128 + 1 * j.val = j.val; rw [(index0_3 t).2]; omega

theorem iblk0_4_apply (c : Dev nD) (t : Fin cfg0.N) (j : Fin 128) :
    iblk0 V c 4 t (ix2 (0 : Fin 1) j) = B0 V c j := by
  unfold iblk0 B0
  rw [View.read_apply]
  show V c main_v13 _ = V c main_v13 _
  refine congrArg (V c main_v13) ?_
  funext a; apply Fin.ext
  match a with
  | ⟨0, _⟩ => show win0_4.index t 0 * 1 + 1 * 0 = 0; rw [(index0_4 t).1]
  | ⟨1, _⟩ => show win0_4.index t 1 * 128 + 1 * j.val = j.val; rw [(index0_4 t).2]; omega

/-! ## The accumulators as sums over all rows -/

/-- The linear layer's output on all 800000 rows, as a table of exact values. -/
def linTab0 (c : Dev nD) : Fin 800000 → Fin 128 → EReal := Spec.lin2 (XA0 V c) (XB0 V c) (WA0 V c) (WB0 V c) (B0 V c)

/-- The same with the row a natural number (zero past the last row). -/
def linNat0 (c : Dev nD) (n : ℕ) (j : Fin 128) : EReal := if h : n < 800000 then linTab0 V c ⟨n, h⟩ j else 0

/-- An entry of the layer's output on the block of point `t` is the table's entry at row `6400·t + r`. -/
theorem pay4_blk0 (c : Dev nD) (t : Fin cfg0.N) (r : Fin 6400) (j : Fin 128) :
    k0_pay4 (iblk0 V c 4 t) (iblk0 V c 0 t) (iblk0 V c 2 t) (iblk0 V c 1 t) (iblk0 V c 3 t) (ix2 r j) = linNat0 V c (6400 * t.val + r.val) j := by
  have ht : t.val < 125 := lt_of_lt_of_eq t.isLt N_0
  have hr : 6400 * t.val + r.val < 800000 := by have := r.isLt; omega
  refine (pay4_apply0 _ _ _ _ _ r j).trans ?_
  unfold linNat0; rw [dif_pos hr]
  show _ = (B0 V c j + ∑ k : Fin 128, XA0 V c ⟨6400 * t.val + r.val, hr⟩ k * WA0 V c k j)
    + ∑ k : Fin 128, XB0 V c ⟨6400 * t.val + r.val, hr⟩ k * WB0 V c k j
  rw [iblk0_4_apply]
  refine congr (congrArg (fun a z : EReal => a + z) ?_) ?_
  · exact congrArg (fun z : EReal => B0 V c j + z)
      (Finset.sum_congr rfl fun k _ => by rw [iblk0_0_apply V c t r k hr, iblk0_2_apply])
  · exact Finset.sum_congr rfl fun k _ => by rw [iblk0_1_apply V c t r k hr, iblk0_3_apply]

/-- The column sums of the block of point `t`, as a sum over a range of rows. -/
theorem blockSum0 (c : Dev nD) (t : Fin cfg0.N) (j : Fin 128) :
    ∑ r : Fin 6400, k0_pay4 (iblk0 V c 4 t) (iblk0 V c 0 t) (iblk0 V c 2 t) (iblk0 V c 1 t) (iblk0 V c 3 t) (ix2 r j)
      = ∑ x ∈ Finset.range 6400, linNat0 V c (6400 * t.val + x) j :=
  (Finset.sum_congr rfl fun r _ => pay4_blk0 V c t r j).trans (Finset.sum_range (fun x => linNat0 V c (6400 * t.val + x) j)).symm

theorem blockSumSq0 (c : Dev nD) (t : Fin cfg0.N) (j : Fin 128) :
    ∑ r : Fin 6400, k0_pay4 (iblk0 V c 4 t) (iblk0 V c 0 t) (iblk0 V c 2 t) (iblk0 V c 1 t) (iblk0 V c 3 t) (ix2 r j) * k0_pay4 (iblk0 V c 4 t) (iblk0 V c 0 t) (iblk0 V c 2 t) (iblk0 V c 1 t) (iblk0 V c 3 t) (ix2 r j)
      = ∑ x ∈ Finset.range 6400, linNat0 V c (6400 * t.val + x) j * linNat0 V c (6400 * t.val + x) j :=
  (Finset.sum_congr rfl fun r _ => by rw [pay4_blk0 V c t r j]).trans
    (Finset.sum_range (fun x => linNat0 V c (6400 * t.val + x) j * linNat0 V c (6400 * t.val + x) j)).symm

/-- After point `n` the running sum holds the column sums of the first `6400·(n+1)` rows. -/
theorem accSum0_val (c : Dev nD) (j : Fin 128) : ∀ (n : ℕ) (hn : n < cfg0.N),
    accSum0 V c n hn (ix2 (0 : Fin 1) j) = ∑ e ∈ Finset.range (6400 * (n + 1)), linNat0 V c e j
  | 0, hn => by
    refine (pay7_apply0 _ _ _ _ _ _ j).trans ?_
    rw [pay5_apply0, zero_add, blockSum0 V c ⟨0, hn⟩ j]
    simp only [Nat.mul_zero, Nat.zero_add, Nat.mul_one]
  | n + 1, hn => by
    refine (pay7_apply0 _ _ _ _ _ _ j).trans ?_
    rw [accSum0_val c j n (Nat.lt_of_succ_lt hn), blockSum0 V c ⟨n + 1, hn⟩ j,
      show 6400 * (n + 1 + 1) = 6400 * (n + 1) + 6400 from by ring, Finset.sum_range_add]

theorem accSq0_val (c : Dev nD) (j : Fin 128) : ∀ (n : ℕ) (hn : n < cfg0.N),
    accSq0 V c n hn (ix2 (0 : Fin 1) j) = ∑ e ∈ Finset.range (6400 * (n + 1)), linNat0 V c e j * linNat0 V c e j
  | 0, hn => by
    refine (pay8_apply0 _ _ _ _ _ _ j).trans ?_
    rw [pay6_apply0, zero_add, blockSumSq0 V c ⟨0, hn⟩ j]
    simp only [Nat.mul_zero, Nat.zero_add, Nat.mul_one]
  | n + 1, hn => by
    refine (pay8_apply0 _ _ _ _ _ _ j).trans ?_
    rw [accSq0_val c j n (Nat.lt_of_succ_lt hn), blockSumSq0 V c ⟨n + 1, hn⟩ j,
      show 6400 * (n + 1 + 1) = 6400 * (n + 1) + 6400 from by ring, Finset.sum_range_add]

/-- A sum over the first 800000 naturals of the table read at naturals is the sum over the table's rows. -/
theorem sum_linNat0 (c : Dev nD) (j : Fin 128) :
    ∑ e ∈ Finset.range 800000, linNat0 V c e j = ∑ e : Fin 800000, linTab0 V c e j := by
  rw [Finset.sum_range]
  exact Finset.sum_congr rfl fun e _ => by unfold linNat0; rw [dif_pos e.isLt]

theorem sum_linNat0_sq (c : Dev nD) (j : Fin 128) :
    ∑ e ∈ Finset.range 800000, linNat0 V c e j * linNat0 V c e j = ∑ e : Fin 800000, linTab0 V c e j * linTab0 V c e j := by
  rw [Finset.sum_range]
  exact Finset.sum_congr rfl fun e _ => by unfold linNat0; rw [dif_pos e.isLt]

/-! ## The two outputs -/

/-- After the last point the running sum holds the column sums over all rows, the running sum of squares the column sums
    of the squares. -/
theorem accSum0_last (c : Dev nD) (j : Fin 128) :
    accSum0 V c tLast0.val tLast0.isLt (ix2 (0 : Fin 1) j) = ∑ e : Fin 800000, linTab0 V c e j :=
  (accSum0_val V c j 124 tLast0.isLt).trans (sum_linNat0 V c j)

theorem accSq0_last (c : Dev nD) (j : Fin 128) :
    accSq0 V c tLast0.val tLast0.isLt (ix2 (0 : Fin 1) j) = ∑ e : Fin 800000, linTab0 V c e j * linTab0 V c e j :=
  (accSq0_val V c j 124 tLast0.isLt).trans (sum_linNat0_sq V c j)

/-- An index of a one-row table is its column. -/
theorem exists_col0 (i : S1x128.Idx) : ∃ j : Fin 128, i = ix2 (0 : Fin 1) j :=
  ⟨i 1, by
    funext a
    match a with
    | ⟨0, _⟩ => apply Fin.ext; have := idx2_lt0 i; show (i 0).val = 0; omega
    | ⟨1, _⟩ => rfl⟩

/-- THE MEAN the region leaves: the column mean, one pass, of the linear layer's output over all rows. -/
theorem mean0Res_col (c : Dev nD) (j : Fin 128) :
    mean0Res V c (ix2 (0 : Fin 1) j) = Spec.meanK (((1 / 800000 : ℝ) : EReal)) (linTab0 V c) j := by
  show k0_pay2 (accSum0 V c tLast0.val tLast0.isLt) (ix2 (0 : Fin 1) j) = _
  rw [pay2_apply0, accSum0_last]
  rfl

/-- THE VARIANCE the region leaves: the column variance, one pass, of the same. -/
theorem var0Res_col (c : Dev nD) (j : Fin 128) :
    var0Res V c (ix2 (0 : Fin 1) j) = Spec.varK (((1 / 800000 : ℝ) : EReal)) (linTab0 V c) j := by
  show k0_pay3 (accSum0 V c tLast0.val tLast0.isLt) (accSq0 V c tLast0.val tLast0.isLt) (ix2 (0 : Fin 1) j) = _
  rw [pay3_apply0, accSum0_last, accSq0_last]
  rfl

theorem mean0_val (c : Dev nD) :
    (dat0 V c).arrAt 5 cfg0.N = fun i => Spec.meanK (((1 / 800000 : ℝ) : EReal)) (linTab0 V c) (i 1) := by
  rw [mean0]; funext i
  obtain ⟨j, rfl⟩ := exists_col0 i
  exact mean0Res_col V c j

theorem var0_val (c : Dev nD) :
    (dat0 V c).arrAt 6 cfg0.N = fun i => Spec.varK (((1 / 800000 : ℝ) : EReal)) (linTab0 V c) (i 1) := by
  rw [var0]; funext i
  obtain ⟨j, rfl⟩ := exists_col0 i
  exact var0Res_col V c j

end Cert.KernelIdeal.Hand

end
-- ==== Proof.KI.StatsVal4.lean ====
import proofs.«110491_j38809324487019_2_alg».proof.Proof.KI.Stats4
import proofs.«110491_j38809324487019_2_alg».proof.Proof.Spec
import Idealize.ShloMosaic.PureOps.Ideal
import Idealize.ShloMosaic.PureOps.Ideal.Laws
import Idealize.ShloMosaic.Lib.ValueIdx
import Idealize.ShloMosaic.Lib.ValueLayout

/-!
# Region 4, the statistics kernel: the two outputs as exact values

At the exact values (every float operation the textbook one on the extended reals, a change of format the identity) the
body's payloads are read entry by entry: an entry of the linear layer's output on a block is the bias plus the two rows' products
with the two weight columns, in turn; the running sum advances by the block's column sums, the running sum of squares by the column sums
of the squared entries; block `t` of each row input is rows `5000·t …` of the array. By induction on the grid point the
accumulators after point `n` are the column sums over the first `5000·(n+1)` rows, so after the last point over all 50000
rows; the mean is that total times the named reciprocal of the row count, the variance the mean of the squares minus the
squared mean, not below zero.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The payloads at the exact values, entry by entry -/

/-- The reduced index with the row put back: the column-sum's source index. -/
theorem lift_row4 (h : S5000x128.Reduces [0] S128) (j : Fin 128) (r : Fin 5000) : h.lift (ix1 j) r = ix2 r j := by
  funext c
  apply Fin.ext
  refine (Shape.Reduces.lift_val h (ix1 j) r c).trans ?_
  match c with
  | ⟨0, _⟩ => simp [Shape.Reduces.liftVal]
  | ⟨1, _⟩ => simp [Shape.Reduces.liftVal]

/-- The linear layer's two products: contraction over the 128 input columns. -/
abbrev D4 : DotDims S5000x128 S128x128 S5000x128 := dot_S5000x128_S128x128_S5000x128_1_0_0_1_n_n

theorem D4_lhs0 (x : S5000x128.Idx) (k : D4.contr.Idx) : (D4.lhsIdx x k 0 : ℕ) = x 0 := by
  simp [DotDims.lhsIdx, D4, dot_S5000x128_S128x128_S5000x128_1_0_0_1_n_n]; rfl
theorem D4_lhs1 (x : S5000x128.Idx) (k : D4.contr.Idx) : (D4.lhsIdx x k 1 : ℕ) = k ⟨0, by decide⟩ := by
  simp [DotDims.lhsIdx, D4, dot_S5000x128_S128x128_S5000x128_1_0_0_1_n_n]; rfl
theorem D4_rhs0 (x : S5000x128.Idx) (k : D4.contr.Idx) : (D4.rhsIdx x k 0 : ℕ) = k ⟨0, by decide⟩ := by
  simp [DotDims.rhsIdx, D4, dot_S5000x128_S128x128_S5000x128_1_0_0_1_n_n]; rfl
theorem D4_rhs1 (x : S5000x128.Idx) (k : D4.contr.Idx) : (D4.rhsIdx x k 1 : ℕ) = x 1 := by
  simp [DotDims.rhsIdx, D4, dot_S5000x128_S128x128_S5000x128_1_0_0_1_n_n]; rfl

/-- The contraction index is its one coordinate. -/
abbrev e4 : D4.contr.Idx ≃ Fin 128 := contrEquiv1 D4 128 rfl rfl

theorem D4_lhs (r : Fin 5000) (j k : Fin 128) : D4.lhsIdx (ix2 r j) (e4.symm k) = ix2 r k := by
  funext a; apply Fin.ext
  match a with
  | ⟨0, _⟩ => exact D4_lhs0 _ _
  | ⟨1, _⟩ => exact (D4_lhs1 _ _).trans (contrEquiv1_symm_val D4 128 rfl rfl k)
theorem D4_rhs (r : Fin 5000) (j k : Fin 128) : D4.rhsIdx (ix2 r j) (e4.symm k) = ix2 k j := by
  funext a; apply Fin.ext
  match a with
  | ⟨0, _⟩ => exact (D4_rhs0 _ _).trans (contrEquiv1_symm_val D4 128 rfl rfl k)
  | ⟨1, _⟩ => exact D4_rhs1 _ _

/-- One product into the zero accumulator, at an entry: the row's product with the weight column. -/
theorem mm_apply4 {φ₁ φ₂ : FTy} (x : FVec Ideal S5000x128 φ₁) (w : FVec Ideal S128x128 φ₂) (r : Fin 5000) (j : Fin 128) :
    FloatOps.matmul D4 none x w (constant S5000x128 .f32 0x00000000#32) (ix2 r j) = ∑ k : Fin 128, x (ix2 r k) * w (ix2 k j) := by
  refine (Ideal.matmul_constant_zero_apply D4 none _ _ (ix2 r j)).trans ?_
  refine (Equiv.sum_comp e4.symm _).symm.trans ?_
  refine Finset.sum_congr rfl fun k _ => ?_
  rw [D4_lhs, D4_rhs]

/-- One entry of the linear layer's output on a block: the bias, then the two half products in turn (rounding to bf16 is
    the identity on the exact values). -/
theorem pay4_apply4 (b : Vec Ideal S1x128 .f32) (x0 : Vec Ideal S5000x128 .f32) (w0 : Vec Ideal S128x128 .f32)
    (x1 : Vec Ideal S5000x128 .f32) (w1 : Vec Ideal S128x128 .f32) (r : Fin 5000) (j : Fin 128) :
    k4_pay4 b x0 w0 x1 w1 (ix2 r j)
      = (b (ix2 (0 : Fin 1) j) + ∑ k : Fin 128, x0 (ix2 r k) * w0 (ix2 k j)) + ∑ k : Fin 128, x1 (ix2 r k) * w1 (ix2 k j) := by
  unfold k4_pay4
  refine (addf_apply _ _ _).trans ?_
  refine congr (congrArg (fun a z : EReal => a + z) ?_) ?_
  · refine (addf_apply _ _ _).trans ?_
    rw [broadcastTo_1b_ab_apply, shapeCast_self]
    refine congrArg (b (ix2 0 j) + ·) ?_
    refine (mm_apply4 _ _ r j).trans ?_
    refine Finset.sum_congr rfl fun k _ => ?_
    rw [shapeCast_self]; rfl
  · refine (mm_apply4 _ _ r j).trans ?_
    refine Finset.sum_congr rfl fun k _ => ?_
    rw [shapeCast_self, shapeCast_self]; rfl

/-- The running sum advances by the block's column sums. -/
theorem pay7_apply4 (b : Vec Ideal S1x128 .f32) (x0 : Vec Ideal S5000x128 .f32) (w0 : Vec Ideal S128x128 .f32)
    (x1 : Vec Ideal S5000x128 .f32) (w1 : Vec Ideal S128x128 .f32) (s : Vec Ideal S1x128 .f32) (j : Fin 128) :
    k4_pay7 b x0 w0 x1 w1 s (ix2 (0 : Fin 1) j) = s (ix2 (0 : Fin 1) j) + ∑ r : Fin 5000, k4_pay4 b x0 w0 x1 w1 (ix2 r j) := by
  unfold k4_pay7
  rw [shapeCast_self]
  refine (addf_apply _ _ _).trans ?_
  refine congrArg (s (ix2 0 j) + ·) ?_
  refine (shapeCast_a_1a_apply _ _ 0 j).trans ?_
  refine (Ideal.multiReduction_add_single (k4_pay4 b x0 w0 x1 w1) 0x00000000#32 _ _ _ (ix1 j)).trans ?_
  exact Finset.sum_congr rfl fun r _ => congrArg (k4_pay4 b x0 w0 x1 w1) (lift_row4 _ j r)

/-- The running sum of squares advances by the column sums of the block's squared entries. -/
theorem pay8_apply4 (b : Vec Ideal S1x128 .f32) (x0 : Vec Ideal S5000x128 .f32) (w0 : Vec Ideal S128x128 .f32)
    (x1 : Vec Ideal S5000x128 .f32) (w1 : Vec Ideal S128x128 .f32) (s : Vec Ideal S1x128 .f32) (j : Fin 128) :
    k4_pay1 (k4_pay8 b x0 w0 x1 w1 s) (ix2 (0 : Fin 1) j)
      = s (ix2 (0 : Fin 1) j) + ∑ r : Fin 5000, k4_pay4 b x0 w0 x1 w1 (ix2 r j) * k4_pay4 b x0 w0 x1 w1 (ix2 r j) := by
  unfold k4_pay1 k4_pay8
  rw [shapeCast_self]
  refine (addf_apply _ _ _).trans ?_
  refine congrArg (s (ix2 0 j) + ·) ?_
  refine (shapeCast_a_1a_apply _ _ 0 j).trans ?_
  refine (Ideal.multiReduction_add_single (mulf (k4_pay4 b x0 w0 x1 w1) (k4_pay4 b x0 w0 x1 w1)) 0x00000000#32 _ _ _ (ix1 j)).trans ?_
  exact Finset.sum_congr rfl fun r _ => congrArg (mulf (k4_pay4 b x0 w0 x1 w1) (k4_pay4 b x0 w0 x1 w1)) (lift_row4 _ j r)

/-- The zero rows the first point stores denote 0. -/
theorem pay5_apply4 (i : S1x128.Idx) : (k4_pay5 (F := Ideal)) i = 0 := by
  unfold k4_pay5
  rw [shapeCast_self]
  exact Ideal.ofBits_zero_f32
theorem pay6_apply4 (i : S1x128.Idx) : (k4_pay6 (F := Ideal)) i = 0 := by
  unfold k4_pay6
  rw [shapeCast_self]
  exact Ideal.ofBits_zero_f32

/-- The named reciprocal of the row count denotes the rational. -/
theorem named_inv4 : Named.named (F := Ideal) κ "inv_50000" (φ := .f32) 0x37A7C5AC#32 = ((1 / 50000 : ℝ) : EReal) :=
  IdealRules.named_const.ideal_named_scalar _ _ _ _ rfl

/-- The mean: the total times the reciprocal of the row count. -/
theorem pay2_apply4 (S : Vec Ideal S1x128 .f32) (i : S1x128.Idx) : k4_pay2 S i = S i * ((1 / 50000 : ℝ) : EReal) := by
  unfold k4_pay2
  refine (mulf_apply _ _ _).trans ?_
  exact congrArg (S i * ·) named_inv4

/-- The variance: the mean of the squares minus the squared mean, not below the zero pattern. -/
theorem pay3_apply4 (S Q : Vec Ideal S1x128 .f32) (i : S1x128.Idx) :
    k4_pay3 S Q i = max (Q i * ((1 / 50000 : ℝ) : EReal) - (S i * ((1 / 50000 : ℝ) : EReal)) * (S i * ((1 / 50000 : ℝ) : EReal))) (Ideal.ofBits .f32 0x00000000#32) := by
  unfold k4_pay3
  refine (maximumf_apply _ _ _).trans ?_
  refine congrArg (max · _) ?_
  refine (subf_apply _ _ _).trans ?_
  rw [mulf_apply, mulf_apply, pay2_apply4]
  exact congrArg (fun z => Q i * z - _) named_inv4

/-! ## The windows' blocks, entry by entry -/

variable (V : (c : Dev nD) → (b : Ref sig .tc) → Buf (Elt Ideal) ((c : Thread nD τ).loc b))

/-- The region's five input arrays as tables of exact values: the two row inputs, the two weight halves, the bias row. -/
def XA4 (c : Dev nD) (e : Fin 50000) (k : Fin 128) : EReal := V c main_arg0 (ix2 e k)
def XB4 (c : Dev nD) (e : Fin 50000) (k : Fin 128) : EReal := V c main_v36 (ix2 e k)
def WA4 (c : Dev nD) (k j : Fin 128) : EReal := V c main_v37 (ix2 k j)
def WB4 (c : Dev nD) (k j : Fin 128) : EReal := V c main_v38 (ix2 k j)
def B4 (c : Dev nD) (j : Fin 128) : EReal := V c main_v39 (ix2 (0 : Fin 1) j)

theorem index4_0 : ∀ t : Fin grid4.N, win4_0.index t 0 = t.val ∧ win4_0.index t 1 = 0 := by decide +kernel
theorem index4_1 : ∀ t : Fin grid4.N, win4_1.index t 0 = t.val ∧ win4_1.index t 1 = 0 := by decide +kernel
theorem index4_2 : ∀ t : Fin grid4.N, win4_2.index t 0 = 0 ∧ win4_2.index t 1 = 0 := by decide +kernel
theorem index4_3 : ∀ t : Fin grid4.N, win4_3.index t 0 = 0 ∧ win4_3.index t 1 = 0 := by decide +kernel
theorem index4_4 : ∀ t : Fin grid4.N, win4_4.index t 0 = 0 ∧ win4_4.index t 1 = 0 := by decide +kernel

/-- Row `r` of a row input's block at point `t` is row `5000·t + r` of the array. -/
theorem iblk4_0_apply (c : Dev nD) (t : Fin cfg4.N) (r : Fin 5000) (k : Fin 128) (hr : 5000 * t.val + r.val < 50000) :
    iblk4 V c 0 t (ix2 r k) = XA4 V c ⟨5000 * t.val + r.val, hr⟩ k := by
  unfold iblk4 XA4
  rw [View.read_apply]
  show V c main_arg0 _ = V c main_arg0 _
  refine congrArg (V c main_arg0) ?_
  funext a; apply Fin.ext
  match a with
  | ⟨0, _⟩ => show win4_0.index t 0 * 5000 + 1 * r.val = 5000 * t.val + r.val; rw [(index4_0 t).1]; omega
  | ⟨1, _⟩ => show win4_0.index t 1 * 128 + 1 * k.val = k.val; rw [(index4_0 t).2]; omega

theorem iblk4_1_apply (c : Dev nD) (t : Fin cfg4.N) (r : Fin 5000) (k : Fin 128) (hr : 5000 * t.val + r.val < 50000) :
    iblk4 V c 1 t (ix2 r k) = XB4 V c ⟨5000 * t.val + r.val, hr⟩ k := by
  unfold iblk4 XB4
  rw [View.read_apply]
  show V c main_v36 _ = V c main_v36 _
  refine congrArg (V c main_v36) ?_
  funext a; apply Fin.ext
  match a with
  | ⟨0, _⟩ => show win4_1.index t 0 * 5000 + 1 * r.val = 5000 * t.val + r.val; rw [(index4_1 t).1]; omega
  | ⟨1, _⟩ => show win4_1.index t 1 * 128 + 1 * k.val = k.val; rw [(index4_1 t).2]; omega

/-- The weight and the bias windows hold their whole arrays at every point. -/
theorem iblk4_2_apply (c : Dev nD) (t : Fin cfg4.N) (k j : Fin 128) :
    iblk4 V c 2 t (ix2 k j) = WA4 V c k j := by
  unfold iblk4 WA4
  rw [View.read_apply]
  show V c main_v37 _ = V c main_v37 _
  refine congrArg (V c main_v37) ?_
  funext a; apply Fin.ext
  match a with
  | ⟨0, _⟩ => show win4_2.index t 0 * 128 + 1 * k.val = k.val; rw [(index4_2 t).1]; omega
  | ⟨1, _⟩ => show win4_2.index t 1 * 128 + 1 * j.val = j.val; rw [(index4_2 t).2]; omega

theorem iblk4_3_apply (c : Dev nD) (t : Fin cfg4.N) (k j : Fin 128) :
    iblk4 V c 3 t (ix2 k j) = WB4 V c k j := by
  unfold iblk4 WB4
  rw [View.read_apply]
  show V c main_v38 _ = V c main_v38 _
  refine congrArg (V c main_v38) ?_
  funext a; apply Fin.ext
  match a with
  | ⟨0, _⟩ => show win4_3.index t 0 * 128 + 1 * k.val = k.val; rw [(index4_3 t).1]; omega
  | ⟨1, _⟩ => show win4_3.index t 1 * 128 + 1 * j.val = j.val; rw [(index4_3 t).2]; omega

theorem iblk4_4_apply (c : Dev nD) (t : Fin cfg4.N) (j : Fin 128) :
    iblk4 V c 4 t (ix2 (0 : Fin 1) j) = B4 V c j := by
  unfold iblk4 B4
  rw [View.read_apply]
  show V c main_v39 _ = V c main_v39 _
  refine congrArg (V c main_v39) ?_
  funext a; apply Fin.ext
  match a with
  | ⟨0, _⟩ => show win4_4.index t 0 * 1 + 1 * 0 = 0; rw [(index4_4 t).1]
  | ⟨1, _⟩ => show win4_4.index t 1 * 128 + 1 * j.val = j.val; rw [(index4_4 t).2]; omega

/-! ## The accumulators as sums over all rows -/

/-- The linear layer's output on all 50000 rows, as a table of exact values. -/
def linTab4 (c : Dev nD) : Fin 50000 → Fin 128 → EReal := Spec.lin2 (XA4 V c) (XB4 V c) (WA4 V c) (WB4 V c) (B4 V c)

/-- The same with the row a natural number (zero past the last row). -/
def linNat4 (c : Dev nD) (n : ℕ) (j : Fin 128) : EReal := if h : n < 50000 then linTab4 V c ⟨n, h⟩ j else 0

/-- An entry of the layer's output on the block of point `t` is the table's entry at row `5000·t + r`. -/
theorem pay4_blk4 (c : Dev nD) (t : Fin cfg4.N) (r : Fin 5000) (j : Fin 128) :
    k4_pay4 (iblk4 V c 4 t) (iblk4 V c 0 t) (iblk4 V c 2 t) (iblk4 V c 1 t) (iblk4 V c 3 t) (ix2 r j) = linNat4 V c (5000 * t.val + r.val) j := by
  have ht : t.val < 10 := lt_of_lt_of_eq t.isLt N_4
  have hr : 5000 * t.val + r.val < 50000 := by have := r.isLt; omega
  refine (pay4_apply4 _ _ _ _ _ r j).trans ?_
  unfold linNat4; rw [dif_pos hr]
  show _ = (B4 V c j + ∑ k : Fin 128, XA4 V c ⟨5000 * t.val + r.val, hr⟩ k * WA4 V c k j)
    + ∑ k : Fin 128, XB4 V c ⟨5000 * t.val + r.val, hr⟩ k * WB4 V c k j
  rw [iblk4_4_apply]
  refine congr (congrArg (fun a z : EReal => a + z) ?_) ?_
  · exact congrArg (fun z : EReal => B4 V c j + z)
      (Finset.sum_congr rfl fun k _ => by rw [iblk4_0_apply V c t r k hr, iblk4_2_apply])
  · exact Finset.sum_congr rfl fun k _ => by rw [iblk4_1_apply V c t r k hr, iblk4_3_apply]

/-- The column sums of the block of point `t`, as a sum over a range of rows. -/
theorem blockSum4 (c : Dev nD) (t : Fin cfg4.N) (j : Fin 128) :
    ∑ r : Fin 5000, k4_pay4 (iblk4 V c 4 t) (iblk4 V c 0 t) (iblk4 V c 2 t) (iblk4 V c 1 t) (iblk4 V c 3 t) (ix2 r j)
      = ∑ x ∈ Finset.range 5000, linNat4 V c (5000 * t.val + x) j :=
  (Finset.sum_congr rfl fun r _ => pay4_blk4 V c t r j).trans (Finset.sum_range (fun x => linNat4 V c (5000 * t.val + x) j)).symm

theorem blockSumSq4 (c : Dev nD) (t : Fin cfg4.N) (j : Fin 128) :
    ∑ r : Fin 5000, k4_pay4 (iblk4 V c 4 t) (iblk4 V c 0 t) (iblk4 V c 2 t) (iblk4 V c 1 t) (iblk4 V c 3 t) (ix2 r j) * k4_pay4 (iblk4 V c 4 t) (iblk4 V c 0 t) (iblk4 V c 2 t) (iblk4 V c 1 t) (iblk4 V c 3 t) (ix2 r j)
      = ∑ x ∈ Finset.range 5000, linNat4 V c (5000 * t.val + x) j * linNat4 V c (5000 * t.val + x) j :=
  (Finset.sum_congr rfl fun r _ => by rw [pay4_blk4 V c t r j]).trans
    (Finset.sum_range (fun x => linNat4 V c (5000 * t.val + x) j * linNat4 V c (5000 * t.val + x) j)).symm

/-- After point `n` the running sum holds the column sums of the first `5000·(n+1)` rows. -/
theorem accSum4_val (c : Dev nD) (j : Fin 128) : ∀ (n : ℕ) (hn : n < cfg4.N),
    accSum4 V c n hn (ix2 (0 : Fin 1) j) = ∑ e ∈ Finset.range (5000 * (n + 1)), linNat4 V c e j
  | 0, hn => by
    refine (pay7_apply4 _ _ _ _ _ _ j).trans ?_
    rw [pay5_apply4, zero_add, blockSum4 V c ⟨0, hn⟩ j]
    simp only [Nat.mul_zero, Nat.zero_add, Nat.mul_one]
  | n + 1, hn => by
    refine (pay7_apply4 _ _ _ _ _ _ j).trans ?_
    rw [accSum4_val c j n (Nat.lt_of_succ_lt hn), blockSum4 V c ⟨n + 1, hn⟩ j,
      show 5000 * (n + 1 + 1) = 5000 * (n + 1) + 5000 from by ring, Finset.sum_range_add]

theorem accSq4_val (c : Dev nD) (j : Fin 128) : ∀ (n : ℕ) (hn : n < cfg4.N),
    accSq4 V c n hn (ix2 (0 : Fin 1) j) = ∑ e ∈ Finset.range (5000 * (n + 1)), linNat4 V c e j * linNat4 V c e j
  | 0, hn => by
    refine (pay8_apply4 _ _ _ _ _ _ j).trans ?_
    rw [pay6_apply4, zero_add, blockSumSq4 V c ⟨0, hn⟩ j]
    simp only [Nat.mul_zero, Nat.zero_add, Nat.mul_one]
  | n + 1, hn => by
    refine (pay8_apply4 _ _ _ _ _ _ j).trans ?_
    rw [accSq4_val c j n (Nat.lt_of_succ_lt hn), blockSumSq4 V c ⟨n + 1, hn⟩ j,
      show 5000 * (n + 1 + 1) = 5000 * (n + 1) + 5000 from by ring, Finset.sum_range_add]

/-- A sum over the first 50000 naturals of the table read at naturals is the sum over the table's rows. -/
theorem sum_linNat4 (c : Dev nD) (j : Fin 128) :
    ∑ e ∈ Finset.range 50000, linNat4 V c e j = ∑ e : Fin 50000, linTab4 V c e j := by
  rw [Finset.sum_range]
  exact Finset.sum_congr rfl fun e _ => by unfold linNat4; rw [dif_pos e.isLt]

theorem sum_linNat4_sq (c : Dev nD) (j : Fin 128) :
    ∑ e ∈ Finset.range 50000, linNat4 V c e j * linNat4 V c e j = ∑ e : Fin 50000, linTab4 V c e j * linTab4 V c e j := by
  rw [Finset.sum_range]
  exact Finset.sum_congr rfl fun e _ => by unfold linNat4; rw [dif_pos e.isLt]

/-! ## The two outputs -/

/-- After the last point the running sum holds the column sums over all rows, the running sum of squares the column sums
    of the squares. -/
theorem accSum4_last (c : Dev nD) (j : Fin 128) :
    accSum4 V c tLast4.val tLast4.isLt (ix2 (0 : Fin 1) j) = ∑ e : Fin 50000, linTab4 V c e j :=
  (accSum4_val V c j 9 tLast4.isLt).trans (sum_linNat4 V c j)

theorem accSq4_last (c : Dev nD) (j : Fin 128) :
    accSq4 V c tLast4.val tLast4.isLt (ix2 (0 : Fin 1) j) = ∑ e : Fin 50000, linTab4 V c e j * linTab4 V c e j :=
  (accSq4_val V c j 9 tLast4.isLt).trans (sum_linNat4_sq V c j)

/-- An index of a one-row table is its column. -/
theorem exists_col4 (i : S1x128.Idx) : ∃ j : Fin 128, i = ix2 (0 : Fin 1) j :=
  ⟨i 1, by
    funext a
    match a with
    | ⟨0, _⟩ => apply Fin.ext; have := idx2_lt0 i; show (i 0).val = 0; omega
    | ⟨1, _⟩ => rfl⟩

/-- THE MEAN the region leaves: the column mean, one pass, of the linear layer's output over all rows. -/
theorem mean4Res_col (c : Dev nD) (j : Fin 128) :
    mean4Res V c (ix2 (0 : Fin 1) j) = Spec.meanK (((1 / 50000 : ℝ) : EReal)) (linTab4 V c) j := by
  show k4_pay2 (accSum4 V c tLast4.val tLast4.isLt) (ix2 (0 : Fin 1) j) = _
  rw [pay2_apply4, accSum4_last]
  rfl

/-- THE VARIANCE the region leaves: the column variance, one pass, of the same. -/
theorem var4Res_col (c : Dev nD) (j : Fin 128) :
    var4Res V c (ix2 (0 : Fin 1) j) = Spec.varK (((1 / 50000 : ℝ) : EReal)) (linTab4 V c) j := by
  show k4_pay3 (accSum4 V c tLast4.val tLast4.isLt) (accSq4 V c tLast4.val tLast4.isLt) (ix2 (0 : Fin 1) j) = _
  rw [pay3_apply4, accSum4_last, accSq4_last]
  rfl

theorem mean4_val (c : Dev nD) :
    (dat4 V c).arrAt 5 cfg4.N = fun i => Spec.meanK (((1 / 50000 : ℝ) : EReal)) (linTab4 V c) (i 1) := by
  rw [mean4]; funext i
  obtain ⟨j, rfl⟩ := exists_col4 i
  exact mean4Res_col V c j

theorem var4_val (c : Dev nD) :
    (dat4 V c).arrAt 6 cfg4.N = fun i => Spec.varK (((1 / 50000 : ℝ) : EReal)) (linTab4 V c) (i 1) := by
  rw [var4]; funext i
  obtain ⟨j, rfl⟩ := exists_col4 i
  exact var4Res_col V c j

end Cert.KernelIdeal.Hand

end
-- ==== Proof.Finite.lean ====
/-
  Every float input of the idealized kernel program is a real number.

  The precondition of the claim says that a printed predicate evaluates to "all ones" on the argument arrays.  That
  predicate treats each of the twenty float arrays in the same way: it takes the absolute value of every entry,
  compares it strictly below the single-precision pattern 0x7F800000 (broadcast to the array's shape), folds the
  comparisons of the array by "and" starting from 1, and finally "and"s the twenty one-bit results.  (The integer
  edge table, argument 1, does not occur in it.)

  Read over the extended reals the pattern 0x7F800000 is the top element, and the absolute value of x is the larger of
  x and -x.  For x = +infinity this is +infinity, for x = -infinity it is +infinity again, and neither is strictly
  below the top; so an entry passes the comparison exactly when it is a real number.  An "and" that is 1 has both its
  operands 1, and a fold by "and" that is 1 met a 1 at every entry: hence from the precondition every entry of every
  float argument is (the image of) a real number.

  `isReal_of_abs_lt_top` is the fact about one extended real, `real_of_all` reads one array's fold back (for any
  shape), and `args_real` splits the twenty-fold conjunction; `arg0_real` … `arg20_real` are its components.
-/
import proofs.«110491_j38809324487019_2_alg».proof.Defs
import proofs.«110491_j38809324487019_2_alg».proof.Proof.LibFinite
import Idealize.ShloMosaic.Lib.ReduceAll

noncomputable section

namespace Cert.Proof.Finite

open Idealize.ShloMosaic Idealize.SL.Sem Cert.LibStats

/-- The scalar shape has exactly one index. -/
instance subsingleton_scalarIdx : Subsingleton Cert.Pre_finite_inputs.S_.Idx :=
  ⟨fun a b => funext fun d => d.elim0⟩

/-- An extended real whose absolute value (the larger of itself and its negation) lies strictly below the top
    element is a real number: at either infinity that absolute value is the top element itself. -/
theorem isReal_of_abs_lt_top {x : EReal} (h : max x (-x) < ⊤) : IsReal x := by
  induction x using EReal.rec with
  | bot => simp at h
  | top => simp at h
  | coe r => exact isReal_coe r

/-- One array's share of the precondition, read back, for an array of any shape: if the fold by "and" of the
    entrywise comparisons |x i| < (the pattern of +infinity) is 1, then every entry of `x` is a real number. -/
theorem real_of_all {s : Shape} {axes : List (Fin s.rank)} {x : FVec Ideal s .f32}
    {hb : Cert.Pre_finite_inputs.S_.BroadcastsInDim s (![] : Fin 0 → Fin s.rank)}
    {hr : s.ReducesTo axes Cert.Pre_finite_inputs.S_} {hu : 0 < Cert.Pre_finite_inputs.S_.numel}
    {j : Cert.Pre_finite_inputs.S_.Idx}
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1)
    (i : s.Idx) : IsReal (x i) := by
  -- the comparison at the entry i is 1
  have h1 := Host.reduce_andi_all _ _ hr hu j e i
  -- that comparison is: max (x i) (-(x i)) < (the value of the pattern 0x7F800000), as a bit
  have h2 : Ideal.cmp .olt (max (x i) (-(x i))) (Ideal.ofBits .f32 0x7F800000#32) = 1#1 := h1
  -- the pattern denotes the top element
  have h3 : Ideal.ofBits .f32 0x7F800000#32 = (⊤ : EReal) := by simp [Ideal.ofBits, Ideal.ieee]
  rw [h3] at h2
  apply isReal_of_abs_lt_top
  by_contra hn
  simp [Ideal.cmp, hn] at h2

/-- Under the precondition, on every device, every entry of every float argument array is a real number
    (one conjunct per float argument, in the order of the arguments; argument 1 is the integer edge table). -/
theorem args_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S50000x128.Idx, IsReal (m ((c.tc : Thread Cert.KernelIdeal.nD Cert.KernelIdeal.τ).loc Cert.KernelIdeal.main_arg0) i)) ∧
    (∀ i : Cert.KernelIdeal.S800000x128.Idx, IsReal (m ((c.tc : Thread Cert.KernelIdeal.nD Cert.KernelIdeal.τ).loc Cert.KernelIdeal.main_arg2) i)) ∧
    (∀ i : Cert.KernelIdeal.S256x128.Idx, IsReal (m ((c.tc : Thread Cert.KernelIdeal.nD Cert.KernelIdeal.τ).loc Cert.KernelIdeal.main_arg3) i)) ∧
    (∀ i : Cert.KernelIdeal.S128.Idx, IsReal (m ((c.tc : Thread Cert.KernelIdeal.nD Cert.KernelIdeal.τ).loc Cert.KernelIdeal.main_arg4) i)) ∧
    (∀ i : Cert.KernelIdeal.S128.Idx, IsReal (m ((c.tc : Thread Cert.KernelIdeal.nD Cert.KernelIdeal.τ).loc Cert.KernelIdeal.main_arg5) i)) ∧
    (∀ i : Cert.KernelIdeal.S128.Idx, IsReal (m ((c.tc : Thread Cert.KernelIdeal.nD Cert.KernelIdeal.τ).loc Cert.KernelIdeal.main_arg6) i)) ∧
    (∀ i : Cert.KernelIdeal.S128x128.Idx, IsReal (m ((c.tc : Thread Cert.KernelIdeal.nD Cert.KernelIdeal.τ).loc Cert.KernelIdeal.main_arg7) i)) ∧
    (∀ i : Cert.KernelIdeal.S128.Idx, IsReal (m ((c.tc : Thread Cert.KernelIdeal.nD Cert.KernelIdeal.τ).loc Cert.KernelIdeal.main_arg8) i)) ∧
    (∀ i : Cert.KernelIdeal.S128.Idx, IsReal (m ((c.tc : Thread Cert.KernelIdeal.nD Cert.KernelIdeal.τ).loc Cert.KernelIdeal.main_arg9) i)) ∧
    (∀ i : Cert.KernelIdeal.S128.Idx, IsReal (m ((c.tc : Thread Cert.KernelIdeal.nD Cert.KernelIdeal.τ).loc Cert.KernelIdeal.main_arg10) i)) ∧
    (∀ i : Cert.KernelIdeal.S256x128.Idx, IsReal (m ((c.tc : Thread Cert.KernelIdeal.nD Cert.KernelIdeal.τ).loc Cert.KernelIdeal.main_arg11) i)) ∧
    (∀ i : Cert.KernelIdeal.S128.Idx, IsReal (m ((c.tc : Thread Cert.KernelIdeal.nD Cert.KernelIdeal.τ).loc Cert.KernelIdeal.main_arg12) i)) ∧
    (∀ i : Cert.KernelIdeal.S128.Idx, IsReal (m ((c.tc : Thread Cert.KernelIdeal.nD Cert.KernelIdeal.τ).loc Cert.KernelIdeal.main_arg13) i)) ∧
    (∀ i : Cert.KernelIdeal.S128.Idx, IsReal (m ((c.tc : Thread Cert.KernelIdeal.nD Cert.KernelIdeal.τ).loc Cert.KernelIdeal.main_arg14) i)) ∧
    (∀ i : Cert.KernelIdeal.S128x128.Idx, IsReal (m ((c.tc : Thread Cert.KernelIdeal.nD Cert.KernelIdeal.τ).loc Cert.KernelIdeal.main_arg15) i)) ∧
    (∀ i : Cert.KernelIdeal.S128.Idx, IsReal (m ((c.tc : Thread Cert.KernelIdeal.nD Cert.KernelIdeal.τ).loc Cert.KernelIdeal.main_arg16) i)) ∧
    (∀ i : Cert.KernelIdeal.S128.Idx, IsReal (m ((c.tc : Thread Cert.KernelIdeal.nD Cert.KernelIdeal.τ).loc Cert.KernelIdeal.main_arg17) i)) ∧
    (∀ i : Cert.KernelIdeal.S128.Idx, IsReal (m ((c.tc : Thread Cert.KernelIdeal.nD Cert.KernelIdeal.τ).loc Cert.KernelIdeal.main_arg18) i)) ∧
    (∀ i : Cert.KernelIdeal.S128x1.Idx, IsReal (m ((c.tc : Thread Cert.KernelIdeal.nD Cert.KernelIdeal.τ).loc Cert.KernelIdeal.main_arg19) i)) ∧
    (∀ i : Cert.KernelIdeal.S1.Idx, IsReal (m ((c.tc : Thread Cert.KernelIdeal.nD Cert.KernelIdeal.τ).loc Cert.KernelIdeal.main_arg20) i)) := by
  -- the predicate's one-bit result, at the scalar shape's only index
  have h0 := congrFun (h c) ValueIdx.ix0
  -- unfold the printed predicate and split the "and"s of the twenty one-bit results
  simp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    andi, IntOp.andi_eq_one] at h0
  obtain ⟨⟨⟨⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩, e18⟩, e19⟩, e20⟩ := h0
  exact ⟨real_of_all e0, real_of_all e2, real_of_all e3, real_of_all e4, real_of_all e5, real_of_all e6, real_of_all e7, real_of_all e8, real_of_all e9, real_of_all e10, real_of_all e11, real_of_all e12, real_of_all e13, real_of_all e14, real_of_all e15, real_of_all e16, real_of_all e17, real_of_all e18, real_of_all e19, real_of_all e20⟩

/-- Every entry of float argument 0 is a real number. -/
theorem arg0_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S50000x128.Idx) :
    IsReal (m ((c.tc : Thread Cert.KernelIdeal.nD Cert.KernelIdeal.τ).loc Cert.KernelIdeal.main_arg0) i) :=
  (args_real m h c).1 i

/-- Every entry of float argument 2 is a real number. -/
theorem arg2_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S800000x128.Idx) :
    IsReal (m ((c.tc : Thread Cert.KernelIdeal.nD Cert.KernelIdeal.τ).loc Cert.KernelIdeal.main_arg2) i) :=
  (args_real m h c).2.1 i

/-- Every entry of float argument 3 is a real number. -/
theorem arg3_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256x128.Idx) :
    IsReal (m ((c.tc : Thread Cert.KernelIdeal.nD Cert.KernelIdeal.τ).loc Cert.KernelIdeal.main_arg3) i) :=
  (args_real m h c).2.2.1 i

/-- Every entry of float argument 4 is a real number. -/
theorem arg4_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg4) i) :=
  (args_real m h c).2.2.2.1 i

/-- Every entry of float argument 5 is a real number. -/
theorem arg5_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg5) i) :=
  (args_real m h c).2.2.2.2.1 i

/-- Every entry of float argument 6 is a real number. -/
theorem arg6_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg6) i) :=
  (args_real m h c).2.2.2.2.2.1 i

/-- Every entry of float argument 7 is a real number. -/
theorem arg7_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x128.Idx) :
    IsReal (m ((c.tc : Thread Cert.KernelIdeal.nD Cert.KernelIdeal.τ).loc Cert.KernelIdeal.main_arg7) i) :=
  (args_real m h c).2.2.2.2.2.2.1 i

/-- Every entry of float argument 8 is a real number. -/
theorem arg8_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg8) i) :=
  (args_real m h c).2.2.2.2.2.2.2.1 i

/-- Every entry of float argument 9 is a real number. -/
theorem arg9_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg9) i) :=
  (args_real m h c).2.2.2.2.2.2.2.2.1 i

/-- Every entry of float argument 10 is a real number. -/
theorem arg10_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg10) i) :=
  (args_real m h c).2.2.2.2.2.2.2.2.2.1 i

/-- Every entry of float argument 11 is a real number. -/
theorem arg11_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256x128.Idx) :
    IsReal (m ((c.tc : Thread Cert.KernelIdeal.nD Cert.KernelIdeal.τ).loc Cert.KernelIdeal.main_arg11) i) :=
  (args_real m h c).2.2.2.2.2.2.2.2.2.2.1 i

/-- Every entry of float argument 12 is a real number. -/
theorem arg12_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg12) i) :=
  (args_real m h c).2.2.2.2.2.2.2.2.2.2.2.1 i

/-- Every entry of float argument 13 is a real number. -/
theorem arg13_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg13) i) :=
  (args_real m h c).2.2.2.2.2.2.2.2.2.2.2.2.1 i

/-- Every entry of float argument 14 is a real number. -/
theorem arg14_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg14) i) :=
  (args_real m h c).2.2.2.2.2.2.2.2.2.2.2.2.2.1 i

/-- Every entry of float argument 15 is a real number. -/
theorem arg15_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x128.Idx) :
    IsReal (m ((c.tc : Thread Cert.KernelIdeal.nD Cert.KernelIdeal.τ).loc Cert.KernelIdeal.main_arg15) i) :=
  (args_real m h c).2.2.2.2.2.2.2.2.2.2.2.2.2.2.1 i

/-- Every entry of float argument 16 is a real number. -/
theorem arg16_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg16) i) :=
  (args_real m h c).2.2.2.2.2.2.2.2.2.2.2.2.2.2.2.1 i

/-- Every entry of float argument 17 is a real number. -/
theorem arg17_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg17) i) :=
  (args_real m h c).2.2.2.2.2.2.2.2.2.2.2.2.2.2.2.2.1 i

/-- Every entry of float argument 18 is a real number. -/
theorem arg18_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal (m ((c.tc : Thread Cert.KernelIdeal.nD Cert.KernelIdeal.τ).loc Cert.KernelIdeal.main_arg18) i) :=
  (args_real m h c).2.2.2.2.2.2.2.2.2.2.2.2.2.2.2.2.2.1 i

/-- Every entry of float argument 19 is a real number. -/
theorem arg19_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x1.Idx) :
    IsReal (m ((c.tc : Thread Cert.KernelIdeal.nD Cert.KernelIdeal.τ).loc Cert.KernelIdeal.main_arg19) i) :=
  (args_real m h c).2.2.2.2.2.2.2.2.2.2.2.2.2.2.2.2.2.2.1 i

/-- Every entry of float argument 20 is a real number. -/
theorem arg20_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1.Idx) :
    IsReal (m ((c.tc : Thread Cert.KernelIdeal.nD Cert.KernelIdeal.τ).loc Cert.KernelIdeal.main_arg20) i) :=
  (args_real m h c).2.2.2.2.2.2.2.2.2.2.2.2.2.2.2.2.2.2.2 i

end Cert.Proof.Finite
-- ==== Proof.Bridge.Chain.lean ====
import proofs.«110491_j38809324487019_2_alg».proof.Proof.Bridge.Stage1
import proofs.«110491_j38809324487019_2_alg».proof.Proof.Bridge.Stage2
import proofs.«110491_j38809324487019_2_alg».proof.Proof.Bridge.StageAgg
import proofs.«110491_j38809324487019_2_alg».proof.Proof.Bridge.Stage3
import proofs.«110491_j38809324487019_2_alg».proof.Proof.Bridge.Stage4
import proofs.«110491_j38809324487019_2_alg».proof.Proof.KI.StatsVal0
import proofs.«110491_j38809324487019_2_alg».proof.Proof.KI.StatsVal4
import proofs.«110491_j38809324487019_2_alg».proof.Proof.Finite

set_option maxRecDepth 16384

noncomputable section

namespace Cert.Bridge

open Idealize.ShloMosaic Idealize.ShloMosaic.TcCoe Idealize.ShloMosaic.ValueIdx Idealize.SL.Sem Cert.LibStats
open Cert.KernelIdeal.Hand Cert.ReferenceIdeal.Hand

/-! The two idealized programs compute the same two results: the five stage lemmas in a row, from the launch arrays (every float argument entry a real number, by the precondition) to the kernel program's two result buffers. The statistics the kernel program's first and fifth launches leave are the one-pass mean and variance of the launch's own pre-activation table, which is the table the stage lemmas name. -/

set_option maxHeartbeats 1000000 in
/-- The first launch's column means are the one-pass means of the first stage's table over the buffers it is entered with. -/
theorem stats1_mean (m : (ℓ : Loc Cert.KernelIdeal.nD Cert.KernelIdeal.τ Cert.KernelIdeal.sig) → Buf (Elt Ideal) ℓ) (c : Dev Cert.KernelIdeal.nD) (j : Fin 128) :
    (mean0Res (F := Ideal) (E1 m) c : Cert.KernelIdeal.S1x128.Idx → EReal) (ix2 0 j) = Spec.meanK (((1 / 800000 : ℝ) : ℝ) : EReal) (yKst1 m c) j :=
  mean0Res_col (E1 m) c j
set_option maxHeartbeats 1000000 in
/-- … and its column variances the one-pass variances. -/
theorem stats1_var (m : (ℓ : Loc Cert.KernelIdeal.nD Cert.KernelIdeal.τ Cert.KernelIdeal.sig) → Buf (Elt Ideal) ℓ) (c : Dev Cert.KernelIdeal.nD) (j : Fin 128) :
    (var0Res (F := Ideal) (E1 m) c : Cert.KernelIdeal.S1x128.Idx → EReal) (ix2 0 j) = Spec.varK (((1 / 800000 : ℝ) : ℝ) : EReal) (yKst1 m c) j :=
  var0Res_col (E1 m) c j
set_option maxHeartbeats 1000000 in
/-- The fifth launch's column means are the one-pass means of the third stage's table over the buffers it is entered with. -/
theorem stats3_mean (m : (ℓ : Loc Cert.KernelIdeal.nD Cert.KernelIdeal.τ Cert.KernelIdeal.sig) → Buf (Elt Ideal) ℓ) (c : Dev Cert.KernelIdeal.nD) (j : Fin 128) :
    (mean4Res (F := Ideal) (E9 m) c : Cert.KernelIdeal.S1x128.Idx → EReal) (ix2 0 j) = Spec.meanK (((1 / 50000 : ℝ) : ℝ) : EReal) (yKst3 m c) j :=
  mean4Res_col (E9 m) c j
set_option maxHeartbeats 1000000 in
/-- … and its column variances the one-pass variances. -/
theorem stats3_var (m : (ℓ : Loc Cert.KernelIdeal.nD Cert.KernelIdeal.τ Cert.KernelIdeal.sig) → Buf (Elt Ideal) ℓ) (c : Dev Cert.KernelIdeal.nD) (j : Fin 128) :
    (var4Res (F := Ideal) (E9 m) c : Cert.KernelIdeal.S1x128.Idx → EReal) (ix2 0 j) = Spec.varK (((1 / 50000 : ℝ) : ℝ) : EReal) (yKst3 m c) j :=
  var4Res_col (E9 m) c j

set_option maxHeartbeats 1000000 in
/-- On a core whose launch arrays the plain program's contents agree with, the kernel program's two result buffers
    hold the plain program's two results. -/
theorem bridge [hPre : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD)
    (V' : Valuation Cert.ReferenceIdeal.τ Cert.ReferenceIdeal.sig (Elt Ideal)) (hA : Agree m c V') :
    (U17 m kI c (Proc.devRef .tc Cert.KernelIdeal.main_v51_0) : Cert.KernelIdeal.S50000x128.Idx → EReal) = valO2 V'
      ∧ (U17 m kI c (Proc.devRef .tc Cert.KernelIdeal.main_v52) : Cert.KernelIdeal.S50000.Idx → EReal) = valAttn V' := by
  have s1 := stage1 m c (Cert.Proof.Finite.arg0_real m hpre c) (Cert.Proof.Finite.arg2_real m hpre c) (Cert.Proof.Finite.arg3_real m hpre c) (Cert.Proof.Finite.arg4_real m hpre c) (Cert.Proof.Finite.arg5_real m hpre c) (Cert.Proof.Finite.arg6_real m hpre c) V' hA
    (stats1_mean m c) (stats1_var m c)
  have s2 := stage2 m c V' hA (Cert.Proof.Finite.arg7_real m hpre c) (Cert.Proof.Finite.arg8_real m hpre c) (Cert.Proof.Finite.arg9_real m hpre c) (Cert.Proof.Finite.arg10_real m hpre c) s1.1 s1.2
  have sg := stageAgg m c V' hA s2.1 s2.2
  have s3 := stage3 m c (Cert.Proof.Finite.arg0_real m hpre c) (Cert.Proof.Finite.arg11_real m hpre c) (Cert.Proof.Finite.arg12_real m hpre c) (Cert.Proof.Finite.arg13_real m hpre c) (Cert.Proof.Finite.arg14_real m hpre c) V' hA sg.1 sg.2
    (stats3_mean m c) (stats3_var m c)
  have s4 := stage4 m c V' hA (Cert.Proof.Finite.arg15_real m hpre c) (Cert.Proof.Finite.arg16_real m hpre c) (Cert.Proof.Finite.arg17_real m hpre c) (Cert.Proof.Finite.arg18_real m hpre c) s3.1 s3.2
  exact ⟨(rdRes0 m kI c).trans s4.1, s4.2⟩

end Cert.Bridge

end
-- ==== Proof.Algebraic.lean ====
/-
  The two idealized programs end with equal results. The kernel program's run names its two result buffers by the
  end of its chain of buffer contents; walking the chain stage by stage — each fused stage's output table is the plain
  program's, because the pre-activation tables agree and are real, so the one-pass and two-pass statistics are the
  same numbers; the scatter-mean between the second and third stages is the same host computation on equal tables —
  identifies them with the plain program's composed result terms, which its own run ends at.
-/
import proofs.«110491_j38809324487019_2_alg».proof.Defs
import proofs.«110491_j38809324487019_2_alg».proof.Proof.Gen.Pre_finite_inputs
import proofs.«110491_j38809324487019_2_alg».proof.Proof.KI.Run
import proofs.«110491_j38809324487019_2_alg».proof.Proof.Ref.Value
import proofs.«110491_j38809324487019_2_alg».proof.Proof.Bridge.Chain

noncomputable section

namespace Cert.Proof

open Idealize.ShloMosaic Idealize.SL.Sem Cert.Bridge

/-- Agreement of the two launch memories on the arguments, as the stages take it. -/
theorem agree_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hc : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Agree m c (StableHlo.launchContents m' c) :=
  ⟨hc.1, hc.2.1, hc.2.2.1, hc.2.2.2.1, hc.2.2.2.2.1, hc.2.2.2.2.2.1, hc.2.2.2.2.2.2.1, hc.2.2.2.2.2.2.2.1, hc.2.2.2.2.2.2.2.2.1, hc.2.2.2.2.2.2.2.2.2.1, hc.2.2.2.2.2.2.2.2.2.2.1, hc.2.2.2.2.2.2.2.2.2.2.2.1, hc.2.2.2.2.2.2.2.2.2.2.2.2.1, hc.2.2.2.2.2.2.2.2.2.2.2.2.2.1, hc.2.2.2.2.2.2.2.2.2.2.2.2.2.2.1, hc.2.2.2.2.2.2.2.2.2.2.2.2.2.2.2.1, hc.2.2.2.2.2.2.2.2.2.2.2.2.2.2.2.2.1, hc.2.2.2.2.2.2.2.2.2.2.2.2.2.2.2.2.2.1, hc.2.2.2.2.2.2.2.2.2.2.2.2.2.2.2.2.2.2.1, hc.2.2.2.2.2.2.2.2.2.2.2.2.2.2.2.2.2.2.2.1, hc.2.2.2.2.2.2.2.2.2.2.2.2.2.2.2.2.2.2.2.2⟩

/-- At the ideal instance, from memories agreeing on the arguments, the kernel program and the plain program end with
    the same two results. -/
theorem algebraic : Cert.algebraic_KernelIdeal_ReferenceIdeal := by
  intro m ρ m' ρ' hpre hagree
  refine ⟨fun c => Cert.ReferenceIdeal.Hand.valO2 (StableHlo.launchContents m' c), fun c => Cert.ReferenceIdeal.Hand.valAttn (StableHlo.launchContents m' c), ?_, ?_⟩
  · refine (θ_run Cert.KernelIdeal.defs _ _).mono (fun r h c => ?_) (Cert.KernelIdeal.Hand.run (F := Ideal) m Cert.KernelIdeal.Hand.kI ρ)
    obtain ⟨h0, h1, hargs⟩ := h c
    obtain ⟨e0, e1⟩ := Cert.Bridge.bridge m hpre c _ (agree_of m m' c (hagree c))
    exact ⟨h0.trans e0, h1.trans e1, hargs⟩
  · exact (θ_run Cert.ReferenceIdeal.defs _ _).mono
      (fun r h c => ⟨(h c).1.trans (Cert.ReferenceIdeal.Hand.value_v120 _), (h c).2.1.trans (Cert.ReferenceIdeal.Hand.value_v131 _), (h c).2.2⟩)
      (Cert.ReferenceIdeal.Hand.run (F := Ideal) m' ρ')

end Cert.Proof

end
-- ==== Proof.lean ====
/-
  The certificate of a graph layer's fused kernels against its plain program.

  The layer gathers each edge's source-node features, runs two fused stages (a linear map, batch normalisation with the
  batch's own statistics, a rectifier) over the 800000 edges, averages the result into the 50000 destination nodes, runs
  two more such stages over the nodes, and ends with a logistic attention column. The kernel program computes each stage
  with two kernels — one accumulating the column sums and sums of squares block by block into the mean and the variance
  max(E[y²] − E[y]², 0), one applying the normalisation block by block — the plain program with whole-array operations and
  the two-pass variance. On the extended reals, with finite inputs, every table in sight is real, and the two programs'
  results are equal entry by entry.

  The parts: the three frames (each kernel program as its list of host stretches and kernel regions, every region a
  segment from its own proof data; the plain program by its run), the eight named constants of the idealization, and
  the equality of results.
-/
import proofs.«110491_j38809324487019_2_alg».proof.Defs
import proofs.«110491_j38809324487019_2_alg».proof.Proof.Gen.Kernel
import proofs.«110491_j38809324487019_2_alg».proof.Proof.Gen.KernelIdeal
import proofs.«110491_j38809324487019_2_alg».proof.Proof.Gen.ReferenceIdeal
import proofs.«110491_j38809324487019_2_alg».proof.Proof.Gen.Pre_finite_inputs
import proofs.«110491_j38809324487019_2_alg».proof.Proof.Frames
import proofs.«110491_j38809324487019_2_alg».proof.Proof.Preserves
import proofs.«110491_j38809324487019_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
